-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x512 : Shape := ⟨2, ![1024, 512]⟩
abbrev S1000000x64 : Shape := ⟨2, ![1000000, 64]⟩
abbrev S512x64 : Shape := ⟨2, ![512, 64]⟩
abbrev S3x64 : Shape := ⟨2, ![3, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S1024x512 : S_.BroadcastsInDim S1024x512 (![] : Fin 0 → Fin S1024x512.rank)
  reducesTo_S1024x512_S_d0_1 : S1024x512.ReducesTo [0, 1] S_

variable [Facts]

def fn_part2 {F : FTy → Type} [FloatOps F] (main_arg1 : IVec S1024x512 32) (main_v30 : IVec S_ 1) (main_v32 : IVec S1024x512 1) (main_c_12 : IVec S_ 32) : IVec S_ 1 :=
  let main_v33 : IVec S1024x512 32 := broadcastInDim S1024x512 ![] bcast_S_S1024x512 main_c_12
  let main_v34 : IVec S1024x512 1 := cmpi .sle main_arg1 main_v33
  let main_v35 : IVec S1024x512 1 := andi main_v32 main_v34
  let main_c_13 : IVec S_ 1 := constantI S_ 1 1#1
  let main_v36 : IVec S_ 1 := (fun x v => Host.reduce IntOp.andi x v reducesTo_S1024x512_S_d0_1 h_S_) main_v35 main_c_13
  let main_v37 : IVec S_ 1 := andi main_v30 main_v36
  main_v37

def fn_part1 {F : FTy → Type} [FloatOps F] (main_arg0 : IVec S1024x512 32) (main_arg1 : IVec S1024x512 32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S1024x512 32 := broadcastInDim S1024x512 ![] bcast_S_S1024x512 main_c_8
  let main_v25 : IVec S1024x512 1 := cmpi .sge main_arg0 main_v24
  let main_c_9 : IVec S_ 32 := constantI S_ 32 999999#32
  let main_v26 : IVec S1024x512 32 := broadcastInDim S1024x512 ![] bcast_S_S1024x512 main_c_9
  let main_v27 : IVec S1024x512 1 := cmpi .sle main_arg0 main_v26
  let main_v28 : IVec S1024x512 1 := andi main_v25 main_v27
  let main_c_10 : IVec S_ 1 := constantI S_ 1 1#1
  let main_v29 : IVec S_ 1 := (fun x v => Host.reduce IntOp.andi x v reducesTo_S1024x512_S_d0_1 h_S_) main_v28 main_c_10
  let main_v30 : IVec S_ 1 := andi main_v23 main_v29
  let main_c_11 : IVec S_ 32 := constantI S_ 32 0#32
  let main_v31 : IVec S1024x512 32 := broadcastInDim S1024x512 ![] bcast_S_S1024x512 main_c_11
  let main_v32 : IVec S1024x512 1 := cmpi .sge main_arg1 main_v31
  let main_c_12 : IVec S_ 32 := constantI S_ 32 2#32
  fn_part2 (F := F) main_arg1 main_v30 main_v32 main_c_12

def fn {F : FTy → Type} [FloatOps F] (main_arg0 : IVec S1024x512 32) (main_arg1 : IVec S1024x512 32) (main_arg2 : FVec F S1000000x64 .f32) (main_arg3 : FVec F S512x64 .f32) (main_arg4 : FVec F S3x64 .f32) (main_arg5 : FVec F S64 .f32) (main_arg6 : FVec F S64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg6 main_v13 main_v16
-- ==== Kernel.lean ====
abbrev S1024x512 : Shape := ⟨2, ![1024, 512]⟩
abbrev S1000000x64 : Shape := ⟨2, ![1000000, 64]⟩
abbrev S512x64 : Shape := ⟨2, ![512, 64]⟩
abbrev S3x64 : Shape := ⟨2, ![3, 64]⟩
abbrev S64 : Shape := ⟨1, ![64]⟩
abbrev S524288 : Shape := ⟨1, ![524288]⟩
abbrev S64x1000000 : Shape := ⟨2, ![64, 1000000]⟩
abbrev S512000x128 : Shape := ⟨2, ![512000, 128]⟩
abbrev S64x4096 : Shape := ⟨2, ![64, 4096]⟩
abbrev S4096x128 : Shape := ⟨2, ![4096, 128]⟩
abbrev S4096x64 : Shape := ⟨2, ![4096, 64]⟩
abbrev S524288x128 : Shape := ⟨2, ![524288, 128]⟩
abbrev S4x128 : Shape := ⟨2, ![4, 128]⟩
abbrev S4x128x128 : Shape := ⟨3, ![4, 128, 128]⟩
abbrev S4 : Shape := ⟨1, ![4]⟩
abbrev S_ : Shape := ⟨0, ![]⟩
abbrev S1x128 : Shape := ⟨2, ![1, 128]⟩
abbrev S128 : Shape := ⟨1, ![128]⟩
abbrev S16 : Shape := ⟨1, ![16]⟩
abbrev S1x16 : Shape := ⟨2, ![1, 16]⟩
abbrev S1x128x128 : Shape := ⟨3, ![1, 128, 128]⟩
abbrev S128x128 : Shape := ⟨2, ![128, 128]⟩
abbrev S1 : Shape := ⟨1, ![1]⟩
abbrev S1024x512x128 : Shape := ⟨3, ![1024, 512, 128]⟩
abbrev S1024x512x64 : Shape := ⟨3, ![1024, 512, 64]⟩
abbrev S8x512x128 : Shape := ⟨3, ![8, 512, 128]⟩
abbrev S8x512 : Shape := ⟨2, ![8, 512]⟩
abbrev S8x512x64 : Shape := ⟨3, ![8, 512, 64]⟩
abbrev S8x512x1 : Shape := ⟨3, ![8, 512, 1]⟩
abbrev S1x64 : Shape := ⟨2, ![1, 64]⟩
abbrev S1x1x64 : Shape := ⟨3, ![1, 1, 64]⟩
abbrev S1x512x64 : Shape := ⟨3, ![1, 512, 64]⟩

abbrev nBuf : Table → Nat
  | .hbm => 13
  | .local .tc .vmem => 18
  | .local .scVector .vmem => 2
  | _ => 0

abbrev bufTy : (tb : Table) → Fin (nBuf tb) → BufTy
  | .hbm, ⟨0, _⟩ => ⟨S1024x512, .i32⟩
  | .hbm, ⟨1, _⟩ => ⟨S1024x512, .i32⟩
  | .hbm, ⟨2, _⟩ => ⟨S1000000x64, .f32⟩
  | .hbm, ⟨3, _⟩ => ⟨S512x64, .f32⟩
  | .hbm, ⟨4, _⟩ => ⟨S3x64, .f32⟩
  | .hbm, ⟨5, _⟩ => ⟨S64, .f32⟩
  | .hbm, ⟨6, _⟩ => ⟨S64, .f32⟩
  | .hbm, ⟨7, _⟩ => ⟨S524288, .i32⟩
  | .hbm, ⟨8, _⟩ => ⟨S64x1000000, .f32⟩
  | .hbm, ⟨9, _⟩ => ⟨S512000x128, .f32⟩
  | .hbm, ⟨10, _⟩ => ⟨S524288x128, .f32⟩
  | .hbm, ⟨11, _⟩ => ⟨S1024x512x128, .f32⟩
  | .hbm, ⟨12, _⟩ => ⟨S1024x512x64, .f32⟩
  | .local .tc .vmem, ⟨0, _⟩ => ⟨S64x4096, .f32⟩
  | .local .tc .vmem, ⟨1, _⟩ => ⟨S64x4096, .f32⟩
  | .local .tc .vmem, ⟨2, _⟩ => ⟨S64x4096, .f32⟩
  | .local .tc .vmem, ⟨3, _⟩ => ⟨S64x4096, .f32⟩
  | .local .tc .vmem, ⟨4, _⟩ => ⟨S4096x128, .f32⟩
  | .local .tc .vmem, ⟨5, _⟩ => ⟨S4096x128, .f32⟩
  | .local .tc .vmem, ⟨6, _⟩ => ⟨S8x512x128, .f32⟩
  | .local .tc .vmem, ⟨7, _⟩ => ⟨S8x512x128, .f32⟩
  | .local .tc .vmem, ⟨8, _⟩ => ⟨S8x512, .i32⟩
  | .local .tc .vmem, ⟨9, _⟩ => ⟨S8x512, .i32⟩
  | .local .tc .vmem, ⟨10, _⟩ => ⟨S8x512, .i32⟩
  | .local .tc .vmem, ⟨11, _⟩ => ⟨S8x512, .i32⟩
  | .local .tc .vmem, ⟨12, _⟩ => ⟨S512x64, .f32⟩
  | .local .tc .vmem, ⟨13, _⟩ => ⟨S3x64, .f32⟩
  | .local .tc .vmem, ⟨14, _⟩ => ⟨S64, .f32⟩
  | .local .tc .vmem, ⟨15, _⟩ => ⟨S64, .f32⟩
  | .local .tc .vmem, ⟨16, _⟩ => ⟨S8x512x64, .f32⟩
  | .local .tc .vmem, ⟨17, _⟩ => ⟨S8x512x64, .f32⟩
  | .local .scVector .vmem, ⟨0, _⟩ => ⟨S4x128, .i32⟩
  | .local .scVector .vmem, ⟨1, _⟩ => ⟨S4x128x128, .f32⟩
  | _, _ => ⟨S1024x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v0_scv : Ref sig .scVector := ⟨.hbm, 7, rfl⟩
abbrev main_v2_scv : Ref sig .scVector := ⟨.hbm, 9, rfl⟩
abbrev main_v3_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg7_1 : Ref sig .tc := ⟨.vmem, 17, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c125_i32 : BitVec 32 := 125#32
  let v0 : BitVec 32 := Scalar.addi arg0 c125_i32
  let c244_i32 : BitVec 32 := 244#32
  let v1 : BitVec 32 := Scalar.minsi v0 c244_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32 : BitVec 32 := 0#32
  let v3 : BitVec 32 := Scalar.addi v2 c0_i32
  ![v3.toNat]
@[reducible] def k1_t1_loop : Scf.Loop 32 :=
  let c0_i32_2 : BitVec 32 := 0#32
  let c8_i32 : BitVec 32 := 8#32
  let v4 : BitVec 32 := Scalar.addi c0_i32_2 c8_i32
  let c1_i32 : BitVec 32 := 1#32
  ⟨c0_i32_2, v4, c1_i32⟩
def k1_off2 (k1_t1 : Fin k1_t1_loop.trips) : Fin 2 → Nat :=
  let c0_i32_47 : BitVec 32 := 0#32
  let v50 : Index := Scalar.indexCast c0_i32_47
  let c0_i32_2 : BitVec 32 := 0#32
  let c1_i32 : BitVec 32 := 1#32
  let arg9 : BitVec 32 := Scf.iv c0_i32_2 c1_i32 k1_t1
  let c16_i32 : BitVec 32 := 16#32
  let v49 : BitVec 32 := Scalar.muli arg9 c16_i32
  let v51 : Index := Scalar.indexCast v49
  ![0, v51.toNat]
@[reducible] def k1_t2_loop : Scf.Loop 32 :=
  let c0_i32_13 : BitVec 32 := 0#32
  let c32_i32 : BitVec 32 := 32#32
  let v12 : BitVec 32 := Scalar.addi c0_i32_13 c32_i32
  let c1_i32_14 : BitVec 32 := 1#32
  ⟨c0_i32_13, v12, c1_i32_14⟩
def k1_cond1 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32 : BitVec 32 := 4#32
  let v49 : BitVec 32 := Scalar.muli arg9 c4_i32
  let c0_i32_47 : BitVec 32 := 0#32
  let v50 : BitVec 32 := Scalar.addi v49 c0_i32_47
  let c1_i32_48 : BitVec 32 := 1#32
  let v51 : BitVec 32 := Scalar.addi v50 c1_i32_48
  let c128_i32 : BitVec 32 := 128#32
  let v52 : BitVec 1 := Scalar.cmpi .slt v51 c128_i32
  let c3_i32_49 : BitVec 32 := 3#32
  let v53 : BitVec 1 := Scalar.cmpi .sge v50 c3_i32_49
  let v54 : BitVec 1 := Scalar.andi v52 v53
  let v55 : BitVec 32 := Scalar.extui v54
  let c0_i32_50 : BitVec 32 := 0#32
  let v56 : BitVec 1 := Scalar.cmpi .ne v55 c0_i32_50
  v56

def k1_off3 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32 : BitVec 32 := 4#32
  let v49 : BitVec 32 := Scalar.muli arg9 c4_i32
  let c0_i32_47 : BitVec 32 := 0#32
  let v50 : BitVec 32 := Scalar.addi v49 c0_i32_47
  let c1_i32_149 : BitVec 32 := 1#32
  let v165 : BitVec 32 := Scalar.addi v50 c1_i32_149
  let c4_i32_150 : BitVec 32 := 4#32
  let v166 : BitVec 32 := Scalar.subi v165 c4_i32_150
  let c128_i32_151 : BitVec 32 := 128#32
  let v167 : BitVec 32 := Scalar.muli v166 c128_i32_151
  let v168 : BitVec 32 := Scalar.addi v2 v167
  let c0_i32_156 : BitVec 32 := 0#32
  ![v168.toNat, 0]
def k1_cond2 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32 : BitVec 32 := 4#32
  let v49 : BitVec 32 := Scalar.muli arg9 c4_i32
  let c0_i32_47 : BitVec 32 := 0#32
  let v50 : BitVec 32 := Scalar.addi v49 c0_i32_47
  let c1_i32_51 : BitVec 32 := 1#32
  let v57 : BitVec 32 := Scalar.addi v50 c1_i32_51
  let c128_i32_52 : BitVec 32 := 128#32
  let v58 : BitVec 1 := Scalar.cmpi .slt v57 c128_i32_52
  let v59 : BitVec 32 := Scalar.extui v58
  let c0_i32_53 : BitVec 32 := 0#32
  let v60 : BitVec 1 := Scalar.cmpi .ne v59 c0_i32_53
  v60

def k1_off4 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32 : BitVec 32 := 4#32
  let v49 : BitVec 32 := Scalar.muli arg9 c4_i32
  let c0_i32_47 : BitVec 32 := 0#32
  let v50 : BitVec 32 := Scalar.addi v49 c0_i32_47
  let c1_i32_149 : BitVec 32 := 1#32
  let v165 : BitVec 32 := Scalar.addi v50 c1_i32_149
  let c128_i32_150 : BitVec 32 := 128#32
  let v166 : BitVec 32 := Scalar.muli v165 c128_i32_150
  let v167 : BitVec 32 := Scalar.addi v2 v166
  ![v167.toNat]
@[reducible] def k1_t3_loop : Scf.Loop 32 :=
  let c0_i32_153 : BitVec 32 := 0#32
  let c8_i32_154 : BitVec 32 := 8#32
  let v168 : BitVec 32 := Scalar.addi c0_i32_153 c8_i32_154
  let c1_i32_155 : BitVec 32 := 1#32
  ⟨c0_i32_153, v168, c1_i32_155⟩
def k1_off5 (k1_t3 : Fin k1_t3_loop.trips) : Fin 2 → Nat :=
  let c1_i32_165 : BitVec 32 := 1#32
  let v177 : Index := Scalar.indexCast c1_i32_165
  let c0_i32_153 : BitVec 32 := 0#32
  let c1_i32_155 : BitVec 32 := 1#32
  let arg10 : BitVec 32 := Scf.iv c0_i32_153 c1_i32_155 k1_t3
  let c16_i32 : BitVec 32 := 16#32
  let v176 : BitVec 32 := Scalar.muli arg10 c16_i32
  let v178 : Index := Scalar.indexCast v176
  ![1, v178.toNat]
def k1_off6 (i : grid1.Coords) (k1_t2 : Fin k1_t2_loop.trips) (c0_i32_47 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32 : BitVec 32 := 4#32
  let v49 : BitVec 32 := Scalar.muli arg9 c4_i32
  let v50 : BitVec 32 := Scalar.addi v49 c0_i32_47
  let c128_i32_62 : BitVec 32 := 128#32
  let v68 : BitVec 32 := Scalar.muli v50 c128_i32_62
  let v69 : BitVec 32 := Scalar.addi v2 v68
  let c0_i32_67 : BitVec 32 := 0#32
  ![v69.toNat, 0]
def k1_cond3 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32_71 : BitVec 32 := 4#32
  let v78 : BitVec 32 := Scalar.muli arg9 c4_i32_71
  let c1_i32_72 : BitVec 32 := 1#32
  let v79 : BitVec 32 := Scalar.addi v78 c1_i32_72
  let c1_i32_73 : BitVec 32 := 1#32
  let v80 : BitVec 32 := Scalar.addi v79 c1_i32_73
  let c128_i32_74 : BitVec 32 := 128#32
  let v81 : BitVec 1 := Scalar.cmpi .slt v80 c128_i32_74
  let c3_i32_75 : BitVec 32 := 3#32
  let v82 : BitVec 1 := Scalar.cmpi .sge v79 c3_i32_75
  let v83 : BitVec 1 := Scalar.andi v81 v82
  let v84 : BitVec 32 := Scalar.extui v83
  let c0_i32_76 : BitVec 32 := 0#32
  let v85 : BitVec 1 := Scalar.cmpi .ne v84 c0_i32_76
  v85

def k1_off7 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32_71 : BitVec 32 := 4#32
  let v78 : BitVec 32 := Scalar.muli arg9 c4_i32_71
  let c1_i32_72 : BitVec 32 := 1#32
  let v79 : BitVec 32 := Scalar.addi v78 c1_i32_72
  let c1_i32_149 : BitVec 32 := 1#32
  let v165 : BitVec 32 := Scalar.addi v79 c1_i32_149
  let c4_i32_150 : BitVec 32 := 4#32
  let v166 : BitVec 32 := Scalar.subi v165 c4_i32_150
  let c128_i32_151 : BitVec 32 := 128#32
  let v167 : BitVec 32 := Scalar.muli v166 c128_i32_151
  let v168 : BitVec 32 := Scalar.addi v2 v167
  let c0_i32_156 : BitVec 32 := 0#32
  ![v168.toNat, 0]
def k1_cond4 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32_71 : BitVec 32 := 4#32
  let v78 : BitVec 32 := Scalar.muli arg9 c4_i32_71
  let c1_i32_72 : BitVec 32 := 1#32
  let v79 : BitVec 32 := Scalar.addi v78 c1_i32_72
  let c1_i32_77 : BitVec 32 := 1#32
  let v86 : BitVec 32 := Scalar.addi v79 c1_i32_77
  let c128_i32_78 : BitVec 32 := 128#32
  let v87 : BitVec 1 := Scalar.cmpi .slt v86 c128_i32_78
  let v88 : BitVec 32 := Scalar.extui v87
  let c0_i32_79 : BitVec 32 := 0#32
  let v89 : BitVec 1 := Scalar.cmpi .ne v88 c0_i32_79
  v89

def k1_off8 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32_71 : BitVec 32 := 4#32
  let v78 : BitVec 32 := Scalar.muli arg9 c4_i32_71
  let c1_i32_72 : BitVec 32 := 1#32
  let v79 : BitVec 32 := Scalar.addi v78 c1_i32_72
  let c1_i32_149 : BitVec 32 := 1#32
  let v165 : BitVec 32 := Scalar.addi v79 c1_i32_149
  let c128_i32_150 : BitVec 32 := 128#32
  let v166 : BitVec 32 := Scalar.muli v165 c128_i32_150
  let v167 : BitVec 32 := Scalar.addi v2 v166
  ![v167.toNat]
@[reducible] def k1_t4_loop : Scf.Loop 32 :=
  let c0_i32_153 : BitVec 32 := 0#32
  let c8_i32_154 : BitVec 32 := 8#32
  let v168 : BitVec 32 := Scalar.addi c0_i32_153 c8_i32_154
  let c1_i32_155 : BitVec 32 := 1#32
  ⟨c0_i32_153, v168, c1_i32_155⟩
def k1_off9 (k1_t4 : Fin k1_t4_loop.trips) : Fin 2 → Nat :=
  let c2_i32_165 : BitVec 32 := 2#32
  let v177 : Index := Scalar.indexCast c2_i32_165
  let c0_i32_153 : BitVec 32 := 0#32
  let c1_i32_155 : BitVec 32 := 1#32
  let arg10 : BitVec 32 := Scf.iv c0_i32_153 c1_i32_155 k1_t4
  let c16_i32 : BitVec 32 := 16#32
  let v176 : BitVec 32 := Scalar.muli arg10 c16_i32
  let v178 : Index := Scalar.indexCast v176
  ![2, v178.toNat]
def k1_cond5 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32_97 : BitVec 32 := 4#32
  let v107 : BitVec 32 := Scalar.muli arg9 c4_i32_97
  let c2_i32_98 : BitVec 32 := 2#32
  let v108 : BitVec 32 := Scalar.addi v107 c2_i32_98
  let c1_i32_99 : BitVec 32 := 1#32
  let v109 : BitVec 32 := Scalar.addi v108 c1_i32_99
  let c128_i32_100 : BitVec 32 := 128#32
  let v110 : BitVec 1 := Scalar.cmpi .slt v109 c128_i32_100
  let c3_i32_101 : BitVec 32 := 3#32
  let v111 : BitVec 1 := Scalar.cmpi .sge v108 c3_i32_101
  let v112 : BitVec 1 := Scalar.andi v110 v111
  let v113 : BitVec 32 := Scalar.extui v112
  let c0_i32_102 : BitVec 32 := 0#32
  let v114 : BitVec 1 := Scalar.cmpi .ne v113 c0_i32_102
  v114

def k1_off10 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32_97 : BitVec 32 := 4#32
  let v107 : BitVec 32 := Scalar.muli arg9 c4_i32_97
  let c2_i32_98 : BitVec 32 := 2#32
  let v108 : BitVec 32 := Scalar.addi v107 c2_i32_98
  let c1_i32_149 : BitVec 32 := 1#32
  let v165 : BitVec 32 := Scalar.addi v108 c1_i32_149
  let c4_i32_150 : BitVec 32 := 4#32
  let v166 : BitVec 32 := Scalar.subi v165 c4_i32_150
  let c128_i32_151 : BitVec 32 := 128#32
  let v167 : BitVec 32 := Scalar.muli v166 c128_i32_151
  let v168 : BitVec 32 := Scalar.addi v2 v167
  let c0_i32_156 : BitVec 32 := 0#32
  ![v168.toNat, 0]
def k1_cond6 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32_97 : BitVec 32 := 4#32
  let v107 : BitVec 32 := Scalar.muli arg9 c4_i32_97
  let c2_i32_98 : BitVec 32 := 2#32
  let v108 : BitVec 32 := Scalar.addi v107 c2_i32_98
  let c1_i32_103 : BitVec 32 := 1#32
  let v115 : BitVec 32 := Scalar.addi v108 c1_i32_103
  let c128_i32_104 : BitVec 32 := 128#32
  let v116 : BitVec 1 := Scalar.cmpi .slt v115 c128_i32_104
  let v117 : BitVec 32 := Scalar.extui v116
  let c0_i32_105 : BitVec 32 := 0#32
  let v118 : BitVec 1 := Scalar.cmpi .ne v117 c0_i32_105
  v118

def k1_off11 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32_97 : BitVec 32 := 4#32
  let v107 : BitVec 32 := Scalar.muli arg9 c4_i32_97
  let c2_i32_98 : BitVec 32 := 2#32
  let v108 : BitVec 32 := Scalar.addi v107 c2_i32_98
  let c1_i32_149 : BitVec 32 := 1#32
  let v165 : BitVec 32 := Scalar.addi v108 c1_i32_149
  let c128_i32_150 : BitVec 32 := 128#32
  let v166 : BitVec 32 := Scalar.muli v165 c128_i32_150
  let v167 : BitVec 32 := Scalar.addi v2 v166
  ![v167.toNat]
@[reducible] def k1_t5_loop : Scf.Loop 32 :=
  let c0_i32_153 : BitVec 32 := 0#32
  let c8_i32_154 : BitVec 32 := 8#32
  let v168 : BitVec 32 := Scalar.addi c0_i32_153 c8_i32_154
  let c1_i32_155 : BitVec 32 := 1#32
  ⟨c0_i32_153, v168, c1_i32_155⟩
def k1_off12 (k1_t5 : Fin k1_t5_loop.trips) : Fin 2 → Nat :=
  let c3_i32_165 : BitVec 32 := 3#32
  let v177 : Index := Scalar.indexCast c3_i32_165
  let c0_i32_153 : BitVec 32 := 0#32
  let c1_i32_155 : BitVec 32 := 1#32
  let arg10 : BitVec 32 := Scf.iv c0_i32_153 c1_i32_155 k1_t5
  let c16_i32 : BitVec 32 := 16#32
  let v176 : BitVec 32 := Scalar.muli arg10 c16_i32
  let v178 : Index := Scalar.indexCast v176
  ![3, v178.toNat]
def k1_cond7 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32_123 : BitVec 32 := 4#32
  let v136 : BitVec 32 := Scalar.muli arg9 c4_i32_123
  let c3_i32_124 : BitVec 32 := 3#32
  let v137 : BitVec 32 := Scalar.addi v136 c3_i32_124
  let c1_i32_125 : BitVec 32 := 1#32
  let v138 : BitVec 32 := Scalar.addi v137 c1_i32_125
  let c128_i32_126 : BitVec 32 := 128#32
  let v139 : BitVec 1 := Scalar.cmpi .slt v138 c128_i32_126
  let c3_i32_127 : BitVec 32 := 3#32
  let v140 : BitVec 1 := Scalar.cmpi .sge v137 c3_i32_127
  let v141 : BitVec 1 := Scalar.andi v139 v140
  let v142 : BitVec 32 := Scalar.extui v141
  let c0_i32_128 : BitVec 32 := 0#32
  let v143 : BitVec 1 := Scalar.cmpi .ne v142 c0_i32_128
  v143

def k1_off13 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32_123 : BitVec 32 := 4#32
  let v136 : BitVec 32 := Scalar.muli arg9 c4_i32_123
  let c3_i32_124 : BitVec 32 := 3#32
  let v137 : BitVec 32 := Scalar.addi v136 c3_i32_124
  let c1_i32_149 : BitVec 32 := 1#32
  let v165 : BitVec 32 := Scalar.addi v137 c1_i32_149
  let c4_i32_150 : BitVec 32 := 4#32
  let v166 : BitVec 32 := Scalar.subi v165 c4_i32_150
  let c128_i32_151 : BitVec 32 := 128#32
  let v167 : BitVec 32 := Scalar.muli v166 c128_i32_151
  let v168 : BitVec 32 := Scalar.addi v2 v167
  let c0_i32_156 : BitVec 32 := 0#32
  ![v168.toNat, 0]
def k1_cond8 (k1_t2 : Fin k1_t2_loop.trips) : BitVec 1 :=
  let c0_i32_13 : BitVec 32 := 0#32
  let c1_i32_14 : BitVec 32 := 1#32
  let arg9 : BitVec 32 := Scf.iv c0_i32_13 c1_i32_14 k1_t2
  let c4_i32_123 : BitVec 32 := 4#32
  let v136 : BitVec 32 := Scalar.muli arg9 c4_i32_123
  let c3_i32_124 : BitVec 32 := 3#32
  let v137 : BitVec 32 := Scalar.addi v136 c3_i32_124
  let c1_i32_129 : BitVec 32 := 1#32
  let v144 : BitVec 32 := Scalar.addi v137 c1_i32_129
  let c128_i32_130 : BitVec 32 := 128#32
  let v145 : BitVec 1 := Scalar.cmpi .slt v144 c128_i32_130
  let v146 : BitVec 32 := Scalar.extui v145
  let c0_i32_131 : BitVec 32 := 0#32
  let v147 : BitVec 1 := Scalar.cmpi .ne v146 c0_i32_131
  v147

def k1_off14 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_13 : BitVec 32 := 0#32
  let c1_i32_14 : BitVec 32 := 1#32
  let arg9 : BitVec 32 := Scf.iv c0_i32_13 c1_i32_14 k1_t2
  let c4_i32_123 : BitVec 32 := 4#32
  let v136 : BitVec 32 := Scalar.muli arg9 c4_i32_123
  let c3_i32_124 : BitVec 32 := 3#32
  let v137 : BitVec 32 := Scalar.addi v136 c3_i32_124
  let c1_i32_149 : BitVec 32 := 1#32
  let v165 : BitVec 32 := Scalar.addi v137 c1_i32_149
  let c128_i32_150 : BitVec 32 := 128#32
  let v166 : BitVec 32 := Scalar.muli v165 c128_i32_150
  let v167 : BitVec 32 := Scalar.addi v2 v166
  ![v167.toNat]
@[reducible] def k1_t6_loop : Scf.Loop 32 :=
  let c0_i32_153 : BitVec 32 := 0#32
  let c8_i32_154 : BitVec 32 := 8#32
  let v168 : BitVec 32 := Scalar.addi c0_i32_153 c8_i32_154
  let c1_i32_155 : BitVec 32 := 1#32
  ⟨c0_i32_153, v168, c1_i32_155⟩
def k1_off15 (k1_t6 : Fin k1_t6_loop.trips) : Fin 2 → Nat :=
  let c0_i32_165 : BitVec 32 := 0#32
  let v177 : Index := Scalar.indexCast c0_i32_165
  let c0_i32_153 : BitVec 32 := 0#32
  let c1_i32_155 : BitVec 32 := 1#32
  let arg10 : BitVec 32 := Scf.iv c0_i32_153 c1_i32_155 k1_t6
  let c16_i32 : BitVec 32 := 16#32
  let v176 : BitVec 32 := Scalar.muli arg10 c16_i32
  let v178 : Index := Scalar.indexCast v176
  ![0, v178.toNat]
def k1_off16 (i : grid1.Coords) (c15872_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let v13 : BitVec 32 := Scalar.addi v2 c15872_i32
  let c0_i32_20 : BitVec 32 := 0#32
  ![v13.toNat, 0]
abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x512 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8x512x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x512_S524288 : S1024x512.ShapeCasts S524288
  transposes_S1000000x64_S64x1000000_1_0 : S1000000x64.Transposes [1, 0] S64x1000000
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  transposes_S64x4096_p1_0_S4096x64 : S64x4096.Transposes [1, 0] S4096x64
  concatenates_S4096x64_S4096x64_S4096x128_d1 : Shape.Concatenates [S4096x64, S4096x64] S4096x128 1
  inb_S4096x128_S4096x128_0_0 : ∀ a, (![0, 0] : Fin 2 → Nat) a + S4096x128.size a ≤ S4096x128.size a
  h_S4096x128 : 0 < S4096x128.numel
  inb_S4x128_S1x128_0_0 : ∀ a, (![0, 0] : Fin 2 → Nat) a + S1x128.size a ≤ S4x128.size a
  squeezes_S1x128_S128 : S1x128.Squeezes S128
  h_S1x16 : 0 < S1x16.numel
  shapeCasts_S1x16_S16 : S1x16.ShapeCasts S16
  shapeCasts_S16_S1x16 : S16.ShapeCasts S1x16
  inb_S4x128x128_S1x128x128_0_0_0 : ∀ a, (![0, 0, 0] : Fin 3 → Nat) a + S1x128x128.size a ≤ S4x128x128.size a
  squeezes_S1x128x128_S128x128 : S1x128x128.Squeezes S128x128
  inb_S512000x128_S512000x128_0_0 : ∀ a, (![0, 0] : Fin 2 → Nat) a + S512000x128.size a ≤ S512000x128.size a
  inb_S4_S1_0 : ∀ a, (![0] : Fin 1 → Nat) a + S1.size a ≤ S4.size a
  squeezes_S1_S_ : S1.Squeezes S_
  gathers_S512000x128_S128x128 : S512000x128.Gathers 0 S128x128
  inb_S4x128x128_S1x128x128_1_0_0 : ∀ a, (![1, 0, 0] : Fin 3 → Nat) a + S1x128x128.size a ≤ S4x128x128.size a
  inb_S4_S1_1 : ∀ a, (![1] : Fin 1 → Nat) a + S1.size a ≤ S4.size a
  inb_S4x128_S1x128_1_0 : ∀ a, (![1, 0] : Fin 2 → Nat) a + S1x128.size a ≤ S4x128.size a
  inb_S4x128x128_S1x128x128_2_0_0 : ∀ a, (![2, 0, 0] : Fin 3 → Nat) a + S1x128x128.size a ≤ S4x128x128.size a
  inb_S4_S1_2 : ∀ a, (![2] : Fin 1 → Nat) a + S1.size a ≤ S4.size a
  inb_S4x128_S1x128_2_0 : ∀ a, (![2, 0] : Fin 2 → Nat) a + S1x128.size a ≤ S4x128.size a
  inb_S4x128x128_S1x128x128_3_0_0 : ∀ a, (![3, 0, 0] : Fin 3 → Nat) a + S1x128x128.size a ≤ S4x128x128.size a
  inb_S4_S1_3 : ∀ a, (![3] : Fin 1 → Nat) a + S1.size a ≤ S4.size a
  inb_S4x128_S1x128_3_0 : ∀ a, (![3, 0] : Fin 2 → Nat) a + S1x128.size a ≤ S4x128.size a
  shapeCasts_S524288x128_S1024x512x128 : S524288x128.ShapeCasts S1024x512x128
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  inb_S8x512_S8x512_0_0 : ∀ a, (![0, 0] : Fin 2 → Nat) a + S8x512.size a ≤ S8x512.size a
  h_S8x512 : 0 < S8x512.numel
  natLt_1_32 : 1 < 32
  shapeCasts_S8x512_S8x512x1 : S8x512.ShapeCasts S8x512x1
  slices_S8x512x128_o0_0_0_S8x512x64 : S8x512x128.Slices ![0, 0, 0] S8x512x64
  slices_S8x512x128_o0_0_64_S8x512x64 : S8x512x128.Slices ![0, 0, 64] S8x512x64
  broadcasts_S8x512x1_S8x512x64 : S8x512x1.Broadcasts S8x512x64
  inb_S3x64_S3x64_0_0 : ∀ a, (![0, 0] : Fin 2 → Nat) a + S3x64.size a ≤ S3x64.size a
  h_S3x64 : 0 < S3x64.numel
  slices_S3x64_o0_0_S1x64 : S3x64.Slices ![0, 0] S1x64
  shapeCasts_S1x64_S64 : S1x64.ShapeCasts S64
  slices_S3x64_o1_0_S1x64 : S3x64.Slices ![1, 0] S1x64
  shapeCasts_S64_S1x1x64 : S64.ShapeCasts S1x1x64
  broadcasts_S1x1x64_S8x512x64 : S1x1x64.Broadcasts S8x512x64
  slices_S3x64_o2_0_S1x64 : S3x64.Slices ![2, 0] S1x64
  inb_S512x64_S512x64_0_0 : ∀ a, (![0, 0] : Fin 2 → Nat) a + S512x64.size a ≤ S512x64.size a
  h_S512x64 : 0 < S512x64.numel
  shapeCasts_S512x64_S1x512x64 : S512x64.ShapeCasts S1x512x64
  broadcasts_S1x512x64_S8x512x64 : S1x512x64.Broadcasts S8x512x64
  reduces_S8x512x64_S8x512 : S8x512x64.Reduces [2] S8x512
  inb_S64_S64_0 : ∀ a, (![0] : Fin 1 → Nat) a + S64.size a ≤ S64.size a
  h_S64 : 0 < S64.numel
  inb_S8x512x64_S8x512x64_0_0_0 : ∀ a, (![0, 0, 0] : Fin 3 → Nat) a + S8x512x64.size a ≤ S8x512x64.size a
  h_S8x512x64 : 0 < S8x512x64.numel
  hcc1_scratch2 : 6 + S4.numel ≤ 31
  hcc1_scratch3 : 10 + S4.numel ≤ 31
  hcc1_scoped0 : 14 + S_.numel ≤ 31
  hcc1_scoped1 : 15 + S_.numel ≤ 31
  hcc1_scoped2 : 16 + S_.numel ≤ 31
  hcc1_scoped3 : 17 + S_.numel ≤ 31
  hcc1_scoped4 : 18 + S_.numel ≤ 31
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x4096.size a < S64x1000000.size a
  hwx0_0 : ∀ i : grid0.Coords, EltTy.bits .f32 = 32 ∨ (Rect.unit (s := S64x1000000) (fun a => cc0_transform_0 i a * S64x4096.size a) (fun a => (Pipeline.Clip.of (cc0_transform_0 i a) (S64x4096.size a) (S64x1000000.size a)).extent (S64x4096.size a)) fun a => Pipeline.Clip.inb (Pipeline.Clip.ok_of (hstart0_0 i a))).WholeWords (EltTy.packing .f32)
  hwxs0_0 : ∀ i : grid0.Coords, EltTy.bits .f32 = 32 ∨ (Rect.unit (s := S64x4096) (fun _ => 0) (fun a => (Pipeline.Clip.of (cc0_transform_0 i a) (S64x4096.size a) (S64x1000000.size a)).extent (S64x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x4096.size a < S64x1000000.size a
  hwx0_1 : ∀ i : grid0.Coords, EltTy.bits .f32 = 32 ∨ (Rect.unit (s := S64x1000000) (fun a => cc0_transform_1 i a * S64x4096.size a) (fun a => (Pipeline.Clip.of (cc0_transform_1 i a) (S64x4096.size a) (S64x1000000.size a)).extent (S64x4096.size a)) fun a => Pipeline.Clip.inb (Pipeline.Clip.ok_of (hstart0_1 i a))).WholeWords (EltTy.packing .f32)
  hwxs0_1 : ∀ i : grid0.Coords, EltTy.bits .f32 = 32 ∨ (Rect.unit (s := S64x4096) (fun _ => 0) (fun a => (Pipeline.Clip.of (cc0_transform_1 i a) (S64x4096.size a) (S64x1000000.size a)).extent (S64x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S512000x128.size a
  hwx0_2 : ∀ i : grid0.Coords, EltTy.bits .f32 = 32 ∨ (Rect.block (s := S512000x128) S4096x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S128.size a ≤ S524288.size a
  k1_t1_ok : k1_t1_loop.OK
  k1_off2_inb : ∀ k1_t1 : Fin k1_t1_loop.trips, ∀ a, (k1_off2 k1_t1) a + S1x16.size a ≤ S4x128.size a
  k1_t2_ok : k1_t2_loop.OK
  k1_off3_inb : ∀ (i : grid1.Coords) (k1_t2 : Fin k1_t2_loop.trips), ∀ (k1_h1 : k1_cond1 k1_t2 = 1#1), ∀ a, (k1_off3 i k1_t2) a + S128x128.size a ≤ S524288x128.size a
  k1_off4_inb : ∀ (i : grid1.Coords) (k1_t2 : Fin k1_t2_loop.trips), ∀ (k1_h2 : k1_cond2 k1_t2 = 1#1), ∀ a, (k1_off4 i k1_t2) a + S128.size a ≤ S524288.size a
  k1_t3_ok : ∀ k1_t2 : Fin k1_t2_loop.trips, ∀ (k1_h2 : k1_cond2 k1_t2 = 1#1), k1_t3_loop.OK
  k1_off5_inb : ∀ (k1_t2 : Fin k1_t2_loop.trips) (k1_t3 : Fin k1_t3_loop.trips), ∀ (k1_h2 : k1_cond2 k1_t2 = 1#1), ∀ a, (k1_off5 k1_t3) a + S1x16.size a ≤ S4x128.size a
  k1_off6_inb : ∀ (i : grid1.Coords) (k1_t2 : Fin k1_t2_loop.trips), ∀ (r : Fin 4), ∀ a, (k1_off6 i k1_t2 (BitVec.ofNat 32 r.val)) a + S128x128.size a ≤ S524288x128.size a
  k1_off7_inb : ∀ (i : grid1.Coords) (k1_t2 : Fin k1_t2_loop.trips), ∀ (k1_h3 : k1_cond3 k1_t2 = 1#1), ∀ a, (k1_off7 i k1_t2) a + S128x128.size a ≤ S524288x128.size a
  k1_off8_inb : ∀ (i : grid1.Coords) (k1_t2 : Fin k1_t2_loop.trips), ∀ (k1_h4 : k1_cond4 k1_t2 = 1#1), ∀ a, (k1_off8 i k1_t2) a + S128.size a ≤ S524288.size a
  k1_t4_ok : ∀ k1_t2 : Fin k1_t2_loop.trips, ∀ (k1_h4 : k1_cond4 k1_t2 = 1#1), k1_t4_loop.OK
  k1_off9_inb : ∀ (k1_t2 : Fin k1_t2_loop.trips) (k1_t4 : Fin k1_t4_loop.trips), ∀ (k1_h4 : k1_cond4 k1_t2 = 1#1), ∀ a, (k1_off9 k1_t4) a + S1x16.size a ≤ S4x128.size a
  k1_off10_inb : ∀ (i : grid1.Coords) (k1_t2 : Fin k1_t2_loop.trips), ∀ (k1_h5 : k1_cond5 k1_t2 = 1#1), ∀ a, (k1_off10 i k1_t2) a + S128x128.size a ≤ S524288x128.size a
  k1_off11_inb : ∀ (i : grid1.Coords) (k1_t2 : Fin k1_t2_loop.trips), ∀ (k1_h6 : k1_cond6 k1_t2 = 1#1), ∀ a, (k1_off11 i k1_t2) a + S128.size a ≤ S524288.size a
  k1_t5_ok : ∀ k1_t2 : Fin k1_t2_loop.trips, ∀ (k1_h6 : k1_cond6 k1_t2 = 1#1), k1_t5_loop.OK
  k1_off12_inb : ∀ (k1_t2 : Fin k1_t2_loop.trips) (k1_t5 : Fin k1_t5_loop.trips), ∀ (k1_h6 : k1_cond6 k1_t2 = 1#1), ∀ a, (k1_off12 k1_t5) a + S1x16.size a ≤ S4x128.size a
  k1_off13_inb : ∀ (i : grid1.Coords) (k1_t2 : Fin k1_t2_loop.trips), ∀ (k1_h7 : k1_cond7 k1_t2 = 1#1), ∀ a, (k1_off13 i k1_t2) a + S128x128.size a ≤ S524288x128.size a
  k1_off14_inb : ∀ (i : grid1.Coords) (k1_t2 : Fin k1_t2_loop.trips), ∀ (k1_h8 : k1_cond8 k1_t2 = 1#1), ∀ a, (k1_off14 i k1_t2) a + S128.size a ≤ S524288.size a
  k1_t6_ok : ∀ k1_t2 : Fin k1_t2_loop.trips, ∀ (k1_h8 : k1_cond8 k1_t2 = 1#1), k1_t6_loop.OK
  k1_off15_inb : ∀ (k1_t2 : Fin k1_t2_loop.trips) (k1_t6 : Fin k1_t6_loop.trips), ∀ (k1_h8 : k1_cond8 k1_t2 = 1#1), ∀ a, (k1_off15 k1_t6) a + S1x16.size a ≤ S4x128.size a
  k1_off16_inb : ∀ i : grid1.Coords, ∀ (r : Fin 4), ∀ a, (k1_off16 i (BitVec.ofNat 32 (15872 + 128 * r.val))) a + S128x128.size a ≤ S524288x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x512x128.size a ≤ S1024x512x128.size a
  hwx2_0 : ∀ i : grid2.Coords, EltTy.bits .f32 = 32 ∨ (Rect.block (s := S1024x512x128) S8x512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x512.size a ≤ S1024x512.size a
  hwx2_1 : ∀ i : grid2.Coords, EltTy.bits .i32 = 32 ∨ (Rect.block (s := S1024x512) S8x512.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x512.size a ≤ S1024x512.size a
  hwx2_2 : ∀ i : grid2.Coords, EltTy.bits .i32 = 32 ∨ (Rect.block (s := S1024x512) S8x512.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S512x64.size a
  hwx2_3 : ∀ i : grid2.Coords, EltTy.bits .f32 = 32 ∨ (Rect.block (s := S512x64) S512x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x64.size a ≤ S3x64.size a
  hwx2_4 : ∀ i : grid2.Coords, EltTy.bits .f32 = 32 ∨ (Rect.block (s := S3x64) S3x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x512x64.size a ≤ S1024x512x64.size a
  hwx2_7 : ∀ i : grid2.Coords, EltTy.bits .f32 = 32 ∨ (Rect.block (s := S1024x512x64) S8x512x64.size (cc2_transform_7 i) (hinb2_7 i)).WholeWords (EltTy.packing .f32)

variable [Facts₀]

abbrev cc1_scratch2 : DmaSems sig S4 := SemArray.consecutive 6 S4 hcc1_scratch2
abbrev cc1_scratch3 : DmaSems sig S4 := SemArray.consecutive 10 S4 hcc1_scratch3
abbrev cc1_scoped0 : DmaSems sig S_ := SemArray.consecutive 14 S_ hcc1_scoped0
abbrev cc1_scoped1 : DmaSems sig S_ := SemArray.consecutive 15 S_ hcc1_scoped1
abbrev cc1_scoped2 : DmaSems sig S_ := SemArray.consecutive 16 S_ hcc1_scoped2
abbrev cc1_scoped3 : DmaSems sig S_ := SemArray.consecutive 17 S_ hcc1_scoped3
abbrev cc1_scoped4 : DmaSems sig S_ := SemArray.consecutive 18 S_ hcc1_scoped4

abbrev win0_0 : Pipeline.Window sig grid0 :=
  Pipeline.Window.ofSpecClip (Memref.whole main_v1) S64x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S64x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v4) S8x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S8x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S8x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S512x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S3x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v5) S8x512x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1024x512 : Shape := ⟨2, ![1024, 512]⟩
abbrev S1000000x64 : Shape := ⟨2, ![1000000, 64]⟩
abbrev S512x64 : Shape := ⟨2, ![512, 64]⟩
abbrev S3x64 : Shape := ⟨2, ![3, 64]⟩
abbrev S64 : Shape := ⟨1, ![64]⟩
abbrev S_ : Shape := ⟨0, ![]⟩
abbrev S1024x512x1 : Shape := ⟨3, ![1024, 512, 1]⟩
abbrev S1 : Shape := ⟨1, ![1]⟩
abbrev S1x1x1 : Shape := ⟨3, ![1, 1, 1]⟩
abbrev S1024x512x64 : Shape := ⟨3, ![1024, 512, 64]⟩
abbrev S512 : Shape := ⟨1, ![512]⟩
abbrev S512x1 : Shape := ⟨2, ![512, 1]⟩
abbrev S1x1 : Shape := ⟨2, ![1, 1]⟩
abbrev S1x512x64 : Shape := ⟨3, ![1, 512, 64]⟩
abbrev S1x1x64 : Shape := ⟨3, ![1, 1, 64]⟩

abbrev nBuf : Space → Nat
  | .hbm => 110
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S1024x512, .i32⟩
  | .hbm, ⟨2, _⟩ => ⟨S1000000x64, .f32⟩
  | .hbm, ⟨3, _⟩ => ⟨S512x64, .f32⟩
  | .hbm, ⟨4, _⟩ => ⟨S3x64, .f32⟩
  | .hbm, ⟨5, _⟩ => ⟨S64, .f32⟩
  | .hbm, ⟨6, _⟩ => ⟨S64, .f32⟩
  | .hbm, ⟨7, _⟩ => ⟨S_, .i32⟩
  | .hbm, ⟨8, _⟩ => ⟨S1024x512, .i32⟩
  | .hbm, ⟨9, _⟩ => ⟨S1024x512, .i1⟩
  | .hbm, ⟨10, _⟩ => ⟨S_, .i32⟩
  | .hbm, ⟨11, _⟩ => ⟨S1024x512, .i32⟩
  | .hbm, ⟨12, _⟩ => ⟨S1024x512, .i32⟩
  | .hbm, ⟨13, _⟩ => ⟨S1024x512, .i32⟩
  | .hbm, ⟨14, _⟩ => ⟨S1024x512x1, .i32⟩
  | .hbm, ⟨15, _⟩ => ⟨S1, .i32⟩
  | .hbm, ⟨16, _⟩ => ⟨S_, .i32⟩
  | .hbm, ⟨17, _⟩ => ⟨S1024x512x1, .i32⟩
  | .hbm, ⟨18, _⟩ => ⟨S1024x512x1, .i1⟩
  | .hbm, ⟨19, _⟩ => ⟨S1x1x1, .i32⟩
  | .hbm, ⟨20, _⟩ => ⟨S1024x512x1, .i32⟩
  | .hbm, ⟨21, _⟩ => ⟨S1024x512x1, .i1⟩
  | .hbm, ⟨22, _⟩ => ⟨S1024x512x1, .i1⟩
  | .hbm, ⟨23, _⟩ => ⟨S_, .i1⟩
  | .hbm, ⟨24, _⟩ => ⟨S1024x512, .i1⟩
  | .hbm, ⟨25, _⟩ => ⟨S1024x512x64, .f32⟩
  | .hbm, ⟨26, _⟩ => ⟨S1024x512x64, .i1⟩
  | .hbm, ⟨27, _⟩ => ⟨S_, .f32⟩
  | .hbm, ⟨28, _⟩ => ⟨S1024x512x64, .f32⟩
  | .hbm, ⟨29, _⟩ => ⟨S1024x512x64, .f32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S1, .i32⟩
  | .hbm, ⟨40, _⟩ => ⟨S_, .i32⟩
  | .hbm, ⟨41, _⟩ => ⟨S512x1, .i32⟩
  | .hbm, ⟨42, _⟩ => ⟨S512x1, .i1⟩
  | .hbm, ⟨43, _⟩ => ⟨S1x1, .i32⟩
  | .hbm, ⟨44, _⟩ => ⟨S512x1, .i32⟩
  | .hbm, ⟨45, _⟩ => ⟨S512x1, .i1⟩
  | .hbm, ⟨46, _⟩ => ⟨S512x1, .i1⟩
  | .hbm, ⟨47, _⟩ => ⟨S_, .i1⟩
  | .hbm, ⟨48, _⟩ => ⟨S512, .i1⟩
  | .hbm, ⟨49, _⟩ => ⟨S512x64, .f32⟩
  | .hbm, ⟨50, _⟩ => ⟨S512x64, .i1⟩
  | .hbm, ⟨51, _⟩ => ⟨S_, .f32⟩
  | .hbm, ⟨52, _⟩ => ⟨S512x64, .f32⟩
  | .hbm, ⟨53, _⟩ => ⟨S512x64, .f32⟩
  | .hbm, ⟨54, _⟩ => ⟨S1x512x64, .f32⟩
  | .hbm, ⟨55, _⟩ => ⟨S_, .i32⟩
  | .hbm, ⟨56, _⟩ => ⟨S1024x512, .i32⟩
  | .hbm, ⟨57, _⟩ => ⟨S1024x512, .i1⟩
  | .hbm, ⟨58, _⟩ => ⟨S_, .i32⟩
  | .hbm, ⟨59, _⟩ => ⟨S1024x512, .i32⟩
  | .hbm, ⟨60, _⟩ => ⟨S1024x512, .i32⟩
  | .hbm, ⟨61, _⟩ => ⟨S1024x512, .i32⟩
  | .hbm, ⟨62, _⟩ => ⟨S1024x512x1, .i32⟩
  | .hbm, ⟨63, _⟩ => ⟨S1, .i32⟩
  | .hbm, ⟨64, _⟩ => ⟨S_, .i32⟩
  | .hbm, ⟨65, _⟩ => ⟨S1024x512x1, .i32⟩
  | .hbm, ⟨66, _⟩ => ⟨S1024x512x1, .i1⟩
  | .hbm, ⟨67, _⟩ => ⟨S1x1x1, .i32⟩
  | .hbm, ⟨68, _⟩ => ⟨S1024x512x1, .i32⟩
  | .hbm, ⟨69, _⟩ => ⟨S1024x512x1, .i1⟩
  | .hbm, ⟨70, _⟩ => ⟨S1024x512x1, .i1⟩
  | .hbm, ⟨71, _⟩ => ⟨S_, .i1⟩
  | .hbm, ⟨72, _⟩ => ⟨S1024x512, .i1⟩
  | .hbm, ⟨73, _⟩ => ⟨S1024x512x64, .f32⟩
  | .hbm, ⟨74, _⟩ => ⟨S1024x512x64, .i1⟩
  | .hbm, ⟨75, _⟩ => ⟨S_, .f32⟩
  | .hbm, ⟨76, _⟩ => ⟨S1024x512x64, .f32⟩
  | .hbm, ⟨77, _⟩ => ⟨S1024x512x64, .f32⟩
  | .hbm, ⟨78, _⟩ => ⟨S1024x512x64, .f32⟩
  | .hbm, ⟨79, _⟩ => ⟨S1024x512x64, .f32⟩
  | .hbm, ⟨80, _⟩ => ⟨S1024x512x64, .f32⟩
  | .hbm, ⟨81, _⟩ => ⟨S_, .f32⟩
  | .hbm, ⟨82, _⟩ => ⟨S1024x512, .f32⟩
  | .hbm, ⟨83, _⟩ => ⟨S1024x512x1, .f32⟩
  | .hbm, ⟨84, _⟩ => ⟨S_, .f32⟩
  | .hbm, ⟨85, _⟩ => ⟨S1024x512x1, .f32⟩
  | .hbm, ⟨86, _⟩ => ⟨S1024x512x1, .f32⟩
  | .hbm, ⟨87, _⟩ => ⟨S1024x512x64, .f32⟩
  | .hbm, ⟨88, _⟩ => ⟨S1024x512x64, .f32⟩
  | .hbm, ⟨89, _⟩ => ⟨S1024x512x64, .f32⟩
  | .hbm, ⟨90, _⟩ => ⟨S_, .f32⟩
  | .hbm, ⟨91, _⟩ => ⟨S1024x512, .f32⟩
  | .hbm, ⟨92, _⟩ => ⟨S1024x512x1, .f32⟩
  | .hbm, ⟨93, _⟩ => ⟨S_, .f32⟩
  | .hbm, ⟨94, _⟩ => ⟨S1024x512x1, .f32⟩
  | .hbm, ⟨95, _⟩ => ⟨S1024x512x1, .f32⟩
  | .hbm, ⟨96, _⟩ => ⟨S1024x512x64, .f32⟩
  | .hbm, ⟨97, _⟩ => ⟨S1024x512x64, .f32⟩
  | .hbm, ⟨98, _⟩ => ⟨S_, .f32⟩
  | .hbm, ⟨99, _⟩ => ⟨S1024x512x1, .f32⟩
  | .hbm, ⟨100, _⟩ => ⟨S1024x512x1, .f32⟩
  | .hbm, ⟨101, _⟩ => ⟨S1024x512x1, .f32⟩
  | .hbm, ⟨102, _⟩ => ⟨S1024x512x64, .f32⟩
  | .hbm, ⟨103, _⟩ => ⟨S1024x512x64, .f32⟩
  | .hbm, ⟨104, _⟩ => ⟨S1x1x64, .f32⟩
  | .hbm, ⟨105, _⟩ => ⟨S1024x512x64, .f32⟩
  | .hbm, ⟨106, _⟩ => ⟨S1024x512x64, .f32⟩
  | .hbm, ⟨107, _⟩ => ⟨S1x1x64, .f32⟩
  | .hbm, ⟨108, _⟩ => ⟨S1024x512x64, .f32⟩
  | .hbm, ⟨109, _⟩ => ⟨S1024x512x64, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_cst_1 : Ref sig .tc := ⟨.hbm, 90, rfl⟩
abbrev main_v15 : Ref sig .tc := ⟨.hbm, 91, rfl⟩
abbrev main_v16 : Ref sig .tc := ⟨.hbm, 92, rfl⟩
abbrev main_cst_2 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_3 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  bcast_S1024x512_S1024x512x1_0_1 : S1024x512.BroadcastsInDim S1024x512x1 (![0, 1] : Fin 2 → Fin S1024x512x1.rank)
  bcast_S_S1024x512x1 : S_.BroadcastsInDim S1024x512x1 (![] : Fin 0 → Fin S1024x512x1.rank)
  bcast_S1_S1x1x1_2 : S1.BroadcastsInDim S1x1x1 (![2] : Fin 1 → Fin S1x1x1.rank)
  bcast_S1x1x1_S1024x512x1_0_1_2 : S1x1x1.BroadcastsInDim S1024x512x1 (![0, 1, 2] : Fin 3 → Fin S1024x512x1.rank)
  reducesTo_S1024x512x1_S1024x512_d2 : S1024x512x1.ReducesTo [2] S1024x512
  h_S_ : 0 < S_.numel
  bcast_S1024x512_S1024x512x64_0_1 : S1024x512.BroadcastsInDim S1024x512x64 (![0, 1] : Fin 2 → Fin S1024x512x64.rank)
  bcast_S_S1024x512x64 : S_.BroadcastsInDim S1024x512x64 (![] : Fin 0 → Fin S1024x512x64.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  bcast_S512_S512x64_0 : S512.BroadcastsInDim S512x64 (![0] : Fin 1 → Fin S512x64.rank)
  bcast_S_S512x64 : S_.BroadcastsInDim S512x64 (![] : Fin 0 → Fin S512x64.rank)
  bcast_S512x64_S1x512x64_1_2 : S512x64.BroadcastsInDim S1x512x64 (![1, 2] : Fin 2 → Fin S1x512x64.rank)
  bcast_S1x512x64_S1024x512x64_0_1_2 : S1x512x64.BroadcastsInDim S1024x512x64 (![0, 1, 2] : Fin 3 → Fin S1024x512x64.rank)
  reducesTo_S1024x512x64_S1024x512_d2 : S1024x512x64.ReducesTo [2] S1024x512
  bcast_S1024x512x1_S1024x512x64_0_1_2 : S1024x512x1.BroadcastsInDim S1024x512x64 (![0, 1, 2] : Fin 3 → Fin S1024x512x64.rank)
  bcast_S64_S1x1x64_2 : S64.BroadcastsInDim S1x1x64 (![2] : Fin 1 → Fin S1x1x64.rank)
  bcast_S1x1x64_S1024x512x64_0_1_2 : S1x1x64.BroadcastsInDim S1024x512x64 (![0, 1, 2] : Fin 3 → Fin S1024x512x64.rank)
  gather_S1000000x64_S1024x512x1_S1024x512x64_2_0_n_n_0_2_164_wf : GatherDims.WF S1000000x64 S1024x512x1 S1024x512x64 [2] [0] [] [0] [] 2 ![1, 64]
  gather_S512x64_S512x1_S512x64_1_0_n_n_0_1_164_wf : GatherDims.WF S512x64 S512x1 S512x64 [1] [0] [] [0] [] 1 ![1, 64]
  gather_S3x64_S1024x512x1_S1024x512x64_2_0_n_n_0_2_164_wf : GatherDims.WF S3x64 S1024x512x1 S1024x512x64 [2] [0] [] [0] [] 2 ![1, 64]

variable [Facts₀]

def gather_S1000000x64_S1024x512x1_S1024x512x64_2_0_n_n_0_2_164 : GatherDims S1000000x64 S1024x512x1 S1024x512x64 where
  offsetDims := [2]
  collapsedSliceDims := [0]
  operandBatchingDims := []
  startIndicesBatchingDims := []
  startIndexMap := [0]
  indexVectorDim := 2
  sliceSizes := ![1, 64]
  wf := gather_S1000000x64_S1024x512x1_S1024x512x64_2_0_n_n_0_2_164_wf
def gather_S512x64_S512x1_S512x64_1_0_n_n_0_1_164 : GatherDims S512x64 S512x1 S512x64 where
  offsetDims := [1]
  collapsedSliceDims := [0]
  operandBatchingDims := []
  startIndicesBatchingDims := []
  startIndexMap := [0]
  indexVectorDim := 1
  sliceSizes := ![1, 64]
  wf := gather_S512x64_S512x1_S512x64_1_0_n_n_0_1_164_wf
def gather_S3x64_S1024x512x1_S1024x512x64_2_0_n_n_0_2_164 : GatherDims S3x64 S1024x512x1 S1024x512x64 where
  offsetDims := [2]
  collapsedSliceDims := [0]
  operandBatchingDims := []
  startIndicesBatchingDims := []
  startIndexMap := [0]
  indexVectorDim := 2
  sliceSizes := ![1, 64]
  wf := gather_S3x64_S1024x512x1_S1024x512x64_2_0_n_n_0_2_164_wf

class Facts : Prop extends Facts₀ where

variable [Facts]
-- ==== Proof.KBase.lean ====
/-
  The kernel program as the SparseCore launch theorem reads it, and the proof's resource algebra: the launch
  handshakes' rounds, the TensorCore pipelines' staging cells' rounds, and the counters of the tiles' own
  local copies, side by side. Nothing here depends on the float instance.
-/
import proofs.«205025_g42520176230720_cont_8to1_b_1509_29_alg».proof.KernelIdeal
import proofs.«205025_g42520176230720_cont_8to1_b_1509_29_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Base

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The label signature under the SparseCore calls: the kernels' labels and the two pipelines'. -/
abbrev ΛP : Labels := Pipeline.Sig Λ₀ (Fin 2) fun p => (pcfgs (F := F) p).Adm
/-- The one SparseCore call. -/
abbrev K : SparseCore.Cfg τ sig (ΛP (F := F)) 1 := sc (F := F)
/-- The body table under the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the counters of the tiles' local copies. -/
abbrev UU : Type := UH × (UP × Counters)

/-- The handshakes' component, the left factor. -/
abbrev EH : Emb UH (MT nD τ sig (HIx 1) (Elt F) ℕ UU ℕ) := embL
/-- The staging cells' component, the left factor of the right factor. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-- The launch element splits into the handshakes', the staging cells' and the counters' parts. -/
theorem ownU_split (a : UH) (b : UP) (c : Counters) :
    (ownU (a, (b, c)) : sProp (MT nD τ sig (HIx 1) (Elt F) ℕ UU ℕ))
      ⊢ iprop(BI.own (EH (F := F) a) ∗ BI.own (EP (F := F) b) ∗ BI.own (((Emb.inr : Emb Counters (UP × Counters)).trans embR : Emb Counters (MT nD τ sig (HIx 1) (Elt F) ℕ UU ℕ)) c)) := by
  iintro H
  ihave H' := (ownU_pair (nD := nD) (τ := τ) (sig := sig) (Ix := HIx 1) (Val := Elt F) (Name := ℕ) (Lvl := ℕ) a (b, c)) $$ H
  icases H' with ⟨Ha, Hbc⟩
  isplitl [Ha]; · iexact Ha
  iapply (own_pair_emb (embR : Emb (UP × Counters) (MT nD τ sig (HIx 1) (Elt F) ℕ UU ℕ)) b c)
  iexact Hbc

/-! ## The arrays -/

/-- The seven arguments, the host's and the kernels' intermediate arrays and the result, as the TensorCore names them. -/
abbrev aLoc (d : Dev nD) (b : Ref sig .tc) : Loc nD τ sig := (SparseCore.T d).loc b

end Cert.KernelIdeal.Base

end
-- ==== Proof.TileDefs.lean ====
/-
  The tile's share of the lookup: which rows of the flattened index array and of the gathered array a vector
  subcore works on, the rewrite it applies to each index, the array the gather produces, and what the launch hands
  the tile and takes back. Nothing here depends on the float instance.
-/
import proofs.«205025_g42520176230720_cont_8to1_b_1509_29_alg».proof.Proof.KBase

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile and its rows -/

/-- The SparseCore and the vector subcore that grid point `L` names, and their thread on device `d`. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The first of the tile's 16384 consecutive rows: the offset of its first index block. -/
abbrev row0 (L : grid1.Coords) : Nat := k1_off1 L 0

theorem row0_eq (L : grid1.Coords) : row0 L = 32768 * (L 1).val + 16384 * (L 0).val := by
  unfold row0; rw [k1_off1_eq]; rfl

theorem row0_le (L : grid1.Coords) : row0 L + 16384 ≤ 524288 := by
  rw [row0_eq]
  have h0 : (L 0).val < 2 := (L 0).isLt
  have h1 : (L 1).val < 16 := (L 1).isLt
  omega

theorem srcRect_inb (L : grid1.Coords) : ∀ a, (k1_off1 L) a + (![16384] : Fin 1 → Nat) a ≤ S524288.size a :=
  Fin.forall_fin_one.mpr (row0_le L)

theorem outRect_inb (L : grid1.Coords) : ∀ a, (![row0 L, 0] : Fin 2 → Nat) a + (![16384, 128] : Fin 2 → Nat) a ≤ S524288x128.size a :=
  Fin.forall_fin_two.mpr ⟨row0_le L, Nat.le_refl _⟩

/-- The tile's 16384 entries of the flattened index array. -/
abbrev srcRect (L : grid1.Coords) : Rect S524288 := Rect.unit (s := S524288) (k1_off1 L) ![16384] (srcRect_inb L)
/-- The tile's 16384 rows, all 128 columns, of the gathered array. -/
abbrev outRect (L : grid1.Coords) : Rect S524288x128 := Rect.unit (s := S524288x128) ![row0 L, 0] ![16384, 128] (outRect_inb L)

def srcRows (L : grid1.Coords) : Finset S524288.Idx := (srcRect L).set
def outRows (L : grid1.Coords) : Finset S524288x128.Idx := (outRect L).set

/-! ## The index rewrite and the gathered array -/

/-- What the kernel stores back over an index `x`: `x - 512000` where `x ≥ 512000` (signed), else `x`;
    spelt lane by lane as the body computes it. -/
def fixIdx (x : BitVec 32) : BitVec 32 :=
  IntOp.subi x (IntOp.muli (Scalar.select (IntOp.cmpi .sge x 512000#32) 1#32 0#32) 512000#32)

def srcIx (n : Fin 524288) : S524288.Idx := fun a => match a with
  | ⟨0, _⟩ => n
  | ⟨k + 1, h⟩ => absurd h (Nat.not_lt.2 (Nat.le_add_left _ _))

def tabIx (r : Fin 512000) (c : Fin 128) : S512000x128.Idx := fun a => match a with
  | ⟨0, _⟩ => r
  | ⟨1, _⟩ => c
  | ⟨k + 2, h⟩ => absurd h (Nat.not_lt.2 (Nat.le_add_left _ _))

/-- Row `n` of the gathered array is row `fixIdx (s n)` of the table (reduced into the table's 512000 rows, which
    changes nothing where the rewritten index is in range). -/
def gath (d : Dev nD) (s : Buf (Elt F) (aLoc d main_v0)) (f2 : Buf (Elt F) (aLoc d main_v2)) : Buf (Elt F) (aLoc d main_v3) :=
  fun j => f2 (tabIx ⟨(fixIdx (s (srcIx (j 0)))).toNat % 512000, Nat.mod_lt _ (by decide)⟩ (j 1))

/-! ## What the tile is handed and hands back -/

/-- Handed to tile `L`: a read share of the whole index array at `s`, a read share of the whole table at `f2`, and
    its rows of the gathered array outright, whatever they hold. -/
def goRes (d : Dev nD) (L : grid1.Coords) (q0 q2 : PosShare TreeShare)
    (s : Buf (Elt F) (aLoc d main_v0)) (f2 : Buf (Elt F) (aLoc d main_v2)) : sProp 𝕄 :=
  iprop((aLoc d main_v0 ↦{q0} s) ∗ (aLoc d main_v2 ↦{q2} f2) ∗ ∃ f3, aLoc d main_v3 ↦[outRows L]{fullShare} f3)

/-- Handed back: the two read shares, and the tile's rows of the gathered array holding the gathered rows. -/
def tdRes (d : Dev nD) (L : grid1.Coords) (q0 q2 : PosShare TreeShare)
    (s : Buf (Elt F) (aLoc d main_v0)) (f2 : Buf (Elt F) (aLoc d main_v2)) : sProp 𝕄 :=
  iprop((aLoc d main_v0 ↦{q0} s) ∗ (aLoc d main_v2 ↦{q2} f2) ∗ aLoc d main_v3 ↦[outRows L]{fullShare} gath d s f2)

end Cert.KernelIdeal.Tile

end
-- ==== Proof.RegDefs.lean ====
/-
  The two TensorCore regions of the program — the pairing of the transposed table's halves before the SparseCore
  call, the finishing pass after it — as thread states: what each is entered holding and what it leaves, with the
  value of its result. Generic in the float instance.
-/
import proofs.«205025_g42520176230720_cont_8to1_b_1509_29_alg».proof.Proof.KBase
import proofs.«205025_g42520176230720_cont_8to1_b_1509_29_alg».proof.Proof.Gen.KernelIdeal.Launch
import proofs.«205025_g42520176230720_cont_8to1_b_1509_29_alg».proof.Proof.Gen.KernelIdeal.Points
import proofs.«205025_g42520176230720_cont_8to1_b_1509_29_alg».proof.Proof.Gen.KernelIdeal.Skeleton
import Idealize.ShloMosaic.Lib.Pipeline.Regions
import Idealize.ShloMosaic.Lib.SparseCore.Launch
import Idealize.ShloMosaic.Lib.Tactic
import Idealize.ShloMosaic.Lib.ValueIdx

noncomputable section

namespace Cert.KernelIdeal.Reg

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

/-! ## The pipelines' tables and the thread state both regions carry -/

/-- Neither pallas_call has a prefetched table. -/
abbrev adm : (p : Fin 2) → (pcfgs (F := F) p).Adm := fun p => (cfgs p).toPCfg_adm

/-- What the TensorCore owes the SparseCore handshakes before call `n`, its recorded pairs bounded: the first
    conjunct of the launch's state of the TensorCore before call `n`, verbatim. -/
def tcOwes (d : Dev nD) (n : ℕ) : sProp 𝕄 :=
  iprop(∃ W, ⌜(K (F := F)).WBelow (T d) W (8 * n)⌝ ∗ owes (T d) ((K (F := F)).Otc d n) W)

/-! ## Region 0: the pairing of the transposed table's two halves -/

/-- Row `r` of the paired table holds row `r` of the table in its first 64 columns and, where that row exists,
    row `512000 + r` in its last 64; nothing is said of the other half-rows. Over the transposed table `t`. -/
def PairOK (t : Vec F S64x1000000 .f32) (f2 : Vec F S512000x128 .f32) : Prop :=
  ∀ (i : S512000x128.Idx) (j : S64x1000000.Idx),
    ((i 1).val < 64 → (j 0).val = (i 1).val → (j 1).val = (i 0).val → f2 i = t j)
    ∧ ((i 0).val < 488000 → 64 ≤ (i 1).val → (j 0).val + 64 = (i 1).val → (j 1).val = 512000 + (i 0).val → f2 i = t j)

/-- Region 0 is entered holding the transposed table at `t`, the paired table at any contents, and the debts. -/
def pairPre (d : Dev nD) (n : ℕ) (t : Vec F S64x1000000 .f32) (f2 : Vec F S512000x128 .f32) : sProp 𝕄 :=
  iprop((aLoc d main_v1 ↦{fullShare} t) ∗ (aLoc d main_v2 ↦{fullShare} f2) ∗ tcOwes (F := F) d n)

/-- It leaves the transposed table as it was and the paired table at contents that pair it. -/
def pairPost (d : Dev nD) (n : ℕ) (t : Vec F S64x1000000 .f32) : sProp 𝕄 :=
  iprop((aLoc d main_v1 ↦{fullShare} t) ∗ (∃ f2 : Vec F S512000x128 .f32, ⌜PairOK t f2⌝ ∗ (aLoc d main_v2 ↦{fullShare} f2)) ∗ tcOwes (F := F) d n)

/-! ## Region 2: the finishing pass -/

/-- What the finishing body stores, as a term of the blocks it loads: the gathered rows' block, the indices' and the
    segment ids' blocks, the position table, the segment table, the scale and the shift. -/
def FinBlk (X0 : Vec F S8x512x128 .f32) (X1 X2 : Vec F S8x512 .i32) (X3 : Vec F S512x64 .f32) (X4 : Vec F S3x64 .f32)
    (X5 X6 : Vec F S64 .f32) : FVec F S8x512x64 .f32 :=
  k2_pay1 (k2_pay2 X0 X1) (k2_pay3 X2) (k2_pay4 X4 X2) (k2_pay5 X4) (k2_pay6 X4) X3 X5 X6

/-- The result array as ONE function of the region's inputs: at batch row `b` the stored term of the blocks of the
    eight batch rows `8 (b / 8) ‥ 8 (b / 8) + 7`, read at row `b % 8`. -/
def Finish (x : Vec F S1024x512x128 .f32) (a0 a1 : Vec F S1024x512 .i32) (a3 : Vec F S512x64 .f32) (a4 : Vec F S3x64 .f32)
    (a5 a6 : Vec F S64 .f32) : Vec F S1024x512x64 .f32 := fun i =>
  have hb (j : Fin 8) : 8 * ((i 0).val / 8) + j.val < 1024 := by have h : (i 0).val < 1024 := (i 0).isLt; omega
  FinBlk (fun j => x (ix3 ⟨8 * ((i 0).val / 8) + (j 0).val, hb (j 0)⟩ (j 1) (j 2)))
    (fun j => a0 (ix2 ⟨8 * ((i 0).val / 8) + (j 0).val, hb (j 0)⟩ (j 1)))
    (fun j => a1 (ix2 ⟨8 * ((i 0).val / 8) + (j 0).val, hb (j 0)⟩ (j 1)))
    a3 a4 a5 a6 (ix3 ⟨(i 0).val % 8, Nat.mod_lt _ (by decide)⟩ (i 1) (i 2))

/-- Region 2 is entered holding the gathered rows at `x`, the six arguments it reads, the result at any contents, and the debts. -/
def finPre (d : Dev nD) (n : ℕ) (x : Vec F S1024x512x128 .f32) (a0 a1 : Vec F S1024x512 .i32) (a3 : Vec F S512x64 .f32)
    (a4 : Vec F S3x64 .f32) (a5 a6 : Vec F S64 .f32) (f5 : Vec F S1024x512x64 .f32) : sProp 𝕄 :=
  iprop((aLoc d main_v4 ↦{fullShare} x) ∗ (aLoc d main_arg0 ↦{fullShare} a0) ∗ (aLoc d main_arg1 ↦{fullShare} a1)
    ∗ (aLoc d main_arg3 ↦{fullShare} a3) ∗ (aLoc d main_arg4 ↦{fullShare} a4) ∗ (aLoc d main_arg5 ↦{fullShare} a5)
    ∗ (aLoc d main_arg6 ↦{fullShare} a6) ∗ (aLoc d main_v5 ↦{fullShare} f5) ∗ tcOwes (F := F) d n)

/-- It leaves its inputs as they were and the result at `Finish` of them. -/
def finPost (d : Dev nD) (n : ℕ) (x : Vec F S1024x512x128 .f32) (a0 a1 : Vec F S1024x512 .i32) (a3 : Vec F S512x64 .f32)
    (a4 : Vec F S3x64 .f32) (a5 a6 : Vec F S64 .f32) : sProp 𝕄 :=
  iprop((aLoc d main_v4 ↦{fullShare} x) ∗ (aLoc d main_arg0 ↦{fullShare} a0) ∗ (aLoc d main_arg1 ↦{fullShare} a1)
    ∗ (aLoc d main_arg3 ↦{fullShare} a3) ∗ (aLoc d main_arg4 ↦{fullShare} a4) ∗ (aLoc d main_arg5 ↦{fullShare} a5)
    ∗ (aLoc d main_arg6 ↦{fullShare} a6) ∗ (aLoc d main_v5 ↦{fullShare} Finish x a0 a1 a3 a4 a5 a6) ∗ tcOwes (F := F) d n)

end Cert.KernelIdeal.Reg

end
-- ==== Proof.KMain.lean ====
/-
  The launch of the kernel program: what the SparseCore call's handshakes carry, how one SparseCore's share
  splits into its sixteen tiles' tasks, and the tile's obligation from its body's run.

  The host leaves the flattened index array `sflat` and the transposed word table `wT`; the first TensorCore
  region leaves a paired table `f2` that is determined only where its source rows exist (`PairOK`): row `r`'s
  first 64 columns are word row `r`, its last 64 word row `512000 + r` for `r < 488000`. A tile is handed its
  16384 entries of `sflat`, a read share of the paired table (one of 32 read tokens of the whole) and its rows
  of the gathered array, and hands them back with its rows holding the gathered rows.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.RegDefs
import Idealize.ShloMosaic.Lib.ValueIdx
import Idealize.ShloMosaic.Lib.Transfers

noncomputable section

namespace Cert.KernelIdeal.Main

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## What the host operations leave -/

/-- The two host operations before the first region: the index array flattened, the word table transposed. -/
abbrev opFlat : HloOp τ sig (Elt F) := StableHlo.reshape main_arg0 main_v0 rfl shapeCasts_S1024x512_S524288
abbrev opTr [FloatOps F] : HloOp τ sig (Elt F) :=
  StableHlo.unary main_arg2 main_v1 ((transpose S64x1000000 [1, 0] · transposes_S1000000x64_S64x1000000_1_0) : (⟨S1000000x64, .f32⟩ : BufTy).Contents (Elt F) → (⟨S64x1000000, .f32⟩ : BufTy).Contents (Elt F))
/-- and the one between the SparseCore call and the second region: the gathered rows as [1024, 512, 128]. -/
abbrev opBlk : HloOp τ sig (Elt F) := StableHlo.reshape main_v3 main_v4 rfl shapeCasts_S524288x128_S1024x512x128

/-- The launch contents of device `d`'s arrays, and after the two host operations. -/
def V0 (d : Dev nD) : Valuation τ sig (Elt F) := fun b => m (d, b)
def V1 (d : Dev nD) : Valuation τ sig (Elt F) := (opFlat (F := F)).result (V0 m d)
def V2 [FloatOps F] (d : Dev nD) : Valuation τ sig (Elt F) := (opTr (F := F)).result (V1 m d)

/-- The flattened index array and the transposed word table, as the host leaves them. -/
def sflat (d : Dev nD) : Buf (Elt F) (aLoc d main_v0) := V1 m d (Proc.devRef .tc (main_v0 : Ref sig .tc))
def wT [FloatOps F] (d : Dev nD) : Buf (Elt F) (aLoc d main_v1) := V2 m d (Proc.devRef .tc (main_v1 : Ref sig .tc))

/-! ## What the handshakes carry -/

/-- The tile of SparseCore `c`, vector subcore `i`, as a grid point, and its number among the 32. -/
def coordsV (c : Fin 2) (i : Fin 16) : grid1.Coords :=
  fun | 0 => c | 1 => i | ⟨_ + 2, h⟩ => absurd h (Nat.not_lt.2 (Nat.le_add_left _ _))
def tix (c : Fin 2) (i : Fin 16) : Fin 32 := ⟨2 * i.val + c.val, by omega⟩

variable [FloatOps F]

/-- A task's operands: the tile's index entries, one read token of the paired table at SOME contents the first
    region may have left, the tile's rows of the gathered array. -/
def goP (d : Dev nD) (c : Fin 2) (i : Fin 16) : sProp 𝕄 :=
  iprop(∃ f2, ⌜Reg.PairOK (wT m d) f2⌝ ∗ Tile.goRes d (coordsV c i) (shareTok fullShare 32 (tix c i)) (shareTok fullShare 32 (tix c i)) (sflat m d) f2)
/-- and its results: the same back, the rows holding the gathered rows of that table. -/
def tdP (d : Dev nD) (c : Fin 2) (i : Fin 16) : sProp 𝕄 :=
  iprop(∃ f2, ⌜Reg.PairOK (wT m d) f2⌝ ∗ Tile.tdRes d (coordsV c i) (shareTok fullShare 32 (tix c i)) (shareTok fullShare 32 (tix c i)) (sflat m d) f2)

instance goP_storable (d : Dev nD) (c : Fin 2) (i : Fin 16) : BI.Storable (upEmb : UEmb _ 𝕄) (goP m d c i) := by
  unfold goP Tile.goRes; infer_instance
instance tdP_storable (d : Dev nD) (c : Fin 2) (i : Fin 16) : BI.Storable (upEmb : UEmb _ 𝕄) (tdP m d c i) := by
  unfold tdP Tile.tdRes; infer_instance

/-- The one call hands SparseCore `c` its sixteen tasks' operands together and takes their results back together;
    the sequencer's go hands tile `i` its task's, its taskDone brings the task's results. -/
def P : (K (F := F)).Pay (nD := nD) (Val := Elt F) (Name := ℕ) (U := UU) where
  st := fun q d c => match q with | 0 => bigSep Finset.univ fun i : Fin 16 => goP m d (Fin.cast nCore_zero c) i
  dn := fun q d c => match q with | 0 => bigSep Finset.univ fun i : Fin 16 => tdP m d (Fin.cast nCore_zero c) i
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goP m d (Fin.cast nCore_zero c) i))
  dn q d c := match q with
    | 0 => (inferInstance : BI.Storable (upEmb : UEmb _ 𝕄) (bigSep Finset.univ fun i : Fin 16 => tdP m d (Fin.cast nCore_zero c) i))
  go q d c i := match q with | 0 => goP_storable m d (Fin.cast nCore_zero c) (Fin.cast nSub_zero i)
  td q d c i := match q with | 0 => tdP_storable m d (Fin.cast nCore_zero c) (Fin.cast nSub_zero i)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- One SparseCore's share IS its tasks' shares side by side. -/
theorem vecSplit : (K (F := F)).VecSplit' (P m) 0 := by
  intro d c
  show (bigSep Finset.univ fun i : Fin 16 => goP m d (Fin.cast nCore_zero c) i) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun i : Fin 16 => tdP m d (Fin.cast nCore_zero c) i))
  rw [bigSep_tasks (F := F) (fun i => goP m d (Fin.cast nCore_zero c) i), bigSep_tasks (F := F) (fun i => tdP m d (Fin.cast nCore_zero c) i)]
  iintro H; imodintro
  isplitl [H]; · iexact H
  iintro H; iexact H

/-! ## The tile's obligation -/

/-- Every rewritten index names a row of the paired table: what the indirect copies need of the index array. -/
def SrcOK : Prop := ∀ (d : Dev nD) (n : S524288.Idx), (Tile.fixIdx (sflat m d n)).toNat < 512000

/-- The run of one tile's body, from its operands to its results (the statement the tile's module proves). -/
def TileRun : Prop :=
  ∀ (d : Dev nD) (L : grid1.Coords) (_ : (K (F := F)).Facts) (q0 q2 : PosShare TreeShare)
    (s : Buf (Elt F) (aLoc d main_v0)) (f2 : Buf (Elt F) (aLoc d main_v2))
    (_ : ∀ n ∈ Tile.srcRows L, (Tile.fixIdx (s n)).toNat < 512000)
    (O : CellTallies nD τ sig (HIx 1)) (W : Waits sig (HIx 1)) (_ : ∀ g, O g none = 0),
    iprop(levAts (K (F := F)).L (K (F := F)).lev ∗ Tile.goRes d L q0 q2 s f2
        ∗ scopedBufs (Tile.thr d L) ∗ scopedSems0 (Tile.thr d L) ∗ owes (Tile.thr d L) O W)
      ⊢ wp frame (wpE (defs₀ (F := F)) 𝒱₀ (Tile.thr d L) none) Set.univ
          (cc1__sc_body L (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(Tile.tdRes d L q0 q2 s f2 ∗ scopedBufs (Tile.thr d L) ∗ scopedSems0 (Tile.thr d L)
            ∗ ∃ W', ⌜∀ p ∈ W', p ∈ W ∨ p.2 = none⌝ ∗ owes (Tile.thr d L) O W')

theorem defs₀_vector (c : Fin τ.nSC) (s : Fin τ.nSub) :
    defs₀ (F := F) (.scVector c s) 1 ()
      = SparseCore.onTile hcore1 hsub1 (fun c s => cc1__sc_body (coordsV c s)
          (Memref.whole main_v0_scv) (Memref.isWhole_whole _) (Memref.whole main_v2_scv) (Memref.isWhole_whole _)
          (Memref.whole main_v3_scv) (Memref.isWhole_whole _) (Memref.whole cc1_scratch0) (Memref.isWhole_whole _)
          (Memref.whole cc1_scratch1) (Memref.isWhole_whole _) cc1_scratch2 cc1_scratch3 cc1_scoped0 cc1_scoped1 cc1_scoped2 cc1_scoped3 cc1_scoped4) ⟨⟩ c s := rfl

/-- One task at fixed contents of the paired table: the body's run, its results closed at the same contents. -/
theorem task_run_at (hF : (K (F := F)).Facts) (hsrc : SrcOK m) (hb : TileRun (F := F)) (d : Dev nD) (c : Fin 2) (i : Fin 16)
    (O : CellTallies nD τ sig (HIx 1)) (W : Waits sig (HIx 1)) (hO : ∀ g, O g none = 0)
    (f2 : Buf (Elt F) (aLoc d main_v2)) (hp : Reg.PairOK (wT m d) f2) :
    iprop(levAts (K (F := F)).L (K (F := F)).lev
        ∗ Tile.goRes d (coordsV c i) (shareTok fullShare 32 (tix c i)) (shareTok fullShare 32 (tix c i)) (sflat m d) f2
        ∗ scopedBufs (Tile.thr d (coordsV c i)) ∗ scopedSems0 (Tile.thr d (coordsV c i)) ∗ owes (Tile.thr d (coordsV c i)) O W)
      ⊢ wp frame (wpE (defs₀ (F := F)) 𝒱₀ (Tile.thr d (coordsV c i)) none) Set.univ
          (cc1__sc_body (coordsV c i) (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(tdP m d c i ∗ scopedBufs (Tile.thr d (coordsV c i)) ∗ scopedSems0 (Tile.thr d (coordsV c i))
            ∗ ∃ W', ⌜∀ p ∈ W', p ∈ W ∨ p.2 = none ∨ p.2 = some (0 : Fin 1)⌝ ∗ owes (Tile.thr d (coordsV c i)) O W') :=
  (hb d (coordsV c i) hF _ _ (sflat m d) f2 (fun n _ => hsrc d n) O W hO).trans (wp_mono frame _ _ fun _ => by
    iintro ⟨Htd, Hsb, Hss, %W', %hW', HO⟩
    isplitl [Htd]
    · unfold tdP; iexists f2; isplitr
      · ipureintro; exact hp
      · iexact Htd
    isplitl [Hsb]; · iexact Hsb
    isplitl [Hss]; · iexact Hss
    iexists W'; isplitr
    · ipureintro; exact fun p hp' => (hW' p hp').imp_right Or.inl
    · iexact HO)

/-- One task: open the operands at the table's contents, run the body. -/
theorem task_run (hF : (K (F := F)).Facts) (hsrc : SrcOK m) (hb : TileRun (F := F)) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP m d c i
        ∗ scopedBufs (Tile.thr d (coordsV c i)) ∗ scopedSems0 (Tile.thr d (coordsV c i)) ∗ owes (Tile.thr d (coordsV c i)) O W)
      ⊢ wp frame (wpE (defs₀ (F := F)) 𝒱₀ (Tile.thr d (coordsV c i)) none) Set.univ
          (cc1__sc_body (coordsV c i) (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(tdP m d c i ∗ scopedBufs (Tile.thr d (coordsV c i)) ∗ scopedSems0 (Tile.thr d (coordsV c i))
            ∗ ∃ W', ⌜∀ p ∈ W', p ∈ W ∨ p.2 = none ∨ p.2 = some (0 : Fin 1)⌝ ∗ owes (Tile.thr d (coordsV c i)) O W') := by
  unfold goP
  iintro ⟨Hlv, -, ⟨%f2, %hp, Hgo⟩, Hsb, Hss, HO⟩
  iapply (task_run_at m hF hsrc hb d c i O W hO f2 hp)
  isplitl [Hlv]; · iexact Hlv
  isplitl [Hgo]; · iexact Hgo
  isplitl [Hsb]; · iexact Hsb
  isplitl [Hss]; · iexact Hss
  iexact HO

theorem tileObl (hF : (K (F := F)).Facts) (hsrc : SrcOK m) (hb : TileRun (F := F)) : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact task_run m hF hsrc hb d ⟨_, hc.1⟩ ⟨_, hc.2⟩ O W hO

/-! ## The launch element: the handshakes' rounds, the two pipelines' staging cells; nothing of the tiles' own -/

/-- The two pipelines as the regions' proofs read them (neither has a prefetched table). -/
abbrev pins : Fin 2 → Pipeline.Cfg sig Λ₀ := Pipeline.pin (pcfgs (F := F)) Reg.adm

theorem pins_inj : Function.Injective (Pipeline.cellOf (nD := nD) (τ := τ) (pins (F := F))) := cellOf_inj

/-- What the launch deals the TensorCore of `d` for the regions: both pipelines' staging cells' ghost state and
    duty tokens. -/
def G (d : Dev nD) : sProp 𝕄 :=
  iprop((bigSep Finset.univ fun p : Fin 2 => Pipeline.cellsGhost (pins (F := F)) (EP (F := F)) p d)
    ∗ bigSep Finset.univ fun p : Fin 2 => Pipeline.toksInit (pins (F := F)) (EP (F := F)) p d)

def u₀ : UU :=
  (initOf (K (F := F)).hsCells (K (F := F)).hsToks,
    (initOf (Pipeline.cells (nD := nD) (τ := τ) (pins (F := F)) pins_inj) (Pipeline.launchToks (nD := nD) (τ := τ) (pins (F := F)) pins_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (Cert.KernelIdeal.Base.ownU_split (F := F) _ _ _) $$ Hu
  icases H with ⟨HH, HP, -⟩
  imod (Pipeline.fund_ghost (pins (F := F)) (EP (F := F)) pins_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Main

end
-- ==== Proof.KHost.lean ====
/-
  @main on the TensorCore, first part: the thirteen arrays the TensorCore holds between regions, and the two
  host operations before the first region (the index array flattened, the word table transposed).
-/
import proofs.«205025_g42520176230720_cont_8to1_b_1509_29_alg».proof.Proof.KMain

noncomputable section

namespace Cert.KernelIdeal.Main

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's unscoped arrays: the seven arguments, the host's and the kernels' intermediates, the result. -/
abbrev S13 : Finset (DevRef τ sig) := {a0', a1', a2', a3', a4', a5', a6', v0', v1', v2', v3', v4', v5'}

omit ρ m in
theorem held_S13 (d : Dev nD) (W : Valuation τ sig (Elt F)) :
    (held (T d) S13 W : sProp 𝕄) = iprop((aLoc d main_arg0 ↦{fullShare} W a0') ∗ (aLoc d main_arg1 ↦{fullShare} W a1') ∗ (aLoc d main_arg2 ↦{fullShare} W a2') ∗ (aLoc d main_arg3 ↦{fullShare} W a3') ∗ (aLoc d main_arg4 ↦{fullShare} W a4') ∗ (aLoc d main_arg5 ↦{fullShare} W a5') ∗ (aLoc d main_arg6 ↦{fullShare} W a6') ∗ (aLoc d main_v0 ↦{fullShare} W v0') ∗ (aLoc d main_v1 ↦{fullShare} W v1') ∗ (aLoc d main_v2 ↦{fullShare} W v2') ∗ (aLoc d main_v3 ↦{fullShare} W v3') ∗ (aLoc d main_v4 ↦{fullShare} W v4') ∗ (aLoc d main_v5 ↦{fullShare} W v5')) := by
  unfold held S13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit ρ m in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2) ∗ (aLoc d main_arg3 ↦{fullShare} W main_arg3) ∗ (aLoc d main_arg4 ↦{fullShare} W main_arg4) ∗ (aLoc d main_arg5 ↦{fullShare} W main_arg5) ∗ (aLoc d main_arg6 ↦{fullShare} W main_arg6) ∗ (aLoc d main_v0 ↦{fullShare} W main_v0) ∗ (aLoc d main_v1 ↦{fullShare} W main_v1) ∗ (aLoc d main_v2 ↦{fullShare} W main_v2) ∗ (aLoc d main_v3 ↦{fullShare} W main_v3) ∗ (aLoc d main_v4 ↦{fullShare} W main_v4) ∗ (aLoc d main_v5 ↦{fullShare} W main_v5)) := by
  unfold unscopedBufs
  rw [show (Finset.univ.filter fun b : Ref sig .tc => ¬ b.isScoped) = {main_arg0, main_arg1, main_arg2, main_arg3, main_arg4, main_arg5, main_arg6, main_v0, main_v1, main_v2, main_v3, main_v4, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S13 (V0 m d) := by
  rw [unscopedBufs_eq, held_S13]; rfl

theorem hFlat : (opFlat (F := F)).bufs ⊆ S13 := show ({a0', v0'} : Finset (DevRef τ sig)) ⊆ S13 by decide
theorem hTr [FloatOps F] : (opTr (F := F)).bufs ⊆ S13 := show ({a2', v1'} : Finset (DevRef τ sig)) ⊆ S13 by decide

/-- The two host operations write only the flattened index array and the transposed table: every other array
    holds its launch contents after them. -/
theorem V2_keep [FloatOps F] (d : Dev nD) (b : DevRef τ sig) (h0 : b ∉ ({v0'} : Finset (DevRef τ sig))) (h1 : b ∉ ({v1'} : Finset (DevRef τ sig))) :
    V2 m d b = m (d, b) := by
  unfold V2 V1 V0
  rw [(opTr (F := F)).result_of_not_mem _ h1, (opFlat (F := F)).result_of_not_mem _ h0]

theorem V2_v0 [FloatOps F] (d : Dev nD) : V2 m d v0' = sflat m d := by
  unfold V2 sflat
  rw [(opTr (F := F)).result_of_not_mem _ (show v0' ∉ ({v1'} : Finset (DevRef τ sig)) by decide)]

/-- After the two host operations: the arguments and the later intermediates at their launch contents, the
    flattened index array and the transposed table as computed. -/
theorem held_V2 [FloatOps F] (d : Dev nD) :
    (held (T d) S13 ((opTr (F := F)).result (V1 m d)) : sProp 𝕄) = iprop((aLoc d main_arg0 ↦{fullShare} m (aLoc d main_arg0)) ∗ (aLoc d main_arg1 ↦{fullShare} m (aLoc d main_arg1)) ∗ (aLoc d main_arg2 ↦{fullShare} m (aLoc d main_arg2)) ∗ (aLoc d main_arg3 ↦{fullShare} m (aLoc d main_arg3)) ∗ (aLoc d main_arg4 ↦{fullShare} m (aLoc d main_arg4)) ∗ (aLoc d main_arg5 ↦{fullShare} m (aLoc d main_arg5)) ∗ (aLoc d main_arg6 ↦{fullShare} m (aLoc d main_arg6)) ∗ (aLoc d main_v0 ↦{fullShare} sflat m d) ∗ (aLoc d main_v1 ↦{fullShare} wT m d) ∗ (aLoc d main_v2 ↦{fullShare} m (aLoc d main_v2)) ∗ (aLoc d main_v3 ↦{fullShare} m (aLoc d main_v3)) ∗ (aLoc d main_v4 ↦{fullShare} m (aLoc d main_v4)) ∗ (aLoc d main_v5 ↦{fullShare} m (aLoc d main_v5))) := by
  rw [held_S13]
  have e : ∀ b, (opTr (F := F)).result (V1 m d) b = V2 m d b := fun _ => rfl
  simp only [e]
  rw [V2_keep m d a0' (by decide) (by decide), V2_keep m d a1' (by decide) (by decide), V2_keep m d a2' (by decide) (by decide), V2_keep m d a3' (by decide) (by decide), V2_keep m d a4' (by decide) (by decide), V2_keep m d a5' (by decide) (by decide), V2_keep m d a6' (by decide) (by decide), V2_keep m d v2' (by decide) (by decide), V2_keep m d v3' (by decide) (by decide), V2_keep m d v4' (by decide) (by decide), V2_keep m d v5' (by decide) (by decide), V2_v0]
  rfl

end Cert.KernelIdeal.Main

end
-- ==== Proof.TileSplit.lean ====
/-
  The thirty-two tiles' rows of the gathered array are pairwise disjoint and together the whole array: tile
  (core c, subcore s) starts at row 16384 * (2 * s + c) and takes 16384 rows.
-/
import proofs.«205025_g42520176230720_cont_8to1_b_1509_29_alg».proof.Proof.TileDefs

noncomputable section

namespace Cert.KernelIdeal.Tile

open Cert.KernelIdeal Cert.KernelIdeal.Gen Cert.KernelIdeal.Base

open Idealize.ShloMosaic

/-- The grid point of SparseCore `c`, vector subcore `s`, as the body table builds it. -/
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl

theorem row0_coordsV (c : Fin (grid1.bound 0)) (s : Fin (grid1.bound 1)) : row0 (coordsV c s) = 16384 * (2 * s.val + c.val) := by
  rw [row0_eq]; show 32768 * s.val + 16384 * c.val = _; omega

/-- A row index lies in tile `(c, s)`'s rows exactly when its row number does; every column does. -/
theorem mem_outRows (c : Fin (grid1.bound 0)) (s : Fin (grid1.bound 1)) (i : S524288x128.Idx) :
    i ∈ outRows (coordsV c s) ↔ 16384 * (2 * s.val + c.val) ≤ (i 0).val ∧ (i 0).val < 16384 * (2 * s.val + c.val) + 16384 := by
  unfold outRows outRect
  rw [Rect.mem_set_unit, Fin.forall_fin_two]
  have h1 : (i 1).val < 128 := (i 1).isLt
  show (row0 (coordsV c s) ≤ (i 0).val ∧ (i 0).val < row0 (coordsV c s) + 16384) ∧ (0 ≤ (i 1).val ∧ (i 1).val < 0 + 128) ↔ _
  rw [row0_coordsV]; omega

/-- Tile `p`'s rows, the tiles indexed by (core, subcore). -/
def outRowsOf (p : Fin (grid1.bound 0) × Fin (grid1.bound 1)) : Finset S524288x128.Idx := outRows (coordsV p.1 p.2)

theorem outRows_disjoint :
    ∀ p ∈ (Finset.univ : Finset (Fin (grid1.bound 0) × Fin (grid1.bound 1))), ∀ p' ∈ (Finset.univ : Finset (Fin (grid1.bound 0) × Fin (grid1.bound 1))),
      p ≠ p' → Disjoint (outRowsOf p) (outRowsOf p') := by
  intro p _ p' _ hne
  rw [Finset.disjoint_left]
  intro i hi hi'
  unfold outRowsOf at hi hi'
  rw [mem_outRows] at hi hi'
  have hc : p.1.val < 2 := p.1.isLt
  have hc' : p'.1.val < 2 := p'.1.isLt
  apply hne
  refine Prod.ext (Fin.ext ?_) (Fin.ext ?_) <;> omega

theorem outRows_cover :
    (Finset.univ : Finset (Fin (grid1.bound 0) × Fin (grid1.bound 1))).biUnion outRowsOf = Finset.univ := by
  ext i
  simp only [Finset.mem_biUnion, Finset.mem_univ, true_and, iff_true]
  have hi : (i 0).val < 524288 := (i 0).isLt
  refine ⟨(⟨(i 0).val / 16384 % 2, Nat.mod_lt _ (by decide)⟩, ⟨(i 0).val / 16384 / 2, ?_⟩), ?_⟩
  · show (i 0).val / 16384 / 2 < 16; omega
  · unfold outRowsOf; rw [mem_outRows]; dsimp only; omega

end Cert.KernelIdeal.Tile

end
-- ==== Proof.KSplit.lean ====
/-
  The SparseCore call's operands and results on the TensorCore's side: the flattened index array and the paired
  table each go out as 32 read tokens of the whole (one per tile, the remainders kept), the gathered array as the
  32 tiles' rows; what comes back is the index array whole again and the gathered array whole at contents that
  agree, on each tile's rows, with the gather of SOME table the first region may have left.
-/
import proofs.«205025_g42520176230720_cont_8to1_b_1509_29_alg».proof.Proof.KHost
import proofs.«205025_g42520176230720_cont_8to1_b_1509_29_alg».proof.Proof.TileSplit

noncomputable section

namespace Cert.KernelIdeal.Main

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ)

/-! ## The 32 tiles, numbered -/

theorem coordsV_eq (c : Fin 2) (i : Fin 16) : coordsV c i = Tile.coordsV c i := by
  funext a; match a with | ⟨0, _⟩ => rfl | ⟨1, _⟩ => rfl

/-- Tile `(c, i)` is the `2 i + c`-th of the 32. -/
def tixE : Fin 2 × Fin 16 ≃ Fin 32 where
  toFun p := tix p.1 p.2
  invFun k := (⟨k.val % 2, Nat.mod_lt _ (by decide)⟩, ⟨k.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv k := by
    refine Fin.ext ?_
    show 2 * (k.val / 2) + k.val % 2 = k.val; omega

omit m in
theorem bigSep_tix (Φ : Fin 32 → sProp 𝕄) :
    bigSep Finset.univ Φ = bigSep Finset.univ fun p : Fin 2 × Fin 16 => Φ (tix p.1 p.2) := by
  rw [← Finset.map_univ_equiv tixE, bigSep_map]; rfl

omit m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m in
/-- Pure facts under a `bigSep` come out together. -/
theorem bigSep_pure_sep {I : Type} [DecidableEq I] (s : Finset I) (φ : I → Prop) (X : I → sProp 𝕄) :
    (bigSep s fun i => iprop(⌜φ i⌝ ∗ X i)) ⊢ iprop(⌜∀ i ∈ s, φ i⌝ ∗ bigSep s X) := by
  induction s using Finset.induction_on with
  | empty =>
    rw [bigSep_empty, bigSep_empty]
    iintro -; isplitr
    · ipureintro; intro i hi; exact absurd hi (Finset.notMem_empty i)
    · iempintro
  | insert a s ha ih =>
    rw [SparseCore.bigSep_insert' ha, SparseCore.bigSep_insert' ha]
    iintro ⟨⟨%h, Ha⟩, Hs⟩
    ihave H := ih $$ Hs
    icases H with ⟨%hs, Hs⟩
    isplitr
    · ipureintro; intro i hi
      rcases Finset.mem_insert.mp hi with rfl | hi
      · exact h
      · exact hs i hi
    · isplitl [Ha]; · iexact Ha
      iexact Hs

variable [FloatOps F]

/-! ## What the call takes and hands back, over the tiles -/

theorem st0_eq (d : Dev nD) :
    (bigSep Finset.univ fun c : Fin ((K (F := F)).nCore 0) => (P m).st 0 d c) = bigSep Finset.univ fun p : Fin 2 × Fin 16 => goP m d p.1 p.2 := by
  show (bigSep Finset.univ fun c : Fin ((K (F := F)).nCore 0) => bigSep Finset.univ fun i : Fin 16 => goP m d (Fin.cast nCore_zero c) i) = _
  rw [bigSep_cores (F := F) (fun c => bigSep Finset.univ fun i : Fin 16 => goP m d c i), bigSep_univ_prod]

theorem dn0_eq (d : Dev nD) :
    (bigSep Finset.univ fun c : Fin ((K (F := F)).nCore 0) => (P m).dn 0 d c) = bigSep Finset.univ fun p : Fin 2 × Fin 16 => tdP m d p.1 p.2 := by
  show (bigSep Finset.univ fun c : Fin ((K (F := F)).nCore 0) => bigSep Finset.univ fun i : Fin 16 => tdP m d (Fin.cast nCore_zero c) i) = _
  rw [bigSep_cores (F := F) (fun c => bigSep Finset.univ fun i : Fin 16 => tdP m d c i), bigSep_univ_prod]

omit [FloatOps F] m in
/-- Tile `p`'s rows of the gathered array. -/
def rowsOf (p : Fin 2 × Fin 16) : Finset S524288x128.Idx := Tile.outRows (coordsV p.1 p.2)

omit [FloatOps F] m in
theorem rowsOf_eq : rowsOf = Tile.outRowsOf := funext fun p => by unfold rowsOf Tile.outRowsOf; rw [coordsV_eq]

omit [FloatOps F] m in
theorem rowsOf_disjoint : ∀ p ∈ (Finset.univ : Finset (Fin 2 × Fin 16)), ∀ p' ∈ (Finset.univ : Finset (Fin 2 × Fin 16)), p ≠ p' → Disjoint (rowsOf p) (rowsOf p') := by
  rw [rowsOf_eq]; exact Tile.outRows_disjoint

omit [FloatOps F] m in
theorem rowsOf_cover : (Finset.univ : Finset (Fin 2 × Fin 16)).biUnion rowsOf = Finset.univ := by
  rw [rowsOf_eq]; exact Tile.outRows_cover

omit [FloatOps F] m in
/-- The gathered array is its 32 tiles' rows. -/
theorem v3_rows (d : Dev nD) (f : Buf (Elt F) (aLoc d main_v3)) :
    (aLoc d main_v3 ↦{fullShare} f : sProp 𝕄) = bigSep Finset.univ fun p : Fin 2 × Fin 16 => aLoc d main_v3 ↦[rowsOf p]{fullShare} f := by
  rw [← pointsTo_biUnion Finset.univ (ℓ := aLoc d main_v3) rowsOf rowsOf_disjoint, rowsOf_cover]; try rfl

/-- The gathered array after the call: on each tile's rows, the gather of a table that pairs the transposed one. -/
def GathOK (d : Dev nD) (g : Buf (Elt F) (aLoc d main_v3)) : Prop :=
  ∃ F2 : Fin 2 × Fin 16 → Buf (Elt F) (aLoc d main_v2), (∀ p, Reg.PairOK (wT m d) (F2 p))
    ∧ ∀ p, ∀ j ∈ rowsOf p, g j = Tile.gath d (sflat m d) (F2 p) j

/-- The three arrays go out to the 32 tiles; the read shares' remainders stay. -/
theorem split_go (d : Dev nD) (f2 : Buf (Elt F) (aLoc d main_v2)) (hp : Reg.PairOK (wT m d) f2) (f3 : Buf (Elt F) (aLoc d main_v3)) :
    iprop((aLoc d main_v0 ↦{fullShare} sflat m d) ∗ (aLoc d main_v2 ↦{fullShare} f2) ∗ (aLoc d main_v3 ↦{fullShare} f3))
      ⊢ (iprop((aLoc d main_v0 ↦{shareDrop fullShare 32} sflat m d) ∗ (aLoc d main_v2 ↦{shareDrop fullShare 32} f2)
          ∗ bigSep Finset.univ fun p : Fin 2 × Fin 16 => goP m d p.1 p.2) : sProp 𝕄) := by
  have e0 : (aLoc d main_v0 ↦{fullShare} sflat m d : sProp 𝕄) ⊢ _ := pointsTo_toks_split (ℓ := aLoc d main_v0) (S := Finset.univ) (f := sflat m d) fullShare 32
  have e2 : (aLoc d main_v2 ↦{fullShare} f2 : sProp 𝕄) ⊢ _ := pointsTo_toks_split (ℓ := aLoc d main_v2) (S := Finset.univ) (f := f2) fullShare 32
  rw [bigSep_tix] at e0 e2
  rw [v3_rows]
  have hstep : ∀ p ∈ (Finset.univ : Finset (Fin 2 × Fin 16)),
      (iprop((aLoc d main_v0 ↦{shareTok fullShare 32 (tix p.1 p.2)} sflat m d)
        ∗ (aLoc d main_v2 ↦{shareTok fullShare 32 (tix p.1 p.2)} f2) ∗ (aLoc d main_v3 ↦[rowsOf p]{fullShare} f3)) : sProp 𝕄) ⊢ goP m d p.1 p.2 := by
    intro p _
    unfold goP Tile.goRes rowsOf
    iintro ⟨HA, HB, HC⟩
    iexists f2; isplitr
    · ipureintro; exact hp
    isplitl [HA]; · iexact HA
    isplitl [HB]; · iexact HB
    iexists f3; iexact HC
  iintro ⟨H0, H2, H3⟩
  ihave H0' := e0 $$ H0
  icases H0' with ⟨H0r, H0t⟩
  ihave H2' := e2 $$ H2
  icases H2' with ⟨H2r, H2t⟩
  isplitl [H0r]; · iexact H0r
  isplitl [H2r]; · iexact H2r
  ihave H := (Entails.of_eq (bigSep_sep' (Finset.univ : Finset (Fin 2 × Fin 16))
      (fun p => (aLoc d main_v2 ↦{shareTok fullShare 32 (tix p.1 p.2)} f2 : sProp 𝕄))
      (fun p => (aLoc d main_v3 ↦[rowsOf p]{fullShare} f3 : sProp 𝕄))).symm) $$ [H2t H3]
  · isplitl [H2t]; · iexact H2t
    iexact H3
  ihave H' := (Entails.of_eq (bigSep_sep' (Finset.univ : Finset (Fin 2 × Fin 16))
      (fun p => (aLoc d main_v0 ↦{shareTok fullShare 32 (tix p.1 p.2)} sflat m d : sProp 𝕄))
      (fun p => iprop((aLoc d main_v2 ↦{shareTok fullShare 32 (tix p.1 p.2)} f2) ∗ (aLoc d main_v3 ↦[rowsOf p]{fullShare} f3) : sProp 𝕄))).symm) $$ [H0t H]
  · isplitl [H0t]; · iexact H0t
    iexact H
  have hmono : ((bigSep Finset.univ fun p : Fin 2 × Fin 16 => iprop((aLoc d main_v0 ↦{shareTok fullShare 32 (tix p.1 p.2)} sflat m d)
        ∗ (aLoc d main_v2 ↦{shareTok fullShare 32 (tix p.1 p.2)} f2) ∗ (aLoc d main_v3 ↦[rowsOf p]{fullShare} f3))) : sProp 𝕄)
      ⊢ bigSep Finset.univ fun p : Fin 2 × Fin 16 => goP m d p.1 p.2 := bigSep_mono hstep
  iapply hmono
  iexact H'

/-- The tasks' results come back: the index array whole again, and the gathered array whole at contents that
    agree, tile by tile, with the gather of a table pairing the transposed one. The paired table's read shares
    are not needed again and are let go. -/
theorem join_td [∀ e, Nonempty (Elt F e)] (d : Dev nD) :
    iprop((aLoc d main_v0 ↦{shareDrop fullShare 32} sflat m d) ∗ bigSep Finset.univ fun p : Fin 2 × Fin 16 => tdP m d p.1 p.2)
      ⊢ (iprop((aLoc d main_v0 ↦{fullShare} sflat m d) ∗ ∃ g, ⌜GathOK m d g⌝ ∗ aLoc d main_v3 ↦{fullShare} g) : sProp 𝕄) := by
  have hstep : ∀ p ∈ (Finset.univ : Finset (Fin 2 × Fin 16)), (tdP m d p.1 p.2 : sProp 𝕄)
      ⊢ iprop((aLoc d main_v0 ↦{shareTok fullShare 32 (tix p.1 p.2)} sflat m d)
          ∗ ∃ f2 : Buf (Elt F) (aLoc d main_v2), iprop(⌜Reg.PairOK (wT m d) f2⌝ ∗ aLoc d main_v3 ↦[rowsOf p]{fullShare} Tile.gath d (sflat m d) f2)) := by
    intro p _
    unfold tdP Tile.tdRes rowsOf
    iintro ⟨%f2, %hp, H0, -, H3⟩
    isplitl [H0]; · iexact H0
    iexists f2; isplitr
    · ipureintro; exact hp
    · iexact H3
  have hmono : ((bigSep Finset.univ fun p : Fin 2 × Fin 16 => tdP m d p.1 p.2) : sProp 𝕄)
      ⊢ bigSep Finset.univ fun p : Fin 2 × Fin 16 => iprop((aLoc d main_v0 ↦{shareTok fullShare 32 (tix p.1 p.2)} sflat m d)
          ∗ ∃ f2 : Buf (Elt F) (aLoc d main_v2), iprop(⌜Reg.PairOK (wT m d) f2⌝ ∗ aLoc d main_v3 ↦[rowsOf p]{fullShare} Tile.gath d (sflat m d) f2)) :=
    bigSep_mono hstep
  have e0 : (iprop((aLoc d main_v0 ↦{shareDrop fullShare 32} sflat m d)
        ∗ bigSep Finset.univ (fun i : Fin 32 => aLoc d main_v0 ↦{shareTok fullShare 32 i} sflat m d)) : sProp 𝕄) ⊢ aLoc d main_v0 ↦{fullShare} sflat m d :=
    pointsTo_toks_join (ℓ := aLoc d main_v0) (S := Finset.univ) (f := sflat m d) fullShare 32
  rw [bigSep_tix] at e0
  have ej : ∀ (fs : Fin 2 × Fin 16 → Buf (Elt F) (aLoc d main_v3)) (f₀ : Buf (Elt F) (aLoc d main_v3)),
      (bigSep (Finset.univ : Finset (Fin 2 × Fin 16)) (fun t => aLoc d main_v3 ↦[rowsOf t]{fullShare} fs t) : sProp 𝕄)
        ⊢ iprop(∃ g, ⌜∀ t ∈ (Finset.univ : Finset (Fin 2 × Fin 16)), ∀ i ∈ rowsOf t, g i = fs t i⌝
            ∗ aLoc d main_v3 ↦[(Finset.univ : Finset (Fin 2 × Fin 16)).biUnion rowsOf]{fullShare} g) :=
    fun fs f₀ => pointsTo_biUnion_join (ℓ := aLoc d main_v3) (q := fullShare) Finset.univ rowsOf fs f₀ rowsOf_disjoint
  iintro ⟨H0r, Htd⟩
  ihave H := hmono $$ Htd
  ihave H' := (Entails.of_eq (bigSep_sep' (Finset.univ : Finset (Fin 2 × Fin 16))
      (fun p => (aLoc d main_v0 ↦{shareTok fullShare 32 (tix p.1 p.2)} sflat m d : sProp 𝕄))
      (fun p => (iprop(∃ f2 : Buf (Elt F) (aLoc d main_v2), iprop(⌜Reg.PairOK (wT m d) f2⌝ ∗ aLoc d main_v3 ↦[rowsOf p]{fullShare} Tile.gath d (sflat m d) f2)) : sProp 𝕄)))) $$ H
  icases H' with ⟨H0t, Hrows⟩
  ihave H0 := e0 $$ [H0r H0t]
  · isplitl [H0r]; · iexact H0r
    iexact H0t
  ihave Hr := (bigSep_exists_pi (Finset.univ : Finset (Fin 2 × Fin 16))
      (fun p (f2 : Buf (Elt F) (aLoc d main_v2)) => (iprop(⌜Reg.PairOK (wT m d) f2⌝ ∗ aLoc d main_v3 ↦[rowsOf p]{fullShare} Tile.gath d (sflat m d) f2) : sProp 𝕄))) $$ Hrows
  icases Hr with ⟨%F2, Hr⟩
  ihave Hr' := (bigSep_pure_sep (F := F) (Finset.univ : Finset (Fin 2 × Fin 16)) (fun p => Reg.PairOK (wT m d) (F2 p))
      (fun p => (aLoc d main_v3 ↦[rowsOf p]{fullShare} Tile.gath d (sflat m d) (F2 p) : sProp 𝕄))) $$ Hr
  icases Hr' with ⟨%hF2, Hr⟩
  ihave Hj := (ej (fun p => Tile.gath d (sflat m d) (F2 p)) (Tile.gath d (sflat m d) (F2 (0, 0)))) $$ Hr
  icases Hj with ⟨%g, %hg, Hg⟩
  isplitl [H0]; · iexact H0
  iexists g; isplitr
  · ipureintro
    exact ⟨F2, fun p => hF2 p (Finset.mem_univ p), fun p j hj => hg p (Finset.mem_univ p) j hj⟩
  · rw [rowsOf_cover]; iexact Hg

end Cert.KernelIdeal.Main

end
-- ==== Proof.KHmain.lean ====
/-
  @main on the TensorCore: the two host operations, the first region, the SparseCore call, the reshape, the
  second region; the arguments are held throughout at their launch contents and the result ends at the finishing
  pass of the gathered rows.
-/
import proofs.«205025_g42520176230720_cont_8to1_b_1509_29_alg».proof.Proof.KSplit

noncomputable section

namespace Cert.KernelIdeal.Main

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The first region's run on the TensorCore of `d` before SparseCore call `n` (the statement the regions' module proves). -/
def Region0Run : Prop :=
  ∀ (d : Dev nD) (n : ℕ) (lv : GSem nD τ sig → HIx 1 → ℕ) (_ : (K (F := F)).Refines lv)
    (t : Vec F S64x1000000 .f32) (f2 : Vec F S512000x128 .f32),
    iprop(boundary (T d) ∗ Reg.pairPre (F := F) d n t f2 ∗ levAts (K (F := F)).L lv
        ∗ Pipeline.cellsGhost (pins (F := F)) (EP (F := F)) (0 : Fin 2) d
        ∗ Pipeline.toksInit (pins (F := F)) (EP (F := F)) (0 : Fin 2) d)
      ⊢ wp frame (wpE ((K (F := F)).defs D) 𝒱 (T d) none) Set.univ
          (Prog.lift (.customCall (SparseCore.inner (Pipeline.entry (0 : Fin 2))) ()))
          (fun _ => iprop(boundary (T d) ∗ Reg.pairPost (F := F) d n t))

/-- The second region's run likewise. -/
def Region2Run : Prop :=
  ∀ (d : Dev nD) (n : ℕ) (lv : GSem nD τ sig → HIx 1 → ℕ) (_ : (K (F := F)).Refines lv)
    (x : Vec F S1024x512x128 .f32) (a0 a1 : Vec F S1024x512 .i32) (a3 : Vec F S512x64 .f32)
    (a4 : Vec F S3x64 .f32) (a5 a6 : Vec F S64 .f32) (f5 : Vec F S1024x512x64 .f32),
    iprop(boundary (T d) ∗ Reg.finPre (F := F) d n x a0 a1 a3 a4 a5 a6 f5 ∗ levAts (K (F := F)).L lv
        ∗ Pipeline.cellsGhost (pins (F := F)) (EP (F := F)) (1 : Fin 2) d
        ∗ Pipeline.toksInit (pins (F := F)) (EP (F := F)) (1 : Fin 2) d)
      ⊢ wp frame (wpE ((K (F := F)).defs D) 𝒱 (T d) none) Set.univ
          (Prog.lift (.customCall (SparseCore.inner (Pipeline.entry (1 : Fin 2))) ()))
          (fun _ => iprop(boundary (T d) ∗ Reg.finPost (F := F) d n x a0 a1 a3 a4 a5 a6))

variable [∀ e, Nonempty (Elt F e)]

/-- What the TensorCore's state before call `n` holds beside what it owes. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0 ∗ cred (tallyAt ((K (F := F)).doneCell d) (some q) 1)))

omit [FloatOps F] [∀ e, Nonempty (Elt F e)] in
theorem tcSt_eq (d : Dev nD) (n : ℕ) : (K (F := F)).tcSt (EH (F := F)) d n = iprop(Reg.tcOwes (F := F) d n ∗ tcRest (F := F) d n) := rfl

/-- The two pipelines' shares of what the launch dealt for the regions. -/
abbrev cg (p : Fin 2) (d : Dev nD) : sProp 𝕄 := Pipeline.cellsGhost (pins (F := F)) (EP (F := F)) p d
abbrev tk (p : Fin 2) (d : Dev nD) : sProp 𝕄 := Pipeline.toksInit (pins (F := F)) (EP (F := F)) p d

omit [∀ e, Nonempty (Elt F e)] in
theorem G_eq (d : Dev nD) : G (F := F) d = iprop((cg (F := F) 0 d ∗ cg (F := F) 1 d) ∗ (tk (F := F) 0 d ∗ tk (F := F) 1 d)) := by
  unfold G
  rw [show (Finset.univ : Finset (Fin 2)) = {0, 1} by decide, SparseCore.bigSep_insert' (by decide), bigSep_singleton,
    SparseCore.bigSep_insert' (by decide), bigSep_singleton]

/-! ## The reshape between the call and the second region -/

/-- The gathered rows as [1024, 512, 128]. -/
def blk (d : Dev nD) (g : Buf (Elt F) (aLoc d main_v3)) : Buf (Elt F) (aLoc d main_v4) :=
  shapeCast S1024x512x128 g shapeCasts_S524288x128_S1024x512x128

/-- The contents the reshape runs from: the gathered array at `g`. -/
def VB (d : Dev nD) (g : Buf (Elt F) (aLoc d main_v3)) : Valuation τ sig (Elt F) := Function.update (V0 m d) v3' g

abbrev S2 : Finset (DevRef τ sig) := {v3', v4'}

omit [FloatOps F] [∀ e, Nonempty (Elt F e)] m ρ in
theorem held_S2 (d : Dev nD) (W : Valuation τ sig (Elt F)) :
    (held (T d) S2 W : sProp 𝕄) = iprop((aLoc d main_v3 ↦{fullShare} W v3') ∗ (aLoc d main_v4 ↦{fullShare} W v4')) := by
  unfold held S2
  rw [SparseCore.bigSep_insert' (by decide), bigSep_singleton]

omit [FloatOps F] [∀ e, Nonempty (Elt F e)] in
theorem hBlk : (opBlk (F := F)).bufs ⊆ S2 := show ({v3', v4'} : Finset (DevRef τ sig)) ⊆ S2 by decide

omit [FloatOps F] [∀ e, Nonempty (Elt F e)] ρ in
theorem VB_v3 (d : Dev nD) (g : Buf (Elt F) (aLoc d main_v3)) : VB m d g v3' = g := Function.update_self _ _ _
omit [FloatOps F] [∀ e, Nonempty (Elt F e)] ρ in
theorem VB_v4 (d : Dev nD) (g : Buf (Elt F) (aLoc d main_v3)) : VB m d g v4' = m (aLoc d main_v4) :=
  Function.update_of_ne (show v4' ≠ v3' by decide) _ _

omit [FloatOps F] [∀ e, Nonempty (Elt F e)] ρ in
theorem held_blk (d : Dev nD) (g : Buf (Elt F) (aLoc d main_v3)) :
    (held (T d) S2 ((opBlk (F := F)).result (VB m d g)) : sProp 𝕄) = iprop((aLoc d main_v3 ↦{fullShare} g) ∗ (aLoc d main_v4 ↦{fullShare} blk d g)) := by
  rw [held_S2, (opBlk (F := F)).result_of_not_mem _ (show v3' ∉ ({v4'} : Finset (DevRef τ sig)) by decide), VB_v3]
  congr 2

/-! ## What @main leaves -/

/-- The arguments at their launch contents, and the result at the finishing pass of a gathered array that agrees,
    tile by tile, with the gather of a table pairing the transposed word table. -/
def FIN (d : Dev nD) : sProp 𝕄 :=
  iprop((aLoc d main_arg0 ↦{fullShare} m (aLoc d main_arg0)) ∗ (aLoc d main_arg1 ↦{fullShare} m (aLoc d main_arg1)) ∗ (aLoc d main_arg2 ↦{fullShare} m (aLoc d main_arg2)) ∗ (aLoc d main_arg3 ↦{fullShare} m (aLoc d main_arg3)) ∗ (aLoc d main_arg4 ↦{fullShare} m (aLoc d main_arg4)) ∗ (aLoc d main_arg5 ↦{fullShare} m (aLoc d main_arg5)) ∗ (aLoc d main_arg6 ↦{fullShare} m (aLoc d main_arg6))
    ∗ ∃ g, ⌜GathOK m d g⌝ ∗ aLoc d main_v5 ↦{fullShare} Reg.Finish (F := F) (blk d g) (m (aLoc d main_arg0)) (m (aLoc d main_arg1)) (m (aLoc d main_arg3)) (m (aLoc d main_arg4)) (m (aLoc d main_arg5)) (m (aLoc d main_arg6)))

theorem hmain (h0 : Region0Run (F := F)) (h2 : Region2Run (F := F)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  have hlv : (K (F := F)).Refines (nD := nD) ((K (F := F)).lev (nD := nD)) := by sl_refines_lev
  unfold SparseCore.Cfg.tcRes
  rw [unscoped_held, tcSt_eq, G_eq]
  simp only [main, wp_bind, wp_pure]
  iintro ⟨#Hctx, ⟨Howes, Hrest⟩, ⟨Hb, Hheld, -, -⟩, ⟨Hcg0, Hcg1⟩, ⟨Htk0, Htk1⟩⟩
  ihave #Hlev := ((K (F := F)).ctx_levAts (EH := EH) (P := P m) κ) $$ Hctx
  -- the two host operations
  iapply (wp_hlo_within 𝒱 (SparseCore.T d) none Set.univ (op := opFlat) (S := S13) hFlat (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opTr) (S := S13) hTr (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Ha2, Ha3, Ha4, Ha5, Ha6, Hv0, Hv1, Hv2, Hv3, Hv4, Hv5⟩
  -- the first region
  iapply (wp_wand_r frame _ _ (Q := fun _ => iprop(boundary (SparseCore.T d) ∗ Reg.pairPost (F := F) d 0 (wT m d))))
  isplitl [Hb Hv1 Hv2 Howes Hcg0 Htk0]
  · iapply (h0 d 0 (K (F := F)).lev hlv (wT m d) (m (aLoc d main_v2)))
    isplitl [Hb]; · iexact Hb
    isplitl [Hv1 Hv2 Howes]
    · unfold Reg.pairPre
      isplitl [Hv1]; · iexact Hv1
      isplitl [Hv2]; · iexact Hv2
      iexact Howes
    isplitr; · iexact Hlev
    isplitl [Hcg0]; · iexact Hcg0
    iexact Htk0
  iintro %_ ⟨Hb, Hpost⟩
  unfold Reg.pairPost
  icases Hpost with ⟨Hv1, ⟨%f2, %hp, Hv2⟩, Howes⟩
  -- the SparseCore call: the three arrays out to the tiles, the index array and the gathered array back
  ihave Hs := (split_go m d f2 hp (m (aLoc d main_v3))) $$ [Hv0 Hv2 Hv3]
  · isplitl [Hv0]; · iexact Hv0
    isplitl [Hv2]; · iexact Hv2
    iexact Hv3
  icases Hs with ⟨H0r, -, Hgo⟩
  iapply ((K (F := F)).wp_run (D (F := F)) 𝒱 (EH := EH) (P := P m) κ d 0) $$ [Howes Hrest Hgo H0r Hb Ha0 Ha1 Ha2 Ha3 Ha4 Ha5 Ha6 Hv1 Hv4 Hv5 Hcg1 Htk1]
  isplitr; · iexact Hctx
  isplitl [Howes Hrest]
  · rw [tcSt_eq]
    isplitl [Howes]; · iexact Howes
    iexact Hrest
  isplitl [Hgo]
  · rw [st0_eq]; iexact Hgo
  iintro ⟨Hst, Hdn⟩
  ihave Hdn' := (Entails.of_eq (dn0_eq m d)) $$ Hdn
  ihave Hj := (join_td m d) $$ [H0r Hdn']
  · isplitl [H0r]; · iexact H0r
    iexact Hdn'
  icases Hj with ⟨Hv0, %g, %hg, Hv3⟩
  ihave Hst' := (Entails.of_eq (tcSt_eq (F := F) d _)) $$ Hst
  icases Hst' with ⟨Howes, Hrest⟩
  -- the reshape of the gathered rows
  iapply (wp_hlo_within 𝒱 (SparseCore.T d) none Set.univ (op := opBlk) (S := S2) hBlk (V := VB m d g)) $$ [Hb Hv3 Hv4]
  · isplitl [Hb]; · iexact Hb
    rw [held_S2, VB_v3, VB_v4]
    isplitl [Hv3]; · iexact Hv3
    iexact Hv4
  iintro ⟨Hb, Hheld⟩
  rw [wp_ret]; imodintro
  ihave Hh := (Entails.of_eq (held_blk (F := F) m d g)) $$ Hheld
  icases Hh with ⟨Hv3, Hv4⟩
  -- the second region
  iapply (wp_wand_r frame _ _ (Q := fun _ => iprop(boundary (SparseCore.T d) ∗ Reg.finPost (F := F) d 1 (blk d g) (m (aLoc d main_arg0)) (m (aLoc d main_arg1)) (m (aLoc d main_arg3)) (m (aLoc d main_arg4)) (m (aLoc d main_arg5)) (m (aLoc d main_arg6)))))
  isplitl [Hb Hv4 Ha0 Ha1 Ha3 Ha4 Ha5 Ha6 Hv5 Howes Hcg1 Htk1]
  · iapply (h2 d 1 (K (F := F)).lev hlv (blk d g) (m (aLoc d main_arg0)) (m (aLoc d main_arg1)) (m (aLoc d main_arg3)) (m (aLoc d main_arg4)) (m (aLoc d main_arg5)) (m (aLoc d main_arg6)) (m (aLoc d main_v5)))
    isplitl [Hb]; · iexact Hb
    isplitl [Hv4 Ha0 Ha1 Ha3 Ha4 Ha5 Ha6 Hv5 Howes]
    · unfold Reg.finPre
      isplitl [Hv4]; · iexact Hv4
      isplitl [Ha0]; · iexact Ha0
      isplitl [Ha1]; · iexact Ha1
      isplitl [Ha3]; · iexact Ha3
      isplitl [Ha4]; · iexact Ha4
      isplitl [Ha5]; · iexact Ha5
      isplitl [Ha6]; · iexact Ha6
      isplitl [Hv5]; · iexact Hv5
      iexact Howes
    isplitr; · iexact Hlev
    isplitl [Hcg1]; · iexact Hcg1
    iexact Htk1
  iintro %_ ⟨Hb, Hpost⟩
  unfold Reg.finPost
  icases Hpost with ⟨Hv4, Ha0, Ha1, Ha3, Ha4, Ha5, Ha6, Hv5, Howes⟩
  imodintro
  isplitl [Howes Hrest]
  · rw [tcSt_eq]
    isplitl [Howes]; · iexact Howes
    iexact Hrest
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexists g; isplitr
  · ipureintro; exact hg
  · iexact Hv5

end Cert.KernelIdeal.Main

end
-- ==== Proof.KRun.lean ====
/-
  The kernel program's run: every weakly fair execution of the TensorCore's @main beside the SparseCores'
  sequencers and tiles terminates, nothing faulting, with the seven arguments unchanged and the result at the
  finishing pass of a gathered array that agrees, tile by tile, with the gather of a table pairing the transposed
  word table. From the tile's body's run and the two regions' runs, by the SparseCore launch theorem.
-/
import proofs.«205025_g42520176230720_cont_8to1_b_1509_29_alg».proof.Proof.KHmain

noncomputable section

namespace Cert.KernelIdeal.Main

open Cert.KernelIdeal Cert.KernelIdeal.Gen Cert.KernelIdeal.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

omit [FloatOps F] [∀ e, Nonempty (Elt F e)] m ρ in
/-- An array held whole beside the state's interpretation is the state's. -/
theorem agree_keep {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

/-- What the final memory of device `d` holds. -/
def fqM (d : Dev nD) (μ : MemSt nD τ sig (Elt F)) : Prop :=
  μ.mem (aLoc d main_arg0) = m (aLoc d main_arg0) ∧ μ.mem (aLoc d main_arg1) = m (aLoc d main_arg1)
  ∧ μ.mem (aLoc d main_arg2) = m (aLoc d main_arg2) ∧ μ.mem (aLoc d main_arg3) = m (aLoc d main_arg3)
  ∧ μ.mem (aLoc d main_arg4) = m (aLoc d main_arg4) ∧ μ.mem (aLoc d main_arg5) = m (aLoc d main_arg5)
  ∧ μ.mem (aLoc d main_arg6) = m (aLoc d main_arg6)
  ∧ ∃ g, GathOK m d g ∧ μ.mem (aLoc d main_v5) = Reg.Finish (F := F) (blk d g) (m (aLoc d main_arg0)) (m (aLoc d main_arg1)) (m (aLoc d main_arg3)) (m (aLoc d main_arg4)) (m (aLoc d main_arg5)) (m (aLoc d main_arg6))

def fq (d : Dev nD) (s' : Phys nD τ sig (Elt F)) : Prop := fqM m d s'.mem

theorem hfin (d : Dev nD) (s' : Phys nD τ sig (Elt F)) : iprop(FIN m d ∗ SI s') ⊢ (⌜fq m d s'⌝ : sProp 𝕄) := by
  unfold FIN
  iintro ⟨⟨Ha0, Ha1, Ha2, Ha3, Ha4, Ha5, Ha6, %g, %hg, Hv5⟩, HSI⟩
  ihave H := (agree_keep (F := F) _ s') $$ [HSI Ha0]
  · isplitl [HSI] <;> iassumption
  icases H with ⟨%e0, HSI⟩
  ihave H := (agree_keep (F := F) _ s') $$ [HSI Ha1]
  · isplitl [HSI] <;> iassumption
  icases H with ⟨%e1, HSI⟩
  ihave H := (agree_keep (F := F) _ s') $$ [HSI Ha2]
  · isplitl [HSI] <;> iassumption
  icases H with ⟨%e2, HSI⟩
  ihave H := (agree_keep (F := F) _ s') $$ [HSI Ha3]
  · isplitl [HSI] <;> iassumption
  icases H with ⟨%e3, HSI⟩
  ihave H := (agree_keep (F := F) _ s') $$ [HSI Ha4]
  · isplitl [HSI] <;> iassumption
  icases H with ⟨%e4, HSI⟩
  ihave H := (agree_keep (F := F) _ s') $$ [HSI Ha5]
  · isplitl [HSI] <;> iassumption
  icases H with ⟨%e5, HSI⟩
  ihave H := (agree_keep (F := F) _ s') $$ [HSI Ha6]
  · isplitl [HSI] <;> iassumption
  icases H with ⟨%e6, HSI⟩
  ihave H := (agree_keep (F := F) _ s') $$ [HSI Hv5]
  · isplitl [HSI] <;> iassumption
  icases H with ⟨%e7, -⟩
  ipureintro
  exact ⟨e0, e1, e2, e3, e4, e5, e6, g, hg, e7⟩

/-- The claim of the run: on every device the final memory holds `fqM`. -/
def QC : PUnit × MemSt nD τ sig (Elt F) → Prop := fun r => ∀ c : Dev nD, fqM m c r.2

theorem run_main (hsrc : SrcOK m) (hb : TileRun (F := F)) (h0 : Region0Run (F := F)) (h2 : Region2Run (F := F)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hsrc hb)
    (fun q _ => match q with | 0 => SparseCore.Cfg.VecSplit.of_plain (vecSplit m))
    m ρ main (G (F := F)) (FIN m) (u₀ (F := F)) (sep_elim_left.trans (hu₀ m)) (hmain m ρ h0 h2) (fq m) (hfin m) (QC m) (fun _ h => h)

end Cert.KernelIdeal.Main

end
-- ==== Proof.RefRun.lean ====
/-
  The reference program's run, read back by hand. Its @main calls three module-local functions (jnp.take's helper, once per
  table: the index normalised `i < 0 ? i + N : i`, broadcast to a trailing unit axis, the in-range mask `0 ≤ i ≤ N − 1`
  and-reduced over that axis, the gather, and the select between the gathered row and a NaN splat), each calling the
  `where` helper once. With the functions' bodies unfolded at their call sites and the calls' buffer records at their
  fields, @main is a straight line of 103 StableHLO operations (`ops`); every buffer ends at the operations' fold over the
  launch contents, which at the result buffer is the pure term `out` of the seven arguments' contents and at each
  argument buffer is what was there.
-/
import proofs.«205025_g42520176230720_cont_8to1_b_1509_29_alg».proof.ReferenceIdeal
import proofs.«205025_g42520176230720_cont_8to1_b_1509_29_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure term -/

/-- The start indices of a take from an `n`-row table at a [1024,512] index array: `i < 0 ? i + n : i`, with a trailing unit axis. -/
def idx3 (a : IVec S1024x512 32) (n : BitVec 32) : IVec S1024x512x1 32 :=
  broadcastInDim S1024x512x1 ![0, 1] bcast_S1024x512_S1024x512x1_0_1
    (select (cmpi .slt a (broadcastInDim S1024x512 ![] bcast_S_S1024x512 (constantI S_ 32 0#32)))
      (addi a (broadcastInDim S1024x512 ![] bcast_S_S1024x512 (constantI S_ 32 n))) a)

/-- The in-range mask of those start indices, `0 ≤ i ≤ hi`, and-reduced over the unit axis. -/
def ok3 (i : IVec S1024x512x1 32) (hi : BitVec 32) : IVec S1024x512 1 :=
  Host.reduce IntOp.andi
    (andi (cmpi .sge i (broadcastInDim S1024x512x1 ![] bcast_S_S1024x512x1 (constantI S_ 32 0#32)))
      (cmpi .sle i (broadcastInDim S1024x512x1 ![0, 1, 2] bcast_S1x1x1_S1024x512x1_0_1_2
        (broadcastInDim S1x1x1 ![2] bcast_S1_S1x1x1_2 (constantI S1 32 hi)))))
    (constantI S_ 1 1#1) reducesTo_S1024x512x1_S1024x512_d2 h_S_

/-- The NaN splat a take selects where its index is out of range. -/
def nan3 : FVec F S1024x512x64 .f32 :=
  broadcastInDim S1024x512x64 ![] bcast_S_S1024x512x64 (constant S_ .f32 0x7FC00000#32)

/-- The word rows: the take from the [1000000,64] table at `src`. -/
def word (a2 : FVec F S1000000x64 .f32) (a0 : IVec S1024x512 32) : FVec F S1024x512x64 .f32 :=
  select (broadcastInDim S1024x512x64 ![0, 1] bcast_S1024x512_S1024x512x64_0_1 (ok3 (idx3 a0 1000000#32) 999999#32))
    (Host.gather gather_S1000000x64_S1024x512x1_S1024x512x64_2_0_n_n_0_2_164 a2 (idx3 a0 1000000#32)) nan3

/-- The segment rows: the take from the [3,64] table at `seg`. -/
def segr (a4 : FVec F S3x64 .f32) (a1 : IVec S1024x512 32) : FVec F S1024x512x64 .f32 :=
  select (broadcastInDim S1024x512x64 ![0, 1] bcast_S1024x512_S1024x512x64_0_1 (ok3 (idx3 a1 3#32) 2#32))
    (Host.gather gather_S3x64_S1024x512x1_S1024x512x64_2_0_n_n_0_2_164 a4 (idx3 a1 3#32)) nan3

/-- The start indices of the position take: the iota 0..511, normalised, with a trailing unit axis. -/
def idxP : IVec S512x1 32 :=
  broadcastInDim S512x1 ![0] bcast_S512_S512x1_0
    (select (cmpi .slt (iotaInDim S512 32 0) (broadcastInDim S512 ![] bcast_S_S512 (constantI S_ 32 0#32)))
      (addi (iotaInDim S512 32 0) (broadcastInDim S512 ![] bcast_S_S512 (constantI S_ 32 512#32))) (iotaInDim S512 32 0))

/-- Their in-range mask. -/
def okP : IVec S512 1 :=
  Host.reduce IntOp.andi
    (andi (cmpi .sge idxP (broadcastInDim S512x1 ![] bcast_S_S512x1 (constantI S_ 32 0#32)))
      (cmpi .sle idxP (broadcastInDim S512x1 ![0, 1] bcast_S1x1_S512x1_0_1
        (broadcastInDim S1x1 ![1] bcast_S1_S1x1_1 (constantI S1 32 511#32)))))
    (constantI S_ 1 1#1) reducesTo_S512x1_S512_d1 h_S_

/-- The position rows: the take from the [512,64] table at 0..511. -/
def posr (a3 : FVec F S512x64 .f32) : FVec F S512x64 .f32 :=
  select (broadcastInDim S512x64 ![0] bcast_S512_S512x64_0 okP)
    (Host.gather gather_S512x64_S512x1_S512x64_1_0_n_n_0_1_164 a3 idxP)
    (broadcastInDim S512x64 ![] bcast_S_S512x64 (constant S_ .f32 0x7FC00000#32))

/-- The summed embedding: (word + position, broadcast over the batch) + segment. -/
def emb (a0 a1 : IVec S1024x512 32) (a2 : FVec F S1000000x64 .f32) (a3 : FVec F S512x64 .f32) (a4 : FVec F S3x64 .f32) :
    FVec F S1024x512x64 .f32 :=
  addf (addf (word a2 a0)
      (broadcastInDim S1024x512x64 ![0, 1, 2] bcast_S1x512x64_S1024x512x64_0_1_2
        (broadcastInDim S1x512x64 ![1, 2] bcast_S512x64_S1x512x64_1_2 (posr a3))))
    (segr a4 a1)

/-- The mean over the last axis, kept as a unit axis: the host sum from the zero word, divided by the splat 64. -/
def meanK (x : FVec F S1024x512x64 .f32) : FVec F S1024x512x1 .f32 :=
  Host.divf
    (broadcastInDim S1024x512x1 ![0, 1] bcast_S1024x512_S1024x512x1_0_1
      (Host.reduceAdd x (constant S_ .f32 0x00000000#32) reducesTo_S1024x512x64_S1024x512_d2 h_S_))
    (broadcastInDim S1024x512x1 ![] bcast_S_S1024x512x1 (constant S_ .f32 0x42800000#32))

/-- `x` minus its mean, the mean broadcast back over the last axis. -/
def centred (x : FVec F S1024x512x64 .f32) : FVec F S1024x512x64 .f32 :=
  subf x (broadcastInDim S1024x512x64 ![0, 1, 2] bcast_S1024x512x1_S1024x512x64_0_1_2 (meanK x))

/-- The normalised embedding: centred, divided by the square root of the mean square of the centred plus the epsilon word. -/
def normed (x : FVec F S1024x512x64 .f32) : FVec F S1024x512x64 .f32 :=
  Host.divf (centred x)
    (broadcastInDim S1024x512x64 ![0, 1, 2] bcast_S1024x512x1_S1024x512x64_0_1_2
      (Host.sqrt (addf (meanK (mulf (centred x) (centred x)))
        (broadcastInDim S1024x512x1 ![] bcast_S_S1024x512x1 (constant S_ .f32 0x358637BD#32)))))

/-- A [64] vector broadcast over [1024,512,64] along the last axis. -/
def lastAxis (v : FVec F S64 .f32) : FVec F S1024x512x64 .f32 :=
  broadcastInDim S1024x512x64 ![0, 1, 2] bcast_S1x1x64_S1024x512x64_0_1_2 (broadcastInDim S1x1x64 ![2] bcast_S64_S1x1x64_2 v)

/-- What the reference computes from the seven arguments' contents. -/
def out (a0 a1 : IVec S1024x512 32) (a2 : FVec F S1000000x64 .f32) (a3 : FVec F S512x64 .f32) (a4 : FVec F S3x64 .f32)
    (a5 a6 : FVec F S64 .f32) : FVec F S1024x512x64 .f32 :=
  addf (mulf (normed (emb a0 a1 a2 a3 a4)) (lastAxis a5)) (lastAxis a6)

/-! ## The operations -/

/-- @main's 103 operations in order, the three takes (23 each, the `where` helper's select among them) unfolded at their call sites. -/
abbrev ops : List (HloOp τ sig (Elt F)) :=
  [
    StableHlo.TRef.nullary main_call0.c (constantI S_ 32 0#32),
    StableHlo.TRef.unary main_call0.c main_call0.v0 (broadcastInDim S1024x512 ![] bcast_S_S1024x512),
    StableHlo.TRef.binary (.of main_arg0) main_call0.v0 main_call0.v1 (cmpi .slt),
    StableHlo.TRef.nullary main_call0.c_0 (constantI S_ 32 1000000#32),
    StableHlo.TRef.unary main_call0.c_0 main_call0.v2 (broadcastInDim S1024x512 ![] bcast_S_S1024x512),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S1024x512x1 ![0, 1] bcast_S1024x512_S1024x512x1_0_1),
    StableHlo.TRef.nullary main_call0.c_1 (constantI S1 32 999999#32),
    StableHlo.TRef.nullary main_call0.c_2 (constantI S_ 32 0#32),
    StableHlo.TRef.unary main_call0.c_2 main_call0.v6 (broadcastInDim S1024x512x1 ![] bcast_S_S1024x512x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x512x1 ![0, 1, 2] bcast_S1x1x1_S1024x512x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x512x1_S1024x512_d2 h_S_),
    StableHlo.TRef.binary (.of main_arg2) main_call0.v5 main_call0.v13 (fun x i => Host.gather gather_S1000000x64_S1024x512x1_S1024x512x64_2_0_n_n_0_2_164 x i),
    StableHlo.TRef.unary main_call0.v12 main_call0.v14 (broadcastInDim S1024x512x64 ![0, 1] bcast_S1024x512_S1024x512x64_0_1),
    StableHlo.TRef.nullary main_call0.cst (constant S_ .f32 0x7FC00000#32),
    StableHlo.TRef.unary main_call0.cst main_call0.v15 (broadcastInDim S1024x512x64 ![] bcast_S_S1024x512x64),
    StableHlo.TRef.ternary main_call0.v14 main_call0.v13 main_call0.v15 main_call0.v16 select,
    StableHlo.nullary main_v1 (iotaInDim S512 32 0),
    StableHlo.TRef.nullary main_call1.c (constantI S_ 32 0#32),
    StableHlo.TRef.unary main_call1.c main_call1.v0 (broadcastInDim S512 ![] bcast_S_S512),
    StableHlo.TRef.binary (.of main_v1) main_call1.v0 main_call1.v1 (cmpi .slt),
    StableHlo.TRef.nullary main_call1.c_0 (constantI S_ 32 512#32),
    StableHlo.TRef.unary main_call1.c_0 main_call1.v2 (broadcastInDim S512 ![] bcast_S_S512),
    StableHlo.TRef.binary (.of main_v1) main_call1.v2 main_call1.v3 addi,
    StableHlo.TRef.ternary main_call1.v1 main_call1.v3 (.of main_v1) main_call1.call0.v0 select,
    StableHlo.TRef.unary main_call1.call0.v0 main_call1.v5 (broadcastInDim S512x1 ![0] bcast_S512_S512x1_0),
    StableHlo.TRef.nullary main_call1.c_1 (constantI S1 32 511#32),
    StableHlo.TRef.nullary main_call1.c_2 (constantI S_ 32 0#32),
    StableHlo.TRef.unary main_call1.c_2 main_call1.v6 (broadcastInDim S512x1 ![] bcast_S_S512x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S512x1 ![0, 1] bcast_S1x1_S512x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S512x1_S512_d1 h_S_),
    StableHlo.TRef.binary (.of main_arg3) main_call1.v5 main_call1.v13 (fun x i => Host.gather gather_S512x64_S512x1_S512x64_1_0_n_n_0_1_164 x i),
    StableHlo.TRef.unary main_call1.v12 main_call1.v14 (broadcastInDim S512x64 ![0] bcast_S512_S512x64_0),
    StableHlo.TRef.nullary main_call1.cst (constant S_ .f32 0x7FC00000#32),
    StableHlo.TRef.unary main_call1.cst main_call1.v15 (broadcastInDim S512x64 ![] bcast_S_S512x64),
    StableHlo.TRef.ternary main_call1.v14 main_call1.v13 main_call1.v15 main_call1.v16 select,
    StableHlo.unary main_v2 main_v3 (broadcastInDim S1x512x64 ![1, 2] bcast_S512x64_S1x512x64_1_2 : (⟨S512x64, .f32⟩ : BufTy).Contents (Elt F) → (⟨S1x512x64, .f32⟩ : BufTy).Contents (Elt F)),
    StableHlo.TRef.nullary main_call2.c (constantI S_ 32 0#32),
    StableHlo.TRef.unary main_call2.c main_call2.v0 (broadcastInDim S1024x512 ![] bcast_S_S1024x512),
    StableHlo.TRef.binary (.of main_arg1) main_call2.v0 main_call2.v1 (cmpi .slt),
    StableHlo.TRef.nullary main_call2.c_0 (constantI S_ 32 3#32),
    StableHlo.TRef.unary main_call2.c_0 main_call2.v2 (broadcastInDim S1024x512 ![] bcast_S_S1024x512),
    StableHlo.TRef.binary (.of main_arg1) main_call2.v2 main_call2.v3 addi,
    StableHlo.TRef.ternary main_call2.v1 main_call2.v3 (.of main_arg1) main_call2.call0.v0 select,
    StableHlo.TRef.unary main_call2.call0.v0 main_call2.v5 (broadcastInDim S1024x512x1 ![0, 1] bcast_S1024x512_S1024x512x1_0_1),
    StableHlo.TRef.nullary main_call2.c_1 (constantI S1 32 2#32),
    StableHlo.TRef.nullary main_call2.c_2 (constantI S_ 32 0#32),
    StableHlo.TRef.unary main_call2.c_2 main_call2.v6 (broadcastInDim S1024x512x1 ![] bcast_S_S1024x512x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x512x1 ![0, 1, 2] bcast_S1x1x1_S1024x512x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x512x1_S1024x512_d2 h_S_),
    StableHlo.TRef.binary (.of main_arg4) main_call2.v5 main_call2.v13 (fun x i => Host.gather gather_S3x64_S1024x512x1_S1024x512x64_2_0_n_n_0_2_164 x i),
    StableHlo.TRef.unary main_call2.v12 main_call2.v14 (broadcastInDim S1024x512x64 ![0, 1] bcast_S1024x512_S1024x512x64_0_1),
    StableHlo.TRef.nullary main_call2.cst (constant S_ .f32 0x7FC00000#32),
    StableHlo.TRef.unary main_call2.cst main_call2.v15 (broadcastInDim S1024x512x64 ![] bcast_S_S1024x512x64),
    StableHlo.TRef.ternary main_call2.v14 main_call2.v13 main_call2.v15 main_call2.v16 select,
    StableHlo.unary main_v3 main_v5 (broadcastInDim S1024x512x64 ![0, 1, 2] bcast_S1x512x64_S1024x512x64_0_1_2 : (⟨S1x512x64, .f32⟩ : BufTy).Contents (Elt F) → (⟨S1024x512x64, .f32⟩ : BufTy).Contents (Elt F)),
    StableHlo.binary main_v0 main_v5 main_v6 (addf : (⟨S1024x512x64, .f32⟩ : BufTy).Contents (Elt F) → (⟨S1024x512x64, .f32⟩ : BufTy).Contents (Elt F) → (⟨S1024x512x64, .f32⟩ : BufTy).Contents (Elt F)),
    StableHlo.binary main_v6 main_v4 main_v7 (addf : (⟨S1024x512x64, .f32⟩ : BufTy).Contents (Elt F) → (⟨S1024x512x64, .f32⟩ : BufTy).Contents (Elt F) → (⟨S1024x512x64, .f32⟩ : BufTy).Contents (Elt F)),
    StableHlo.nullary main_cst (constant S_ .f32 0x00000000#32),
    StableHlo.binary main_v7 main_cst main_v8 ((fun x v => Host.reduceAdd x v reducesTo_S1024x512x64_S1024x512_d2 h_S_) : (⟨S1024x512x64, .f32⟩ : BufTy).Contents (Elt F) → (⟨S_, .f32⟩ : BufTy).Contents (Elt F) → (⟨S1024x512, .f32⟩ : BufTy).Contents (Elt F)),
    StableHlo.unary main_v8 main_v9 (broadcastInDim S1024x512x1 ![0, 1] bcast_S1024x512_S1024x512x1_0_1 : (⟨S1024x512, .f32⟩ : BufTy).Contents (Elt F) → (⟨S1024x512x1, .f32⟩ : BufTy).Contents (Elt F)),
    StableHlo.nullary main_cst_0 (constant S_ .f32 0x42800000#32),
    StableHlo.unary main_cst_0 main_v10 (broadcastInDim S1024x512x1 ![] bcast_S_S1024x512x1 : (⟨S_, .f32⟩ : BufTy).Contents (Elt F) → (⟨S1024x512x1, .f32⟩ : BufTy).Contents (Elt F)),
    StableHlo.binary main_v9 main_v10 main_v11 (Host.divf : (⟨S1024x512x1, .f32⟩ : BufTy).Contents (Elt F) → (⟨S1024x512x1, .f32⟩ : BufTy).Contents (Elt F) → (⟨S1024x512x1, .f32⟩ : BufTy).Contents (Elt F)),
    StableHlo.unary main_v11 main_v12 (broadcastInDim S1024x512x64 ![0, 1, 2] bcast_S1024x512x1_S1024x512x64_0_1_2 : (⟨S1024x512x1, .f32⟩ : BufTy).Contents (Elt F) → (⟨S1024x512x64, .f32⟩ : BufTy).Contents (Elt F)),
    StableHlo.binary main_v7 main_v12 main_v13 (subf : (⟨S1024x512x64, .f32⟩ : BufTy).Contents (Elt F) → (⟨S1024x512x64, .f32⟩ : BufTy).Contents (Elt F) → (⟨S1024x512x64, .f32⟩ : BufTy).Contents (Elt F)),
    StableHlo.binary main_v13 main_v13 main_v14 (mulf : (⟨S1024x512x64, .f32⟩ : BufTy).Contents (Elt F) → (⟨S1024x512x64, .f32⟩ : BufTy).Contents (Elt F) → (⟨S1024x512x64, .f32⟩ : BufTy).Contents (Elt F)),
    StableHlo.nullary main_cst_1 (constant S_ .f32 0x00000000#32),
    StableHlo.binary main_v14 main_cst_1 main_v15 ((fun x v => Host.reduceAdd x v reducesTo_S1024x512x64_S1024x512_d2 h_S_) : (⟨S1024x512x64, .f32⟩ : BufTy).Contents (Elt F) → (⟨S_, .f32⟩ : BufTy).Contents (Elt F) → (⟨S1024x512, .f32⟩ : BufTy).Contents (Elt F)),
    StableHlo.unary main_v15 main_v16 (broadcastInDim S1024x512x1 ![0, 1] bcast_S1024x512_S1024x512x1_0_1 : (⟨S1024x512, .f32⟩ : BufTy).Contents (Elt F) → (⟨S1024x512x1, .f32⟩ : BufTy).Contents (Elt F)),
    StableHlo.nullary main_cst_2 (constant S_ .f32 0x42800000#32),
    StableHlo.unary main_cst_2 main_v17 (broadcastInDim S1024x512x1 ![] bcast_S_S1024x512x1 : (⟨S_, .f32⟩ : BufTy).Contents (Elt F) → (⟨S1024x512x1, .f32⟩ : BufTy).Contents (Elt F)),
    StableHlo.binary main_v16 main_v17 main_v18 (Host.divf : (⟨S1024x512x1, .f32⟩ : BufTy).Contents (Elt F) → (⟨S1024x512x1, .f32⟩ : BufTy).Contents (Elt F) → (⟨S1024x512x1, .f32⟩ : BufTy).Contents (Elt F)),
    StableHlo.unary main_v11 main_v19 (broadcastInDim S1024x512x64 ![0, 1, 2] bcast_S1024x512x1_S1024x512x64_0_1_2 : (⟨S1024x512x1, .f32⟩ : BufTy).Contents (Elt F) → (⟨S1024x512x64, .f32⟩ : BufTy).Contents (Elt F)),
    StableHlo.binary main_v7 main_v19 main_v20 (subf : (⟨S1024x512x64, .f32⟩ : BufTy).Contents (Elt F) → (⟨S1024x512x64, .f32⟩ : BufTy).Contents (Elt F) → (⟨S1024x512x64, .f32⟩ : BufTy).Contents (Elt F)),
    StableHlo.nullary main_cst_3 (constant S_ .f32 0x358637BD#32),
    StableHlo.unary main_cst_3 main_v21 (broadcastInDim S1024x512x1 ![] bcast_S_S1024x512x1 : (⟨S_, .f32⟩ : BufTy).Contents (Elt F) → (⟨S1024x512x1, .f32⟩ : BufTy).Contents (Elt F)),
    StableHlo.binary main_v18 main_v21 main_v22 (addf : (⟨S1024x512x1, .f32⟩ : BufTy).Contents (Elt F) → (⟨S1024x512x1, .f32⟩ : BufTy).Contents (Elt F) → (⟨S1024x512x1, .f32⟩ : BufTy).Contents (Elt F)),
    StableHlo.unary main_v22 main_v23 (Host.sqrt : (⟨S1024x512x1, .f32⟩ : BufTy).Contents (Elt F) → (⟨S1024x512x1, .f32⟩ : BufTy).Contents (Elt F)),
    StableHlo.unary main_v23 main_v24 (broadcastInDim S1024x512x64 ![0, 1, 2] bcast_S1024x512x1_S1024x512x64_0_1_2 : (⟨S1024x512x1, .f32⟩ : BufTy).Contents (Elt F) → (⟨S1024x512x64, .f32⟩ : BufTy).Contents (Elt F)),
    StableHlo.binary main_v20 main_v24 main_v25 (Host.divf : (⟨S1024x512x64, .f32⟩ : BufTy).Contents (Elt F) → (⟨S1024x512x64, .f32⟩ : BufTy).Contents (Elt F) → (⟨S1024x512x64, .f32⟩ : BufTy).Contents (Elt F)),
    StableHlo.unary main_arg5 main_v26 (broadcastInDim S1x1x64 ![2] bcast_S64_S1x1x64_2 : (⟨S64, .f32⟩ : BufTy).Contents (Elt F) → (⟨S1x1x64, .f32⟩ : BufTy).Contents (Elt F)),
    StableHlo.unary main_v26 main_v27 (broadcastInDim S1024x512x64 ![0, 1, 2] bcast_S1x1x64_S1024x512x64_0_1_2 : (⟨S1x1x64, .f32⟩ : BufTy).Contents (Elt F) → (⟨S1024x512x64, .f32⟩ : BufTy).Contents (Elt F)),
    StableHlo.binary main_v25 main_v27 main_v28 (mulf : (⟨S1024x512x64, .f32⟩ : BufTy).Contents (Elt F) → (⟨S1024x512x64, .f32⟩ : BufTy).Contents (Elt F) → (⟨S1024x512x64, .f32⟩ : BufTy).Contents (Elt F)),
    StableHlo.unary main_arg6 main_v29 (broadcastInDim S1x1x64 ![2] bcast_S64_S1x1x64_2 : (⟨S64, .f32⟩ : BufTy).Contents (Elt F) → (⟨S1x1x64, .f32⟩ : BufTy).Contents (Elt F)),
    StableHlo.unary main_v29 main_v30 (broadcastInDim S1024x512x64 ![0, 1, 2] bcast_S1x1x64_S1024x512x64_0_1_2 : (⟨S1x1x64, .f32⟩ : BufTy).Contents (Elt F) → (⟨S1024x512x64, .f32⟩ : BufTy).Contents (Elt F)),
    StableHlo.binary main_v28 main_v30 main_v31 (addf : (⟨S1024x512x64, .f32⟩ : BufTy).Contents (Elt F) → (⟨S1024x512x64, .f32⟩ : BufTy).Contents (Elt F) → (⟨S1024x512x64, .f32⟩ : BufTy).Contents (Elt F)) ]

-- 103 binds re-associated: the rewrite under the chain recurses once per statement
set_option maxRecDepth 4096 in
set_option maxHeartbeats 4000000 in
/-- @main is that straight line: the functions' definitions unfolded at their calls and the records at their fields. -/
theorem main_eq (c : Dev nD) : main (F := F) c = seq ops := by
  simp only [main, fn_take.body, fn_take_0.body, fn_take_2.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## What each buffer holds after the line -/

attribute [local irreducible] Host.reduce Host.gather Host.reduceAdd in
set_option maxRecDepth 8192 in
set_option maxHeartbeats 4000000 in
/-- The fold at the result buffer is `out` of the arguments' contents. -/
theorem out_eq (V : Valuation τ sig (Elt F)) :
    after ops V (main_v31 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  after_results_simp
  rfl

set_option maxHeartbeats 4000000 in
/-- No operation writes argument 0: its buffer ends as it was. -/
theorem arg0_eq (V : Valuation τ sig (Elt F)) :
    after ops V (main_arg0 : DevRef τ sig) = V (main_arg0 : DevRef τ sig) := by
  after_results_simp

set_option maxHeartbeats 4000000 in
/-- No operation writes argument 1: its buffer ends as it was. -/
theorem arg1_eq (V : Valuation τ sig (Elt F)) :
    after ops V (main_arg1 : DevRef τ sig) = V (main_arg1 : DevRef τ sig) := by
  after_results_simp

set_option maxHeartbeats 4000000 in
/-- No operation writes argument 2: its buffer ends as it was. -/
theorem arg2_eq (V : Valuation τ sig (Elt F)) :
    after ops V (main_arg2 : DevRef τ sig) = V (main_arg2 : DevRef τ sig) := by
  after_results_simp

set_option maxHeartbeats 4000000 in
/-- No operation writes argument 3: its buffer ends as it was. -/
theorem arg3_eq (V : Valuation τ sig (Elt F)) :
    after ops V (main_arg3 : DevRef τ sig) = V (main_arg3 : DevRef τ sig) := by
  after_results_simp

set_option maxHeartbeats 4000000 in
/-- No operation writes argument 4: its buffer ends as it was. -/
theorem arg4_eq (V : Valuation τ sig (Elt F)) :
    after ops V (main_arg4 : DevRef τ sig) = V (main_arg4 : DevRef τ sig) := by
  after_results_simp

set_option maxHeartbeats 4000000 in
/-- No operation writes argument 5: its buffer ends as it was. -/
theorem arg5_eq (V : Valuation τ sig (Elt F)) :
    after ops V (main_arg5 : DevRef τ sig) = V (main_arg5 : DevRef τ sig) := by
  after_results_simp

set_option maxHeartbeats 4000000 in
/-- No operation writes argument 6: its buffer ends as it was. -/
theorem arg6_eq (V : Valuation τ sig (Elt F)) :
    after ops V (main_arg6 : DevRef τ sig) = V (main_arg6 : DevRef τ sig) := by
  after_results_simp

/-! ## The run -/

/-- At the compiled mesh, for any float values, from any memory with zero counters: every weakly fair execution of @main on the
    TensorCores terminates, and every final state has every TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same with the result named and the arguments unchanged: the result buffer ends at `out` of the arguments' launch
    contents, each argument buffer as it was. -/
theorem run (m : (ℓ : Loc nD τ sig) → Buf (Elt F) ℓ) (g : Dev nD → PrngReg) :
    θ_run (Cert.ReferenceIdeal.defs (F := F)) (onTc (τ := Cert.ReferenceIdeal.τ) (Cert.ReferenceIdeal.main (F := F))) ⟨m, fun _ => 0, g⟩
      (fun r => ∀ c : Dev Cert.ReferenceIdeal.nD,
        r.2.mem ((c.tc : Thread nD τ).loc main_v31)
            = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨(h c main_v31).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m g)

end Cert.ReferenceIdeal.RefRun

end
-- ==== Proof.LibEFinite.lean ====
/-
  Finite entries on the extended reals.

  An extended real is FINITE when it is a real number (`IsFin`), POSITIVE / NONNEGATIVE when it is a positive /
  nonnegative real (`IsPos`, `IsNonneg`); an array is all-finite when every entry is (`AllFin`, `AllPos`, `AllNonneg`).
  On finite entries the extended reals' sum, difference, product, maximum and finite sums are the reals' (the
  coercion of a finite sum of reals is the sum of the coercions, `coe_sum`), division by a nonzero real is the real
  quotient (`div_coe_coe`), and the reciprocal square root of a positive real is a positive real (`rsqrt_coe_pos`).
  So every operation a network layer is built from keeps all-finite arrays all-finite: the pointwise operations,
  a gather, a scatter-add, a sum over an axis, a matrix product, and the re-indexings (broadcast, reshape, slice),
  each of whose result entries is a source entry. The float words `0`, `1`, `100000` and the word nearest `1e-5`
  denote the reals they should; one plus the number of updates landing on an entry is positive (`allPos_degree`).
  Last: a variance's divisor `100000 - 0` is `100000` and the select on its sign takes the quotient
  (`select_divisor_pos`); an entry whose absolute value compares below the infinity word is finite
  (`isFin_of_abs_lt_inf`); a normalised entry `(a - m) * rsqrt (v + e) * g + b` is finite (`isFin_normalised`).
-/
import Idealize.ShloMosaic.PureOps.Ideal.Laws
import Idealize.ShloMosaic.Lib.ValueIdx

noncomputable section

open Idealize.ShloMosaic
open Idealize.ShloMosaic.ValueIdx

namespace Cert.Gcn

/-! ## Finite, positive, nonnegative -/

/-- An extended real that is a real number. -/
def IsFin (x : EReal) : Prop := ∃ r : ℝ, x = (r : EReal)
/-- An extended real that is a positive real number. -/
def IsPos (x : EReal) : Prop := ∃ r : ℝ, 0 < r ∧ x = (r : EReal)
/-- An extended real that is a nonnegative real number. -/
def IsNonneg (x : EReal) : Prop := ∃ r : ℝ, 0 ≤ r ∧ x = (r : EReal)
/-- Every entry is a real number. -/
def AllFin {ι : Type} (a : ι → EReal) : Prop := ∀ i, IsFin (a i)
/-- Every entry is a positive real number. -/
def AllPos {ι : Type} (a : ι → EReal) : Prop := ∀ i, IsPos (a i)
/-- Every entry is a nonnegative real number. -/
def AllNonneg {ι : Type} (a : ι → EReal) : Prop := ∀ i, IsNonneg (a i)

theorem isFin_coe (r : ℝ) : IsFin (r : EReal) := ⟨r, rfl⟩
theorem isFin_zero : IsFin 0 := ⟨0, EReal.coe_zero.symm⟩
theorem isFin_one : IsFin 1 := ⟨1, EReal.coe_one.symm⟩
theorem isPos_coe {r : ℝ} (h : 0 < r) : IsPos (r : EReal) := ⟨r, h, rfl⟩
theorem isNonneg_coe {r : ℝ} (h : 0 ≤ r) : IsNonneg (r : EReal) := ⟨r, h, rfl⟩
theorem isPos_one : IsPos 1 := ⟨1, one_pos, EReal.coe_one.symm⟩
theorem isNonneg_zero : IsNonneg 0 := ⟨0, le_refl _, EReal.coe_zero.symm⟩
theorem IsPos.isNonneg {x : EReal} (h : IsPos x) : IsNonneg x := let ⟨r, hr, e⟩ := h; ⟨r, hr.le, e⟩
theorem IsPos.isFin {x : EReal} (h : IsPos x) : IsFin x := let ⟨r, _, e⟩ := h; ⟨r, e⟩
theorem IsNonneg.isFin {x : EReal} (h : IsNonneg x) : IsFin x := let ⟨r, _, e⟩ := h; ⟨r, e⟩
theorem AllPos.allNonneg {ι : Type} {a : ι → EReal} (h : AllPos a) : AllNonneg a := fun i => (h i).isNonneg
theorem AllPos.allFin {ι : Type} {a : ι → EReal} (h : AllPos a) : AllFin a := fun i => (h i).isFin
theorem AllNonneg.allFin {ι : Type} {a : ι → EReal} (h : AllNonneg a) : AllFin a := fun i => (h i).isFin
/-- A finite extended real is neither infinity. -/
theorem IsFin.ne_top {x : EReal} (h : IsFin x) : x ≠ ⊤ := by obtain ⟨r, rfl⟩ := h; exact EReal.coe_ne_top r
theorem IsFin.ne_bot {x : EReal} (h : IsFin x) : x ≠ ⊥ := by obtain ⟨r, rfl⟩ := h; exact EReal.coe_ne_bot r
/-- And conversely. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-! ## The arithmetic of finite extended reals is the reals' -/

/-- The coercion of a maximum of reals is the maximum of the coercions. -/
theorem coe_max (a b : ℝ) : ((max a b : ℝ) : EReal) = max (a : EReal) (b : EReal) :=
  EReal.coe_strictMono.monotone.map_max

theorem isFin_add {x y : EReal} (hx : IsFin x) (hy : IsFin y) : IsFin (x + y) := by
  obtain ⟨a, rfl⟩ := hx; obtain ⟨b, rfl⟩ := hy; exact ⟨a + b, (EReal.coe_add a b).symm⟩
theorem isFin_sub {x y : EReal} (hx : IsFin x) (hy : IsFin y) : IsFin (x - y) := by
  obtain ⟨a, rfl⟩ := hx; obtain ⟨b, rfl⟩ := hy; exact ⟨a - b, (EReal.coe_sub a b).symm⟩
theorem isFin_mul {x y : EReal} (hx : IsFin x) (hy : IsFin y) : IsFin (x * y) := by
  obtain ⟨a, rfl⟩ := hx; obtain ⟨b, rfl⟩ := hy; exact ⟨a * b, (EReal.coe_mul a b).symm⟩
theorem isFin_neg {x : EReal} (hx : IsFin x) : IsFin (-x) := by
  obtain ⟨a, rfl⟩ := hx; exact ⟨-a, (EReal.coe_neg a).symm⟩
theorem isFin_max {x y : EReal} (hx : IsFin x) (hy : IsFin y) : IsFin (max x y) := by
  obtain ⟨a, rfl⟩ := hx; obtain ⟨b, rfl⟩ := hy; exact ⟨max a b, (coe_max a b).symm⟩

theorem isNonneg_add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem isNonneg_mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
theorem isPos_mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- A positive plus a nonnegative is positive. -/
theorem isPos_add_isNonneg {x y : EReal} (hx : IsPos x) (hy : IsNonneg y) : IsPos (x + y) := by
  obtain ⟨a, ha, rfl⟩ := hx; obtain ⟨b, hb, rfl⟩ := hy
  exact ⟨a + b, add_pos_of_pos_of_nonneg ha hb, (EReal.coe_add a b).symm⟩
/-- A nonnegative plus a positive is positive. -/
theorem isNonneg_add_isPos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
/-- The maximum of a finite extended real and zero is a nonnegative real. -/
theorem isNonneg_max_zero {x : EReal} (hx : IsFin x) : IsNonneg (max x 0) := by
  obtain ⟨a, rfl⟩ := hx
  exact ⟨max a 0, le_max_right _ _, by rw [coe_max, EReal.coe_zero]⟩
/-- The maximum of zero and a finite extended real, likewise. -/
theorem isNonneg_zero_max {x : EReal} (hx : IsFin x) : IsNonneg (max 0 x) := by
  rw [max_comm]; exact isNonneg_max_zero hx

/-! ## Finite sums -/

/-- The sum of the coercions of reals is the coercion of their sum. -/
theorem coe_sum {ι : Type} (s : Finset ι) (r : ι → ℝ) :
    ∑ i ∈ s, (r i : EReal) = ((∑ i ∈ s, r i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sum whose terms are the reals `r i` is the real `∑ r i`. -/
theorem sum_eq_coe {ι : Type} (s : Finset ι) (f : ι → EReal) (r : ι → ℝ) (h : ∀ i ∈ s, f i = (r i : EReal)) :
    ∑ i ∈ s, f i = ((∑ i ∈ s, r i : ℝ) : EReal) := by
  rw [← coe_sum]; exact Finset.sum_congr rfl h

/-- A finite sum of finite extended reals is finite. -/
theorem isFin_sum {ι : Type} (s : Finset ι) (f : ι → EReal) (h : ∀ i ∈ s, IsFin (f i)) : IsFin (∑ i ∈ s, f i) := by
  classical
  induction s using Finset.induction_on with
  | empty => rw [Finset.sum_empty]; exact isFin_zero
  | insert a s ha ih =>
    rw [Finset.sum_insert ha]
    exact isFin_add (h a (Finset.mem_insert_self a s)) (ih fun i hi => h i (Finset.mem_insert_of_mem hi))

/-- A finite sum of nonnegative reals is a nonnegative real. -/
theorem isNonneg_sum {ι : Type} (s : Finset ι) (f : ι → EReal) (h : ∀ i ∈ s, IsNonneg (f i)) :
    IsNonneg (∑ i ∈ s, f i) := by
  classical
  induction s using Finset.induction_on with
  | empty => rw [Finset.sum_empty]; exact isNonneg_zero
  | insert a s ha ih =>
    rw [Finset.sum_insert ha]
    exact isNonneg_add (h a (Finset.mem_insert_self a s)) (ih fun i hi => h i (Finset.mem_insert_of_mem hi))

/-! ## Division and the reciprocal square root -/

/-- Division of a real by a nonzero real, on the extended reals, is the real quotient. -/
theorem div_coe_coe (a : ℝ) {c : ℝ} (hc : c ≠ 0) : Ideal.div (a : EReal) (c : EReal) = ((a / c : ℝ) : EReal) := by
  rw [Ideal.div, if_neg (by exact_mod_cast hc), ← EReal.coe_inv, ← EReal.coe_mul, div_eq_mul_inv]

theorem isFin_div_coe {x : EReal} (hx : IsFin x) {c : ℝ} (hc : c ≠ 0) : IsFin (Ideal.div x (c : EReal)) := by
  obtain ⟨a, rfl⟩ := hx; exact ⟨a / c, div_coe_coe a hc⟩

theorem isNonneg_div_coe {x : EReal} (hx : IsNonneg x) {c : ℝ} (hc : 0 < c) : IsNonneg (Ideal.div x (c : EReal)) := by
  obtain ⟨a, ha, rfl⟩ := hx; exact ⟨a / c, div_nonneg ha hc.le, div_coe_coe a hc.ne'⟩

/-- The reciprocal square root of a positive real, on the extended reals, is the real one. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isPos_rsqrt {x : EReal} (hx : IsPos x) : IsPos (Ideal.rsqrt x) := by
  obtain ⟨r, hr, rfl⟩ := hx
  exact ⟨(Real.sqrt r)⁻¹, inv_pos.mpr (Real.sqrt_pos.mpr hr), rsqrt_coe_pos hr⟩

/-! ## The float words of the network's constants -/

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

/-- The word of `100000.0`. -/
theorem ofBits_100000 : Ideal.ofBits .f32 0x47C35000#32 = ((100000 : ℝ) : EReal) := by
  simp [Ideal.ofBits, Ideal.ieee, -EReal.coe_mul]; norm_num

/-- The f32 nearest `1e-5`: `10995116 / 2^40`. -/
theorem ofBits_eps : Ideal.ofBits .f32 0x3727C5AC#32 = ((10995116 / 1099511627776 : ℝ) : EReal) := by
  simp [Ideal.ofBits, Ideal.ieee, -EReal.coe_mul]; norm_num

theorem isPos_ofBits_eps : IsPos (Ideal.ofBits .f32 0x3727C5AC#32) :=
  ⟨10995116 / 1099511627776, by norm_num, ofBits_eps⟩

/-! ## Arrays: the pointwise operations -/

section Pointwise
variable {s : Shape} {φ : FTy}

theorem allFin_mulf {a b : FVec Ideal s φ} (ha : AllFin a) (hb : AllFin b) : AllFin (mulf a b) :=
  fun i => isFin_mul (ha i) (hb i)
theorem allFin_addf {a b : FVec Ideal s φ} (ha : AllFin a) (hb : AllFin b) : AllFin (addf a b) :=
  fun i => isFin_add (ha i) (hb i)
theorem allFin_subf {a b : FVec Ideal s φ} (ha : AllFin a) (hb : AllFin b) : AllFin (subf a b) :=
  fun i => isFin_sub (ha i) (hb i)
theorem allFin_maximumf {a b : FVec Ideal s φ} (ha : AllFin a) (hb : AllFin b) : AllFin (maximumf a b) :=
  fun i => isFin_max (ha i) (hb i)
theorem allNonneg_mulf {a b : FVec Ideal s φ} (ha : AllNonneg a) (hb : AllNonneg b) : AllNonneg (mulf a b) :=
  fun i => isNonneg_mul (ha i) (hb i)
theorem allPos_mulf {a b : FVec Ideal s φ} (ha : AllPos a) (hb : AllPos b) : AllPos (mulf a b) :=
  fun i => isPos_mul (ha i) (hb i)
theorem allNonneg_addf {a b : FVec Ideal s φ} (ha : AllNonneg a) (hb : AllNonneg b) : AllNonneg (addf a b) :=
  fun i => isNonneg_add (ha i) (hb i)
/-- A nonnegative array plus a positive one is positive. -/
theorem allPos_addf_of_nonneg_pos {a b : FVec Ideal s φ} (ha : AllNonneg a) (hb : AllPos b) : AllPos (addf a b) :=
  fun i => isNonneg_add_isPos (ha i) (hb i)
/-- A positive array plus a nonnegative one is positive. -/
theorem allPos_addf_of_pos_nonneg {a b : FVec Ideal s φ} (ha : AllPos a) (hb : AllNonneg b) : AllPos (addf a b) :=
  fun i => isPos_add_isNonneg (ha i) (hb i)
/-- The maximum with an array of zeros (a `relu`, a clamp at zero) of a finite array is nonnegative. -/
theorem allNonneg_maximumf_zero {a z : FVec Ideal s φ} (ha : AllFin a) (hz : ∀ i, z i = 0) : AllNonneg (maximumf a z) :=
  fun i => by
    show IsNonneg (max (a i) (z i))
    rw [hz i]; exact isNonneg_max_zero (ha i)

/-- The host's quotient by an array whose every entry is the nonzero real `c`. -/
theorem allFin_hostDivf {x y : FVec Ideal s φ} {c : ℝ} (hc : c ≠ 0) (hx : AllFin x) (hy : ∀ i, y i = (c : EReal)) :
    AllFin (Host.divf x y) := fun i => by
  show IsFin (Ideal.div (x i) (y i))
  rw [hy i]; exact isFin_div_coe (hx i) hc
/-- The kernel's quotient, likewise. -/
theorem allFin_divf {x y : FVec Ideal s φ} {c : ℝ} (hc : c ≠ 0) (hx : AllFin x) (hy : ∀ i, y i = (c : EReal)) :
    AllFin (divf x y) := fun i => by
  show IsFin (Ideal.div (x i) (y i))
  rw [hy i]; exact isFin_div_coe (hx i) hc
/-- The host's reciprocal square root of a positive array is positive. -/
theorem allPos_hostRsqrt {x : FVec Ideal s φ} (hx : AllPos x) : AllPos (Host.rsqrt x) := fun i => by
  show IsPos (Ideal.rsqrt (x i))
  exact isPos_rsqrt (hx i)
/-- The kernel's, likewise. -/
theorem allPos_rsqrt {x : FVec Ideal s φ} (hx : AllPos x) : AllPos (rsqrt x) := fun i => by
  show IsPos (Ideal.rsqrt (x i))
  exact isPos_rsqrt (hx i)

/-- A splat of a word that denotes a real is all-finite. -/
theorem allFin_constant {b : BitVec φ.bits} (h : IsFin (Ideal.ofBits φ b)) : AllFin (constant (F := Ideal) s φ b) :=
  fun _ => h
theorem allFin_constant_zero : AllFin (constant (F := Ideal) s .f32 0x00000000#32) :=
  allFin_constant (by rw [ofBits_zero]; exact isFin_zero)
theorem allFin_constant_one : AllFin (constant (F := Ideal) s .f32 0x3F800000#32) :=
  allFin_constant (by rw [ofBits_one]; exact isFin_one)
theorem allFin_constant_100000 : AllFin (constant (F := Ideal) s .f32 0x47C35000#32) :=
  allFin_constant (by rw [ofBits_100000]; exact isFin_coe _)
theorem allFin_constant_eps : AllFin (constant (F := Ideal) s .f32 0x3727C5AC#32) :=
  allFin_constant isPos_ofBits_eps.isFin
theorem allPos_constant_eps : AllPos (constant (F := Ideal) s .f32 0x3727C5AC#32) := fun _ => isPos_ofBits_eps
theorem allPos_constant_one : AllPos (constant (F := Ideal) s .f32 0x3F800000#32) :=
  fun _ => by show IsPos (Ideal.ofBits .f32 0x3F800000#32); rw [ofBits_one]; exact isPos_one
theorem constant_one_apply (i : s.Idx) : constant (F := Ideal) s .f32 0x3F800000#32 i = 1 := ofBits_one
theorem constant_100000_apply (i : s.Idx) : constant (F := Ideal) s .f32 0x47C35000#32 i = ((100000 : ℝ) : EReal) :=
  ofBits_100000
theorem constant_eps_apply (i : s.Idx) :
    constant (F := Ideal) s .f32 0x3727C5AC#32 i = ((10995116 / 1099511627776 : ℝ) : EReal) := ofBits_eps

/-- A converted integer is a real number. -/
theorem allFin_sitofp {w : Nat} (x : IVec s w) : AllFin (sitofp (F := Ideal) φ x) := fun i => ⟨((x i).toInt : ℝ), rfl⟩

end Pointwise

/-! ## Arrays: re-indexings. Each result entry is a source entry. -/

section Reindex
variable {α : Type}

/-- If every entry of `y` is an entry of `x`, then `y` is all-finite / positive / nonnegative when `x` is. -/
theorem allFin_of_reads {ι κ : Type} {x : ι → EReal} {y : κ → EReal} (h : ∀ j, ∃ i, y j = x i) (hx : AllFin x) : AllFin y :=
  fun j => by obtain ⟨i, e⟩ := h j; rw [e]; exact hx i
theorem allPos_of_reads {ι κ : Type} {x : ι → EReal} {y : κ → EReal} (h : ∀ j, ∃ i, y j = x i) (hx : AllPos x) : AllPos y :=
  fun j => by obtain ⟨i, e⟩ := h j; rw [e]; exact hx i
theorem allNonneg_of_reads {ι κ : Type} {x : ι → EReal} {y : κ → EReal} (h : ∀ j, ∃ i, y j = x i) (hx : AllNonneg x) :
    AllNonneg y :=
  fun j => by obtain ⟨i, e⟩ := h j; rw [e]; exact hx i

theorem broadcastInDim_reads {s t : Shape} (dims : Fin s.rank → Fin t.rank) (h : s.BroadcastsInDim t dims) (x : s.Idx → α)
    (j : t.Idx) : ∃ i, broadcastInDim t dims h x j = x i := ⟨_, rfl⟩
theorem shapeCast_reads {s t : Shape} (x : s.Idx → α) (h : s.ShapeCasts t) (j : t.Idx) : ∃ i, shapeCast t x h j = x i :=
  ⟨_, rfl⟩
theorem extractStridedSlice_reads {s t : Shape} (off : Fin s.rank → Nat) (x : s.Idx → α) (h : s.Slices off t) (j : t.Idx) :
    ∃ i, extractStridedSlice t off x h j = x i := ⟨_, rfl⟩
theorem gather_reads {s si t : Shape} {w : Nat} (d : GatherDims s si t) (x : s.Idx → α) (idx : IVec si w) (j : t.Idx) :
    ∃ i, Host.gather d x idx j = x i := ⟨_, rfl⟩

theorem allFin_broadcastInDim {s t : Shape} (dims : Fin s.rank → Fin t.rank) (h : s.BroadcastsInDim t dims)
    {x : s.Idx → EReal} (hx : AllFin x) : AllFin (broadcastInDim t dims h x) := fun _ => hx _
theorem allPos_broadcastInDim {s t : Shape} (dims : Fin s.rank → Fin t.rank) (h : s.BroadcastsInDim t dims)
    {x : s.Idx → EReal} (hx : AllPos x) : AllPos (broadcastInDim t dims h x) := fun _ => hx _
theorem allNonneg_broadcastInDim {s t : Shape} (dims : Fin s.rank → Fin t.rank) (h : s.BroadcastsInDim t dims)
    {x : s.Idx → EReal} (hx : AllNonneg x) : AllNonneg (broadcastInDim t dims h x) := fun _ => hx _
theorem allFin_shapeCast {s t : Shape} {x : s.Idx → EReal} (h : s.ShapeCasts t) (hx : AllFin x) :
    AllFin (shapeCast t x h) := fun _ => hx _
theorem allFin_extractStridedSlice {s t : Shape} (off : Fin s.rank → Nat) {x : s.Idx → EReal} (h : s.Slices off t)
    (hx : AllFin x) : AllFin (extractStridedSlice t off x h) := fun _ => hx _
theorem allFin_gather {s si t : Shape} {w : Nat} (d : GatherDims s si t) {x : s.Idx → EReal} (idx : IVec si w)
    (hx : AllFin x) : AllFin (Host.gather d x idx) := fun _ => hx _
theorem allPos_gather {s si t : Shape} {w : Nat} (d : GatherDims s si t) {x : s.Idx → EReal} (idx : IVec si w)
    (hx : AllPos x) : AllPos (Host.gather d x idx) := fun _ => hx _
theorem allNonneg_gather {s si t : Shape} {w : Nat} (d : GatherDims s si t) {x : s.Idx → EReal} (idx : IVec si w)
    (hx : AllNonneg x) : AllNonneg (Host.gather d x idx) := fun _ => hx _

end Reindex

/-! ## Arrays: sums -/

section Sums
variable {φ : FTy}

/-- A scatter-add of finite updates into a finite seed is finite: each entry is the seed's plus a finite sum. -/
theorem allFin_scatterAdd {s si su : Shape} {w : Nat} (d : ScatterDims s si su) {x : FVec Ideal s φ} (idx : IVec si w)
    {u : FVec Ideal su φ} (hx : AllFin x) (hu : AllFin u) : AllFin (Host.scatterAdd (F := Ideal) d x idx u) := fun i => by
  show IsFin (x i + ∑ j ∈ Finset.univ.filter (fun j => d.resultIdx? j idx = some i), u j)
  exact isFin_add (hx i) (isFin_sum _ _ fun j _ => hu j)

/-- … and of nonnegative updates into a nonnegative seed, nonnegative. -/
theorem allNonneg_scatterAdd {s si su : Shape} {w : Nat} (d : ScatterDims s si su) {x : FVec Ideal s φ} (idx : IVec si w)
    {u : FVec Ideal su φ} (hx : AllNonneg x) (hu : AllNonneg u) : AllNonneg (Host.scatterAdd (F := Ideal) d x idx u) :=
  fun i => by
    show IsNonneg (x i + ∑ j ∈ Finset.univ.filter (fun j => d.resultIdx? j idx = some i), u j)
    exact isNonneg_add (hx i) (isNonneg_sum _ _ fun j _ => hu j)

/-- The host's sum over axes, from a finite initial value, of a finite array is finite. -/
theorem allFin_reduceAdd {s t u : Shape} {axes : List (Fin s.rank)} {x : FVec Ideal s φ} {init : u.Idx → Ideal φ}
    (h : s.ReducesTo axes t) (hu : 0 < u.numel) (hx : AllFin x) (hi : AllFin init) :
    AllFin (Host.reduceAdd (F := Ideal) x init h hu) := fun j => by
  show IsFin (init (Shape.Idx.first hu) + ∑ i ∈ Finset.univ.filter (fun i => h.drop i = j), x i)
  exact isFin_add (hi _) (isFin_sum _ _ fun i _ => hx i)

/-- The matrix unit's product into a finite accumulator of finite operands is finite. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (FloatOps.matmul (F := Ideal) d prec l r acc) := fun j => by
  show IsFin (acc j + ∑ k : d.contr.Idx, l (d.lhsIdx j k) * r (d.rhsIdx j k))
  exact isFin_add (hacc j) (isFin_sum _ _ fun k _ => isFin_mul (hl _) (hr _))

/-- The host's product of finite operands is finite. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := fun j => by
  show IsFin ((0 : EReal) + ∑ k : d.contr.Idx, l (d.lhsIdx j k) * r (d.rhsIdx j k))
  exact isFin_add isFin_zero (isFin_sum _ _ fun k _ => isFin_mul (hl _) (hr _))

/-- A kernel's sum over axes (`vector.multi_reduction <add>` read on the extended reals) of a finite array is finite. -/
theorem allFin_idealReduceAdd {s t : Shape} {axes : List (Fin s.rank)} (h : s.Reduces axes t) {x : s.Idx → EReal}
    (hx : AllFin x) : AllFin (Ideal.reduceAdd h x) := fun j => by
  show IsFin (∑ i ∈ Finset.univ.filter (fun i => h.drop i = j), x i)
  exact isFin_sum _ _ fun i _ => hx i

end Sums

/-! ## The node degree is positive -/

section Degree
variable {φ : FTy}

/-- Scattering ones into zeros and adding one: each entry is one plus the number of updates that land on it. -/
theorem degree_apply {s si su : Shape} {w : Nat} (d : ScatterDims s si su) (idx : IVec si w) {z o' : FVec Ideal s φ}
    {o : FVec Ideal su φ} (hz : ∀ i, z i = 0) (ho : ∀ j, o j = 1) (ho' : ∀ i, o' i = 1) (i : s.Idx) :
    addf (Host.scatterAdd (F := Ideal) d z idx o) o' i
      = ((((Finset.univ.filter (fun j => d.resultIdx? j idx = some i)).card : ℝ) + 1 : ℝ) : EReal) := by
  show (z i + ∑ j ∈ Finset.univ.filter (fun j => d.resultIdx? j idx = some i), o j) + o' i = _
  rw [hz i, ho' i, zero_add, sum_eq_coe _ o (fun _ => (1 : ℝ)) (fun j _ => by rw [ho j, EReal.coe_one]),
    Finset.sum_const, nsmul_eq_mul, mul_one, EReal.coe_add, EReal.coe_one]

/-- So that array is positive. -/
theorem allPos_degree_of {s si su : Shape} {w : Nat} (d : ScatterDims s si su) (idx : IVec si w) {z o' : FVec Ideal s φ}
    {o : FVec Ideal su φ} (hz : ∀ i, z i = 0) (ho : ∀ j, o j = 1) (ho' : ∀ i, o' i = 1) :
    AllPos (addf (Host.scatterAdd (F := Ideal) d z idx o) o') := fun i =>
  ⟨_, by positivity, degree_apply d idx hz ho ho' i⟩

/-- The same with the three arrays written as constant functions. -/
theorem allPos_degree {s si su : Shape} {w : Nat} (d : ScatterDims s si su) (idx : IVec si w) :
    AllPos (addf (Host.scatterAdd (F := Ideal) (φ := φ) d (fun _ => 0) idx (fun _ => 1)) (fun _ => 1)) :=
  allPos_degree_of d idx (fun _ => rfl) (fun _ => rfl) (fun _ => rfl)

/-- The same with the arrays as a program writes them: splats of the zero and the one word. -/
theorem allPos_degree_constant {s si su : Shape} {w : Nat} (d : ScatterDims s si su) (idx : IVec si w) :
    AllPos (addf (Host.scatterAdd (F := Ideal) d (constant (F := Ideal) s .f32 0x00000000#32) idx
      (constant (F := Ideal) su .f32 0x3F800000#32)) (constant (F := Ideal) s .f32 0x3F800000#32)) :=
  allPos_degree_of d idx (fun _ => ofBits_zero) (fun _ => ofBits_one) (fun _ => ofBits_one)

end Degree

/-! ## A variance's divisor with no correction, and the select on its sign -/

/-- The converted integer zero is the real zero. -/
theorem sitofp_zero {φ : FTy} : FloatOps.sitofp (F := Ideal) φ (0#32 : BitVec 32) = 0 := by
  show (((0#32 : BitVec 32).toInt : ℝ) : EReal) = 0
  simp

/-- The count `100000` minus the converted integer zero (a variance's divisor with no correction) is `100000`. -/
theorem ofBits_100000_sub_sitofp_zero :
    Ideal.ofBits .f32 0x47C35000#32 - FloatOps.sitofp (F := Ideal) .f32 (0#32 : BitVec 32) = ((100000 : ℝ) : EReal) := by
  rw [sitofp_zero, sub_zero, ofBits_100000]

/-- A positive real compares greater than the zero word. -/
theorem cmp_ogt_zero_of_pos {r : ℝ} (hr : 0 < r) : Ideal.cmp .ogt (r : EReal) (Ideal.ofBits .f32 0x00000000#32) = 1#1 := by
  rw [ofBits_zero]
  have h : (0 : EReal) < (r : EReal) := by exact_mod_cast hr
  simp [Ideal.cmp, h]

/-- So a select on "the divisor `100000 - 0` is greater than zero" takes its first operand. -/
theorem select_divisor_pos {α : Type} (a b : α) :
    Scalar.select (FloatOps.cmpf (F := Ideal) (φ := .f32) .ogt
        (Ideal.ofBits .f32 0x47C35000#32 - FloatOps.sitofp (F := Ideal) .f32 (0#32 : BitVec 32))
        (Ideal.ofBits .f32 0x00000000#32)) a b = a := by
  rw [ofBits_100000_sub_sitofp_zero]
  show Scalar.select (Ideal.cmp .ogt ((100000 : ℝ) : EReal) (Ideal.ofBits .f32 0x00000000#32)) a b = a
  rw [cmp_ogt_zero_of_pos (by norm_num)]
  exact select_one a b

/-! ## From "the absolute value is below infinity" to finite -/

/-- The word `0x7F800000` is `+∞`. -/
theorem ofBits_inf : Ideal.ofBits .f32 0x7F800000#32 = ⊤ := by simp [Ideal.ofBits, Ideal.ieee]

/-- An extended real whose absolute value compares below the infinity word is a real number. -/
theorem isFin_of_abs_lt_inf {x : EReal}
    (h : Ideal.cmp .olt (max x (-x)) (Ideal.ofBits .f32 0x7F800000#32) = 1#1) : IsFin x := by
  rw [ofBits_inf] at h
  induction x using EReal.rec with
  | bot => simp [Ideal.cmp] at h
  | top => simp [Ideal.cmp] at h
  | coe r => exact ⟨r, rfl⟩

/-- An array every entry of whose absolute value compares below an array of infinity words is all-finite. -/
theorem allFin_of_cmpf_olt_absf {s : Shape} {x y : FVec Ideal s .f32} (hy : ∀ i, y i = Ideal.ofBits .f32 0x7F800000#32)
    (h : ∀ i, cmpf .olt (Host.absf x) y i = 1#1) : AllFin x := fun i => by
  have hi := h i
  rw [cmpf_apply, hy i] at hi
  exact isFin_of_abs_lt_inf hi

/-! ## Real witnesses, and a normalised entry -/

/-- An all-finite array is the coercion of an array of reals. -/
theorem AllFin.exists_real {ι : Type} {a : ι → EReal} (h : AllFin a) : ∃ r : ι → ℝ, ∀ i, a i = (r i : EReal) :=
  ⟨fun i => (h i).choose, fun i => (h i).choose_spec⟩

/-- A normalised entry `(a - m) * rsqrt (v + e) * g + b` is finite when `a`, `m`, `g`, `b` are, the variance `v` is a
    nonnegative real and `e` a positive one. -/
theorem isFin_normalised {a m v e g b : EReal} (ha : IsFin a) (hm : IsFin m) (hv : IsNonneg v) (he : IsPos e)
    (hg : IsFin g) (hb : IsFin b) : IsFin ((a - m) * Ideal.rsqrt (v + e) * g + b) :=
  isFin_add (isFin_mul (isFin_mul (isFin_sub ha hm) (isPos_rsqrt (isNonneg_add_isPos hv he)).isFin) hg) hb

end Cert.Gcn

end
-- ==== Proof.RefPre.lean ====
/-
  The precondition decoded. The printed predicate is the conjunction of seven `jnp.all`s: of `|x| < +inf` over each of the
  five float arrays, of `0 ≤ src ≤ 999999` and of `0 ≤ seg ≤ 2` (both read signed). That it is all ones says, element by
  element: every `src` word is in [0, 999999] and every `seg` word in [0, 2] — at any float instance — and, at the ideal
  instance, that every float entry is a real number (an extended real whose absolute value is below +inf).
-/
import proofs.«205025_g42520176230720_cont_8to1_b_1509_29_alg».proof.Pre_input_domain
import proofs.«205025_g42520176230720_cont_8to1_b_1509_29_alg».proof.Proof.Gen.Pre_input_domain
import proofs.«205025_g42520176230720_cont_8to1_b_1509_29_alg».proof.Proof.LibEFinite
import Idealize.ShloMosaic.Lib.ReduceAll
import Idealize.ShloMosaic.Lib.ValueIdx

noncomputable section

namespace Cert.RefPre

open Idealize.ShloMosaic Cert.Pre_input_domain Cert.Pre_input_domain.Gen

/-- The scalar shape has one index. -/
instance : Subsingleton (⟨0, ![]⟩ : Shape).Idx := ⟨fun a b => funext fun d => d.elim0⟩

section
variable {F : FTy → Type} [FloatOps F]

/-- "Below +inf in absolute value", of one float value: the comparison word the predicate reduces. -/
def Tame (x : F .f32) : Prop :=
  FloatOps.cmpf .olt (FloatOps.hostAbsf x) (FloatOps.ofBits .f32 0x7F800000#32) = 1#1

/-- The predicate all ones, read back: each of its seven reductions met only ones. -/
theorem decode (a0 a1 : IVec ⟨2, ![1024, 512]⟩ 32) (a2 : FVec F ⟨2, ![1000000, 64]⟩ .f32)
    (a3 : FVec F ⟨2, ![512, 64]⟩ .f32) (a4 : FVec F ⟨2, ![3, 64]⟩ .f32) (a5 a6 : FVec F ⟨1, ![64]⟩ .f32)
    (h : Cert.Pre_input_domain.fn (F := F) a0 a1 a2 a3 a4 a5 a6 = fun _ => 1#1) :
    (∀ i, Tame (a2 i)) ∧ (∀ i, Tame (a3 i)) ∧ (∀ i, Tame (a4 i)) ∧ (∀ i, Tame (a5 i)) ∧ (∀ i, Tame (a6 i))
      ∧ (∀ i, IntOp.cmpi .sge (a0 i) 0#32 = 1#1 ∧ IntOp.cmpi .sle (a0 i) 999999#32 = 1#1)
      ∧ (∀ i, IntOp.cmpi .sge (a1 i) 0#32 = 1#1 ∧ IntOp.cmpi .sle (a1 i) 2#32 = 1#1) := by
  have h0 := congrFun h ValueIdx.ix0
  dsimp only [fn, fn_part1, fn_part2] at h0
  obtain ⟨h0, r1⟩ := IntOp.andi_eq_one.1 h0
  obtain ⟨h0, r0⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨r2, r3⟩ := IntOp.andi_eq_one.1 h0
  refine ⟨fun i => Host.reduce_andi_all _ _ _ _ _ r2 i, fun i => Host.reduce_andi_all _ _ _ _ _ r3 i,
    fun i => Host.reduce_andi_all _ _ _ _ _ r4 i, fun i => Host.reduce_andi_all _ _ _ _ _ r5 i,
    fun i => Host.reduce_andi_all _ _ _ _ _ r6 i,
    fun i => IntOp.andi_eq_one.1 (Host.reduce_andi_all _ _ _ _ _ r0 i),
    fun i => IntOp.andi_eq_one.1 (Host.reduce_andi_all _ _ _ _ _ r1 i)⟩

/-- The integer part, at any float instance: every `src` word is in [0, 999999] and every `seg` word in [0, 2], read signed. -/
theorem int_ranges (a0 a1 : IVec ⟨2, ![1024, 512]⟩ 32) (a2 : FVec F ⟨2, ![1000000, 64]⟩ .f32)
    (a3 : FVec F ⟨2, ![512, 64]⟩ .f32) (a4 : FVec F ⟨2, ![3, 64]⟩ .f32) (a5 a6 : FVec F ⟨1, ![64]⟩ .f32)
    (h : Cert.Pre_input_domain.fn (F := F) a0 a1 a2 a3 a4 a5 a6 = fun _ => 1#1) :
    (∀ i, 0 ≤ (a0 i).toInt ∧ (a0 i).toInt ≤ 999999) ∧ (∀ i, 0 ≤ (a1 i).toInt ∧ (a1 i).toInt ≤ 2) := by
  obtain ⟨-, -, -, -, -, h0, h1⟩ := decode a0 a1 a2 a3 a4 a5 a6 h
  have z : (0#32 : BitVec 32).toInt = 0 := by decide
  have n0 : (999999#32 : BitVec 32).toInt = 999999 := by decide
  have n1 : (2#32 : BitVec 32).toInt = 2 := by decide
  refine ⟨fun i => ⟨?_, ?_⟩, fun i => ⟨?_, ?_⟩⟩
  · have := IntOp.cmpi_sge.1 (h0 i).1; rwa [z] at this
  · have := IntOp.cmpi_sle.1 (h0 i).2; rwa [n0] at this
  · have := IntOp.cmpi_sge.1 (h1 i).1; rwa [z] at this
  · have := IntOp.cmpi_sle.1 (h1 i).2; rwa [n1] at this

end

/-- The float part, at the ideal instance: every entry of the five float arrays is a real number. -/
theorem finite (a0 a1 : IVec ⟨2, ![1024, 512]⟩ 32) (a2 : FVec Ideal ⟨2, ![1000000, 64]⟩ .f32)
    (a3 : FVec Ideal ⟨2, ![512, 64]⟩ .f32) (a4 : FVec Ideal ⟨2, ![3, 64]⟩ .f32) (a5 a6 : FVec Ideal ⟨1, ![64]⟩ .f32)
    (h : Cert.Pre_input_domain.fn (F := Ideal) a0 a1 a2 a3 a4 a5 a6 = fun _ => 1#1) :
    Cert.Gcn.AllFin a2 ∧ Cert.Gcn.AllFin a3 ∧ Cert.Gcn.AllFin a4 ∧ Cert.Gcn.AllFin a5 ∧ Cert.Gcn.AllFin a6 := by
  obtain ⟨h2, h3, h4, h5, h6, -, -⟩ := decode a0 a1 a2 a3 a4 a5 a6 h
  exact ⟨fun i => Cert.Gcn.isFin_of_abs_lt_inf (h2 i), fun i => Cert.Gcn.isFin_of_abs_lt_inf (h3 i),
    fun i => Cert.Gcn.isFin_of_abs_lt_inf (h4 i), fun i => Cert.Gcn.isFin_of_abs_lt_inf (h5 i),
    fun i => Cert.Gcn.isFin_of_abs_lt_inf (h6 i)⟩

end Cert.RefPre

end
-- ==== Proof.RefSpec.lean ====
/-
  The result of the embedding LayerNorm as ONE function of the seven argument arrays, index by index over literal
  shapes, on the extended reals — the term both programs' results are proved equal to — and the laws of the extended
  reals that the two sides need to reach it.

  For batch row b < 1024, position l < 512 and feature q < 64:
    e(b,l,q)   = (word(src'(b,l), q) + pos(l,q)) + segt(seg'(b,l), q)
    mean(b,l)  = (Σ_q e(b,l,q)) / 64
    var(b,l)   = (Σ_q (e(b,l,q) - mean(b,l)) * (e(b,l,q) - mean(b,l))) / 64
    out(b,l,q) = ((e(b,l,q) - mean(b,l)) / sqrt(var(b,l) + eps)) * gamma(q) + beta(q)
  where src'(b,l) is the index word read as a signed integer and clamped into [0, 999999], seg'(b,l) likewise into
  [0, 2], division is the ideal instance's (`Ideal.div`), sqrt is `Ideal.sqrt`, and eps is the f32 word 0x358637BD
  (the float nearest 1e-6) read as the extended real it denotes.
-/
import Idealize.ShloMosaic.Lib.ValueIdx
import Idealize.ShloMosaic.PureOps.Ideal.Laws

noncomputable section

open scoped BigOperators

namespace Cert.Spec

open Idealize.ShloMosaic Idealize.ShloMosaic.ValueIdx

/-- A 32-bit index word read as a signed integer and clamped into `[0, N − 1]`: the row of an `N`-row table it names. -/
def row (N : Nat) (hN : 0 < N) (w : BitVec 32) : Fin N := ⟨min w.toInt.toNat (N - 1), by omega⟩

/-- The f32 word of the variance's epsilon (the float nearest 1e-6), as the extended real it denotes. -/
def eps : EReal := Ideal.ofBits .f32 0x358637BD#32

section
variable (a0 a1 : IVec ⟨2, ![1024, 512]⟩ 32) (a2 : FVec Ideal ⟨2, ![1000000, 64]⟩ .f32)
  (a3 : FVec Ideal ⟨2, ![512, 64]⟩ .f32) (a4 : FVec Ideal ⟨2, ![3, 64]⟩ .f32)

/-- The summed embedding at (b, l, q): (word row + position row) + segment row. -/
def e (b : Fin 1024) (l : Fin 512) (q : Fin 64) : EReal :=
  (a2 (ix2 (row 1000000 (by decide) (a0 (ix2 b l))) q) + a3 (ix2 l q)) + a4 (ix2 (row 3 (by decide) (a1 (ix2 b l))) q)

/-- The mean over the 64 features. -/
def mean (b : Fin 1024) (l : Fin 512) : EReal := Ideal.div (∑ q : Fin 64, e a0 a1 a2 a3 a4 b l q) ((64 : ℝ) : EReal)

/-- The (biased) variance over the 64 features. -/
def var (b : Fin 1024) (l : Fin 512) : EReal :=
  Ideal.div (∑ q : Fin 64, (e a0 a1 a2 a3 a4 b l q - mean a0 a1 a2 a3 a4 b l) * (e a0 a1 a2 a3 a4 b l q - mean a0 a1 a2 a3 a4 b l)) ((64 : ℝ) : EReal)

/-- The result at (b, l, q). -/
def outAt (a5 a6 : FVec Ideal ⟨1, ![64]⟩ .f32) (b : Fin 1024) (l : Fin 512) (q : Fin 64) : EReal :=
  Ideal.div (e a0 a1 a2 a3 a4 b l q - mean a0 a1 a2 a3 a4 b l) (Ideal.sqrt (var a0 a1 a2 a3 a4 b l + eps)) * a5 (ix1 q) + a6 (ix1 q)

/-- The whole result array. -/
def out (a5 a6 : FVec Ideal ⟨1, ![64]⟩ .f32) : FVec Ideal ⟨3, ![1024, 512, 64]⟩ .f32 :=
  fun j => outAt a0 a1 a2 a3 a4 a5 a6 (j 0) (j 1) (j 2)

end

end Cert.Spec

end
-- ==== Proof.LibGatherRows3.lean ====
/-
  A gather of ROWS of a rank-2 table at a rank-3 array of start indices, read at an index; a broadcast that appends
  trailing axes, read at an index; and an and-reduction whose operand is 1 everywhere.

  What `x[idx]` of a table `x : [N, D]` at an integer array `idx : [R, C]`, taken along the table's first axis, lowers to:
  a gather with offset_dims `[2]`, collapsed_slice_dims `[0]`, start_index_map `[0]`, slice_sizes `[1, D]` and
  index_vector_dim 2, over the indices as `[R, C, 1]`. Result element `(t, j, q)` is `x` at row `idx[t, j, 0]` — read
  as a signed integer and clamped into `[0, N − 1]`, as a gather clamps every start index — and column `q`. On the
  table's first axis (collapsed, and the one axis the start index map names) the operand index is the clamped start
  alone: there is no batching axis and a collapsed axis has no offset coordinate. On its second axis (not named by the
  map, not collapsed) the start is 0 and the operand index is the result's coordinate on the one offset axis, `q`.
-/
import Idealize.ShloMosaic.Lib.ValueIdx
import Idealize.ShloMosaic.Lib.ReduceAll

noncomputable section

namespace Cert.Lib.GatherRows

open Idealize.ShloMosaic Idealize.ShloMosaic.ValueIdx

variable {α : Type}

/-! ## Coordinates of a rank-3 index, bounded by the literal extents -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-! ## The gather -/

/-- Those dimension numbers for a table `[N, D]`, start indices `[R, C, 1]` and result `[R, C, D]`; their conditions
    `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[t, j, 0]` of result index `(t, j, q)`. -/
abbrev rowsIdx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

/-- Axis 1 of the table is not named by the start index map and is not collapsed. -/
private theorem one_not_mem : (1 : Fin 2) ∉ ([0] : List (Fin 2)) := by decide

/-- On the table's first axis the operand index is the clamped start index. -/
theorem operandIdx_row {N D R C w : Nat}
    (wf : GatherDims.WF ⟨2, ![N, D]⟩ ⟨3, ![R, C, 1]⟩ ⟨3, ![R, C, D]⟩ [2] [0] [] [0] [] 2 ![1, D])
    (idx : IVec ⟨3, ![R, C, 1]⟩ w) (y : (⟨3, ![R, C, D]⟩ : Shape).Idx) :
    ((rowsDims N D R C wf).operandIdx y idx 0).val = min (idx (rowsIdx y)).toInt.toNat (N - 1) := by
  show (rowsDims N D R C wf).start y idx 0 + (rowsDims N D R C wf).batchCoord y 0 + (rowsDims N D R C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D R C wf).startIndexMap from List.mem_singleton.mpr rfl)]
  have hsi : (rowsDims N D R C wf).siIdx y ⟨List.idxOf (0 : Fin 2) (rowsDims N D R C wf).startIndexMap,
      List.idxOf_lt_length_iff.2 (List.mem_singleton.mpr rfl)⟩ = rowsIdx y := by
    funext b; refine Fin.ext ?_
    match b with
    | ⟨0, _⟩ => rfl
    | ⟨1, _⟩ => rfl
    | ⟨2, _⟩ => rfl
  rw [hsi]
  rfl

/-- On the table's second axis the operand index is the result's coordinate on the offset axis. -/
theorem operandIdx_col {N D R C w : Nat}
    (wf : GatherDims.WF ⟨2, ![N, D]⟩ ⟨3, ![R, C, 1]⟩ ⟨3, ![R, C, D]⟩ [2] [0] [] [0] [] 2 ![1, D])
    (idx : IVec ⟨3, ![R, C, 1]⟩ w) (y : (⟨3, ![R, C, D]⟩ : Shape).Idx) :
    ((rowsDims N D R C wf).operandIdx y idx 1).val = (y 2).val := by
  show (rowsDims N D R C wf).start y idx 1 + (rowsDims N D R C wf).batchCoord y 1 + (rowsDims N D R C wf).offCoord y 1 = _
  have hs : (rowsDims N D R C wf).start y idx 1 = 0 := by
    unfold GatherDims.start
    rw [dif_neg (show (1 : Fin 2) ∉ (rowsDims N D R C wf).startIndexMap from one_not_mem)]
  have hk : (1 : Fin 2) ∈ (rowsDims N D R C wf).sKept :=
    (GatherDims.mem_sKept _ _).mpr ⟨one_not_mem, List.not_mem_nil⟩
  rw [hs, GatherDims.batchCoord_eq_zero _ _ _ List.not_mem_nil, Nat.zero_add]
  unfold GatherDims.offCoord
  rw [dif_pos hk]
  rfl

/-- THE GATHER READ AT `(t, j, q)`: the table at the row the start index `idx[t, j, 0]` names, read signed and clamped
    into `[0, N − 1]`, and at column `q`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y
      = x (ix2 ⟨min (idx (rowsIdx y)).toInt.toNat (N - 1), by omega⟩ ⟨(y 2).val, idx3_lt2 y⟩) := by
  unfold Host.gather
  congr 1
  funext a
  match a with
  | ⟨0, _⟩ => exact Fin.ext (operandIdx_row wf idx y)
  | ⟨1, _⟩ => exact Fin.ext (operandIdx_col wf idx y)

/-! ## A broadcast that appends trailing axes -/

/-- A rank-2 array broadcast to rank 3 along a new LAST axis (operand axes to result axes 0 and 1), read at an index:
    the operand at the index's first two coordinates. The two operand extents are not 1 (at extent 1 a broadcast
    reads coordinate 0 whatever the result's coordinate: the same element, by another route). -/
theorem broadcast_trailing_apply {n0 n1 n2 : Nat} (h0 : n0 ≠ 1) (h1 : n1 ≠ 1)
    (h : (⟨2, ![n0, n1]⟩ : Shape).BroadcastsInDim ⟨3, ![n0, n1, n2]⟩ (![0, 1] : Fin 2 → Fin 3))
    (x : (⟨2, ![n0, n1]⟩ : Shape).Idx → α) (j : (⟨3, ![n0, n1, n2]⟩ : Shape).Idx) :
    broadcastInDim ⟨3, ![n0, n1, n2]⟩ ![0, 1] h x j = x (ix2 ⟨(j 0).val, idx3_lt0 j⟩ ⟨(j 1).val, idx3_lt1 j⟩) := by
  unfold broadcastInDim
  congr 1
  funext a
  match a with
  | ⟨0, _⟩ => exact dif_neg h0
  | ⟨1, _⟩ => exact dif_neg h1

/-! ## An and-reduction of ones -/

/-- A left fold by `and` over one-bit words that starts at 1 and meets only 1s is 1. -/
theorem foldl_andi_of_forall {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_forall f l _ ?_ (fun n hn => hl n (List.mem_cons_of_mem _ hn))
    exact IntOp.andi_eq_one.2 ⟨hi, hl a List.mem_cons_self⟩

/-- A reduction by `and`, from an initial value 1, of an array that is 1 at every index is 1 at every result index
    (whatever the reduced axes). -/
theorem reduce_andi_of_forall {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_forall x _ _ (hinit _) (fun i _ => hx i)

end Cert.Lib.GatherRows

end
-- ==== Proof.LibTakeSegment.lean ====
/-
  GATHER OF ROWS AND SEGMENT SUM, READ AT AN INDEX.

  Taking the rows of an array at integer positions, `x[idx]`, is a `stablehlo.gather` whose start indices form an
  `[M, 1]` array: result row `e` is the operand's row at the start index `idx[e, 0]`, read as a signed integer and
  clamped into `[0, N − 1]`. Summing rows by segment is a `stablehlo.scatter` with an addition body over the same
  `[M, 1]` array of indices: operand row `i` receives the sum of the update rows `e` whose index `idx[e, 0]`, read
  signed and NOT clamped, equals `i`; an update whose index falls outside `[0, N)` lands nowhere.

  This file states both for a rank-1 operand (a vector of `N` entries) and for a rank-2 operand (`N` rows of `D`
  entries), for every `N`, `M`, `D` and every index width. The dimension numbers are records built from a proof of
  their side conditions, so that a program's literal record is definitionally the record here at that program's proof.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.TakeSegment

open Idealize.ShloMosaic
open Idealize.ShloMosaic.ValueIdx

/-! ## `stablehlo.gather` at an `[M, 1]` array of start indices -/

section Gather
variable {α : Type}

/-- The dimension numbers of `x[idx]` for a vector `x : [N]` and start indices `[M, 1]`: the one operand axis is
    collapsed and indexed by the start index, the result `[M]` has no offset axis. -/
abbrev vecTakeDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at `e`: the operand at the start index `idx[e, 0]`, read signed and clamped into
    `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecTakeDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecTakeDims N M wf).start (ix1 e) idx 0 + (vecTakeDims N M wf).batchCoord (ix1 e) 0
      + (vecTakeDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N M wf).startIndexMap from List.mem_singleton.mpr rfl)]
  have hsi : (vecTakeDims N M wf).siIdx (ix1 e) ⟨List.idxOf (0 : Fin 1) (vecTakeDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix `x : [N, D]` and start indices `[M, 1]`: the row axis is collapsed
    and indexed by the start index, the column axis is the result's one offset axis, taken whole. -/
abbrev rowTakeDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The gather of rows read at `(e, q)`: entry `q` of the operand's row at the start index `idx[e, 0]`, read signed
    and clamped into `[0, N − 1]`. -/
theorem gather_rows_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowTakeDims N M D wf) x idx (ix2 e q)
      = x (ix2 ⟨min (idx (ix2 e (0 : Fin 1))).toInt.toNat (N - 1), by omega⟩ q) := by
  unfold Host.gather
  congr 1
  funext a
  refine Fin.ext ?_
  show (rowTakeDims N M D wf).start (ix2 e q) idx a + (rowTakeDims N M D wf).batchCoord (ix2 e q) a
      + (rowTakeDims N M D wf).offCoord (ix2 e q) a = _
  rw [GatherDims.batchCoord_eq_zero _ _ _ List.not_mem_nil]
  match a with
  | ⟨0, _⟩ =>
    show (rowTakeDims N M D wf).start (ix2 e q) idx (0 : Fin 2) + 0
      + (rowTakeDims N M D wf).offCoord (ix2 e q) (0 : Fin 2) = _
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowTakeDims N M D wf).startIndexMap from List.mem_singleton.mpr rfl)]
    have hsi : (rowTakeDims N M D wf).siIdx (ix2 e q) ⟨List.idxOf (0 : Fin 2) (rowTakeDims N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hs : (rowTakeDims N M D wf).start (ix2 e q) idx (1 : Fin 2) = 0 := by
      unfold GatherDims.start
      rw [dif_neg (show (1 : Fin 2) ∉ (rowTakeDims N M D wf).startIndexMap from
        fun h => absurd (List.mem_singleton.mp h) (show (1 : Fin 2) ≠ 0 by decide))]
    show (rowTakeDims N M D wf).start (ix2 e q) idx (1 : Fin 2) + 0
      + (rowTakeDims N M D wf).offCoord (ix2 e q) (1 : Fin 2) = _
    rw [hs]
    simp only [Nat.add_zero, Nat.zero_add]
    rfl

end Gather

/-! ## The operand index an update of a scatter lands on -/

section ResultIdx

/-- An update lands on operand index `i` exactly when, on every operand axis, its start index plus its window
    coordinate is `i`'s coordinate: the sum is then in range on every axis, and is `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      subst hf
      exact (Int.toNat_of_nonneg (h a).1).symm
    · intro hall
      funext a
      refine Fin.ext ?_
      show (d.start j idx a + (d.window j a : Int)).toNat = (i a).val
      rw [hall a]
      exact Int.toNat_natCast _
  · rename_i h
    constructor
    · intro hf
      exact absurd hf (by simp)
    · intro hall
      exfalso
      apply h
      intro a
      rw [hall a]
      exact ⟨Int.natCast_nonneg _, by exact_mod_cast (i a).isLt⟩

/-- An operand axis keeps a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {A : Type*} [AddCommMonoid A] {n : Nat} (f : (⟨1, ![n]⟩ : Shape).Idx → A) :
    ∑ j, f j = ∑ a : Fin n, f (ix1 a) := by
  rw [← Equiv.sum_comp (idxEquiv1 (n := n)).symm f]
  rfl

end ResultIdx

/-! ## `stablehlo.scatter` with an addition body at an `[M, 1]` array of indices: a vector operand -/

section VecSeg

/-- The dimension numbers of a segment sum into a vector `[N]` from updates `[M]` at indices `[M, 1]`: the one
    operand axis is inserted and indexed by the scatter index, the updates have no window axis. -/
abbrev vecSegDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section
variable {N M w : Nat} (wf : ScatterDims.WF ⟨1, ![N]⟩ ⟨2, ![M, 1]⟩ ⟨1, ![M]⟩ [] [0] [0] 1)
  (idx : IVec ⟨2, ![M, 1]⟩ w)

/-- Update `e` starts at its index `idx[e, 0]`, read signed. -/
theorem vecSeg_start (e : Fin M) :
    (vecSegDims N M wf).start (ix1 e) idx (0 : Fin 1) = (idx (ix2 e (0 : Fin 1))).toInt := by
  unfold ScatterDims.start
  rw [dif_pos (show (0 : Fin 1) ∈ (vecSegDims N M wf).scatterDimsToOperandDims from List.mem_singleton.mpr rfl)]
  have hsi : (vecSegDims N M wf).siIdx (ix1 e) ⟨List.idxOf (0 : Fin 1) (vecSegDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- It has no window coordinate: the one operand axis is inserted. -/
theorem vecSeg_window (e : Fin M) : (vecSegDims N M wf).window (ix1 e) (0 : Fin 1) = 0 := by
  unfold ScatterDims.window
  rw [dif_neg (fun h => ((mem_sKept _ _).mp h) (List.mem_singleton.mpr rfl))]

/-- Update `e` lands on operand entry `i` exactly when its index `idx[e, 0]`, read signed, is `i`. -/
theorem vecSeg_resultIdx?_iff (e : Fin M) (i : Fin N) :
    (vecSegDims N M wf).resultIdx? (ix1 e) idx = some (ix1 i)
      ↔ (idx (ix2 e (0 : Fin 1))).toInt = (i.val : Int) := by
  rw [resultIdx?_eq_some_iff]
  constructor
  · intro h
    have h0 := h (0 : Fin 1)
    rw [vecSeg_start, vecSeg_window] at h0
    simpa using h0
  · intro h a
    obtain rfl : a = 0 := Subsingleton.elim _ _
    rw [vecSeg_start, vecSeg_window]
    simp only [Nat.cast_zero, add_zero]
    exact h

end

/-- The segment sum into a vector read at `i`: the operand's entry plus the sum of the updates whose index
    `idx[e, 0]`, read signed, is `i`. An update whose index is negative or at least `N` is in no such sum. -/
theorem scatterAdd_vec_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (vecSegDims N M wf) x idx upd (ix1 i)
      = x (ix1 i) + ∑ e ∈ Finset.univ.filter (fun e : Fin M => (idx (ix2 e (0 : Fin 1))).toInt = (i.val : Int)),
          upd (ix1 e) := by
  unfold Ideal.hostScatterAdd
  congr 1
  rw [Finset.sum_filter, Finset.sum_filter, sum_idx1]
  refine Finset.sum_congr rfl fun e _ => ?_
  exact if_congr (vecSeg_resultIdx?_iff wf idx e i) rfl rfl

end VecSeg

/-! ## The same scatter with a matrix operand: rows of `D` entries -/

section RowSeg

/-- The dimension numbers of a segment sum into a matrix `[N, D]` from updates `[M, D]` at indices `[M, 1]`: the
    row axis is inserted and indexed by the scatter index, the updates' column axis is their one window axis and goes
    to the operand's column axis. -/
abbrev rowSegDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section
variable {N M D w : Nat} (wf : ScatterDims.WF ⟨2, ![N, D]⟩ ⟨2, ![M, 1]⟩ ⟨2, ![M, D]⟩ [1] [0] [0] 1)
  (idx : IVec ⟨2, ![M, 1]⟩ w)

/-- On the row axis update `(e, p)` starts at its index `idx[e, 0]`, read signed … -/
theorem rowSeg_start0 (e : Fin M) (p : Fin D) :
    (rowSegDims N M D wf).start (ix2 e p) idx (0 : Fin 2) = (idx (ix2 e (0 : Fin 1))).toInt := by
  unfold ScatterDims.start
  rw [dif_pos (show (0 : Fin 2) ∈ (rowSegDims N M D wf).scatterDimsToOperandDims from List.mem_singleton.mpr rfl)]
  have hsi : (rowSegDims N M D wf).siIdx (ix2 e p) ⟨List.idxOf (0 : Fin 2) (rowSegDims N M D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at `0`: the scatter index does not name that axis. -/
theorem rowSeg_start1 (e : Fin M) (p : Fin D) : (rowSegDims N M D wf).start (ix2 e p) idx (1 : Fin 2) = 0 := by
  unfold ScatterDims.start
  rw [dif_neg (fun h => absurd (List.mem_singleton.mp h) (show (1 : Fin 2) ≠ 0 by decide))]

/-- It has no window coordinate on the row axis, which is inserted … -/
theorem rowSeg_window0 (e : Fin M) (p : Fin D) : (rowSegDims N M D wf).window (ix2 e p) (0 : Fin 2) = 0 := by
  unfold ScatterDims.window
  rw [dif_neg (fun h => ((mem_sKept _ _).mp h) (List.mem_singleton.mpr rfl))]

/-- … and its own column `p` on the column axis. -/
theorem rowSeg_window1 (e : Fin M) (p : Fin D) : (rowSegDims N M D wf).window (ix2 e p) (1 : Fin 2) = p.val := by
  unfold ScatterDims.window
  rw [dif_pos ((mem_sKept _ _).mpr
    (fun h => absurd (List.mem_singleton.mp h) (show (1 : Fin 2) ≠ 0 by decide)))]
  rfl

/-- Update `(e, p)` lands on operand entry `(i, q)` exactly when its index `idx[e, 0]`, read signed, is `i` and its
    column is `q`. -/
theorem rowSeg_resultIdx?_iff (e : Fin M) (p : Fin D) (i : Fin N) (q : Fin D) :
    (rowSegDims N M D wf).resultIdx? (ix2 e p) idx = some (ix2 i q)
      ↔ (idx (ix2 e (0 : Fin 1))).toInt = (i.val : Int) ∧ p = q := by
  rw [resultIdx?_eq_some_iff]
  constructor
  · intro h
    have h0 : (rowSegDims N M D wf).start (ix2 e p) idx (0 : Fin 2)
        + (((rowSegDims N M D wf).window (ix2 e p) (0 : Fin 2) : Nat) : Int) = (i.val : Int) := h (0 : Fin 2)
    have h1 : (rowSegDims N M D wf).start (ix2 e p) idx (1 : Fin 2)
        + (((rowSegDims N M D wf).window (ix2 e p) (1 : Fin 2) : Nat) : Int) = (q.val : Int) := h (1 : Fin 2)
    rw [rowSeg_start0, rowSeg_window0] at h0
    rw [rowSeg_start1, rowSeg_window1] at h1
    simp only [Nat.cast_zero, add_zero] at h0
    simp only [zero_add] at h1
    exact ⟨h0, Fin.ext (by exact_mod_cast h1)⟩
  · rintro ⟨h0, rfl⟩ a
    match a with
    | ⟨0, _⟩ =>
      show (rowSegDims N M D wf).start (ix2 e p) idx (0 : Fin 2)
        + (((rowSegDims N M D wf).window (ix2 e p) (0 : Fin 2) : Nat) : Int) = (i.val : Int)
      rw [rowSeg_start0, rowSeg_window0]
      simp only [Nat.cast_zero, add_zero]
      exact h0
    | ⟨1, _⟩ =>
      show (rowSegDims N M D wf).start (ix2 e p) idx (1 : Fin 2)
        + (((rowSegDims N M D wf).window (ix2 e p) (1 : Fin 2) : Nat) : Int) = (p.val : Int)
      rw [rowSeg_start1, rowSeg_window1]
      simp only [zero_add]

end

/-- The segment sum into a matrix read at `(i, q)`: the operand's entry plus the sum, over the update rows `e` whose
    index `idx[e, 0]`, read signed, is `i`, of their entry `q`. A row whose index is negative or at least `N` is in
    no such sum. -/
theorem scatterAdd_rows_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : Fin N) (q : Fin D) :
    Ideal.hostScatterAdd (rowSegDims N M D wf) x idx upd (ix2 i q)
      = x (ix2 i q) + ∑ e ∈ Finset.univ.filter (fun e : Fin M => (idx (ix2 e (0 : Fin 1))).toInt = (i.val : Int)),
          upd (ix2 e q) := by
  unfold Ideal.hostScatterAdd
  congr 1
  rw [Finset.sum_filter, Finset.sum_filter, sum_idx2]
  refine Finset.sum_congr rfl fun e _ => ?_
  refine (Finset.sum_congr rfl fun b _ => if_congr (rowSeg_resultIdx?_iff wf idx e b i q) rfl rfl).trans ?_
  by_cases hP : (idx (ix2 e (0 : Fin 1))).toInt = (i.val : Int)
  · simp [hP]
  · simp [hP]

end RowSeg

/-! ## The records fit a program's printed ones

A program prints its dimension numbers as a record of literal lists over literal shapes whose last field is the proof
of the side conditions; each record above, at those sizes and that proof, is that record by definition. -/

section Fit

example (wf : GatherDims.WF ⟨1, ![100000]⟩ ⟨2, ![1700000, 1]⟩ ⟨1, ![1700000]⟩ [] [0] [] [0] [] 1 ![1]) :
    ({ offsetDims := [], collapsedSliceDims := [0], operandBatchingDims := [], startIndicesBatchingDims := [],
       startIndexMap := [0], indexVectorDim := 1, sliceSizes := ![1], wf := wf } :
      GatherDims ⟨1, ![100000]⟩ ⟨2, ![1700000, 1]⟩ ⟨1, ![1700000]⟩) = vecTakeDims 100000 1700000 wf := rfl

example (wf : GatherDims.WF ⟨2, ![100000, 128]⟩ ⟨2, ![1700000, 1]⟩ ⟨2, ![1700000, 128]⟩ [1] [0] [] [0] [] 1 ![1, 128]) :
    ({ offsetDims := [1], collapsedSliceDims := [0], operandBatchingDims := [], startIndicesBatchingDims := [],
       startIndexMap := [0], indexVectorDim := 1, sliceSizes := ![1, 128], wf := wf } :
      GatherDims ⟨2, ![100000, 128]⟩ ⟨2, ![1700000, 1]⟩ ⟨2, ![1700000, 128]⟩) = rowTakeDims 100000 1700000 128 wf := rfl

example (wf : ScatterDims.WF ⟨1, ![100000]⟩ ⟨2, ![1700000, 1]⟩ ⟨1, ![1700000]⟩ [] [0] [0] 1) :
    ({ updateWindowDims := [], insertedWindowDims := [0], scatterDimsToOperandDims := [0], indexVectorDim := 1,
       wf := wf } : ScatterDims ⟨1, ![100000]⟩ ⟨2, ![1700000, 1]⟩ ⟨1, ![1700000]⟩) = vecSegDims 100000 1700000 wf := rfl

example (wf : ScatterDims.WF ⟨2, ![100000, 128]⟩ ⟨2, ![1600000, 1]⟩ ⟨2, ![1600000, 128]⟩ [1] [0] [0] 1) :
    ({ updateWindowDims := [1], insertedWindowDims := [0], scatterDimsToOperandDims := [0], indexVectorDim := 1,
       wf := wf } : ScatterDims ⟨2, ![100000, 128]⟩ ⟨2, ![1600000, 1]⟩ ⟨2, ![1600000, 128]⟩)
      = rowSegDims 100000 1600000 128 wf := rfl

example (wf) : (vecTakeDims 100000 1700000 wf).startIndexMap = [0] := rfl
example (wf) : (vecTakeDims 100000 1700000 wf).sliceSizes = ![1] := rfl
example (wf) : (rowTakeDims 100000 1700000 128 wf).offsetDims = [1] := rfl
example (wf) : (rowTakeDims 100000 1700000 128 wf).sliceSizes = ![1, 128] := rfl
example (wf) : (vecSegDims 100000 1600000 wf).insertedWindowDims = [0] := rfl
example (wf) : (rowSegDims 100000 1600000 128 wf).updateWindowDims = [1] := rfl

end Fit

end Idealize.ShloMosaic.TakeSegment

end
-- ==== Proof.RefLaws.lean ====
/-
  The laws of the extended reals that the two sides need to reach the specification `Cert.Spec.out`.

  On the extended reals `0 * x = 0` for EVERY `x`, the infinities included, so a blend `lo + 0 * (x - lo)` is `lo` whatever
  `x` is; with the weight 1 and both ends real it is the other end. For a real `x` and a positive real `v`,
  `x * rsqrt v = x / sqrt v`. A mean of 64 squares of reals is a nonnegative real, so adding the (positive) epsilon gives
  a positive real: the square root below the normalisation is never zero, negative or infinite.
-/
import proofs.«205025_g42520176230720_cont_8to1_b_1509_29_alg».proof.Proof.RefSpec
import proofs.«205025_g42520176230720_cont_8to1_b_1509_29_alg».proof.Proof.LibEFinite

noncomputable section

open scoped BigOperators

namespace Cert.Spec

open Idealize.ShloMosaic Idealize.ShloMosaic.ValueIdx Cert.Gcn

/-! ## The two float words -/

/-- The word of `64.0`. -/
theorem ofBits_64 : Ideal.ofBits .f32 0x42800000#32 = ((64 : ℝ) : EReal) := by
  simp [Ideal.ofBits, Ideal.ieee, -EReal.coe_mul]; norm_num

/-- The epsilon word is `8796093 / 2^43`, the f32 nearest `1e-6`. -/
theorem eps_eq : eps = ((8796093 / 8796093022208 : ℝ) : EReal) := by
  unfold eps
  simp [Ideal.ofBits, Ideal.ieee, -EReal.coe_mul]; norm_num

theorem eps_isPos : IsPos eps := ⟨8796093 / 8796093022208, by norm_num, eps_eq⟩

/-! ## Blends with a 0/1 weight -/

/-- `lo + 0 * (x - lo) = lo` for EVERY extended real `x`. -/
theorem lerp_zero {lo : EReal} (hlo : IsFin lo) (x : EReal) : lo + 0 * (x - lo) = lo := by
  rw [zero_mul, add_zero]

theorem lerp_one {lo hi : EReal} (hlo : IsFin lo) (hhi : IsFin hi) : lo + 1 * (hi - lo) = hi := by
  obtain ⟨a, rfl⟩ := hlo
  obtain ⟨b, rfl⟩ := hhi
  rw [one_mul, ← EReal.coe_sub, ← EReal.coe_add]
  exact congrArg _ (by ring)

theorem seg0 {s0 : EReal} (s1 s2 : EReal) (h0 : IsFin s0) : s0 + 0 * (s1 - s0) + 0 * (s2 - s1) = s0 := by
  rw [zero_mul, zero_mul, add_zero, add_zero]

theorem seg1 {s0 s1 : EReal} (s2 : EReal) (h0 : IsFin s0) (h1 : IsFin s1) : s0 + 1 * (s1 - s0) + 0 * (s2 - s1) = s1 := by
  rw [zero_mul, add_zero, lerp_one h0 h1]

theorem seg2 {s0 s1 s2 : EReal} (h0 : IsFin s0) (h1 : IsFin s1) (h2 : IsFin s2) : s0 + 1 * (s1 - s0) + 1 * (s2 - s1) = s2 := by
  rw [lerp_one h0 h1, lerp_one h1 h2]

/-! ## The reciprocal square root -/

/-- The square root of a positive real, on the extended reals, is the real one. -/
theorem sqrt_coe_pos {r : ℝ} (hr : 0 < r) : Ideal.sqrt (r : EReal) = ((Real.sqrt r : ℝ) : EReal) := by
  rw [Ideal.sqrt_coe, if_neg (not_lt.mpr hr.le)]

theorem mul_rsqrt_eq_div_sqrt {x v : EReal} (hx : IsFin x) (hv : IsPos v) : x * Ideal.rsqrt v = Ideal.div x (Ideal.sqrt v) := by
  obtain ⟨a, rfl⟩ := hx
  obtain ⟨r, hr, rfl⟩ := hv
  rw [rsqrt_coe_pos hr, sqrt_coe_pos hr, div_coe_coe a (Real.sqrt_pos.mpr hr).ne', ← EReal.coe_mul, div_eq_mul_inv]

/-- The square root of a positive real is a positive real. -/
theorem isPos_sqrt {v : EReal} (hv : IsPos v) : IsPos (Ideal.sqrt v) := by
  obtain ⟨r, hr, rfl⟩ := hv
  exact ⟨Real.sqrt r, Real.sqrt_pos.mpr hr, sqrt_coe_pos hr⟩

/-! ## The variance plus the epsilon -/

/-- A mean of 64 squares of real numbers plus the epsilon is a positive real. -/
theorem meanSq_add_eps_isPos (d : Fin 64 → EReal) (hd : ∀ q, IsFin (d q)) :
    IsPos (Ideal.div (∑ q : Fin 64, d q * d q) ((64 : ℝ) : EReal) + eps) := by
  refine isNonneg_add_isPos (isNonneg_div_coe (isNonneg_sum _ _ fun q _ => ?_) (by norm_num)) eps_isPos
  obtain ⟨r, hr⟩ := hd q
  exact ⟨r * r, mul_self_nonneg r, by rw [hr, ← EReal.coe_mul]⟩

section
variable (a0 a1 : IVec ⟨2, ![1024, 512]⟩ 32) (a2 : FVec Ideal ⟨2, ![1000000, 64]⟩ .f32)
  (a3 : FVec Ideal ⟨2, ![512, 64]⟩ .f32) (a4 : FVec Ideal ⟨2, ![3, 64]⟩ .f32)

/-- Every summed embedding entry is a real number when the three tables are. -/
theorem e_isFin (h2 : AllFin a2) (h3 : AllFin a3) (h4 : AllFin a4) (b : Fin 1024) (l : Fin 512) (q : Fin 64) :
    IsFin (e a0 a1 a2 a3 a4 b l q) :=
  isFin_add (isFin_add (h2 _) (h3 _)) (h4 _)

theorem mean_isFin (h2 : AllFin a2) (h3 : AllFin a3) (h4 : AllFin a4) (b : Fin 1024) (l : Fin 512) :
    IsFin (mean a0 a1 a2 a3 a4 b l) :=
  isFin_div_coe (isFin_sum _ _ fun q _ => e_isFin a0 a1 a2 a3 a4 h2 h3 h4 b l q) (by norm_num)

theorem var_add_eps_isPos (h2 : AllFin a2) (h3 : AllFin a3) (h4 : AllFin a4) (b : Fin 1024) (l : Fin 512) :
    IsPos (var a0 a1 a2 a3 a4 b l + eps) :=
  meanSq_add_eps_isPos (fun q => e a0 a1 a2 a3 a4 b l q - mean a0 a1 a2 a3 a4 b l)
    fun q => isFin_sub (e_isFin a0 a1 a2 a3 a4 h2 h3 h4 b l q) (mean_isFin a0 a1 a2 a3 a4 h2 h3 h4 b l)

/-- Every result entry is a real number when all five float arrays are. -/
theorem outAt_isFin (a5 a6 : FVec Ideal ⟨1, ![64]⟩ .f32) (h2 : AllFin a2) (h3 : AllFin a3) (h4 : AllFin a4)
    (h5 : AllFin a5) (h6 : AllFin a6) (b : Fin 1024) (l : Fin 512) (q : Fin 64) :
    IsFin (outAt a0 a1 a2 a3 a4 a5 a6 b l q) := by
  obtain ⟨s, hs, hv⟩ := isPos_sqrt (var_add_eps_isPos a0 a1 a2 a3 a4 h2 h3 h4 b l)
  unfold outAt
  rw [hv]
  exact isFin_add (isFin_mul (isFin_div_coe (isFin_sub (e_isFin a0 a1 a2 a3 a4 h2 h3 h4 b l q)
    (mean_isFin a0 a1 a2 a3 a4 h2 h3 h4 b l)) hs.ne') (h5 _)) (h6 _)

end

end Cert.Spec

end
-- ==== Proof.RefValue.lean ====
/-
  The reference's term read at an index is the specification: under the index ranges of the precondition each take's
  in-range mask is 1 (so its select returns the gathered row, never the NaN splat), the gather's clamped start index is
  the specification's row, every broadcast reads its operand at the kept coordinates, and each reduction over the last
  axis is the zero word plus the sum over the 64 features.
-/
import proofs.«205025_g42520176230720_cont_8to1_b_1509_29_alg».proof.Proof.RefRun
import proofs.«205025_g42520176230720_cont_8to1_b_1509_29_alg».proof.Proof.RefSpec
import proofs.«205025_g42520176230720_cont_8to1_b_1509_29_alg».proof.Proof.LibGatherRows3
import proofs.«205025_g42520176230720_cont_8to1_b_1509_29_alg».proof.Proof.LibTakeSegment
import proofs.«205025_g42520176230720_cont_8to1_b_1509_29_alg».proof.Proof.RefLaws

noncomputable section

open scoped BigOperators

namespace Cert.RefValue

open Idealize.ShloMosaic Idealize.ShloMosaic.ValueIdx Cert.ReferenceIdeal Cert.ReferenceIdeal.Gen Cert.ReferenceIdeal.RefRun

variable {α : Type}

/-! ## Broadcasts read at an index -/

/-- A [64] vector along the last axis of [1024,512,64]. -/
theorem lastAxis_apply (v : FVec Ideal S64 .f32) (b : Fin 1024) (l : Fin 512) (q : Fin 64) :
    lastAxis v (ix3 b l q) = v (ix1 q) := by
  unfold lastAxis broadcastInDim
  congr 1
  funext a
  match a with
  | ⟨0, _⟩ => exact Fin.ext rfl

/-- A kept unit axis broadcast back over the 64 features. -/
theorem keep_apply (x : S1024x512x1.Idx → α) (b : Fin 1024) (l : Fin 512) (q : Fin 64) :
    broadcastInDim S1024x512x64 ![0, 1, 2] bcast_S1024x512x1_S1024x512x64_0_1_2 x (ix3 b l q) = x (ix3 b l (0 : Fin 1)) := by
  unfold broadcastInDim
  congr 1
  funext a
  match a with
  | ⟨0, _⟩ => exact Fin.ext rfl
  | ⟨1, _⟩ => exact Fin.ext rfl
  | ⟨2, _⟩ => exact Fin.ext rfl

/-- A [1024,512] array given a trailing unit axis. -/
theorem unit_apply (x : S1024x512.Idx → α) (b : Fin 1024) (l : Fin 512) :
    broadcastInDim S1024x512x1 ![0, 1] bcast_S1024x512_S1024x512x1_0_1 x (ix3 b l (0 : Fin 1)) = x (ix2 b l) := by
  unfold broadcastInDim
  congr 1
  funext a
  match a with
  | ⟨0, _⟩ => exact Fin.ext rfl
  | ⟨1, _⟩ => exact Fin.ext rfl

/-- A [1024,512] array broadcast over the 64 features. -/
theorem feat_apply (x : S1024x512.Idx → α) (b : Fin 1024) (l : Fin 512) (q : Fin 64) :
    broadcastInDim S1024x512x64 ![0, 1] bcast_S1024x512_S1024x512x64_0_1 x (ix3 b l q) = x (ix2 b l) := by
  unfold broadcastInDim
  congr 1
  funext a
  match a with
  | ⟨0, _⟩ => exact Fin.ext rfl
  | ⟨1, _⟩ => exact Fin.ext rfl

/-- The position rows broadcast over the batch. -/
theorem batch_apply (x : S512x64.Idx → α) (b : Fin 1024) (l : Fin 512) (q : Fin 64) :
    broadcastInDim S1024x512x64 ![0, 1, 2] bcast_S1x512x64_S1024x512x64_0_1_2
      (broadcastInDim S1x512x64 ![1, 2] bcast_S512x64_S1x512x64_1_2 x) (ix3 b l q) = x (ix2 l q) := by
  unfold broadcastInDim
  congr 1
  funext a
  match a with
  | ⟨0, _⟩ => exact Fin.ext rfl
  | ⟨1, _⟩ => exact Fin.ext rfl

/-- A [512] array given a trailing unit axis. -/
theorem unitP_apply (x : S512.Idx → α) (l : Fin 512) :
    broadcastInDim S512x1 ![0] bcast_S512_S512x1_0 x (ix2 l (0 : Fin 1)) = x (ix1 l) := by
  unfold broadcastInDim
  congr 1
  funext a
  match a with
  | ⟨0, _⟩ => exact Fin.ext rfl

/-- A [512] array broadcast over the 64 features. -/
theorem featP_apply (x : S512.Idx → α) (l : Fin 512) (q : Fin 64) :
    broadcastInDim S512x64 ![0] bcast_S512_S512x64_0 x (ix2 l q) = x (ix1 l) := by
  unfold broadcastInDim
  congr 1
  funext a
  match a with
  | ⟨0, _⟩ => exact Fin.ext rfl

/-! ## The sum over the last axis -/

/-- The host sum over the 64 features from the zero word, at (b, l): the sum of the entries. -/
theorem sum_apply (x : FVec Ideal S1024x512x64 .f32) (b : Fin 1024) (l : Fin 512) :
    Host.reduceAdd x (constant S_ .f32 0x00000000#32) reducesTo_S1024x512x64_S1024x512_d2 h_S_ (ix2 b l)
      = ∑ q : Fin 64, x (ix3 b l q) := by
  have hR : S1024x512x64.Reduces [2] S1024x512 := by decide
  show Ideal.hostReduceAdd reducesTo_S1024x512x64_S1024x512_d2 x (Ideal.ofBits .f32 0x00000000#32) (ix2 b l) = _
  rw [Ideal.hostReduceAdd_single reducesTo_S1024x512x64_S1024x512_d2 hR, Ideal.ofBits_zero_f32, zero_add]
  refine Finset.sum_congr rfl fun q _ => congrArg x ?_
  funext a
  match a with
  | ⟨0, _⟩ => exact Fin.ext rfl
  | ⟨1, _⟩ => exact Fin.ext rfl
  | ⟨2, _⟩ => exact Fin.ext rfl

/-! ## Words -/

/-- A natural below 2^31 as a 32-bit word reads back signed as itself. -/
theorem toInt_ofNat_small (n : Nat) (h : n < 2 ^ 31) : (BitVec.ofNat 32 n).toInt = (n : Int) := by
  have hn : (BitVec.ofNat 32 n).toNat = n := by rw [BitVec.toNat_ofNat]; omega
  rw [BitVec.toInt_eq_toNat_of_lt (by omega), hn]

/-- A comparison word that is not 1 is 0, stated for the signed "less than zero" test of a nonnegative word. -/
theorem slt_zero_of_nonneg {x : BitVec 32} (h : 0 ≤ x.toInt) : IntOp.cmpi .slt x 0#32 = 0#1 :=
  eq_zero_of_ne_one fun hc => by
    have := IntOp.cmpi_slt.1 hc
    rw [show (0#32 : BitVec 32).toInt = 0 from by decide] at this
    omega

/-! ## The takes from the word and segment tables -/

section Takes3
variable (a : IVec S1024x512 32) (n : BitVec 32)

/-- The normalised start index at (b, l, 0) is the index word itself when that is nonnegative. -/
theorem idx3_apply (hpos : ∀ i, 0 ≤ (a i).toInt) (b : Fin 1024) (l : Fin 512) (z : Fin 1) :
    idx3 a n (ix3 b l z) = a (ix2 b l) := by
  obtain rfl : z = 0 := Subsingleton.elim _ _
  unfold idx3
  rw [unit_apply]
  show Scalar.select (IntOp.cmpi .slt (a (ix2 b l)) 0#32) _ (a (ix2 b l)) = _
  rw [slt_zero_of_nonneg (hpos _), select_zero]

/-- The in-range mask is 1 everywhere when every index word is in [0, N]. -/
theorem ok3_apply (hi : BitVec 32) (N : Int) (hhi : hi.toInt = N) (h : ∀ i, 0 ≤ (a i).toInt ∧ (a i).toInt ≤ N)
    (j : S1024x512.Idx) : ok3 (idx3 a n) hi j = 1#1 := by
  unfold ok3
  refine Cert.Lib.GatherRows.reduce_andi_of_forall _ _ _ _ (fun _ => rfl) (fun i => ?_) j
  obtain ⟨b, l, z, rfl⟩ : ∃ (b : Fin 1024) (l : Fin 512) (z : Fin 1), i = ix3 b l z := ⟨i 0, i 1, i 2, eq_ix3 i⟩
  show IntOp.andi (IntOp.cmpi .sge (idx3 a n (ix3 b l z)) 0#32) (IntOp.cmpi .sle (idx3 a n (ix3 b l z)) hi) = 1#1
  rw [idx3_apply a n (fun i => (h i).1)]
  refine IntOp.andi_eq_one.2 ⟨IntOp.cmpi_sge.2 ?_, IntOp.cmpi_sle.2 ?_⟩
  · rw [show (0#32 : BitVec 32).toInt = 0 from by decide]; exact (h _).1
  · rw [hhi]; exact (h _).2

/-- The start-indices index of result index (b, l, q) is (b, l, 0). -/
theorem rowsIdx_ix3 (b : Fin 1024) (l : Fin 512) (q : Fin 64) :
    Cert.Lib.GatherRows.rowsIdx (ix3 b l q) = ix3 b l (0 : Fin 1) := by
  funext d
  match d with
  | ⟨0, _⟩ => exact Fin.ext rfl
  | ⟨1, _⟩ => exact Fin.ext rfl
  | ⟨2, _⟩ => exact Fin.ext rfl

end Takes3

/-- The word rows at (b, l, q): the table at the specification's row and column q. -/
theorem word_apply (a2 : FVec Ideal S1000000x64 .f32) (a0 : IVec S1024x512 32)
    (h0 : ∀ i, 0 ≤ (a0 i).toInt ∧ (a0 i).toInt ≤ 999999) (b : Fin 1024) (l : Fin 512) (q : Fin 64) :
    word a2 a0 (ix3 b l q) = a2 (ix2 (Cert.Spec.row 1000000 (by decide) (a0 (ix2 b l))) q) := by
  unfold word
  rw [select_apply, feat_apply, ok3_apply a0 _ _ 999999 (by decide) h0, select_one]
  refine (Cert.Lib.GatherRows.gather_rows_apply (N := 1000000) (D := 64) (R := 1024) (C := 512) (by decide)
    gather_S1000000x64_S1024x512x1_S1024x512x64_2_0_n_n_0_2_164_wf a2 (idx3 a0 1000000#32) (ix3 b l q)).trans ?_
  have key : idx3 a0 1000000#32 (Cert.Lib.GatherRows.rowsIdx (ix3 b l q)) = a0 (ix2 b l) := by
    rw [rowsIdx_ix3]; exact idx3_apply a0 _ (fun i => (h0 i).1) b l 0
  refine congrArg a2 (funext fun d => ?_)
  match d with
  | ⟨0, _⟩ => exact Fin.ext (congrArg (fun w : BitVec 32 => min w.toInt.toNat (1000000 - 1)) key)
  | ⟨1, _⟩ => exact Fin.ext rfl

/-- The segment rows at (b, l, q): the table at the specification's row and column q. -/
theorem segr_apply (a4 : FVec Ideal S3x64 .f32) (a1 : IVec S1024x512 32)
    (h1 : ∀ i, 0 ≤ (a1 i).toInt ∧ (a1 i).toInt ≤ 2) (b : Fin 1024) (l : Fin 512) (q : Fin 64) :
    segr a4 a1 (ix3 b l q) = a4 (ix2 (Cert.Spec.row 3 (by decide) (a1 (ix2 b l))) q) := by
  unfold segr
  rw [select_apply, feat_apply, ok3_apply a1 _ _ 2 (by decide) h1, select_one]
  refine (Cert.Lib.GatherRows.gather_rows_apply (N := 3) (D := 64) (R := 1024) (C := 512) (by decide)
    gather_S3x64_S1024x512x1_S1024x512x64_2_0_n_n_0_2_164_wf a4 (idx3 a1 3#32) (ix3 b l q)).trans ?_
  have key : idx3 a1 3#32 (Cert.Lib.GatherRows.rowsIdx (ix3 b l q)) = a1 (ix2 b l) := by
    rw [rowsIdx_ix3]; exact idx3_apply a1 _ (fun i => (h1 i).1) b l 0
  refine congrArg a4 (funext fun d => ?_)
  match d with
  | ⟨0, _⟩ => exact Fin.ext (congrArg (fun w : BitVec 32 => min w.toInt.toNat (3 - 1)) key)
  | ⟨1, _⟩ => exact Fin.ext rfl

/-! ## The take from the position table -/

/-- The position start index at (l, 0) is the word of l. -/
theorem idxP_apply (l : Fin 512) (z : Fin 1) : idxP (ix2 l z) = BitVec.ofNat 32 l.val := by
  obtain rfl : z = 0 := Subsingleton.elim _ _
  unfold idxP
  rw [unitP_apply]
  show Scalar.select (IntOp.cmpi .slt (BitVec.ofNat 32 l.val) 0#32) _ (BitVec.ofNat 32 l.val) = _
  rw [slt_zero_of_nonneg (by rw [toInt_ofNat_small _ (by have := l.isLt; omega)]; omega), select_zero]

/-- Its in-range mask is 1 everywhere. -/
theorem okP_apply (j : S512.Idx) : okP j = 1#1 := by
  unfold okP
  refine Cert.Lib.GatherRows.reduce_andi_of_forall _ _ _ _ (fun _ => rfl) (fun i => ?_) j
  obtain ⟨l, z, rfl⟩ : ∃ (l : Fin 512) (z : Fin 1), i = ix2 l z := ⟨i 0, i 1, eq_ix2 i⟩
  show IntOp.andi (IntOp.cmpi .sge (idxP (ix2 l z)) 0#32) (IntOp.cmpi .sle (idxP (ix2 l z)) 511#32) = 1#1
  rw [idxP_apply]
  have hl : l.val < 512 := l.isLt
  refine IntOp.andi_eq_one.2 ⟨IntOp.cmpi_sge.2 ?_, IntOp.cmpi_sle.2 ?_⟩
  · rw [show (0#32 : BitVec 32).toInt = 0 from by decide, toInt_ofNat_small _ (by omega)]; omega
  · rw [show (511#32 : BitVec 32).toInt = 511 from by decide, toInt_ofNat_small _ (by omega)]; omega

/-- The position rows at (l, q): the table there. -/
theorem posr_apply (a3 : FVec Ideal S512x64 .f32) (l : Fin 512) (q : Fin 64) : posr a3 (ix2 l q) = a3 (ix2 l q) := by
  unfold posr
  rw [select_apply, featP_apply, okP_apply, select_one]
  refine (Idealize.ShloMosaic.TakeSegment.gather_rows_apply (N := 512) (M := 512) (D := 64) (by decide)
    gather_S512x64_S512x1_S512x64_1_0_n_n_0_1_164_wf a3 idxP l q).trans ?_
  refine congrArg a3 (funext fun d => ?_)
  match d with
  | ⟨0, _⟩ =>
    refine Fin.ext ?_
    show min (idxP (ix2 l (0 : Fin 1))).toInt.toNat (512 - 1) = l.val
    rw [idxP_apply, toInt_ofNat_small _ (by have := l.isLt; omega)]
    have := l.isLt
    omega
  | ⟨1, _⟩ => exact Fin.ext rfl

/-! ## The stages at an index -/

section Stages
variable (a0 a1 : IVec S1024x512 32) (a2 : FVec Ideal S1000000x64 .f32) (a3 : FVec Ideal S512x64 .f32)
  (a4 : FVec Ideal S3x64 .f32)

/-- The summed embedding at (b, l, q) is the specification's. -/
theorem emb_apply (h0 : ∀ i, 0 ≤ (a0 i).toInt ∧ (a0 i).toInt ≤ 999999) (h1 : ∀ i, 0 ≤ (a1 i).toInt ∧ (a1 i).toInt ≤ 2)
    (b : Fin 1024) (l : Fin 512) (q : Fin 64) :
    emb a0 a1 a2 a3 a4 (ix3 b l q) = Cert.Spec.e a0 a1 a2 a3 a4 b l q := by
  unfold emb Cert.Spec.e
  rw [addf_apply, addf_apply, word_apply a2 a0 h0, batch_apply, posr_apply, segr_apply a4 a1 h1]

end Stages

/-- The mean over the features, kept as a unit axis, at (b, l, 0). -/
theorem meanK_apply (x : FVec Ideal S1024x512x64 .f32) (b : Fin 1024) (l : Fin 512) :
    meanK x (ix3 b l (0 : Fin 1)) = Ideal.div (∑ q : Fin 64, x (ix3 b l q)) ((64 : ℝ) : EReal) := by
  unfold meanK
  show Ideal.div (broadcastInDim S1024x512x1 ![0, 1] bcast_S1024x512_S1024x512x1_0_1
      (Host.reduceAdd x (constant S_ .f32 0x00000000#32) reducesTo_S1024x512x64_S1024x512_d2 h_S_) (ix3 b l (0 : Fin 1)))
    (Ideal.ofBits .f32 0x42800000#32) = _
  rw [unit_apply, sum_apply, Cert.Spec.ofBits_64]

/-- The centred array at (b, l, q). -/
theorem centred_apply (x : FVec Ideal S1024x512x64 .f32) (b : Fin 1024) (l : Fin 512) (q : Fin 64) :
    centred x (ix3 b l q) = x (ix3 b l q) - Ideal.div (∑ q : Fin 64, x (ix3 b l q)) ((64 : ℝ) : EReal) := by
  unfold centred
  rw [subf_apply, keep_apply, meanK_apply]

/-- The normalised array at (b, l, q). -/
theorem normed_apply (x : FVec Ideal S1024x512x64 .f32) (b : Fin 1024) (l : Fin 512) (q : Fin 64) :
    normed x (ix3 b l q)
      = Ideal.div (x (ix3 b l q) - Ideal.div (∑ q : Fin 64, x (ix3 b l q)) ((64 : ℝ) : EReal))
          (Ideal.sqrt (Ideal.div (∑ q : Fin 64,
              (x (ix3 b l q) - Ideal.div (∑ q : Fin 64, x (ix3 b l q)) ((64 : ℝ) : EReal))
                * (x (ix3 b l q) - Ideal.div (∑ q : Fin 64, x (ix3 b l q)) ((64 : ℝ) : EReal))) ((64 : ℝ) : EReal)
            + Cert.Spec.eps)) := by
  unfold normed
  show Ideal.div (centred x (ix3 b l q))
    (broadcastInDim S1024x512x64 ![0, 1, 2] bcast_S1024x512x1_S1024x512x64_0_1_2
      (Host.sqrt (addf (meanK (mulf (centred x) (centred x)))
        (broadcastInDim S1024x512x1 ![] bcast_S_S1024x512x1 (constant S_ .f32 0x358637BD#32)))) (ix3 b l q)) = _
  rw [keep_apply, centred_apply]
  show Ideal.div _ (Ideal.sqrt (meanK (mulf (centred x) (centred x)) (ix3 b l (0 : Fin 1)) + Cert.Spec.eps)) = _
  rw [meanK_apply]
  simp only [mulf_apply, centred_apply]

/-! ## The reference's term is the specification -/

theorem out_eq_spec (a0 a1 : IVec ⟨2, ![1024, 512]⟩ 32) (a2 : FVec Ideal ⟨2, ![1000000, 64]⟩ .f32)
    (a3 : FVec Ideal ⟨2, ![512, 64]⟩ .f32) (a4 : FVec Ideal ⟨2, ![3, 64]⟩ .f32) (a5 a6 : FVec Ideal ⟨1, ![64]⟩ .f32)
    (h0 : ∀ i, 0 ≤ (a0 i).toInt ∧ (a0 i).toInt ≤ 999999) (h1 : ∀ i, 0 ≤ (a1 i).toInt ∧ (a1 i).toInt ≤ 2) :
    Cert.ReferenceIdeal.RefRun.out (F := Ideal) a0 a1 a2 a3 a4 a5 a6 = Cert.Spec.out a0 a1 a2 a3 a4 a5 a6 := by
  funext j
  obtain ⟨b, l, q, rfl⟩ : ∃ (b : Fin 1024) (l : Fin 512) (q : Fin 64), j = ix3 b l q := ⟨j 0, j 1, j 2, eq_ix3 j⟩
  show Cert.ReferenceIdeal.RefRun.out (F := Ideal) a0 a1 a2 a3 a4 a5 a6 (ix3 b l q)
    = Cert.Spec.outAt a0 a1 a2 a3 a4 a5 a6 b l q
  unfold Cert.ReferenceIdeal.RefRun.out Cert.Spec.outAt Cert.Spec.var Cert.Spec.mean
  rw [addf_apply, mulf_apply, lastAxis_apply, lastAxis_apply, normed_apply]
  simp only [emb_apply a0 a1 a2 a3 a4 h0 h1]

end Cert.RefValue

end
-- ==== Proof.RefFrame.lean ====
/-
  The reference's side of the claim in its final form: its frame (it runs to the end, faults nowhere, leaves its
  arguments unchanged), and its run with the result named as the specification `Cert.Spec.out` of the argument arrays —
  stated once over the launch memory's own arguments, and once over any arrays the launch memory's arguments equal
  (the form the comparison with the other program takes: the two memories agree on the arguments).
-/
import proofs.«205025_g42520176230720_cont_8to1_b_1509_29_alg».proof.Defs
import proofs.«205025_g42520176230720_cont_8to1_b_1509_29_alg».proof.Proof.Gen.ReferenceIdeal
import proofs.«205025_g42520176230720_cont_8to1_b_1509_29_alg».proof.Proof.Gen.Pre_input_domain
import proofs.«205025_g42520176230720_cont_8to1_b_1509_29_alg».proof.Proof.RefRun
import proofs.«205025_g42520176230720_cont_8to1_b_1509_29_alg».proof.Proof.RefPre
import proofs.«205025_g42520176230720_cont_8to1_b_1509_29_alg».proof.Proof.RefValue

noncomputable section

namespace Cert.RefFrame

open Idealize.ShloMosaic Idealize.SL.Sem

/-- The reference runs and its argument arrays end unchanged (no precondition needed). -/
theorem frame : Cert.frame_ReferenceIdeal (hReferenceIdeal := Cert.ReferenceIdeal.Gen.facts)
    (hPre_input_domain := Cert.Pre_input_domain.Gen.facts) :=
  fun m g _ => (θ_run _ _ _).mono (fun _ h c => (h c).2) (Cert.ReferenceIdeal.RefRun.run (F := Ideal) m g)

/-- The reference's run against arrays `b0 … b6` that the launch memory's arguments equal and of which the
    precondition holds: the result is the specification of those arrays, the arguments end unchanged. -/
theorem run_alg (m : (ℓ : Loc Cert.ReferenceIdeal.nD Cert.ReferenceIdeal.τ Cert.ReferenceIdeal.sig) → Buf (Elt Ideal) ℓ)
    (g : Dev Cert.ReferenceIdeal.nD → PrngReg)
    (b0 b1 : Dev Cert.ReferenceIdeal.nD → IVec ⟨2, ![1024, 512]⟩ 32)
    (b2 : Dev Cert.ReferenceIdeal.nD → FVec Ideal ⟨2, ![1000000, 64]⟩ .f32)
    (b3 : Dev Cert.ReferenceIdeal.nD → FVec Ideal ⟨2, ![512, 64]⟩ .f32)
    (b4 : Dev Cert.ReferenceIdeal.nD → FVec Ideal ⟨2, ![3, 64]⟩ .f32)
    (b5 b6 : Dev Cert.ReferenceIdeal.nD → FVec Ideal ⟨1, ![64]⟩ .f32)
    (hag : ∀ c : Dev Cert.ReferenceIdeal.nD,
      m ((c.tc : Thread Cert.ReferenceIdeal.nD Cert.ReferenceIdeal.τ).loc Cert.ReferenceIdeal.main_arg0) = b0 c ∧ m ((c.tc : Thread Cert.ReferenceIdeal.nD Cert.ReferenceIdeal.τ).loc Cert.ReferenceIdeal.main_arg1) = b1 c ∧ m ((c.tc : Thread Cert.ReferenceIdeal.nD Cert.ReferenceIdeal.τ).loc Cert.ReferenceIdeal.main_arg2) = b2 c ∧ m ((c.tc : Thread Cert.ReferenceIdeal.nD Cert.ReferenceIdeal.τ).loc Cert.ReferenceIdeal.main_arg3) = b3 c
      ∧ m ((c.tc : Thread Cert.ReferenceIdeal.nD Cert.ReferenceIdeal.τ).loc Cert.ReferenceIdeal.main_arg4) = b4 c ∧ m ((c.tc : Thread Cert.ReferenceIdeal.nD Cert.ReferenceIdeal.τ).loc Cert.ReferenceIdeal.main_arg5) = b5 c ∧ m ((c.tc : Thread Cert.ReferenceIdeal.nD Cert.ReferenceIdeal.τ).loc Cert.ReferenceIdeal.main_arg6) = b6 c)
    (hpre : ∀ c : Dev Cert.ReferenceIdeal.nD,
      Cert.Pre_input_domain.fn (F := Ideal) (b0 c) (b1 c) (b2 c) (b3 c) (b4 c) (b5 c) (b6 c) = fun _ => 1#1) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v31)
            = Cert.Spec.out (b0 c) (b1 c) (b2 c) (b3 c) (b4 c) (b5 c) (b6 c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run _ _ _).mono (fun _ h c => by
      obtain ⟨e0, e1, e2, e3, e4, e5, e6⟩ := hag c
      obtain ⟨r0, r1⟩ := Cert.RefPre.int_ranges (b0 c) (b1 c) (b2 c) (b3 c) (b4 c) (b5 c) (b6 c) (hpre c)
      refine ⟨?_, (h c).2⟩
      rw [(h c).1, e0, e1, e2, e3, e4, e5, e6]
      exact Cert.RefValue.out_eq_spec (b0 c) (b1 c) (b2 c) (b3 c) (b4 c) (b5 c) (b6 c) r0 r1)
    (Cert.ReferenceIdeal.RefRun.run (F := Ideal) m g)

/-- The same over the launch memory's own arguments, under the reference's precondition. -/
theorem run_spec (m : (ℓ : Loc Cert.ReferenceIdeal.nD Cert.ReferenceIdeal.τ Cert.ReferenceIdeal.sig) → Buf (Elt Ideal) ℓ)
    (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v31)
            = Cert.Spec.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  run_alg m g (fun c => m ((c.tc : Thread Cert.ReferenceIdeal.nD Cert.ReferenceIdeal.τ).loc Cert.ReferenceIdeal.main_arg0)) (fun c => m ((c.tc : Thread Cert.ReferenceIdeal.nD Cert.ReferenceIdeal.τ).loc Cert.ReferenceIdeal.main_arg1)) (fun c => m ((c.tc : Thread Cert.ReferenceIdeal.nD Cert.ReferenceIdeal.τ).loc Cert.ReferenceIdeal.main_arg2)) (fun c => m ((c.tc : Thread Cert.ReferenceIdeal.nD Cert.ReferenceIdeal.τ).loc Cert.ReferenceIdeal.main_arg3))
    (fun c => m ((c.tc : Thread Cert.ReferenceIdeal.nD Cert.ReferenceIdeal.τ).loc Cert.ReferenceIdeal.main_arg4)) (fun c => m ((c.tc : Thread Cert.ReferenceIdeal.nD Cert.ReferenceIdeal.τ).loc Cert.ReferenceIdeal.main_arg5)) (fun c => m ((c.tc : Thread Cert.ReferenceIdeal.nD Cert.ReferenceIdeal.τ).loc Cert.ReferenceIdeal.main_arg6))
    (fun c => ⟨rfl, rfl, rfl, rfl, rfl, rfl, rfl⟩) hpre

end Cert.RefFrame

end
-- ==== Proof.KClaims.lean ====
/-
  The kernel-side claims from the kernel program's run: the frame of the idealized kernel is the run with the
  result's value dropped; the algebraic claim pairs the run at the ideal instance, whose result is the finishing
  pass of the gathered rows and so the specification, with the reference's run at the same specification.
-/
import proofs.«205025_g42520176230720_cont_8to1_b_1509_29_alg».proof.Defs
import proofs.«205025_g42520176230720_cont_8to1_b_1509_29_alg».proof.Proof.KRun
import proofs.«205025_g42520176230720_cont_8to1_b_1509_29_alg».proof.Proof.RefFrame
import proofs.«205025_g42520176230720_cont_8to1_b_1509_29_alg».proof.Proof.Gen.Pre_input_domain

noncomputable section

namespace Cert.KernelIdeal.Claims

open Cert.KernelIdeal Cert.KernelIdeal.Gen Cert.KernelIdeal.Base
open Idealize.ShloMosaic Idealize.SL.Sem

/-- The pieces the run rests on, at a float instance: one tile's body, the two TensorCore regions, and that under
    the precondition every rewritten index names a row of the paired table. -/
structure Pieces (F : FTy → Type) [FloatOps F] : Prop where
  tile : Main.TileRun (F := F)
  reg0 : Main.Region0Run (F := F)
  reg2 : Main.Region2Run (F := F)
  src : ∀ m : (ℓ : Loc nD τ sig) → Buf (Elt F) ℓ,
    (∀ d : Dev nD, Cert.Pre_input_domain.fn (F := F) (m (aLoc d main_arg0)) (m (aLoc d main_arg1)) (m (aLoc d main_arg2))
      (m (aLoc d main_arg3)) (m (aLoc d main_arg4)) (m (aLoc d main_arg5)) (m (aLoc d main_arg6)) = fun _ => 1#1) → Main.SrcOK m

/-- The finishing pass over gathered rows is the specification (the value bridge's statement). -/
def FinishSpec : Prop :=
  ∀ (m : (ℓ : Loc nD τ sig) → Buf (Elt Ideal) ℓ) (d : Dev nD)
    (_ : Cert.Pre_input_domain.fn (F := Ideal) (m (aLoc d main_arg0)) (m (aLoc d main_arg1)) (m (aLoc d main_arg2))
      (m (aLoc d main_arg3)) (m (aLoc d main_arg4)) (m (aLoc d main_arg5)) (m (aLoc d main_arg6)) = fun _ => 1#1)
    (g : Buf (Elt Ideal) (aLoc d main_v3)) (_ : Main.GathOK m d g),
    Reg.Finish (F := Ideal) (shapeCast S1024x512x128 g shapeCasts_S524288x128_S1024x512x128)
        (m (aLoc d main_arg0)) (m (aLoc d main_arg1)) (m (aLoc d main_arg3)) (m (aLoc d main_arg4)) (m (aLoc d main_arg5)) (m (aLoc d main_arg6))
      = Cert.Spec.out (m (aLoc d main_arg0)) (m (aLoc d main_arg1)) (m (aLoc d main_arg2)) (m (aLoc d main_arg3)) (m (aLoc d main_arg4))
          (m (aLoc d main_arg5)) (m (aLoc d main_arg6))

theorem frame (hP : Pieces Ideal) :
    Cert.frame_KernelIdeal (hKernelIdeal := Cert.KernelIdeal.Gen.facts) (hPre_input_domain := Cert.Pre_input_domain.Gen.facts) :=
  fun m ρ hpre => (θ_run Cert.KernelIdeal.defs _ _).mono
    (fun _ h c => by
      obtain ⟨e0, e1, e2, e3, e4, e5, e6, -⟩ := h c
      exact ⟨e0, e1, e2, e3, e4, e5, e6⟩)
    (Main.run_main (F := Ideal) m ρ (hP.src m hpre) hP.tile hP.reg0 hP.reg2)

theorem algebraic (hP : Pieces Ideal) (hV : FinishSpec) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => by
        obtain ⟨e0, e1, e2, e3, e4, e5, e6, gg, hg, e7⟩ := h c
        exact ⟨e7.trans (hV m c (hpre c) gg hg), e0, e1, e2, e3, e4, e5, e6⟩)
      (Main.run_main (F := Ideal) m g (hP.src m hpre) hP.tile hP.reg0 hP.reg2)
  · exact Cert.RefFrame.run_alg m' g' _ _ _ _ _ _ _ hagree hpre

end Cert.KernelIdeal.Claims

end
-- ==== Proof.BKBase.lean ====
/-
  The kernel program as the SparseCore launch theorem reads it, and the proof's resource algebra: the launch
  handshakes' rounds, the TensorCore pipelines' staging cells' rounds, and the counters of the tiles' own
  local copies, side by side. Nothing here depends on the float instance.
-/
import proofs.«205025_g42520176230720_cont_8to1_b_1509_29_alg».proof.Kernel
import proofs.«205025_g42520176230720_cont_8to1_b_1509_29_alg».proof.Proof.Gen.Kernel
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Base

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The label signature under the SparseCore calls: the kernels' labels and the two pipelines'. -/
abbrev ΛP : Labels := Pipeline.Sig Λ₀ (Fin 2) fun p => (pcfgs (F := F) p).Adm
/-- The one SparseCore call. -/
abbrev K : SparseCore.Cfg τ sig (ΛP (F := F)) 1 := sc (F := F)
/-- The body table under the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the counters of the tiles' local copies. -/
abbrev UU : Type := UH × (UP × Counters)

/-- The handshakes' component, the left factor. -/
abbrev EH : Emb UH (MT nD τ sig (HIx 1) (Elt F) ℕ UU ℕ) := embL
/-- The staging cells' component, the left factor of the right factor. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-- The launch element splits into the handshakes', the staging cells' and the counters' parts. -/
theorem ownU_split (a : UH) (b : UP) (c : Counters) :
    (ownU (a, (b, c)) : sProp (MT nD τ sig (HIx 1) (Elt F) ℕ UU ℕ))
      ⊢ iprop(BI.own (EH (F := F) a) ∗ BI.own (EP (F := F) b) ∗ BI.own (((Emb.inr : Emb Counters (UP × Counters)).trans embR : Emb Counters (MT nD τ sig (HIx 1) (Elt F) ℕ UU ℕ)) c)) := by
  iintro H
  ihave H' := (ownU_pair (nD := nD) (τ := τ) (sig := sig) (Ix := HIx 1) (Val := Elt F) (Name := ℕ) (Lvl := ℕ) a (b, c)) $$ H
  icases H' with ⟨Ha, Hbc⟩
  isplitl [Ha]; · iexact Ha
  iapply (own_pair_emb (embR : Emb (UP × Counters) (MT nD τ sig (HIx 1) (Elt F) ℕ UU ℕ)) b c)
  iexact Hbc

/-! ## The arrays -/

/-- The seven arguments, the host's and the kernels' intermediate arrays and the result, as the TensorCore names them. -/
abbrev aLoc (d : Dev nD) (b : Ref sig .tc) : Loc nD τ sig := (SparseCore.T d).loc b

end Cert.Kernel.Base

end
-- ==== Proof.BTileDefs.lean ====
/-
  The tile's share of the lookup: which rows of the flattened index array and of the gathered array a vector
  subcore works on, the rewrite it applies to each index, the array the gather produces, and what the launch hands
  the tile and takes back. Nothing here depends on the float instance.
-/
import proofs.«205025_g42520176230720_cont_8to1_b_1509_29_alg».proof.Proof.BKBase

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile and its rows -/

/-- The SparseCore and the vector subcore that grid point `L` names, and their thread on device `d`. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The first of the tile's 16384 consecutive rows: the offset of its first index block. -/
abbrev row0 (L : grid1.Coords) : Nat := k1_off1 L 0

theorem row0_eq (L : grid1.Coords) : row0 L = 32768 * (L 1).val + 16384 * (L 0).val := by
  unfold row0; rw [k1_off1_eq]; rfl

theorem row0_le (L : grid1.Coords) : row0 L + 16384 ≤ 524288 := by
  rw [row0_eq]
  have h0 : (L 0).val < 2 := (L 0).isLt
  have h1 : (L 1).val < 16 := (L 1).isLt
  omega

theorem srcRect_inb (L : grid1.Coords) : ∀ a, (k1_off1 L) a + (![16384] : Fin 1 → Nat) a ≤ S524288.size a :=
  Fin.forall_fin_one.mpr (row0_le L)

theorem outRect_inb (L : grid1.Coords) : ∀ a, (![row0 L, 0] : Fin 2 → Nat) a + (![16384, 128] : Fin 2 → Nat) a ≤ S524288x128.size a :=
  Fin.forall_fin_two.mpr ⟨row0_le L, Nat.le_refl _⟩

/-- The tile's 16384 entries of the flattened index array. -/
abbrev srcRect (L : grid1.Coords) : Rect S524288 := Rect.unit (s := S524288) (k1_off1 L) ![16384] (srcRect_inb L)
/-- The tile's 16384 rows, all 128 columns, of the gathered array. -/
abbrev outRect (L : grid1.Coords) : Rect S524288x128 := Rect.unit (s := S524288x128) ![row0 L, 0] ![16384, 128] (outRect_inb L)

def srcRows (L : grid1.Coords) : Finset S524288.Idx := (srcRect L).set
def outRows (L : grid1.Coords) : Finset S524288x128.Idx := (outRect L).set

/-! ## The index rewrite and the gathered array -/

/-- What the kernel stores back over an index `x`: `x - 512000` where `x ≥ 512000` (signed), else `x`;
    spelt lane by lane as the body computes it. -/
def fixIdx (x : BitVec 32) : BitVec 32 :=
  IntOp.subi x (IntOp.muli (Scalar.select (IntOp.cmpi .sge x 512000#32) 1#32 0#32) 512000#32)

def srcIx (n : Fin 524288) : S524288.Idx := fun a => match a with
  | ⟨0, _⟩ => n
  | ⟨k + 1, h⟩ => absurd h (Nat.not_lt.2 (Nat.le_add_left _ _))

def tabIx (r : Fin 512000) (c : Fin 128) : S512000x128.Idx := fun a => match a with
  | ⟨0, _⟩ => r
  | ⟨1, _⟩ => c
  | ⟨k + 2, h⟩ => absurd h (Nat.not_lt.2 (Nat.le_add_left _ _))

/-- Row `n` of the gathered array is row `fixIdx (s n)` of the table (reduced into the table's 512000 rows, which
    changes nothing where the rewritten index is in range). -/
def gath (d : Dev nD) (s : Buf (Elt F) (aLoc d main_v0)) (f2 : Buf (Elt F) (aLoc d main_v2)) : Buf (Elt F) (aLoc d main_v3) :=
  fun j => f2 (tabIx ⟨(fixIdx (s (srcIx (j 0)))).toNat % 512000, Nat.mod_lt _ (by decide)⟩ (j 1))

/-! ## What the tile is handed and hands back -/

/-- Handed to tile `L`: a read share of the whole index array at `s`, a read share of the whole table at `f2`, and
    its rows of the gathered array outright, whatever they hold. -/
def goRes (d : Dev nD) (L : grid1.Coords) (q0 q2 : PosShare TreeShare)
    (s : Buf (Elt F) (aLoc d main_v0)) (f2 : Buf (Elt F) (aLoc d main_v2)) : sProp 𝕄 :=
  iprop((aLoc d main_v0 ↦{q0} s) ∗ (aLoc d main_v2 ↦{q2} f2) ∗ ∃ f3, aLoc d main_v3 ↦[outRows L]{fullShare} f3)

/-- Handed back: the two read shares, and the tile's rows of the gathered array holding the gathered rows. -/
def tdRes (d : Dev nD) (L : grid1.Coords) (q0 q2 : PosShare TreeShare)
    (s : Buf (Elt F) (aLoc d main_v0)) (f2 : Buf (Elt F) (aLoc d main_v2)) : sProp 𝕄 :=
  iprop((aLoc d main_v0 ↦{q0} s) ∗ (aLoc d main_v2 ↦{q2} f2) ∗ aLoc d main_v3 ↦[outRows L]{fullShare} gath d s f2)

end Cert.Kernel.Tile

end
-- ==== Proof.BRegDefs.lean ====
/-
  The two TensorCore regions of the program — the pairing of the transposed table's halves before the SparseCore
  call, the finishing pass after it — as thread states: what each is entered holding and what it leaves, with the
  value of its result. Generic in the float instance.
-/
import proofs.«205025_g42520176230720_cont_8to1_b_1509_29_alg».proof.Proof.BKBase
import proofs.«205025_g42520176230720_cont_8to1_b_1509_29_alg».proof.Proof.Gen.Kernel.Launch
import proofs.«205025_g42520176230720_cont_8to1_b_1509_29_alg».proof.Proof.Gen.Kernel.Points
import proofs.«205025_g42520176230720_cont_8to1_b_1509_29_alg».proof.Proof.Gen.Kernel.Skeleton
import Idealize.ShloMosaic.Lib.Pipeline.Regions
import Idealize.ShloMosaic.Lib.SparseCore.Launch
import Idealize.ShloMosaic.Lib.Tactic
import Idealize.ShloMosaic.Lib.ValueIdx

noncomputable section

namespace Cert.Kernel.Reg

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

/-! ## The pipelines' tables and the thread state both regions carry -/

/-- Neither pallas_call has a prefetched table. -/
abbrev adm : (p : Fin 2) → (pcfgs (F := F) p).Adm := fun p => (cfgs p).toPCfg_adm

/-- What the TensorCore owes the SparseCore handshakes before call `n`, its recorded pairs bounded: the first
    conjunct of the launch's state of the TensorCore before call `n`, verbatim. -/
def tcOwes (d : Dev nD) (n : ℕ) : sProp 𝕄 :=
  iprop(∃ W, ⌜(K (F := F)).WBelow (T d) W (8 * n)⌝ ∗ owes (T d) ((K (F := F)).Otc d n) W)

/-! ## Region 0: the pairing of the transposed table's two halves -/

/-- Row `r` of the paired table holds row `r` of the table in its first 64 columns and, where that row exists,
    row `512000 + r` in its last 64; nothing is said of the other half-rows. Over the transposed table `t`. -/
def PairOK (t : Vec F S64x1000000 .f32) (f2 : Vec F S512000x128 .f32) : Prop :=
  ∀ (i : S512000x128.Idx) (j : S64x1000000.Idx),
    ((i 1).val < 64 → (j 0).val = (i 1).val → (j 1).val = (i 0).val → f2 i = t j)
    ∧ ((i 0).val < 488000 → 64 ≤ (i 1).val → (j 0).val + 64 = (i 1).val → (j 1).val = 512000 + (i 0).val → f2 i = t j)

/-- Region 0 is entered holding the transposed table at `t`, the paired table at any contents, and the debts. -/
def pairPre (d : Dev nD) (n : ℕ) (t : Vec F S64x1000000 .f32) (f2 : Vec F S512000x128 .f32) : sProp 𝕄 :=
  iprop((aLoc d main_v1 ↦{fullShare} t) ∗ (aLoc d main_v2 ↦{fullShare} f2) ∗ tcOwes (F := F) d n)

/-- It leaves the transposed table as it was and the paired table at contents that pair it. -/
def pairPost (d : Dev nD) (n : ℕ) (t : Vec F S64x1000000 .f32) : sProp 𝕄 :=
  iprop((aLoc d main_v1 ↦{fullShare} t) ∗ (∃ f2 : Vec F S512000x128 .f32, ⌜PairOK t f2⌝ ∗ (aLoc d main_v2 ↦{fullShare} f2)) ∗ tcOwes (F := F) d n)

/-! ## Region 2: the finishing pass -/

/-- What the finishing body stores, as a term of the blocks it loads: the gathered rows' block, the indices' and the
    segment ids' blocks, the position table, the segment table, the scale and the shift. -/
def FinBlk (X0 : Vec F S8x512x128 .f32) (X1 X2 : Vec F S8x512 .i32) (X3 : Vec F S512x64 .f32) (X4 : Vec F S3x64 .f32)
    (X5 X6 : Vec F S64 .f32) : FVec F S8x512x64 .f32 :=
  k2_pay1 (k2_pay2 X0 X1) (k2_pay3 X2) (k2_pay4 X4 X2) (k2_pay5 X4) (k2_pay6 X4) X3 X5 X6

/-- The result array as ONE function of the region's inputs: at batch row `b` the stored term of the blocks of the
    eight batch rows `8 (b / 8) ‥ 8 (b / 8) + 7`, read at row `b % 8`. -/
def Finish (x : Vec F S1024x512x128 .f32) (a0 a1 : Vec F S1024x512 .i32) (a3 : Vec F S512x64 .f32) (a4 : Vec F S3x64 .f32)
    (a5 a6 : Vec F S64 .f32) : Vec F S1024x512x64 .f32 := fun i =>
  have hb (j : Fin 8) : 8 * ((i 0).val / 8) + j.val < 1024 := by have h : (i 0).val < 1024 := (i 0).isLt; omega
  FinBlk (fun j => x (ix3 ⟨8 * ((i 0).val / 8) + (j 0).val, hb (j 0)⟩ (j 1) (j 2)))
    (fun j => a0 (ix2 ⟨8 * ((i 0).val / 8) + (j 0).val, hb (j 0)⟩ (j 1)))
    (fun j => a1 (ix2 ⟨8 * ((i 0).val / 8) + (j 0).val, hb (j 0)⟩ (j 1)))
    a3 a4 a5 a6 (ix3 ⟨(i 0).val % 8, Nat.mod_lt _ (by decide)⟩ (i 1) (i 2))

/-- Region 2 is entered holding the gathered rows at `x`, the six arguments it reads, the result at any contents, and the debts. -/
def finPre (d : Dev nD) (n : ℕ) (x : Vec F S1024x512x128 .f32) (a0 a1 : Vec F S1024x512 .i32) (a3 : Vec F S512x64 .f32)
    (a4 : Vec F S3x64 .f32) (a5 a6 : Vec F S64 .f32) (f5 : Vec F S1024x512x64 .f32) : sProp 𝕄 :=
  iprop((aLoc d main_v4 ↦{fullShare} x) ∗ (aLoc d main_arg0 ↦{fullShare} a0) ∗ (aLoc d main_arg1 ↦{fullShare} a1)
    ∗ (aLoc d main_arg3 ↦{fullShare} a3) ∗ (aLoc d main_arg4 ↦{fullShare} a4) ∗ (aLoc d main_arg5 ↦{fullShare} a5)
    ∗ (aLoc d main_arg6 ↦{fullShare} a6) ∗ (aLoc d main_v5 ↦{fullShare} f5) ∗ tcOwes (F := F) d n)

/-- It leaves its inputs as they were and the result at `Finish` of them. -/
def finPost (d : Dev nD) (n : ℕ) (x : Vec F S1024x512x128 .f32) (a0 a1 : Vec F S1024x512 .i32) (a3 : Vec F S512x64 .f32)
    (a4 : Vec F S3x64 .f32) (a5 a6 : Vec F S64 .f32) : sProp 𝕄 :=
  iprop((aLoc d main_v4 ↦{fullShare} x) ∗ (aLoc d main_arg0 ↦{fullShare} a0) ∗ (aLoc d main_arg1 ↦{fullShare} a1)
    ∗ (aLoc d main_arg3 ↦{fullShare} a3) ∗ (aLoc d main_arg4 ↦{fullShare} a4) ∗ (aLoc d main_arg5 ↦{fullShare} a5)
    ∗ (aLoc d main_arg6 ↦{fullShare} a6) ∗ (aLoc d main_v5 ↦{fullShare} Finish x a0 a1 a3 a4 a5 a6) ∗ tcOwes (F := F) d n)

end Cert.Kernel.Reg

end
-- ==== Proof.BKMain.lean ====
/-
  The launch of the kernel program: what the SparseCore call's handshakes carry, how one SparseCore's share
  splits into its sixteen tiles' tasks, and the tile's obligation from its body's run.

  The host leaves the flattened index array `sflat` and the transposed word table `wT`; the first TensorCore
  region leaves a paired table `f2` that is determined only where its source rows exist (`PairOK`): row `r`'s
  first 64 columns are word row `r`, its last 64 word row `512000 + r` for `r < 488000`. A tile is handed its
  16384 entries of `sflat`, a read share of the paired table (one of 32 read tokens of the whole) and its rows
  of the gathered array, and hands them back with its rows holding the gathered rows.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BRegDefs
import Idealize.ShloMosaic.Lib.ValueIdx
import Idealize.ShloMosaic.Lib.Transfers

noncomputable section

namespace Cert.Kernel.Main

open Cert.Kernel Cert.Kernel.Gen Cert.Kernel.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## What the host operations leave -/

/-- The two host operations before the first region: the index array flattened, the word table transposed. -/
abbrev opFlat : HloOp τ sig (Elt F) := StableHlo.reshape main_arg0 main_v0 rfl shapeCasts_S1024x512_S524288
abbrev opTr [FloatOps F] : HloOp τ sig (Elt F) :=
  StableHlo.unary main_arg2 main_v1 ((transpose S64x1000000 [1, 0] · transposes_S1000000x64_S64x1000000_1_0) : (⟨S1000000x64, .f32⟩ : BufTy).Contents (Elt F) → (⟨S64x1000000, .f32⟩ : BufTy).Contents (Elt F))
/-- and the one between the SparseCore call and the second region: the gathered rows as [1024, 512, 128]. -/
abbrev opBlk : HloOp τ sig (Elt F) := StableHlo.reshape main_v3 main_v4 rfl shapeCasts_S524288x128_S1024x512x128

/-- The launch contents of device `d`'s arrays, and after the two host operations. -/
def V0 (d : Dev nD) : Valuation τ sig (Elt F) := fun b => m (d, b)
def V1 (d : Dev nD) : Valuation τ sig (Elt F) := (opFlat (F := F)).result (V0 m d)
def V2 [FloatOps F] (d : Dev nD) : Valuation τ sig (Elt F) := (opTr (F := F)).result (V1 m d)

/-- The flattened index array and the transposed word table, as the host leaves them. -/
def sflat (d : Dev nD) : Buf (Elt F) (aLoc d main_v0) := V1 m d (Proc.devRef .tc (main_v0 : Ref sig .tc))
def wT [FloatOps F] (d : Dev nD) : Buf (Elt F) (aLoc d main_v1) := V2 m d (Proc.devRef .tc (main_v1 : Ref sig .tc))

/-! ## What the handshakes carry -/

/-- The tile of SparseCore `c`, vector subcore `i`, as a grid point, and its number among the 32. -/
def coordsV (c : Fin 2) (i : Fin 16) : grid1.Coords :=
  fun | 0 => c | 1 => i | ⟨_ + 2, h⟩ => absurd h (Nat.not_lt.2 (Nat.le_add_left _ _))
def tix (c : Fin 2) (i : Fin 16) : Fin 32 := ⟨2 * i.val + c.val, by omega⟩

variable [FloatOps F]

/-- A task's operands: the tile's index entries, one read token of the paired table at SOME contents the first
    region may have left, the tile's rows of the gathered array. -/
def goP (d : Dev nD) (c : Fin 2) (i : Fin 16) : sProp 𝕄 :=
  iprop(∃ f2, ⌜Reg.PairOK (wT m d) f2⌝ ∗ Tile.goRes d (coordsV c i) (shareTok fullShare 32 (tix c i)) (shareTok fullShare 32 (tix c i)) (sflat m d) f2)
/-- and its results: the same back, the rows holding the gathered rows of that table. -/
def tdP (d : Dev nD) (c : Fin 2) (i : Fin 16) : sProp 𝕄 :=
  iprop(∃ f2, ⌜Reg.PairOK (wT m d) f2⌝ ∗ Tile.tdRes d (coordsV c i) (shareTok fullShare 32 (tix c i)) (shareTok fullShare 32 (tix c i)) (sflat m d) f2)

instance goP_storable (d : Dev nD) (c : Fin 2) (i : Fin 16) : BI.Storable (upEmb : UEmb _ 𝕄) (goP m d c i) := by
  unfold goP Tile.goRes; infer_instance
instance tdP_storable (d : Dev nD) (c : Fin 2) (i : Fin 16) : BI.Storable (upEmb : UEmb _ 𝕄) (tdP m d c i) := by
  unfold tdP Tile.tdRes; infer_instance

/-- The one call hands SparseCore `c` its sixteen tasks' operands together and takes their results back together;
    the sequencer's go hands tile `i` its task's, its taskDone brings the task's results. -/
def P : (K (F := F)).Pay (nD := nD) (Val := Elt F) (Name := ℕ) (U := UU) where
  st := fun q d c => match q with | 0 => bigSep Finset.univ fun i : Fin 16 => goP m d (Fin.cast nCore_zero c) i
  dn := fun q d c => match q with | 0 => bigSep Finset.univ fun i : Fin 16 => tdP m d (Fin.cast nCore_zero c) i
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goP m d (Fin.cast nCore_zero c) i))
  dn q d c := match q with
    | 0 => (inferInstance : BI.Storable (upEmb : UEmb _ 𝕄) (bigSep Finset.univ fun i : Fin 16 => tdP m d (Fin.cast nCore_zero c) i))
  go q d c i := match q with | 0 => goP_storable m d (Fin.cast nCore_zero c) (Fin.cast nSub_zero i)
  td q d c i := match q with | 0 => tdP_storable m d (Fin.cast nCore_zero c) (Fin.cast nSub_zero i)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- One SparseCore's share IS its tasks' shares side by side. -/
theorem vecSplit : (K (F := F)).VecSplit' (P m) 0 := by
  intro d c
  show (bigSep Finset.univ fun i : Fin 16 => goP m d (Fin.cast nCore_zero c) i) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun i : Fin 16 => tdP m d (Fin.cast nCore_zero c) i))
  rw [bigSep_tasks (F := F) (fun i => goP m d (Fin.cast nCore_zero c) i), bigSep_tasks (F := F) (fun i => tdP m d (Fin.cast nCore_zero c) i)]
  iintro H; imodintro
  isplitl [H]; · iexact H
  iintro H; iexact H

/-! ## The tile's obligation -/

/-- Every rewritten index names a row of the paired table: what the indirect copies need of the index array. -/
def SrcOK : Prop := ∀ (d : Dev nD) (n : S524288.Idx), (Tile.fixIdx (sflat m d n)).toNat < 512000

/-- The run of one tile's body, from its operands to its results (the statement the tile's module proves). -/
def TileRun : Prop :=
  ∀ (d : Dev nD) (L : grid1.Coords) (_ : (K (F := F)).Facts) (q0 q2 : PosShare TreeShare)
    (s : Buf (Elt F) (aLoc d main_v0)) (f2 : Buf (Elt F) (aLoc d main_v2))
    (_ : ∀ n ∈ Tile.srcRows L, (Tile.fixIdx (s n)).toNat < 512000)
    (O : CellTallies nD τ sig (HIx 1)) (W : Waits sig (HIx 1)) (_ : ∀ g, O g none = 0),
    iprop(levAts (K (F := F)).L (K (F := F)).lev ∗ Tile.goRes d L q0 q2 s f2
        ∗ scopedBufs (Tile.thr d L) ∗ scopedSems0 (Tile.thr d L) ∗ owes (Tile.thr d L) O W)
      ⊢ wp frame (wpE (defs₀ (F := F)) 𝒱₀ (Tile.thr d L) none) Set.univ
          (cc1__sc_body L (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(Tile.tdRes d L q0 q2 s f2 ∗ scopedBufs (Tile.thr d L) ∗ scopedSems0 (Tile.thr d L)
            ∗ ∃ W', ⌜∀ p ∈ W', p ∈ W ∨ p.2 = none⌝ ∗ owes (Tile.thr d L) O W')

theorem defs₀_vector (c : Fin τ.nSC) (s : Fin τ.nSub) :
    defs₀ (F := F) (.scVector c s) 1 ()
      = SparseCore.onTile hcore1 hsub1 (fun c s => cc1__sc_body (coordsV c s)
          (Memref.whole main_v0_scv) (Memref.isWhole_whole _) (Memref.whole main_v2_scv) (Memref.isWhole_whole _)
          (Memref.whole main_v3_scv) (Memref.isWhole_whole _) (Memref.whole cc1_scratch0) (Memref.isWhole_whole _)
          (Memref.whole cc1_scratch1) (Memref.isWhole_whole _) cc1_scratch2 cc1_scratch3 cc1_scoped0 cc1_scoped1 cc1_scoped2 cc1_scoped3 cc1_scoped4) ⟨⟩ c s := rfl

/-- One task at fixed contents of the paired table: the body's run, its results closed at the same contents. -/
theorem task_run_at (hF : (K (F := F)).Facts) (hsrc : SrcOK m) (hb : TileRun (F := F)) (d : Dev nD) (c : Fin 2) (i : Fin 16)
    (O : CellTallies nD τ sig (HIx 1)) (W : Waits sig (HIx 1)) (hO : ∀ g, O g none = 0)
    (f2 : Buf (Elt F) (aLoc d main_v2)) (hp : Reg.PairOK (wT m d) f2) :
    iprop(levAts (K (F := F)).L (K (F := F)).lev
        ∗ Tile.goRes d (coordsV c i) (shareTok fullShare 32 (tix c i)) (shareTok fullShare 32 (tix c i)) (sflat m d) f2
        ∗ scopedBufs (Tile.thr d (coordsV c i)) ∗ scopedSems0 (Tile.thr d (coordsV c i)) ∗ owes (Tile.thr d (coordsV c i)) O W)
      ⊢ wp frame (wpE (defs₀ (F := F)) 𝒱₀ (Tile.thr d (coordsV c i)) none) Set.univ
          (cc1__sc_body (coordsV c i) (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(tdP m d c i ∗ scopedBufs (Tile.thr d (coordsV c i)) ∗ scopedSems0 (Tile.thr d (coordsV c i))
            ∗ ∃ W', ⌜∀ p ∈ W', p ∈ W ∨ p.2 = none ∨ p.2 = some (0 : Fin 1)⌝ ∗ owes (Tile.thr d (coordsV c i)) O W') :=
  (hb d (coordsV c i) hF _ _ (sflat m d) f2 (fun n _ => hsrc d n) O W hO).trans (wp_mono frame _ _ fun _ => by
    iintro ⟨Htd, Hsb, Hss, %W', %hW', HO⟩
    isplitl [Htd]
    · unfold tdP; iexists f2; isplitr
      · ipureintro; exact hp
      · iexact Htd
    isplitl [Hsb]; · iexact Hsb
    isplitl [Hss]; · iexact Hss
    iexists W'; isplitr
    · ipureintro; exact fun p hp' => (hW' p hp').imp_right Or.inl
    · iexact HO)

/-- One task: open the operands at the table's contents, run the body. -/
theorem task_run (hF : (K (F := F)).Facts) (hsrc : SrcOK m) (hb : TileRun (F := F)) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP m d c i
        ∗ scopedBufs (Tile.thr d (coordsV c i)) ∗ scopedSems0 (Tile.thr d (coordsV c i)) ∗ owes (Tile.thr d (coordsV c i)) O W)
      ⊢ wp frame (wpE (defs₀ (F := F)) 𝒱₀ (Tile.thr d (coordsV c i)) none) Set.univ
          (cc1__sc_body (coordsV c i) (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(tdP m d c i ∗ scopedBufs (Tile.thr d (coordsV c i)) ∗ scopedSems0 (Tile.thr d (coordsV c i))
            ∗ ∃ W', ⌜∀ p ∈ W', p ∈ W ∨ p.2 = none ∨ p.2 = some (0 : Fin 1)⌝ ∗ owes (Tile.thr d (coordsV c i)) O W') := by
  unfold goP
  iintro ⟨Hlv, -, ⟨%f2, %hp, Hgo⟩, Hsb, Hss, HO⟩
  iapply (task_run_at m hF hsrc hb d c i O W hO f2 hp)
  isplitl [Hlv]; · iexact Hlv
  isplitl [Hgo]; · iexact Hgo
  isplitl [Hsb]; · iexact Hsb
  isplitl [Hss]; · iexact Hss
  iexact HO

theorem tileObl (hF : (K (F := F)).Facts) (hsrc : SrcOK m) (hb : TileRun (F := F)) : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact task_run m hF hsrc hb d ⟨_, hc.1⟩ ⟨_, hc.2⟩ O W hO

/-! ## The launch element: the handshakes' rounds, the two pipelines' staging cells; nothing of the tiles' own -/

/-- The two pipelines as the regions' proofs read them (neither has a prefetched table). -/
abbrev pins : Fin 2 → Pipeline.Cfg sig Λ₀ := Pipeline.pin (pcfgs (F := F)) Reg.adm

theorem pins_inj : Function.Injective (Pipeline.cellOf (nD := nD) (τ := τ) (pins (F := F))) := cellOf_inj

/-- What the launch deals the TensorCore of `d` for the regions: both pipelines' staging cells' ghost state and
    duty tokens. -/
def G (d : Dev nD) : sProp 𝕄 :=
  iprop((bigSep Finset.univ fun p : Fin 2 => Pipeline.cellsGhost (pins (F := F)) (EP (F := F)) p d)
    ∗ bigSep Finset.univ fun p : Fin 2 => Pipeline.toksInit (pins (F := F)) (EP (F := F)) p d)

def u₀ : UU :=
  (initOf (K (F := F)).hsCells (K (F := F)).hsToks,
    (initOf (Pipeline.cells (nD := nD) (τ := τ) (pins (F := F)) pins_inj) (Pipeline.launchToks (nD := nD) (τ := τ) (pins (F := F)) pins_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (Cert.Kernel.Base.ownU_split (F := F) _ _ _) $$ Hu
  icases H with ⟨HH, HP, -⟩
  imod (Pipeline.fund_ghost (pins (F := F)) (EP (F := F)) pins_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Main

end
-- ==== Proof.BKHost.lean ====
/-
  @main on the TensorCore, first part: the thirteen arrays the TensorCore holds between regions, and the two
  host operations before the first region (the index array flattened, the word table transposed).
-/
import proofs.«205025_g42520176230720_cont_8to1_b_1509_29_alg».proof.Proof.BKMain

noncomputable section

namespace Cert.Kernel.Main

open Cert.Kernel Cert.Kernel.Gen Cert.Kernel.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's unscoped arrays: the seven arguments, the host's and the kernels' intermediates, the result. -/
abbrev S13 : Finset (DevRef τ sig) := {a0', a1', a2', a3', a4', a5', a6', v0', v1', v2', v3', v4', v5'}

omit ρ m in
theorem held_S13 (d : Dev nD) (W : Valuation τ sig (Elt F)) :
    (held (T d) S13 W : sProp 𝕄) = iprop((aLoc d main_arg0 ↦{fullShare} W a0') ∗ (aLoc d main_arg1 ↦{fullShare} W a1') ∗ (aLoc d main_arg2 ↦{fullShare} W a2') ∗ (aLoc d main_arg3 ↦{fullShare} W a3') ∗ (aLoc d main_arg4 ↦{fullShare} W a4') ∗ (aLoc d main_arg5 ↦{fullShare} W a5') ∗ (aLoc d main_arg6 ↦{fullShare} W a6') ∗ (aLoc d main_v0 ↦{fullShare} W v0') ∗ (aLoc d main_v1 ↦{fullShare} W v1') ∗ (aLoc d main_v2 ↦{fullShare} W v2') ∗ (aLoc d main_v3 ↦{fullShare} W v3') ∗ (aLoc d main_v4 ↦{fullShare} W v4') ∗ (aLoc d main_v5 ↦{fullShare} W v5')) := by
  unfold held S13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit ρ m in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2) ∗ (aLoc d main_arg3 ↦{fullShare} W main_arg3) ∗ (aLoc d main_arg4 ↦{fullShare} W main_arg4) ∗ (aLoc d main_arg5 ↦{fullShare} W main_arg5) ∗ (aLoc d main_arg6 ↦{fullShare} W main_arg6) ∗ (aLoc d main_v0 ↦{fullShare} W main_v0) ∗ (aLoc d main_v1 ↦{fullShare} W main_v1) ∗ (aLoc d main_v2 ↦{fullShare} W main_v2) ∗ (aLoc d main_v3 ↦{fullShare} W main_v3) ∗ (aLoc d main_v4 ↦{fullShare} W main_v4) ∗ (aLoc d main_v5 ↦{fullShare} W main_v5)) := by
  unfold unscopedBufs
  rw [show (Finset.univ.filter fun b : Ref sig .tc => ¬ b.isScoped) = {main_arg0, main_arg1, main_arg2, main_arg3, main_arg4, main_arg5, main_arg6, main_v0, main_v1, main_v2, main_v3, main_v4, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S13 (V0 m d) := by
  rw [unscopedBufs_eq, held_S13]; rfl

theorem hFlat : (opFlat (F := F)).bufs ⊆ S13 := show ({a0', v0'} : Finset (DevRef τ sig)) ⊆ S13 by decide
theorem hTr [FloatOps F] : (opTr (F := F)).bufs ⊆ S13 := show ({a2', v1'} : Finset (DevRef τ sig)) ⊆ S13 by decide

/-- The two host operations write only the flattened index array and the transposed table: every other array
    holds its launch contents after them. -/
theorem V2_keep [FloatOps F] (d : Dev nD) (b : DevRef τ sig) (h0 : b ∉ ({v0'} : Finset (DevRef τ sig))) (h1 : b ∉ ({v1'} : Finset (DevRef τ sig))) :
    V2 m d b = m (d, b) := by
  unfold V2 V1 V0
  rw [(opTr (F := F)).result_of_not_mem _ h1, (opFlat (F := F)).result_of_not_mem _ h0]

theorem V2_v0 [FloatOps F] (d : Dev nD) : V2 m d v0' = sflat m d := by
  unfold V2 sflat
  rw [(opTr (F := F)).result_of_not_mem _ (show v0' ∉ ({v1'} : Finset (DevRef τ sig)) by decide)]

/-- After the two host operations: the arguments and the later intermediates at their launch contents, the
    flattened index array and the transposed table as computed. -/
theorem held_V2 [FloatOps F] (d : Dev nD) :
    (held (T d) S13 ((opTr (F := F)).result (V1 m d)) : sProp 𝕄) = iprop((aLoc d main_arg0 ↦{fullShare} m (aLoc d main_arg0)) ∗ (aLoc d main_arg1 ↦{fullShare} m (aLoc d main_arg1)) ∗ (aLoc d main_arg2 ↦{fullShare} m (aLoc d main_arg2)) ∗ (aLoc d main_arg3 ↦{fullShare} m (aLoc d main_arg3)) ∗ (aLoc d main_arg4 ↦{fullShare} m (aLoc d main_arg4)) ∗ (aLoc d main_arg5 ↦{fullShare} m (aLoc d main_arg5)) ∗ (aLoc d main_arg6 ↦{fullShare} m (aLoc d main_arg6)) ∗ (aLoc d main_v0 ↦{fullShare} sflat m d) ∗ (aLoc d main_v1 ↦{fullShare} wT m d) ∗ (aLoc d main_v2 ↦{fullShare} m (aLoc d main_v2)) ∗ (aLoc d main_v3 ↦{fullShare} m (aLoc d main_v3)) ∗ (aLoc d main_v4 ↦{fullShare} m (aLoc d main_v4)) ∗ (aLoc d main_v5 ↦{fullShare} m (aLoc d main_v5))) := by
  rw [held_S13]
  have e : ∀ b, (opTr (F := F)).result (V1 m d) b = V2 m d b := fun _ => rfl
  simp only [e]
  rw [V2_keep m d a0' (by decide) (by decide), V2_keep m d a1' (by decide) (by decide), V2_keep m d a2' (by decide) (by decide), V2_keep m d a3' (by decide) (by decide), V2_keep m d a4' (by decide) (by decide), V2_keep m d a5' (by decide) (by decide), V2_keep m d a6' (by decide) (by decide), V2_keep m d v2' (by decide) (by decide), V2_keep m d v3' (by decide) (by decide), V2_keep m d v4' (by decide) (by decide), V2_keep m d v5' (by decide) (by decide), V2_v0]
  rfl

end Cert.Kernel.Main

end
-- ==== Proof.BTileSplit.lean ====
/-
  The thirty-two tiles' rows of the gathered array are pairwise disjoint and together the whole array: tile
  (core c, subcore s) starts at row 16384 * (2 * s + c) and takes 16384 rows.
-/
import proofs.«205025_g42520176230720_cont_8to1_b_1509_29_alg».proof.Proof.BTileDefs

noncomputable section

namespace Cert.Kernel.Tile

open Cert.Kernel Cert.Kernel.Gen Cert.Kernel.Base

open Idealize.ShloMosaic

/-- The grid point of SparseCore `c`, vector subcore `s`, as the body table builds it. -/
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl

theorem row0_coordsV (c : Fin (grid1.bound 0)) (s : Fin (grid1.bound 1)) : row0 (coordsV c s) = 16384 * (2 * s.val + c.val) := by
  rw [row0_eq]; show 32768 * s.val + 16384 * c.val = _; omega

/-- A row index lies in tile `(c, s)`'s rows exactly when its row number does; every column does. -/
theorem mem_outRows (c : Fin (grid1.bound 0)) (s : Fin (grid1.bound 1)) (i : S524288x128.Idx) :
    i ∈ outRows (coordsV c s) ↔ 16384 * (2 * s.val + c.val) ≤ (i 0).val ∧ (i 0).val < 16384 * (2 * s.val + c.val) + 16384 := by
  unfold outRows outRect
  rw [Rect.mem_set_unit, Fin.forall_fin_two]
  have h1 : (i 1).val < 128 := (i 1).isLt
  show (row0 (coordsV c s) ≤ (i 0).val ∧ (i 0).val < row0 (coordsV c s) + 16384) ∧ (0 ≤ (i 1).val ∧ (i 1).val < 0 + 128) ↔ _
  rw [row0_coordsV]; omega

/-- Tile `p`'s rows, the tiles indexed by (core, subcore). -/
def outRowsOf (p : Fin (grid1.bound 0) × Fin (grid1.bound 1)) : Finset S524288x128.Idx := outRows (coordsV p.1 p.2)

theorem outRows_disjoint :
    ∀ p ∈ (Finset.univ : Finset (Fin (grid1.bound 0) × Fin (grid1.bound 1))), ∀ p' ∈ (Finset.univ : Finset (Fin (grid1.bound 0) × Fin (grid1.bound 1))),
      p ≠ p' → Disjoint (outRowsOf p) (outRowsOf p') := by
  intro p _ p' _ hne
  rw [Finset.disjoint_left]
  intro i hi hi'
  unfold outRowsOf at hi hi'
  rw [mem_outRows] at hi hi'
  have hc : p.1.val < 2 := p.1.isLt
  have hc' : p'.1.val < 2 := p'.1.isLt
  apply hne
  refine Prod.ext (Fin.ext ?_) (Fin.ext ?_) <;> omega

theorem outRows_cover :
    (Finset.univ : Finset (Fin (grid1.bound 0) × Fin (grid1.bound 1))).biUnion outRowsOf = Finset.univ := by
  ext i
  simp only [Finset.mem_biUnion, Finset.mem_univ, true_and, iff_true]
  have hi : (i 0).val < 524288 := (i 0).isLt
  refine ⟨(⟨(i 0).val / 16384 % 2, Nat.mod_lt _ (by decide)⟩, ⟨(i 0).val / 16384 / 2, ?_⟩), ?_⟩
  · show (i 0).val / 16384 / 2 < 16; omega
  · unfold outRowsOf; rw [mem_outRows]; dsimp only; omega

end Cert.Kernel.Tile

end
-- ==== Proof.BKSplit.lean ====
/-
  The SparseCore call's operands and results on the TensorCore's side: the flattened index array and the paired
  table each go out as 32 read tokens of the whole (one per tile, the remainders kept), the gathered array as the
  32 tiles' rows; what comes back is the index array whole again and the gathered array whole at contents that
  agree, on each tile's rows, with the gather of SOME table the first region may have left.
-/
import proofs.«205025_g42520176230720_cont_8to1_b_1509_29_alg».proof.Proof.BKHost
import proofs.«205025_g42520176230720_cont_8to1_b_1509_29_alg».proof.Proof.BTileSplit

noncomputable section

namespace Cert.Kernel.Main

open Cert.Kernel Cert.Kernel.Gen Cert.Kernel.Base

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ)

/-! ## The 32 tiles, numbered -/

theorem coordsV_eq (c : Fin 2) (i : Fin 16) : coordsV c i = Tile.coordsV c i := by
  funext a; match a with | ⟨0, _⟩ => rfl | ⟨1, _⟩ => rfl

/-- Tile `(c, i)` is the `2 i + c`-th of the 32. -/
def tixE : Fin 2 × Fin 16 ≃ Fin 32 where
  toFun p := tix p.1 p.2
  invFun k := (⟨k.val % 2, Nat.mod_lt _ (by decide)⟩, ⟨k.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv k := by
    refine Fin.ext ?_
    show 2 * (k.val / 2) + k.val % 2 = k.val; omega

omit m in
theorem bigSep_tix (Φ : Fin 32 → sProp 𝕄) :
    bigSep Finset.univ Φ = bigSep Finset.univ fun p : Fin 2 × Fin 16 => Φ (tix p.1 p.2) := by
  rw [← Finset.map_univ_equiv tixE, bigSep_map]; rfl

omit m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m in
/-- Pure facts under a `bigSep` come out together. -/
theorem bigSep_pure_sep {I : Type} [DecidableEq I] (s : Finset I) (φ : I → Prop) (X : I → sProp 𝕄) :
    (bigSep s fun i => iprop(⌜φ i⌝ ∗ X i)) ⊢ iprop(⌜∀ i ∈ s, φ i⌝ ∗ bigSep s X) := by
  induction s using Finset.induction_on with
  | empty =>
    rw [bigSep_empty, bigSep_empty]
    iintro -; isplitr
    · ipureintro; intro i hi; exact absurd hi (Finset.notMem_empty i)
    · iempintro
  | insert a s ha ih =>
    rw [SparseCore.bigSep_insert' ha, SparseCore.bigSep_insert' ha]
    iintro ⟨⟨%h, Ha⟩, Hs⟩
    ihave H := ih $$ Hs
    icases H with ⟨%hs, Hs⟩
    isplitr
    · ipureintro; intro i hi
      rcases Finset.mem_insert.mp hi with rfl | hi
      · exact h
      · exact hs i hi
    · isplitl [Ha]; · iexact Ha
      iexact Hs

variable [FloatOps F]

/-! ## What the call takes and hands back, over the tiles -/

theorem st0_eq (d : Dev nD) :
    (bigSep Finset.univ fun c : Fin ((K (F := F)).nCore 0) => (P m).st 0 d c) = bigSep Finset.univ fun p : Fin 2 × Fin 16 => goP m d p.1 p.2 := by
  show (bigSep Finset.univ fun c : Fin ((K (F := F)).nCore 0) => bigSep Finset.univ fun i : Fin 16 => goP m d (Fin.cast nCore_zero c) i) = _
  rw [bigSep_cores (F := F) (fun c => bigSep Finset.univ fun i : Fin 16 => goP m d c i), bigSep_univ_prod]

theorem dn0_eq (d : Dev nD) :
    (bigSep Finset.univ fun c : Fin ((K (F := F)).nCore 0) => (P m).dn 0 d c) = bigSep Finset.univ fun p : Fin 2 × Fin 16 => tdP m d p.1 p.2 := by
  show (bigSep Finset.univ fun c : Fin ((K (F := F)).nCore 0) => bigSep Finset.univ fun i : Fin 16 => tdP m d (Fin.cast nCore_zero c) i) = _
  rw [bigSep_cores (F := F) (fun c => bigSep Finset.univ fun i : Fin 16 => tdP m d c i), bigSep_univ_prod]

omit [FloatOps F] m in
/-- Tile `p`'s rows of the gathered array. -/
def rowsOf (p : Fin 2 × Fin 16) : Finset S524288x128.Idx := Tile.outRows (coordsV p.1 p.2)

omit [FloatOps F] m in
theorem rowsOf_eq : rowsOf = Tile.outRowsOf := funext fun p => by unfold rowsOf Tile.outRowsOf; rw [coordsV_eq]

omit [FloatOps F] m in
theorem rowsOf_disjoint : ∀ p ∈ (Finset.univ : Finset (Fin 2 × Fin 16)), ∀ p' ∈ (Finset.univ : Finset (Fin 2 × Fin 16)), p ≠ p' → Disjoint (rowsOf p) (rowsOf p') := by
  rw [rowsOf_eq]; exact Tile.outRows_disjoint

omit [FloatOps F] m in
theorem rowsOf_cover : (Finset.univ : Finset (Fin 2 × Fin 16)).biUnion rowsOf = Finset.univ := by
  rw [rowsOf_eq]; exact Tile.outRows_cover

omit [FloatOps F] m in
/-- The gathered array is its 32 tiles' rows. -/
theorem v3_rows (d : Dev nD) (f : Buf (Elt F) (aLoc d main_v3)) :
    (aLoc d main_v3 ↦{fullShare} f : sProp 𝕄) = bigSep Finset.univ fun p : Fin 2 × Fin 16 => aLoc d main_v3 ↦[rowsOf p]{fullShare} f := by
  rw [← pointsTo_biUnion Finset.univ (ℓ := aLoc d main_v3) rowsOf rowsOf_disjoint, rowsOf_cover]; try rfl

/-- The gathered array after the call: on each tile's rows, the gather of a table that pairs the transposed one. -/
def GathOK (d : Dev nD) (g : Buf (Elt F) (aLoc d main_v3)) : Prop :=
  ∃ F2 : Fin 2 × Fin 16 → Buf (Elt F) (aLoc d main_v2), (∀ p, Reg.PairOK (wT m d) (F2 p))
    ∧ ∀ p, ∀ j ∈ rowsOf p, g j = Tile.gath d (sflat m d) (F2 p) j

/-- The three arrays go out to the 32 tiles; the read shares' remainders stay. -/
theorem split_go (d : Dev nD) (f2 : Buf (Elt F) (aLoc d main_v2)) (hp : Reg.PairOK (wT m d) f2) (f3 : Buf (Elt F) (aLoc d main_v3)) :
    iprop((aLoc d main_v0 ↦{fullShare} sflat m d) ∗ (aLoc d main_v2 ↦{fullShare} f2) ∗ (aLoc d main_v3 ↦{fullShare} f3))
      ⊢ (iprop((aLoc d main_v0 ↦{shareDrop fullShare 32} sflat m d) ∗ (aLoc d main_v2 ↦{shareDrop fullShare 32} f2)
          ∗ bigSep Finset.univ fun p : Fin 2 × Fin 16 => goP m d p.1 p.2) : sProp 𝕄) := by
  have e0 : (aLoc d main_v0 ↦{fullShare} sflat m d : sProp 𝕄) ⊢ _ := pointsTo_toks_split (ℓ := aLoc d main_v0) (S := Finset.univ) (f := sflat m d) fullShare 32
  have e2 : (aLoc d main_v2 ↦{fullShare} f2 : sProp 𝕄) ⊢ _ := pointsTo_toks_split (ℓ := aLoc d main_v2) (S := Finset.univ) (f := f2) fullShare 32
  rw [bigSep_tix] at e0 e2
  rw [v3_rows]
  have hstep : ∀ p ∈ (Finset.univ : Finset (Fin 2 × Fin 16)),
      (iprop((aLoc d main_v0 ↦{shareTok fullShare 32 (tix p.1 p.2)} sflat m d)
        ∗ (aLoc d main_v2 ↦{shareTok fullShare 32 (tix p.1 p.2)} f2) ∗ (aLoc d main_v3 ↦[rowsOf p]{fullShare} f3)) : sProp 𝕄) ⊢ goP m d p.1 p.2 := by
    intro p _
    unfold goP Tile.goRes rowsOf
    iintro ⟨HA, HB, HC⟩
    iexists f2; isplitr
    · ipureintro; exact hp
    isplitl [HA]; · iexact HA
    isplitl [HB]; · iexact HB
    iexists f3; iexact HC
  iintro ⟨H0, H2, H3⟩
  ihave H0' := e0 $$ H0
  icases H0' with ⟨H0r, H0t⟩
  ihave H2' := e2 $$ H2
  icases H2' with ⟨H2r, H2t⟩
  isplitl [H0r]; · iexact H0r
  isplitl [H2r]; · iexact H2r
  ihave H := (Entails.of_eq (bigSep_sep' (Finset.univ : Finset (Fin 2 × Fin 16))
      (fun p => (aLoc d main_v2 ↦{shareTok fullShare 32 (tix p.1 p.2)} f2 : sProp 𝕄))
      (fun p => (aLoc d main_v3 ↦[rowsOf p]{fullShare} f3 : sProp 𝕄))).symm) $$ [H2t H3]
  · isplitl [H2t]; · iexact H2t
    iexact H3
  ihave H' := (Entails.of_eq (bigSep_sep' (Finset.univ : Finset (Fin 2 × Fin 16))
      (fun p => (aLoc d main_v0 ↦{shareTok fullShare 32 (tix p.1 p.2)} sflat m d : sProp 𝕄))
      (fun p => iprop((aLoc d main_v2 ↦{shareTok fullShare 32 (tix p.1 p.2)} f2) ∗ (aLoc d main_v3 ↦[rowsOf p]{fullShare} f3) : sProp 𝕄))).symm) $$ [H0t H]
  · isplitl [H0t]; · iexact H0t
    iexact H
  have hmono : ((bigSep Finset.univ fun p : Fin 2 × Fin 16 => iprop((aLoc d main_v0 ↦{shareTok fullShare 32 (tix p.1 p.2)} sflat m d)
        ∗ (aLoc d main_v2 ↦{shareTok fullShare 32 (tix p.1 p.2)} f2) ∗ (aLoc d main_v3 ↦[rowsOf p]{fullShare} f3))) : sProp 𝕄)
      ⊢ bigSep Finset.univ fun p : Fin 2 × Fin 16 => goP m d p.1 p.2 := bigSep_mono hstep
  iapply hmono
  iexact H'

/-- The tasks' results come back: the index array whole again, and the gathered array whole at contents that
    agree, tile by tile, with the gather of a table pairing the transposed one. The paired table's read shares
    are not needed again and are let go. -/
theorem join_td [∀ e, Nonempty (Elt F e)] (d : Dev nD) :
    iprop((aLoc d main_v0 ↦{shareDrop fullShare 32} sflat m d) ∗ bigSep Finset.univ fun p : Fin 2 × Fin 16 => tdP m d p.1 p.2)
      ⊢ (iprop((aLoc d main_v0 ↦{fullShare} sflat m d) ∗ ∃ g, ⌜GathOK m d g⌝ ∗ aLoc d main_v3 ↦{fullShare} g) : sProp 𝕄) := by
  have hstep : ∀ p ∈ (Finset.univ : Finset (Fin 2 × Fin 16)), (tdP m d p.1 p.2 : sProp 𝕄)
      ⊢ iprop((aLoc d main_v0 ↦{shareTok fullShare 32 (tix p.1 p.2)} sflat m d)
          ∗ ∃ f2 : Buf (Elt F) (aLoc d main_v2), iprop(⌜Reg.PairOK (wT m d) f2⌝ ∗ aLoc d main_v3 ↦[rowsOf p]{fullShare} Tile.gath d (sflat m d) f2)) := by
    intro p _
    unfold tdP Tile.tdRes rowsOf
    iintro ⟨%f2, %hp, H0, -, H3⟩
    isplitl [H0]; · iexact H0
    iexists f2; isplitr
    · ipureintro; exact hp
    · iexact H3
  have hmono : ((bigSep Finset.univ fun p : Fin 2 × Fin 16 => tdP m d p.1 p.2) : sProp 𝕄)
      ⊢ bigSep Finset.univ fun p : Fin 2 × Fin 16 => iprop((aLoc d main_v0 ↦{shareTok fullShare 32 (tix p.1 p.2)} sflat m d)
          ∗ ∃ f2 : Buf (Elt F) (aLoc d main_v2), iprop(⌜Reg.PairOK (wT m d) f2⌝ ∗ aLoc d main_v3 ↦[rowsOf p]{fullShare} Tile.gath d (sflat m d) f2)) :=
    bigSep_mono hstep
  have e0 : (iprop((aLoc d main_v0 ↦{shareDrop fullShare 32} sflat m d)
        ∗ bigSep Finset.univ (fun i : Fin 32 => aLoc d main_v0 ↦{shareTok fullShare 32 i} sflat m d)) : sProp 𝕄) ⊢ aLoc d main_v0 ↦{fullShare} sflat m d :=
    pointsTo_toks_join (ℓ := aLoc d main_v0) (S := Finset.univ) (f := sflat m d) fullShare 32
  rw [bigSep_tix] at e0
  have ej : ∀ (fs : Fin 2 × Fin 16 → Buf (Elt F) (aLoc d main_v3)) (f₀ : Buf (Elt F) (aLoc d main_v3)),
      (bigSep (Finset.univ : Finset (Fin 2 × Fin 16)) (fun t => aLoc d main_v3 ↦[rowsOf t]{fullShare} fs t) : sProp 𝕄)
        ⊢ iprop(∃ g, ⌜∀ t ∈ (Finset.univ : Finset (Fin 2 × Fin 16)), ∀ i ∈ rowsOf t, g i = fs t i⌝
            ∗ aLoc d main_v3 ↦[(Finset.univ : Finset (Fin 2 × Fin 16)).biUnion rowsOf]{fullShare} g) :=
    fun fs f₀ => pointsTo_biUnion_join (ℓ := aLoc d main_v3) (q := fullShare) Finset.univ rowsOf fs f₀ rowsOf_disjoint
  iintro ⟨H0r, Htd⟩
  ihave H := hmono $$ Htd
  ihave H' := (Entails.of_eq (bigSep_sep' (Finset.univ : Finset (Fin 2 × Fin 16))
      (fun p => (aLoc d main_v0 ↦{shareTok fullShare 32 (tix p.1 p.2)} sflat m d : sProp 𝕄))
      (fun p => (iprop(∃ f2 : Buf (Elt F) (aLoc d main_v2), iprop(⌜Reg.PairOK (wT m d) f2⌝ ∗ aLoc d main_v3 ↦[rowsOf p]{fullShare} Tile.gath d (sflat m d) f2)) : sProp 𝕄)))) $$ H
  icases H' with ⟨H0t, Hrows⟩
  ihave H0 := e0 $$ [H0r H0t]
  · isplitl [H0r]; · iexact H0r
    iexact H0t
  ihave Hr := (bigSep_exists_pi (Finset.univ : Finset (Fin 2 × Fin 16))
      (fun p (f2 : Buf (Elt F) (aLoc d main_v2)) => (iprop(⌜Reg.PairOK (wT m d) f2⌝ ∗ aLoc d main_v3 ↦[rowsOf p]{fullShare} Tile.gath d (sflat m d) f2) : sProp 𝕄))) $$ Hrows
  icases Hr with ⟨%F2, Hr⟩
  ihave Hr' := (bigSep_pure_sep (F := F) (Finset.univ : Finset (Fin 2 × Fin 16)) (fun p => Reg.PairOK (wT m d) (F2 p))
      (fun p => (aLoc d main_v3 ↦[rowsOf p]{fullShare} Tile.gath d (sflat m d) (F2 p) : sProp 𝕄))) $$ Hr
  icases Hr' with ⟨%hF2, Hr⟩
  ihave Hj := (ej (fun p => Tile.gath d (sflat m d) (F2 p)) (Tile.gath d (sflat m d) (F2 (0, 0)))) $$ Hr
  icases Hj with ⟨%g, %hg, Hg⟩
  isplitl [H0]; · iexact H0
  iexists g; isplitr
  · ipureintro
    exact ⟨F2, fun p => hF2 p (Finset.mem_univ p), fun p j hj => hg p (Finset.mem_univ p) j hj⟩
  · rw [rowsOf_cover]; iexact Hg

end Cert.Kernel.Main

end
-- ==== Proof.BKHmain.lean ====
/-
  @main on the TensorCore: the two host operations, the first region, the SparseCore call, the reshape, the
  second region; the arguments are held throughout at their launch contents and the result ends at the finishing
  pass of the gathered rows.
-/
import proofs.«205025_g42520176230720_cont_8to1_b_1509_29_alg».proof.Proof.BKSplit

noncomputable section

namespace Cert.Kernel.Main

open Cert.Kernel Cert.Kernel.Gen Cert.Kernel.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The first region's run on the TensorCore of `d` before SparseCore call `n` (the statement the regions' module proves). -/
def Region0Run : Prop :=
  ∀ (d : Dev nD) (n : ℕ) (lv : GSem nD τ sig → HIx 1 → ℕ) (_ : (K (F := F)).Refines lv)
    (t : Vec F S64x1000000 .f32) (f2 : Vec F S512000x128 .f32),
    iprop(boundary (T d) ∗ Reg.pairPre (F := F) d n t f2 ∗ levAts (K (F := F)).L lv
        ∗ Pipeline.cellsGhost (pins (F := F)) (EP (F := F)) (0 : Fin 2) d
        ∗ Pipeline.toksInit (pins (F := F)) (EP (F := F)) (0 : Fin 2) d)
      ⊢ wp frame (wpE ((K (F := F)).defs D) 𝒱 (T d) none) Set.univ
          (Prog.lift (.customCall (SparseCore.inner (Pipeline.entry (0 : Fin 2))) ()))
          (fun _ => iprop(boundary (T d) ∗ Reg.pairPost (F := F) d n t))

/-- The second region's run likewise. -/
def Region2Run : Prop :=
  ∀ (d : Dev nD) (n : ℕ) (lv : GSem nD τ sig → HIx 1 → ℕ) (_ : (K (F := F)).Refines lv)
    (x : Vec F S1024x512x128 .f32) (a0 a1 : Vec F S1024x512 .i32) (a3 : Vec F S512x64 .f32)
    (a4 : Vec F S3x64 .f32) (a5 a6 : Vec F S64 .f32) (f5 : Vec F S1024x512x64 .f32),
    iprop(boundary (T d) ∗ Reg.finPre (F := F) d n x a0 a1 a3 a4 a5 a6 f5 ∗ levAts (K (F := F)).L lv
        ∗ Pipeline.cellsGhost (pins (F := F)) (EP (F := F)) (1 : Fin 2) d
        ∗ Pipeline.toksInit (pins (F := F)) (EP (F := F)) (1 : Fin 2) d)
      ⊢ wp frame (wpE ((K (F := F)).defs D) 𝒱 (T d) none) Set.univ
          (Prog.lift (.customCall (SparseCore.inner (Pipeline.entry (1 : Fin 2))) ()))
          (fun _ => iprop(boundary (T d) ∗ Reg.finPost (F := F) d n x a0 a1 a3 a4 a5 a6))

variable [∀ e, Nonempty (Elt F e)]

/-- What the TensorCore's state before call `n` holds beside what it owes. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0 ∗ cred (tallyAt ((K (F := F)).doneCell d) (some q) 1)))

omit [FloatOps F] [∀ e, Nonempty (Elt F e)] in
theorem tcSt_eq (d : Dev nD) (n : ℕ) : (K (F := F)).tcSt (EH (F := F)) d n = iprop(Reg.tcOwes (F := F) d n ∗ tcRest (F := F) d n) := rfl

/-- The two pipelines' shares of what the launch dealt for the regions. -/
abbrev cg (p : Fin 2) (d : Dev nD) : sProp 𝕄 := Pipeline.cellsGhost (pins (F := F)) (EP (F := F)) p d
abbrev tk (p : Fin 2) (d : Dev nD) : sProp 𝕄 := Pipeline.toksInit (pins (F := F)) (EP (F := F)) p d

omit [∀ e, Nonempty (Elt F e)] in
theorem G_eq (d : Dev nD) : G (F := F) d = iprop((cg (F := F) 0 d ∗ cg (F := F) 1 d) ∗ (tk (F := F) 0 d ∗ tk (F := F) 1 d)) := by
  unfold G
  rw [show (Finset.univ : Finset (Fin 2)) = {0, 1} by decide, SparseCore.bigSep_insert' (by decide), bigSep_singleton,
    SparseCore.bigSep_insert' (by decide), bigSep_singleton]

/-! ## The reshape between the call and the second region -/

/-- The gathered rows as [1024, 512, 128]. -/
def blk (d : Dev nD) (g : Buf (Elt F) (aLoc d main_v3)) : Buf (Elt F) (aLoc d main_v4) :=
  shapeCast S1024x512x128 g shapeCasts_S524288x128_S1024x512x128

/-- The contents the reshape runs from: the gathered array at `g`. -/
def VB (d : Dev nD) (g : Buf (Elt F) (aLoc d main_v3)) : Valuation τ sig (Elt F) := Function.update (V0 m d) v3' g

abbrev S2 : Finset (DevRef τ sig) := {v3', v4'}

omit [FloatOps F] [∀ e, Nonempty (Elt F e)] m ρ in
theorem held_S2 (d : Dev nD) (W : Valuation τ sig (Elt F)) :
    (held (T d) S2 W : sProp 𝕄) = iprop((aLoc d main_v3 ↦{fullShare} W v3') ∗ (aLoc d main_v4 ↦{fullShare} W v4')) := by
  unfold held S2
  rw [SparseCore.bigSep_insert' (by decide), bigSep_singleton]

omit [FloatOps F] [∀ e, Nonempty (Elt F e)] in
theorem hBlk : (opBlk (F := F)).bufs ⊆ S2 := show ({v3', v4'} : Finset (DevRef τ sig)) ⊆ S2 by decide

omit [FloatOps F] [∀ e, Nonempty (Elt F e)] ρ in
theorem VB_v3 (d : Dev nD) (g : Buf (Elt F) (aLoc d main_v3)) : VB m d g v3' = g := Function.update_self _ _ _
omit [FloatOps F] [∀ e, Nonempty (Elt F e)] ρ in
theorem VB_v4 (d : Dev nD) (g : Buf (Elt F) (aLoc d main_v3)) : VB m d g v4' = m (aLoc d main_v4) :=
  Function.update_of_ne (show v4' ≠ v3' by decide) _ _

omit [FloatOps F] [∀ e, Nonempty (Elt F e)] ρ in
theorem held_blk (d : Dev nD) (g : Buf (Elt F) (aLoc d main_v3)) :
    (held (T d) S2 ((opBlk (F := F)).result (VB m d g)) : sProp 𝕄) = iprop((aLoc d main_v3 ↦{fullShare} g) ∗ (aLoc d main_v4 ↦{fullShare} blk d g)) := by
  rw [held_S2, (opBlk (F := F)).result_of_not_mem _ (show v3' ∉ ({v4'} : Finset (DevRef τ sig)) by decide), VB_v3]
  congr 2

/-! ## What @main leaves -/

/-- The arguments at their launch contents, and the result at the finishing pass of a gathered array that agrees,
    tile by tile, with the gather of a table pairing the transposed word table. -/
def FIN (d : Dev nD) : sProp 𝕄 :=
  iprop((aLoc d main_arg0 ↦{fullShare} m (aLoc d main_arg0)) ∗ (aLoc d main_arg1 ↦{fullShare} m (aLoc d main_arg1)) ∗ (aLoc d main_arg2 ↦{fullShare} m (aLoc d main_arg2)) ∗ (aLoc d main_arg3 ↦{fullShare} m (aLoc d main_arg3)) ∗ (aLoc d main_arg4 ↦{fullShare} m (aLoc d main_arg4)) ∗ (aLoc d main_arg5 ↦{fullShare} m (aLoc d main_arg5)) ∗ (aLoc d main_arg6 ↦{fullShare} m (aLoc d main_arg6))
    ∗ ∃ g, ⌜GathOK m d g⌝ ∗ aLoc d main_v5 ↦{fullShare} Reg.Finish (F := F) (blk d g) (m (aLoc d main_arg0)) (m (aLoc d main_arg1)) (m (aLoc d main_arg3)) (m (aLoc d main_arg4)) (m (aLoc d main_arg5)) (m (aLoc d main_arg6)))

theorem hmain (h0 : Region0Run (F := F)) (h2 : Region2Run (F := F)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  have hlv : (K (F := F)).Refines (nD := nD) ((K (F := F)).lev (nD := nD)) := by sl_refines_lev
  unfold SparseCore.Cfg.tcRes
  rw [unscoped_held, tcSt_eq, G_eq]
  simp only [main, wp_bind, wp_pure]
  iintro ⟨#Hctx, ⟨Howes, Hrest⟩, ⟨Hb, Hheld, -, -⟩, ⟨Hcg0, Hcg1⟩, ⟨Htk0, Htk1⟩⟩
  ihave #Hlev := ((K (F := F)).ctx_levAts (EH := EH) (P := P m) κ) $$ Hctx
  -- the two host operations
  iapply (wp_hlo_within 𝒱 (SparseCore.T d) none Set.univ (op := opFlat) (S := S13) hFlat (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opTr) (S := S13) hTr (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Ha2, Ha3, Ha4, Ha5, Ha6, Hv0, Hv1, Hv2, Hv3, Hv4, Hv5⟩
  -- the first region
  iapply (wp_wand_r frame _ _ (Q := fun _ => iprop(boundary (SparseCore.T d) ∗ Reg.pairPost (F := F) d 0 (wT m d))))
  isplitl [Hb Hv1 Hv2 Howes Hcg0 Htk0]
  · iapply (h0 d 0 (K (F := F)).lev hlv (wT m d) (m (aLoc d main_v2)))
    isplitl [Hb]; · iexact Hb
    isplitl [Hv1 Hv2 Howes]
    · unfold Reg.pairPre
      isplitl [Hv1]; · iexact Hv1
      isplitl [Hv2]; · iexact Hv2
      iexact Howes
    isplitr; · iexact Hlev
    isplitl [Hcg0]; · iexact Hcg0
    iexact Htk0
  iintro %_ ⟨Hb, Hpost⟩
  unfold Reg.pairPost
  icases Hpost with ⟨Hv1, ⟨%f2, %hp, Hv2⟩, Howes⟩
  -- the SparseCore call: the three arrays out to the tiles, the index array and the gathered array back
  ihave Hs := (split_go m d f2 hp (m (aLoc d main_v3))) $$ [Hv0 Hv2 Hv3]
  · isplitl [Hv0]; · iexact Hv0
    isplitl [Hv2]; · iexact Hv2
    iexact Hv3
  icases Hs with ⟨H0r, -, Hgo⟩
  iapply ((K (F := F)).wp_run (D (F := F)) 𝒱 (EH := EH) (P := P m) κ d 0) $$ [Howes Hrest Hgo H0r Hb Ha0 Ha1 Ha2 Ha3 Ha4 Ha5 Ha6 Hv1 Hv4 Hv5 Hcg1 Htk1]
  isplitr; · iexact Hctx
  isplitl [Howes Hrest]
  · rw [tcSt_eq]
    isplitl [Howes]; · iexact Howes
    iexact Hrest
  isplitl [Hgo]
  · rw [st0_eq]; iexact Hgo
  iintro ⟨Hst, Hdn⟩
  ihave Hdn' := (Entails.of_eq (dn0_eq m d)) $$ Hdn
  ihave Hj := (join_td m d) $$ [H0r Hdn']
  · isplitl [H0r]; · iexact H0r
    iexact Hdn'
  icases Hj with ⟨Hv0, %g, %hg, Hv3⟩
  ihave Hst' := (Entails.of_eq (tcSt_eq (F := F) d _)) $$ Hst
  icases Hst' with ⟨Howes, Hrest⟩
  -- the reshape of the gathered rows
  iapply (wp_hlo_within 𝒱 (SparseCore.T d) none Set.univ (op := opBlk) (S := S2) hBlk (V := VB m d g)) $$ [Hb Hv3 Hv4]
  · isplitl [Hb]; · iexact Hb
    rw [held_S2, VB_v3, VB_v4]
    isplitl [Hv3]; · iexact Hv3
    iexact Hv4
  iintro ⟨Hb, Hheld⟩
  rw [wp_ret]; imodintro
  ihave Hh := (Entails.of_eq (held_blk (F := F) m d g)) $$ Hheld
  icases Hh with ⟨Hv3, Hv4⟩
  -- the second region
  iapply (wp_wand_r frame _ _ (Q := fun _ => iprop(boundary (SparseCore.T d) ∗ Reg.finPost (F := F) d 1 (blk d g) (m (aLoc d main_arg0)) (m (aLoc d main_arg1)) (m (aLoc d main_arg3)) (m (aLoc d main_arg4)) (m (aLoc d main_arg5)) (m (aLoc d main_arg6)))))
  isplitl [Hb Hv4 Ha0 Ha1 Ha3 Ha4 Ha5 Ha6 Hv5 Howes Hcg1 Htk1]
  · iapply (h2 d 1 (K (F := F)).lev hlv (blk d g) (m (aLoc d main_arg0)) (m (aLoc d main_arg1)) (m (aLoc d main_arg3)) (m (aLoc d main_arg4)) (m (aLoc d main_arg5)) (m (aLoc d main_arg6)) (m (aLoc d main_v5)))
    isplitl [Hb]; · iexact Hb
    isplitl [Hv4 Ha0 Ha1 Ha3 Ha4 Ha5 Ha6 Hv5 Howes]
    · unfold Reg.finPre
      isplitl [Hv4]; · iexact Hv4
      isplitl [Ha0]; · iexact Ha0
      isplitl [Ha1]; · iexact Ha1
      isplitl [Ha3]; · iexact Ha3
      isplitl [Ha4]; · iexact Ha4
      isplitl [Ha5]; · iexact Ha5
      isplitl [Ha6]; · iexact Ha6
      isplitl [Hv5]; · iexact Hv5
      iexact Howes
    isplitr; · iexact Hlev
    isplitl [Hcg1]; · iexact Hcg1
    iexact Htk1
  iintro %_ ⟨Hb, Hpost⟩
  unfold Reg.finPost
  icases Hpost with ⟨Hv4, Ha0, Ha1, Ha3, Ha4, Ha5, Ha6, Hv5, Howes⟩
  imodintro
  isplitl [Howes Hrest]
  · rw [tcSt_eq]
    isplitl [Howes]; · iexact Howes
    iexact Hrest
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexists g; isplitr
  · ipureintro; exact hg
  · iexact Hv5

end Cert.Kernel.Main

end
-- ==== Proof.BKRun.lean ====
/-
  The kernel program's run: every weakly fair execution of the TensorCore's @main beside the SparseCores'
  sequencers and tiles terminates, nothing faulting, with the seven arguments unchanged and the result at the
  finishing pass of a gathered array that agrees, tile by tile, with the gather of a table pairing the transposed
  word table. From the tile's body's run and the two regions' runs, by the SparseCore launch theorem.
-/
import proofs.«205025_g42520176230720_cont_8to1_b_1509_29_alg».proof.Proof.BKHmain

noncomputable section

namespace Cert.Kernel.Main

open Cert.Kernel Cert.Kernel.Gen Cert.Kernel.Base

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

omit [FloatOps F] [∀ e, Nonempty (Elt F e)] m ρ in
/-- An array held whole beside the state's interpretation is the state's. -/
theorem agree_keep {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

/-- What the final memory of device `d` holds. -/
def fqM (d : Dev nD) (μ : MemSt nD τ sig (Elt F)) : Prop :=
  μ.mem (aLoc d main_arg0) = m (aLoc d main_arg0) ∧ μ.mem (aLoc d main_arg1) = m (aLoc d main_arg1)
  ∧ μ.mem (aLoc d main_arg2) = m (aLoc d main_arg2) ∧ μ.mem (aLoc d main_arg3) = m (aLoc d main_arg3)
  ∧ μ.mem (aLoc d main_arg4) = m (aLoc d main_arg4) ∧ μ.mem (aLoc d main_arg5) = m (aLoc d main_arg5)
  ∧ μ.mem (aLoc d main_arg6) = m (aLoc d main_arg6)
  ∧ ∃ g, GathOK m d g ∧ μ.mem (aLoc d main_v5) = Reg.Finish (F := F) (blk d g) (m (aLoc d main_arg0)) (m (aLoc d main_arg1)) (m (aLoc d main_arg3)) (m (aLoc d main_arg4)) (m (aLoc d main_arg5)) (m (aLoc d main_arg6))

def fq (d : Dev nD) (s' : Phys nD τ sig (Elt F)) : Prop := fqM m d s'.mem

theorem hfin (d : Dev nD) (s' : Phys nD τ sig (Elt F)) : iprop(FIN m d ∗ SI s') ⊢ (⌜fq m d s'⌝ : sProp 𝕄) := by
  unfold FIN
  iintro ⟨⟨Ha0, Ha1, Ha2, Ha3, Ha4, Ha5, Ha6, %g, %hg, Hv5⟩, HSI⟩
  ihave H := (agree_keep (F := F) _ s') $$ [HSI Ha0]
  · isplitl [HSI] <;> iassumption
  icases H with ⟨%e0, HSI⟩
  ihave H := (agree_keep (F := F) _ s') $$ [HSI Ha1]
  · isplitl [HSI] <;> iassumption
  icases H with ⟨%e1, HSI⟩
  ihave H := (agree_keep (F := F) _ s') $$ [HSI Ha2]
  · isplitl [HSI] <;> iassumption
  icases H with ⟨%e2, HSI⟩
  ihave H := (agree_keep (F := F) _ s') $$ [HSI Ha3]
  · isplitl [HSI] <;> iassumption
  icases H with ⟨%e3, HSI⟩
  ihave H := (agree_keep (F := F) _ s') $$ [HSI Ha4]
  · isplitl [HSI] <;> iassumption
  icases H with ⟨%e4, HSI⟩
  ihave H := (agree_keep (F := F) _ s') $$ [HSI Ha5]
  · isplitl [HSI] <;> iassumption
  icases H with ⟨%e5, HSI⟩
  ihave H := (agree_keep (F := F) _ s') $$ [HSI Ha6]
  · isplitl [HSI] <;> iassumption
  icases H with ⟨%e6, HSI⟩
  ihave H := (agree_keep (F := F) _ s') $$ [HSI Hv5]
  · isplitl [HSI] <;> iassumption
  icases H with ⟨%e7, -⟩
  ipureintro
  exact ⟨e0, e1, e2, e3, e4, e5, e6, g, hg, e7⟩

/-- The claim of the run: on every device the final memory holds `fqM`. -/
def QC : PUnit × MemSt nD τ sig (Elt F) → Prop := fun r => ∀ c : Dev nD, fqM m c r.2

theorem run_main (hsrc : SrcOK m) (hb : TileRun (F := F)) (h0 : Region0Run (F := F)) (h2 : Region2Run (F := F)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hsrc hb)
    (fun q _ => match q with | 0 => SparseCore.Cfg.VecSplit.of_plain (vecSplit m))
    m ρ main (G (F := F)) (FIN m) (u₀ (F := F)) (sep_elim_left.trans (hu₀ m)) (hmain m ρ h0 h2) (fq m) (hfin m) (QC m) (fun _ h => h)

end Cert.Kernel.Main

end
-- ==== Proof.BKClaims.lean ====
/-
  The frame of the kernel as printed, at the word-level instance: its run with the result's value dropped.
-/
import proofs.«205025_g42520176230720_cont_8to1_b_1509_29_alg».proof.Defs
import proofs.«205025_g42520176230720_cont_8to1_b_1509_29_alg».proof.Proof.BKRun
import proofs.«205025_g42520176230720_cont_8to1_b_1509_29_alg».proof.Proof.Gen.Pre_input_domain

noncomputable section

namespace Cert.Kernel.Claims

open Cert.Kernel Cert.Kernel.Gen Cert.Kernel.Base
open Idealize.ShloMosaic Idealize.SL.Sem

/-- The pieces the run rests on, at a float instance: one tile's body, the two TensorCore regions, and that under
    the precondition every rewritten index names a row of the paired table. -/
structure Pieces (F : FTy → Type) [FloatOps F] : Prop where
  tile : Main.TileRun (F := F)
  reg0 : Main.Region0Run (F := F)
  reg2 : Main.Region2Run (F := F)
  src : ∀ m : (ℓ : Loc nD τ sig) → Buf (Elt F) ℓ,
    (∀ d : Dev nD, Cert.Pre_input_domain.fn (F := F) (m (aLoc d main_arg0)) (m (aLoc d main_arg1)) (m (aLoc d main_arg2))
      (m (aLoc d main_arg3)) (m (aLoc d main_arg4)) (m (aLoc d main_arg5)) (m (aLoc d main_arg6)) = fun _ => 1#1) → Main.SrcOK m

theorem frame (hP : Pieces Bits) :
    Cert.frame_Kernel (hKernel := Cert.Kernel.Gen.facts) (hPre_input_domain := Cert.Pre_input_domain.Gen.facts) :=
  fun m ρ hpre => (θ_run Cert.Kernel.defs _ _).mono
    (fun _ h c => by
      obtain ⟨e0, e1, e2, e3, e4, e5, e6, -⟩ := h c
      exact ⟨e0, e1, e2, e3, e4, e5, e6⟩)
    (Main.run_main (F := Bits) m ρ (hP.src m hpre) hP.tile hP.reg0 hP.reg2)

end Cert.Kernel.Claims

end
-- ==== Proof.RegData.lean ====
/-
  The proof data of the two TensorCore pipelines, relational: each input window's staging buffer is left as the body
  found it; the pairing's result buffer is constrained row by row (its other half-rows hold what the machine picked),
  the finishing pass's is named. Both in one family, a literal match on the pipeline, over the contents each region is
  entered with.
-/
import proofs.«205025_g42520176230720_cont_8to1_b_1509_29_alg».proof.Proof.RegDefs

noncomputable section

namespace Cert.KernelIdeal.Reg

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe
open Idealize.ShloMosaic.Pipeline (RDat)

/-! ## The two pipelines' proof data, relational: each input's buffer is left as found, each output's constrained -/

/-- The pairs the TensorCore's waits may have recorded before SparseCore call `n`: those at level `8 n` or below. -/
def recd (c : Dev nD) (n : ℕ) : Set (SemLoc sig × HIx 1) := {p | (K (F := F)).lev (T c, p.1) p.2 ≤ 8 * n}

/-- What the pairing body may leave in the result's staging buffer at point `u`: row `r` of the block holds row
    `4096 u + r` of the table in its first 64 columns and, where that row exists, row `512000 + 4096 u + r` in its last 64. -/
def PairBlk (t : Vec F S64x1000000 .f32) (u : Fin cfg0.N) (X : Vec F S4096x128 .f32) : Prop :=
  ∀ (y : S4096x128.Idx) (j : S64x1000000.Idx),
    ((y 1).val < 64 → (j 0).val = (y 1).val → (j 1).val = 4096 * u.val + (y 0).val → X y = t j)
    ∧ (4096 * u.val + (y 0).val < 488000 → 64 ≤ (y 1).val → (j 0).val + 64 = (y 1).val
        → (j 1).val = 512000 + 4096 * u.val + (y 0).val → X y = t j)

/-- Region 0's data: both input windows read the transposed table `t` (a half share each); the result starts at `f2`. -/
def rdat0 (n : ℕ) (t : Vec F S64x1000000 .f32) (f2 : Vec F S512000x128 .f32) (c : Dev nD) :
    RDat τ (Elt F) (HIx 1) ℕ UU ℕ cfg0 c where
  A := fun | ⟨0, _⟩ => t | ⟨1, _⟩ => t | ⟨2, _⟩ => f2
  after := fun w u => match w with
    | ⟨0, _⟩ => fun Y X => X = Y
    | ⟨1, _⟩ => fun Y X => X = Y
    | ⟨2, _⟩ => fun _ X => PairBlk t u X
  Φ _ := Pipeline.scopedRest spec0 c
  q := fun | ⟨0, _⟩ => fullShare.left | ⟨1, _⟩ => fullShare.right | ⟨2, _⟩ => fullShare
  owed _ := (K (F := F)).Otc c n
  recorded _ := recd (F := F) c n

/-- What the finishing body leaves in the result's staging buffer at point `u`: its stored term of the blocks of batch
    rows `8 u ‥ 8 u + 7`. -/
def finOut (x : Vec F S1024x512x128 .f32) (a0 a1 : Vec F S1024x512 .i32) (a3 : Vec F S512x64 .f32) (a4 : Vec F S3x64 .f32)
    (a5 a6 : Vec F S64 .f32) (u : Fin cfg2.N) : Vec F S8x512x64 .f32 :=
  have hu : u.val < 128 := u.isLt
  have hb (j : Fin 8) : 8 * u.val + j.val < 1024 := by omega
  FinBlk (fun j => x (ix3 ⟨8 * u.val + (j 0).val, hb (j 0)⟩ (j 1) (j 2)))
    (fun j => a0 (ix2 ⟨8 * u.val + (j 0).val, hb (j 0)⟩ (j 1)))
    (fun j => a1 (ix2 ⟨8 * u.val + (j 0).val, hb (j 0)⟩ (j 1)))
    a3 a4 a5 a6

/-- Region 2's data. -/
def rdat2 (n : ℕ) (x : Vec F S1024x512x128 .f32) (a0 a1 : Vec F S1024x512 .i32) (a3 : Vec F S512x64 .f32) (a4 : Vec F S3x64 .f32)
    (a5 a6 : Vec F S64 .f32) (f5 : Vec F S1024x512x64 .f32) (c : Dev nD) :
    RDat τ (Elt F) (HIx 1) ℕ UU ℕ cfg2 c where
  A := fun | ⟨0, _⟩ => x | ⟨1, _⟩ => a0 | ⟨2, _⟩ => a1 | ⟨3, _⟩ => a3 | ⟨4, _⟩ => a4 | ⟨5, _⟩ => a5 | ⟨6, _⟩ => a6 | ⟨7, _⟩ => f5
  after := fun w u => match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = finOut x a0 a1 a3 a4 a5 a6 u
  Φ _ := Pipeline.scopedRest spec2 c
  q _ := fullShare
  owed _ := (K (F := F)).Otc c n
  recorded _ := recd (F := F) c n

/-- Everything the two regions are entered with, as one record. -/
structure Ent (F : FTy → Type) where
  n0 : ℕ
  t : Vec F S64x1000000 .f32
  f2 : Vec F S512000x128 .f32
  n2 : ℕ
  x : Vec F S1024x512x128 .f32
  a0 : Vec F S1024x512 .i32
  a1 : Vec F S1024x512 .i32
  a3 : Vec F S512x64 .f32
  a4 : Vec F S3x64 .f32
  a5 : Vec F S64 .f32
  a6 : Vec F S64 .f32
  f5 : Vec F S1024x512x64 .f32

/-- The family: a literal match on the pipeline. -/
def rdats (e : Ent F) : (p : Fin 2) → (c : Dev nD) → RDat τ (Elt F) (HIx 1) ℕ UU ℕ (Pipeline.pin (pcfgs (F := F)) adm p) c
  | ⟨0, _⟩ => fun c => rdat0 e.n0 e.t e.f2 c
  | ⟨1, _⟩ => fun c => rdat2 e.n2 e.x e.a0 e.a1 e.a3 e.a4 e.a5 e.a6 e.f5 c

end Cert.KernelIdeal.Reg

end
-- ==== Proof.RegLib.lean ====
/-
  Two small lemmas both regions use: a load or store through the whole-shape rectangle at zero offsets of ANY memref
  reads or leaves the whole contents; and a property of every element a flushing point may write back — whatever the
  body may have left in the staging buffer — is a property of every covered element of whatever the array holds after
  the write-backs (relational proof data).
-/
import proofs.«205025_g42520176230720_cont_8to1_b_1509_29_alg».proof.Proof.RegDefs

noncomputable section

namespace Cert.KernelIdeal.Reg

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe

/-! ## A whole-shape rectangle at zero offsets -/

/-- An index of the whole-shape rectangle at zero offsets sits at itself. -/
theorem unit_zero_emb {s : Shape} (off : Fin s.rank → Nat) (h0 : off = fun _ => 0) (inb : ∀ a, off a + s.size a ≤ s.size a)
    (x : s.Idx) : (Rect.unit (s := s) off s.size inb).emb x = x := by
  subst h0
  funext a; apply Fin.ext
  rw [Rect.emb_apply]
  show 0 + 1 * (x a).val = (x a).val
  omega

/-- A load of all of a memref reads what the memref holds. -/
theorem read_access_unit_zero {κ : Kind} {sp : Space} {s : Shape} {e : EltTy} (M : Memref sig κ sp s e) (c : Thread nD τ)
    (off : Fin s.rank → Nat) (h0 : off = fun _ => 0) (inb : ∀ a, off a + s.size a ≤ s.size a)
    (g : (M.access (Rect.unit (s := s) off s.size inb)).ty.Contents (Elt F)) :
    (M.access (Rect.unit (s := s) off s.size inb)).read (Elt F) g = M.view.read (Elt F) g := by
  funext x
  show _root_.cast _ (g (M.view.emb ((Rect.unit (s := s) off s.size inb).emb x))) = _root_.cast _ (g (M.view.emb x))
  rw [unit_zero_emb off h0 inb x]

/-- After an unmasked store through all of it, it holds the payload. -/
theorem read_write_access_unit_zero {κ : Kind} {sp : Space} {s : Shape} {e : EltTy} (M : Memref sig κ sp s e)
    (off : Fin s.rank → Nat) (h0 : off = fun _ => 0) (inb : ∀ a, off a + s.size a ≤ s.size a)
    (f : (M.access (Rect.unit (s := s) off s.size inb)).ty.Contents (Elt F)) (v : s.Idx → Elt F e) :
    M.view.read (Elt F) ((M.access (Rect.unit (s := s) off s.size inb)).write (Elt F) f v Finset.univ) = v := by
  funext y
  conv_lhs => rw [← unit_zero_emb off h0 inb y]
  rw [View.read_slice_write_emb _ _ _ (Finset.mem_univ _)]

/-! ## What an output array may hold after the write-backs, element by element -/

section ArrAt

open Idealize.ShloMosaic.Pipeline (RDat Cfg Window)

variable {nD' : Nat} {τ' : Topo} {sig' : RefSig} {Val : EltTy → Type}
variable {Ix : Type} [DecidableEq Ix] {Name : Type} [DecidableEq Name] {U' : Type} [URA U'] {Lvl : Type}
variable {Λ' : Idealize.SL.Sem.Labels} {cfg : Cfg sig' Λ'} {c : Dev nD'} (rd : RDat τ' Val Ix Name U' Lvl cfg c)

/-- A property every element has that a flushing point may write back — whatever contents the body may have left in the
    staging buffer then — every element under some flushing point's block below `n` has after the write-backs below
    `n`, whatever the array then holds: an element several points cover holds the last one's value. -/
theorem arrAt_forall_of_leaves (w : Fin cfg.W)
    (P : ((cfg.win w).arr.view.loc (c.tc : Thread nD' τ')).2.ty.Idx → Val ((cfg.win w).arr.view.loc (c.tc : Thread nD' τ')).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (F : Buf Val ((cfg.win w).arr.view.loc (c.tc : Thread nD' τ'))), rd.ArrAt w n F →
      ∀ (t : Fin cfg.N) (i : ((cfg.win w).arr.view.loc (c.tc : Thread nD' τ')).2.ty.Idx),
        t.val < n → (cfg.win w).flush t = true → i ∈ ((cfg.win w).blk t).view.set → P i (F i)
  | 0, _, _, _, _, ht, _, _ => absurd ht (Nat.not_lt_zero _)
  | n + 1, F, hF, t, i, ht, hf, hi => by
    by_cases hn : n < cfg.N
    swap
    · have hF' : rd.ArrAt w n F := by
        have : rd.ArrAt w (n + 1) = rd.ArrAt w n := by
          show (if h : n < cfg.N then _ else rd.ArrAt w n) = _
          rw [dif_neg hn]
        rwa [this] at hF
      exact arrAt_forall_of_leaves w P hP n F hF' t i (by have := t.isLt; omega) hf hi
    rw [show n + 1 = (⟨n, hn⟩ : Fin cfg.N).val + 1 from rfl, rd.ArrAt_succ w ⟨n, hn⟩] at hF
    by_cases hfn : (cfg.win w).flush ⟨n, hn⟩ = true
    · rw [if_pos hfn] at hF
      obtain ⟨G₀, X, hG₀, hX, rfl⟩ := hF
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact arrAt_forall_of_leaves w P hP n G₀ hG₀ t i (by omega) hf hi
    · rw [if_neg hfn] at hF
      have htn : t.val ≠ n := fun e => hfn (by have : t = ⟨n, hn⟩ := Fin.ext e; exact this ▸ hf)
      exact arrAt_forall_of_leaves w P hP n F hF t i (by omega) hf hi

end ArrAt

end Cert.KernelIdeal.Reg

end
-- ==== Proof.RegPairBody.lean ====
/-
  The pairing body's triple on any three staging memrefs: three whole loads, one whole store of the two transposes side by side.
-/
import proofs.«205025_g42520176230720_cont_8to1_b_1509_29_alg».proof.Proof.RegLib

noncomputable section

namespace Cert.KernelIdeal.Reg

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe

/-! ## The pairing body, on any three staging memrefs -/

set_option maxRecDepth 65536 in
/-- The pairing body loads its two inputs whole and stores, whole, their transposes side by side; the inputs'
    buffers are left as they were. -/
theorem sound_pair (c : Dev nD) (E : Set ℕ) (i : grid0.Coords)
    (M1 : Memref sig .tc .vmem S64x4096 .f32) (h1 : M1.IsWhole) (M2 : Memref sig .tc .vmem S64x4096 .f32) (h2 : M2.IsWhole)
    (M3 : Memref sig .tc .vmem S4096x128 .f32) (h3 : M3.IsWhole)
    (X1 X2 : Vec F S64x4096 .f32) (X3 : Vec F S4096x128 .f32) (K : PUnit → sProp 𝕄) :
    iprop((owns (c : Thread nD τ) M1 fullShare X1 ∗ owns (c : Thread nD τ) M2 fullShare X2 ∗ owns (c : Thread nD τ) M3 fullShare X3)
          ∗ (iprop(owns (c : Thread nD τ) M1 fullShare X1 ∗ owns (c : Thread nD τ) M2 fullShare X2
                  ∗ owns (c : Thread nD τ) M3 fullShare (k0_pay1 X1 X2)) -∗ K ⟨⟩))
      ⊢ wp frame (wpE (defs₀ (F := F)) 𝒱₀ c none) E (cc0__pair_body i M1 h1 M2 h2 M3 h3) K := by
  have hz2 : (![0, 0] : Fin 2 → Nat) = fun _ => 0 := funext fun a => by fin_cases a <;> rfl
  rw [cc0__pair_body_eq_skeleton]; unfold cc0__pair_body_skel
  simp only [Prog.lift, Prog.bind_op, Prog.bind_ret]
  unfold owns
  iintro ⟨⟨⟨%f1, %e1, H1⟩, ⟨%f2, %e2, H2⟩, ⟨%f3, %e3, H3⟩⟩, Hk⟩
  iapply (wp_load_rect 𝒱₀ (c : Thread nD τ) none E (m := M1) (r := Rect.unit (s := S64x4096) ![0, 0] S64x4096.size inb_S64x4096_S64x4096_0_0) (View.set_slice_subset _ _)) $$ H1
  iintro H1
  iapply (wp_load_rect 𝒱₀ (c : Thread nD τ) none E (m := M2) (r := Rect.unit (s := S64x4096) ![0, 0] S64x4096.size inb_S64x4096_S64x4096_0_0) (View.set_slice_subset _ _)) $$ H2
  iintro H2
  iapply (wp_load_rect 𝒱₀ (c : Thread nD τ) none E (m := M3) (r := Rect.unit (s := S4096x128) ![0, 0] S4096x128.size inb_S4096x128_S4096x128_0_0) (View.set_slice_subset _ _)) $$ H3
  iintro H3
  iapply (wp_store 𝒱₀ (c : Thread nD τ) none E (m := M3) (r := Rect.unit (s := S4096x128) ![0, 0] S4096x128.size inb_S4096x128_S4096x128_0_0) (Mk := Finset.univ) (View.set_slice_subset _ _)) $$ H3
  iintro H3
  iapply (le_wp_ret (Fr := Idealize.ShloMosaic.frame) (wpE := wpE (defs₀ (F := F)) 𝒱₀ c none) (E := E) PUnit.unit K)
  iapply Hk
  isplitl [H1]
  · iexists f1; isplitr; · ipureintro; exact e1
    iexact H1
  isplitl [H2]
  · iexists f2; isplitr; · ipureintro; exact e2
    iexact H2
  · iexists _; isplitr
    swap; · iexact H3
    ipureintro
    rw [read_write_access_unit_zero M3 _ hz2, read_access_unit_zero M1 (c : Thread nD τ) _ hz2, read_access_unit_zero M2 (c : Thread nD τ) _ hz2, e1, e2]

end Cert.KernelIdeal.Reg

end
-- ==== Proof.RegPair.lean ====
/-
  Region 0, the pairing of the transposed table's halves, run: the first window's blocks lie inside the array; the
  second's last block overhangs it, and past the array's end its staging buffer holds what the machine picked, which
  the body stores into half-rows nothing is claimed of. What the body stores at each point is a pairing block; after
  the 125 write-backs the paired table pairs the transposed table; the transposed table is left as it was.
-/
import proofs.«205025_g42520176230720_cont_8to1_b_1509_29_alg».proof.Proof.RegData
import proofs.«205025_g42520176230720_cont_8to1_b_1509_29_alg».proof.Proof.RegPairBody
import Idealize.ShloMosaic.Lib.Pipeline.FrameBody
import Idealize.ShloMosaic.Lib.Pipeline.Value

noncomputable section

namespace Cert.KernelIdeal.Reg

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe
open Idealize.ShloMosaic.Pipeline (RDat)

variable (n : ℕ) (t : Vec F S64x1000000 .f32) (f2 : Vec F S512000x128 .f32) (c : Dev nD)

local notation "rd0" => rdat0 (F := F) n t f2 c

/-! ## The windows' blocks, point by point -/

theorem idx0_0 : ∀ u : Fin grid0.N, win0_0.index u 0 = 0 ∧ win0_0.index u 1 = u.val := by decide +kernel
theorem idx0_1 : ∀ u : Fin grid0.N, u.val ≤ 119 → win0_1.index u 0 = 0 ∧ win0_1.index u 1 = u.val + 125 := by decide +kernel
theorem idx0_2 : ∀ u : Fin grid0.N, win0_2.index u 0 = u.val ∧ win0_2.index u 1 = 0 := by decide +kernel
theorem xs0_0 : ∀ u : Fin grid0.N, win0_0.xsize (grid0.coords u) 0 = 64 ∧ win0_0.xsize (grid0.coords u) 1 = 4096 := by decide +kernel
theorem xs0_1 : ∀ u : Fin grid0.N, win0_1.xsize (grid0.coords u) 0 = 64
    ∧ (u.val ≤ 118 → win0_1.xsize (grid0.coords u) 1 = 4096) ∧ (u.val = 119 → win0_1.xsize (grid0.coords u) 1 = 576) := by decide +kernel
theorem fetch0_1 : ∀ u : Fin grid0.N, u.val ≤ 119 → win0_1.fetch u = true := by decide +kernel

example (u : Fin cfg0.N) (y : (win0_0.xblock (grid0.coords u)).Idx) : (rd0).blockOf (0 : Fin 3) u y = t ((win0_0.rect u).emb y) := rfl
example (u : Fin cfg0.N) (y : (win0_1.xblock (grid0.coords u)).Idx) : (rd0).blockOf (1 : Fin 3) u y = t ((win0_1.rect u).emb y) := rfl

/-- A fetched buffer at an element the fetch moves holds the array's element. -/
theorem fetched0_0 (u : Fin cfg0.N) (d : Vec F S64x4096 .f32) (j : S64x4096.Idx) (i : S64x1000000.Idx)
    (h0 : (i 0).val = (j 0).val) (h1 : (i 1).val = 4096 * u.val + (j 1).val) : (rd0).fetched (0 : Fin 3) u d j = t i := by
  obtain ⟨x0, x1⟩ := xs0_0 u
  obtain ⟨i0, i1⟩ := idx0_0 u
  have hj : ∀ a, (j a).val < win0_0.xsize (grid0.coords u) a := fun a => by
    match a with
    | ⟨0, _⟩ => show (j 0).val < win0_0.xsize (grid0.coords u) 0; rw [x0]; exact (j 0).isLt
    | ⟨1, _⟩ => show (j 1).val < win0_0.xsize (grid0.coords u) 1; rw [x1]; exact (j 1).isLt
  show win0_0.fill (grid0.coords u) d ((rd0).blockOf (0 : Fin 3) u) j = t i
  unfold Pipeline.Window.fill
  rw [dif_pos ((win0_0.moved_iff _ j).mpr hj)]
  show t ((win0_0.rect u).emb _) = t i
  refine congrArg t ?_
  funext a
  apply Fin.ext
  match a with
  | ⟨0, _⟩ => show win0_0.index u 0 * 64 + 1 * (j 0).val = (i 0).val; rw [i0, h0]; omega
  | ⟨1, _⟩ => show win0_0.index u 1 * 4096 + 1 * (j 1).val = (i 1).val; rw [i1, h1]; omega

/-- The second window's buffer, fetched at a point whose block is inside the array or is its cut last block, holds the
    array's element at every element the fetch moves. -/
theorem fetched0_1 (u : Fin cfg0.N) (hu : u.val ≤ 119) (d : Vec F S64x4096 .f32) (j : S64x4096.Idx) (i : S64x1000000.Idx)
    (hmv : 4096 * u.val + (j 1).val < 488000)
    (h0 : (i 0).val = (j 0).val) (h1 : (i 1).val = 512000 + 4096 * u.val + (j 1).val) : (rd0).fetched (1 : Fin 3) u d j = t i := by
  obtain ⟨x0, x1, x1'⟩ := xs0_1 u
  obtain ⟨i0, i1⟩ := idx0_1 u hu
  have hj1 : (j 1).val < 4096 := (j 1).isLt
  have hj : ∀ a, (j a).val < win0_1.xsize (grid0.coords u) a := fun a => by
    match a with
    | ⟨0, _⟩ => show (j 0).val < win0_1.xsize (grid0.coords u) 0; rw [x0]; exact (j 0).isLt
    | ⟨1, _⟩ =>
      show (j 1).val < win0_1.xsize (grid0.coords u) 1
      rcases Nat.lt_or_ge u.val 119 with h | h
      · rw [x1 (by omega)]; exact hj1
      · rw [x1' (by omega)]; omega
  show win0_1.fill (grid0.coords u) d ((rd0).blockOf (1 : Fin 3) u) j = t i
  unfold Pipeline.Window.fill
  rw [dif_pos ((win0_1.moved_iff _ j).mpr hj)]
  show t ((win0_1.rect u).emb _) = t i
  refine congrArg t ?_
  funext a
  apply Fin.ext
  match a with
  | ⟨0, _⟩ => show win0_1.index u 0 * 64 + 1 * (j 0).val = (i 0).val; rw [i0, h0]; omega
  | ⟨1, _⟩ => show win0_1.index u 1 * 4096 + 1 * (j 1).val = (i 1).val; rw [i1, h1]; omega

/-! ## What the body stores, element by element -/

/-- The stored block at a first-half column is the first input's transpose. -/
theorem pay_left (Y0 Y1 : Vec F S64x4096 .f32) (y : S4096x128.Idx) (hy : (y 1).val < 64) :
    k0_pay1 Y0 Y1 y = Y0 (ix2 (n0 := 64) (n1 := 4096) ⟨(y 1).val, hy⟩ ⟨(y 0).val, (y 0).isLt⟩) := by
  unfold k0_pay1
  refine (concatenate_pair_apply_left (t := S4096x128) (s₁ := S4096x64) (s₂ := S4096x64) (1 : Fin 2) _ _ concatenates_S4096x64_S4096x64_S4096x128_d1 y rfl
    (ix2 (n0 := 4096) (n1 := 64) ⟨(y 0).val, (y 0).isLt⟩ ⟨(y 1).val, hy⟩)
    (fun b => by match b with | ⟨0, _⟩ => rfl | ⟨1, _⟩ => rfl)).trans ?_
  refine (transpose_apply (s := S64x4096) (t := S4096x64) [1, 0] _ transposes_S64x4096_p1_0_S4096x64
    (ix2 (n0 := 4096) (n1 := 64) ⟨(y 0).val, (y 0).isLt⟩ ⟨(y 1).val, hy⟩)
    (ix2 (n0 := 64) (n1 := 4096) ⟨(y 1).val, hy⟩ ⟨(y 0).val, (y 0).isLt⟩)
    (fun b => by match b with | ⟨0, _⟩ => rfl | ⟨1, _⟩ => rfl)).trans ?_
  rw [shapeCast_self]

/-- At a second-half column, the second input's. -/
theorem pay_right (Y0 Y1 : Vec F S64x4096 .f32) (y : S4096x128.Idx) (hy : 64 ≤ (y 1).val) (hlt : (y 1).val - 64 < 64) :
    k0_pay1 Y0 Y1 y = Y1 (ix2 (n0 := 64) (n1 := 4096) ⟨(y 1).val - 64, hlt⟩ ⟨(y 0).val, (y 0).isLt⟩) := by
  unfold k0_pay1
  refine (concatenate_pair_apply_right (t := S4096x128) (s₁ := S4096x64) (s₂ := S4096x64) (1 : Fin 2) _ _ concatenates_S4096x64_S4096x64_S4096x128_d1 y rfl rfl
    (ix2 (n0 := 4096) (n1 := 64) ⟨(y 0).val, (y 0).isLt⟩ ⟨(y 1).val - 64, hlt⟩)
    (fun b hb => by match b with | ⟨0, _⟩ => rfl | ⟨1, _⟩ => exact absurd rfl hb)
    (by show (y 1).val - 64 + 64 = (y 1).val; omega)).trans ?_
  refine (transpose_apply (s := S64x4096) (t := S4096x64) [1, 0] _ transposes_S64x4096_p1_0_S4096x64
    (ix2 (n0 := 4096) (n1 := 64) ⟨(y 0).val, (y 0).isLt⟩ ⟨(y 1).val - 64, hlt⟩)
    (ix2 (n0 := 64) (n1 := 4096) ⟨(y 1).val - 64, hlt⟩ ⟨(y 0).val, (y 0).isLt⟩)
    (fun b => by match b with | ⟨0, _⟩ => rfl | ⟨1, _⟩ => rfl)).trans ?_
  rw [shapeCast_self]

/-- What the body stores is a pairing block, whatever the machine put past the array's end. -/
theorem pairBlk_of (u : Fin cfg0.N) (Y0 Y1 d0 : Vec F S64x4096 .f32) (h0 : Y0 = (rd0).fetched (0 : Fin 3) u d0)
    (h1 : u.val ≤ 119 → ∃ d1, Y1 = (rd0).fetched (1 : Fin 3) u d1) : PairBlk t u (k0_pay1 Y0 Y1) := by
  intro y j
  have hy0 : (y 0).val < 4096 := (y 0).isLt
  have hy1 : (y 1).val < 128 := (y 1).isLt
  constructor
  · intro hy hj0 hj1
    refine (pay_left Y0 Y1 y hy).trans ?_
    rw [h0]
    exact fetched0_0 n t f2 c u d0 _ j hj0 hj1
  · intro hlt hy hj0 hj1
    have hu : u.val ≤ 119 := by omega
    obtain ⟨d1, e1⟩ := h1 hu
    refine (pay_right Y0 Y1 y hy (by omega)).trans ?_
    rw [e1]
    exact fetched0_1 n t f2 c u hu d1 _ j hlt (by show (j 0).val = (y 1).val - 64; omega) hj1

theorem hbody0 [∀ e, Nonempty (Elt F e)] : (rd0).BodyObligation defs₀ 𝒱₀ (none : HIx 1) Set.univ := by
  intro u Y hY
  obtain ⟨d0, e0⟩ := ((rd0).finds_of_fetch (fetch0_0 u) (Y 0)).mp (hY 0)
  have e1 : u.val ≤ 119 → ∃ d1, Y 1 = (rd0).fetched (1 : Fin 3) u d1 := fun hu =>
    ((rd0).finds_of_fetch (w := (1 : Fin 3)) (fetch0_1 u hu) (Y 1)).mp (hY 1)
  rw [bigSep_W0, bigSep_W0, show (rd0).Φ u.succ = (rd0).Φ u.castSucc from rfl,
    show (rd0).owesAt (none : HIx 1) u.succ = (rd0).owesAt (none : HIx 1) u.castSucc from rfl]
  iintro ⟨HΦ, HO, H0, H1, H2⟩
  iapply (sound_pair (F := F) c Set.univ (grid0.coords u) (st0_0 u) (hstage0_0 ((cfg0.slots u 0).cast nbuf0_0))
    (st0_1 u) (hstage0_1 ((cfg0.slots u 1).cast nbuf0_1)) (st0_2 u) (hstage0_2 ((cfg0.slots u 2).cast nbuf0_2)) (Y 0) (Y 1) (Y 2) _)
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]
  · iexists (Y 0); isplitr; · ipureintro; exact rfl
    iexact H0
  isplitl [H1]
  · iexists (Y 1); isplitr; · ipureintro; exact rfl
    iexact H1
  · iexists k0_pay1 (Y 0) (Y 1); isplitr
    · ipureintro
      exact pairBlk_of n t f2 c u (Y 0) (Y 1) d0 e0 e1
    iexact H2

/-! ## The region's protocol: debts, arrays, the final contents -/

omit [FloatOps F] in
/-- The TensorCore owes nothing at a kernel's own index. -/
theorem Otc_none0 (d : Dev nD) (m : ℕ) (g : GSem nD τ sig) : (K (F := F)).Otc d m g none = 0 := by
  by_contra h
  have := SparseCore.Cfg.lev_of_Otc_pos (K := K (F := F)) (Nat.pos_of_ne_zero h)
  rw [SparseCore.Cfg.lev_none] at this; omega

theorem owesAt_intro0 (u : Fin (cfg0.N + 1)) : tcOwes (F := F) c n ⊢ (rd0).owesAt (none : HIx 1) u := by
  unfold tcOwes
  iintro ⟨%W, %hW, HO⟩
  iexists W; isplitr
  · ipureintro; exact fun p hp => Or.inl (hW p (Finset.mem_coe.mp hp))
  iexact HO

theorem owesAt_elim0 (u : Fin (cfg0.N + 1)) : (rd0).owesAt (none : HIx 1) u ⊢ tcOwes (F := F) c n := by
  unfold tcOwes
  iintro ⟨%W, %hW, HO⟩
  iexists W; isplitr
  · ipureintro
    intro p hp
    rcases hW (Finset.mem_coe.mpr hp) with h | ⟨w, s, rfl⟩
    · exact h
    · show (K (F := F)).lev _ none ≤ 8 * n
      rw [SparseCore.Cfg.lev_none]; omega
  iexact HO

/-- Whatever the paired table holds after every write-back pairs the transposed table. -/
theorem arr0_final [∀ e, Nonempty (Elt F e)] (F2 : Vec F S512000x128 .f32) (h : (rd0).ArrAt (2 : Fin 3) cfg0.N F2) :
    PairOK t F2 := by
  intro i j
  have hi0 : (i 0).val < 512000 := (i 0).isLt
  let u : Fin cfg0.N := ⟨(i 0).val / 4096, by show (i 0).val / 4096 < 125; omega⟩
  let y : S4096x128.Idx := ix2 ⟨(i 0).val % 4096, Nat.mod_lt _ (by decide)⟩ (i 1)
  have hi : i = (win0_2.rect u).emb y := by
    funext a
    apply Fin.ext
    obtain ⟨i0, i1⟩ := idx0_2 u
    match a with
    | ⟨0, _⟩ => show (i 0).val = win0_2.index u 0 * 4096 + 1 * ((i 0).val % 4096); rw [i0]; show (i 0).val = (i 0).val / 4096 * 4096 + 1 * ((i 0).val % 4096); omega
    | ⟨1, _⟩ => show (i 1).val = win0_2.index u 1 * 128 + 1 * (i 1).val; rw [i1]; omega
  have key := arrAt_forall_of_leaves (rd0) (2 : Fin 3)
    (fun i v => ∀ j : S64x1000000.Idx,
      ((i 1).val < 64 → (j 0).val = (i 1).val → (j 1).val = (i 0).val → v = t j)
      ∧ ((i 0).val < 488000 → 64 ≤ (i 1).val → (j 0).val + 64 = (i 1).val → (j 1).val = 512000 + (i 0).val → v = t j))
    (fun u' _ X hX y' => by
      obtain ⟨Y, -, hXY⟩ := hX
      have hP : PairBlk t u' X := hXY
      obtain ⟨i0, i1⟩ := idx0_2 u'
      have e0 : (((win0_2.rect u').emb y') 0).val = 4096 * u'.val + (y' 0).val := by
        show win0_2.index u' 0 * 4096 + 1 * (y' 0).val = _; rw [i0]; omega
      have e1 : (((win0_2.rect u').emb y') 1).val = (y' 1).val := by
        show win0_2.index u' 1 * 128 + 1 * (y' 1).val = _; rw [i1]; omega
      intro j'
      show ((((win0_2.rect u').emb y') 1).val < 64 → (j' 0).val = (((win0_2.rect u').emb y') 1).val → (j' 1).val = (((win0_2.rect u').emb y') 0).val → X y' = t j')
        ∧ ((((win0_2.rect u').emb y') 0).val < 488000 → 64 ≤ (((win0_2.rect u').emb y') 1).val → (j' 0).val + 64 = (((win0_2.rect u').emb y') 1).val
            → (j' 1).val = 512000 + (((win0_2.rect u').emb y') 0).val → X y' = t j')
      rw [e0, e1]
      refine ⟨fun a b c => (hP y' j').1 a b c, fun a b c d => (hP y' j').2 a b c (by omega)⟩)
    cfg0.N F2 h u i u.isLt (flush0_2 u) (hi ▸ (win0_2.blk u).view.emb_mem_set y)
  exact key j

/-! ## The region -/

theorem arrays0_eq (Fa : (w : Fin cfg0.W) → Buf (Elt F) ((cfg0.win w).arr.view.loc (c.tc : Thread nD τ))) :
    ((rd0).arrays Fa : sProp 𝕄) = iprop((aLoc c main_v1 ↦{fullShare.left} Fa 0) ∗ (aLoc c main_v1 ↦{fullShare.right} Fa 1)
      ∗ (aLoc c main_v2 ↦{fullShare} Fa 2)) := by
  unfold RDat.arrays
  rw [bigSep_W0, (arr_whole0 0).set_eq_univ, (arr_whole0 2).set_eq_univ]
  rfl

/-- Region 0 as the library's region record, over the family at any entry record whose first half is this region's. -/
abbrev R0 [∀ e, Nonempty (Elt F e)] (lv : GSem nD τ sig → HIx 1 → ℕ) (hlv : (K (F := F)).Refines lv) (e : Ent F) :
    Pipeline.RDat.RegionSeg (pcfgs (F := F)) adm (rdats e) (none : HIx 1) defs₀ 𝒱₀ (K (F := F)).L lv (0 : Fin 2) where
  win := winFacts₀0
  block_pos := block_pos0
  stage_whole := stage_whole0
  K := PEmpty
  osem k := k.elim
  ho := Pipeline.OwnSemFacts.none _
  hbody c := hbody0 e.n0 e.t e.f2 c
  hwaits c := Pipeline.RDat.cellsWaits_intro (Pipeline.pin (pcfgs (F := F)) adm) (rdats e) (none : HIx 1) (0 : Fin 2) c
    (fun w s u => SparseCore.Cfg.mayWait_none (K := K (F := F)) _ (Otc_none0 c e.n0) lv hlv)
  pre c := pairPre c e.n0 e.t e.f2
  post c := pairPost c e.n0 e.t
  X _ := iprop(emp)
  Y _ := iprop(emp)
  Z _ := iprop(emp)
  hentry c := by
    show iprop(pairPre c e.n0 e.t e.f2 ∗ Pipeline.ownSems0 (fun k : PEmpty => k.elim) c ∗ levAts (K (F := F)).L lv)
      ⊢ |={Set.univ}=> iprop((rdat0 e.n0 e.t e.f2 c).arrays (rdat0 e.n0 e.t e.f2 c).A
        ∗ Pipeline.prefHeld (pcfgs (F := F) 0).pre c (fun _ => fullShare) (adm (F := F) 0).1
        ∗ (rdat0 e.n0 e.t e.f2 c).owesAt (none : HIx 1) 0 ∗ emp ∗ emp)
    rw [arrays0_eq]
    unfold pairPre
    iintro ⟨⟨H1, H2, HO⟩, -, -⟩
    ihave H1' := (pointsTo_share (PosShare.mem_left_op_right fullShare)).1 $$ H1
    icases H1' with ⟨H1a, H1b⟩
    imodintro
    isplitl [H1a H1b H2]
    · isplitl [H1a]; · iexact H1a
      isplitl [H1b]; · iexact H1b
      iexact H2
    isplitr
    · rw [show (Pipeline.prefHeld (pcfgs (F := F) 0).pre c (fun _ => fullShare) (adm (F := F) 0).1 : sProp 𝕄) = BI.emp from
        bigSep_univ_eq_bigSepL ([] : List (Fin 0)) (by decide) (by decide) _]
      iempintro
    isplitl [HO]
    · iapply (owesAt_intro0 e.n0 e.t e.f2 c 0); iexact HO
    isplitr <;> iempintro
  hin c := by
    show iprop(emp ∗ Pipeline.prefHeld (pcfgs (F := F) 0).pre c (fun _ => fullShare) (adm (F := F) 0).1 ∗ Pipeline.scopedRest spec0 c)
      ⊢ (Pipeline.scopedRest spec0 c : sProp 𝕄)
    iintro ⟨-, -, H⟩; iexact H
  hout c := by
    rw [Pipeline.ownSems0_none]
    show (Pipeline.scopedRest spec0 c : sProp 𝕄) ⊢ iprop(emp ∗ emp ∗ Pipeline.scopedRest spec0 c)
    iintro H
    isplitr; · iempintro
    isplitr; · iempintro
    iexact H
  hexit c := by
    show iprop((rdat0 e.n0 e.t e.f2 c).arraysAt cfg0.N
        ∗ (rdat0 e.n0 e.t e.f2 c).owesAt (none : HIx 1) (Fin.last cfg0.N) ∗ emp ∗ emp)
      ⊢ |={Set.univ}=> pairPost c e.n0 e.t
    unfold RDat.arraysAt
    rw [bigSep_W0, (arr_whole0 0).set_eq_univ, (arr_whole0 2).set_eq_univ]
    iintro ⟨⟨⟨%F0, %h0, H0⟩, ⟨%F1, %h1, H1⟩, ⟨%F2, %h2, H2⟩⟩, HO, -, -⟩
    have h0 : F0 = e.t := (congrFun (Pipeline.RDat.ArrAt_in (rdat0 e.n0 e.t e.f2 c) (0 : Fin cfg0.W) rfl cfg0.N) F0).mp h0
    have h1 : F1 = e.t := (congrFun (Pipeline.RDat.ArrAt_in (rdat0 e.n0 e.t e.f2 c) (1 : Fin cfg0.W) rfl cfg0.N) F1).mp h1
    have h2' := arr0_final e.n0 e.t e.f2 c F2 h2
    subst h0 h1
    imodintro
    unfold pairPost
    isplitl [H0 H1]
    · iapply (pointsTo_share (PosShare.mem_left_op_right fullShare)).2
      isplitl [H0]; · iexact H0
      iexact H1
    isplitl [H2]
    · iexists F2; isplitr; · ipureintro; exact h2'
      iexact H2
    iapply (owesAt_elim0 e.n0 e.t e.f2 c (Fin.last cfg0.N)); iexact HO

/-- Region 0 (`_pair_body`, 125 points) on the TensorCore of `d` before SparseCore call `n`. -/
theorem region0 [∀ e, Nonempty (Elt F e)] (d : Dev nD) (n : ℕ) (lv : GSem nD τ sig → HIx 1 → ℕ) (hlv : (K (F := F)).Refines lv)
    (t : Vec F S64x1000000 .f32) (f2 : Vec F S512000x128 .f32) :
    iprop(boundary (T d) ∗ pairPre (F := F) d n t f2 ∗ levAts (K (F := F)).L lv
        ∗ Pipeline.cellsGhost (Pipeline.pin (pcfgs (F := F)) adm) (EP (F := F)) (0 : Fin 2) d
        ∗ Pipeline.toksInit (Pipeline.pin (pcfgs (F := F)) adm) (EP (F := F)) (0 : Fin 2) d)
      ⊢ wp frame (wpE ((K (F := F)).defs D) 𝒱 (T d) none) Set.univ
          (Prog.lift (.customCall (SparseCore.inner (Pipeline.entry (0 : Fin 2))) ()))
          (fun _ => iprop(boundary (T d) ∗ pairPost (F := F) d n t)) := by
  let e : Ent F := ⟨n, t, f2, 0, fun _ => Classical.arbitrary _, fun _ => Classical.arbitrary _, fun _ => Classical.arbitrary _,
    fun _ => Classical.arbitrary _, fun _ => Classical.arbitrary _, fun _ => Classical.arbitrary _, fun _ => Classical.arbitrary _,
    fun _ => Classical.arbitrary _⟩
  have hR := Pipeline.RDat.RegionSeg.wp (pcfgs (F := F)) adm (rdats e) (none : HIx 1) cellOf_inj (EP (F := F)) defs₀ 𝒱₀ (K (F := F)).L lv
    (R0 lv hlv e) d none (fun u hu => (Option.not_mem_none u hu).elim) (fun _ => Prog.ret PUnit.unit) (fun _ => iprop(boundary (T d) ∗ pairPost (F := F) d n t))
  refine BIBase.Entails.trans ?_ ((K (F := F)).wp_liftProg D 𝒱 (T d) Set.univ none (.op (.customCall (Pipeline.entry (0 : Fin 2)) ()) (fun _ => Prog.ret PUnit.unit)) _)
  refine BIBase.Entails.trans ?_ hR
  iintro ⟨Hb, Hpre, Hlev, Hg, Ht⟩
  isplitr [Hb Hpre Hlev Hg Ht]
  · iintro ⟨Hb, Hpost⟩
    iapply (le_wp_ret (Fr := Idealize.ShloMosaic.frame) (wpE := wpE (Pipeline.defs (pcfgs (F := F)) defs₀) 𝒱₀.lift (d.tc : Thread nD τ) none) (E := Set.univ) PUnit.unit _)
    isplitl [Hb]; · iexact Hb
    iexact Hpost
  isplitl [Hb]; · iexact Hb
  isplitl [Hpre]; · iexact Hpre
  isplitl [Hlev]; · iexact Hlev
  isplitl [Hg]; · iexact Hg
  iexact Ht

end Cert.KernelIdeal.Reg

end
-- ==== Proof.RegFinishBody.lean ====
/-
  The finishing body's triple on any eight staging memrefs: seven whole loads, one whole store of the stored term.
-/
import proofs.«205025_g42520176230720_cont_8to1_b_1509_29_alg».proof.Proof.RegLib

noncomputable section

namespace Cert.KernelIdeal.Reg

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe

/-! ## The finishing body, on any eight staging memrefs -/

set_option maxRecDepth 65536 in
/-- The finishing body loads its seven inputs whole and stores, whole, the term `FinBlk` of them; the inputs' buffers
    are left as they were. -/
theorem sound_finish (c : Dev nD) (E : Set ℕ) (i : grid2.Coords)
    (M1 : Memref sig .tc .vmem S8x512x128 .f32) (h1 : M1.IsWhole) (M2 : Memref sig .tc .vmem S8x512 .i32) (h2 : M2.IsWhole)
    (M3 : Memref sig .tc .vmem S8x512 .i32) (h3 : M3.IsWhole) (M4 : Memref sig .tc .vmem S512x64 .f32) (h4 : M4.IsWhole)
    (M5 : Memref sig .tc .vmem S3x64 .f32) (h5 : M5.IsWhole) (M6 : Memref sig .tc .vmem S64 .f32) (h6 : M6.IsWhole)
    (M7 : Memref sig .tc .vmem S64 .f32) (h7 : M7.IsWhole) (M8 : Memref sig .tc .vmem S8x512x64 .f32) (h8 : M8.IsWhole)
    (X1 : Vec F S8x512x128 .f32) (X2 X3 : Vec F S8x512 .i32) (X4 : Vec F S512x64 .f32) (X5 : Vec F S3x64 .f32)
    (X6 X7 : Vec F S64 .f32) (X8 : Vec F S8x512x64 .f32) (K : PUnit → sProp 𝕄) :
    iprop((owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5 ∗ owns (c : Thread nD τ) M6 fullShare X6
            ∗ owns (c : Thread nD τ) M7 fullShare X7 ∗ owns (c : Thread nD τ) M8 fullShare X8)
          ∗ (iprop(owns (c : Thread nD τ) M1 fullShare X1 ∗ owns (c : Thread nD τ) M2 fullShare X2 ∗ owns (c : Thread nD τ) M3 fullShare X3
                  ∗ owns (c : Thread nD τ) M4 fullShare X4 ∗ owns (c : Thread nD τ) M5 fullShare X5 ∗ owns (c : Thread nD τ) M6 fullShare X6
                  ∗ owns (c : Thread nD τ) M7 fullShare X7 ∗ owns (c : Thread nD τ) M8 fullShare (FinBlk X1 X2 X3 X4 X5 X6 X7)) -∗ K ⟨⟩))
      ⊢ wp frame (wpE (defs₀ (F := F)) 𝒱₀ c none) E (cc2__finish_body i M1 h1 M2 h2 M3 h3 M4 h4 M5 h5 M6 h6 M7 h7 M8 h8) K := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  rw [cc2__finish_body_eq_skeleton]; unfold cc2__finish_body_skel
  rw [k2_part1_eq_skeleton]; unfold k2_part1_skel
  simp only [Prog.lift, Prog.bind_op, Prog.bind_ret]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  iapply (wp_load_rect 𝒱₀ (c : Thread nD τ) none E (m := M1) (r := Rect.unit (s := S8x512x128) ![0, 0, 0] S8x512x128.size inb_S8x512x128_S8x512x128_0_0_0) (View.set_slice_subset _ _)) $$ H1
  iintro H1
  iapply (wp_load_rect 𝒱₀ (c : Thread nD τ) none E (m := M2) (r := Rect.unit (s := S8x512) ![0, 0] S8x512.size inb_S8x512_S8x512_0_0) (View.set_slice_subset _ _)) $$ H2
  iintro H2
  iapply (wp_load_rect 𝒱₀ (c : Thread nD τ) none E (m := M5) (r := Rect.unit (s := S3x64) ![0, 0] S3x64.size inb_S3x64_S3x64_0_0) (View.set_slice_subset _ _)) $$ H5
  iintro H5
  iapply (wp_load_rect 𝒱₀ (c : Thread nD τ) none E (m := M3) (r := Rect.unit (s := S8x512) ![0, 0] S8x512.size inb_S8x512_S8x512_0_0) (View.set_slice_subset _ _)) $$ H3
  iintro H3
  iapply (wp_load_rect 𝒱₀ (c : Thread nD τ) none E (m := M3) (r := Rect.unit (s := S8x512) ![0, 0] S8x512.size inb_S8x512_S8x512_0_0) (View.set_slice_subset _ _)) $$ H3
  iintro H3
  iapply (wp_load_rect 𝒱₀ (c : Thread nD τ) none E (m := M4) (r := Rect.unit (s := S512x64) ![0, 0] S512x64.size inb_S512x64_S512x64_0_0) (View.set_slice_subset _ _)) $$ H4
  iintro H4
  iapply (wp_load_rect 𝒱₀ (c : Thread nD τ) none E (m := M6) (r := Rect.unit (s := S64) ![0] S64.size inb_S64_S64_0) (View.set_slice_subset _ _)) $$ H6
  iintro H6
  iapply (wp_load_rect 𝒱₀ (c : Thread nD τ) none E (m := M7) (r := Rect.unit (s := S64) ![0] S64.size inb_S64_S64_0) (View.set_slice_subset _ _)) $$ H7
  iintro H7
  iapply (wp_load_rect 𝒱₀ (c : Thread nD τ) none E (m := M8) (r := Rect.unit (s := S8x512x64) ![0, 0, 0] S8x512x64.size inb_S8x512x64_S8x512x64_0_0_0) (View.set_slice_subset _ _)) $$ H8
  iintro H8
  iapply (wp_store 𝒱₀ (c : Thread nD τ) none E (m := M8) (r := Rect.unit (s := S8x512x64) ![0, 0, 0] S8x512x64.size inb_S8x512x64_S8x512x64_0_0_0) (Mk := Finset.univ) (View.set_slice_subset _ _)) $$ H8
  iintro H8
  iapply (le_wp_ret (Fr := Idealize.ShloMosaic.frame) (wpE := wpE (defs₀ (F := F)) 𝒱₀ c none) (E := E) PUnit.unit K)
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  · iexists _; isplitr
    swap; · iexact H8
    ipureintro
    rw [read_write_access_unit_zero M8 _ hz3, read_access_unit_zero M1 (c : Thread nD τ) _ hz3, read_access_unit_zero M2 (c : Thread nD τ) _ hz2,
      read_access_unit_zero M3 (c : Thread nD τ) _ hz2, read_access_unit_zero M4 (c : Thread nD τ) _ hz2, read_access_unit_zero M5 (c : Thread nD τ) _ hz2,
      read_access_unit_zero M6 (c : Thread nD τ) _ hz1, read_access_unit_zero M7 (c : Thread nD τ) _ hz1, e1, e2, e3, e4, e5, e6, e7]
    rfl

end Cert.KernelIdeal.Reg

end
-- ==== Proof.RegFinish.lean ====
/-
  Region 2, the finishing pass, run: what the body finds in each input window's buffer is that window's block of the
  array (fetched there or not), what it stores is the stored term of those blocks, and after the 128 write-backs the
  result array is the one function `Finish` of the region's inputs; the inputs are left as they were.
-/
import proofs.«205025_g42520176230720_cont_8to1_b_1509_29_alg».proof.Proof.RegData
import proofs.«205025_g42520176230720_cont_8to1_b_1509_29_alg».proof.Proof.RegFinishBody
import Idealize.ShloMosaic.Lib.Pipeline.FrameBody

noncomputable section

namespace Cert.KernelIdeal.Reg

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe
open Idealize.ShloMosaic.Pipeline (RDat)

variable (n : ℕ) (x : Vec F S1024x512x128 .f32) (a0 a1 : Vec F S1024x512 .i32) (a3 : Vec F S512x64 .f32) (a4 : Vec F S3x64 .f32)
    (a5 a6 : Vec F S64 .f32) (f5 : Vec F S1024x512x64 .f32) (c : Dev nD)

local notation "rd2" => rdat2 (F := F) n x a0 a1 a3 a4 a5 a6 f5 c

theorem idx2_0 : ∀ t : Fin grid2.N, win2_0.index t 0 = t.val ∧ win2_0.index t 1 = 0 ∧ win2_0.index t 2 = 0 := by decide +kernel
theorem idx2_1 : ∀ t : Fin grid2.N, win2_1.index t 0 = t.val ∧ win2_1.index t 1 = 0 := by decide +kernel
theorem idx2_2 : ∀ t : Fin grid2.N, win2_2.index t 0 = t.val ∧ win2_2.index t 1 = 0 := by decide +kernel
theorem idx2_3 : ∀ t : Fin grid2.N, win2_3.index t 0 = 0 ∧ win2_3.index t 1 = 0 := by decide +kernel
theorem idx2_4 : ∀ t : Fin grid2.N, win2_4.index t 0 = 0 ∧ win2_4.index t 1 = 0 := by decide +kernel
theorem idx2_5 : ∀ t : Fin grid2.N, win2_5.index t 0 = 0 := by decide +kernel
theorem idx2_6 : ∀ t : Fin grid2.N, win2_6.index t 0 = 0 := by decide +kernel
theorem idx2_7 : ∀ t : Fin grid2.N, win2_7.index t 0 = t.val ∧ win2_7.index t 1 = 0 ∧ win2_7.index t 2 = 0 := by decide +kernel

theorem emb2_0 (u : Fin cfg2.N) (y : S8x512x128.Idx) (hb : 8 * u.val + (y 0).val < 1024) :
    (win2_0.rect u).emb y = ix3 ⟨8 * u.val + (y 0).val, hb⟩ (y 1) (y 2) := by
  funext a
  apply Fin.ext
  obtain ⟨h0, h1, h2⟩ := idx2_0 u
  match a with
  | ⟨0, _⟩ => show win2_0.index u 0 * 8 + 1 * (y 0).val = 8 * u.val + (y 0).val; rw [h0]; omega
  | ⟨1, _⟩ => show win2_0.index u 1 * 512 + 1 * (y 1).val = (y 1).val; rw [h1]; omega
  | ⟨2, _⟩ => show win2_0.index u 2 * 128 + 1 * (y 2).val = (y 2).val; rw [h2]; omega

theorem emb2_1 (u : Fin cfg2.N) (y : S8x512.Idx) (hb : 8 * u.val + (y 0).val < 1024) :
    (win2_1.rect u).emb y = ix2 ⟨8 * u.val + (y 0).val, hb⟩ (y 1) := by
  funext a
  apply Fin.ext
  obtain ⟨h0, h1⟩ := idx2_1 u
  match a with
  | ⟨0, _⟩ => show win2_1.index u 0 * 8 + 1 * (y 0).val = 8 * u.val + (y 0).val; rw [h0]; omega
  | ⟨1, _⟩ => show win2_1.index u 1 * 512 + 1 * (y 1).val = (y 1).val; rw [h1]; omega

theorem emb2_2 (u : Fin cfg2.N) (y : S8x512.Idx) (hb : 8 * u.val + (y 0).val < 1024) :
    (win2_2.rect u).emb y = ix2 ⟨8 * u.val + (y 0).val, hb⟩ (y 1) := by
  funext a
  apply Fin.ext
  obtain ⟨h0, h1⟩ := idx2_2 u
  match a with
  | ⟨0, _⟩ => show win2_2.index u 0 * 8 + 1 * (y 0).val = 8 * u.val + (y 0).val; rw [h0]; omega
  | ⟨1, _⟩ => show win2_2.index u 1 * 512 + 1 * (y 1).val = (y 1).val; rw [h1]; omega

theorem emb2_3 (u : Fin cfg2.N) (y : S512x64.Idx) : (win2_3.rect u).emb y = y := by
  funext a
  apply Fin.ext
  obtain ⟨h0, h1⟩ := idx2_3 u
  match a with
  | ⟨0, _⟩ => show win2_3.index u 0 * 512 + 1 * (y 0).val = (y 0).val; rw [h0]; omega
  | ⟨1, _⟩ => show win2_3.index u 1 * 64 + 1 * (y 1).val = (y 1).val; rw [h1]; omega

theorem emb2_4 (u : Fin cfg2.N) (y : S3x64.Idx) : (win2_4.rect u).emb y = y := by
  funext a
  apply Fin.ext
  obtain ⟨h0, h1⟩ := idx2_4 u
  match a with
  | ⟨0, _⟩ => show win2_4.index u 0 * 3 + 1 * (y 0).val = (y 0).val; rw [h0]; omega
  | ⟨1, _⟩ => show win2_4.index u 1 * 64 + 1 * (y 1).val = (y 1).val; rw [h1]; omega

theorem emb2_5 (u : Fin cfg2.N) (y : S64.Idx) : (win2_5.rect u).emb y = y := by
  funext a
  apply Fin.ext
  have h0 := idx2_5 u
  match a with
  | ⟨0, _⟩ => show win2_5.index u 0 * 64 + 1 * (y 0).val = (y 0).val; rw [h0]; omega

theorem emb2_6 (u : Fin cfg2.N) (y : S64.Idx) : (win2_6.rect u).emb y = y := by
  funext a
  apply Fin.ext
  have h0 := idx2_6 u
  match a with
  | ⟨0, _⟩ => show win2_6.index u 0 * 64 + 1 * (y 0).val = (y 0).val; rw [h0]; omega

theorem emb2_7 (u : Fin cfg2.N) (y : S8x512x64.Idx) (hb : 8 * u.val + (y 0).val < 1024) :
    (win2_7.rect u).emb y = ix3 ⟨8 * u.val + (y 0).val, hb⟩ (y 1) (y 2) := by
  funext a
  apply Fin.ext
  obtain ⟨h0, h1, h2⟩ := idx2_7 u
  match a with
  | ⟨0, _⟩ => show win2_7.index u 0 * 8 + 1 * (y 0).val = 8 * u.val + (y 0).val; rw [h0]; omega
  | ⟨1, _⟩ => show win2_7.index u 1 * 512 + 1 * (y 1).val = (y 1).val; rw [h1]; omega
  | ⟨2, _⟩ => show win2_7.index u 2 * 64 + 1 * (y 2).val = (y 2).val; rw [h2]; omega

/-- What the body finds in each input window's buffer, whatever it is handed: the window's block. -/
theorem fetched2_0 (u : Fin cfg2.N) (d) : (rd2).fetched (0 : Fin 8) u d
    = fun y : S8x512x128.Idx => x ((win2_0.rect u).emb y) := rfl
theorem fetched2_1 (u : Fin cfg2.N) (d) : (rd2).fetched (1 : Fin 8) u d
    = fun y : S8x512.Idx => a0 ((win2_1.rect u).emb y) := rfl
theorem fetched2_2 (u : Fin cfg2.N) (d) : (rd2).fetched (2 : Fin 8) u d
    = fun y : S8x512.Idx => a1 ((win2_2.rect u).emb y) := rfl
theorem fetched2_3 (u : Fin cfg2.N) (d) : (rd2).fetched (3 : Fin 8) u d
    = fun y : S512x64.Idx => a3 ((win2_3.rect u).emb y) := rfl
theorem fetched2_4 (u : Fin cfg2.N) (d) : (rd2).fetched (4 : Fin 8) u d
    = fun y : S3x64.Idx => a4 ((win2_4.rect u).emb y) := rfl
theorem fetched2_5 (u : Fin cfg2.N) (d) : (rd2).fetched (5 : Fin 8) u d
    = fun y : S64.Idx => a5 ((win2_5.rect u).emb y) := rfl
theorem fetched2_6 (u : Fin cfg2.N) (d) : (rd2).fetched (6 : Fin 8) u d
    = fun y : S64.Idx => a6 ((win2_6.rect u).emb y) := rfl

/-- An input window's buffer holds, wherever the body is handed it, what a fetch there would put in it. -/
theorem finds2 [∀ e, Nonempty (Elt F e)] (w : Fin 8) (hw : (cfg2.win w).isOut = false)
    (hclip : ∀ t t' : Fin cfg2.N, (cfg2.win w).index t = (cfg2.win w).index t' →
      (cfg2.win w).clip (cfg2.grid.coords t) = (cfg2.win w).clip (cfg2.grid.coords t'))
    (hkeep : ∀ t Y X, (rd2).after w t Y X → X = Y) (t : Fin cfg2.N) (Y) (h : (rd2).Finds w t Y) :
    ∃ d, Y = (rd2).fetched w t d :=
  Pipeline.RDat.finds_in_eq_fetched (rd2) w hw hclip hkeep t Y h

/-- The stored term of the blocks the fetches put in the buffers is the closed form. -/
theorem finOut_eq (u : Fin cfg2.N) :
    FinBlk (fun y : S8x512x128.Idx => x ((win2_0.rect u).emb y)) (fun y : S8x512.Idx => a0 ((win2_1.rect u).emb y))
      (fun y : S8x512.Idx => a1 ((win2_2.rect u).emb y)) (fun y : S512x64.Idx => a3 ((win2_3.rect u).emb y))
      (fun y : S3x64.Idx => a4 ((win2_4.rect u).emb y)) (fun y : S64.Idx => a5 ((win2_5.rect u).emb y))
      (fun y : S64.Idx => a6 ((win2_6.rect u).emb y))
    = finOut x a0 a1 a3 a4 a5 a6 u := by
  have hu : u.val < 128 := u.isLt
  have hb (j : Fin 8) : 8 * u.val + j.val < 1024 := by omega
  unfold finOut
  congr 1
  · funext y; exact congrArg x (emb2_0 u y (hb (y 0)))
  · funext y; exact congrArg a0 (emb2_1 u y (hb (y 0)))
  · funext y; exact congrArg a1 (emb2_2 u y (hb (y 0)))
  · funext y; exact congrArg a3 (emb2_3 u y)
  · funext y; exact congrArg a4 (emb2_4 u y)
  · funext y; exact congrArg a5 (emb2_5 u y)
  · funext y; exact congrArg a6 (emb2_6 u y)

theorem hbody2 [∀ e, Nonempty (Elt F e)] : (rd2).BodyObligation defs₀ 𝒱₀ (none : HIx 1) Set.univ := by
  intro t Y hY
  obtain ⟨d0, e0⟩ := finds2 n x a0 a1 a3 a4 a5 a6 f5 c (0 : Fin 8) rfl (fun _ _ _ => rfl) (fun _ _ _ h => h) t (Y 0) (hY 0)
  obtain ⟨d1, e1⟩ := finds2 n x a0 a1 a3 a4 a5 a6 f5 c (1 : Fin 8) rfl (fun _ _ _ => rfl) (fun _ _ _ h => h) t (Y 1) (hY 1)
  obtain ⟨d2, e2⟩ := finds2 n x a0 a1 a3 a4 a5 a6 f5 c (2 : Fin 8) rfl (fun _ _ _ => rfl) (fun _ _ _ h => h) t (Y 2) (hY 2)
  obtain ⟨d3, e3⟩ := finds2 n x a0 a1 a3 a4 a5 a6 f5 c (3 : Fin 8) rfl (fun _ _ _ => rfl) (fun _ _ _ h => h) t (Y 3) (hY 3)
  obtain ⟨d4, e4⟩ := finds2 n x a0 a1 a3 a4 a5 a6 f5 c (4 : Fin 8) rfl (fun _ _ _ => rfl) (fun _ _ _ h => h) t (Y 4) (hY 4)
  obtain ⟨d5, e5⟩ := finds2 n x a0 a1 a3 a4 a5 a6 f5 c (5 : Fin 8) rfl (fun _ _ _ => rfl) (fun _ _ _ h => h) t (Y 5) (hY 5)
  obtain ⟨d6, e6⟩ := finds2 n x a0 a1 a3 a4 a5 a6 f5 c (6 : Fin 8) rfl (fun _ _ _ => rfl) (fun _ _ _ h => h) t (Y 6) (hY 6)
  rw [bigSep_W2, bigSep_W2, show (rd2).Φ t.succ = (rd2).Φ t.castSucc from rfl,
    show (rd2).owesAt (none : HIx 1) t.succ = (rd2).owesAt (none : HIx 1) t.castSucc from rfl]
  iintro ⟨HΦ, HO, H0, H1, H2, H3, H4, H5, H6, H7⟩
  iapply (sound_finish (F := F) c Set.univ (grid2.coords t) (st2_0 t) (hstage2_0 ((cfg2.slots t 0).cast nbuf2_0))
    (st2_1 t) (hstage2_1 ((cfg2.slots t 1).cast nbuf2_1)) (st2_2 t) (hstage2_2 ((cfg2.slots t 2).cast nbuf2_2))
    (st2_3 t) (hstage2_3 ((cfg2.slots t 3).cast nbuf2_3)) (st2_4 t) (hstage2_4 ((cfg2.slots t 4).cast nbuf2_4))
    (st2_5 t) (hstage2_5 ((cfg2.slots t 5).cast nbuf2_5)) (st2_6 t) (hstage2_6 ((cfg2.slots t 6).cast nbuf2_6))
    (st2_7 t) (hstage2_7 ((cfg2.slots t 7).cast nbuf2_7)) (Y 0) (Y 1) (Y 2) (Y 3) (Y 4) (Y 5) (Y 6) (Y 7) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [HO]; · iexact HO
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  · iexists FinBlk (Y 0) (Y 1) (Y 2) (Y 3) (Y 4) (Y 5) (Y 6); isplitr
    · ipureintro
      show FinBlk (Y 0) (Y 1) (Y 2) (Y 3) (Y 4) (Y 5) (Y 6) = finOut x a0 a1 a3 a4 a5 a6 t
      rw [e0, e1, e2, e3, e4, e5, e6, fetched2_0, fetched2_1, fetched2_2, fetched2_3, fetched2_4, fetched2_5, fetched2_6]
      exact finOut_eq x a0 a1 a3 a4 a5 a6 t
    iexact H7

/-! ## The region's protocol: debts, arrays, the final contents -/

omit [FloatOps F] in
/-- The TensorCore owes nothing at a kernel's own index. -/
theorem Otc_none (d : Dev nD) (m : ℕ) (g : GSem nD τ sig) : (K (F := F)).Otc d m g none = 0 := by
  by_contra h
  have := SparseCore.Cfg.lev_of_Otc_pos (K := K (F := F)) (Nat.pos_of_ne_zero h)
  rw [SparseCore.Cfg.lev_none] at this; omega

/-- The TensorCore's debts as the pipeline's first and last points hold them. -/
theorem owesAt_intro2 (t : Fin (cfg2.N + 1)) : tcOwes (F := F) c n ⊢ (rd2).owesAt (none : HIx 1) t := by
  unfold tcOwes
  iintro ⟨%W, %hW, HO⟩
  iexists W; isplitr
  · ipureintro; exact fun p hp => Or.inl (hW p (Finset.mem_coe.mp hp))
  iexact HO

theorem owesAt_elim2 (t : Fin (cfg2.N + 1)) : (rd2).owesAt (none : HIx 1) t ⊢ tcOwes (F := F) c n := by
  unfold tcOwes
  iintro ⟨%W, %hW, HO⟩
  iexists W; isplitr
  · ipureintro
    intro p hp
    rcases hW (Finset.mem_coe.mpr hp) with h | ⟨w, s, rfl⟩
    · exact h
    · show (K (F := F)).lev _ none ≤ 8 * n
      rw [SparseCore.Cfg.lev_none]; omega
  iexact HO

theorem Finish_at (u : Fin cfg2.N) (y : S8x512x64.Idx) (hb : 8 * u.val + (y 0).val < 1024) :
    Finish x a0 a1 a3 a4 a5 a6 (ix3 ⟨8 * u.val + (y 0).val, hb⟩ (y 1) (y 2)) = finOut x a0 a1 a3 a4 a5 a6 u y := by
  have hy : (y 0).val < 8 := (y 0).isLt
  have hcong : ∀ (A A' : Vec F S8x512x128 .f32) (B B' C C' : Vec F S8x512 .i32) (i i' : S8x512x64.Idx),
      A = A' → B = B' → C = C' → i = i' → FinBlk A B C a3 a4 a5 a6 i = FinBlk A' B' C' a3 a4 a5 a6 i' := by
    rintro _ _ _ _ _ _ _ _ rfl rfl rfl rfl; rfl
  unfold Finish finOut
  refine hcong _ _ _ _ _ _ _ _ ?_ ?_ ?_ ?_
  · funext j
    refine congrArg x ?_
    funext a
    match a with
    | ⟨0, _⟩ => exact Fin.ext (by show 8 * ((8 * u.val + (y 0).val) / 8) + (j 0).val = 8 * u.val + (j 0).val; omega)
    | ⟨1, _⟩ => rfl
    | ⟨2, _⟩ => rfl
  · funext j
    refine congrArg a0 ?_
    funext a
    match a with
    | ⟨0, _⟩ => exact Fin.ext (by show 8 * ((8 * u.val + (y 0).val) / 8) + (j 0).val = 8 * u.val + (j 0).val; omega)
    | ⟨1, _⟩ => rfl
  · funext j
    refine congrArg a1 ?_
    funext a
    match a with
    | ⟨0, _⟩ => exact Fin.ext (by show 8 * ((8 * u.val + (y 0).val) / 8) + (j 0).val = 8 * u.val + (j 0).val; omega)
    | ⟨1, _⟩ => rfl
  · funext a
    match a with
    | ⟨0, _⟩ => exact Fin.ext (by show (8 * u.val + (y 0).val) % 8 = (y 0).val; omega)
    | ⟨1, _⟩ => rfl
    | ⟨2, _⟩ => rfl

/-- Whatever the result array holds after every write-back is the one function of the inputs. -/
theorem arr2_final [∀ e, Nonempty (Elt F e)] (F7 : Vec F S1024x512x64 .f32) (h : (rd2).ArrAt (7 : Fin 8) cfg2.N F7) :
    F7 = Finish x a0 a1 a3 a4 a5 a6 := by
  funext i
  have hi0 : (i 0).val < 1024 := (i 0).isLt
  let t : Fin cfg2.N := ⟨(i 0).val / 8, by show (i 0).val / 8 < 128; omega⟩
  let y : S8x512x64.Idx := ix3 ⟨(i 0).val % 8, Nat.mod_lt _ (by decide)⟩ (i 1) (i 2)
  have hb : 8 * t.val + (y 0).val < 1024 := by show 8 * ((i 0).val / 8) + (i 0).val % 8 < 1024; omega
  have hi : i = (win2_7.rect t).emb y := by
    rw [emb2_7 t y hb]
    funext a
    match a with
    | ⟨0, _⟩ => exact Fin.ext (by show (i 0).val = 8 * ((i 0).val / 8) + (i 0).val % 8; omega)
    | ⟨1, _⟩ => rfl
    | ⟨2, _⟩ => rfl
  have key := arrAt_forall_of_leaves (rd2) (7 : Fin 8) (fun i v => v = Finish x a0 a1 a3 a4 a5 a6 i)
    (fun u _ X hX y' => by
      obtain ⟨Y, -, hXY⟩ := hX
      have hX' : X = finOut x a0 a1 a3 a4 a5 a6 u := hXY
      have hu : u.val < 128 := u.isLt
      have hy' : (y' 0).val < 8 := (y' 0).isLt
      show X y' = Finish x a0 a1 a3 a4 a5 a6 ((win2_7.rect u).emb y')
      rw [emb2_7 u y' (by omega), hX']
      exact (Finish_at x a0 a1 a3 a4 a5 a6 u y' (by omega)).symm)
    cfg2.N F7 h t i t.isLt (flush2_7 t) (hi ▸ (win2_7.blk t).view.emb_mem_set y)
  exact key

/-! ## The region -/

theorem arrays2_eq (Fa : (w : Fin cfg2.W) → Buf (Elt F) ((cfg2.win w).arr.view.loc (c.tc : Thread nD τ))) :
    ((rd2).arrays Fa : sProp 𝕄) = iprop((aLoc c main_v4 ↦{fullShare} Fa 0) ∗ (aLoc c main_arg0 ↦{fullShare} Fa 1)
      ∗ (aLoc c main_arg1 ↦{fullShare} Fa 2) ∗ (aLoc c main_arg3 ↦{fullShare} Fa 3) ∗ (aLoc c main_arg4 ↦{fullShare} Fa 4)
      ∗ (aLoc c main_arg5 ↦{fullShare} Fa 5) ∗ (aLoc c main_arg6 ↦{fullShare} Fa 6) ∗ (aLoc c main_v5 ↦{fullShare} Fa 7)) := by
  unfold RDat.arrays
  rw [bigSep_W2, (arr_whole2 0).set_eq_univ, (arr_whole2 1).set_eq_univ, (arr_whole2 2).set_eq_univ, (arr_whole2 3).set_eq_univ,
    (arr_whole2 4).set_eq_univ, (arr_whole2 5).set_eq_univ, (arr_whole2 6).set_eq_univ, (arr_whole2 7).set_eq_univ]
  rfl

/-- Region 2 as the library's region record, over the family at any entry record whose second half is this region's. -/
abbrev R2 [∀ e, Nonempty (Elt F e)] (lv : GSem nD τ sig → HIx 1 → ℕ) (hlv : (K (F := F)).Refines lv) (e : Ent F) :
    Pipeline.RDat.RegionSeg (pcfgs (F := F)) adm (rdats e) (none : HIx 1) defs₀ 𝒱₀ (K (F := F)).L lv (1 : Fin 2) where
  win := winFacts2.to₀
  block_pos := block_pos2
  stage_whole := stage_whole2
  K := PEmpty
  osem k := k.elim
  ho := Pipeline.OwnSemFacts.none _
  hbody c := hbody2 e.n2 e.x e.a0 e.a1 e.a3 e.a4 e.a5 e.a6 e.f5 c
  hwaits c := Pipeline.RDat.cellsWaits_intro (Pipeline.pin (pcfgs (F := F)) adm) (rdats e) (none : HIx 1) (1 : Fin 2) c
    (fun w s t => SparseCore.Cfg.mayWait_none (K := K (F := F)) _ (Otc_none c e.n2) lv hlv)
  pre c := finPre c e.n2 e.x e.a0 e.a1 e.a3 e.a4 e.a5 e.a6 e.f5
  post c := finPost c e.n2 e.x e.a0 e.a1 e.a3 e.a4 e.a5 e.a6
  X _ := iprop(emp)
  Y _ := iprop(emp)
  Z _ := iprop(emp)
  hentry c := by
    show iprop(finPre c e.n2 e.x e.a0 e.a1 e.a3 e.a4 e.a5 e.a6 e.f5 ∗ Pipeline.ownSems0 (fun k : PEmpty => k.elim) c ∗ levAts (K (F := F)).L lv)
      ⊢ |={Set.univ}=> iprop((rdat2 e.n2 e.x e.a0 e.a1 e.a3 e.a4 e.a5 e.a6 e.f5 c).arrays (rdat2 e.n2 e.x e.a0 e.a1 e.a3 e.a4 e.a5 e.a6 e.f5 c).A
        ∗ Pipeline.prefHeld (pcfgs (F := F) 1).pre c (fun _ => fullShare) (adm (F := F) 1).1
        ∗ (rdat2 e.n2 e.x e.a0 e.a1 e.a3 e.a4 e.a5 e.a6 e.f5 c).owesAt (none : HIx 1) 0 ∗ emp ∗ emp)
    rw [arrays2_eq]
    unfold finPre
    iintro ⟨⟨H0, H1, H2, H3, H4, H5, H6, H7, HO⟩, -, -⟩
    imodintro
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitr
    · rw [show (Pipeline.prefHeld (pcfgs (F := F) 1).pre c (fun _ => fullShare) (adm (F := F) 1).1 : sProp 𝕄) = BI.emp from
        bigSep_univ_eq_bigSepL ([] : List (Fin 0)) (by decide) (by decide) _]
      iempintro
    isplitl [HO]
    · iapply (owesAt_intro2 e.n2 e.x e.a0 e.a1 e.a3 e.a4 e.a5 e.a6 e.f5 c 0); iexact HO
    isplitr <;> iempintro
  hin c := by
    show iprop(emp ∗ Pipeline.prefHeld (pcfgs (F := F) 1).pre c (fun _ => fullShare) (adm (F := F) 1).1 ∗ Pipeline.scopedRest spec2 c)
      ⊢ (Pipeline.scopedRest spec2 c : sProp 𝕄)
    iintro ⟨-, -, H⟩; iexact H
  hout c := by
    rw [Pipeline.ownSems0_none]
    show (Pipeline.scopedRest spec2 c : sProp 𝕄) ⊢ iprop(emp ∗ emp ∗ Pipeline.scopedRest spec2 c)
    iintro H
    isplitr; · iempintro
    isplitr; · iempintro
    iexact H
  hexit c := by
    show iprop((rdat2 e.n2 e.x e.a0 e.a1 e.a3 e.a4 e.a5 e.a6 e.f5 c).arraysAt cfg2.N
        ∗ (rdat2 e.n2 e.x e.a0 e.a1 e.a3 e.a4 e.a5 e.a6 e.f5 c).owesAt (none : HIx 1) (Fin.last cfg2.N) ∗ emp ∗ emp)
      ⊢ |={Set.univ}=> finPost c e.n2 e.x e.a0 e.a1 e.a3 e.a4 e.a5 e.a6
    unfold RDat.arraysAt
    rw [bigSep_W2, (arr_whole2 0).set_eq_univ, (arr_whole2 1).set_eq_univ, (arr_whole2 2).set_eq_univ, (arr_whole2 3).set_eq_univ,
      (arr_whole2 4).set_eq_univ, (arr_whole2 5).set_eq_univ, (arr_whole2 6).set_eq_univ, (arr_whole2 7).set_eq_univ]
    iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩, ⟨%F7, %h7, H7⟩⟩, HO, -, -⟩
    have h0 : F0 = e.x := (congrFun (Pipeline.RDat.ArrAt_in (rdat2 e.n2 e.x e.a0 e.a1 e.a3 e.a4 e.a5 e.a6 e.f5 c) (0 : Fin cfg2.W) rfl cfg2.N) F0).mp h0
    have h1 : F1 = e.a0 := (congrFun (Pipeline.RDat.ArrAt_in (rdat2 e.n2 e.x e.a0 e.a1 e.a3 e.a4 e.a5 e.a6 e.f5 c) (1 : Fin cfg2.W) rfl cfg2.N) F1).mp h1
    have h2 : F2 = e.a1 := (congrFun (Pipeline.RDat.ArrAt_in (rdat2 e.n2 e.x e.a0 e.a1 e.a3 e.a4 e.a5 e.a6 e.f5 c) (2 : Fin cfg2.W) rfl cfg2.N) F2).mp h2
    have h3 : F3 = e.a3 := (congrFun (Pipeline.RDat.ArrAt_in (rdat2 e.n2 e.x e.a0 e.a1 e.a3 e.a4 e.a5 e.a6 e.f5 c) (3 : Fin cfg2.W) rfl cfg2.N) F3).mp h3
    have h4 : F4 = e.a4 := (congrFun (Pipeline.RDat.ArrAt_in (rdat2 e.n2 e.x e.a0 e.a1 e.a3 e.a4 e.a5 e.a6 e.f5 c) (4 : Fin cfg2.W) rfl cfg2.N) F4).mp h4
    have h5 : F5 = e.a5 := (congrFun (Pipeline.RDat.ArrAt_in (rdat2 e.n2 e.x e.a0 e.a1 e.a3 e.a4 e.a5 e.a6 e.f5 c) (5 : Fin cfg2.W) rfl cfg2.N) F5).mp h5
    have h6 : F6 = e.a6 := (congrFun (Pipeline.RDat.ArrAt_in (rdat2 e.n2 e.x e.a0 e.a1 e.a3 e.a4 e.a5 e.a6 e.f5 c) (6 : Fin cfg2.W) rfl cfg2.N) F6).mp h6
    have h7' := arr2_final e.n2 e.x e.a0 e.a1 e.a3 e.a4 e.a5 e.a6 e.f5 c F7 h7
    subst h0 h1 h2 h3 h4 h5 h6 h7'
    imodintro
    unfold finPost
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (owesAt_elim2 e.n2 e.x e.a0 e.a1 e.a3 e.a4 e.a5 e.a6 e.f5 c (Fin.last cfg2.N)); iexact HO

/-- Region 2 (`_finish_body`, 128 points) on the TensorCore of `d` before SparseCore call `n`. -/
theorem region2 [∀ e, Nonempty (Elt F e)] (d : Dev nD) (n : ℕ) (lv : GSem nD τ sig → HIx 1 → ℕ) (hlv : (K (F := F)).Refines lv)
    (x : Vec F S1024x512x128 .f32) (a0 a1 : Vec F S1024x512 .i32) (a3 : Vec F S512x64 .f32)
    (a4 : Vec F S3x64 .f32) (a5 a6 : Vec F S64 .f32) (f5 : Vec F S1024x512x64 .f32) :
    iprop(boundary (T d) ∗ finPre (F := F) d n x a0 a1 a3 a4 a5 a6 f5 ∗ levAts (K (F := F)).L lv
        ∗ Pipeline.cellsGhost (Pipeline.pin (pcfgs (F := F)) adm) (EP (F := F)) (1 : Fin 2) d
        ∗ Pipeline.toksInit (Pipeline.pin (pcfgs (F := F)) adm) (EP (F := F)) (1 : Fin 2) d)
      ⊢ wp frame (wpE ((K (F := F)).defs D) 𝒱 (T d) none) Set.univ
          (Prog.lift (.customCall (SparseCore.inner (Pipeline.entry (1 : Fin 2))) ()))
          (fun _ => iprop(boundary (T d) ∗ finPost (F := F) d n x a0 a1 a3 a4 a5 a6)) := by
  let e : Ent F := ⟨0, fun _ => Classical.arbitrary _, fun _ => Classical.arbitrary _, n, x, a0, a1, a3, a4, a5, a6, f5⟩
  have hR := Pipeline.RDat.RegionSeg.wp (pcfgs (F := F)) adm (rdats e) (none : HIx 1) cellOf_inj (EP (F := F)) defs₀ 𝒱₀ (K (F := F)).L lv
    (R2 lv hlv e) d none (fun u hu => (Option.not_mem_none u hu).elim) (fun _ => Prog.ret PUnit.unit) (fun _ => iprop(boundary (T d) ∗ finPost (F := F) d n x a0 a1 a3 a4 a5 a6))
  refine BIBase.Entails.trans ?_ ((K (F := F)).wp_liftProg D 𝒱 (T d) Set.univ none (.op (.customCall (Pipeline.entry (1 : Fin 2)) ()) (fun _ => Prog.ret PUnit.unit)) _)
  refine BIBase.Entails.trans ?_ hR
  iintro ⟨Hb, Hpre, Hlev, Hg, Ht⟩
  isplitr [Hb Hpre Hlev Hg Ht]
  · iintro ⟨Hb, Hpost⟩
    iapply (le_wp_ret (Fr := Idealize.ShloMosaic.frame) (wpE := wpE (Pipeline.defs (pcfgs (F := F)) defs₀) 𝒱₀.lift (d.tc : Thread nD τ) none) (E := Set.univ) PUnit.unit _)
    isplitl [Hb]; · iexact Hb
    iexact Hpost
  isplitl [Hb]; · iexact Hb
  isplitl [Hpre]; · iexact Hpre
  isplitl [Hlev]; · iexact Hlev
  isplitl [Hg]; · iexact Hg
  iexact Ht

end Cert.KernelIdeal.Reg

end
-- ==== Proof.BRegData.lean ====
/-
  The proof data of the two TensorCore pipelines, relational: each input window's staging buffer is left as the body
  found it; the pairing's result buffer is constrained row by row (its other half-rows hold what the machine picked),
  the finishing pass's is named. Both in one family, a literal match on the pipeline, over the contents each region is
  entered with.
-/
import proofs.«205025_g42520176230720_cont_8to1_b_1509_29_alg».proof.Proof.BRegDefs

noncomputable section

namespace Cert.Kernel.Reg

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe
open Idealize.ShloMosaic.Pipeline (RDat)

/-! ## The two pipelines' proof data, relational: each input's buffer is left as found, each output's constrained -/

/-- The pairs the TensorCore's waits may have recorded before SparseCore call `n`: those at level `8 n` or below. -/
def recd (c : Dev nD) (n : ℕ) : Set (SemLoc sig × HIx 1) := {p | (K (F := F)).lev (T c, p.1) p.2 ≤ 8 * n}

/-- What the pairing body may leave in the result's staging buffer at point `u`: row `r` of the block holds row
    `4096 u + r` of the table in its first 64 columns and, where that row exists, row `512000 + 4096 u + r` in its last 64. -/
def PairBlk (t : Vec F S64x1000000 .f32) (u : Fin cfg0.N) (X : Vec F S4096x128 .f32) : Prop :=
  ∀ (y : S4096x128.Idx) (j : S64x1000000.Idx),
    ((y 1).val < 64 → (j 0).val = (y 1).val → (j 1).val = 4096 * u.val + (y 0).val → X y = t j)
    ∧ (4096 * u.val + (y 0).val < 488000 → 64 ≤ (y 1).val → (j 0).val + 64 = (y 1).val
        → (j 1).val = 512000 + 4096 * u.val + (y 0).val → X y = t j)

/-- Region 0's data: both input windows read the transposed table `t` (a half share each); the result starts at `f2`. -/
def rdat0 (n : ℕ) (t : Vec F S64x1000000 .f32) (f2 : Vec F S512000x128 .f32) (c : Dev nD) :
    RDat τ (Elt F) (HIx 1) ℕ UU ℕ cfg0 c where
  A := fun | ⟨0, _⟩ => t | ⟨1, _⟩ => t | ⟨2, _⟩ => f2
  after := fun w u => match w with
    | ⟨0, _⟩ => fun Y X => X = Y
    | ⟨1, _⟩ => fun Y X => X = Y
    | ⟨2, _⟩ => fun _ X => PairBlk t u X
  Φ _ := Pipeline.scopedRest spec0 c
  q := fun | ⟨0, _⟩ => fullShare.left | ⟨1, _⟩ => fullShare.right | ⟨2, _⟩ => fullShare
  owed _ := (K (F := F)).Otc c n
  recorded _ := recd (F := F) c n

/-- What the finishing body leaves in the result's staging buffer at point `u`: its stored term of the blocks of batch
    rows `8 u ‥ 8 u + 7`. -/
def finOut (x : Vec F S1024x512x128 .f32) (a0 a1 : Vec F S1024x512 .i32) (a3 : Vec F S512x64 .f32) (a4 : Vec F S3x64 .f32)
    (a5 a6 : Vec F S64 .f32) (u : Fin cfg2.N) : Vec F S8x512x64 .f32 :=
  have hu : u.val < 128 := u.isLt
  have hb (j : Fin 8) : 8 * u.val + j.val < 1024 := by omega
  FinBlk (fun j => x (ix3 ⟨8 * u.val + (j 0).val, hb (j 0)⟩ (j 1) (j 2)))
    (fun j => a0 (ix2 ⟨8 * u.val + (j 0).val, hb (j 0)⟩ (j 1)))
    (fun j => a1 (ix2 ⟨8 * u.val + (j 0).val, hb (j 0)⟩ (j 1)))
    a3 a4 a5 a6

/-- Region 2's data. -/
def rdat2 (n : ℕ) (x : Vec F S1024x512x128 .f32) (a0 a1 : Vec F S1024x512 .i32) (a3 : Vec F S512x64 .f32) (a4 : Vec F S3x64 .f32)
    (a5 a6 : Vec F S64 .f32) (f5 : Vec F S1024x512x64 .f32) (c : Dev nD) :
    RDat τ (Elt F) (HIx 1) ℕ UU ℕ cfg2 c where
  A := fun | ⟨0, _⟩ => x | ⟨1, _⟩ => a0 | ⟨2, _⟩ => a1 | ⟨3, _⟩ => a3 | ⟨4, _⟩ => a4 | ⟨5, _⟩ => a5 | ⟨6, _⟩ => a6 | ⟨7, _⟩ => f5
  after := fun w u => match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = finOut x a0 a1 a3 a4 a5 a6 u
  Φ _ := Pipeline.scopedRest spec2 c
  q _ := fullShare
  owed _ := (K (F := F)).Otc c n
  recorded _ := recd (F := F) c n

/-- Everything the two regions are entered with, as one record. -/
structure Ent (F : FTy → Type) where
  n0 : ℕ
  t : Vec F S64x1000000 .f32
  f2 : Vec F S512000x128 .f32
  n2 : ℕ
  x : Vec F S1024x512x128 .f32
  a0 : Vec F S1024x512 .i32
  a1 : Vec F S1024x512 .i32
  a3 : Vec F S512x64 .f32
  a4 : Vec F S3x64 .f32
  a5 : Vec F S64 .f32
  a6 : Vec F S64 .f32
  f5 : Vec F S1024x512x64 .f32

/-- The family: a literal match on the pipeline. -/
def rdats (e : Ent F) : (p : Fin 2) → (c : Dev nD) → RDat τ (Elt F) (HIx 1) ℕ UU ℕ (Pipeline.pin (pcfgs (F := F)) adm p) c
  | ⟨0, _⟩ => fun c => rdat0 e.n0 e.t e.f2 c
  | ⟨1, _⟩ => fun c => rdat2 e.n2 e.x e.a0 e.a1 e.a3 e.a4 e.a5 e.a6 e.f5 c

end Cert.Kernel.Reg

end
-- ==== Proof.BRegLib.lean ====
/-
  Two small lemmas both regions use: a load or store through the whole-shape rectangle at zero offsets of ANY memref
  reads or leaves the whole contents; and a property of every element a flushing point may write back — whatever the
  body may have left in the staging buffer — is a property of every covered element of whatever the array holds after
  the write-backs (relational proof data).
-/
import proofs.«205025_g42520176230720_cont_8to1_b_1509_29_alg».proof.Proof.BRegDefs

noncomputable section

namespace Cert.Kernel.Reg

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe

/-! ## A whole-shape rectangle at zero offsets -/

/-- An index of the whole-shape rectangle at zero offsets sits at itself. -/
theorem unit_zero_emb {s : Shape} (off : Fin s.rank → Nat) (h0 : off = fun _ => 0) (inb : ∀ a, off a + s.size a ≤ s.size a)
    (x : s.Idx) : (Rect.unit (s := s) off s.size inb).emb x = x := by
  subst h0
  funext a; apply Fin.ext
  rw [Rect.emb_apply]
  show 0 + 1 * (x a).val = (x a).val
  omega

/-- A load of all of a memref reads what the memref holds. -/
theorem read_access_unit_zero {κ : Kind} {sp : Space} {s : Shape} {e : EltTy} (M : Memref sig κ sp s e) (c : Thread nD τ)
    (off : Fin s.rank → Nat) (h0 : off = fun _ => 0) (inb : ∀ a, off a + s.size a ≤ s.size a)
    (g : (M.access (Rect.unit (s := s) off s.size inb)).ty.Contents (Elt F)) :
    (M.access (Rect.unit (s := s) off s.size inb)).read (Elt F) g = M.view.read (Elt F) g := by
  funext x
  show _root_.cast _ (g (M.view.emb ((Rect.unit (s := s) off s.size inb).emb x))) = _root_.cast _ (g (M.view.emb x))
  rw [unit_zero_emb off h0 inb x]

/-- After an unmasked store through all of it, it holds the payload. -/
theorem read_write_access_unit_zero {κ : Kind} {sp : Space} {s : Shape} {e : EltTy} (M : Memref sig κ sp s e)
    (off : Fin s.rank → Nat) (h0 : off = fun _ => 0) (inb : ∀ a, off a + s.size a ≤ s.size a)
    (f : (M.access (Rect.unit (s := s) off s.size inb)).ty.Contents (Elt F)) (v : s.Idx → Elt F e) :
    M.view.read (Elt F) ((M.access (Rect.unit (s := s) off s.size inb)).write (Elt F) f v Finset.univ) = v := by
  funext y
  conv_lhs => rw [← unit_zero_emb off h0 inb y]
  rw [View.read_slice_write_emb _ _ _ (Finset.mem_univ _)]

/-! ## What an output array may hold after the write-backs, element by element -/

section ArrAt

open Idealize.ShloMosaic.Pipeline (RDat Cfg Window)

variable {nD' : Nat} {τ' : Topo} {sig' : RefSig} {Val : EltTy → Type}
variable {Ix : Type} [DecidableEq Ix] {Name : Type} [DecidableEq Name] {U' : Type} [URA U'] {Lvl : Type}
variable {Λ' : Idealize.SL.Sem.Labels} {cfg : Cfg sig' Λ'} {c : Dev nD'} (rd : RDat τ' Val Ix Name U' Lvl cfg c)

/-- A property every element has that a flushing point may write back — whatever contents the body may have left in the
    staging buffer then — every element under some flushing point's block below `n` has after the write-backs below
    `n`, whatever the array then holds: an element several points cover holds the last one's value. -/
theorem arrAt_forall_of_leaves (w : Fin cfg.W)
    (P : ((cfg.win w).arr.view.loc (c.tc : Thread nD' τ')).2.ty.Idx → Val ((cfg.win w).arr.view.loc (c.tc : Thread nD' τ')).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (F : Buf Val ((cfg.win w).arr.view.loc (c.tc : Thread nD' τ'))), rd.ArrAt w n F →
      ∀ (t : Fin cfg.N) (i : ((cfg.win w).arr.view.loc (c.tc : Thread nD' τ')).2.ty.Idx),
        t.val < n → (cfg.win w).flush t = true → i ∈ ((cfg.win w).blk t).view.set → P i (F i)
  | 0, _, _, _, _, ht, _, _ => absurd ht (Nat.not_lt_zero _)
  | n + 1, F, hF, t, i, ht, hf, hi => by
    by_cases hn : n < cfg.N
    swap
    · have hF' : rd.ArrAt w n F := by
        have : rd.ArrAt w (n + 1) = rd.ArrAt w n := by
          show (if h : n < cfg.N then _ else rd.ArrAt w n) = _
          rw [dif_neg hn]
        rwa [this] at hF
      exact arrAt_forall_of_leaves w P hP n F hF' t i (by have := t.isLt; omega) hf hi
    rw [show n + 1 = (⟨n, hn⟩ : Fin cfg.N).val + 1 from rfl, rd.ArrAt_succ w ⟨n, hn⟩] at hF
    by_cases hfn : (cfg.win w).flush ⟨n, hn⟩ = true
    · rw [if_pos hfn] at hF
      obtain ⟨G₀, X, hG₀, hX, rfl⟩ := hF
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact arrAt_forall_of_leaves w P hP n G₀ hG₀ t i (by omega) hf hi
    · rw [if_neg hfn] at hF
      have htn : t.val ≠ n := fun e => hfn (by have : t = ⟨n, hn⟩ := Fin.ext e; exact this ▸ hf)
      exact arrAt_forall_of_leaves w P hP n F hF t i (by omega) hf hi

end ArrAt

end Cert.Kernel.Reg

end
-- ==== Proof.BRegPairBody.lean ====
/-
  The pairing body's triple on any three staging memrefs: three whole loads, one whole store of the two transposes side by side.
-/
import proofs.«205025_g42520176230720_cont_8to1_b_1509_29_alg».proof.Proof.BRegLib

noncomputable section

namespace Cert.Kernel.Reg

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe

/-! ## The pairing body, on any three staging memrefs -/

set_option maxRecDepth 65536 in
/-- The pairing body loads its two inputs whole and stores, whole, their transposes side by side; the inputs'
    buffers are left as they were. -/
theorem sound_pair (c : Dev nD) (E : Set ℕ) (i : grid0.Coords)
    (M1 : Memref sig .tc .vmem S64x4096 .f32) (h1 : M1.IsWhole) (M2 : Memref sig .tc .vmem S64x4096 .f32) (h2 : M2.IsWhole)
    (M3 : Memref sig .tc .vmem S4096x128 .f32) (h3 : M3.IsWhole)
    (X1 X2 : Vec F S64x4096 .f32) (X3 : Vec F S4096x128 .f32) (K : PUnit → sProp 𝕄) :
    iprop((owns (c : Thread nD τ) M1 fullShare X1 ∗ owns (c : Thread nD τ) M2 fullShare X2 ∗ owns (c : Thread nD τ) M3 fullShare X3)
          ∗ (iprop(owns (c : Thread nD τ) M1 fullShare X1 ∗ owns (c : Thread nD τ) M2 fullShare X2
                  ∗ owns (c : Thread nD τ) M3 fullShare (k0_pay1 X1 X2)) -∗ K ⟨⟩))
      ⊢ wp frame (wpE (defs₀ (F := F)) 𝒱₀ c none) E (cc0__pair_body i M1 h1 M2 h2 M3 h3) K := by
  have hz2 : (![0, 0] : Fin 2 → Nat) = fun _ => 0 := funext fun a => by fin_cases a <;> rfl
  rw [cc0__pair_body_eq_skeleton]; unfold cc0__pair_body_skel
  simp only [Prog.lift, Prog.bind_op, Prog.bind_ret]
  unfold owns
  iintro ⟨⟨⟨%f1, %e1, H1⟩, ⟨%f2, %e2, H2⟩, ⟨%f3, %e3, H3⟩⟩, Hk⟩
  iapply (wp_load_rect 𝒱₀ (c : Thread nD τ) none E (m := M1) (r := Rect.unit (s := S64x4096) ![0, 0] S64x4096.size inb_S64x4096_S64x4096_0_0) (View.set_slice_subset _ _)) $$ H1
  iintro H1
  iapply (wp_load_rect 𝒱₀ (c : Thread nD τ) none E (m := M2) (r := Rect.unit (s := S64x4096) ![0, 0] S64x4096.size inb_S64x4096_S64x4096_0_0) (View.set_slice_subset _ _)) $$ H2
  iintro H2
  iapply (wp_load_rect 𝒱₀ (c : Thread nD τ) none E (m := M3) (r := Rect.unit (s := S4096x128) ![0, 0] S4096x128.size inb_S4096x128_S4096x128_0_0) (View.set_slice_subset _ _)) $$ H3
  iintro H3
  iapply (wp_store 𝒱₀ (c : Thread nD τ) none E (m := M3) (r := Rect.unit (s := S4096x128) ![0, 0] S4096x128.size inb_S4096x128_S4096x128_0_0) (Mk := Finset.univ) (View.set_slice_subset _ _)) $$ H3
  iintro H3
  iapply (le_wp_ret (Fr := Idealize.ShloMosaic.frame) (wpE := wpE (defs₀ (F := F)) 𝒱₀ c none) (E := E) PUnit.unit K)
  iapply Hk
  isplitl [H1]
  · iexists f1; isplitr; · ipureintro; exact e1
    iexact H1
  isplitl [H2]
  · iexists f2; isplitr; · ipureintro; exact e2
    iexact H2
  · iexists _; isplitr
    swap; · iexact H3
    ipureintro
    rw [read_write_access_unit_zero M3 _ hz2, read_access_unit_zero M1 (c : Thread nD τ) _ hz2, read_access_unit_zero M2 (c : Thread nD τ) _ hz2, e1, e2]

end Cert.Kernel.Reg

end
-- ==== Proof.BRegPair.lean ====
/-
  Region 0, the pairing of the transposed table's halves, run: the first window's blocks lie inside the array; the
  second's last block overhangs it, and past the array's end its staging buffer holds what the machine picked, which
  the body stores into half-rows nothing is claimed of. What the body stores at each point is a pairing block; after
  the 125 write-backs the paired table pairs the transposed table; the transposed table is left as it was.
-/
import proofs.«205025_g42520176230720_cont_8to1_b_1509_29_alg».proof.Proof.BRegData
import proofs.«205025_g42520176230720_cont_8to1_b_1509_29_alg».proof.Proof.BRegPairBody
import Idealize.ShloMosaic.Lib.Pipeline.FrameBody
import Idealize.ShloMosaic.Lib.Pipeline.Value

noncomputable section

namespace Cert.Kernel.Reg

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe
open Idealize.ShloMosaic.Pipeline (RDat)

variable (n : ℕ) (t : Vec F S64x1000000 .f32) (f2 : Vec F S512000x128 .f32) (c : Dev nD)

local notation "rd0" => rdat0 (F := F) n t f2 c

/-! ## The windows' blocks, point by point -/

theorem idx0_0 : ∀ u : Fin grid0.N, win0_0.index u 0 = 0 ∧ win0_0.index u 1 = u.val := by decide +kernel
theorem idx0_1 : ∀ u : Fin grid0.N, u.val ≤ 119 → win0_1.index u 0 = 0 ∧ win0_1.index u 1 = u.val + 125 := by decide +kernel
theorem idx0_2 : ∀ u : Fin grid0.N, win0_2.index u 0 = u.val ∧ win0_2.index u 1 = 0 := by decide +kernel
theorem xs0_0 : ∀ u : Fin grid0.N, win0_0.xsize (grid0.coords u) 0 = 64 ∧ win0_0.xsize (grid0.coords u) 1 = 4096 := by decide +kernel
theorem xs0_1 : ∀ u : Fin grid0.N, win0_1.xsize (grid0.coords u) 0 = 64
    ∧ (u.val ≤ 118 → win0_1.xsize (grid0.coords u) 1 = 4096) ∧ (u.val = 119 → win0_1.xsize (grid0.coords u) 1 = 576) := by decide +kernel
theorem fetch0_1 : ∀ u : Fin grid0.N, u.val ≤ 119 → win0_1.fetch u = true := by decide +kernel

example (u : Fin cfg0.N) (y : (win0_0.xblock (grid0.coords u)).Idx) : (rd0).blockOf (0 : Fin 3) u y = t ((win0_0.rect u).emb y) := rfl
example (u : Fin cfg0.N) (y : (win0_1.xblock (grid0.coords u)).Idx) : (rd0).blockOf (1 : Fin 3) u y = t ((win0_1.rect u).emb y) := rfl

/-- A fetched buffer at an element the fetch moves holds the array's element. -/
theorem fetched0_0 (u : Fin cfg0.N) (d : Vec F S64x4096 .f32) (j : S64x4096.Idx) (i : S64x1000000.Idx)
    (h0 : (i 0).val = (j 0).val) (h1 : (i 1).val = 4096 * u.val + (j 1).val) : (rd0).fetched (0 : Fin 3) u d j = t i := by
  obtain ⟨x0, x1⟩ := xs0_0 u
  obtain ⟨i0, i1⟩ := idx0_0 u
  have hj : ∀ a, (j a).val < win0_0.xsize (grid0.coords u) a := fun a => by
    match a with
    | ⟨0, _⟩ => show (j 0).val < win0_0.xsize (grid0.coords u) 0; rw [x0]; exact (j 0).isLt
    | ⟨1, _⟩ => show (j 1).val < win0_0.xsize (grid0.coords u) 1; rw [x1]; exact (j 1).isLt
  show win0_0.fill (grid0.coords u) d ((rd0).blockOf (0 : Fin 3) u) j = t i
  unfold Pipeline.Window.fill
  rw [dif_pos ((win0_0.moved_iff _ j).mpr hj)]
  show t ((win0_0.rect u).emb _) = t i
  refine congrArg t ?_
  funext a
  apply Fin.ext
  match a with
  | ⟨0, _⟩ => show win0_0.index u 0 * 64 + 1 * (j 0).val = (i 0).val; rw [i0, h0]; omega
  | ⟨1, _⟩ => show win0_0.index u 1 * 4096 + 1 * (j 1).val = (i 1).val; rw [i1, h1]; omega

/-- The second window's buffer, fetched at a point whose block is inside the array or is its cut last block, holds the
    array's element at every element the fetch moves. -/
theorem fetched0_1 (u : Fin cfg0.N) (hu : u.val ≤ 119) (d : Vec F S64x4096 .f32) (j : S64x4096.Idx) (i : S64x1000000.Idx)
    (hmv : 4096 * u.val + (j 1).val < 488000)
    (h0 : (i 0).val = (j 0).val) (h1 : (i 1).val = 512000 + 4096 * u.val + (j 1).val) : (rd0).fetched (1 : Fin 3) u d j = t i := by
  obtain ⟨x0, x1, x1'⟩ := xs0_1 u
  obtain ⟨i0, i1⟩ := idx0_1 u hu
  have hj1 : (j 1).val < 4096 := (j 1).isLt
  have hj : ∀ a, (j a).val < win0_1.xsize (grid0.coords u) a := fun a => by
    match a with
    | ⟨0, _⟩ => show (j 0).val < win0_1.xsize (grid0.coords u) 0; rw [x0]; exact (j 0).isLt
    | ⟨1, _⟩ =>
      show (j 1).val < win0_1.xsize (grid0.coords u) 1
      rcases Nat.lt_or_ge u.val 119 with h | h
      · rw [x1 (by omega)]; exact hj1
      · rw [x1' (by omega)]; omega
  show win0_1.fill (grid0.coords u) d ((rd0).blockOf (1 : Fin 3) u) j = t i
  unfold Pipeline.Window.fill
  rw [dif_pos ((win0_1.moved_iff _ j).mpr hj)]
  show t ((win0_1.rect u).emb _) = t i
  refine congrArg t ?_
  funext a
  apply Fin.ext
  match a with
  | ⟨0, _⟩ => show win0_1.index u 0 * 64 + 1 * (j 0).val = (i 0).val; rw [i0, h0]; omega
  | ⟨1, _⟩ => show win0_1.index u 1 * 4096 + 1 * (j 1).val = (i 1).val; rw [i1, h1]; omega

/-! ## What the body stores, element by element -/

/-- The stored block at a first-half column is the first input's transpose. -/
theorem pay_left (Y0 Y1 : Vec F S64x4096 .f32) (y : S4096x128.Idx) (hy : (y 1).val < 64) :
    k0_pay1 Y0 Y1 y = Y0 (ix2 (n0 := 64) (n1 := 4096) ⟨(y 1).val, hy⟩ ⟨(y 0).val, (y 0).isLt⟩) := by
  unfold k0_pay1
  refine (concatenate_pair_apply_left (t := S4096x128) (s₁ := S4096x64) (s₂ := S4096x64) (1 : Fin 2) _ _ concatenates_S4096x64_S4096x64_S4096x128_d1 y rfl
    (ix2 (n0 := 4096) (n1 := 64) ⟨(y 0).val, (y 0).isLt⟩ ⟨(y 1).val, hy⟩)
    (fun b => by match b with | ⟨0, _⟩ => rfl | ⟨1, _⟩ => rfl)).trans ?_
  refine (transpose_apply (s := S64x4096) (t := S4096x64) [1, 0] _ transposes_S64x4096_p1_0_S4096x64
    (ix2 (n0 := 4096) (n1 := 64) ⟨(y 0).val, (y 0).isLt⟩ ⟨(y 1).val, hy⟩)
    (ix2 (n0 := 64) (n1 := 4096) ⟨(y 1).val, hy⟩ ⟨(y 0).val, (y 0).isLt⟩)
    (fun b => by match b with | ⟨0, _⟩ => rfl | ⟨1, _⟩ => rfl)).trans ?_
  rw [shapeCast_self]

/-- At a second-half column, the second input's. -/
theorem pay_right (Y0 Y1 : Vec F S64x4096 .f32) (y : S4096x128.Idx) (hy : 64 ≤ (y 1).val) (hlt : (y 1).val - 64 < 64) :
    k0_pay1 Y0 Y1 y = Y1 (ix2 (n0 := 64) (n1 := 4096) ⟨(y 1).val - 64, hlt⟩ ⟨(y 0).val, (y 0).isLt⟩) := by
  unfold k0_pay1
  refine (concatenate_pair_apply_right (t := S4096x128) (s₁ := S4096x64) (s₂ := S4096x64) (1 : Fin 2) _ _ concatenates_S4096x64_S4096x64_S4096x128_d1 y rfl rfl
    (ix2 (n0 := 4096) (n1 := 64) ⟨(y 0).val, (y 0).isLt⟩ ⟨(y 1).val - 64, hlt⟩)
    (fun b hb => by match b with | ⟨0, _⟩ => rfl | ⟨1, _⟩ => exact absurd rfl hb)
    (by show (y 1).val - 64 + 64 = (y 1).val; omega)).trans ?_
  refine (transpose_apply (s := S64x4096) (t := S4096x64) [1, 0] _ transposes_S64x4096_p1_0_S4096x64
    (ix2 (n0 := 4096) (n1 := 64) ⟨(y 0).val, (y 0).isLt⟩ ⟨(y 1).val - 64, hlt⟩)
    (ix2 (n0 := 64) (n1 := 4096) ⟨(y 1).val - 64, hlt⟩ ⟨(y 0).val, (y 0).isLt⟩)
    (fun b => by match b with | ⟨0, _⟩ => rfl | ⟨1, _⟩ => rfl)).trans ?_
  rw [shapeCast_self]

/-- What the body stores is a pairing block, whatever the machine put past the array's end. -/
theorem pairBlk_of (u : Fin cfg0.N) (Y0 Y1 d0 : Vec F S64x4096 .f32) (h0 : Y0 = (rd0).fetched (0 : Fin 3) u d0)
    (h1 : u.val ≤ 119 → ∃ d1, Y1 = (rd0).fetched (1 : Fin 3) u d1) : PairBlk t u (k0_pay1 Y0 Y1) := by
  intro y j
  have hy0 : (y 0).val < 4096 := (y 0).isLt
  have hy1 : (y 1).val < 128 := (y 1).isLt
  constructor
  · intro hy hj0 hj1
    refine (pay_left Y0 Y1 y hy).trans ?_
    rw [h0]
    exact fetched0_0 n t f2 c u d0 _ j hj0 hj1
  · intro hlt hy hj0 hj1
    have hu : u.val ≤ 119 := by omega
    obtain ⟨d1, e1⟩ := h1 hu
    refine (pay_right Y0 Y1 y hy (by omega)).trans ?_
    rw [e1]
    exact fetched0_1 n t f2 c u hu d1 _ j hlt (by show (j 0).val = (y 1).val - 64; omega) hj1

theorem hbody0 [∀ e, Nonempty (Elt F e)] : (rd0).BodyObligation defs₀ 𝒱₀ (none : HIx 1) Set.univ := by
  intro u Y hY
  obtain ⟨d0, e0⟩ := ((rd0).finds_of_fetch (fetch0_0 u) (Y 0)).mp (hY 0)
  have e1 : u.val ≤ 119 → ∃ d1, Y 1 = (rd0).fetched (1 : Fin 3) u d1 := fun hu =>
    ((rd0).finds_of_fetch (w := (1 : Fin 3)) (fetch0_1 u hu) (Y 1)).mp (hY 1)
  rw [bigSep_W0, bigSep_W0, show (rd0).Φ u.succ = (rd0).Φ u.castSucc from rfl,
    show (rd0).owesAt (none : HIx 1) u.succ = (rd0).owesAt (none : HIx 1) u.castSucc from rfl]
  iintro ⟨HΦ, HO, H0, H1, H2⟩
  iapply (sound_pair (F := F) c Set.univ (grid0.coords u) (st0_0 u) (hstage0_0 ((cfg0.slots u 0).cast nbuf0_0))
    (st0_1 u) (hstage0_1 ((cfg0.slots u 1).cast nbuf0_1)) (st0_2 u) (hstage0_2 ((cfg0.slots u 2).cast nbuf0_2)) (Y 0) (Y 1) (Y 2) _)
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]
  · iexists (Y 0); isplitr; · ipureintro; exact rfl
    iexact H0
  isplitl [H1]
  · iexists (Y 1); isplitr; · ipureintro; exact rfl
    iexact H1
  · iexists k0_pay1 (Y 0) (Y 1); isplitr
    · ipureintro
      exact pairBlk_of n t f2 c u (Y 0) (Y 1) d0 e0 e1
    iexact H2

/-! ## The region's protocol: debts, arrays, the final contents -/

omit [FloatOps F] in
/-- The TensorCore owes nothing at a kernel's own index. -/
theorem Otc_none0 (d : Dev nD) (m : ℕ) (g : GSem nD τ sig) : (K (F := F)).Otc d m g none = 0 := by
  by_contra h
  have := SparseCore.Cfg.lev_of_Otc_pos (K := K (F := F)) (Nat.pos_of_ne_zero h)
  rw [SparseCore.Cfg.lev_none] at this; omega

theorem owesAt_intro0 (u : Fin (cfg0.N + 1)) : tcOwes (F := F) c n ⊢ (rd0).owesAt (none : HIx 1) u := by
  unfold tcOwes
  iintro ⟨%W, %hW, HO⟩
  iexists W; isplitr
  · ipureintro; exact fun p hp => Or.inl (hW p (Finset.mem_coe.mp hp))
  iexact HO

theorem owesAt_elim0 (u : Fin (cfg0.N + 1)) : (rd0).owesAt (none : HIx 1) u ⊢ tcOwes (F := F) c n := by
  unfold tcOwes
  iintro ⟨%W, %hW, HO⟩
  iexists W; isplitr
  · ipureintro
    intro p hp
    rcases hW (Finset.mem_coe.mpr hp) with h | ⟨w, s, rfl⟩
    · exact h
    · show (K (F := F)).lev _ none ≤ 8 * n
      rw [SparseCore.Cfg.lev_none]; omega
  iexact HO

/-- Whatever the paired table holds after every write-back pairs the transposed table. -/
theorem arr0_final [∀ e, Nonempty (Elt F e)] (F2 : Vec F S512000x128 .f32) (h : (rd0).ArrAt (2 : Fin 3) cfg0.N F2) :
    PairOK t F2 := by
  intro i j
  have hi0 : (i 0).val < 512000 := (i 0).isLt
  let u : Fin cfg0.N := ⟨(i 0).val / 4096, by show (i 0).val / 4096 < 125; omega⟩
  let y : S4096x128.Idx := ix2 ⟨(i 0).val % 4096, Nat.mod_lt _ (by decide)⟩ (i 1)
  have hi : i = (win0_2.rect u).emb y := by
    funext a
    apply Fin.ext
    obtain ⟨i0, i1⟩ := idx0_2 u
    match a with
    | ⟨0, _⟩ => show (i 0).val = win0_2.index u 0 * 4096 + 1 * ((i 0).val % 4096); rw [i0]; show (i 0).val = (i 0).val / 4096 * 4096 + 1 * ((i 0).val % 4096); omega
    | ⟨1, _⟩ => show (i 1).val = win0_2.index u 1 * 128 + 1 * (i 1).val; rw [i1]; omega
  have key := arrAt_forall_of_leaves (rd0) (2 : Fin 3)
    (fun i v => ∀ j : S64x1000000.Idx,
      ((i 1).val < 64 → (j 0).val = (i 1).val → (j 1).val = (i 0).val → v = t j)
      ∧ ((i 0).val < 488000 → 64 ≤ (i 1).val → (j 0).val + 64 = (i 1).val → (j 1).val = 512000 + (i 0).val → v = t j))
    (fun u' _ X hX y' => by
      obtain ⟨Y, -, hXY⟩ := hX
      have hP : PairBlk t u' X := hXY
      obtain ⟨i0, i1⟩ := idx0_2 u'
      have e0 : (((win0_2.rect u').emb y') 0).val = 4096 * u'.val + (y' 0).val := by
        show win0_2.index u' 0 * 4096 + 1 * (y' 0).val = _; rw [i0]; omega
      have e1 : (((win0_2.rect u').emb y') 1).val = (y' 1).val := by
        show win0_2.index u' 1 * 128 + 1 * (y' 1).val = _; rw [i1]; omega
      intro j'
      show ((((win0_2.rect u').emb y') 1).val < 64 → (j' 0).val = (((win0_2.rect u').emb y') 1).val → (j' 1).val = (((win0_2.rect u').emb y') 0).val → X y' = t j')
        ∧ ((((win0_2.rect u').emb y') 0).val < 488000 → 64 ≤ (((win0_2.rect u').emb y') 1).val → (j' 0).val + 64 = (((win0_2.rect u').emb y') 1).val
            → (j' 1).val = 512000 + (((win0_2.rect u').emb y') 0).val → X y' = t j')
      rw [e0, e1]
      refine ⟨fun a b c => (hP y' j').1 a b c, fun a b c d => (hP y' j').2 a b c (by omega)⟩)
    cfg0.N F2 h u i u.isLt (flush0_2 u) (hi ▸ (win0_2.blk u).view.emb_mem_set y)
  exact key j

/-! ## The region -/

theorem arrays0_eq (Fa : (w : Fin cfg0.W) → Buf (Elt F) ((cfg0.win w).arr.view.loc (c.tc : Thread nD τ))) :
    ((rd0).arrays Fa : sProp 𝕄) = iprop((aLoc c main_v1 ↦{fullShare.left} Fa 0) ∗ (aLoc c main_v1 ↦{fullShare.right} Fa 1)
      ∗ (aLoc c main_v2 ↦{fullShare} Fa 2)) := by
  unfold RDat.arrays
  rw [bigSep_W0, (arr_whole0 0).set_eq_univ, (arr_whole0 2).set_eq_univ]
  rfl

/-- Region 0 as the library's region record, over the family at any entry record whose first half is this region's. -/
abbrev R0 [∀ e, Nonempty (Elt F e)] (lv : GSem nD τ sig → HIx 1 → ℕ) (hlv : (K (F := F)).Refines lv) (e : Ent F) :
    Pipeline.RDat.RegionSeg (pcfgs (F := F)) adm (rdats e) (none : HIx 1) defs₀ 𝒱₀ (K (F := F)).L lv (0 : Fin 2) where
  win := winFacts₀0
  block_pos := block_pos0
  stage_whole := stage_whole0
  K := PEmpty
  osem k := k.elim
  ho := Pipeline.OwnSemFacts.none _
  hbody c := hbody0 e.n0 e.t e.f2 c
  hwaits c := Pipeline.RDat.cellsWaits_intro (Pipeline.pin (pcfgs (F := F)) adm) (rdats e) (none : HIx 1) (0 : Fin 2) c
    (fun w s u => SparseCore.Cfg.mayWait_none (K := K (F := F)) _ (Otc_none0 c e.n0) lv hlv)
  pre c := pairPre c e.n0 e.t e.f2
  post c := pairPost c e.n0 e.t
  X _ := iprop(emp)
  Y _ := iprop(emp)
  Z _ := iprop(emp)
  hentry c := by
    show iprop(pairPre c e.n0 e.t e.f2 ∗ Pipeline.ownSems0 (fun k : PEmpty => k.elim) c ∗ levAts (K (F := F)).L lv)
      ⊢ |={Set.univ}=> iprop((rdat0 e.n0 e.t e.f2 c).arrays (rdat0 e.n0 e.t e.f2 c).A
        ∗ Pipeline.prefHeld (pcfgs (F := F) 0).pre c (fun _ => fullShare) (adm (F := F) 0).1
        ∗ (rdat0 e.n0 e.t e.f2 c).owesAt (none : HIx 1) 0 ∗ emp ∗ emp)
    rw [arrays0_eq]
    unfold pairPre
    iintro ⟨⟨H1, H2, HO⟩, -, -⟩
    ihave H1' := (pointsTo_share (PosShare.mem_left_op_right fullShare)).1 $$ H1
    icases H1' with ⟨H1a, H1b⟩
    imodintro
    isplitl [H1a H1b H2]
    · isplitl [H1a]; · iexact H1a
      isplitl [H1b]; · iexact H1b
      iexact H2
    isplitr
    · rw [show (Pipeline.prefHeld (pcfgs (F := F) 0).pre c (fun _ => fullShare) (adm (F := F) 0).1 : sProp 𝕄) = BI.emp from
        bigSep_univ_eq_bigSepL ([] : List (Fin 0)) (by decide) (by decide) _]
      iempintro
    isplitl [HO]
    · iapply (owesAt_intro0 e.n0 e.t e.f2 c 0); iexact HO
    isplitr <;> iempintro
  hin c := by
    show iprop(emp ∗ Pipeline.prefHeld (pcfgs (F := F) 0).pre c (fun _ => fullShare) (adm (F := F) 0).1 ∗ Pipeline.scopedRest spec0 c)
      ⊢ (Pipeline.scopedRest spec0 c : sProp 𝕄)
    iintro ⟨-, -, H⟩; iexact H
  hout c := by
    rw [Pipeline.ownSems0_none]
    show (Pipeline.scopedRest spec0 c : sProp 𝕄) ⊢ iprop(emp ∗ emp ∗ Pipeline.scopedRest spec0 c)
    iintro H
    isplitr; · iempintro
    isplitr; · iempintro
    iexact H
  hexit c := by
    show iprop((rdat0 e.n0 e.t e.f2 c).arraysAt cfg0.N
        ∗ (rdat0 e.n0 e.t e.f2 c).owesAt (none : HIx 1) (Fin.last cfg0.N) ∗ emp ∗ emp)
      ⊢ |={Set.univ}=> pairPost c e.n0 e.t
    unfold RDat.arraysAt
    rw [bigSep_W0, (arr_whole0 0).set_eq_univ, (arr_whole0 2).set_eq_univ]
    iintro ⟨⟨⟨%F0, %h0, H0⟩, ⟨%F1, %h1, H1⟩, ⟨%F2, %h2, H2⟩⟩, HO, -, -⟩
    have h0 : F0 = e.t := (congrFun (Pipeline.RDat.ArrAt_in (rdat0 e.n0 e.t e.f2 c) (0 : Fin cfg0.W) rfl cfg0.N) F0).mp h0
    have h1 : F1 = e.t := (congrFun (Pipeline.RDat.ArrAt_in (rdat0 e.n0 e.t e.f2 c) (1 : Fin cfg0.W) rfl cfg0.N) F1).mp h1
    have h2' := arr0_final e.n0 e.t e.f2 c F2 h2
    subst h0 h1
    imodintro
    unfold pairPost
    isplitl [H0 H1]
    · iapply (pointsTo_share (PosShare.mem_left_op_right fullShare)).2
      isplitl [H0]; · iexact H0
      iexact H1
    isplitl [H2]
    · iexists F2; isplitr; · ipureintro; exact h2'
      iexact H2
    iapply (owesAt_elim0 e.n0 e.t e.f2 c (Fin.last cfg0.N)); iexact HO

/-- Region 0 (`_pair_body`, 125 points) on the TensorCore of `d` before SparseCore call `n`. -/
theorem region0 [∀ e, Nonempty (Elt F e)] (d : Dev nD) (n : ℕ) (lv : GSem nD τ sig → HIx 1 → ℕ) (hlv : (K (F := F)).Refines lv)
    (t : Vec F S64x1000000 .f32) (f2 : Vec F S512000x128 .f32) :
    iprop(boundary (T d) ∗ pairPre (F := F) d n t f2 ∗ levAts (K (F := F)).L lv
        ∗ Pipeline.cellsGhost (Pipeline.pin (pcfgs (F := F)) adm) (EP (F := F)) (0 : Fin 2) d
        ∗ Pipeline.toksInit (Pipeline.pin (pcfgs (F := F)) adm) (EP (F := F)) (0 : Fin 2) d)
      ⊢ wp frame (wpE ((K (F := F)).defs D) 𝒱 (T d) none) Set.univ
          (Prog.lift (.customCall (SparseCore.inner (Pipeline.entry (0 : Fin 2))) ()))
          (fun _ => iprop(boundary (T d) ∗ pairPost (F := F) d n t)) := by
  let e : Ent F := ⟨n, t, f2, 0, fun _ => Classical.arbitrary _, fun _ => Classical.arbitrary _, fun _ => Classical.arbitrary _,
    fun _ => Classical.arbitrary _, fun _ => Classical.arbitrary _, fun _ => Classical.arbitrary _, fun _ => Classical.arbitrary _,
    fun _ => Classical.arbitrary _⟩
  have hR := Pipeline.RDat.RegionSeg.wp (pcfgs (F := F)) adm (rdats e) (none : HIx 1) cellOf_inj (EP (F := F)) defs₀ 𝒱₀ (K (F := F)).L lv
    (R0 lv hlv e) d none (fun u hu => (Option.not_mem_none u hu).elim) (fun _ => Prog.ret PUnit.unit) (fun _ => iprop(boundary (T d) ∗ pairPost (F := F) d n t))
  refine BIBase.Entails.trans ?_ ((K (F := F)).wp_liftProg D 𝒱 (T d) Set.univ none (.op (.customCall (Pipeline.entry (0 : Fin 2)) ()) (fun _ => Prog.ret PUnit.unit)) _)
  refine BIBase.Entails.trans ?_ hR
  iintro ⟨Hb, Hpre, Hlev, Hg, Ht⟩
  isplitr [Hb Hpre Hlev Hg Ht]
  · iintro ⟨Hb, Hpost⟩
    iapply (le_wp_ret (Fr := Idealize.ShloMosaic.frame) (wpE := wpE (Pipeline.defs (pcfgs (F := F)) defs₀) 𝒱₀.lift (d.tc : Thread nD τ) none) (E := Set.univ) PUnit.unit _)
    isplitl [Hb]; · iexact Hb
    iexact Hpost
  isplitl [Hb]; · iexact Hb
  isplitl [Hpre]; · iexact Hpre
  isplitl [Hlev]; · iexact Hlev
  isplitl [Hg]; · iexact Hg
  iexact Ht

end Cert.Kernel.Reg

end
-- ==== Proof.BRegFinishBody.lean ====
/-
  The finishing body's triple on any eight staging memrefs: seven whole loads, one whole store of the stored term.
-/
import proofs.«205025_g42520176230720_cont_8to1_b_1509_29_alg».proof.Proof.BRegLib

noncomputable section

namespace Cert.Kernel.Reg

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe

/-! ## The finishing body, on any eight staging memrefs -/

set_option maxRecDepth 65536 in
/-- The finishing body loads its seven inputs whole and stores, whole, the term `FinBlk` of them; the inputs' buffers
    are left as they were. -/
theorem sound_finish (c : Dev nD) (E : Set ℕ) (i : grid2.Coords)
    (M1 : Memref sig .tc .vmem S8x512x128 .f32) (h1 : M1.IsWhole) (M2 : Memref sig .tc .vmem S8x512 .i32) (h2 : M2.IsWhole)
    (M3 : Memref sig .tc .vmem S8x512 .i32) (h3 : M3.IsWhole) (M4 : Memref sig .tc .vmem S512x64 .f32) (h4 : M4.IsWhole)
    (M5 : Memref sig .tc .vmem S3x64 .f32) (h5 : M5.IsWhole) (M6 : Memref sig .tc .vmem S64 .f32) (h6 : M6.IsWhole)
    (M7 : Memref sig .tc .vmem S64 .f32) (h7 : M7.IsWhole) (M8 : Memref sig .tc .vmem S8x512x64 .f32) (h8 : M8.IsWhole)
    (X1 : Vec F S8x512x128 .f32) (X2 X3 : Vec F S8x512 .i32) (X4 : Vec F S512x64 .f32) (X5 : Vec F S3x64 .f32)
    (X6 X7 : Vec F S64 .f32) (X8 : Vec F S8x512x64 .f32) (K : PUnit → sProp 𝕄) :
    iprop((owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare X5 ∗ owns (c : Thread nD τ) M6 fullShare X6
            ∗ owns (c : Thread nD τ) M7 fullShare X7 ∗ owns (c : Thread nD τ) M8 fullShare X8)
          ∗ (iprop(owns (c : Thread nD τ) M1 fullShare X1 ∗ owns (c : Thread nD τ) M2 fullShare X2 ∗ owns (c : Thread nD τ) M3 fullShare X3
                  ∗ owns (c : Thread nD τ) M4 fullShare X4 ∗ owns (c : Thread nD τ) M5 fullShare X5 ∗ owns (c : Thread nD τ) M6 fullShare X6
                  ∗ owns (c : Thread nD τ) M7 fullShare X7 ∗ owns (c : Thread nD τ) M8 fullShare (FinBlk X1 X2 X3 X4 X5 X6 X7)) -∗ K ⟨⟩))
      ⊢ wp frame (wpE (defs₀ (F := F)) 𝒱₀ c none) E (cc2__finish_body i M1 h1 M2 h2 M3 h3 M4 h4 M5 h5 M6 h6 M7 h7 M8 h8) K := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  rw [cc2__finish_body_eq_skeleton]; unfold cc2__finish_body_skel
  rw [k2_part1_eq_skeleton]; unfold k2_part1_skel
  simp only [Prog.lift, Prog.bind_op, Prog.bind_ret]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  iapply (wp_load_rect 𝒱₀ (c : Thread nD τ) none E (m := M1) (r := Rect.unit (s := S8x512x128) ![0, 0, 0] S8x512x128.size inb_S8x512x128_S8x512x128_0_0_0) (View.set_slice_subset _ _)) $$ H1
  iintro H1
  iapply (wp_load_rect 𝒱₀ (c : Thread nD τ) none E (m := M2) (r := Rect.unit (s := S8x512) ![0, 0] S8x512.size inb_S8x512_S8x512_0_0) (View.set_slice_subset _ _)) $$ H2
  iintro H2
  iapply (wp_load_rect 𝒱₀ (c : Thread nD τ) none E (m := M5) (r := Rect.unit (s := S3x64) ![0, 0] S3x64.size inb_S3x64_S3x64_0_0) (View.set_slice_subset _ _)) $$ H5
  iintro H5
  iapply (wp_load_rect 𝒱₀ (c : Thread nD τ) none E (m := M3) (r := Rect.unit (s := S8x512) ![0, 0] S8x512.size inb_S8x512_S8x512_0_0) (View.set_slice_subset _ _)) $$ H3
  iintro H3
  iapply (wp_load_rect 𝒱₀ (c : Thread nD τ) none E (m := M3) (r := Rect.unit (s := S8x512) ![0, 0] S8x512.size inb_S8x512_S8x512_0_0) (View.set_slice_subset _ _)) $$ H3
  iintro H3
  iapply (wp_load_rect 𝒱₀ (c : Thread nD τ) none E (m := M4) (r := Rect.unit (s := S512x64) ![0, 0] S512x64.size inb_S512x64_S512x64_0_0) (View.set_slice_subset _ _)) $$ H4
  iintro H4
  iapply (wp_load_rect 𝒱₀ (c : Thread nD τ) none E (m := M6) (r := Rect.unit (s := S64) ![0] S64.size inb_S64_S64_0) (View.set_slice_subset _ _)) $$ H6
  iintro H6
  iapply (wp_load_rect 𝒱₀ (c : Thread nD τ) none E (m := M7) (r := Rect.unit (s := S64) ![0] S64.size inb_S64_S64_0) (View.set_slice_subset _ _)) $$ H7
  iintro H7
  iapply (wp_load_rect 𝒱₀ (c : Thread nD τ) none E (m := M8) (r := Rect.unit (s := S8x512x64) ![0, 0, 0] S8x512x64.size inb_S8x512x64_S8x512x64_0_0_0) (View.set_slice_subset _ _)) $$ H8
  iintro H8
  iapply (wp_store 𝒱₀ (c : Thread nD τ) none E (m := M8) (r := Rect.unit (s := S8x512x64) ![0, 0, 0] S8x512x64.size inb_S8x512x64_S8x512x64_0_0_0) (Mk := Finset.univ) (View.set_slice_subset _ _)) $$ H8
  iintro H8
  iapply (le_wp_ret (Fr := Idealize.ShloMosaic.frame) (wpE := wpE (defs₀ (F := F)) 𝒱₀ c none) (E := E) PUnit.unit K)
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  · iexists _; isplitr
    swap; · iexact H8
    ipureintro
    rw [read_write_access_unit_zero M8 _ hz3, read_access_unit_zero M1 (c : Thread nD τ) _ hz3, read_access_unit_zero M2 (c : Thread nD τ) _ hz2,
      read_access_unit_zero M3 (c : Thread nD τ) _ hz2, read_access_unit_zero M4 (c : Thread nD τ) _ hz2, read_access_unit_zero M5 (c : Thread nD τ) _ hz2,
      read_access_unit_zero M6 (c : Thread nD τ) _ hz1, read_access_unit_zero M7 (c : Thread nD τ) _ hz1, e1, e2, e3, e4, e5, e6, e7]
    rfl

end Cert.Kernel.Reg

end
-- ==== Proof.BRegFinish.lean ====
/-
  Region 2, the finishing pass, run: what the body finds in each input window's buffer is that window's block of the
  array (fetched there or not), what it stores is the stored term of those blocks, and after the 128 write-backs the
  result array is the one function `Finish` of the region's inputs; the inputs are left as they were.
-/
import proofs.«205025_g42520176230720_cont_8to1_b_1509_29_alg».proof.Proof.BRegData
import proofs.«205025_g42520176230720_cont_8to1_b_1509_29_alg».proof.Proof.BRegFinishBody
import Idealize.ShloMosaic.Lib.Pipeline.FrameBody

noncomputable section

namespace Cert.Kernel.Reg

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

open Idealize.ShloMosaic.TcCoe
open Idealize.ShloMosaic.Pipeline (RDat)

variable (n : ℕ) (x : Vec F S1024x512x128 .f32) (a0 a1 : Vec F S1024x512 .i32) (a3 : Vec F S512x64 .f32) (a4 : Vec F S3x64 .f32)
    (a5 a6 : Vec F S64 .f32) (f5 : Vec F S1024x512x64 .f32) (c : Dev nD)

local notation "rd2" => rdat2 (F := F) n x a0 a1 a3 a4 a5 a6 f5 c

theorem idx2_0 : ∀ t : Fin grid2.N, win2_0.index t 0 = t.val ∧ win2_0.index t 1 = 0 ∧ win2_0.index t 2 = 0 := by decide +kernel
theorem idx2_1 : ∀ t : Fin grid2.N, win2_1.index t 0 = t.val ∧ win2_1.index t 1 = 0 := by decide +kernel
theorem idx2_2 : ∀ t : Fin grid2.N, win2_2.index t 0 = t.val ∧ win2_2.index t 1 = 0 := by decide +kernel
theorem idx2_3 : ∀ t : Fin grid2.N, win2_3.index t 0 = 0 ∧ win2_3.index t 1 = 0 := by decide +kernel
theorem idx2_4 : ∀ t : Fin grid2.N, win2_4.index t 0 = 0 ∧ win2_4.index t 1 = 0 := by decide +kernel
theorem idx2_5 : ∀ t : Fin grid2.N, win2_5.index t 0 = 0 := by decide +kernel
theorem idx2_6 : ∀ t : Fin grid2.N, win2_6.index t 0 = 0 := by decide +kernel
theorem idx2_7 : ∀ t : Fin grid2.N, win2_7.index t 0 = t.val ∧ win2_7.index t 1 = 0 ∧ win2_7.index t 2 = 0 := by decide +kernel

theorem emb2_0 (u : Fin cfg2.N) (y : S8x512x128.Idx) (hb : 8 * u.val + (y 0).val < 1024) :
    (win2_0.rect u).emb y = ix3 ⟨8 * u.val + (y 0).val, hb⟩ (y 1) (y 2) := by
  funext a
  apply Fin.ext
  obtain ⟨h0, h1, h2⟩ := idx2_0 u
  match a with
  | ⟨0, _⟩ => show win2_0.index u 0 * 8 + 1 * (y 0).val = 8 * u.val + (y 0).val; rw [h0]; omega
  | ⟨1, _⟩ => show win2_0.index u 1 * 512 + 1 * (y 1).val = (y 1).val; rw [h1]; omega
  | ⟨2, _⟩ => show win2_0.index u 2 * 128 + 1 * (y 2).val = (y 2).val; rw [h2]; omega

theorem emb2_1 (u : Fin cfg2.N) (y : S8x512.Idx) (hb : 8 * u.val + (y 0).val < 1024) :
    (win2_1.rect u).emb y = ix2 ⟨8 * u.val + (y 0).val, hb⟩ (y 1) := by
  funext a
  apply Fin.ext
  obtain ⟨h0, h1⟩ := idx2_1 u
  match a with
  | ⟨0, _⟩ => show win2_1.index u 0 * 8 + 1 * (y 0).val = 8 * u.val + (y 0).val; rw [h0]; omega
  | ⟨1, _⟩ => show win2_1.index u 1 * 512 + 1 * (y 1).val = (y 1).val; rw [h1]; omega

theorem emb2_2 (u : Fin cfg2.N) (y : S8x512.Idx) (hb : 8 * u.val + (y 0).val < 1024) :
    (win2_2.rect u).emb y = ix2 ⟨8 * u.val + (y 0).val, hb⟩ (y 1) := by
  funext a
  apply Fin.ext
  obtain ⟨h0, h1⟩ := idx2_2 u
  match a with
  | ⟨0, _⟩ => show win2_2.index u 0 * 8 + 1 * (y 0).val = 8 * u.val + (y 0).val; rw [h0]; omega
  | ⟨1, _⟩ => show win2_2.index u 1 * 512 + 1 * (y 1).val = (y 1).val; rw [h1]; omega

theorem emb2_3 (u : Fin cfg2.N) (y : S512x64.Idx) : (win2_3.rect u).emb y = y := by
  funext a
  apply Fin.ext
  obtain ⟨h0, h1⟩ := idx2_3 u
  match a with
  | ⟨0, _⟩ => show win2_3.index u 0 * 512 + 1 * (y 0).val = (y 0).val; rw [h0]; omega
  | ⟨1, _⟩ => show win2_3.index u 1 * 64 + 1 * (y 1).val = (y 1).val; rw [h1]; omega

theorem emb2_4 (u : Fin cfg2.N) (y : S3x64.Idx) : (win2_4.rect u).emb y = y := by
  funext a
  apply Fin.ext
  obtain ⟨h0, h1⟩ := idx2_4 u
  match a with
  | ⟨0, _⟩ => show win2_4.index u 0 * 3 + 1 * (y 0).val = (y 0).val; rw [h0]; omega
  | ⟨1, _⟩ => show win2_4.index u 1 * 64 + 1 * (y 1).val = (y 1).val; rw [h1]; omega

theorem emb2_5 (u : Fin cfg2.N) (y : S64.Idx) : (win2_5.rect u).emb y = y := by
  funext a
  apply Fin.ext
  have h0 := idx2_5 u
  match a with
  | ⟨0, _⟩ => show win2_5.index u 0 * 64 + 1 * (y 0).val = (y 0).val; rw [h0]; omega

theorem emb2_6 (u : Fin cfg2.N) (y : S64.Idx) : (win2_6.rect u).emb y = y := by
  funext a
  apply Fin.ext
  have h0 := idx2_6 u
  match a with
  | ⟨0, _⟩ => show win2_6.index u 0 * 64 + 1 * (y 0).val = (y 0).val; rw [h0]; omega

theorem emb2_7 (u : Fin cfg2.N) (y : S8x512x64.Idx) (hb : 8 * u.val + (y 0).val < 1024) :
    (win2_7.rect u).emb y = ix3 ⟨8 * u.val + (y 0).val, hb⟩ (y 1) (y 2) := by
  funext a
  apply Fin.ext
  obtain ⟨h0, h1, h2⟩ := idx2_7 u
  match a with
  | ⟨0, _⟩ => show win2_7.index u 0 * 8 + 1 * (y 0).val = 8 * u.val + (y 0).val; rw [h0]; omega
  | ⟨1, _⟩ => show win2_7.index u 1 * 512 + 1 * (y 1).val = (y 1).val; rw [h1]; omega
  | ⟨2, _⟩ => show win2_7.index u 2 * 64 + 1 * (y 2).val = (y 2).val; rw [h2]; omega

/-- What the body finds in each input window's buffer, whatever it is handed: the window's block. -/
theorem fetched2_0 (u : Fin cfg2.N) (d) : (rd2).fetched (0 : Fin 8) u d
    = fun y : S8x512x128.Idx => x ((win2_0.rect u).emb y) := rfl
theorem fetched2_1 (u : Fin cfg2.N) (d) : (rd2).fetched (1 : Fin 8) u d
    = fun y : S8x512.Idx => a0 ((win2_1.rect u).emb y) := rfl
theorem fetched2_2 (u : Fin cfg2.N) (d) : (rd2).fetched (2 : Fin 8) u d
    = fun y : S8x512.Idx => a1 ((win2_2.rect u).emb y) := rfl
theorem fetched2_3 (u : Fin cfg2.N) (d) : (rd2).fetched (3 : Fin 8) u d
    = fun y : S512x64.Idx => a3 ((win2_3.rect u).emb y) := rfl
theorem fetched2_4 (u : Fin cfg2.N) (d) : (rd2).fetched (4 : Fin 8) u d
    = fun y : S3x64.Idx => a4 ((win2_4.rect u).emb y) := rfl
theorem fetched2_5 (u : Fin cfg2.N) (d) : (rd2).fetched (5 : Fin 8) u d
    = fun y : S64.Idx => a5 ((win2_5.rect u).emb y) := rfl
theorem fetched2_6 (u : Fin cfg2.N) (d) : (rd2).fetched (6 : Fin 8) u d
    = fun y : S64.Idx => a6 ((win2_6.rect u).emb y) := rfl

/-- An input window's buffer holds, wherever the body is handed it, what a fetch there would put in it. -/
theorem finds2 [∀ e, Nonempty (Elt F e)] (w : Fin 8) (hw : (cfg2.win w).isOut = false)
    (hclip : ∀ t t' : Fin cfg2.N, (cfg2.win w).index t = (cfg2.win w).index t' →
      (cfg2.win w).clip (cfg2.grid.coords t) = (cfg2.win w).clip (cfg2.grid.coords t'))
    (hkeep : ∀ t Y X, (rd2).after w t Y X → X = Y) (t : Fin cfg2.N) (Y) (h : (rd2).Finds w t Y) :
    ∃ d, Y = (rd2).fetched w t d :=
  Pipeline.RDat.finds_in_eq_fetched (rd2) w hw hclip hkeep t Y h

/-- The stored term of the blocks the fetches put in the buffers is the closed form. -/
theorem finOut_eq (u : Fin cfg2.N) :
    FinBlk (fun y : S8x512x128.Idx => x ((win2_0.rect u).emb y)) (fun y : S8x512.Idx => a0 ((win2_1.rect u).emb y))
      (fun y : S8x512.Idx => a1 ((win2_2.rect u).emb y)) (fun y : S512x64.Idx => a3 ((win2_3.rect u).emb y))
      (fun y : S3x64.Idx => a4 ((win2_4.rect u).emb y)) (fun y : S64.Idx => a5 ((win2_5.rect u).emb y))
      (fun y : S64.Idx => a6 ((win2_6.rect u).emb y))
    = finOut x a0 a1 a3 a4 a5 a6 u := by
  have hu : u.val < 128 := u.isLt
  have hb (j : Fin 8) : 8 * u.val + j.val < 1024 := by omega
  unfold finOut
  congr 1
  · funext y; exact congrArg x (emb2_0 u y (hb (y 0)))
  · funext y; exact congrArg a0 (emb2_1 u y (hb (y 0)))
  · funext y; exact congrArg a1 (emb2_2 u y (hb (y 0)))
  · funext y; exact congrArg a3 (emb2_3 u y)
  · funext y; exact congrArg a4 (emb2_4 u y)
  · funext y; exact congrArg a5 (emb2_5 u y)
  · funext y; exact congrArg a6 (emb2_6 u y)

theorem hbody2 [∀ e, Nonempty (Elt F e)] : (rd2).BodyObligation defs₀ 𝒱₀ (none : HIx 1) Set.univ := by
  intro t Y hY
  obtain ⟨d0, e0⟩ := finds2 n x a0 a1 a3 a4 a5 a6 f5 c (0 : Fin 8) rfl (fun _ _ _ => rfl) (fun _ _ _ h => h) t (Y 0) (hY 0)
  obtain ⟨d1, e1⟩ := finds2 n x a0 a1 a3 a4 a5 a6 f5 c (1 : Fin 8) rfl (fun _ _ _ => rfl) (fun _ _ _ h => h) t (Y 1) (hY 1)
  obtain ⟨d2, e2⟩ := finds2 n x a0 a1 a3 a4 a5 a6 f5 c (2 : Fin 8) rfl (fun _ _ _ => rfl) (fun _ _ _ h => h) t (Y 2) (hY 2)
  obtain ⟨d3, e3⟩ := finds2 n x a0 a1 a3 a4 a5 a6 f5 c (3 : Fin 8) rfl (fun _ _ _ => rfl) (fun _ _ _ h => h) t (Y 3) (hY 3)
  obtain ⟨d4, e4⟩ := finds2 n x a0 a1 a3 a4 a5 a6 f5 c (4 : Fin 8) rfl (fun _ _ _ => rfl) (fun _ _ _ h => h) t (Y 4) (hY 4)
  obtain ⟨d5, e5⟩ := finds2 n x a0 a1 a3 a4 a5 a6 f5 c (5 : Fin 8) rfl (fun _ _ _ => rfl) (fun _ _ _ h => h) t (Y 5) (hY 5)
  obtain ⟨d6, e6⟩ := finds2 n x a0 a1 a3 a4 a5 a6 f5 c (6 : Fin 8) rfl (fun _ _ _ => rfl) (fun _ _ _ h => h) t (Y 6) (hY 6)
  rw [bigSep_W2, bigSep_W2, show (rd2).Φ t.succ = (rd2).Φ t.castSucc from rfl,
    show (rd2).owesAt (none : HIx 1) t.succ = (rd2).owesAt (none : HIx 1) t.castSucc from rfl]
  iintro ⟨HΦ, HO, H0, H1, H2, H3, H4, H5, H6, H7⟩
  iapply (sound_finish (F := F) c Set.univ (grid2.coords t) (st2_0 t) (hstage2_0 ((cfg2.slots t 0).cast nbuf2_0))
    (st2_1 t) (hstage2_1 ((cfg2.slots t 1).cast nbuf2_1)) (st2_2 t) (hstage2_2 ((cfg2.slots t 2).cast nbuf2_2))
    (st2_3 t) (hstage2_3 ((cfg2.slots t 3).cast nbuf2_3)) (st2_4 t) (hstage2_4 ((cfg2.slots t 4).cast nbuf2_4))
    (st2_5 t) (hstage2_5 ((cfg2.slots t 5).cast nbuf2_5)) (st2_6 t) (hstage2_6 ((cfg2.slots t 6).cast nbuf2_6))
    (st2_7 t) (hstage2_7 ((cfg2.slots t 7).cast nbuf2_7)) (Y 0) (Y 1) (Y 2) (Y 3) (Y 4) (Y 5) (Y 6) (Y 7) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [HO]; · iexact HO
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  · iexists FinBlk (Y 0) (Y 1) (Y 2) (Y 3) (Y 4) (Y 5) (Y 6); isplitr
    · ipureintro
      show FinBlk (Y 0) (Y 1) (Y 2) (Y 3) (Y 4) (Y 5) (Y 6) = finOut x a0 a1 a3 a4 a5 a6 t
      rw [e0, e1, e2, e3, e4, e5, e6, fetched2_0, fetched2_1, fetched2_2, fetched2_3, fetched2_4, fetched2_5, fetched2_6]
      exact finOut_eq x a0 a1 a3 a4 a5 a6 t
    iexact H7

/-! ## The region's protocol: debts, arrays, the final contents -/

omit [FloatOps F] in
/-- The TensorCore owes nothing at a kernel's own index. -/
theorem Otc_none (d : Dev nD) (m : ℕ) (g : GSem nD τ sig) : (K (F := F)).Otc d m g none = 0 := by
  by_contra h
  have := SparseCore.Cfg.lev_of_Otc_pos (K := K (F := F)) (Nat.pos_of_ne_zero h)
  rw [SparseCore.Cfg.lev_none] at this; omega

/-- The TensorCore's debts as the pipeline's first and last points hold them. -/
theorem owesAt_intro2 (t : Fin (cfg2.N + 1)) : tcOwes (F := F) c n ⊢ (rd2).owesAt (none : HIx 1) t := by
  unfold tcOwes
  iintro ⟨%W, %hW, HO⟩
  iexists W; isplitr
  · ipureintro; exact fun p hp => Or.inl (hW p (Finset.mem_coe.mp hp))
  iexact HO

theorem owesAt_elim2 (t : Fin (cfg2.N + 1)) : (rd2).owesAt (none : HIx 1) t ⊢ tcOwes (F := F) c n := by
  unfold tcOwes
  iintro ⟨%W, %hW, HO⟩
  iexists W; isplitr
  · ipureintro
    intro p hp
    rcases hW (Finset.mem_coe.mpr hp) with h | ⟨w, s, rfl⟩
    · exact h
    · show (K (F := F)).lev _ none ≤ 8 * n
      rw [SparseCore.Cfg.lev_none]; omega
  iexact HO

theorem Finish_at (u : Fin cfg2.N) (y : S8x512x64.Idx) (hb : 8 * u.val + (y 0).val < 1024) :
    Finish x a0 a1 a3 a4 a5 a6 (ix3 ⟨8 * u.val + (y 0).val, hb⟩ (y 1) (y 2)) = finOut x a0 a1 a3 a4 a5 a6 u y := by
  have hy : (y 0).val < 8 := (y 0).isLt
  have hcong : ∀ (A A' : Vec F S8x512x128 .f32) (B B' C C' : Vec F S8x512 .i32) (i i' : S8x512x64.Idx),
      A = A' → B = B' → C = C' → i = i' → FinBlk A B C a3 a4 a5 a6 i = FinBlk A' B' C' a3 a4 a5 a6 i' := by
    rintro _ _ _ _ _ _ _ _ rfl rfl rfl rfl; rfl
  unfold Finish finOut
  refine hcong _ _ _ _ _ _ _ _ ?_ ?_ ?_ ?_
  · funext j
    refine congrArg x ?_
    funext a
    match a with
    | ⟨0, _⟩ => exact Fin.ext (by show 8 * ((8 * u.val + (y 0).val) / 8) + (j 0).val = 8 * u.val + (j 0).val; omega)
    | ⟨1, _⟩ => rfl
    | ⟨2, _⟩ => rfl
  · funext j
    refine congrArg a0 ?_
    funext a
    match a with
    | ⟨0, _⟩ => exact Fin.ext (by show 8 * ((8 * u.val + (y 0).val) / 8) + (j 0).val = 8 * u.val + (j 0).val; omega)
    | ⟨1, _⟩ => rfl
  · funext j
    refine congrArg a1 ?_
    funext a
    match a with
    | ⟨0, _⟩ => exact Fin.ext (by show 8 * ((8 * u.val + (y 0).val) / 8) + (j 0).val = 8 * u.val + (j 0).val; omega)
    | ⟨1, _⟩ => rfl
  · funext a
    match a with
    | ⟨0, _⟩ => exact Fin.ext (by show (8 * u.val + (y 0).val) % 8 = (y 0).val; omega)
    | ⟨1, _⟩ => rfl
    | ⟨2, _⟩ => rfl

/-- Whatever the result array holds after every write-back is the one function of the inputs. -/
theorem arr2_final [∀ e, Nonempty (Elt F e)] (F7 : Vec F S1024x512x64 .f32) (h : (rd2).ArrAt (7 : Fin 8) cfg2.N F7) :
    F7 = Finish x a0 a1 a3 a4 a5 a6 := by
  funext i
  have hi0 : (i 0).val < 1024 := (i 0).isLt
  let t : Fin cfg2.N := ⟨(i 0).val / 8, by show (i 0).val / 8 < 128; omega⟩
  let y : S8x512x64.Idx := ix3 ⟨(i 0).val % 8, Nat.mod_lt _ (by decide)⟩ (i 1) (i 2)
  have hb : 8 * t.val + (y 0).val < 1024 := by show 8 * ((i 0).val / 8) + (i 0).val % 8 < 1024; omega
  have hi : i = (win2_7.rect t).emb y := by
    rw [emb2_7 t y hb]
    funext a
    match a with
    | ⟨0, _⟩ => exact Fin.ext (by show (i 0).val = 8 * ((i 0).val / 8) + (i 0).val % 8; omega)
    | ⟨1, _⟩ => rfl
    | ⟨2, _⟩ => rfl
  have key := arrAt_forall_of_leaves (rd2) (7 : Fin 8) (fun i v => v = Finish x a0 a1 a3 a4 a5 a6 i)
    (fun u _ X hX y' => by
      obtain ⟨Y, -, hXY⟩ := hX
      have hX' : X = finOut x a0 a1 a3 a4 a5 a6 u := hXY
      have hu : u.val < 128 := u.isLt
      have hy' : (y' 0).val < 8 := (y' 0).isLt
      show X y' = Finish x a0 a1 a3 a4 a5 a6 ((win2_7.rect u).emb y')
      rw [emb2_7 u y' (by omega), hX']
      exact (Finish_at x a0 a1 a3 a4 a5 a6 u y' (by omega)).symm)
    cfg2.N F7 h t i t.isLt (flush2_7 t) (hi ▸ (win2_7.blk t).view.emb_mem_set y)
  exact key

/-! ## The region -/

theorem arrays2_eq (Fa : (w : Fin cfg2.W) → Buf (Elt F) ((cfg2.win w).arr.view.loc (c.tc : Thread nD τ))) :
    ((rd2).arrays Fa : sProp 𝕄) = iprop((aLoc c main_v4 ↦{fullShare} Fa 0) ∗ (aLoc c main_arg0 ↦{fullShare} Fa 1)
      ∗ (aLoc c main_arg1 ↦{fullShare} Fa 2) ∗ (aLoc c main_arg3 ↦{fullShare} Fa 3) ∗ (aLoc c main_arg4 ↦{fullShare} Fa 4)
      ∗ (aLoc c main_arg5 ↦{fullShare} Fa 5) ∗ (aLoc c main_arg6 ↦{fullShare} Fa 6) ∗ (aLoc c main_v5 ↦{fullShare} Fa 7)) := by
  unfold RDat.arrays
  rw [bigSep_W2, (arr_whole2 0).set_eq_univ, (arr_whole2 1).set_eq_univ, (arr_whole2 2).set_eq_univ, (arr_whole2 3).set_eq_univ,
    (arr_whole2 4).set_eq_univ, (arr_whole2 5).set_eq_univ, (arr_whole2 6).set_eq_univ, (arr_whole2 7).set_eq_univ]
  rfl

/-- Region 2 as the library's region record, over the family at any entry record whose second half is this region's. -/
abbrev R2 [∀ e, Nonempty (Elt F e)] (lv : GSem nD τ sig → HIx 1 → ℕ) (hlv : (K (F := F)).Refines lv) (e : Ent F) :
    Pipeline.RDat.RegionSeg (pcfgs (F := F)) adm (rdats e) (none : HIx 1) defs₀ 𝒱₀ (K (F := F)).L lv (1 : Fin 2) where
  win := winFacts2.to₀
  block_pos := block_pos2
  stage_whole := stage_whole2
  K := PEmpty
  osem k := k.elim
  ho := Pipeline.OwnSemFacts.none _
  hbody c := hbody2 e.n2 e.x e.a0 e.a1 e.a3 e.a4 e.a5 e.a6 e.f5 c
  hwaits c := Pipeline.RDat.cellsWaits_intro (Pipeline.pin (pcfgs (F := F)) adm) (rdats e) (none : HIx 1) (1 : Fin 2) c
    (fun w s t => SparseCore.Cfg.mayWait_none (K := K (F := F)) _ (Otc_none c e.n2) lv hlv)
  pre c := finPre c e.n2 e.x e.a0 e.a1 e.a3 e.a4 e.a5 e.a6 e.f5
  post c := finPost c e.n2 e.x e.a0 e.a1 e.a3 e.a4 e.a5 e.a6
  X _ := iprop(emp)
  Y _ := iprop(emp)
  Z _ := iprop(emp)
  hentry c := by
    show iprop(finPre c e.n2 e.x e.a0 e.a1 e.a3 e.a4 e.a5 e.a6 e.f5 ∗ Pipeline.ownSems0 (fun k : PEmpty => k.elim) c ∗ levAts (K (F := F)).L lv)
      ⊢ |={Set.univ}=> iprop((rdat2 e.n2 e.x e.a0 e.a1 e.a3 e.a4 e.a5 e.a6 e.f5 c).arrays (rdat2 e.n2 e.x e.a0 e.a1 e.a3 e.a4 e.a5 e.a6 e.f5 c).A
        ∗ Pipeline.prefHeld (pcfgs (F := F) 1).pre c (fun _ => fullShare) (adm (F := F) 1).1
        ∗ (rdat2 e.n2 e.x e.a0 e.a1 e.a3 e.a4 e.a5 e.a6 e.f5 c).owesAt (none : HIx 1) 0 ∗ emp ∗ emp)
    rw [arrays2_eq]
    unfold finPre
    iintro ⟨⟨H0, H1, H2, H3, H4, H5, H6, H7, HO⟩, -, -⟩
    imodintro
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitr
    · rw [show (Pipeline.prefHeld (pcfgs (F := F) 1).pre c (fun _ => fullShare) (adm (F := F) 1).1 : sProp 𝕄) = BI.emp from
        bigSep_univ_eq_bigSepL ([] : List (Fin 0)) (by decide) (by decide) _]
      iempintro
    isplitl [HO]
    · iapply (owesAt_intro2 e.n2 e.x e.a0 e.a1 e.a3 e.a4 e.a5 e.a6 e.f5 c 0); iexact HO
    isplitr <;> iempintro
  hin c := by
    show iprop(emp ∗ Pipeline.prefHeld (pcfgs (F := F) 1).pre c (fun _ => fullShare) (adm (F := F) 1).1 ∗ Pipeline.scopedRest spec2 c)
      ⊢ (Pipeline.scopedRest spec2 c : sProp 𝕄)
    iintro ⟨-, -, H⟩; iexact H
  hout c := by
    rw [Pipeline.ownSems0_none]
    show (Pipeline.scopedRest spec2 c : sProp 𝕄) ⊢ iprop(emp ∗ emp ∗ Pipeline.scopedRest spec2 c)
    iintro H
    isplitr; · iempintro
    isplitr; · iempintro
    iexact H
  hexit c := by
    show iprop((rdat2 e.n2 e.x e.a0 e.a1 e.a3 e.a4 e.a5 e.a6 e.f5 c).arraysAt cfg2.N
        ∗ (rdat2 e.n2 e.x e.a0 e.a1 e.a3 e.a4 e.a5 e.a6 e.f5 c).owesAt (none : HIx 1) (Fin.last cfg2.N) ∗ emp ∗ emp)
      ⊢ |={Set.univ}=> finPost c e.n2 e.x e.a0 e.a1 e.a3 e.a4 e.a5 e.a6
    unfold RDat.arraysAt
    rw [bigSep_W2, (arr_whole2 0).set_eq_univ, (arr_whole2 1).set_eq_univ, (arr_whole2 2).set_eq_univ, (arr_whole2 3).set_eq_univ,
      (arr_whole2 4).set_eq_univ, (arr_whole2 5).set_eq_univ, (arr_whole2 6).set_eq_univ, (arr_whole2 7).set_eq_univ]
    iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩, ⟨%F7, %h7, H7⟩⟩, HO, -, -⟩
    have h0 : F0 = e.x := (congrFun (Pipeline.RDat.ArrAt_in (rdat2 e.n2 e.x e.a0 e.a1 e.a3 e.a4 e.a5 e.a6 e.f5 c) (0 : Fin cfg2.W) rfl cfg2.N) F0).mp h0
    have h1 : F1 = e.a0 := (congrFun (Pipeline.RDat.ArrAt_in (rdat2 e.n2 e.x e.a0 e.a1 e.a3 e.a4 e.a5 e.a6 e.f5 c) (1 : Fin cfg2.W) rfl cfg2.N) F1).mp h1
    have h2 : F2 = e.a1 := (congrFun (Pipeline.RDat.ArrAt_in (rdat2 e.n2 e.x e.a0 e.a1 e.a3 e.a4 e.a5 e.a6 e.f5 c) (2 : Fin cfg2.W) rfl cfg2.N) F2).mp h2
    have h3 : F3 = e.a3 := (congrFun (Pipeline.RDat.ArrAt_in (rdat2 e.n2 e.x e.a0 e.a1 e.a3 e.a4 e.a5 e.a6 e.f5 c) (3 : Fin cfg2.W) rfl cfg2.N) F3).mp h3
    have h4 : F4 = e.a4 := (congrFun (Pipeline.RDat.ArrAt_in (rdat2 e.n2 e.x e.a0 e.a1 e.a3 e.a4 e.a5 e.a6 e.f5 c) (4 : Fin cfg2.W) rfl cfg2.N) F4).mp h4
    have h5 : F5 = e.a5 := (congrFun (Pipeline.RDat.ArrAt_in (rdat2 e.n2 e.x e.a0 e.a1 e.a3 e.a4 e.a5 e.a6 e.f5 c) (5 : Fin cfg2.W) rfl cfg2.N) F5).mp h5
    have h6 : F6 = e.a6 := (congrFun (Pipeline.RDat.ArrAt_in (rdat2 e.n2 e.x e.a0 e.a1 e.a3 e.a4 e.a5 e.a6 e.f5 c) (6 : Fin cfg2.W) rfl cfg2.N) F6).mp h6
    have h7' := arr2_final e.n2 e.x e.a0 e.a1 e.a3 e.a4 e.a5 e.a6 e.f5 c F7 h7
    subst h0 h1 h2 h3 h4 h5 h6 h7'
    imodintro
    unfold finPost
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (owesAt_elim2 e.n2 e.x e.a0 e.a1 e.a3 e.a4 e.a5 e.a6 e.f5 c (Fin.last cfg2.N)); iexact HO

/-- Region 2 (`_finish_body`, 128 points) on the TensorCore of `d` before SparseCore call `n`. -/
theorem region2 [∀ e, Nonempty (Elt F e)] (d : Dev nD) (n : ℕ) (lv : GSem nD τ sig → HIx 1 → ℕ) (hlv : (K (F := F)).Refines lv)
    (x : Vec F S1024x512x128 .f32) (a0 a1 : Vec F S1024x512 .i32) (a3 : Vec F S512x64 .f32)
    (a4 : Vec F S3x64 .f32) (a5 a6 : Vec F S64 .f32) (f5 : Vec F S1024x512x64 .f32) :
    iprop(boundary (T d) ∗ finPre (F := F) d n x a0 a1 a3 a4 a5 a6 f5 ∗ levAts (K (F := F)).L lv
        ∗ Pipeline.cellsGhost (Pipeline.pin (pcfgs (F := F)) adm) (EP (F := F)) (1 : Fin 2) d
        ∗ Pipeline.toksInit (Pipeline.pin (pcfgs (F := F)) adm) (EP (F := F)) (1 : Fin 2) d)
      ⊢ wp frame (wpE ((K (F := F)).defs D) 𝒱 (T d) none) Set.univ
          (Prog.lift (.customCall (SparseCore.inner (Pipeline.entry (1 : Fin 2))) ()))
          (fun _ => iprop(boundary (T d) ∗ finPost (F := F) d n x a0 a1 a3 a4 a5 a6)) := by
  let e : Ent F := ⟨0, fun _ => Classical.arbitrary _, fun _ => Classical.arbitrary _, n, x, a0, a1, a3, a4, a5, a6, f5⟩
  have hR := Pipeline.RDat.RegionSeg.wp (pcfgs (F := F)) adm (rdats e) (none : HIx 1) cellOf_inj (EP (F := F)) defs₀ 𝒱₀ (K (F := F)).L lv
    (R2 lv hlv e) d none (fun u hu => (Option.not_mem_none u hu).elim) (fun _ => Prog.ret PUnit.unit) (fun _ => iprop(boundary (T d) ∗ finPost (F := F) d n x a0 a1 a3 a4 a5 a6))
  refine BIBase.Entails.trans ?_ ((K (F := F)).wp_liftProg D 𝒱 (T d) Set.univ none (.op (.customCall (Pipeline.entry (1 : Fin 2)) ()) (fun _ => Prog.ret PUnit.unit)) _)
  refine BIBase.Entails.trans ?_ hR
  iintro ⟨Hb, Hpre, Hlev, Hg, Ht⟩
  isplitr [Hb Hpre Hlev Hg Ht]
  · iintro ⟨Hb, Hpost⟩
    iapply (le_wp_ret (Fr := Idealize.ShloMosaic.frame) (wpE := wpE (Pipeline.defs (pcfgs (F := F)) defs₀) 𝒱₀.lift (d.tc : Thread nD τ) none) (E := Set.univ) PUnit.unit _)
    isplitl [Hb]; · iexact Hb
    iexact Hpost
  isplitl [Hb]; · iexact Hb
  isplitl [Hpre]; · iexact Hpre
  isplitl [Hlev]; · iexact Hlev
  isplitl [Hg]; · iexact Hg
  iexact Ht

end Cert.Kernel.Reg

end
-- ==== Proof.ValSrc.lean ====
/-
  Under the precondition every rewritten index names a row of the paired table. The kernel rewrites an index word
  `x` to `x - 512000` where `x ≥ 512000` (signed) and keeps it otherwise; the flattened index array is the index
  argument reshaped, so each of its entries is an entry of the argument, in [0, 999999] by the precondition, and the
  rewritten word, read unsigned, is below 512000.
-/
import proofs.«205025_g42520176230720_cont_8to1_b_1509_29_alg».proof.Proof.KSplit
import proofs.«205025_g42520176230720_cont_8to1_b_1509_29_alg».proof.Proof.RefPre
import Idealize.ShloMosaic.Lib.ValueIdx

noncomputable section

namespace Cert.KernelIdeal.Val

open Cert.KernelIdeal Cert.KernelIdeal.Gen Cert.KernelIdeal.Base
open Idealize.ShloMosaic Idealize.ShloMosaic.ValueIdx

/-! ## The index rewrite -/

/-- A nonnegative word reads the same signed and unsigned. -/
theorem toInt_eq_toNat {x : BitVec 32} (h : 0 ≤ x.toInt) : x.toInt = (x.toNat : Int) :=
  BitVec.toInt_eq_toNat_of_lt (BitVec.toInt_pos_iff.1 h)

/-- Below 512000 the index is kept. -/
theorem fixIdx_lt {x : BitVec 32} (h : x.toInt < 512000) : Tile.fixIdx x = x := by
  unfold Tile.fixIdx
  have hc : IntOp.cmpi .sge x 512000#32 = 0#1 := eq_zero_of_ne_one fun hc => by
    have := IntOp.cmpi_sge.1 hc
    rw [show (512000#32 : BitVec 32).toInt = 512000 from by decide] at this
    omega
  rw [hc, select_zero]
  show x - 0#32 * 512000#32 = x
  simp

/-- From 512000 on, 512000 is taken off. -/
theorem fixIdx_ge {x : BitVec 32} (h : 512000 ≤ x.toInt) : Tile.fixIdx x = x - 512000#32 := by
  unfold Tile.fixIdx
  have hc : IntOp.cmpi .sge x 512000#32 = 1#1 := IntOp.cmpi_sge.2 (by
    rw [show (512000#32 : BitVec 32).toInt = 512000 from by decide]; exact h)
  rw [hc, select_one]
  show x - 1#32 * 512000#32 = _
  simp

/-- The rewritten index, read unsigned, of a word in [0, 999999]. -/
theorem fixIdx_toNat {x : BitVec 32} (h0 : 0 ≤ x.toInt) (h1 : x.toInt ≤ 999999) :
    (Tile.fixIdx x).toNat = if x.toInt < 512000 then x.toNat else x.toNat - 512000 := by
  have hx := toInt_eq_toNat h0
  split
  · next h => rw [fixIdx_lt h]
  · next h =>
    rw [fixIdx_ge (by omega), BitVec.toNat_sub_of_le (by
      rw [BitVec.le_def, show (512000#32 : BitVec 32).toNat = 512000 from by decide]; omega)]
    rfl

/-- So it names a row of the paired table. -/
theorem fixIdx_lt_rows {x : BitVec 32} (h0 : 0 ≤ x.toInt) (h1 : x.toInt ≤ 999999) : (Tile.fixIdx x).toNat < 512000 := by
  rw [fixIdx_toNat h0 h1]
  have hx := toInt_eq_toNat h0
  split <;> omega

/-! ## The flattened index array -/

section Host
variable {F : FTy → Type} (m : (ℓ : Loc nD τ sig) → Buf (Elt F) ℓ) (d : Dev nD)

/-- The flattened index array is the index argument, reshaped. -/
theorem sflat_eq : Main.sflat m d = shapeCast S524288 (m (aLoc d main_arg0)) shapeCasts_S1024x512_S524288 := by
  unfold Main.sflat Main.V1
  exact (StableHlo.reshape_result (τ := τ) main_arg0 main_v0 rfl shapeCasts_S1024x512_S524288 _ _ (Main.V0 m d)).trans rfl

/-- Every entry of the flattened index array is an entry of the index argument. -/
theorem sflat_reads (n : S524288.Idx) : ∃ i, Main.sflat m d n = m (aLoc d main_arg0) i := by
  rw [sflat_eq]; exact ⟨_, rfl⟩

end Host

/-- Under the precondition every rewritten index names a row of the paired table. -/
theorem srcOK_of_pre {F : FTy → Type} [FloatOps F] (m : (ℓ : Loc nD τ sig) → Buf (Elt F) ℓ)
    (h : ∀ d : Dev nD, Cert.Pre_input_domain.fn (F := F) (m (aLoc d main_arg0)) (m (aLoc d main_arg1)) (m (aLoc d main_arg2))
      (m (aLoc d main_arg3)) (m (aLoc d main_arg4)) (m (aLoc d main_arg5)) (m (aLoc d main_arg6)) = fun _ => 1#1) :
    Main.SrcOK m := by
  intro d n
  obtain ⟨i, hi⟩ := sflat_reads m d n
  obtain ⟨r0, -⟩ := Cert.RefPre.int_ranges _ _ _ _ _ _ _ (h d)
  rw [hi]
  exact fixIdx_lt_rows (r0 i).1 (r0 i).2

end Cert.KernelIdeal.Val

end
-- ==== Proof.BValSrc.lean ====
/-
  Under the precondition every rewritten index names a row of the paired table. The kernel rewrites an index word
  `x` to `x - 512000` where `x ≥ 512000` (signed) and keeps it otherwise; the flattened index array is the index
  argument reshaped, so each of its entries is an entry of the argument, in [0, 999999] by the precondition, and the
  rewritten word, read unsigned, is below 512000.
-/
import proofs.«205025_g42520176230720_cont_8to1_b_1509_29_alg».proof.Proof.BKSplit
import proofs.«205025_g42520176230720_cont_8to1_b_1509_29_alg».proof.Proof.RefPre
import Idealize.ShloMosaic.Lib.ValueIdx

noncomputable section

namespace Cert.Kernel.Val

open Cert.Kernel Cert.Kernel.Gen Cert.Kernel.Base
open Idealize.ShloMosaic Idealize.ShloMosaic.ValueIdx

/-! ## The index rewrite -/

/-- A nonnegative word reads the same signed and unsigned. -/
theorem toInt_eq_toNat {x : BitVec 32} (h : 0 ≤ x.toInt) : x.toInt = (x.toNat : Int) :=
  BitVec.toInt_eq_toNat_of_lt (BitVec.toInt_pos_iff.1 h)

/-- Below 512000 the index is kept. -/
theorem fixIdx_lt {x : BitVec 32} (h : x.toInt < 512000) : Tile.fixIdx x = x := by
  unfold Tile.fixIdx
  have hc : IntOp.cmpi .sge x 512000#32 = 0#1 := eq_zero_of_ne_one fun hc => by
    have := IntOp.cmpi_sge.1 hc
    rw [show (512000#32 : BitVec 32).toInt = 512000 from by decide] at this
    omega
  rw [hc, select_zero]
  show x - 0#32 * 512000#32 = x
  simp

/-- From 512000 on, 512000 is taken off. -/
theorem fixIdx_ge {x : BitVec 32} (h : 512000 ≤ x.toInt) : Tile.fixIdx x = x - 512000#32 := by
  unfold Tile.fixIdx
  have hc : IntOp.cmpi .sge x 512000#32 = 1#1 := IntOp.cmpi_sge.2 (by
    rw [show (512000#32 : BitVec 32).toInt = 512000 from by decide]; exact h)
  rw [hc, select_one]
  show x - 1#32 * 512000#32 = _
  simp

/-- The rewritten index, read unsigned, of a word in [0, 999999]. -/
theorem fixIdx_toNat {x : BitVec 32} (h0 : 0 ≤ x.toInt) (h1 : x.toInt ≤ 999999) :
    (Tile.fixIdx x).toNat = if x.toInt < 512000 then x.toNat else x.toNat - 512000 := by
  have hx := toInt_eq_toNat h0
  split
  · next h => rw [fixIdx_lt h]
  · next h =>
    rw [fixIdx_ge (by omega), BitVec.toNat_sub_of_le (by
      rw [BitVec.le_def, show (512000#32 : BitVec 32).toNat = 512000 from by decide]; omega)]
    rfl

/-- So it names a row of the paired table. -/
theorem fixIdx_lt_rows {x : BitVec 32} (h0 : 0 ≤ x.toInt) (h1 : x.toInt ≤ 999999) : (Tile.fixIdx x).toNat < 512000 := by
  rw [fixIdx_toNat h0 h1]
  have hx := toInt_eq_toNat h0
  split <;> omega

/-! ## The flattened index array -/

section Host
variable {F : FTy → Type} (m : (ℓ : Loc nD τ sig) → Buf (Elt F) ℓ) (d : Dev nD)

/-- The flattened index array is the index argument, reshaped. -/
theorem sflat_eq : Main.sflat m d = shapeCast S524288 (m (aLoc d main_arg0)) shapeCasts_S1024x512_S524288 := by
  unfold Main.sflat Main.V1
  exact (StableHlo.reshape_result (τ := τ) main_arg0 main_v0 rfl shapeCasts_S1024x512_S524288 _ _ (Main.V0 m d)).trans rfl

/-- Every entry of the flattened index array is an entry of the index argument. -/
theorem sflat_reads (n : S524288.Idx) : ∃ i, Main.sflat m d n = m (aLoc d main_arg0) i := by
  rw [sflat_eq]; exact ⟨_, rfl⟩

end Host

/-- Under the precondition every rewritten index names a row of the paired table. -/
theorem srcOK_of_pre {F : FTy → Type} [FloatOps F] (m : (ℓ : Loc nD τ sig) → Buf (Elt F) ℓ)
    (h : ∀ d : Dev nD, Cert.Pre_input_domain.fn (F := F) (m (aLoc d main_arg0)) (m (aLoc d main_arg1)) (m (aLoc d main_arg2))
      (m (aLoc d main_arg3)) (m (aLoc d main_arg4)) (m (aLoc d main_arg5)) (m (aLoc d main_arg6)) = fun _ => 1#1) :
    Main.SrcOK m := by
  intro d n
  obtain ⟨i, hi⟩ := sflat_reads m d n
  obtain ⟨r0, -⟩ := Cert.RefPre.int_ranges _ _ _ _ _ _ _ (h d)
  rw [hi]
  exact fixIdx_lt_rows (r0 i).1 (r0 i).2

end Cert.Kernel.Val

end
-- ==== Proof.ValIdx.lean ====
/-
  The array reads under the finishing pass: the flattened index array and the transposed word table as the host
  operations leave them, read at an index; the gathered array's rows; and the gathered rows viewed [1024, 512, 128].
-/
import proofs.«205025_g42520176230720_cont_8to1_b_1509_29_alg».proof.Proof.ValSrc
import Idealize.ShloMosaic.Lib.Pipeline.Value
import Idealize.ShloMosaic.Lib.ValueLayout

noncomputable section

namespace Cert.KernelIdeal.Val

open Cert.KernelIdeal Cert.KernelIdeal.Gen Cert.KernelIdeal.Base
open Idealize.ShloMosaic Idealize.ShloMosaic.ValueIdx

/-! ## The host's two arrays -/

section Host
variable {F : FTy → Type} (m : (ℓ : Loc nD τ sig) → Buf (Elt F) ℓ) (d : Dev nD)

/-- Entry `512 b + l` of the flattened index array is the index word at (b, l). -/
theorem sflat_apply (B : Fin 1024) (l : Fin 512) :
    Main.sflat m d (Tile.srcIx ⟨512 * B.val + l.val, by have := B.isLt; have := l.isLt; omega⟩) = m (aLoc d main_arg0) (ix2 B l) := by
  rw [sflat_eq]
  refine shapeCast_apply (s := S1024x512) (t := S524288) _ _ _ _ ?_
  rw [Shape.rowMajor_val_two, Shape.rowMajor_val_one]
  show B.val * 512 + l.val = 512 * B.val + l.val
  omega

variable [FloatOps F]

/-- The transposed word table is the word table, transposed. -/
theorem wT_eq : Main.wT m d = transpose S64x1000000 [1, 0] (m (aLoc d main_arg2)) transposes_S1000000x64_S64x1000000_1_0 := by
  unfold Main.wT Main.V2
  refine (StableHlo.unary_result (τ := τ) main_arg2 main_v1 _ _ _ (Main.V1 m d)).trans ?_
  show transpose S64x1000000 [1, 0] (Main.V1 m d (Proc.devRef .tc (main_arg2 : Ref sig .tc))) _ = _
  unfold Main.V1
  rw [StableHlo.reshape_result_ne (τ := τ) main_arg0 main_v0 rfl shapeCasts_S1024x512_S524288 _ _ (Main.V0 m d) (r := main_arg2) (by decide)]
  rfl

/-- Its entry (c, r) is the word table's (r, c). -/
theorem wT_apply (c : Fin 64) (r : Fin 1000000) : Main.wT m d (ix2 c r) = m (aLoc d main_arg2) (ix2 r c) := by
  rw [wT_eq]
  exact transpose_ix2_apply _ _ c r

end Host

/-! ## The gathered rows -/

section Gathered
variable {F : FTy → Type} [FloatOps F] (m : (ℓ : Loc nD τ sig) → Buf (Elt F) ℓ) (d : Dev nD)

/-- The gathered rows viewed [1024, 512, 128]: (b, l, c) is entry (512 b + l, c). -/
theorem blk_apply (g : Buf (Elt F) (aLoc d main_v3)) (B : Fin 1024) (l : Fin 512) (c : Fin 128) :
    shapeCast S1024x512x128 g shapeCasts_S524288x128_S1024x512x128 (ix3 B l c)
      = g (ix2 ⟨512 * B.val + l.val, by have := B.isLt; have := l.isLt; omega⟩ c) := by
  refine shapeCast_apply (s := S524288x128) (t := S1024x512x128) _ _ _ _ ?_
  rw [Shape.rowMajor_val_two, Shape.rowMajor_val_three]
  show (512 * B.val + l.val) * 128 + c.val = (B.val * 512 + l.val) * 128 + c.val
  omega

/-- Entry (n, c) of the gathered array is entry (rewritten index, c) of a table that pairs the transposed word table. -/
theorem gath_row (g : Buf (Elt F) (aLoc d main_v3)) (hg : Main.GathOK m d g) (n : Fin 524288) (c : Fin 128) :
    ∃ f2 : Buf (Elt F) (aLoc d main_v2), Reg.PairOK (Main.wT m d) f2
      ∧ g (ix2 n c) = f2 (Tile.tabIx ⟨(Tile.fixIdx (Main.sflat m d (Tile.srcIx n))).toNat % 512000, Nat.mod_lt _ (by decide)⟩ c) := by
  obtain ⟨F2, hF2, hrows⟩ := hg
  have hmem : (ix2 n c : S524288x128.Idx) ∈ (Finset.univ : Finset (Fin 2 × Fin 16)).biUnion Main.rowsOf := by
    rw [Main.rowsOf_cover]; exact Finset.mem_univ _
  obtain ⟨p, -, hp⟩ := Finset.mem_biUnion.1 hmem
  exact ⟨F2 p, hF2 p, (hrows p _ hp).trans rfl⟩

end Gathered

end Cert.KernelIdeal.Val

end
-- ==== Proof.ValLib.lean ====
/-
  Small index lemmas for the finishing pass: each layout operation of its body read at an index written by coordinates
  (a broadcast over the feature axis or over the batch rows, a unit axis added or dropped, a slice of the feature axis
  or of the segment table's rows, the lane sum over the 64 features), and the 0/1 flags a comparison bit becomes.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Val.Lib

open Idealize.ShloMosaic Idealize.ShloMosaic.ValueIdx

variable {α : Type}

/-! ## Broadcasts to [8,512,64] -/

/-- A kept unit axis broadcast over the 64 features. -/
theorem bc_keep (x : (⟨3, ![8, 512, 1]⟩ : Shape).Idx → α) (h : (⟨3, ![8, 512, 1]⟩ : Shape).Broadcasts ⟨3, ![8, 512, 64]⟩)
    (j : Fin 8) (l : Fin 512) (q : Fin 64) :
    broadcastTo ⟨3, ![8, 512, 64]⟩ x h (ix3 j l q) = x (ix3 j l (0 : Fin 1)) :=
  broadcastTo_apply x h _ _ fun a => match a with
    | ⟨0, _⟩ => rfl
    | ⟨1, _⟩ => rfl
    | ⟨2, _⟩ => rfl

/-- A feature vector [1,1,64] broadcast over the 8 × 512 rows. -/
theorem bc_feat (x : (⟨3, ![1, 1, 64]⟩ : Shape).Idx → α) (h : (⟨3, ![1, 1, 64]⟩ : Shape).Broadcasts ⟨3, ![8, 512, 64]⟩)
    (j : Fin 8) (l : Fin 512) (q : Fin 64) :
    broadcastTo ⟨3, ![8, 512, 64]⟩ x h (ix3 j l q) = x (ix3 (0 : Fin 1) (0 : Fin 1) q) :=
  broadcastTo_apply x h _ _ fun a => match a with
    | ⟨0, _⟩ => rfl
    | ⟨1, _⟩ => rfl
    | ⟨2, _⟩ => rfl

/-- The position rows [1,512,64] broadcast over the 8 batch rows. -/
theorem bc_pos (x : (⟨3, ![1, 512, 64]⟩ : Shape).Idx → α) (h : (⟨3, ![1, 512, 64]⟩ : Shape).Broadcasts ⟨3, ![8, 512, 64]⟩)
    (j : Fin 8) (l : Fin 512) (q : Fin 64) :
    broadcastTo ⟨3, ![8, 512, 64]⟩ x h (ix3 j l q) = x (ix3 (0 : Fin 1) l q) :=
  broadcastTo_apply x h _ _ fun a => match a with
    | ⟨0, _⟩ => rfl
    | ⟨1, _⟩ => rfl
    | ⟨2, _⟩ => rfl

/-! ## Unit axes added or dropped -/

/-- A feature vector [64] as [1,1,64]. -/
theorem sc_feat (x : (⟨1, ![64]⟩ : Shape).Idx → α) (h : (⟨1, ![64]⟩ : Shape).ShapeCasts ⟨3, ![1, 1, 64]⟩) (q : Fin 64) :
    shapeCast ⟨3, ![1, 1, 64]⟩ x h (ix3 (0 : Fin 1) (0 : Fin 1) q) = x (ix1 q) :=
  shapeCast_apply x h _ _ (by
    rw [Shape.rowMajor_val_three, Shape.rowMajor_val_one]
    show q.val = ((0 : Fin 1).val * 1 + (0 : Fin 1).val) * 64 + q.val
    simp)

/-- An [8,512] array as [8,512,1]. -/
theorem sc_unit (x : (⟨2, ![8, 512]⟩ : Shape).Idx → α) (h : (⟨2, ![8, 512]⟩ : Shape).ShapeCasts ⟨3, ![8, 512, 1]⟩)
    (j : Fin 8) (l : Fin 512) :
    shapeCast ⟨3, ![8, 512, 1]⟩ x h (ix3 j l (0 : Fin 1)) = x (ix2 j l) :=
  shapeCast_apply x h _ _ (by
    rw [Shape.rowMajor_val_three, Shape.rowMajor_val_two]
    show j.val * 512 + l.val = (j.val * 512 + l.val) * 1 + (0 : Fin 1).val
    simp)

/-- The position table [512,64] as [1,512,64]. -/
theorem sc_pos (x : (⟨2, ![512, 64]⟩ : Shape).Idx → α) (h : (⟨2, ![512, 64]⟩ : Shape).ShapeCasts ⟨3, ![1, 512, 64]⟩)
    (l : Fin 512) (q : Fin 64) :
    shapeCast ⟨3, ![1, 512, 64]⟩ x h (ix3 (0 : Fin 1) l q) = x (ix2 l q) :=
  shapeCast_ab_1ab_apply x h 0 l q

/-- A row [1,64] as [64]. -/
theorem sc_row (x : (⟨2, ![1, 64]⟩ : Shape).Idx → α) (h : (⟨2, ![1, 64]⟩ : Shape).ShapeCasts ⟨1, ![64]⟩) (q : Fin 64) :
    shapeCast ⟨1, ![64]⟩ x h (ix1 q) = x (ix2 (0 : Fin 1) q) :=
  shapeCast_1a_a_apply x h q

/-! ## Slices -/

/-- The 64 features at offset `o` of the 128 columns. -/
theorem sl_cols (o : Nat) (ho : o + 64 ≤ 128) (x : (⟨3, ![8, 512, 128]⟩ : Shape).Idx → α)
    (h : (⟨3, ![8, 512, 128]⟩ : Shape).Slices ![0, 0, o] ⟨3, ![8, 512, 64]⟩) (j : Fin 8) (l : Fin 512) (q : Fin 64) :
    extractStridedSlice ⟨3, ![8, 512, 64]⟩ ![0, 0, o] x h (ix3 j l q) = x (ix3 j l ⟨o + q.val, by have := q.isLt; omega⟩) :=
  extractStridedSlice_apply _ x h _ _ fun a => match a with
    | ⟨0, _⟩ => by show j.val = 0 + j.val; omega
    | ⟨1, _⟩ => by show l.val = 0 + l.val; omega
    | ⟨2, _⟩ => rfl

/-- Row `k` of the segment table. -/
theorem sl_seg (k : Nat) (hk : k < 3) (x : (⟨2, ![3, 64]⟩ : Shape).Idx → α)
    (h : (⟨2, ![3, 64]⟩ : Shape).Slices ![k, 0] ⟨2, ![1, 64]⟩) (q : Fin 64) :
    extractStridedSlice ⟨2, ![1, 64]⟩ ![k, 0] x h (ix2 (0 : Fin 1) q) = x (ix2 ⟨k, hk⟩ q) :=
  extractStridedSlice_apply _ x h _ _ fun a => match a with
    | ⟨0, _⟩ => by show k = k + (0 : Fin 1).val; simp
    | ⟨1, _⟩ => by show q.val = 0 + q.val; omega

/-! ## The lane sum -/

/-- The sum over the 64 features of an [8,512,64] array, at (j, l). -/
theorem sum_lane (v : FVec Ideal ⟨3, ![8, 512, 64]⟩ .f32) (acc : BitVec 32)
    (h : (⟨3, ![8, 512, 64]⟩ : Shape).Reduces [2] ⟨2, ![8, 512]⟩) (hφ : FKind.Formats .f32) (hacc : acc = FKind.add.neutral .f32 hφ)
    (j : Fin 8) (l : Fin 512) :
    multiReduction (F := Ideal) .add [2] ⟨2, ![8, 512]⟩ v acc h hφ hacc (ix2 j l) = ∑ q : Fin 64, v (ix3 j l q) := by
  rw [Ideal.multiReduction_add_single]
  refine Finset.sum_congr rfl fun q _ => congrArg v ?_
  funext a
  match a with
  | ⟨0, _⟩ => exact Fin.ext rfl
  | ⟨1, _⟩ => exact Fin.ext rfl
  | ⟨2, _⟩ => exact Fin.ext rfl

/-! ## The 0/1 flag of a comparison bit -/

/-- A comparison bit widened to 32 bits and converted to a float, on the extended reals. -/
def flag (c : BitVec 1) : EReal := FloatOps.sitofp (F := Ideal) .f32 (c.setWidth 32)

theorem flag_one : flag 1#1 = 1 := by
  show (((BitVec.setWidth 32 (1#1 : BitVec 1)).toInt : ℝ) : EReal) = 1
  rw [show (BitVec.setWidth 32 (1#1 : BitVec 1)).toInt = 1 from by decide]
  simp

theorem flag_zero : flag 0#1 = 0 := by
  show (((BitVec.setWidth 32 (0#1 : BitVec 1)).toInt : ℝ) : EReal) = 0
  rw [show (BitVec.setWidth 32 (0#1 : BitVec 1)).toInt = 0 from by decide]
  simp

end Cert.Val.Lib

end
-- ==== Proof.ValBlk.lean ====
/-
  The finishing pass's stored term read at an index. Its five carried values at (j, l, q), over the blocks they are
  computed from: the blended word row `lo + hf * (hi - lo)` (hf the 0/1 flag of `src ≥ 512000`), the flag of `seg ≥ 2`,
  the blended segment row `st0 + sf1 * (st1 - st0)` (sf1 the flag of `seg ≥ 1`), and rows 2 and 1 of the segment table;
  then the stored term itself: the summed embedding, its mean and variance over the 64 features, the normalisation by
  the reciprocal square root, the scale and the shift.
-/
import proofs.«205025_g42520176230720_cont_8to1_b_1509_29_alg».proof.Proof.RegDefs
import proofs.«205025_g42520176230720_cont_8to1_b_1509_29_alg».proof.Proof.ValLib

noncomputable section

open scoped BigOperators

namespace Cert.KernelIdeal.Val

open Cert.KernelIdeal Cert.KernelIdeal.Gen
open Idealize.ShloMosaic Idealize.ShloMosaic.ValueIdx Cert.Val.Lib

/-- Row 2 of the segment table. -/
theorem pay5_apply (X4 : Vec Ideal S3x64 .f32) (q : Fin 64) : k2_pay5 (F := Ideal) X4 (ix1 q) = X4 (ix2 (2 : Fin 3) q) := by
  unfold k2_pay5
  rw [sc_row, sl_seg 2 (by decide)]
  rfl

/-- Row 1 of the segment table. -/
theorem pay6_apply (X4 : Vec Ideal S3x64 .f32) (q : Fin 64) : k2_pay6 (F := Ideal) X4 (ix1 q) = X4 (ix2 (1 : Fin 3) q) := by
  unfold k2_pay6
  rw [sc_row, sl_seg 1 (by decide)]
  rfl

/-- The flag of `seg ≥ 2`, with its unit axis. -/
theorem pay3_apply (X2 : Vec Ideal S8x512 .i32) (j : Fin 8) (l : Fin 512) :
    k2_pay3 (F := Ideal) X2 (ix3 j l (0 : Fin 1)) = flag (IntOp.cmpi .sge (X2 (ix2 j l)) 2#32) := by
  unfold k2_pay3
  rw [sc_unit]
  rfl

/-- The blended word row. -/
theorem pay2_apply (X0 : Vec Ideal S8x512x128 .f32) (X1 : Vec Ideal S8x512 .i32) (j : Fin 8) (l : Fin 512) (q : Fin 64) :
    k2_pay2 (F := Ideal) X0 X1 (ix3 j l q)
      = X0 (ix3 j l ⟨q.val, by have := q.isLt; omega⟩)
        + flag (IntOp.cmpi .sge (X1 (ix2 j l)) 512000#32)
          * (X0 (ix3 j l ⟨64 + q.val, by have := q.isLt; omega⟩) - X0 (ix3 j l ⟨q.val, by have := q.isLt; omega⟩)) := by
  unfold k2_pay2
  rw [addf_apply, mulf_apply, subf_apply, bc_keep, sc_unit, shapeCast_self, sl_cols 64 (by decide), sl_cols 0 (by decide)]
  have e : (⟨0 + q.val, by have := q.isLt; omega⟩ : Fin 128) = ⟨q.val, by have := q.isLt; omega⟩ := Fin.ext (Nat.zero_add _)
  rw [e]
  rfl

/-- The blended segment row (rows 0 and 1). -/
theorem pay4_apply (X4 : Vec Ideal S3x64 .f32) (X2 : Vec Ideal S8x512 .i32) (j : Fin 8) (l : Fin 512) (q : Fin 64) :
    k2_pay4 (F := Ideal) X4 X2 (ix3 j l q)
      = X4 (ix2 (0 : Fin 3) q) + flag (IntOp.cmpi .sge (X2 (ix2 j l)) 1#32) * (X4 (ix2 (1 : Fin 3) q) - X4 (ix2 (0 : Fin 3) q)) := by
  unfold k2_pay4
  rw [addf_apply, mulf_apply, bc_feat, bc_feat, bc_keep, sc_feat, sc_feat, sc_unit, subf_apply, sc_row, sc_row,
    sl_seg 0 (by decide), sl_seg 1 (by decide)]
  rfl

/-! ## The stored term -/

/-- The summed embedding the stored term normalises: (blended word row + position row) + (blended segment row + flag * (row 2 - row 1)). -/
def embT (v13 : FVec Ideal S8x512x64 .f32) (v26 : FVec Ideal S8x512x1 .f32) (v40 : FVec Ideal S8x512x64 .f32)
    (v42 v44 : FVec Ideal S64 .f32) (v51 : Vec Ideal S512x64 .f32) : FVec Ideal S8x512x64 .f32 :=
  addf (addf v13 (broadcastTo S8x512x64 (shapeCast S1x512x64 v51 shapeCasts_S512x64_S1x512x64) broadcasts_S1x512x64_S8x512x64))
    (addf v40 (mulf (broadcastTo S8x512x64 v26 broadcasts_S8x512x1_S8x512x64)
      (broadcastTo S8x512x64 (shapeCast S1x1x64 (subf v42 v44) shapeCasts_S64_S1x1x64) broadcasts_S1x1x64_S8x512x64)))

/-- The mean over the 64 features, kept as a unit axis: the lane sum divided by the splat of the word of 64. -/
def meanT (E : FVec Ideal S8x512x64 .f32) : FVec Ideal S8x512x1 .f32 :=
  divf (shapeCast S8x512x1 (multiReduction (F := Ideal) .add [2] S8x512 E 0x00000000#32 reduces_S8x512x64_S8x512 (.inl rfl) rfl)
      shapeCasts_S8x512_S8x512x1)
    (broadcast S8x512x1 (Scalar.ofBits (F := Ideal) .f32 0x42800000#32))

/-- The normalisation, scale and shift of an [8,512,64] array. -/
def normT (E : FVec Ideal S8x512x64 .f32) (v74 v78 : Vec Ideal S64 .f32) : FVec Ideal S8x512x64 .f32 :=
  addf (mulf (mulf (subf E (broadcastTo S8x512x64 (meanT E) broadcasts_S8x512x1_S8x512x64))
        (broadcastTo S8x512x64
          (rsqrt (addf (meanT (mulf (subf E (broadcastTo S8x512x64 (meanT E) broadcasts_S8x512x1_S8x512x64))
              (subf E (broadcastTo S8x512x64 (meanT E) broadcasts_S8x512x1_S8x512x64))))
            (broadcast S8x512x1 (Scalar.ofBits (F := Ideal) .f32 0x358637BD#32))))
          broadcasts_S8x512x1_S8x512x64))
      (broadcastTo S8x512x64 (shapeCast S1x1x64 v74 shapeCasts_S64_S1x1x64) broadcasts_S1x1x64_S8x512x64))
    (broadcastTo S8x512x64 (shapeCast S1x1x64 v78 shapeCasts_S64_S1x1x64) broadcasts_S1x1x64_S8x512x64)

/-- The stored term is the normalisation of the summed embedding. -/
theorem pay1_eq (v13 : FVec Ideal S8x512x64 .f32) (v26 : FVec Ideal S8x512x1 .f32) (v40 : FVec Ideal S8x512x64 .f32)
    (v42 v44 : FVec Ideal S64 .f32) (v51 : Vec Ideal S512x64 .f32) (v74 v78 : Vec Ideal S64 .f32) :
    k2_pay1 (F := Ideal) v13 v26 v40 v42 v44 v51 v74 v78 = normT (embT v13 v26 v40 v42 v44 v51) v74 v78 := rfl

/-- The summed embedding at (j, l, q). -/
theorem embT_apply (v13 : FVec Ideal S8x512x64 .f32) (v26 : FVec Ideal S8x512x1 .f32) (v40 : FVec Ideal S8x512x64 .f32)
    (v42 v44 : FVec Ideal S64 .f32) (v51 : Vec Ideal S512x64 .f32) (j : Fin 8) (l : Fin 512) (q : Fin 64) :
    embT v13 v26 v40 v42 v44 v51 (ix3 j l q)
      = (v13 (ix3 j l q) + v51 (ix2 l q)) + (v40 (ix3 j l q) + v26 (ix3 j l (0 : Fin 1)) * (v42 (ix1 q) - v44 (ix1 q))) := by
  unfold embT
  rw [addf_apply, addf_apply, addf_apply, mulf_apply, bc_pos, sc_pos, bc_keep, bc_feat, sc_feat, subf_apply]

/-- The kept mean at (j, l, 0). -/
theorem meanT_apply (E : FVec Ideal S8x512x64 .f32) (j : Fin 8) (l : Fin 512) :
    meanT E (ix3 j l (0 : Fin 1)) = Ideal.div (∑ q : Fin 64, E (ix3 j l q)) (Ideal.ofBits .f32 0x42800000#32) := by
  unfold meanT
  rw [divf_apply, sc_unit]
  exact congrArg₂ Ideal.div (sum_lane E _ _ _ _ j l) rfl

/-- The normalised, scaled and shifted array at (j, l, q). -/
theorem normT_apply (E : FVec Ideal S8x512x64 .f32) (v74 v78 : Vec Ideal S64 .f32) (j : Fin 8) (l : Fin 512) (q : Fin 64) :
    normT E v74 v78 (ix3 j l q)
      = (E (ix3 j l q) - Ideal.div (∑ q : Fin 64, E (ix3 j l q)) (Ideal.ofBits .f32 0x42800000#32))
          * Ideal.rsqrt (Ideal.div (∑ q : Fin 64,
              (E (ix3 j l q) - Ideal.div (∑ q : Fin 64, E (ix3 j l q)) (Ideal.ofBits .f32 0x42800000#32))
                * (E (ix3 j l q) - Ideal.div (∑ q : Fin 64, E (ix3 j l q)) (Ideal.ofBits .f32 0x42800000#32)))
              (Ideal.ofBits .f32 0x42800000#32) + Ideal.ofBits .f32 0x358637BD#32)
          * v74 (ix1 q) + v78 (ix1 q) := by
  unfold normT
  rw [addf_apply, mulf_apply, mulf_apply, subf_apply, bc_keep, bc_keep, bc_feat, sc_feat, bc_feat, sc_feat, meanT_apply]
  show _ * Ideal.rsqrt (meanT _ (ix3 j l (0 : Fin 1)) + Ideal.ofBits .f32 0x358637BD#32) * _ + _ = _
  rw [meanT_apply]
  simp only [mulf_apply, subf_apply, bc_keep, meanT_apply]

/-! ## The stored term of the blocks -/

section Blocks
variable (X0 : Vec Ideal S8x512x128 .f32) (X1 X2 : Vec Ideal S8x512 .i32) (X3 : Vec Ideal S512x64 .f32)
  (X4 : Vec Ideal S3x64 .f32) (X5 X6 : Vec Ideal S64 .f32)

/-- The summed embedding of the blocks at (j, l, q). -/
def eK (j : Fin 8) (l : Fin 512) (q : Fin 64) : EReal :=
  ((X0 (ix3 j l ⟨q.val, by have := q.isLt; omega⟩)
      + flag (IntOp.cmpi .sge (X1 (ix2 j l)) 512000#32)
        * (X0 (ix3 j l ⟨64 + q.val, by have := q.isLt; omega⟩) - X0 (ix3 j l ⟨q.val, by have := q.isLt; omega⟩)))
    + X3 (ix2 l q))
  + ((X4 (ix2 (0 : Fin 3) q) + flag (IntOp.cmpi .sge (X2 (ix2 j l)) 1#32) * (X4 (ix2 (1 : Fin 3) q) - X4 (ix2 (0 : Fin 3) q)))
    + flag (IntOp.cmpi .sge (X2 (ix2 j l)) 2#32) * (X4 (ix2 (2 : Fin 3) q) - X4 (ix2 (1 : Fin 3) q)))

/-- The stored term of the blocks at (j, l, q). -/
theorem FinBlk_apply (j : Fin 8) (l : Fin 512) (q : Fin 64) :
    Reg.FinBlk (F := Ideal) X0 X1 X2 X3 X4 X5 X6 (ix3 j l q)
      = (eK X0 X1 X2 X3 X4 j l q - Ideal.div (∑ q : Fin 64, eK X0 X1 X2 X3 X4 j l q) (Ideal.ofBits .f32 0x42800000#32))
          * Ideal.rsqrt (Ideal.div (∑ q : Fin 64,
              (eK X0 X1 X2 X3 X4 j l q - Ideal.div (∑ q : Fin 64, eK X0 X1 X2 X3 X4 j l q) (Ideal.ofBits .f32 0x42800000#32))
                * (eK X0 X1 X2 X3 X4 j l q - Ideal.div (∑ q : Fin 64, eK X0 X1 X2 X3 X4 j l q) (Ideal.ofBits .f32 0x42800000#32)))
              (Ideal.ofBits .f32 0x42800000#32) + Ideal.ofBits .f32 0x358637BD#32)
          * X5 (ix1 q) + X6 (ix1 q) := by
  unfold Reg.FinBlk
  rw [pay1_eq, normT_apply]
  simp only [embT_apply, pay2_apply, pay3_apply, pay4_apply, pay5_apply, pay6_apply]
  rfl

end Blocks

end Cert.KernelIdeal.Val

end
-- ==== Proof.ValMain.lean ====
/-
  The finishing pass over the gathered rows is the specification.

  At row `n = 512 b + l` the gathered array holds row `r` of a paired table, `r` the rewritten index of the index word
  `s` at (b, l): its first 64 columns are word row `r`, its last 64 word row `512000 + r` where `r < 488000`. For
  `s < 512000` the flag of `s ≥ 512000` is 0, `r = s`, and the blend `lo + 0 * (hi - lo)` is `lo`, word row `s`, whatever
  the last 64 columns hold. For `s ≥ 512000` the flag is 1, `r = s - 512000 < 488000`, both halves are real numbers and
  the blend `lo + 1 * (hi - lo)` is `hi`, word row `512000 + r = s`. The segment row is blended likewise by the flags of
  `seg ≥ 1` and `seg ≥ 2`. So the summed embedding is the specification's; its mean and variance are then the
  specification's term by term, and `x * rsqrt v = x / sqrt v` for a real `x` and a positive real `v`.
-/
import proofs.«205025_g42520176230720_cont_8to1_b_1509_29_alg».proof.Proof.ValIdx
import proofs.«205025_g42520176230720_cont_8to1_b_1509_29_alg».proof.Proof.ValBlk
import proofs.«205025_g42520176230720_cont_8to1_b_1509_29_alg».proof.Proof.RefLaws

noncomputable section

open scoped BigOperators

namespace Cert.KernelIdeal.Val

open Cert.KernelIdeal Cert.KernelIdeal.Gen Cert.KernelIdeal.Base
open Idealize.ShloMosaic Idealize.ShloMosaic.ValueIdx Cert.Val.Lib Cert.Gcn

/-! ## The two blends, over any arrays -/

/-- The flag of a comparison that holds is 1, of one that fails 0. -/
theorem flag_sge_of_le {x y : BitVec 32} (h : y.toInt ≤ x.toInt) : flag (IntOp.cmpi .sge x y) = 1 := by
  rw [IntOp.cmpi_sge.2 h, flag_one]
theorem flag_sge_of_lt {x y : BitVec 32} (h : x.toInt < y.toInt) : flag (IntOp.cmpi .sge x y) = 0 := by
  have hc : IntOp.cmpi .sge x y = 0#1 := eq_zero_of_ne_one fun hc => by have := IntOp.cmpi_sge.1 hc; omega
  rw [hc, flag_zero]

/-- The segment rows blended by the flags of `t ≥ 1` and `t ≥ 2` are row `t`, for a word `t` in [0, 2]. -/
theorem seg_blend (a4 : FVec Ideal ⟨2, ![3, 64]⟩ .f32) (h4 : AllFin a4) (t : BitVec 32) (h0 : 0 ≤ t.toInt) (h1 : t.toInt ≤ 2) (q : Fin 64) :
    (a4 (ix2 (0 : Fin 3) q) + flag (IntOp.cmpi .sge t 1#32) * (a4 (ix2 (1 : Fin 3) q) - a4 (ix2 (0 : Fin 3) q)))
        + flag (IntOp.cmpi .sge t 2#32) * (a4 (ix2 (2 : Fin 3) q) - a4 (ix2 (1 : Fin 3) q))
      = a4 (ix2 (Cert.Spec.row 3 (by decide) t) q) := by
  have e1 : (1#32 : BitVec 32).toInt = 1 := by decide
  have e2 : (2#32 : BitVec 32).toInt = 2 := by decide
  have hrow : ∀ k : Fin 3, t.toInt = k.val → Cert.Spec.row 3 (by decide) t = k := fun k hk => Fin.ext (by
    show min t.toInt.toNat (3 - 1) = k.val
    have := k.isLt
    omega)
  rcases (by omega : t.toInt = 0 ∨ t.toInt = 1 ∨ t.toInt = 2) with h | h | h
  · rw [flag_sge_of_lt (by rw [e1]; omega), flag_sge_of_lt (by rw [e2]; omega), hrow 0 h]
    exact Cert.Spec.seg0 _ _ (h4 _)
  · rw [flag_sge_of_le (by rw [e1]; omega), flag_sge_of_lt (by rw [e2]; omega), hrow 1 h]
    exact Cert.Spec.seg1 _ (h4 _) (h4 _)
  · rw [flag_sge_of_le (by rw [e1]; omega), flag_sge_of_le (by rw [e2]; omega), hrow 2 h]
    exact Cert.Spec.seg2 (h4 _) (h4 _) (h4 _)

/-- The two halves of a gathered row blended by the flag of `s ≥ 512000` are word row `s`, for a word `s` in [0, 999999]:
    `lo` is word row `r` (the rewritten index), `hi` is word row `512000 + r` where `r < 488000` and anything otherwise. -/
theorem word_blend (a2 : FVec Ideal ⟨2, ![1000000, 64]⟩ .f32) (h2 : AllFin a2) (s : BitVec 32) (h0 : 0 ≤ s.toInt) (h1 : s.toInt ≤ 999999)
    (q : Fin 64) (lo hi : EReal)
    (hlo : ∀ hr : (Tile.fixIdx s).toNat % 512000 < 1000000, lo = a2 (ix2 ⟨(Tile.fixIdx s).toNat % 512000, hr⟩ q))
    (hhi : (Tile.fixIdx s).toNat % 512000 < 488000 →
      ∀ hr : 512000 + (Tile.fixIdx s).toNat % 512000 < 1000000, hi = a2 (ix2 ⟨512000 + (Tile.fixIdx s).toNat % 512000, hr⟩ q)) :
    lo + flag (IntOp.cmpi .sge s 512000#32) * (hi - lo) = a2 (ix2 (Cert.Spec.row 1000000 (by decide) s) q) := by
  have e5 : (512000#32 : BitVec 32).toInt = 512000 := by decide
  have hx := toInt_eq_toNat h0
  have hfix := fixIdx_toNat h0 h1
  by_cases hs : s.toInt < 512000
  · rw [if_pos hs] at hfix
    have hr : (Tile.fixIdx s).toNat % 512000 = s.toNat := by rw [hfix]; exact Nat.mod_eq_of_lt (by omega)
    rw [flag_sge_of_lt (by rw [e5]; exact hs), Cert.Spec.lerp_zero (by rw [hlo (by omega)]; exact h2 _), hlo (by omega)]
    exact congrArg (fun k => a2 (ix2 k q)) (Fin.ext (by
      show (Tile.fixIdx s).toNat % 512000 = min s.toInt.toNat (1000000 - 1)
      rw [hr]; omega))
  · rw [if_neg hs] at hfix
    have hr : (Tile.fixIdx s).toNat % 512000 = s.toNat - 512000 := by rw [hfix]; exact Nat.mod_eq_of_lt (by omega)
    have hlt : (Tile.fixIdx s).toNat % 512000 < 488000 := by rw [hr]; omega
    rw [flag_sge_of_le (by rw [e5]; omega), hlo (by omega), hhi hlt (by omega), Cert.Spec.lerp_one (h2 _) (h2 _)]
    exact congrArg (fun k => a2 (ix2 k q)) (Fin.ext (by
      show 512000 + (Tile.fixIdx s).toNat % 512000 = min s.toInt.toNat (1000000 - 1)
      rw [hr]; omega))

/-! ## The gathered rows' two halves -/

section Halves
variable (m : (ℓ : Loc nD τ sig) → Buf (Elt Ideal) ℓ) (d : Dev nD) (g : Buf (Elt Ideal) (aLoc d main_v3))

/-- The first 64 columns of gathered row (b, l): word row `r`, the rewritten index. -/
theorem lo_read (hg : Main.GathOK m d g) (B : Fin 1024) (l : Fin 512) (q : Fin 64)
    (hr : (Tile.fixIdx (m (aLoc d main_arg0) (ix2 B l))).toNat % 512000 < 1000000) :
    shapeCast S1024x512x128 g shapeCasts_S524288x128_S1024x512x128 (ix3 B l ⟨q.val, by have := q.isLt; omega⟩)
      = m (aLoc d main_arg2) (ix2 ⟨(Tile.fixIdx (m (aLoc d main_arg0) (ix2 B l))).toNat % 512000, hr⟩ q) := by
  rw [blk_apply]
  obtain ⟨f2, hp, hgq⟩ := gath_row m d g hg ⟨512 * B.val + l.val, by have := B.isLt; have := l.isLt; omega⟩ ⟨q.val, by have := q.isLt; omega⟩
  rw [hgq, sflat_apply]
  rw [(hp _ (ix2 q ⟨(Tile.fixIdx (m (aLoc d main_arg0) (ix2 B l))).toNat % 512000, hr⟩)).1 q.isLt rfl rfl, wT_apply]

/-- The last 64 columns of gathered row (b, l), where `r < 488000`: word row `512000 + r`. -/
theorem hi_read (hg : Main.GathOK m d g) (B : Fin 1024) (l : Fin 512) (q : Fin 64)
    (hlt : (Tile.fixIdx (m (aLoc d main_arg0) (ix2 B l))).toNat % 512000 < 488000)
    (hr : 512000 + (Tile.fixIdx (m (aLoc d main_arg0) (ix2 B l))).toNat % 512000 < 1000000) :
    shapeCast S1024x512x128 g shapeCasts_S524288x128_S1024x512x128 (ix3 B l ⟨64 + q.val, by have := q.isLt; omega⟩)
      = m (aLoc d main_arg2) (ix2 ⟨512000 + (Tile.fixIdx (m (aLoc d main_arg0) (ix2 B l))).toNat % 512000, hr⟩ q) := by
  rw [blk_apply]
  obtain ⟨f2, hp, hgq⟩ := gath_row m d g hg ⟨512 * B.val + l.val, by have := B.isLt; have := l.isLt; omega⟩ ⟨64 + q.val, by have := q.isLt; omega⟩
  rw [hgq, sflat_apply]
  rw [(hp _ (ix2 q ⟨512000 + (Tile.fixIdx (m (aLoc d main_arg0) (ix2 B l))).toNat % 512000, hr⟩)).2 hlt
    (by show 64 ≤ 64 + q.val; omega) (by show q.val + 64 = 64 + q.val; omega) rfl, wT_apply]

end Halves

/-! ## The finishing pass at an index -/

/-- Batch row `8 (b / 8) + j` exists. -/
theorem hb8 (B : Fin 1024) (j : Fin 8) : 8 * (B.val / 8) + j.val < 1024 := by
  have := B.isLt; have := j.isLt; omega

/-- The block of eight batch rows around row `b` of an [1024, 512, 128] array, and of an [1024, 512] index array. -/
def blkX (x : Vec Ideal S1024x512x128 .f32) (B : Fin 1024) : Vec Ideal S8x512x128 .f32 :=
  fun j => x (ix3 ⟨8 * (B.val / 8) + (j 0).val, hb8 B (j 0)⟩ (j 1) (j 2))
def blkI (a : Vec Ideal S1024x512 .i32) (B : Fin 1024) : Vec Ideal S8x512 .i32 :=
  fun j => a (ix2 ⟨8 * (B.val / 8) + (j 0).val, hb8 B (j 0)⟩ (j 1))

/-- The result at (b, l, q) is the stored term of that block, read at row `b % 8`. -/
theorem Finish_apply (x : Vec Ideal S1024x512x128 .f32) (a0 a1 : Vec Ideal S1024x512 .i32) (a3 : Vec Ideal S512x64 .f32)
    (a4 : Vec Ideal S3x64 .f32) (a5 a6 : Vec Ideal S64 .f32) (B : Fin 1024) (l : Fin 512) (q : Fin 64) :
    Reg.Finish (F := Ideal) x a0 a1 a3 a4 a5 a6 (ix3 B l q)
      = Reg.FinBlk (F := Ideal) (blkX x B) (blkI a0 B) (blkI a1 B) a3 a4 a5 a6 (ix3 ⟨B.val % 8, Nat.mod_lt _ (by decide)⟩ l q) := rfl

/-- The block's summed embedding at row `b % 8` is the whole arrays' at row `b`. -/
theorem eK_blk (x : Vec Ideal S1024x512x128 .f32) (a0 a1 : Vec Ideal S1024x512 .i32) (a3 : Vec Ideal S512x64 .f32)
    (a4 : Vec Ideal S3x64 .f32) (B : Fin 1024) (l : Fin 512) (q : Fin 64) :
    eK (blkX x B) (blkI a0 B) (blkI a1 B) a3 a4 ⟨B.val % 8, Nat.mod_lt _ (by decide)⟩ l q
      = ((x (ix3 B l ⟨q.val, by have := q.isLt; omega⟩)
            + flag (IntOp.cmpi .sge (a0 (ix2 B l)) 512000#32)
              * (x (ix3 B l ⟨64 + q.val, by have := q.isLt; omega⟩) - x (ix3 B l ⟨q.val, by have := q.isLt; omega⟩)))
          + a3 (ix2 l q))
        + ((a4 (ix2 (0 : Fin 3) q) + flag (IntOp.cmpi .sge (a1 (ix2 B l)) 1#32) * (a4 (ix2 (1 : Fin 3) q) - a4 (ix2 (0 : Fin 3) q)))
          + flag (IntOp.cmpi .sge (a1 (ix2 B l)) 2#32) * (a4 (ix2 (2 : Fin 3) q) - a4 (ix2 (1 : Fin 3) q))) := by
  have hB : ∀ h, (⟨8 * (B.val / 8) + B.val % 8, h⟩ : Fin 1024) = B := fun h => Fin.ext (by
    show 8 * (B.val / 8) + B.val % 8 = B.val; omega)
  show ((x (ix3 ⟨8 * (B.val / 8) + B.val % 8, _⟩ l ⟨q.val, _⟩)
            + flag (IntOp.cmpi .sge (a0 (ix2 ⟨8 * (B.val / 8) + B.val % 8, _⟩ l)) 512000#32)
              * (x (ix3 ⟨8 * (B.val / 8) + B.val % 8, _⟩ l ⟨64 + q.val, _⟩) - x (ix3 ⟨8 * (B.val / 8) + B.val % 8, _⟩ l ⟨q.val, _⟩)))
          + a3 (ix2 l q))
        + ((a4 (ix2 (0 : Fin 3) q) + flag (IntOp.cmpi .sge (a1 (ix2 ⟨8 * (B.val / 8) + B.val % 8, _⟩ l)) 1#32) * (a4 (ix2 (1 : Fin 3) q) - a4 (ix2 (0 : Fin 3) q)))
          + flag (IntOp.cmpi .sge (a1 (ix2 ⟨8 * (B.val / 8) + B.val % 8, _⟩ l)) 2#32) * (a4 (ix2 (2 : Fin 3) q) - a4 (ix2 (1 : Fin 3) q))) = _
  simp only [hB]

/-! ## The finishing pass over the gathered rows is the specification -/

theorem finish_eq_spec (m : (ℓ : Loc nD τ sig) → Buf (Elt Ideal) ℓ) (d : Dev nD)
    (hpre : Cert.Pre_input_domain.fn (F := Ideal) (m (aLoc d main_arg0)) (m (aLoc d main_arg1)) (m (aLoc d main_arg2))
      (m (aLoc d main_arg3)) (m (aLoc d main_arg4)) (m (aLoc d main_arg5)) (m (aLoc d main_arg6)) = fun _ => 1#1)
    (g : Buf (Elt Ideal) (aLoc d main_v3)) (hg : Main.GathOK m d g) :
    Reg.Finish (F := Ideal) (shapeCast S1024x512x128 g shapeCasts_S524288x128_S1024x512x128)
        (m (aLoc d main_arg0)) (m (aLoc d main_arg1)) (m (aLoc d main_arg3)) (m (aLoc d main_arg4)) (m (aLoc d main_arg5)) (m (aLoc d main_arg6))
      = Cert.Spec.out (m (aLoc d main_arg0)) (m (aLoc d main_arg1)) (m (aLoc d main_arg2)) (m (aLoc d main_arg3)) (m (aLoc d main_arg4))
          (m (aLoc d main_arg5)) (m (aLoc d main_arg6)) := by
  obtain ⟨r0, r1⟩ := Cert.RefPre.int_ranges _ _ _ _ _ _ _ hpre
  obtain ⟨h2, h3, h4, h5, h6⟩ := Cert.RefPre.finite _ _ _ _ _ _ _ hpre
  funext i
  obtain ⟨B, l, q, rfl⟩ : ∃ (B : Fin 1024) (l : Fin 512) (q : Fin 64), i = ix3 B l q := ⟨i 0, i 1, i 2, eq_ix3 i⟩
  show Reg.Finish (F := Ideal) _ _ _ _ _ _ _ (ix3 B l q) = Cert.Spec.outAt _ _ _ _ _ _ _ B l q
  rw [Finish_apply, FinBlk_apply]
  have hE : ∀ q' : Fin 64,
      eK (blkX (shapeCast S1024x512x128 g shapeCasts_S524288x128_S1024x512x128) B) (blkI (m (aLoc d main_arg0)) B)
          (blkI (m (aLoc d main_arg1)) B) (m (aLoc d main_arg3)) (m (aLoc d main_arg4)) ⟨B.val % 8, Nat.mod_lt _ (by decide)⟩ l q'
        = Cert.Spec.e (m (aLoc d main_arg0)) (m (aLoc d main_arg1)) (m (aLoc d main_arg2)) (m (aLoc d main_arg3)) (m (aLoc d main_arg4)) B l q' := fun q' => by
    rw [eK_blk]
    unfold Cert.Spec.e
    rw [word_blend (m (aLoc d main_arg2)) h2 (m (aLoc d main_arg0) (ix2 B l)) (r0 _).1 (r0 _).2 q' _ _
        (fun hr => lo_read m d g hg B l q' hr) (fun hlt hr => hi_read m d g hg B l q' hlt hr),
      seg_blend (m (aLoc d main_arg4)) h4 (m (aLoc d main_arg1) (ix2 B l)) (r1 _).1 (r1 _).2 q']
  simp only [hE]
  rw [Cert.Spec.ofBits_64]
  unfold Cert.Spec.outAt
  rw [← Cert.Spec.mul_rsqrt_eq_div_sqrt
    (isFin_sub (Cert.Spec.e_isFin _ _ _ _ _ h2 h3 h4 B l q) (Cert.Spec.mean_isFin _ _ _ _ _ h2 h3 h4 B l))
    (Cert.Spec.var_add_eps_isPos _ _ _ _ _ h2 h3 h4 B l)]
  rfl

end Cert.KernelIdeal.Val

end
-- ==== Proof.TileCells.lean ====
/-
  The tile's thirteen DMA semaphore cells (the four gathers', the four copy-outs', the five synchronous copies'),
  each at zero.
-/
import proofs.«205025_g42520176230720_cont_8to1_b_1509_29_alg».proof.Proof.KBase
import proofs.«205025_g42520176230720_cont_8to1_b_1509_29_alg».proof.Proof.TileDefs

noncomputable section

namespace Cert.KernelIdeal.Tile

open Cert.KernelIdeal Cert.KernelIdeal.Gen Cert.KernelIdeal.Base
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable [FloatOps F]

/-- The thirteen cells of the tile at zero (DMA semaphores 6..18), right-nested as ownSems0_tile lists them. -/
def cells0 (d : Dev nD) (L : grid1.Coords) : sProp 𝕄 :=
  iprop(semVal (thr d L, SemLoc.dma (⟨6, by decide⟩ : DmaSem sig)) 0
    ∗ semVal (thr d L, SemLoc.dma (⟨7, by decide⟩ : DmaSem sig)) 0
    ∗ semVal (thr d L, SemLoc.dma (⟨8, by decide⟩ : DmaSem sig)) 0
    ∗ semVal (thr d L, SemLoc.dma (⟨9, by decide⟩ : DmaSem sig)) 0
    ∗ semVal (thr d L, SemLoc.dma (⟨10, by decide⟩ : DmaSem sig)) 0
    ∗ semVal (thr d L, SemLoc.dma (⟨11, by decide⟩ : DmaSem sig)) 0
    ∗ semVal (thr d L, SemLoc.dma (⟨12, by decide⟩ : DmaSem sig)) 0
    ∗ semVal (thr d L, SemLoc.dma (⟨13, by decide⟩ : DmaSem sig)) 0
    ∗ semVal (thr d L, SemLoc.dma (⟨14, by decide⟩ : DmaSem sig)) 0
    ∗ semVal (thr d L, SemLoc.dma (⟨15, by decide⟩ : DmaSem sig)) 0
    ∗ semVal (thr d L, SemLoc.dma (⟨16, by decide⟩ : DmaSem sig)) 0
    ∗ semVal (thr d L, SemLoc.dma (⟨17, by decide⟩ : DmaSem sig)) 0
    ∗ semVal (thr d L, SemLoc.dma (⟨18, by decide⟩ : DmaSem sig)) 0)

end Cert.KernelIdeal.Tile

end
-- ==== Proof.TileVal.lean ====
/-
  The arithmetic of the tile's data movement, apart from any program: what one trip of the index rewrite leaves in
  the index scratch, which rows a gathered block holds, and how the tile's rows of the gathered array divide into
  the blocks in flight and the rest.
-/
import proofs.«205025_g42520176230720_cont_8to1_b_1509_29_alg».proof.Proof.TileDefs

noncomputable section

namespace Cert.KernelIdeal.Tile

open Cert.KernelIdeal Cert.KernelIdeal.Gen Cert.KernelIdeal.Base

open Idealize.ShloMosaic

variable {F : FTy → Type}

local notation "idxW" => (Memref.whole Cert.KernelIdeal.cc1_scratch0 : Memref Cert.KernelIdeal.sig Kind.scVector Space.vmem Cert.KernelIdeal.S4x128 EltTy.i32)

/-! ## The index rewrite, sixteen lanes a trip -/

/-- Slot `b` of the index scratch with its first `16 * t` entries rewritten, everything else as in `g`. -/
def fixPre (b t : Nat) (g : S4x128.Idx → BitVec 32) : S4x128.Idx → BitVec 32 :=
  fun j => if (j 0).val = b ∧ (j 1).val < 16 * t then fixIdx (g j) else g j

/-- Sixteen loaded lanes, each rewritten. -/
def fixLanes (v : Vec F S1x16 .i32) : IVec S16 32 := fun i => fixIdx (shapeCast S16 v shapeCasts_S1x16_S16 i)

theorem fixPre_zero (b : Nat) (g : S4x128.Idx → BitVec 32) : fixPre b 0 g = g := by
  funext j; unfold fixPre; simp

/-- One trip: the sixteen lanes at `(b, 16 * t)` loaded, rewritten and stored back extend the rewritten prefix. -/
theorem fixPre_step (b t : Nat) (hb : b < 4) (ht : t < 8) (g : S4x128.Idx → BitVec 32) (off : Fin 2 → Nat) (hoff : off = ![b, 16 * t])
    (hinb : ∀ a, off a + S1x16.size a ≤ S4x128.size a) :
    (idxW).view.writes (Elt F) (fixPre b t g)
        [⟨Rect.unit (s := S4x128) off S1x16.size hinb,
          shapeCast S1x16 (fixLanes (F := F) (View.readAt (Elt F) (idxW).view (Rect.unit (s := S4x128) off S1x16.size hinb).toLoadRect (fixPre b t g)))
            shapeCasts_S16_S1x16⟩]
      = fixPre b (t + 1) g := by
  subst hoff
  have hread : ∀ (f : S4x128.Idx → BitVec 32) (y : S4x128.Idx), (idxW).view.read (Elt F) f y = f y := fun f y => rfl
  refine View.contents_ext (idxW).view (fun y => ?_) (fun i hi => absurd rfl (hi i))
  by_cases hy : y ∈ (Rect.unit (s := S4x128) ![b, 16 * t] S1x16.size hinb).set
  · obtain ⟨x, rfl⟩ := (Rect.unit (s := S4x128) ![b, 16 * t] S1x16.size hinb).toLoadRect.exists_idx_of_mem hy
    have hx0 : (x 0).val < 1 := (x 0).isLt
    have hx1 : (x 1).val < 16 := (x 1).isLt
    have e0 : (((Rect.unit (s := S4x128) ![b, 16 * t] S1x16.size hinb).toLoadRect.idx x) 0).val = b := by
      rw [LoadRect.idx_apply]; show b + 1 * (x 0).val = b; omega
    have e1 : (((Rect.unit (s := S4x128) ![b, 16 * t] S1x16.size hinb).toLoadRect.idx x) 1).val = 16 * t + (x 1).val := by
      rw [LoadRect.idx_apply]; show 16 * t + 1 * (x 1).val = _; omega
    rw [show (Rect.unit (s := S4x128) ![b, 16 * t] S1x16.size hinb).toLoadRect.idx x = (Rect.unit (s := S4x128) ![b, 16 * t] S1x16.size hinb).emb x from rfl,
      View.read_writes_cons_emb, hread]
    show fixIdx ((idxW).view.read (Elt F) (fixPre b t g) ((Rect.unit (s := S4x128) ![b, 16 * t] S1x16.size hinb).toLoadRect.idx
        (Shape.reshapeEquiv _ (Shape.reshapeEquiv _ x)))) = _
    rw [Shape.reshapeEquiv_reshapeEquiv, Shape.reshapeEquiv_self, hread]
    have e0' : (((Rect.unit (s := S4x128) ![b, 16 * t] S1x16.size hinb).emb x) 0).val = b := e0
    have e1' : (((Rect.unit (s := S4x128) ![b, 16 * t] S1x16.size hinb).emb x) 1).val = 16 * t + (x 1).val := e1
    unfold fixPre
    rw [if_neg (by rw [e1]; omega), if_pos ⟨e0', by rw [e1']; omega⟩]
    rfl
  · have hy' : ¬ ((y 0).val = b ∧ 16 * t ≤ (y 1).val ∧ (y 1).val < 16 * t + 16) := by
      intro h
      apply hy
      rw [Rect.mem_set_unit, Fin.forall_fin_two]
      have h0 : (y 0).val < 4 := (y 0).isLt
      refine ⟨⟨?_, ?_⟩, ⟨?_, ?_⟩⟩
      · show b ≤ (y 0).val; omega
      · show (y 0).val < b + 1; omega
      · show 16 * t ≤ (y 1).val; omega
      · show (y 1).val < 16 * t + 16; omega
    rw [View.read_writes_apply_of_forall_not_mem _ _ y _ (by
      intro p hp; rw [List.mem_singleton] at hp; subst hp; exact hy), hread, hread]
    unfold fixPre
    by_cases h0 : (y 0).val = b
    · by_cases h1 : (y 1).val < 16 * t
      · rw [if_pos ⟨h0, h1⟩, if_pos ⟨h0, by omega⟩]
      · rw [if_neg (fun h => h1 h.2), if_neg (fun h => hy' ⟨h0, by omega, by omega⟩)]
    · rw [if_neg (fun h => h0 h.1), if_neg (fun h => h0 h.1)]

/-! ## The tile's rows of the gathered array, by blocks of 128 -/

theorem mem_outRows' (L : grid1.Coords) (i : S524288x128.Idx) :
    i ∈ outRows L ↔ row0 L ≤ (i 0).val ∧ (i 0).val < row0 L + 16384 := by
  unfold outRows outRect
  rw [Rect.mem_set_unit, Fin.forall_fin_two]
  have h1 : (i 1).val < 128 := (i 1).isLt
  show (row0 L ≤ (i 0).val ∧ (i 0).val < row0 L + 16384) ∧ (0 ≤ (i 1).val ∧ (i 1).val < 0 + 128) ↔ _
  omega

/-- Block `n` of the tile's rows: rows `128 n` to `128 n + 127` of its share, every column. -/
def outBlk (L : grid1.Coords) (n : Nat) : Finset S524288x128.Idx :=
  Finset.univ.filter fun i => row0 L + 128 * n ≤ (i 0).val ∧ (i 0).val < row0 L + 128 * n + 128

/-- The tile's rows less blocks `a` to `b - 1` (the blocks on their way out). -/
def outHeld (L : grid1.Coords) (a b : Nat) : Finset S524288x128.Idx :=
  (outRows L).filter fun i => ¬ (row0 L + 128 * a ≤ (i 0).val ∧ (i 0).val < row0 L + 128 * b)

theorem mem_outBlk (L : grid1.Coords) (n : Nat) (i : S524288x128.Idx) :
    i ∈ outBlk L n ↔ row0 L + 128 * n ≤ (i 0).val ∧ (i 0).val < row0 L + 128 * n + 128 := by
  unfold outBlk; simp

theorem mem_outHeld (L : grid1.Coords) (a b : Nat) (i : S524288x128.Idx) :
    i ∈ outHeld L a b ↔ (row0 L ≤ (i 0).val ∧ (i 0).val < row0 L + 16384) ∧ ¬ (row0 L + 128 * a ≤ (i 0).val ∧ (i 0).val < row0 L + 128 * b) := by
  unfold outHeld; rw [Finset.mem_filter, mem_outRows']

theorem outHeld_self (L : grid1.Coords) (a : Nat) : outHeld L a a = outRows L := by
  ext i; rw [mem_outHeld, mem_outRows']; omega

theorem outBlkRect_inb (L : grid1.Coords) (n : Nat) (hn : n < 128) :
    ∀ a, (![row0 L + 128 * n, 0] : Fin 2 → Nat) a + S128x128.size a ≤ S524288x128.size a := by
  have h := row0_le L
  exact Fin.forall_fin_two.mpr ⟨by show row0 L + 128 * n + 128 ≤ 524288; omega, Nat.le_refl _⟩

/-- A block as the unit rectangle the body slices. -/
theorem set_outBlkRect (L : grid1.Coords) (n : Nat) (off : Fin 2 → Nat) (hoff : off = ![row0 L + 128 * n, 0])
    (hinb : ∀ a, off a + S128x128.size a ≤ S524288x128.size a) :
    (Rect.unit (s := S524288x128) off S128x128.size hinb).set = outBlk L n := by
  subst hoff
  ext i
  rw [Rect.mem_set_unit, Fin.forall_fin_two, mem_outBlk]
  have h1 : (i 1).val < 128 := (i 1).isLt
  show (row0 L + 128 * n ≤ (i 0).val ∧ (i 0).val < row0 L + 128 * n + 128) ∧ (0 ≤ (i 1).val ∧ (i 1).val < 0 + 128) ↔ _
  omega

/-- Sending block `b` out: it is among the rows held, and what is left is the rows held less one more block. -/
theorem outBlk_subset_held (L : grid1.Coords) (a b : Nat) (hab : a ≤ b) (hb : b < 128) : outBlk L b ⊆ outHeld L a b := by
  intro i; rw [mem_outBlk, mem_outHeld]; omega
theorem outHeld_sdiff_blk (L : grid1.Coords) (a b : Nat) (hab : a ≤ b) (hb : b < 128) : outHeld L a b \ outBlk L b = outHeld L a (b + 1) := by
  ext i; rw [Finset.mem_sdiff, mem_outBlk, mem_outHeld, mem_outHeld]; omega

/-- Taking block `a` back: it is among the rows held once it is back, and less it they are the rows held before. -/
theorem outBlk_subset_held' (L : grid1.Coords) (a b : Nat) (hab : a < b) (hb : b ≤ 128) : outBlk L a ⊆ outHeld L (a + 1) b := by
  intro i; rw [mem_outBlk, mem_outHeld]; omega
theorem outHeld_sdiff_blk' (L : grid1.Coords) (a b : Nat) (hab : a < b) (hb : b ≤ 128) : outHeld L (a + 1) b \ outBlk L a = outHeld L a b := by
  ext i; rw [Finset.mem_sdiff, mem_outBlk, mem_outHeld, mem_outHeld]; omega

/-! ## The gathered block in closed form -/

/-- Row `r`, column `c` of the gathered array. -/
def outIx (r : Fin 524288) (c : Fin 128) : S524288x128.Idx := fun a => match a with
  | ⟨0, _⟩ => r
  | ⟨1, _⟩ => c
  | ⟨k + 2, h⟩ => absurd h (Nat.not_lt.2 (Nat.le_add_left _ _))

/-- Entry `r` of the flattened index array (reduced into range, which changes nothing for the rows a tile reads). -/
def srcRowIx (r : Nat) : S524288.Idx := srcIx ⟨r % 524288, Nat.mod_lt _ (by decide)⟩

/-- Block `n` of the tile's share of the gathered array, as a 128 × 128 payload. -/
def gRows (d : Dev nD) (L : grid1.Coords) (s : Buf (Elt F) (aLoc d main_v0)) (f2 : Buf (Elt F) (aLoc d main_v2)) (n : Nat) :
    S128x128.Idx → Elt F .f32 :=
  fun j => gath d s f2 (outIx ⟨(row0 L + 128 * n + (j 0).val) % 524288, Nat.mod_lt _ (by decide)⟩ (j 1))

end Cert.KernelIdeal.Tile

end
-- ==== Proof.TileAuxA.lean ====
/-
  The tile's own semaphores and scratch buffers, opened: its thirteen DMA semaphore cells (the four gathers', the
  four copy-outs', the five synchronous copies') each at zero beside the rest of its scoped cells, and its two
  scratch buffers each whole at some contents beside the rest of its own buffers.
-/
import proofs.«205025_g42520176230720_cont_8to1_b_1509_29_alg».proof.Proof.TileVal

noncomputable section

namespace Cert.KernelIdeal.Tile

open Cert.KernelIdeal Cert.KernelIdeal.Gen Cert.KernelIdeal.Base
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)

/-- The tile's thirteen cells, by number. -/
def tileCell (d : Dev nD) (L : grid1.Coords) (n : Fin 13) : GSem nD τ sig := (thr d L, SemLoc.dma (⟨6 + n.val, Nat.lt_of_lt_of_le (Nat.add_lt_add_left n.isLt 6) (by decide)⟩ : DmaSem sig))

theorem tileCell_mem (d : Dev nD) (L : grid1.Coords) (n : Fin 13) : tileCell d L n ∈ ownCells (thr d L) :=
  mem_ownCells.mpr ⟨rfl, by
    show (SemLoc.dma (⟨6 + n.val, Nat.lt_of_lt_of_le (Nat.add_lt_add_left n.isLt 6) (by decide)⟩ : DmaSem sig) : SemLoc sig).isScoped .scVector = true
    revert n; decide⟩

theorem tileCell_inj (d : Dev nD) (L : grid1.Coords) : Set.InjOn (tileCell d L) ((Finset.univ : Finset (Fin 13)) : Set (Fin 13)) := by
  intro a _ b _ e
  have h := congrArg Fin.val (SemLoc.dma.inj (Prod.mk.inj e).2)
  exact Fin.ext (by simp only at h; omega)

theorem ownSems0_tile (d : Dev nD) (L : grid1.Coords) :
    (ownSems0 (thr d L) : sProp 𝕄)
      = iprop(semVal (thr d L, SemLoc.dma (⟨6, by decide⟩ : DmaSem sig)) 0
          ∗ semVal (thr d L, SemLoc.dma (⟨7, by decide⟩ : DmaSem sig)) 0
          ∗ semVal (thr d L, SemLoc.dma (⟨8, by decide⟩ : DmaSem sig)) 0
          ∗ semVal (thr d L, SemLoc.dma (⟨9, by decide⟩ : DmaSem sig)) 0
          ∗ semVal (thr d L, SemLoc.dma (⟨10, by decide⟩ : DmaSem sig)) 0
          ∗ semVal (thr d L, SemLoc.dma (⟨11, by decide⟩ : DmaSem sig)) 0
          ∗ semVal (thr d L, SemLoc.dma (⟨12, by decide⟩ : DmaSem sig)) 0
          ∗ semVal (thr d L, SemLoc.dma (⟨13, by decide⟩ : DmaSem sig)) 0
          ∗ semVal (thr d L, SemLoc.dma (⟨14, by decide⟩ : DmaSem sig)) 0
          ∗ semVal (thr d L, SemLoc.dma (⟨15, by decide⟩ : DmaSem sig)) 0
          ∗ semVal (thr d L, SemLoc.dma (⟨16, by decide⟩ : DmaSem sig)) 0
          ∗ semVal (thr d L, SemLoc.dma (⟨17, by decide⟩ : DmaSem sig)) 0
          ∗ semVal (thr d L, SemLoc.dma (⟨18, by decide⟩ : DmaSem sig)) 0
          ∗ bigSep ((ownCells (thr d L)) \ (Finset.univ.image (tileCell d L))) fun g => semVal g 0) := by
  unfold SparseCore.Cfg.ownSems0
  have hsub : Finset.univ.image (tileCell d L) ⊆ ownCells (thr d L) := by
    intro g hg; obtain ⟨n, -, rfl⟩ := Finset.mem_image.mp hg; exact tileCell_mem d L n
  have e1 : (bigSep (ownCells (thr d L)) fun g => (semVal g 0 : sProp 𝕄))
      = iprop((bigSep (Finset.univ.image (tileCell d L)) fun g => semVal g 0)
          ∗ bigSep (ownCells (thr d L) \ Finset.univ.image (tileCell d L)) fun g => semVal g 0) := by
    conv_lhs => rw [← Finset.union_sdiff_of_subset hsub]
    exact bigSep_union Finset.disjoint_sdiff
  rw [e1, SparseCore.bigSep_image_of_injOn (tileCell_inj d L),
    bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide)]
  refine BI.equiv_iff.mp ⟨?_, ?_⟩
  · show (iprop((semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0) ∗ (bigSep ((ownCells (thr d L)) \ (Finset.univ.image (tileCell d L))) fun g => semVal g 0)) : sProp 𝕄) ⊢ iprop(semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0 ∗ (bigSep ((ownCells (thr d L)) \ (Finset.univ.image (tileCell d L))) fun g => semVal g 0))
    iintro ⟨⟨H0, H1, H2, H3, H4, H5, H6, H7, H8, H9, H10, H11, H12⟩, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HR
  · show (iprop(semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0 ∗ (bigSep ((ownCells (thr d L)) \ (Finset.univ.image (tileCell d L))) fun g => semVal g 0)) : sProp 𝕄) ⊢ iprop((semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0) ∗ (bigSep ((ownCells (thr d L)) \ (Finset.univ.image (tileCell d L))) fun g => semVal g 0))
    iintro ⟨H0, H1, H2, H3, H4, H5, H6, H7, H8, H9, H10, H11, H12, HR⟩
    isplitr [HR]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexact HR

theorem ownBufs_tile (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Cert.KernelIdeal.Tile

end
-- ==== Proof.TileVal2.lean ====
/-
  The index scratch by slots: a slot's elements are one row of it, and a slot's window handed back by a gather rejoins
  the rest of the scratch while another slot's window is still lent.
-/
import proofs.«205025_g42520176230720_cont_8to1_b_1509_29_alg».proof.Proof.TileVal

noncomputable section

namespace Cert.KernelIdeal.Tile

open Cert.KernelIdeal Cert.KernelIdeal.Gen Cert.KernelIdeal.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "idxW" => (Memref.whole Cert.KernelIdeal.cc1_scratch0 : Memref Cert.KernelIdeal.sig Kind.scVector Space.vmem Cert.KernelIdeal.S4x128 EltTy.i32)

/-! ## The index scratch by slots -/

/-- Slot `b` of the index scratch, as the body slices and squeezes it, is row `b`. -/
theorem mem_idxSlot (b : Nat) (hinb : ∀ a, (![b, 0] : Fin 2 → Nat) a + S1x128.size a ≤ S4x128.size a) (i : S4x128.Idx) :
    i ∈ (((idxW).slice (Rect.unit (s := S4x128) ![b, 0] S1x128.size hinb) (fun _ => rfl)).squeeze S128 squeezes_S1x128_S128).view.set ↔ (i 0).val = b := by
  have e : (((idxW).slice (Rect.unit (s := S4x128) ![b, 0] S1x128.size hinb) (fun _ => rfl)).squeeze S128 squeezes_S1x128_S128).view.set
      = (Rect.unit (s := S4x128) ![b, 0] S1x128.size hinb).set := by
    simp only [Memref.view_squeeze, View.set_reshape, Memref.view_slice, Memref.view_whole, View.set_slice_whole]
  rw [e, Rect.mem_set_unit, Fin.forall_fin_two]
  have h1 : (i 1).val < 128 := (i 1).isLt
  show (b ≤ (i 0).val ∧ (i 0).val < b + 1) ∧ (0 ≤ (i 1).val ∧ (i 1).val < 0 + 128) ↔ _
  omega

/-- A returned slot window rejoins the scratch's rest: slot `b`'s window back, slot `b'`'s still out. -/
theorem idx_rejoin (d : Dev nD) (L : grid1.Coords) (b b' : Nat) (hbb : b ≠ b')
    (hinb : ∀ a, (![b, 0] : Fin 2 → Nat) a + S1x128.size a ≤ S4x128.size a)
    (hinb' : ∀ a, (![b', 0] : Fin 2 → Nat) a + S1x128.size a ≤ S4x128.size a)
    (G gi : Buf (Elt F) ((idxW).view.loc (thr d L))) :
    iprop(((idxW).view.loc (thr d L) ↦[(Finset.univ \ (((idxW).slice (Rect.unit (s := S4x128) ![b, 0] S1x128.size hinb) (fun _ => rfl)).squeeze S128 squeezes_S1x128_S128).view.set)
              \ (((idxW).slice (Rect.unit (s := S4x128) ![b', 0] S1x128.size hinb') (fun _ => rfl)).squeeze S128 squeezes_S1x128_S128).view.set]{fullShare} G)
        ∗ ((idxW).view.loc (thr d L) ↦[(((idxW).slice (Rect.unit (s := S4x128) ![b, 0] S1x128.size hinb) (fun _ => rfl)).squeeze S128 squeezes_S1x128_S128).view.set]{fullShare} gi))
      ⊢ ((idxW).view.loc (thr d L) ↦[Finset.univ \ (((idxW).slice (Rect.unit (s := S4x128) ![b', 0] S1x128.size hinb') (fun _ => rfl)).squeeze S128 squeezes_S1x128_S128).view.set]{fullShare}
          ((((idxW).slice (Rect.unit (s := S4x128) ![b, 0] S1x128.size hinb) (fun _ => rfl)).squeeze S128 squeezes_S1x128_S128).view.set).piecewise gi G : sProp 𝕄) := by
  have hsub : (((idxW).slice (Rect.unit (s := S4x128) ![b, 0] S1x128.size hinb) (fun _ => rfl)).squeeze S128 squeezes_S1x128_S128).view.set
      ⊆ Finset.univ \ (((idxW).slice (Rect.unit (s := S4x128) ![b', 0] S1x128.size hinb') (fun _ => rfl)).squeeze S128 squeezes_S1x128_S128).view.set := by
    intro i hi
    rw [Finset.mem_sdiff]
    refine ⟨Finset.mem_univ _, fun hi' => hbb ?_⟩
    rw [mem_idxSlot] at hi hi'
    omega
  rw [sdiff_right_comm]
  iintro ⟨Hrest, Hwin⟩
  iapply (pointsTo_join_subset hsub)
  isplitl [Hwin]
  · iexact Hwin
  · iexact Hrest

end Cert.KernelIdeal.Tile

end
-- ==== Proof.TilePEF.lean ====
/-
  The gathered array's 128-row blocks at the offsets the body computes for its copies out, in closed form; and the
  table's read share as four read tokens and a remainder.
-/
import proofs.«205025_g42520176230720_cont_8to1_b_1509_29_alg».proof.Proof.TileVal
import Idealize.ShloMosaic.Lib.Transfers

noncomputable section

namespace Cert.KernelIdeal.Tile

open Cert.KernelIdeal Cert.KernelIdeal.Gen Cert.KernelIdeal.Base
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)

/-! ## Offsets in closed form, and every site's block of the gathered array -/

theorem k1_off3_eq' : ∀ (i : grid1.Coords) (k : Fin k1_t2_loop.trips), k1_cond1 k = 1#1 →
    k1_off3 i k = ![32768 * (i 1).val + 16384 * (i 0).val + 512 * k.val - 384, 0] := by
  decide +kernel
theorem k1_off7_eq' : ∀ (i : grid1.Coords) (k : Fin k1_t2_loop.trips), k1_cond3 k = 1#1 →
    k1_off7 i k = ![32768 * (i 1).val + 16384 * (i 0).val + 512 * k.val - 256, 0] := by
  decide +kernel
theorem k1_off10_eq' : ∀ (i : grid1.Coords) (k : Fin k1_t2_loop.trips), k1_cond5 k = 1#1 →
    k1_off10 i k = ![32768 * (i 1).val + 16384 * (i 0).val + 512 * k.val - 128, 0] := by
  decide +kernel

/-- A 128-row block memref of the gathered array at ANY offsets equal to block `n`'s holds exactly `outBlk L n`. -/
theorem set_outSlice (L : grid1.Coords) (n : Nat) (off : Fin 2 → Nat) (hoff : off = ![row0 L + 128 * n, 0])
    (hinb : ∀ a, off a + S128x128.size a ≤ S524288x128.size a) :
    ((outW).slice (Rect.unit (s := S524288x128) off S128x128.size hinb) (fun _ => rfl)).view.set = outBlk L n := by
  exact (View.set_slice_whole main_v3_scv (Rect.unit (s := S524288x128) off S128x128.size hinb)).trans (set_outBlkRect L n off hoff hinb)

/-! ## The table's read share as the four gathers' read tokens and a remainder -/

/-- What is left of `q2` beside tokens 6..9. -/
def tabRest (d : Dev nD) (L : grid1.Coords) (q2 : PosShare TreeShare) (f2 : Buf (Elt F) ((tabW).view.loc (thr d L))) : sProp 𝕄 :=
  iprop(((tabW).view.loc (thr d L) ↦{Transfers.shareDrop q2 10} f2) ∗ BI.bigSep (Finset.range 6) (fun i => (tabW).view.loc (thr d L) ↦{Transfers.shareTokN q2 i} f2))

theorem tab_tokens (d : Dev nD) (L : grid1.Coords) (q2 : PosShare TreeShare) (f2 : Buf (Elt F) ((tabW).view.loc (thr d L))) :
    ((tabW).view.loc (thr d L) ↦{q2} f2 : sProp 𝕄)
      ⊣⊢ iprop(tabRest d L q2 f2 ∗ ((tabW).view.loc (thr d L) ↦{Transfers.shareTokN q2 6} f2) ∗ ((tabW).view.loc (thr d L) ↦{Transfers.shareTokN q2 7} f2)
          ∗ ((tabW).view.loc (thr d L) ↦{Transfers.shareTokN q2 8} f2) ∗ ((tabW).view.loc (thr d L) ↦{Transfers.shareTokN q2 9} f2)) := by
  have h := Transfers.pointsTo_toks_range (Ix := HIx 1) (Name := ℕ) (U := UU) (Lvl := ℕ) (ℓ := (tabW).view.loc (thr d L)) (S := Finset.univ) (f := f2) q2 10
  have hb : BI.bigSep (Finset.range 10) (fun i => ((tabW).view.loc (thr d L) ↦{Transfers.shareTokN q2 i} f2 : sProp 𝕄))
      = iprop(((tabW).view.loc (thr d L) ↦{Transfers.shareTokN q2 9} f2) ∗ ((tabW).view.loc (thr d L) ↦{Transfers.shareTokN q2 8} f2)
          ∗ ((tabW).view.loc (thr d L) ↦{Transfers.shareTokN q2 7} f2) ∗ ((tabW).view.loc (thr d L) ↦{Transfers.shareTokN q2 6} f2)
          ∗ BI.bigSep (Finset.range 6) (fun i => (tabW).view.loc (thr d L) ↦{Transfers.shareTokN q2 i} f2)) := by
    rw [show (10 : ℕ) = 9 + 1 from rfl, Finset.range_add_one, BI.bigSep_insert Finset.notMem_range_self,
      show (9 : ℕ) = 8 + 1 from rfl, Finset.range_add_one, BI.bigSep_insert Finset.notMem_range_self,
      show (8 : ℕ) = 7 + 1 from rfl, Finset.range_add_one, BI.bigSep_insert Finset.notMem_range_self,
      show (7 : ℕ) = 6 + 1 from rfl, Finset.range_add_one, BI.bigSep_insert Finset.notMem_range_self]
    rfl
  rw [hb] at h
  unfold tabRest
  constructor
  · refine h.1.trans ?_
    iintro ⟨Hd, H9, H8, H7, H6, Hr⟩
    isplitl [Hd Hr]
    · isplitl [Hd]; · iexact Hd
      iexact Hr
    isplitl [H6]; · iexact H6
    isplitl [H7]; · iexact H7
    isplitl [H8]; · iexact H8
    iexact H9
  · refine BIBase.Entails.trans ?_ h.2
    iintro ⟨⟨Hd, Hr⟩, H6, H7, H8, H9⟩
    isplitl [Hd]; · iexact Hd
    isplitl [H9]; · iexact H9
    isplitl [H8]; · iexact H8
    isplitl [H7]; · iexact H7
    isplitl [H6]; · iexact H6
    iexact Hr

end Cert.KernelIdeal.Tile

end
-- ==== Proof.TileOff.lean ====
/-
  Every offset the tile's body computes, as a row of the tile's share: block `4 k + j` of the trip's four, the three blocks
  still on their way out, and the four the epilogue waits for.
-/
import proofs.«205025_g42520176230720_cont_8to1_b_1509_29_alg».proof.Proof.TileVal
import proofs.«205025_g42520176230720_cont_8to1_b_1509_29_alg».proof.Proof.TilePEF

noncomputable section

namespace Cert.KernelIdeal.Tile

open Cert.KernelIdeal Cert.KernelIdeal.Gen Cert.KernelIdeal.Base
open Idealize.ShloMosaic

theorem trips_eq : k1_t2_loop.trips = 32 := by decide

theorem off1_row (L : grid1.Coords) : k1_off1 L = ![row0 L + 128 * 0] := by
  rw [k1_off1_eq, row0_eq]; congr 1
theorem off4_row (L : grid1.Coords) (k : Fin k1_t2_loop.trips) : k1_off4 L k = ![row0 L + 128 * (4 * k.val + 1)] := by
  rw [k1_off4_eq, row0_eq]; congr 1; omega
theorem off8_row (L : grid1.Coords) (k : Fin k1_t2_loop.trips) : k1_off8 L k = ![row0 L + 128 * (4 * k.val + 2)] := by
  rw [k1_off8_eq, row0_eq]; congr 1; omega
theorem off11_row (L : grid1.Coords) (k : Fin k1_t2_loop.trips) : k1_off11 L k = ![row0 L + 128 * (4 * k.val + 3)] := by
  rw [k1_off11_eq, row0_eq]; congr 1; omega
theorem off14_row (L : grid1.Coords) (k : Fin k1_t2_loop.trips) : k1_off14 L k = ![row0 L + 128 * (4 * k.val + 4)] := by
  rw [k1_off14_eq, row0_eq]; congr 1; omega
theorem off6_row (L : grid1.Coords) (k : Fin k1_t2_loop.trips) (r : Fin 4) :
    k1_off6 L k (BitVec.ofNat 32 r.val) = ![row0 L + 128 * (4 * k.val + r.val), 0] := by
  rw [k1_off6_eq, row0_eq]; congr 1; omega
theorem off13_row (L : grid1.Coords) (k : Fin k1_t2_loop.trips) : k1_off13 L k = ![row0 L + 128 * (4 * k.val), 0] := by
  rw [k1_off13_eq, row0_eq]; congr 1; omega
theorem off16_row (L : grid1.Coords) (r : Fin 4) :
    k1_off16 L (BitVec.ofNat 32 (15872 + 128 * r.val)) = ![row0 L + 128 * (124 + r.val), 0] := by
  rw [k1_off16_eq, row0_eq]; congr 1; omega
theorem off3_row (L : grid1.Coords) (k : Fin k1_t2_loop.trips) (h : k1_cond1 k = 1#1) (hk : 1 ≤ k.val) :
    k1_off3 L k = ![row0 L + 128 * (4 * k.val - 3), 0] := by
  rw [k1_off3_eq' L k h, row0_eq]; congr 1; omega
theorem off7_row (L : grid1.Coords) (k : Fin k1_t2_loop.trips) (h : k1_cond3 k = 1#1) (hk : 1 ≤ k.val) :
    k1_off7 L k = ![row0 L + 128 * (4 * k.val - 2), 0] := by
  rw [k1_off7_eq' L k h, row0_eq]; congr 1; omega
theorem off10_row (L : grid1.Coords) (k : Fin k1_t2_loop.trips) (h : k1_cond5 k = 1#1) (hk : 1 ≤ k.val) :
    k1_off10 L k = ![row0 L + 128 * (4 * k.val - 1), 0] := by
  rw [k1_off10_eq' L k h, row0_eq]; congr 1; omega

end Cert.KernelIdeal.Tile

end
-- ==== Proof.TileInv.lean ====
/-
  The state of a tile between two trips of its main loop, as one assertion: which gather and which copy-outs are in
  flight and with what payloads, which semaphores are free, what the index scratch, the table's read tokens and the tile's
  rows of the gathered array are held as.
-/
import proofs.«205025_g42520176230720_cont_8to1_b_1509_29_alg».proof.Proof.TileVal

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

/-! ## Transfers in flight -/

/-- The gather of payload `w` into slot 0 of the row scratch, in flight on the slot's own semaphore: it delivers the slot
    written with `w` (over `fr`), the slot's index list (at `gi`) and the table's read token it borrowed. -/
def gFl0 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨6, by decide⟩ : DmaSem sig)) default 524288
            iprop((((rowS0).view.loc (thr d L) ↦[(rowS0).view.set]{fullShare} (rowS0).view.writes (Elt F) fr [⟨Rect.whole S128x128, w⟩])
                ∗ (idxW).view.loc (thr d L) ↦[(idxS0).view.set]{fullShare} gi)
              ∗ (tabW).view.loc (thr d L) ↦[(tabSl).view.set]{Transfers.shareTokN q2 6} f2)

/-- The gather of payload `w` into slot 1 of the row scratch, in flight on the slot's own semaphore: it delivers the slot
    written with `w` (over `fr`), the slot's index list (at `gi`) and the table's read token it borrowed. -/
def gFl1 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨7, by decide⟩ : DmaSem sig)) default 524288
            iprop((((rowS1).view.loc (thr d L) ↦[(rowS1).view.set]{fullShare} (rowS1).view.writes (Elt F) fr [⟨Rect.whole S128x128, w⟩])
                ∗ (idxW).view.loc (thr d L) ↦[(idxS1).view.set]{fullShare} gi)
              ∗ (tabW).view.loc (thr d L) ↦[(tabSl).view.set]{Transfers.shareTokN q2 7} f2)

/-- The gather of payload `w` into slot 2 of the row scratch, in flight on the slot's own semaphore: it delivers the slot
    written with `w` (over `fr`), the slot's index list (at `gi`) and the table's read token it borrowed. -/
def gFl2 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨8, by decide⟩ : DmaSem sig)) default 524288
            iprop((((rowS2).view.loc (thr d L) ↦[(rowS2).view.set]{fullShare} (rowS2).view.writes (Elt F) fr [⟨Rect.whole S128x128, w⟩])
                ∗ (idxW).view.loc (thr d L) ↦[(idxS2).view.set]{fullShare} gi)
              ∗ (tabW).view.loc (thr d L) ↦[(tabSl).view.set]{Transfers.shareTokN q2 8} f2)

/-- The gather of payload `w` into slot 3 of the row scratch, in flight on the slot's own semaphore: it delivers the slot
    written with `w` (over `fr`), the slot's index list (at `gi`) and the table's read token it borrowed. -/
def gFl3 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨9, by decide⟩ : DmaSem sig)) default 524288
            iprop((((rowS3).view.loc (thr d L) ↦[(rowS3).view.set]{fullShare} (rowS3).view.writes (Elt F) fr [⟨Rect.whole S128x128, w⟩])
                ∗ (idxW).view.loc (thr d L) ↦[(idxS3).view.set]{fullShare} gi)
              ∗ (tabW).view.loc (thr d L) ↦[(tabSl).view.set]{Transfers.shareTokN q2 9} f2)

/-- The copy-out of payload `w` from slot 0 (holding `C`) into the 128-row block at offsets `off`, in flight on the slot's
    copy-out semaphore. -/
def oFl0 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨10, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS0).view.loc (thr d L) ↦[(rowS0).view.set]{fullShare} C)

omit [FloatOps F] in
/-- The same flight at offsets spelt otherwise. -/
theorem oFl0_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl0 d L off hinb fo w C : sProp 𝕄) = oFl0 d L off' hinb' fo w C := by
  subst e; rfl

/-- The copy-out of payload `w` from slot 1 (holding `C`) into the 128-row block at offsets `off`, in flight on the slot's
    copy-out semaphore. -/
def oFl1 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨11, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS1).view.loc (thr d L) ↦[(rowS1).view.set]{fullShare} C)

omit [FloatOps F] in
/-- The same flight at offsets spelt otherwise. -/
theorem oFl1_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl1 d L off hinb fo w C : sProp 𝕄) = oFl1 d L off' hinb' fo w C := by
  subst e; rfl

/-- The copy-out of payload `w` from slot 2 (holding `C`) into the 128-row block at offsets `off`, in flight on the slot's
    copy-out semaphore. -/
def oFl2 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨12, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS2).view.loc (thr d L) ↦[(rowS2).view.set]{fullShare} C)

omit [FloatOps F] in
/-- The same flight at offsets spelt otherwise. -/
theorem oFl2_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl2 d L off hinb fo w C : sProp 𝕄) = oFl2 d L off' hinb' fo w C := by
  subst e; rfl

/-- The copy-out of payload `w` from slot 3 (holding `C`) into the 128-row block at offsets `off`, in flight on the slot's
    copy-out semaphore. -/
def oFl3 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨13, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS3).view.loc (thr d L) ↦[(rowS3).view.set]{fullShare} C)

omit [FloatOps F] in
/-- The same flight at offsets spelt otherwise. -/
theorem oFl3_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl3 d L off hinb fo w C : sProp 𝕄) = oFl3 d L off' hinb' fo w C := by
  subst e; rfl

/-! ## Between two trips -/

/-- The first block still on its way out before trip `k` (the epilogue's four after the last trip). -/
def heldLo (k : Nat) : Nat := if k = 32 then 124 else 4 * k - 3

/-- The gathers' side: before trip `k < 32` block `4 k` is being gathered into slot 0 on read token 6; after the last trip
    every gather has been waited for. -/
def invGather (d : Dev nD) (L : grid1.Coords) (q2 : PosShare TreeShare) (s : Buf (Elt F) (aLoc d main_v0)) (f2 : Buf (Elt F) (aLoc d main_v2))
    (k : Nat) : sProp 𝕄 :=
  if k < 32 then
    iprop(((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
      ∗ (∃ fr gi, gFl0 d L q2 f2 fr gi (gRows d L s f2 (4 * k)))
      ∗ (∃ g, (idxW).view.loc (thr d L) ↦[Finset.univ \ (idxS0).view.set]{fullShare} g)
      ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
  else
    iprop(((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
      ∗ (∃ g, (idxW).view.loc (thr d L) ↦{fullShare} g)
      ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)

/-- The copy-outs' side: before the first trip nothing is on its way out; before trip `1 ≤ k < 32` blocks `4 k - 3` to
    `4 k - 1` are, from slots 1 to 3; after the last trip blocks 124 to 127, from all four. -/
def invCopy (d : Dev nD) (L : grid1.Coords) (s : Buf (Elt F) (aLoc d main_v0)) (f2 : Buf (Elt F) (aLoc d main_v2)) (k : Nat) : sProp 𝕄 :=
  if hk0 : k = 0 then
    iprop((∃ C, (rowS1).view.loc (thr d L) ↦[(rowS1).view.set]{fullShare} C) ∗ (∃ C, (rowS2).view.loc (thr d L) ↦[(rowS2).view.set]{fullShare} C) ∗ (∃ C, (rowS3).view.loc (thr d L) ↦[(rowS3).view.set]{fullShare} C) ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0)
  else if hk : k < 32 then
    iprop(semVal (thr d L, SemLoc.dma (⟨10, by decide⟩ : DmaSem sig)) 0 ∗ (∃ fo C, oFl1 d L ![row0 L + 128 * (4 * k - 3), 0] (outBlkRect_inb L (4 * k - 3) (by omega)) fo (gRows d L s f2 (4 * k - 3)) C) ∗ (∃ fo C, oFl2 d L ![row0 L + 128 * (4 * k - 2), 0] (outBlkRect_inb L (4 * k - 2) (by omega)) fo (gRows d L s f2 (4 * k - 2)) C) ∗ (∃ fo C, oFl3 d L ![row0 L + 128 * (4 * k - 1), 0] (outBlkRect_inb L (4 * k - 1) (by omega)) fo (gRows d L s f2 (4 * k - 1)) C))
  else
    iprop((∃ fo C, oFl0 d L ![row0 L + 128 * (124), 0] (outBlkRect_inb L (124) (by decide)) fo (gRows d L s f2 (124)) C) ∗ (∃ fo C, oFl1 d L ![row0 L + 128 * (125), 0] (outBlkRect_inb L (125) (by decide)) fo (gRows d L s f2 (125)) C) ∗ (∃ fo C, oFl2 d L ![row0 L + 128 * (126), 0] (outBlkRect_inb L (126) (by decide)) fo (gRows d L s f2 (126)) C) ∗ (∃ fo C, oFl3 d L ![row0 L + 128 * (127), 0] (outBlkRect_inb L (127) (by decide)) fo (gRows d L s f2 (127)) C))

/-- The tile's rows of the gathered array less blocks `a` to `b - 1`, held at contents whose rows below block `a` (the
    finished ones) are the gathered rows. -/
def outSt (d : Dev nD) (L : grid1.Coords) (s : Buf (Elt F) (aLoc d main_v0)) (f2 : Buf (Elt F) (aLoc d main_v2)) (a b : Nat) : sProp 𝕄 :=
  iprop(∃ o, ⌜∀ i ∈ outHeld L a b, (i 0).val < row0 L + 128 * a → o i = gath d s f2 i⌝ ∗ aLoc d main_v3 ↦[outHeld L a b]{fullShare} o)

/-- The tile's rows of the gathered array that are not on their way out before trip `k`. -/
def invOut (d : Dev nD) (L : grid1.Coords) (s : Buf (Elt F) (aLoc d main_v0)) (f2 : Buf (Elt F) (aLoc d main_v2)) (k : Nat) : sProp 𝕄 :=
  outSt d L s f2 (heldLo k) (4 * k)

/-- Before trip `k` of the main loop (`k = 32`: after the last). `W` is the set of waits recorded when the body started. -/
def tileInv (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) (k : Nat) : sProp 𝕄 :=
  iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ invGather d L q2 s f2 k ∗ invCopy d L s f2 k ∗ invOut d L s f2 k)

end Cert.KernelIdeal.Tile

end
-- ==== Proof.TilePRows.lean ====
/-
  The row scratch by slots: slot `b` of the four, as the body slices and squeezes it, is the rows whose first
  coordinate is `b`; the four slots are pairwise disjoint and together the whole scratch.
-/
import proofs.«205025_g42520176230720_cont_8to1_b_1509_29_alg».proof.Proof.TileVal

noncomputable section

namespace Cert.KernelIdeal.Tile

open Cert.KernelIdeal Cert.KernelIdeal.Gen Cert.KernelIdeal.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "rowsW" => (Memref.whole Cert.KernelIdeal.cc1_scratch1 : Memref Cert.KernelIdeal.sig Kind.scVector Space.vmem Cert.KernelIdeal.S4x128x128 EltTy.f32)

set_option quotPrecheck false
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)

/-- Slot `b` of the row scratch, as the body slices and squeezes it, is the rows at first coordinate `b`. -/
theorem mem_rowSlot (b : Nat) (hinb : ∀ a, (![b, 0, 0] : Fin 3 → Nat) a + S1x128x128.size a ≤ S4x128x128.size a) (i : S4x128x128.Idx) :
    i ∈ (((rowsW).slice (Rect.unit (s := S4x128x128) ![b, 0, 0] S1x128x128.size hinb) (fun _ => rfl)).squeeze S128x128 squeezes_S1x128x128_S128x128).view.set ↔ (i 0).val = b := by
  have e : (((rowsW).slice (Rect.unit (s := S4x128x128) ![b, 0, 0] S1x128x128.size hinb) (fun _ => rfl)).squeeze S128x128 squeezes_S1x128x128_S128x128).view.set
      = (Rect.unit (s := S4x128x128) ![b, 0, 0] S1x128x128.size hinb).set := by
    simp only [Memref.view_squeeze, View.set_reshape, Memref.view_slice, Memref.view_whole, View.set_slice_whole]
  rw [e, Rect.mem_set_unit]
  have h1 : (i 1).val < 128 := (i 1).isLt
  have h2 : (i 2).val < 128 := (i 2).isLt
  constructor
  · intro h
    have h0 := h 0
    show (i 0).val = b
    have : b ≤ (i 0).val ∧ (i 0).val < b + 1 := h0
    omega
  · intro h a
    match a with
    | ⟨0, _⟩ => show b ≤ (i 0).val ∧ (i 0).val < b + 1; omega
    | ⟨1, _⟩ => show 0 ≤ (i 1).val ∧ (i 1).val < 0 + 128; omega
    | ⟨2, _⟩ => show 0 ≤ (i 2).val ∧ (i 2).val < 0 + 128; omega

/-- The row scratch held whole is its four slots held each on its own rows, and back. -/
theorem rows_slots (d : Dev nD) (L : grid1.Coords) (fr : Buf (Elt F) ((rowsW).view.loc (thr d L))) :
    ((rowsW).view.loc (thr d L) ↦{fullShare} fr : sProp 𝕄)
      ⊣⊢ iprop(((rowS0).view.loc (thr d L) ↦[(rowS0).view.set]{fullShare} fr) ∗ ((rowS1).view.loc (thr d L) ↦[(rowS1).view.set]{fullShare} fr)
          ∗ ((rowS2).view.loc (thr d L) ↦[(rowS2).view.set]{fullShare} fr) ∗ ((rowS3).view.loc (thr d L) ↦[(rowS3).view.set]{fullShare} fr)) := by
  have hd23 : Disjoint (rowS2).view.set (rowS3).view.set := by
    rw [Finset.disjoint_left]; intro i h h'; rw [mem_rowSlot] at h h'; omega
  have hd1 : Disjoint (rowS1).view.set ((rowS2).view.set ∪ (rowS3).view.set) := by
    rw [Finset.disjoint_left]; intro i h h'; rw [Finset.mem_union, mem_rowSlot, mem_rowSlot] at h'; rw [mem_rowSlot] at h; omega
  have hd0 : Disjoint (rowS0).view.set ((rowS1).view.set ∪ ((rowS2).view.set ∪ (rowS3).view.set)) := by
    rw [Finset.disjoint_left]; intro i h h'
    rw [Finset.mem_union, Finset.mem_union, mem_rowSlot, mem_rowSlot, mem_rowSlot] at h'; rw [mem_rowSlot] at h; omega
  have hcover : (Finset.univ : Finset (Idx ((rowsW).view.loc (thr d L))))
      = (rowS0).view.set ∪ ((rowS1).view.set ∪ ((rowS2).view.set ∪ (rowS3).view.set)) := by
    ext i
    have hi : (i 0).val < 4 := (i 0).isLt
    simp only [Finset.mem_univ, true_iff, Finset.mem_union]
    rw [mem_rowSlot, mem_rowSlot, mem_rowSlot, mem_rowSlot]
    omega
  show ((rowsW).view.loc (thr d L) ↦[Finset.univ]{fullShare} fr : sProp 𝕄) ⊣⊢ _
  rw [hcover]
  constructor
  · iintro H
    ihave H := (pointsTo_union hd0).1 $$ H
    icases H with ⟨H0, H⟩
    ihave H := (pointsTo_union hd1).1 $$ H
    icases H with ⟨H1, H⟩
    ihave H := (pointsTo_union hd23).1 $$ H
    icases H with ⟨H2, H3⟩
    isplitl [H0]; · iexact H0
    isplitl [H1]; · iexact H1
    isplitl [H2]; · iexact H2
    iexact H3
  · iintro ⟨H0, H1, H2, H3⟩
    iapply (pointsTo_union hd0).2
    isplitl [H0]; · iexact H0
    iapply (pointsTo_union hd1).2
    isplitl [H1]; · iexact H1
    iapply (pointsTo_union hd23).2
    isplitl [H2]; · iexact H2
    iexact H3

end Cert.KernelIdeal.Tile

end
-- ==== Proof.TilePRows2.lean ====
/-
  The row scratch's four slots, each held at its own contents, are the whole scratch held at some contents.
-/
import proofs.«205025_g42520176230720_cont_8to1_b_1509_29_alg».proof.Proof.TilePRows

noncomputable section

namespace Cert.KernelIdeal.Tile

open Cert.KernelIdeal Cert.KernelIdeal.Gen Cert.KernelIdeal.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "rowsW" => (Memref.whole Cert.KernelIdeal.cc1_scratch1 : Memref Cert.KernelIdeal.sig Kind.scVector Space.vmem Cert.KernelIdeal.S4x128x128 EltTy.f32)

set_option quotPrecheck false
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)

/-- The four slots held each at its own contents are the whole row scratch at some contents. -/
theorem rows_join (d : Dev nD) (L : grid1.Coords) (C0 C1 C2 C3 : Buf (Elt F) ((thr d L).loc cc1_scratch1)) :
    iprop(((rowS0).view.loc (thr d L) ↦[(rowS0).view.set]{fullShare} C0) ∗ ((rowS1).view.loc (thr d L) ↦[(rowS1).view.set]{fullShare} C1)
        ∗ ((rowS2).view.loc (thr d L) ↦[(rowS2).view.set]{fullShare} C2) ∗ ((rowS3).view.loc (thr d L) ↦[(rowS3).view.set]{fullShare} C3))
      ⊢ (iprop(∃ f, (thr d L).loc cc1_scratch1 ↦{fullShare} f) : sProp 𝕄) := by
  have hd23 : Disjoint (rowS2).view.set (rowS3).view.set := by
    rw [Finset.disjoint_left]; intro i h h'; rw [mem_rowSlot] at h h'; omega
  have hd1 : Disjoint (rowS1).view.set ((rowS2).view.set ∪ (rowS3).view.set) := by
    rw [Finset.disjoint_left]; intro i h h'; rw [Finset.mem_union, mem_rowSlot, mem_rowSlot] at h'; rw [mem_rowSlot] at h; omega
  have hd0 : Disjoint (rowS0).view.set ((rowS1).view.set ∪ ((rowS2).view.set ∪ (rowS3).view.set)) := by
    rw [Finset.disjoint_left]; intro i h h'
    rw [Finset.mem_union, Finset.mem_union, mem_rowSlot, mem_rowSlot, mem_rowSlot] at h'; rw [mem_rowSlot] at h; omega
  have hcover : (rowS0).view.set ∪ ((rowS1).view.set ∪ ((rowS2).view.set ∪ (rowS3).view.set))
      = (Finset.univ : Finset (Idx ((rowsW).view.loc (thr d L)))) := by
    ext i
    have hi : (i 0).val < 4 := (i 0).isLt
    simp only [Finset.mem_univ, iff_true, Finset.mem_union]
    rw [mem_rowSlot, mem_rowSlot, mem_rowSlot, mem_rowSlot]
    omega
  iintro ⟨H0, H1, H2, H3⟩
  ihave H23 := (pointsTo_join (ℓ := (rowsW).view.loc (thr d L)) (f := C2) (g := C3) hd23) $$ [H2 H3]
  · isplitl [H2]; · iexact H2
    iexact H3
  ihave H123 := (pointsTo_join (ℓ := (rowsW).view.loc (thr d L)) (f := C1) hd1) $$ [H1 H23]
  · isplitl [H1]; · iexact H1
    iexact H23
  ihave H := (pointsTo_join (ℓ := (rowsW).view.loc (thr d L)) (f := C0) hd0) $$ [H0 H123]
  · isplitl [H0]; · iexact H0
    iexact H123
  rw [hcover]
  iexists _
  iexact H

end Cert.KernelIdeal.Tile

end
-- ==== Proof.TilePVal.lean ====
/-
  Four value facts of the tile's data movement, stated of the payload terms the body's copies carry: a synchronous
  index copy lands the tile's entries of the index array; after the copy and the eight rewrite trips a slot of the
  index scratch reads the entries rewritten; a copy-out reads off a slot what the gather left there; and a block of
  the gathered array written whole with the gathered rows holds, on that block, the gathered array.
-/
import proofs.«205025_g42520176230720_cont_8to1_b_1509_29_alg».proof.Proof.TileVal
import proofs.«205025_g42520176230720_cont_8to1_b_1509_29_alg».proof.Proof.TilePEF

noncomputable section

namespace Cert.KernelIdeal.Tile

open Cert.KernelIdeal Cert.KernelIdeal.Gen Cert.KernelIdeal.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)
set_option quotPrecheck false
local notation "tabSl" => ((tabW).slice (Rect.unit (s := S512000x128) ![0, 0] S512000x128.size inb_S512000x128_S512000x128_0_0) (fun _ => rfl))

section
variable (d : Dev nD) (L : grid1.Coords) (s : Buf (Elt F) (aLoc d main_v0)) (f2 : Buf (Elt F) (aLoc d main_v2))

/-- (Vi-a) What a synchronous index copy lands: the tile's entries `128 n … 128 n + 127` of the index array. -/
theorem copy_payload (n : Nat) (hn : n < 128) (off : Fin 1 → Nat) (hoff : off = ![row0 L + 128 * n])
    (hinb : ∀ a, off a + S128.size a ≤ S524288.size a) (x : S128.Idx) :
    ReadAs.same.apply (View.read (Elt F) ((srcW).slice (Rect.unit (s := S524288) off S128.size hinb) (fun _ => rfl)).view s) x
      = s (srcRowIx (row0 L + 128 * n + (x 0).val)) := by
  subst hoff
  have hx : (x 0).val < 128 := (x 0).isLt
  have hr := row0_le L
  show s ((Rect.unit (s := S524288) ![row0 L + 128 * n] S128.size hinb).emb x) = s (srcRowIx (row0 L + 128 * n + (x 0).val))
  refine congrArg s ?_
  funext a
  match a with
  | ⟨0, _⟩ =>
    apply Fin.ext
    show row0 L + 128 * n + 1 * (x 0).val = (row0 L + 128 * n + (x 0).val) % 524288
    rw [Nat.mod_eq_of_lt (by omega)]; omega

/-- (Vo-a) What a copy-out reads off the slot a gather filled is the gather's payload. -/
theorem copyout_payload (b : Nat) (hinb : ∀ a, (![b, 0, 0] : Fin 3 → Nat) a + S1x128x128.size a ≤ S4x128x128.size a)
    (fr : Buf (Elt F) ((thr d L).loc cc1_scratch1)) (w : S128x128.Idx → Elt F .f32) :
    ReadAs.same.apply (View.read (Elt F) (((rowsW).slice (Rect.unit (s := S4x128x128) ![b, 0, 0] S1x128x128.size hinb) (fun _ => rfl)).squeeze S128x128 squeezes_S1x128x128_S128x128).view
        ((((rowsW).slice (Rect.unit (s := S4x128x128) ![b, 0, 0] S1x128x128.size hinb) (fun _ => rfl)).squeeze S128x128 squeezes_S1x128x128_S128x128).view.writes (Elt F) fr [⟨Rect.whole S128x128, w⟩]))
      = w := by
  funext x
  have hx : (Rect.whole S128x128).emb x = x := Rect.emb_whole_apply S128x128 x
  have key := View.read_writes_cons_emb (Val := Elt F)
    (v := (((rowsW).slice (Rect.unit (s := S4x128x128) ![b, 0, 0] S1x128x128.size hinb) (fun _ => rfl)).squeeze S128x128 squeezes_S1x128x128_S128x128).view)
    (f := fr) (Rect.whole S128x128) w [] x
  rw [hx] at key
  exact key

/-- (Vi-b) After the copy into slot `b` (over any contents) and the eight rewrite trips, slot `b` reads the payload
    rewritten, entry by entry. -/
theorem idx_fixed (b : Nat) (hinb : ∀ a, (![b, 0] : Fin 2 → Nat) a + S1x128.size a ≤ S4x128.size a) (T : Nat) (hT : T = 8)
    (gi : Buf (Elt F) ((thr d L).loc cc1_scratch0)) (P : S128.Idx → Elt F .i32) (x : S128.Idx) :
    View.read (Elt F) (((idxW).slice (Rect.unit (s := S4x128) ![b, 0] S1x128.size hinb) (fun _ => rfl)).squeeze S128 squeezes_S1x128_S128).view
        (fixPre b T (View.write (Elt F) (((idxW).slice (Rect.unit (s := S4x128) ![b, 0] S1x128.size hinb) (fun _ => rfl)).squeeze S128 squeezes_S1x128_S128).view gi P Finset.univ)) x
      = fixIdx (P x) := by
  subst hT
  have hx : (x 0).val < 128 := (x 0).isLt
  rw [View.read_apply]
  have he : ∀ a, (((((idxW).slice (Rect.unit (s := S4x128) ![b, 0] S1x128.size hinb) (fun _ => rfl)).squeeze S128 squeezes_S1x128_S128).view.emb x) a).val
      = (![b, (x 0).val] : Fin 2 → Nat) a := by
    intro a
    simp only [Memref.view_squeeze, View.emb_reshape, Memref.view_slice, View.emb_slice, Memref.view_whole, View.emb_whole,
      Function.Embedding.trans_apply, Equiv.coe_toEmbedding]
    show ((Rect.unit (s := S4x128) ![b, 0] ![1, 128] hinb).emb ((Shape.reshapeEquiv _) x) a : Nat) = ![b, (x 0).val] a
    rw [Rect.emb_apply, Shape.reshapeEquiv_cons_one]
    match a with
    | ⟨0, _⟩ => show b + 1 * 0 = b; omega
    | ⟨1, _⟩ => show 0 + 1 * (x 0).val = (x 0).val; omega
  unfold fixPre
  rw [if_pos ⟨he 0, by rw [he 1]; show (x 0).val < 16 * 8; omega⟩, View.write_emb_of_mem _ _ (Finset.mem_univ x)]
  rfl

/-- (Vo-b) A block of the gathered array written whole with `gRows n` (over any base) holds the gathered rows on `outBlk L n`. -/
theorem block_done (n : Nat) (hn : n < 128) (off : Fin 2 → Nat) (hoff : off = ![row0 L + 128 * n, 0])
    (hinb : ∀ a, off a + S128x128.size a ≤ S524288x128.size a) (fo : Buf (Elt F) (aLoc d main_v3)) :
    ((((outW).slice (Rect.unit (s := S524288x128) off S128x128.size hinb) (fun _ => rfl)).view.loc (thr d L)
        ↦[((outW).slice (Rect.unit (s := S524288x128) off S128x128.size hinb) (fun _ => rfl)).view.set]{fullShare}
          ((outW).slice (Rect.unit (s := S524288x128) off S128x128.size hinb) (fun _ => rfl)).view.writes (Elt F) fo
            [⟨Rect.whole S128x128, gRows d L s f2 n⟩]) : sProp 𝕄)
      = (aLoc d main_v3 ↦[outBlk L n]{fullShare} gath d s f2) := by
  subst hoff
  have hr := row0_le L
  have hset := set_outSlice L n _ rfl hinb
  show (aLoc d main_v3 ↦[((outW).slice (Rect.unit (s := S524288x128) ![row0 L + 128 * n, 0] S128x128.size hinb) (fun _ => rfl)).view.set]{fullShare}
          ((outW).slice (Rect.unit (s := S524288x128) ![row0 L + 128 * n, 0] S128x128.size hinb) (fun _ => rfl)).view.writes (Elt F) fo
            [⟨Rect.whole S128x128, gRows d L s f2 n⟩] : sProp 𝕄) = _
  rw [hset]
  refine pointsTo_congr (fun i hi => ?_)
  rw [← hset] at hi
  obtain ⟨j, -, rfl⟩ := Finset.mem_map.mp hi
  have hj0 : (j 0).val < 128 := (j 0).isLt
  rw [View.writes_singleton]
  have hw : ((outW).slice (Rect.unit (s := S524288x128) ![row0 L + 128 * n, 0] S128x128.size hinb) (fun _ => rfl)).view.emb j
      = ((((outW).slice (Rect.unit (s := S524288x128) ![row0 L + 128 * n, 0] S128x128.size hinb) (fun _ => rfl)).view).slice (Rect.whole S128x128)).emb j := by
    show _ = ((outW).slice (Rect.unit (s := S524288x128) ![row0 L + 128 * n, 0] S128x128.size hinb) (fun _ => rfl)).view.emb ((Rect.whole S128x128).emb j)
    rw [Rect.emb_whole_apply]
  rw [hw, View.write_emb_of_mem _ _ (Finset.mem_univ j), ← hw]
  show gRows d L s f2 n j = gath d s f2 ((Rect.unit (s := S524288x128) ![row0 L + 128 * n, 0] S128x128.size hinb).emb j)
  unfold gRows
  refine congrArg (gath d s f2) ?_
  funext a
  apply Fin.ext
  match a with
  | ⟨0, _⟩ =>
    show (row0 L + 128 * n + (j 0).val) % 524288 = row0 L + 128 * n + 1 * (j 0).val
    rw [Nat.mod_eq_of_lt (by omega)]; omega
  | ⟨1, _⟩ => show (j 1).val = 0 + 1 * (j 1).val; omega

end

end Cert.KernelIdeal.Tile

end
-- ==== Proof.TileRVal.lean ====
/-
  Two value facts about a tile's indirect gather of one block of 128 rows: the rewritten indices the index slot holds
  are rows of the paired table, and what the gather lands is the block of the gathered array in closed form.
  The slot reads, entry by entry, the rewrite of the tile's index entries `128 n … 128 n + 127`; each of those entries
  is one of the tile's 16384 (so its rewrite is below 512000), the gather reads row "slot entry" of the table at the
  index's own column, and the table's slice by the whole rectangle at offsets 0 reads the table itself.
-/
import proofs.«205025_g42520176230720_cont_8to1_b_1509_29_alg».proof.Proof.TileVal

noncomputable section

namespace Cert.KernelIdeal.Tile

open Cert.KernelIdeal Cert.KernelIdeal.Gen Cert.KernelIdeal.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)
set_option quotPrecheck false
local notation "tabSl" => ((tabW).slice (Rect.unit (s := S512000x128) ![0, 0] S512000x128.size inb_S512000x128_S512000x128_0_0) (fun _ => rfl))

section
variable (d : Dev nD) (L : grid1.Coords) (s : Buf (Elt F) (aLoc d main_v0)) (f2 : Buf (Elt F) (aLoc d main_v2))

/-- Entry `128 n + k` of the tile's share of the index array is one of the tile's entries. -/
theorem srcRow_mem (n : Nat) (hn : n < 128) (k : Nat) (hk : k < 128) : srcRowIx (row0 L + 128 * n + k) ∈ srcRows L := by
  unfold srcRows srcRect
  rw [Rect.mem_set_unit, Fin.forall_fin_one]
  have h := row0_le L
  show row0 L ≤ (row0 L + 128 * n + k) % 524288 ∧ (row0 L + 128 * n + k) % 524288 < row0 L + 16384
  rw [Nat.mod_eq_of_lt (by omega)]
  omega

/-- (Vin) The rewritten indices of a block of the tile's rows are rows of the table. -/
theorem gather_inrange (hin : ∀ n ∈ srcRows L, (fixIdx (s n)).toNat < 512000)
    (b : Nat) (hinb : ∀ a, (![b, 0] : Fin 2 → Nat) a + S1x128.size a ≤ S4x128.size a) (n : Nat) (hn : n < 128)
    (G : Buf (Elt F) ((thr d L).loc cc1_scratch0))
    (hfix : ∀ x : S128.Idx, View.read (Elt F) (((idxW).slice (Rect.unit (s := S4x128) ![b, 0] S1x128.size hinb) (fun _ => rfl)).squeeze S128 squeezes_S1x128_S128).view G x = fixIdx (s (srcRowIx (row0 L + 128 * n + (x 0).val)))) :
    ∀ x, (View.read (Elt F) (((idxW).slice (Rect.unit (s := S4x128) ![b, 0] S1x128.size hinb) (fun _ => rfl)).squeeze S128 squeezes_S1x128_S128).view G x).toNat < S512000x128.size gathers_S512000x128_S128x128.axis := by
  intro x
  rw [hfix x]
  exact hin _ (srcRow_mem L n hn (x 0).val (x 0).isLt)

/-- (Vg) What the indirect gather of block `n` lands is `gRows n`. -/
theorem gather_payload (hin : ∀ n ∈ srcRows L, (fixIdx (s n)).toNat < 512000)
    (b : Nat) (hinb : ∀ a, (![b, 0] : Fin 2 → Nat) a + S1x128.size a ≤ S4x128.size a) (n : Nat) (hn : n < 128)
    (G : Buf (Elt F) ((thr d L).loc cc1_scratch0))
    (hfix : ∀ x : S128.Idx, View.read (Elt F) (((idxW).slice (Rect.unit (s := S4x128) ![b, 0] S1x128.size hinb) (fun _ => rfl)).squeeze S128 squeezes_S1x128_S128).view G x = fixIdx (s (srcRowIx (row0 L + 128 * n + (x 0).val))))
    (hn' : S128.numel = S128x128.size gathers_S512000x128_S128x128.axis')
    (hin1 : ∀ x, (View.read (Elt F) (((idxW).slice (Rect.unit (s := S4x128) ![b, 0] S1x128.size hinb) (fun _ => rfl)).squeeze S128 squeezes_S1x128_S128).view G x).toNat < S512000x128.size gathers_S512000x128_S128x128.axis) :
    SparseCore.gatherPayload gathers_S512000x128_S128x128 (View.read (Elt F) (tabSl).view f2)
        (SparseCore.rows (View.read (Elt F) (((idxW).slice (Rect.unit (s := S4x128) ![b, 0] S1x128.size hinb) (fun _ => rfl)).squeeze S128 squeezes_S1x128_S128).view G) hn' hin1)
      = gRows d L s f2 n := by
  funext x
  have hx0 : (x 0).val < 128 := (x 0).isLt
  have h := row0_le L
  -- the slot entry the gather reads for row `x 0`
  have hy : ((S128.rowMajor.symm (((x gathers_S512000x128_S128x128.axis') : Fin _).cast hn'.symm)) 0).val = (x 0).val := by
    have e := Shape.rowMajor_val_one (S128.rowMajor.symm (((x gathers_S512000x128_S128x128.axis') : Fin _).cast hn'.symm))
    rw [Equiv.apply_symm_apply] at e
    exact e.symm
  have hrow : (SparseCore.rows (View.read (Elt F) (((idxW).slice (Rect.unit (s := S4x128) ![b, 0] S1x128.size hinb) (fun _ => rfl)).squeeze S128 squeezes_S1x128_S128).view G) hn' hin1
      (x gathers_S512000x128_S128x128.axis')).val = (fixIdx (s (srcRowIx (row0 L + 128 * n + (x 0).val)))).toNat := by
    show (View.read (Elt F) (((idxW).slice (Rect.unit (s := S4x128) ![b, 0] S1x128.size hinb) (fun _ => rfl)).squeeze S128 squeezes_S1x128_S128).view G (S128.rowMajor.symm (((x gathers_S512000x128_S128x128.axis') : Fin _).cast hn'.symm))).toNat = _
    rw [hfix, hy]
  have hlt := hin _ (srcRow_mem L n hn (x 0).val hx0)
  unfold SparseCore.gatherPayload gRows gath
  show f2 ((tabSl).view.emb (gathers_S512000x128_S128x128.idx _ x)) = f2 _
  refine congrArg f2 (funext fun a => Fin.ext ?_)
  match a with
  | ⟨0, _⟩ =>
    show 0 + 1 * (gathers_S512000x128_S128x128.idx _ x gathers_S512000x128_S128x128.axis).val
      = (fixIdx (s (srcIx ⟨(row0 L + 128 * n + (x 0).val) % 524288, _⟩))).toNat % 512000
    rw [Shape.Gathers.idx_axis, hrow]
    show 0 + 1 * (fixIdx (s (srcRowIx (row0 L + 128 * n + (x 0).val)))).toNat = (fixIdx (s (srcRowIx (row0 L + 128 * n + (x 0).val)))).toNat % 512000
    rw [Nat.mod_eq_of_lt hlt]; omega
  | ⟨1, _⟩ =>
    show 0 + 1 * (gathers_S512000x128_S128x128.idx _ x ⟨1, by decide⟩).val = (x 1).val
    rw [Shape.Gathers.idx_of_ne _ _ _ _ (by decide)]
    show 0 + 1 * (x 1).val = (x 1).val
    omega

end

end Cert.KernelIdeal.Tile

end
-- ==== Proof.TileROut.lean ====
/-
  The tile's rows of the gathered array between two trips: the rows held are the tile's rows less the blocks on
  their way out, at contents whose finished rows (those below the first block out) are the gathered rows. Sending a
  block out carves it off the rows held; taking the first block out back, finished, rejoins it and the finished rows
  grow by one block; before the first trip nothing is out or finished, and when everything is back and finished the
  tile's rows hold the gathered rows.
-/
import proofs.«205025_g42520176230720_cont_8to1_b_1509_29_alg».proof.Proof.TileInv

noncomputable section

namespace Cert.KernelIdeal.Tile

open Cert.KernelIdeal Cert.KernelIdeal.Gen Cert.KernelIdeal.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

section
variable (d : Dev nD) (L : grid1.Coords) (s : Buf (Elt F) (aLoc d main_v0)) (f2 : Buf (Elt F) (aLoc d main_v2))

/-- Sending block `b` out: it leaves the rows held (at whatever it holds). -/
theorem out_carve (a b : Nat) (hab : a ≤ b) (hb : b < 128) :
    (outSt d L s f2 a b : sProp 𝕄) ⊢ iprop(outSt d L s f2 a (b + 1) ∗ ∃ o', aLoc d main_v3 ↦[outBlk L b]{fullShare} o') := by
  unfold outSt
  have hsub : outHeld L a (b + 1) ⊆ outHeld L a b := by
    rw [← outHeld_sdiff_blk L a b hab hb]; exact Finset.sdiff_subset
  have e : ∀ o : Buf (Elt F) (aLoc d main_v3), (aLoc d main_v3 ↦[outHeld L a b]{fullShare} o : sProp 𝕄)
      ⊢ iprop((aLoc d main_v3 ↦[outBlk L b]{fullShare} o) ∗ aLoc d main_v3 ↦[outHeld L a (b + 1)]{fullShare} o) := fun o => by
    rw [← outHeld_sdiff_blk L a b hab hb]
    exact (pointsTo_split_subset (outBlk_subset_held L a b hab hb)).1
  iintro ⟨%o, %ho, H⟩
  ihave H' := (e o) $$ H
  icases H' with ⟨Hb, Hr⟩
  isplitl [Hr]
  · iexists o
    isplitr
    · ipureintro; exact fun i hi hlt => ho i (hsub hi) hlt
    · iexact Hr
  · iexists o
    iexact Hb

/-- Taking block `a` back, finished: it rejoins the rows held and the finished rows grow by one block. -/
theorem out_putback (a b : Nat) (hab : a < b) (hb : b ≤ 128) :
    iprop((outSt d L s f2 a b : sProp 𝕄) ∗ aLoc d main_v3 ↦[outBlk L a]{fullShare} gath d s f2) ⊢ outSt d L s f2 (a + 1) b := by
  unfold outSt
  have e : ∀ o : Buf (Elt F) (aLoc d main_v3),
      iprop((aLoc d main_v3 ↦[outBlk L a]{fullShare} gath d s f2) ∗ aLoc d main_v3 ↦[outHeld L a b]{fullShare} o)
        ⊢ (aLoc d main_v3 ↦[outHeld L (a + 1) b]{fullShare} (outBlk L a).piecewise (gath d s f2) o : sProp 𝕄) := fun o => by
    rw [← outHeld_sdiff_blk' L a b hab hb]
    exact pointsTo_join_subset (outBlk_subset_held' L a b hab hb)
  iintro ⟨⟨%o, %ho, H⟩, Hb⟩
  iexists (outBlk L a).piecewise (gath d s f2) o
  isplitr
  · ipureintro
    intro i hi hlt
    by_cases hm : i ∈ outBlk L a
    · exact Finset.piecewise_eq_of_mem _ _ _ hm
    · rw [Finset.piecewise_eq_of_notMem _ _ _ hm]
      have hi' : i ∈ outHeld L a b := by
        rw [← outHeld_sdiff_blk' L a b hab hb]; exact Finset.mem_sdiff.2 ⟨hi, hm⟩
      refine ho i hi' ?_
      rw [mem_outBlk] at hm
      omega
  · iapply (e o)
    isplitl [Hb]
    · iexact Hb
    · iexact H

/-- Everything back and finished: the tile's rows hold the gathered rows. -/
theorem out_final :
    (outSt d L s f2 128 128 : sProp 𝕄) ⊢ aLoc d main_v3 ↦[outRows L]{fullShare} gath d s f2 := by
  unfold outSt
  have e : ∀ o : Buf (Elt F) (aLoc d main_v3),
      (∀ i ∈ outHeld L 128 128, (i 0).val < row0 L + 128 * 128 → o i = gath d s f2 i) →
      (aLoc d main_v3 ↦[outHeld L 128 128]{fullShare} o : sProp 𝕄) ⊢ aLoc d main_v3 ↦[outRows L]{fullShare} gath d s f2 := fun o ho =>
    Entails.of_eq (by
      rw [pointsTo_congr (g := gath d s f2) (fun i hi => ho i hi (by
        rw [outHeld_self, mem_outRows'] at hi; omega)), outHeld_self])
  iintro ⟨%o, %ho, H⟩
  iapply (e o ho)
  iexact H

/-- Before the first trip nothing is out and nothing is finished. -/
theorem out_start (f3 : Buf (Elt F) (aLoc d main_v3)) :
    (aLoc d main_v3 ↦[outRows L]{fullShare} f3 : sProp 𝕄) ⊢ outSt d L s f2 0 0 := by
  unfold outSt
  iintro H
  iexists f3
  isplitr
  · ipureintro
    intro i hi hlt
    rw [outHeld_self, mem_outRows'] at hi
    omega
  · rw [outHeld_self]
    iexact H

end

end Cert.KernelIdeal.Tile

end
-- ==== Proof.TilePInv.lean ====
/-
  The tile's blocks of the gathered array in the body's own spelling of their memrefs, and the three shapes the
  state between two trips takes: before the first trip, before a middle one, after the last.
-/
import proofs.«205025_g42520176230720_cont_8to1_b_1509_29_alg».proof.Proof.TileInv
import proofs.«205025_g42520176230720_cont_8to1_b_1509_29_alg».proof.Proof.TileOff
import proofs.«205025_g42520176230720_cont_8to1_b_1509_29_alg».proof.Proof.TilePEF

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

/-! ## A block of the trip's four, as the body slices it -/

omit [FloatOps F] in
/-- Block `4 k + j` of the tile's rows held at `o` is the body's own slice of the gathered array at trip `k`, row `j`, held at `o`. -/
theorem blk_site (d : Dev nD) (L : grid1.Coords) (k : Fin k1_t2_loop.trips) (j : Fin 4) (o : Buf (Elt F) (aLoc d main_v3)) :
    (aLoc d main_v3 ↦[outBlk L (4 * k.val + j.val)]{fullShare} o : sProp 𝕄)
      = (((outW).slice (Rect.unit (s := S524288x128) (k1_off6 L k (BitVec.ofNat 32 j.val)) S128x128.size (k1_off6_inb L k j)) (fun _ => rfl)).view.loc (thr d L)
          ↦[((outW).slice (Rect.unit (s := S524288x128) (k1_off6 L k (BitVec.ofNat 32 j.val)) S128x128.size (k1_off6_inb L k j)) (fun _ => rfl)).view.set]{fullShare} o) := by
  rw [set_outSlice L (4 * k.val + j.val) _ (off6_row L k j) (k1_off6_inb L k j)]

/-! ## The state between two trips, case by case -/

/-- Before the first trip. -/
theorem tileInv_zero (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) :
    (tileInv d L q0 q2 s f2 O W 0 : sProp 𝕄)
      = iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ iprop(((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
      ∗ (∃ fr gi, gFl0 d L q2 f2 fr gi (gRows d L s f2 (4 * 0)))
      ∗ (∃ g, (idxW).view.loc (thr d L) ↦[Finset.univ \ (idxS0).view.set]{fullShare} g)
      ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
    ∗ iprop((∃ C, (rowS1).view.loc (thr d L) ↦[(rowS1).view.set]{fullShare} C) ∗ (∃ C, (rowS2).view.loc (thr d L) ↦[(rowS2).view.set]{fullShare} C) ∗ (∃ C, (rowS3).view.loc (thr d L) ↦[(rowS3).view.set]{fullShare} C) ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0)
    ∗ outSt d L s f2 0 0) := by
  unfold tileInv invGather invCopy invOut heldLo
  rw [if_pos (by decide : (0 : Nat) < 32), dif_pos rfl, if_neg (by decide : ¬ (0 : Nat) = 32)]

/-- Before a middle trip. -/
theorem tileInv_mid (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) (k : Nat) (hk1 : 1 ≤ k) (hk : k < 32) :
    (tileInv d L q0 q2 s f2 O W k : sProp 𝕄)
      = iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ iprop(((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
      ∗ (∃ fr gi, gFl0 d L q2 f2 fr gi (gRows d L s f2 (4 * k)))
      ∗ (∃ g, (idxW).view.loc (thr d L) ↦[Finset.univ \ (idxS0).view.set]{fullShare} g)
      ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
    ∗ iprop(semVal (thr d L, SemLoc.dma (⟨10, by decide⟩ : DmaSem sig)) 0 ∗ (∃ fo C, oFl1 d L ![row0 L + 128 * (4 * k - 3), 0] (outBlkRect_inb L (4 * k - 3) (by omega)) fo (gRows d L s f2 (4 * k - 3)) C) ∗ (∃ fo C, oFl2 d L ![row0 L + 128 * (4 * k - 2), 0] (outBlkRect_inb L (4 * k - 2) (by omega)) fo (gRows d L s f2 (4 * k - 2)) C) ∗ (∃ fo C, oFl3 d L ![row0 L + 128 * (4 * k - 1), 0] (outBlkRect_inb L (4 * k - 1) (by omega)) fo (gRows d L s f2 (4 * k - 1)) C))
    ∗ outSt d L s f2 (4 * k - 3) (4 * k)) := by
  unfold tileInv invGather invCopy invOut heldLo
  rw [if_pos hk, dif_neg (by omega : ¬ k = 0), dif_pos hk, if_neg (by omega : ¬ k = 32)]

/-- After the last trip. -/
theorem tileInv_last (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) :
    (tileInv d L q0 q2 s f2 O W 32 : sProp 𝕄)
      = iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ iprop(((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
      ∗ (∃ g, (idxW).view.loc (thr d L) ↦{fullShare} g)
      ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
    ∗ iprop((∃ fo C, oFl0 d L ![row0 L + 128 * (124), 0] (outBlkRect_inb L (124) (by decide)) fo (gRows d L s f2 (124)) C) ∗ (∃ fo C, oFl1 d L ![row0 L + 128 * (125), 0] (outBlkRect_inb L (125) (by decide)) fo (gRows d L s f2 (125)) C) ∗ (∃ fo C, oFl2 d L ![row0 L + 128 * (126), 0] (outBlkRect_inb L (126) (by decide)) fo (gRows d L s f2 (126)) C) ∗ (∃ fo C, oFl3 d L ![row0 L + 128 * (127), 0] (outBlkRect_inb L (127) (by decide)) fo (gRows d L s f2 (127)) C))
    ∗ outSt d L s f2 124 128) := by
  unfold tileInv invGather invCopy invOut heldLo
  rw [if_neg (by decide : ¬ (32 : Nat) < 32), dif_neg (by decide : ¬ (32 : Nat) = 0), dif_neg (by decide : ¬ (32 : Nat) < 32), if_pos rfl]

end Cert.KernelIdeal.Tile

end
-- ==== Proof.TileROut4.lean ====
/-
  The rows held across one trip of the tile's main loop: the trip's four blocks leave them, each as the body's own
  slice of the gathered array; the blocks that come back finished rejoin them, four in a middle trip, three in the
  last, one in the first; and after the epilogue's four everything is back and the tile's rows hold the gathered rows.
-/
import proofs.«205025_g42520176230720_cont_8to1_b_1509_29_alg».proof.Proof.TileInv
import proofs.«205025_g42520176230720_cont_8to1_b_1509_29_alg».proof.Proof.TileOff
import proofs.«205025_g42520176230720_cont_8to1_b_1509_29_alg».proof.Proof.TilePInv
import proofs.«205025_g42520176230720_cont_8to1_b_1509_29_alg».proof.Proof.TileROut

noncomputable section

namespace Cert.KernelIdeal.Tile

open Cert.KernelIdeal Cert.KernelIdeal.Gen Cert.KernelIdeal.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ
local notation "outW" => (Memref.whole Cert.KernelIdeal.main_v3_scv : Memref Cert.KernelIdeal.sig Kind.scVector Space.hbm Cert.KernelIdeal.S524288x128 EltTy.f32)

section
variable (d : Dev nD) (L : grid1.Coords) (s : Buf (Elt F) (aLoc d main_v0)) (f2 : Buf (Elt F) (aLoc d main_v2))

/-- Block `4 k + j` leaves the rows held as the body's own slice at trip `k`, row `j`. -/
theorem carve_site (k : Fin k1_t2_loop.trips) (a : Nat) (j : Fin 4) (ha : a ≤ 4 * k.val + j.val) (hb : 4 * k.val + j.val < 128) :
    (outSt d L s f2 a (4 * k.val + j.val) : sProp 𝕄)
      ⊢ iprop(outSt d L s f2 a (4 * k.val + j.val + 1)
          ∗ ∃ o, ((outW).slice (Rect.unit (s := S524288x128) (k1_off6 L k (BitVec.ofNat 32 j.val)) S128x128.size (k1_off6_inb L k j)) (fun _ => rfl)).view.loc (thr d L)
              ↦[((outW).slice (Rect.unit (s := S524288x128) (k1_off6 L k (BitVec.ofNat 32 j.val)) S128x128.size (k1_off6_inb L k j)) (fun _ => rfl)).view.set]{fullShare} o) := by
  iintro H
  ihave H' := (out_carve d L s f2 a (4 * k.val + j.val) ha hb) $$ H
  icases H' with ⟨H, ⟨%o, B⟩⟩
  isplitl [H]
  · iexact H
  · iexists o
    iapply (Entails.of_eq (blk_site (F := F) d L k j o))
    iexact B

/-- Taking a finished block back, the block numbers given up to equations. -/
theorem putback_eq (a a' a'' b : Nat) (h1 : a' = a) (h2 : a'' = a + 1) (hab : a < b) (hb : b ≤ 128) :
    iprop((outSt d L s f2 a b : sProp 𝕄) ∗ aLoc d main_v3 ↦[outBlk L a']{fullShare} gath d s f2) ⊢ outSt d L s f2 a'' b := by
  subst h1 h2
  exact out_putback d L s f2 a' b hab hb

theorem out_carve4 (k : Fin k1_t2_loop.trips) (hk : k.val < 32) (a : Nat) (ha : a ≤ 4 * k.val) :
    (outSt d L s f2 a (4 * k.val) : sProp 𝕄)
      ⊢ iprop(outSt d L s f2 a (4 * (k.val + 1))
          ∗ (∃ o, ((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o)
          ∗ (∃ o, ((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o)
          ∗ (∃ o, ((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o)
          ∗ (∃ o, ((outW).slice (Rect.unit (s := S524288x128) (k1_off6 L k 3#32) S128x128.size (k1_off6_inb L k 3)) (fun _ => rfl)).view.loc (thr d L) ↦[((outW).slice (Rect.unit (s := S524288x128) (k1_off6 L k 3#32) S128x128.size (k1_off6_inb L k 3)) (fun _ => rfl)).view.set]{fullShare} o)) := by
  have c0 : (outSt d L s f2 a (4 * k.val) : sProp 𝕄)
      ⊢ iprop(outSt d L s f2 a (4 * k.val + 1) ∗ ∃ o, ((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o) :=
    carve_site d L s f2 k a 0 (by show a ≤ 4 * k.val + _; omega) (by show 4 * k.val + _ < 128; omega)
  have c1 : (outSt d L s f2 a (4 * k.val + 1) : sProp 𝕄)
      ⊢ iprop(outSt d L s f2 a (4 * k.val + 2) ∗ ∃ o, ((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o) :=
    carve_site d L s f2 k a 1 (by show a ≤ 4 * k.val + _; omega) (by show 4 * k.val + _ < 128; omega)
  have c2 : (outSt d L s f2 a (4 * k.val + 2) : sProp 𝕄)
      ⊢ iprop(outSt d L s f2 a (4 * k.val + 3) ∗ ∃ o, ((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o) :=
    carve_site d L s f2 k a 2 (by show a ≤ 4 * k.val + _; omega) (by show 4 * k.val + _ < 128; omega)
  have c3 : (outSt d L s f2 a (4 * k.val + 3) : sProp 𝕄)
      ⊢ iprop(outSt d L s f2 a (4 * (k.val + 1)) ∗ ∃ o, ((outW).slice (Rect.unit (s := S524288x128) (k1_off6 L k 3#32) S128x128.size (k1_off6_inb L k 3)) (fun _ => rfl)).view.loc (thr d L) ↦[((outW).slice (Rect.unit (s := S524288x128) (k1_off6 L k 3#32) S128x128.size (k1_off6_inb L k 3)) (fun _ => rfl)).view.set]{fullShare} o) :=
    carve_site d L s f2 k a 3 (by show a ≤ 4 * k.val + _; omega) (by show 4 * k.val + _ < 128; omega)
  iintro H
  ihave H0 := c0 $$ H
  icases H0 with ⟨H, B0⟩
  ihave H1 := c1 $$ H
  icases H1 with ⟨H, B1⟩
  ihave H2 := c2 $$ H
  icases H2 with ⟨H, B2⟩
  ihave H3 := c3 $$ H
  icases H3 with ⟨H, B3⟩
  isplitl [H]; · iexact H
  isplitl [B0]; · iexact B0
  isplitl [B1]; · iexact B1
  isplitl [B2]; · iexact B2
  iexact B3

theorem out_putback4 (k : Fin k1_t2_loop.trips) (hk1 : 1 ≤ k.val) (hk : k.val < 32) (b : Nat) (hb : 4 * k.val + 1 ≤ b) (hb' : b ≤ 128) :
    iprop((outSt d L s f2 (4 * k.val - 3) b : sProp 𝕄)
        ∗ (aLoc d main_v3 ↦[outBlk L (4 * k.val + 0 - 3)]{fullShare} gath d s f2)
        ∗ (aLoc d main_v3 ↦[outBlk L (4 * k.val + 1 - 3)]{fullShare} gath d s f2)
        ∗ (aLoc d main_v3 ↦[outBlk L (4 * k.val + 2 - 3)]{fullShare} gath d s f2)
        ∗ (aLoc d main_v3 ↦[outBlk L (4 * k.val + 3 - 3)]{fullShare} gath d s f2))
      ⊢ outSt d L s f2 (4 * (k.val + 1) - 3) b := by
  have p0 := putback_eq d L s f2 (4 * k.val - 3) (4 * k.val + 0 - 3) (4 * k.val + 1 - 3) b (by omega) (by omega) (by omega) hb'
  have p1 := putback_eq d L s f2 (4 * k.val + 1 - 3) (4 * k.val + 1 - 3) (4 * k.val + 2 - 3) b rfl (by omega) (by omega) hb'
  have p2 := putback_eq d L s f2 (4 * k.val + 2 - 3) (4 * k.val + 2 - 3) (4 * k.val + 3 - 3) b rfl (by omega) (by omega) hb'
  have p3 := putback_eq d L s f2 (4 * k.val + 3 - 3) (4 * k.val + 3 - 3) (4 * (k.val + 1) - 3) b rfl (by omega) (by omega) hb'
  iintro ⟨H, B0, B1, B2, B3⟩
  ihave H := p0 $$ [H B0]
  · isplitl [H]; · iexact H
    iexact B0
  ihave H := p1 $$ [H B1]
  · isplitl [H]; · iexact H
    iexact B1
  ihave H := p2 $$ [H B2]
  · isplitl [H]; · iexact H
    iexact B2
  iapply p3
  isplitl [H]; · iexact H
  iexact B3

theorem out_putback3 (k : Fin k1_t2_loop.trips) (hk31 : k.val = 31) :
    iprop((outSt d L s f2 (4 * k.val - 3) 128 : sProp 𝕄)
        ∗ (aLoc d main_v3 ↦[outBlk L (4 * k.val + 0 - 3)]{fullShare} gath d s f2)
        ∗ (aLoc d main_v3 ↦[outBlk L (4 * k.val + 1 - 3)]{fullShare} gath d s f2)
        ∗ (aLoc d main_v3 ↦[outBlk L (4 * k.val + 2 - 3)]{fullShare} gath d s f2))
      ⊢ outSt d L s f2 124 128 := by
  have p0 := putback_eq d L s f2 (4 * k.val - 3) (4 * k.val + 0 - 3) (4 * k.val + 1 - 3) 128 (by omega) (by omega) (by omega) (Nat.le_refl _)
  have p1 := putback_eq d L s f2 (4 * k.val + 1 - 3) (4 * k.val + 1 - 3) (4 * k.val + 2 - 3) 128 rfl (by omega) (by omega) (Nat.le_refl _)
  have p2 := putback_eq d L s f2 (4 * k.val + 2 - 3) (4 * k.val + 2 - 3) 124 128 rfl (by omega) (by omega) (Nat.le_refl _)
  iintro ⟨H, B0, B1, B2⟩
  ihave H := p0 $$ [H B0]
  · isplitl [H]; · iexact H
    iexact B0
  ihave H := p1 $$ [H B1]
  · isplitl [H]; · iexact H
    iexact B1
  iapply p2
  isplitl [H]; · iexact H
  iexact B2

theorem out_putback1 (k : Fin k1_t2_loop.trips) (hk0 : k.val = 0) :
    iprop((outSt d L s f2 0 4 : sProp 𝕄) ∗ (aLoc d main_v3 ↦[outBlk L (4 * k.val + 3 - 3)]{fullShare} gath d s f2))
      ⊢ outSt d L s f2 1 4 := by
  exact putback_eq d L s f2 0 (4 * k.val + 3 - 3) 1 4 (by omega) rfl (by omega) (by omega)

theorem out_putback_last :
    iprop((outSt d L s f2 124 128 : sProp 𝕄)
        ∗ (aLoc d main_v3 ↦[outBlk L 124]{fullShare} gath d s f2) ∗ (aLoc d main_v3 ↦[outBlk L 125]{fullShare} gath d s f2)
        ∗ (aLoc d main_v3 ↦[outBlk L 126]{fullShare} gath d s f2) ∗ (aLoc d main_v3 ↦[outBlk L 127]{fullShare} gath d s f2))
      ⊢ aLoc d main_v3 ↦[outRows L]{fullShare} gath d s f2 := by
  have p0 := out_putback (F := F) d L s f2 124 128 (by omega) (Nat.le_refl _)
  have p1 := out_putback (F := F) d L s f2 125 128 (by omega) (Nat.le_refl _)
  have p2 := out_putback (F := F) d L s f2 126 128 (by omega) (Nat.le_refl _)
  have p3 := out_putback (F := F) d L s f2 127 128 (by omega) (Nat.le_refl _)
  iintro ⟨H, B0, B1, B2, B3⟩
  ihave H := p0 $$ [H B0]
  · isplitl [H]; · iexact H
    iexact B0
  ihave H := p1 $$ [H B1]
  · isplitl [H]; · iexact H
    iexact B1
  ihave H := p2 $$ [H B2]
  · isplitl [H]; · iexact H
    iexact B2
  ihave H := p3 $$ [H B3]
  · isplitl [H]; · iexact H
    iexact B3
  iapply (out_final (F := F) d L s f2)
  iexact H

end

end Cert.KernelIdeal.Tile

end
-- ==== Proof.TilePConds.lean ====
/-
  Which of the eight conditions of a trip of the tile's main loop hold: all of them at a middle trip; at the first
  trip none of the three waits for a copy-out; at the last trip neither of the two that fetch and gather a next block.
-/
import proofs.«205025_g42520176230720_cont_8to1_b_1509_29_alg».proof.Proof.KBase

noncomputable section

namespace Cert.KernelIdeal.Tile

open Cert.KernelIdeal Cert.KernelIdeal.Gen Cert.KernelIdeal.Base
open Idealize.ShloMosaic
open Idealize.ShloMosaic.SparseCore.Cfg (HIx)

theorem conds_mid : ∀ k : Fin k1_t2_loop.trips, 1 ≤ k.val → k.val ≤ 30 →
    k1_cond1 k = 1#1 ∧ k1_cond2 k = 1#1 ∧ k1_cond3 k = 1#1 ∧ k1_cond4 k = 1#1 ∧ k1_cond5 k = 1#1 ∧ k1_cond6 k = 1#1
      ∧ k1_cond7 k = 1#1 ∧ k1_cond8 k = 1#1 := by
  decide +kernel

theorem conds_first : ∀ k : Fin k1_t2_loop.trips, k.val = 0 →
    ¬ k1_cond1 k = 1#1 ∧ k1_cond2 k = 1#1 ∧ ¬ k1_cond3 k = 1#1 ∧ k1_cond4 k = 1#1 ∧ ¬ k1_cond5 k = 1#1 ∧ k1_cond6 k = 1#1
      ∧ k1_cond7 k = 1#1 ∧ k1_cond8 k = 1#1 := by
  decide +kernel

theorem conds_last : ∀ k : Fin k1_t2_loop.trips, k.val = 31 →
    k1_cond1 k = 1#1 ∧ k1_cond2 k = 1#1 ∧ k1_cond3 k = 1#1 ∧ k1_cond4 k = 1#1 ∧ k1_cond5 k = 1#1 ∧ k1_cond6 k = 1#1
      ∧ ¬ k1_cond7 k = 1#1 ∧ ¬ k1_cond8 k = 1#1 := by
  decide +kernel

/-- Recorded waits compose: each set adds only waits at the kernel's own index. -/
theorem waits_trans {W W₁ W₂ : Waits sig (HIx 1)} (h₂ : ∀ p ∈ W₂, p ∈ W₁ ∨ p.2 = none) (h₁ : ∀ p ∈ W₁, p ∈ W ∨ p.2 = none) :
    ∀ p ∈ W₂, p ∈ W ∨ p.2 = none := by
  intro p hp
  rcases h₂ p hp with h | h
  · exact h₁ p h
  · exact .inr h

end Cert.KernelIdeal.Tile

end
-- ==== Proof.TileFix.lean ====
/-
  The index rewrite as a counted loop: one trip of each of the body's five copies of it extends the rewritten prefix of
  its slot of the index scratch by sixteen entries, whether the scratch is held whole or less a slot's window that
  a gather in flight has borrowed.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileVal
import proofs.«205025_g42520176230720_cont_8to1_b_1509_29_alg».proof.Proof.Gen.KernelIdeal.Skeleton

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

variable [FloatOps F]

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

/-- One trip of the index rewrite on slot 0. -/
theorem fix_region_t1 (d : Dev nD) (L : grid1.Coords)
    (g : Buf (Elt F) ((thr d L).loc cc1_scratch0)) (t : Fin k1_t1_loop.trips) (acc : PUnit) :
    ((idxW).view.loc (thr d L) ↦{fullShare} fixPre 0 t.val g : sProp 𝕄)
      ⊢ wp frame (wpE (defs₀ (F := F)) 𝒱₀ (thr d L) none) Set.univ
          (k1_t1_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4  t acc)
          fun _ => ((idxW).view.loc (thr d L) ↦{fullShare} fixPre 0 (t.val + 1) g : sProp 𝕄) := by
  have ht : t.val < 8 := Nat.lt_of_lt_of_le t.isLt k1_t1_abs.2.1
  unfold k1_t1_body
  iintro Hi
  sl_exec
  sl_step
  irw [← fixPre_step (F := F) 0 t.val (by decide) ht g (k1_off2 t) (k1_off2_eq t) (k1_off2_inb t)]
  iexact Hi

/-- One trip of the index rewrite on slot 1, slot 0's window lent out. -/
theorem fix_region_t3 (d : Dev nD) (L : grid1.Coords) (v2 c0 c1 : BitVec 32) (k : Fin k1_t2_loop.trips) (h : k1_cond2 k = 1#1)
    (g : Buf (Elt F) ((thr d L).loc cc1_scratch0)) (t : Fin k1_t3_loop.trips) (acc : PUnit) :
    ((idxW).view.loc (thr d L) ↦[Finset.univ \ (idxS0).view.set]{fullShare} fixPre 1 t.val g : sProp 𝕄)
      ⊢ wp frame (wpE (defs₀ (F := F)) 𝒱₀ (thr d L) none) Set.univ
          (k1_t3_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 c0 c1 k h t acc)
          fun _ => ((idxW).view.loc (thr d L) ↦[Finset.univ \ (idxS0).view.set]{fullShare} fixPre 1 (t.val + 1) g : sProp 𝕄) := by
  have ht : t.val < 8 := Nat.lt_of_lt_of_le t.isLt k1_t3_abs.2.1
  unfold k1_t3_body
  iintro Hi
  sl_exec
  sl_step
  irw [← fixPre_step (F := F) 1 t.val (by decide) ht g (k1_off5 t) (k1_off5_eq t) (k1_off5_inb k t h)]
  iexact Hi

/-- One trip of the index rewrite on slot 2, slot 1's window lent out. -/
theorem fix_region_t4 (d : Dev nD) (L : grid1.Coords) (v2 : BitVec 32) (k : Fin k1_t2_loop.trips) (arg9 : BitVec 32) (h : k1_cond4 k = 1#1)
    (g : Buf (Elt F) ((thr d L).loc cc1_scratch0)) (t : Fin k1_t4_loop.trips) (acc : PUnit) :
    ((idxW).view.loc (thr d L) ↦[Finset.univ \ (idxS1).view.set]{fullShare} fixPre 2 t.val g : sProp 𝕄)
      ⊢ wp frame (wpE (defs₀ (F := F)) 𝒱₀ (thr d L) none) Set.univ
          (k1_t4_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 h t acc)
          fun _ => ((idxW).view.loc (thr d L) ↦[Finset.univ \ (idxS1).view.set]{fullShare} fixPre 2 (t.val + 1) g : sProp 𝕄) := by
  have ht : t.val < 8 := Nat.lt_of_lt_of_le t.isLt k1_t4_abs.2.1
  unfold k1_t4_body
  iintro Hi
  sl_exec
  sl_step
  irw [← fixPre_step (F := F) 2 t.val (by decide) ht g (k1_off9 t) (k1_off9_eq t) (k1_off9_inb k t h)]
  iexact Hi

/-- One trip of the index rewrite on slot 3, slot 2's window lent out. -/
theorem fix_region_t5 (d : Dev nD) (L : grid1.Coords) (v2 : BitVec 32) (k : Fin k1_t2_loop.trips) (arg9 c4 : BitVec 32) (h : k1_cond6 k = 1#1)
    (g : Buf (Elt F) ((thr d L).loc cc1_scratch0)) (t : Fin k1_t5_loop.trips) (acc : PUnit) :
    ((idxW).view.loc (thr d L) ↦[Finset.univ \ (idxS2).view.set]{fullShare} fixPre 3 t.val g : sProp 𝕄)
      ⊢ wp frame (wpE (defs₀ (F := F)) 𝒱₀ (thr d L) none) Set.univ
          (k1_t5_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 c4 h t acc)
          fun _ => ((idxW).view.loc (thr d L) ↦[Finset.univ \ (idxS2).view.set]{fullShare} fixPre 3 (t.val + 1) g : sProp 𝕄) := by
  have ht : t.val < 8 := Nat.lt_of_lt_of_le t.isLt k1_t5_abs.2.1
  unfold k1_t5_body
  iintro Hi
  sl_exec
  sl_step
  irw [← fixPre_step (F := F) 3 t.val (by decide) ht g (k1_off12 t) (k1_off12_eq t) (k1_off12_inb k t h)]
  iexact Hi

/-- One trip of the index rewrite on slot 0, slot 3's window lent out. -/
theorem fix_region_t6 (d : Dev nD) (L : grid1.Coords) (v2 c0 c1 : BitVec 32) (k : Fin k1_t2_loop.trips) (h : k1_cond8 k = 1#1)
    (g : Buf (Elt F) ((thr d L).loc cc1_scratch0)) (t : Fin k1_t6_loop.trips) (acc : PUnit) :
    ((idxW).view.loc (thr d L) ↦[Finset.univ \ (idxS3).view.set]{fullShare} fixPre 0 t.val g : sProp 𝕄)
      ⊢ wp frame (wpE (defs₀ (F := F)) 𝒱₀ (thr d L) none) Set.univ
          (k1_t6_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 c0 c1 k h t acc)
          fun _ => ((idxW).view.loc (thr d L) ↦[Finset.univ \ (idxS3).view.set]{fullShare} fixPre 0 (t.val + 1) g : sProp 𝕄) := by
  have ht : t.val < 8 := Nat.lt_of_lt_of_le t.isLt k1_t6_abs.2.1
  unfold k1_t6_body
  iintro Hi
  sl_exec
  sl_step
  irw [← fixPre_step (F := F) 0 t.val (by decide) ht g (k1_off15 t) (k1_off15_eq t) (k1_off15_inb k t h)]
  iexact Hi

end Cert.KernelIdeal.Tile

end
-- ==== Proof.TileStepA.lean ====
/-
  The first three steps of a trip of the tile's main loop, each with both its conditions true: a copy-out waited for, the
  next block of indices fetched and rewritten and its gather started, the gather in flight waited for and its
  copy-out started. Each is one printed part of the loop's region.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileVal
import proofs.«205025_g42520176230720_cont_8to1_b_1509_29_alg».proof.Proof.TileVal2
import proofs.«205025_g42520176230720_cont_8to1_b_1509_29_alg».proof.Proof.TileOff
import proofs.«205025_g42520176230720_cont_8to1_b_1509_29_alg».proof.Proof.TileInv
import proofs.«205025_g42520176230720_cont_8to1_b_1509_29_alg».proof.Proof.TilePEF
import proofs.«205025_g42520176230720_cont_8to1_b_1509_29_alg».proof.Proof.TilePVal
import proofs.«205025_g42520176230720_cont_8to1_b_1509_29_alg».proof.Proof.TileRVal
import proofs.«205025_g42520176230720_cont_8to1_b_1509_29_alg».proof.Proof.TileFix
import proofs.«205025_g42520176230720_cont_8to1_b_1509_29_alg».proof.Proof.Gen.KernelIdeal.Skeleton

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

omit [FloatOps F] in
theorem pts_abs {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

set_option maxHeartbeats 4000000 in
/-- Step 0 of a trip, both its conditions true: the copy-out of block `4 * k.val + 0 - 3` is waited for, block `4 * k.val + 1` is fetched,
    rewritten and its gather started, the gather of block `4 * k.val + 0` is waited for and its copy-out started. -/
theorem step0_AB (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk1 : 1 ≤ k.val) (hk32 : k.val < 32) (hn1 : 4 * k.val + 1 < 128)
    (k1_h1 : k1_cond1 k = 1#1) (k1_h2 : k1_cond2 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 7} f2)
        ∗ ((tabW).view.loc (thr d L) ↦[Finset.univ \ (tabSl).view.set]{Transfers.shareTokN q2 6} f2)
        ∗ gFl0 d L q2 f2 fr0 gi0 (gRows d L s f2 (4 * k.val + 0))
        ∗ oFl1 d L ![row0 L + 128 * (4 * k.val + 0 - 3), 0] (outBlkRect_inb L (4 * k.val + 0 - 3) (by omega)) fo1 (gRows d L s f2 (4 * k.val + 0 - 3)) C1
        ∗ ((idxW).view.loc (thr d L) ↦[Finset.univ \ (idxS0).view.set]{fullShare} g)
        ∗ semVal (thr d L, SemLoc.dma (⟨7, by decide⟩ : DmaSem sig)) 0 ∗ semVal (thr d L, SemLoc.dma (⟨10, by decide⟩ : DmaSem sig)) 0 ∗ semVal (thr d L, SemLoc.dma (⟨15, by decide⟩ : DmaSem sig)) 0
        ∗ (((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o0))
      ⊢ wp frame (wpE (defs₀ (F := F)) 𝒱₀ (thr d L) none) Set.univ
          (k1_part1 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 0#32 1#32 k)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 6} f2)
            ∗ ((tabW).view.loc (thr d L) ↦[Finset.univ \ (tabSl).view.set]{Transfers.shareTokN q2 7} f2)
            ∗ (∃ fr gi, gFl1 d L q2 f2 fr gi (gRows d L s f2 (4 * k.val + 1)))
            ∗ (∃ fo C, oFl0 d L ![row0 L + 128 * (4 * k.val + 0), 0] (outBlkRect_inb L (4 * k.val + 0) (by omega)) fo (gRows d L s f2 (4 * k.val + 0)) C)
            ∗ (∃ g', (idxW).view.loc (thr d L) ↦[Finset.univ \ (idxS1).view.set]{fullShare} g')
            ∗ semVal (thr d L, SemLoc.dma (⟨6, by decide⟩ : DmaSem sig)) 0 ∗ semVal (thr d L, SemLoc.dma (⟨11, by decide⟩ : DmaSem sig)) 0 ∗ semVal (thr d L, SemLoc.dma (⟨15, by decide⟩ : DmaSem sig)) 0
            ∗ (aLoc d main_v3 ↦[outBlk L (4 * k.val + 0 - 3)]{fullShare} gath d s f2)) : sProp 𝕄) := by
  sl_unfold [k1_part1]
  unfold gFl0 oFl1
  iintro ⟨#Hmw, HO, Hs, Ht1, Ht0e, HG0, HO1, Hi, Hw1, Hso0, Hc1, Hob0⟩
  sl_exec
  ihave Hi' := (pts_abs (F := F) _) $$ Hi
  icases Hi' with ⟨%g1, %hg1, Hi⟩
  sl_for (fun t (_ : PUnit) => (idxW).view.loc (thr d L) ↦[Finset.univ \ (idxS0).view.set]{fullShare} fixPre 1 t g1) $$ [Hi]
  case region => exact fun t acc => fix_region_t3 (F := F) d L v2 0#32 1#32 k k1_h2 g1 t acc
  · rw [fixPre_zero]; iexact Hi
  iintro %_ HI
  have hT : k1_t3_loop.trips = 8 := by decide
  have hfix1 : ∀ x : S128.Idx, View.read (Elt F) (idxS1).view (fixPre 1 k1_t3_loop.trips g1) x
      = fixIdx (s (srcRowIx (row0 L + 128 * (4 * k.val + 1) + (x 0).val))) := by
    intro x
    rw [hg1, idx_fixed (F := F) d L 1 _ _ hT]
    sl_unfold_run_names
    exact congrArg fixIdx (copy_payload (F := F) d L s (4 * k.val + 1) hn1 (k1_off4 L k) (off4_row L k) _ x)
  have hin1 : ∀ x, (View.read (Elt F) (idxS1).view (fixPre 1 k1_t3_loop.trips g1) x).toNat < S512000x128.size gathers_S512000x128_S128x128.axis :=
    gather_inrange (F := F) d L s hin 1 _ (4 * k.val + 1) hn1 _ hfix1
  sl_exec
  have eG : step0_AB.sl.gather0 d L f2 g1 hin1 = gRows d L s f2 (4 * k.val + 1) := by
    sl_unfold_run_names
    exact gather_payload (F := F) d L s f2 hin 1 _ (4 * k.val + 1) hn1 _ hfix1 _ hin1
  have eD : step0_AB.sl.dma0_1 d L s f2 k fr0 = gRows d L s f2 (4 * k.val + 0) := by
    sl_unfold_run_names
    exact copyout_payload (F := F) d L 0 _ fr0 _
  rw [eG, eD]
  sl_step
  ihave Hbd := (Entails.of_eq (block_done (F := F) d L s f2 (4 * k.val + 0 - 3) (by omega) _ rfl _ _)) $$ HO1_dst
  ihave Hi2 := (idx_rejoin (F := F) d L 0 1 (by decide) _ _ _ _) $$ [HI HG0_dst_and]
  · isplitl [HI]
    · iexact HI
    · iexact HG0_dst_and
  iclear HO1_src
  iexists _
  isplitl [HO]; · iexact HO
  isplitr
  · ipureintro
    intro p hp
    simp only [Finset.mem_insert] at hp
    rcases hp with rfl | rfl | rfl | hp
    · exact .inr rfl
    · exact .inr rfl
    · exact .inr rfl
    · exact .inl hp
  isplitl [Hs]; · iexact Hs
  isplitl [Ht0e]; · iexact Ht0e
  isplitl [Ht1]; · iexact Ht1
  isplitl [Hw1]
  · iexists _, _; unfold gFl1; iexact Hw1
  isplitl [Hso0]
  · iexists o0, ((rowS0).view.writes (Elt F) fr0 [⟨Rect.whole S128x128, gRows d L s f2 (4 * k.val + 0)⟩])
    rw [← oFl0_congr (F := F) d L (off6_row L k ⟨0, by decide⟩) (k1_off6_inb L k 0) (outBlkRect_inb L (4 * k.val + 0) (by omega)) o0 (gRows d L s f2 (4 * k.val + 0)) ((rowS0).view.writes (Elt F) fr0 [⟨Rect.whole S128x128, gRows d L s f2 (4 * k.val + 0)⟩])]
    unfold oFl0
    iexact Hso0
  isplitl [Hi2]
  · iexists _; iexact Hi2
  isplitl [HG0]; · iexact HG0
  isplitl [HO1]; · iexact HO1
  isplitl [Hc1]; · iexact Hc1
  iexact Hbd

set_option maxHeartbeats 4000000 in
/-- Step 1 of a trip, both its conditions true: the copy-out of block `4 * k.val + 1 - 3` is waited for, block `4 * k.val + 2` is fetched,
    rewritten and its gather started, the gather of block `4 * k.val + 1` is waited for and its copy-out started. -/
theorem step1_AB (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 : BitVec 32) (k : Fin k1_t2_loop.trips) (hk1 : 1 ≤ k.val) (hk32 : k.val < 32) (hn1 : 4 * k.val + 2 < 128)
    (k1_h3 : k1_cond3 k = 1#1) (k1_h4 : k1_cond4 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 8} f2)
        ∗ ((tabW).view.loc (thr d L) ↦[Finset.univ \ (tabSl).view.set]{Transfers.shareTokN q2 7} f2)
        ∗ gFl1 d L q2 f2 fr0 gi0 (gRows d L s f2 (4 * k.val + 1))
        ∗ oFl2 d L ![row0 L + 128 * (4 * k.val + 1 - 3), 0] (outBlkRect_inb L (4 * k.val + 1 - 3) (by omega)) fo1 (gRows d L s f2 (4 * k.val + 1 - 3)) C1
        ∗ ((idxW).view.loc (thr d L) ↦[Finset.univ \ (idxS1).view.set]{fullShare} g)
        ∗ semVal (thr d L, SemLoc.dma (⟨8, by decide⟩ : DmaSem sig)) 0 ∗ semVal (thr d L, SemLoc.dma (⟨11, by decide⟩ : DmaSem sig)) 0 ∗ semVal (thr d L, SemLoc.dma (⟨16, by decide⟩ : DmaSem sig)) 0
        ∗ (((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o0))
      ⊢ wp frame (wpE (defs₀ (F := F)) 𝒱₀ (thr d L) none) Set.univ
          (k1_part2 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 7} f2)
            ∗ ((tabW).view.loc (thr d L) ↦[Finset.univ \ (tabSl).view.set]{Transfers.shareTokN q2 8} f2)
            ∗ (∃ fr gi, gFl2 d L q2 f2 fr gi (gRows d L s f2 (4 * k.val + 2)))
            ∗ (∃ fo C, oFl1 d L ![row0 L + 128 * (4 * k.val + 1), 0] (outBlkRect_inb L (4 * k.val + 1) (by omega)) fo (gRows d L s f2 (4 * k.val + 1)) C)
            ∗ (∃ g', (idxW).view.loc (thr d L) ↦[Finset.univ \ (idxS2).view.set]{fullShare} g')
            ∗ semVal (thr d L, SemLoc.dma (⟨7, by decide⟩ : DmaSem sig)) 0 ∗ semVal (thr d L, SemLoc.dma (⟨12, by decide⟩ : DmaSem sig)) 0 ∗ semVal (thr d L, SemLoc.dma (⟨16, by decide⟩ : DmaSem sig)) 0
            ∗ (aLoc d main_v3 ↦[outBlk L (4 * k.val + 1 - 3)]{fullShare} gath d s f2)) : sProp 𝕄) := by
  sl_unfold [k1_part2]
  unfold gFl1 oFl2
  iintro ⟨#Hmw, HO, Hs, Ht1, Ht0e, HG0, HO1, Hi, Hw1, Hso0, Hc1, Hob0⟩
  sl_exec
  ihave Hi' := (pts_abs (F := F) _) $$ Hi
  icases Hi' with ⟨%g1, %hg1, Hi⟩
  sl_for (fun t (_ : PUnit) => (idxW).view.loc (thr d L) ↦[Finset.univ \ (idxS1).view.set]{fullShare} fixPre 2 t g1) $$ [Hi]
  case region => exact fun t acc => fix_region_t4 (F := F) d L v2 k arg9 k1_h4 g1 t acc
  · rw [fixPre_zero]; iexact Hi
  iintro %_ HI
  have hT : k1_t4_loop.trips = 8 := by decide
  have hfix1 : ∀ x : S128.Idx, View.read (Elt F) (idxS2).view (fixPre 2 k1_t4_loop.trips g1) x
      = fixIdx (s (srcRowIx (row0 L + 128 * (4 * k.val + 2) + (x 0).val))) := by
    intro x
    rw [hg1, idx_fixed (F := F) d L 2 _ _ hT]
    sl_unfold_run_names
    exact congrArg fixIdx (copy_payload (F := F) d L s (4 * k.val + 2) hn1 (k1_off8 L k) (off8_row L k) _ x)
  have hin1 : ∀ x, (View.read (Elt F) (idxS2).view (fixPre 2 k1_t4_loop.trips g1) x).toNat < S512000x128.size gathers_S512000x128_S128x128.axis :=
    gather_inrange (F := F) d L s hin 2 _ (4 * k.val + 2) hn1 _ hfix1
  sl_exec
  have eG : step1_AB.sl.gather0 d L f2 g1 hin1 = gRows d L s f2 (4 * k.val + 2) := by
    sl_unfold_run_names
    exact gather_payload (F := F) d L s f2 hin 2 _ (4 * k.val + 2) hn1 _ hfix1 _ hin1
  have eD : step1_AB.sl.dma0_1 d L s f2 k fr0 = gRows d L s f2 (4 * k.val + 1) := by
    sl_unfold_run_names
    exact copyout_payload (F := F) d L 1 _ fr0 _
  rw [eG, eD]
  sl_step
  ihave Hbd := (Entails.of_eq (block_done (F := F) d L s f2 (4 * k.val + 1 - 3) (by omega) _ rfl _ _)) $$ HO1_dst
  ihave Hi2 := (idx_rejoin (F := F) d L 1 2 (by decide) _ _ _ _) $$ [HI HG0_dst_and]
  · isplitl [HI]
    · iexact HI
    · iexact HG0_dst_and
  iclear HO1_src
  iexists _
  isplitl [HO]; · iexact HO
  isplitr
  · ipureintro
    intro p hp
    simp only [Finset.mem_insert] at hp
    rcases hp with rfl | rfl | rfl | hp
    · exact .inr rfl
    · exact .inr rfl
    · exact .inr rfl
    · exact .inl hp
  isplitl [Hs]; · iexact Hs
  isplitl [Ht0e]; · iexact Ht0e
  isplitl [Ht1]; · iexact Ht1
  isplitl [Hw1]
  · iexists _, _; unfold gFl2; iexact Hw1
  isplitl [Hso0]
  · iexists o0, ((rowS1).view.writes (Elt F) fr0 [⟨Rect.whole S128x128, gRows d L s f2 (4 * k.val + 1)⟩])
    rw [← oFl1_congr (F := F) d L (off6_row L k ⟨1, by decide⟩) (k1_off6_inb L k 1) (outBlkRect_inb L (4 * k.val + 1) (by omega)) o0 (gRows d L s f2 (4 * k.val + 1)) ((rowS1).view.writes (Elt F) fr0 [⟨Rect.whole S128x128, gRows d L s f2 (4 * k.val + 1)⟩])]
    unfold oFl1
    iexact Hso0
  isplitl [Hi2]
  · iexists _; iexact Hi2
  isplitl [HG0]; · iexact HG0
  isplitl [HO1]; · iexact HO1
  isplitl [Hc1]; · iexact Hc1
  iexact Hbd

set_option maxHeartbeats 4000000 in
/-- Step 2 of a trip, both its conditions true: the copy-out of block `4 * k.val + 2 - 3` is waited for, block `4 * k.val + 3` is fetched,
    rewritten and its gather started, the gather of block `4 * k.val + 2` is waited for and its copy-out started. -/
theorem step2_AB (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 c4 : BitVec 32) (k : Fin k1_t2_loop.trips) (hk1 : 1 ≤ k.val) (hk32 : k.val < 32) (hn1 : 4 * k.val + 3 < 128)
    (k1_h5 : k1_cond5 k = 1#1) (k1_h6 : k1_cond6 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 9} f2)
        ∗ ((tabW).view.loc (thr d L) ↦[Finset.univ \ (tabSl).view.set]{Transfers.shareTokN q2 8} f2)
        ∗ gFl2 d L q2 f2 fr0 gi0 (gRows d L s f2 (4 * k.val + 2))
        ∗ oFl3 d L ![row0 L + 128 * (4 * k.val + 2 - 3), 0] (outBlkRect_inb L (4 * k.val + 2 - 3) (by omega)) fo1 (gRows d L s f2 (4 * k.val + 2 - 3)) C1
        ∗ ((idxW).view.loc (thr d L) ↦[Finset.univ \ (idxS2).view.set]{fullShare} g)
        ∗ semVal (thr d L, SemLoc.dma (⟨9, by decide⟩ : DmaSem sig)) 0 ∗ semVal (thr d L, SemLoc.dma (⟨12, by decide⟩ : DmaSem sig)) 0 ∗ semVal (thr d L, SemLoc.dma (⟨17, by decide⟩ : DmaSem sig)) 0
        ∗ (((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o0))
      ⊢ wp frame (wpE (defs₀ (F := F)) 𝒱₀ (thr d L) none) Set.univ
          (k1_part3 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 c4)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 8} f2)
            ∗ ((tabW).view.loc (thr d L) ↦[Finset.univ \ (tabSl).view.set]{Transfers.shareTokN q2 9} f2)
            ∗ (∃ fr gi, gFl3 d L q2 f2 fr gi (gRows d L s f2 (4 * k.val + 3)))
            ∗ (∃ fo C, oFl2 d L ![row0 L + 128 * (4 * k.val + 2), 0] (outBlkRect_inb L (4 * k.val + 2) (by omega)) fo (gRows d L s f2 (4 * k.val + 2)) C)
            ∗ (∃ g', (idxW).view.loc (thr d L) ↦[Finset.univ \ (idxS3).view.set]{fullShare} g')
            ∗ semVal (thr d L, SemLoc.dma (⟨8, by decide⟩ : DmaSem sig)) 0 ∗ semVal (thr d L, SemLoc.dma (⟨13, by decide⟩ : DmaSem sig)) 0 ∗ semVal (thr d L, SemLoc.dma (⟨17, by decide⟩ : DmaSem sig)) 0
            ∗ (aLoc d main_v3 ↦[outBlk L (4 * k.val + 2 - 3)]{fullShare} gath d s f2)) : sProp 𝕄) := by
  sl_unfold [k1_part3]
  unfold gFl2 oFl3
  iintro ⟨#Hmw, HO, Hs, Ht1, Ht0e, HG0, HO1, Hi, Hw1, Hso0, Hc1, Hob0⟩
  sl_exec
  ihave Hi' := (pts_abs (F := F) _) $$ Hi
  icases Hi' with ⟨%g1, %hg1, Hi⟩
  sl_for (fun t (_ : PUnit) => (idxW).view.loc (thr d L) ↦[Finset.univ \ (idxS2).view.set]{fullShare} fixPre 3 t g1) $$ [Hi]
  case region => exact fun t acc => fix_region_t5 (F := F) d L v2 k arg9 c4 k1_h6 g1 t acc
  · rw [fixPre_zero]; iexact Hi
  iintro %_ HI
  have hT : k1_t5_loop.trips = 8 := by decide
  have hfix1 : ∀ x : S128.Idx, View.read (Elt F) (idxS3).view (fixPre 3 k1_t5_loop.trips g1) x
      = fixIdx (s (srcRowIx (row0 L + 128 * (4 * k.val + 3) + (x 0).val))) := by
    intro x
    rw [hg1, idx_fixed (F := F) d L 3 _ _ hT]
    sl_unfold_run_names
    exact congrArg fixIdx (copy_payload (F := F) d L s (4 * k.val + 3) hn1 (k1_off11 L k) (off11_row L k) _ x)
  have hin1 : ∀ x, (View.read (Elt F) (idxS3).view (fixPre 3 k1_t5_loop.trips g1) x).toNat < S512000x128.size gathers_S512000x128_S128x128.axis :=
    gather_inrange (F := F) d L s hin 3 _ (4 * k.val + 3) hn1 _ hfix1
  sl_exec
  have eG : step2_AB.sl.gather0 d L f2 g1 hin1 = gRows d L s f2 (4 * k.val + 3) := by
    sl_unfold_run_names
    exact gather_payload (F := F) d L s f2 hin 3 _ (4 * k.val + 3) hn1 _ hfix1 _ hin1
  have eD : step2_AB.sl.dma0_1 d L s f2 k fr0 = gRows d L s f2 (4 * k.val + 2) := by
    sl_unfold_run_names
    exact copyout_payload (F := F) d L 2 _ fr0 _
  rw [eG, eD]
  sl_step
  ihave Hbd := (Entails.of_eq (block_done (F := F) d L s f2 (4 * k.val + 2 - 3) (by omega) _ rfl _ _)) $$ HO1_dst
  ihave Hi2 := (idx_rejoin (F := F) d L 2 3 (by decide) _ _ _ _) $$ [HI HG0_dst_and]
  · isplitl [HI]
    · iexact HI
    · iexact HG0_dst_and
  iclear HO1_src
  iexists _
  isplitl [HO]; · iexact HO
  isplitr
  · ipureintro
    intro p hp
    simp only [Finset.mem_insert] at hp
    rcases hp with rfl | rfl | rfl | hp
    · exact .inr rfl
    · exact .inr rfl
    · exact .inr rfl
    · exact .inl hp
  isplitl [Hs]; · iexact Hs
  isplitl [Ht0e]; · iexact Ht0e
  isplitl [Ht1]; · iexact Ht1
  isplitl [Hw1]
  · iexists _, _; unfold gFl3; iexact Hw1
  isplitl [Hso0]
  · iexists o0, ((rowS2).view.writes (Elt F) fr0 [⟨Rect.whole S128x128, gRows d L s f2 (4 * k.val + 2)⟩])
    rw [← oFl2_congr (F := F) d L (off6_row L k ⟨2, by decide⟩) (k1_off6_inb L k 2) (outBlkRect_inb L (4 * k.val + 2) (by omega)) o0 (gRows d L s f2 (4 * k.val + 2)) ((rowS2).view.writes (Elt F) fr0 [⟨Rect.whole S128x128, gRows d L s f2 (4 * k.val + 2)⟩])]
    unfold oFl2
    iexact Hso0
  isplitl [Hi2]
  · iexists _; iexact Hi2
  isplitl [HG0]; · iexact HG0
  isplitl [HO1]; · iexact HO1
  isplitl [Hc1]; · iexact Hc1
  iexact Hbd

end Cert.KernelIdeal.Tile

end
-- ==== Proof.TileStepB.lean ====
/-
  The first three steps of the FIRST trip of the tile's main loop: nothing is on its way out of the next slot yet, so no
  copy-out is waited for; otherwise as in the other trips.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileVal
import proofs.«205025_g42520176230720_cont_8to1_b_1509_29_alg».proof.Proof.TileVal2
import proofs.«205025_g42520176230720_cont_8to1_b_1509_29_alg».proof.Proof.TileOff
import proofs.«205025_g42520176230720_cont_8to1_b_1509_29_alg».proof.Proof.TileInv
import proofs.«205025_g42520176230720_cont_8to1_b_1509_29_alg».proof.Proof.TilePEF
import proofs.«205025_g42520176230720_cont_8to1_b_1509_29_alg».proof.Proof.TilePVal
import proofs.«205025_g42520176230720_cont_8to1_b_1509_29_alg».proof.Proof.TileRVal
import proofs.«205025_g42520176230720_cont_8to1_b_1509_29_alg».proof.Proof.TileFix
import proofs.«205025_g42520176230720_cont_8to1_b_1509_29_alg».proof.Proof.Gen.KernelIdeal.Skeleton

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

omit [FloatOps F] in
theorem pts_absB {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

set_option maxHeartbeats 4000000 in
/-- Step 0 of a trip of the FIRST kind (nothing is on its way out of the next slot yet): block `4 * k.val + 1` is fetched,
    rewritten and its gather started, the gather of block `4 * k.val + 0` is waited for and its copy-out started. -/
theorem step0_B (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips)  (hk32 : k.val < 32) (hn1 : 4 * k.val + 1 < 128)
    (k1_h1 : ¬ k1_cond1 k = 1#1) (k1_h2 : k1_cond2 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 7} f2)
        ∗ ((tabW).view.loc (thr d L) ↦[Finset.univ \ (tabSl).view.set]{Transfers.shareTokN q2 6} f2)
        ∗ gFl0 d L q2 f2 fr0 gi0 (gRows d L s f2 (4 * k.val + 0))
        ∗ ((rowS1).view.loc (thr d L) ↦[(rowS1).view.set]{fullShare} C1)
        ∗ ((idxW).view.loc (thr d L) ↦[Finset.univ \ (idxS0).view.set]{fullShare} g)
        ∗ semVal (thr d L, SemLoc.dma (⟨7, by decide⟩ : DmaSem sig)) 0 ∗ semVal (thr d L, SemLoc.dma (⟨10, by decide⟩ : DmaSem sig)) 0 ∗ semVal (thr d L, SemLoc.dma (⟨15, by decide⟩ : DmaSem sig)) 0
        ∗ (((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o0))
      ⊢ wp frame (wpE (defs₀ (F := F)) 𝒱₀ (thr d L) none) Set.univ
          (k1_part1 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 0#32 1#32 k)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 6} f2)
            ∗ ((tabW).view.loc (thr d L) ↦[Finset.univ \ (tabSl).view.set]{Transfers.shareTokN q2 7} f2)
            ∗ (∃ fr gi, gFl1 d L q2 f2 fr gi (gRows d L s f2 (4 * k.val + 1)))
            ∗ (∃ fo C, oFl0 d L ![row0 L + 128 * (4 * k.val + 0), 0] (outBlkRect_inb L (4 * k.val + 0) (by omega)) fo (gRows d L s f2 (4 * k.val + 0)) C)
            ∗ (∃ g', (idxW).view.loc (thr d L) ↦[Finset.univ \ (idxS1).view.set]{fullShare} g')
            ∗ semVal (thr d L, SemLoc.dma (⟨6, by decide⟩ : DmaSem sig)) 0 ∗ semVal (thr d L, SemLoc.dma (⟨15, by decide⟩ : DmaSem sig)) 0) : sProp 𝕄) := by
  sl_unfold [k1_part1]
  unfold gFl0
  iintro ⟨#Hmw, HO, Hs, Ht1, Ht0e, HG0, HO1, Hi, Hw1, Hso0, Hc1, Hob0⟩
  sl_exec
  ihave Hi' := (pts_absB (F := F) _) $$ Hi
  icases Hi' with ⟨%g1, %hg1, Hi⟩
  sl_for (fun t (_ : PUnit) => (idxW).view.loc (thr d L) ↦[Finset.univ \ (idxS0).view.set]{fullShare} fixPre 1 t g1) $$ [Hi]
  case region => exact fun t acc => fix_region_t3 (F := F) d L v2 0#32 1#32 k k1_h2 g1 t acc
  · rw [fixPre_zero]; iexact Hi
  iintro %_ HI
  have hT : k1_t3_loop.trips = 8 := by decide
  have hfix1 : ∀ x : S128.Idx, View.read (Elt F) (idxS1).view (fixPre 1 k1_t3_loop.trips g1) x
      = fixIdx (s (srcRowIx (row0 L + 128 * (4 * k.val + 1) + (x 0).val))) := by
    intro x
    rw [hg1, idx_fixed (F := F) d L 1 _ _ hT]
    sl_unfold_run_names
    exact congrArg fixIdx (copy_payload (F := F) d L s (4 * k.val + 1) hn1 (k1_off4 L k) (off4_row L k) _ x)
  have hin1 : ∀ x, (View.read (Elt F) (idxS1).view (fixPre 1 k1_t3_loop.trips g1) x).toNat < S512000x128.size gathers_S512000x128_S128x128.axis :=
    gather_inrange (F := F) d L s hin 1 _ (4 * k.val + 1) hn1 _ hfix1
  sl_exec
  have eG : step0_B.sl.gather0 d L f2 g1 hin1 = gRows d L s f2 (4 * k.val + 1) := by
    sl_unfold_run_names
    exact gather_payload (F := F) d L s f2 hin 1 _ (4 * k.val + 1) hn1 _ hfix1 _ hin1
  have eD : step0_B.sl.dma0_1 d L s f2 k fr0 = gRows d L s f2 (4 * k.val + 0) := by
    sl_unfold_run_names
    exact copyout_payload (F := F) d L 0 _ fr0 _
  rw [eG, eD]
  sl_step
  ihave Hi2 := (idx_rejoin (F := F) d L 0 1 (by decide) _ _ _ _) $$ [HI HG0_dst_and]
  · isplitl [HI]
    · iexact HI
    · iexact HG0_dst_and
  iclear HO1
  iexists _
  isplitl [HO]; · iexact HO
  isplitr
  · ipureintro
    intro p hp
    simp only [Finset.mem_insert] at hp
    rcases hp with rfl | rfl | hp
    · exact .inr rfl
    · exact .inr rfl
    · exact .inl hp
  isplitl [Hs]; · iexact Hs
  isplitl [Ht0e]; · iexact Ht0e
  isplitl [Ht1]; · iexact Ht1
  isplitl [Hw1]
  · iexists _, _; unfold gFl1; iexact Hw1
  isplitl [Hso0]
  · iexists o0, ((rowS0).view.writes (Elt F) fr0 [⟨Rect.whole S128x128, gRows d L s f2 (4 * k.val + 0)⟩])
    rw [← oFl0_congr (F := F) d L (off6_row L k ⟨0, by decide⟩) (k1_off6_inb L k 0) (outBlkRect_inb L (4 * k.val + 0) (by omega)) o0 (gRows d L s f2 (4 * k.val + 0)) ((rowS0).view.writes (Elt F) fr0 [⟨Rect.whole S128x128, gRows d L s f2 (4 * k.val + 0)⟩])]
    unfold oFl0
    iexact Hso0
  isplitl [Hi2]
  · iexists _; iexact Hi2
  isplitl [HG0]; · iexact HG0
  iexact Hc1

set_option maxHeartbeats 4000000 in
/-- Step 1 of a trip of the FIRST kind (nothing is on its way out of the next slot yet): block `4 * k.val + 2` is fetched,
    rewritten and its gather started, the gather of block `4 * k.val + 1` is waited for and its copy-out started. -/
theorem step1_B (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 : BitVec 32) (k : Fin k1_t2_loop.trips)  (hk32 : k.val < 32) (hn1 : 4 * k.val + 2 < 128)
    (k1_h3 : ¬ k1_cond3 k = 1#1) (k1_h4 : k1_cond4 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 8} f2)
        ∗ ((tabW).view.loc (thr d L) ↦[Finset.univ \ (tabSl).view.set]{Transfers.shareTokN q2 7} f2)
        ∗ gFl1 d L q2 f2 fr0 gi0 (gRows d L s f2 (4 * k.val + 1))
        ∗ ((rowS2).view.loc (thr d L) ↦[(rowS2).view.set]{fullShare} C1)
        ∗ ((idxW).view.loc (thr d L) ↦[Finset.univ \ (idxS1).view.set]{fullShare} g)
        ∗ semVal (thr d L, SemLoc.dma (⟨8, by decide⟩ : DmaSem sig)) 0 ∗ semVal (thr d L, SemLoc.dma (⟨11, by decide⟩ : DmaSem sig)) 0 ∗ semVal (thr d L, SemLoc.dma (⟨16, by decide⟩ : DmaSem sig)) 0
        ∗ (((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o0))
      ⊢ wp frame (wpE (defs₀ (F := F)) 𝒱₀ (thr d L) none) Set.univ
          (k1_part2 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 7} f2)
            ∗ ((tabW).view.loc (thr d L) ↦[Finset.univ \ (tabSl).view.set]{Transfers.shareTokN q2 8} f2)
            ∗ (∃ fr gi, gFl2 d L q2 f2 fr gi (gRows d L s f2 (4 * k.val + 2)))
            ∗ (∃ fo C, oFl1 d L ![row0 L + 128 * (4 * k.val + 1), 0] (outBlkRect_inb L (4 * k.val + 1) (by omega)) fo (gRows d L s f2 (4 * k.val + 1)) C)
            ∗ (∃ g', (idxW).view.loc (thr d L) ↦[Finset.univ \ (idxS2).view.set]{fullShare} g')
            ∗ semVal (thr d L, SemLoc.dma (⟨7, by decide⟩ : DmaSem sig)) 0 ∗ semVal (thr d L, SemLoc.dma (⟨16, by decide⟩ : DmaSem sig)) 0) : sProp 𝕄) := by
  sl_unfold [k1_part2]
  unfold gFl1
  iintro ⟨#Hmw, HO, Hs, Ht1, Ht0e, HG0, HO1, Hi, Hw1, Hso0, Hc1, Hob0⟩
  sl_exec
  ihave Hi' := (pts_absB (F := F) _) $$ Hi
  icases Hi' with ⟨%g1, %hg1, Hi⟩
  sl_for (fun t (_ : PUnit) => (idxW).view.loc (thr d L) ↦[Finset.univ \ (idxS1).view.set]{fullShare} fixPre 2 t g1) $$ [Hi]
  case region => exact fun t acc => fix_region_t4 (F := F) d L v2 k arg9 k1_h4 g1 t acc
  · rw [fixPre_zero]; iexact Hi
  iintro %_ HI
  have hT : k1_t4_loop.trips = 8 := by decide
  have hfix1 : ∀ x : S128.Idx, View.read (Elt F) (idxS2).view (fixPre 2 k1_t4_loop.trips g1) x
      = fixIdx (s (srcRowIx (row0 L + 128 * (4 * k.val + 2) + (x 0).val))) := by
    intro x
    rw [hg1, idx_fixed (F := F) d L 2 _ _ hT]
    sl_unfold_run_names
    exact congrArg fixIdx (copy_payload (F := F) d L s (4 * k.val + 2) hn1 (k1_off8 L k) (off8_row L k) _ x)
  have hin1 : ∀ x, (View.read (Elt F) (idxS2).view (fixPre 2 k1_t4_loop.trips g1) x).toNat < S512000x128.size gathers_S512000x128_S128x128.axis :=
    gather_inrange (F := F) d L s hin 2 _ (4 * k.val + 2) hn1 _ hfix1
  sl_exec
  have eG : step1_B.sl.gather0 d L f2 g1 hin1 = gRows d L s f2 (4 * k.val + 2) := by
    sl_unfold_run_names
    exact gather_payload (F := F) d L s f2 hin 2 _ (4 * k.val + 2) hn1 _ hfix1 _ hin1
  have eD : step1_B.sl.dma0_1 d L s f2 k fr0 = gRows d L s f2 (4 * k.val + 1) := by
    sl_unfold_run_names
    exact copyout_payload (F := F) d L 1 _ fr0 _
  rw [eG, eD]
  sl_step
  ihave Hi2 := (idx_rejoin (F := F) d L 1 2 (by decide) _ _ _ _) $$ [HI HG0_dst_and]
  · isplitl [HI]
    · iexact HI
    · iexact HG0_dst_and
  iclear HO1
  iexists _
  isplitl [HO]; · iexact HO
  isplitr
  · ipureintro
    intro p hp
    simp only [Finset.mem_insert] at hp
    rcases hp with rfl | rfl | hp
    · exact .inr rfl
    · exact .inr rfl
    · exact .inl hp
  isplitl [Hs]; · iexact Hs
  isplitl [Ht0e]; · iexact Ht0e
  isplitl [Ht1]; · iexact Ht1
  isplitl [Hw1]
  · iexists _, _; unfold gFl2; iexact Hw1
  isplitl [Hso0]
  · iexists o0, ((rowS1).view.writes (Elt F) fr0 [⟨Rect.whole S128x128, gRows d L s f2 (4 * k.val + 1)⟩])
    rw [← oFl1_congr (F := F) d L (off6_row L k ⟨1, by decide⟩) (k1_off6_inb L k 1) (outBlkRect_inb L (4 * k.val + 1) (by omega)) o0 (gRows d L s f2 (4 * k.val + 1)) ((rowS1).view.writes (Elt F) fr0 [⟨Rect.whole S128x128, gRows d L s f2 (4 * k.val + 1)⟩])]
    unfold oFl1
    iexact Hso0
  isplitl [Hi2]
  · iexists _; iexact Hi2
  isplitl [HG0]; · iexact HG0
  iexact Hc1

set_option maxHeartbeats 4000000 in
/-- Step 2 of a trip of the FIRST kind (nothing is on its way out of the next slot yet): block `4 * k.val + 3` is fetched,
    rewritten and its gather started, the gather of block `4 * k.val + 2` is waited for and its copy-out started. -/
theorem step2_B (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 c4 : BitVec 32) (k : Fin k1_t2_loop.trips)  (hk32 : k.val < 32) (hn1 : 4 * k.val + 3 < 128)
    (k1_h5 : ¬ k1_cond5 k = 1#1) (k1_h6 : k1_cond6 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 9} f2)
        ∗ ((tabW).view.loc (thr d L) ↦[Finset.univ \ (tabSl).view.set]{Transfers.shareTokN q2 8} f2)
        ∗ gFl2 d L q2 f2 fr0 gi0 (gRows d L s f2 (4 * k.val + 2))
        ∗ ((rowS3).view.loc (thr d L) ↦[(rowS3).view.set]{fullShare} C1)
        ∗ ((idxW).view.loc (thr d L) ↦[Finset.univ \ (idxS2).view.set]{fullShare} g)
        ∗ semVal (thr d L, SemLoc.dma (⟨9, by decide⟩ : DmaSem sig)) 0 ∗ semVal (thr d L, SemLoc.dma (⟨12, by decide⟩ : DmaSem sig)) 0 ∗ semVal (thr d L, SemLoc.dma (⟨17, by decide⟩ : DmaSem sig)) 0
        ∗ (((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o0))
      ⊢ wp frame (wpE (defs₀ (F := F)) 𝒱₀ (thr d L) none) Set.univ
          (k1_part3 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 c4)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 8} f2)
            ∗ ((tabW).view.loc (thr d L) ↦[Finset.univ \ (tabSl).view.set]{Transfers.shareTokN q2 9} f2)
            ∗ (∃ fr gi, gFl3 d L q2 f2 fr gi (gRows d L s f2 (4 * k.val + 3)))
            ∗ (∃ fo C, oFl2 d L ![row0 L + 128 * (4 * k.val + 2), 0] (outBlkRect_inb L (4 * k.val + 2) (by omega)) fo (gRows d L s f2 (4 * k.val + 2)) C)
            ∗ (∃ g', (idxW).view.loc (thr d L) ↦[Finset.univ \ (idxS3).view.set]{fullShare} g')
            ∗ semVal (thr d L, SemLoc.dma (⟨8, by decide⟩ : DmaSem sig)) 0 ∗ semVal (thr d L, SemLoc.dma (⟨17, by decide⟩ : DmaSem sig)) 0) : sProp 𝕄) := by
  sl_unfold [k1_part3]
  unfold gFl2
  iintro ⟨#Hmw, HO, Hs, Ht1, Ht0e, HG0, HO1, Hi, Hw1, Hso0, Hc1, Hob0⟩
  sl_exec
  ihave Hi' := (pts_absB (F := F) _) $$ Hi
  icases Hi' with ⟨%g1, %hg1, Hi⟩
  sl_for (fun t (_ : PUnit) => (idxW).view.loc (thr d L) ↦[Finset.univ \ (idxS2).view.set]{fullShare} fixPre 3 t g1) $$ [Hi]
  case region => exact fun t acc => fix_region_t5 (F := F) d L v2 k arg9 c4 k1_h6 g1 t acc
  · rw [fixPre_zero]; iexact Hi
  iintro %_ HI
  have hT : k1_t5_loop.trips = 8 := by decide
  have hfix1 : ∀ x : S128.Idx, View.read (Elt F) (idxS3).view (fixPre 3 k1_t5_loop.trips g1) x
      = fixIdx (s (srcRowIx (row0 L + 128 * (4 * k.val + 3) + (x 0).val))) := by
    intro x
    rw [hg1, idx_fixed (F := F) d L 3 _ _ hT]
    sl_unfold_run_names
    exact congrArg fixIdx (copy_payload (F := F) d L s (4 * k.val + 3) hn1 (k1_off11 L k) (off11_row L k) _ x)
  have hin1 : ∀ x, (View.read (Elt F) (idxS3).view (fixPre 3 k1_t5_loop.trips g1) x).toNat < S512000x128.size gathers_S512000x128_S128x128.axis :=
    gather_inrange (F := F) d L s hin 3 _ (4 * k.val + 3) hn1 _ hfix1
  sl_exec
  have eG : step2_B.sl.gather0 d L f2 g1 hin1 = gRows d L s f2 (4 * k.val + 3) := by
    sl_unfold_run_names
    exact gather_payload (F := F) d L s f2 hin 3 _ (4 * k.val + 3) hn1 _ hfix1 _ hin1
  have eD : step2_B.sl.dma0_1 d L s f2 k fr0 = gRows d L s f2 (4 * k.val + 2) := by
    sl_unfold_run_names
    exact copyout_payload (F := F) d L 2 _ fr0 _
  rw [eG, eD]
  sl_step
  ihave Hi2 := (idx_rejoin (F := F) d L 2 3 (by decide) _ _ _ _) $$ [HI HG0_dst_and]
  · isplitl [HI]
    · iexact HI
    · iexact HG0_dst_and
  iclear HO1
  iexists _
  isplitl [HO]; · iexact HO
  isplitr
  · ipureintro
    intro p hp
    simp only [Finset.mem_insert] at hp
    rcases hp with rfl | rfl | hp
    · exact .inr rfl
    · exact .inr rfl
    · exact .inl hp
  isplitl [Hs]; · iexact Hs
  isplitl [Ht0e]; · iexact Ht0e
  isplitl [Ht1]; · iexact Ht1
  isplitl [Hw1]
  · iexists _, _; unfold gFl3; iexact Hw1
  isplitl [Hso0]
  · iexists o0, ((rowS2).view.writes (Elt F) fr0 [⟨Rect.whole S128x128, gRows d L s f2 (4 * k.val + 2)⟩])
    rw [← oFl2_congr (F := F) d L (off6_row L k ⟨2, by decide⟩) (k1_off6_inb L k 2) (outBlkRect_inb L (4 * k.val + 2) (by omega)) o0 (gRows d L s f2 (4 * k.val + 2)) ((rowS2).view.writes (Elt F) fr0 [⟨Rect.whole S128x128, gRows d L s f2 (4 * k.val + 2)⟩])]
    unfold oFl2
    iexact Hso0
  isplitl [Hi2]
  · iexists _; iexact Hi2
  isplitl [HG0]; · iexact HG0
  iexact Hc1

end Cert.KernelIdeal.Tile

end
-- ==== Proof.TileRPack.lean ====
/-
  The resources one trip of the tile's main loop leaves, listed one by one in the spellings its steps produce, are the
  state between two trips at the next trip (and, after the last trip, the state after the loop): the same atoms, regrouped,
  with the blocks' numbers rewritten by arithmetic.
-/
import proofs.«205025_g42520176230720_cont_8to1_b_1509_29_alg».proof.Proof.TileInv
import proofs.«205025_g42520176230720_cont_8to1_b_1509_29_alg».proof.Proof.TilePInv

noncomputable section

namespace Cert.KernelIdeal.Tile

open Cert.KernelIdeal Cert.KernelIdeal.Gen Cert.KernelIdeal.Base
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

section
variable (d : Dev nD) (L : grid1.Coords) (q0 q2 : PosShare TreeShare) (s : Buf (Elt F) (aLoc d main_v0)) (f2 : Buf (Elt F) (aLoc d main_v2))
  (O : CellTallies nD τ sig (HIx 1)) (W : Waits sig (HIx 1))

/-- The resources a middle trip leaves, with the block numbers given up to equations, are the invariant before trip `K`. -/
theorem repack_mid_aux (K : Nat) (hK1 : 1 ≤ K) (hK : K < 32) (n0 n1 n2 n3 : Nat) (e0 : n0 = 4 * K) (e1 : n1 = 4 * K - 3) (e2 : n2 = 4 * K - 2)
    (e3 : n3 = 4 * K - 1) (h1 : n1 < 128) (h2 : n2 < 128) (h3 : n3 < 128) :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
        ∗ (∃ fr gi, gFl0 d L q2 f2 fr gi (gRows d L s f2 n0))
        ∗ (∃ g, (idxW).view.loc (thr d L) ↦[Finset.univ \ (idxS0).view.set]{fullShare} g)
        ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ semVal (thr d L, SemLoc.dma (⟨10, by decide⟩ : DmaSem sig)) 0
        ∗ (∃ fo C, oFl1 d L ![row0 L + 128 * n1, 0] (outBlkRect_inb L n1 h1) fo (gRows d L s f2 n1) C)
        ∗ (∃ fo C, oFl2 d L ![row0 L + 128 * n2, 0] (outBlkRect_inb L n2 h2) fo (gRows d L s f2 n2) C)
        ∗ (∃ fo C, oFl3 d L ![row0 L + 128 * n3, 0] (outBlkRect_inb L n3 h3) fo (gRows d L s f2 n3) C)
        ∗ outSt d L s f2 (4 * K - 3) (4 * K))
      ⊢ (tileInv d L q0 q2 s f2 O W K : sProp 𝕄) := by
  subst e0 e1 e2 e3
  rw [tileInv_mid d L q0 q2 s f2 O W K hK1 hK]
  iintro ⟨A1, A2, A3, A4, A5, A6, A7, G1, G2, G3, G4, G5, G6, G7, G8, G9, C1, C2, C3, C4, HO⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [G1 G2 G3 G4 G5 G6 G7 G8 G9]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9
  isplitl [C1 C2 C3 C4]
  · isplitl [C1]; · iexact C1
    isplitl [C2]; · iexact C2
    isplitl [C3]; · iexact C3
    iexact C4
  iexact HO

/-- The resources the last trip leaves, with the block numbers given up to equations, are the invariant after the loop. -/
theorem repack_last_aux (n0 n1 n2 n3 : Nat) (e0 : n0 = 124) (e1 : n1 = 125) (e2 : n2 = 126) (e3 : n3 = 127)
    (h0 : n0 < 128) (h1 : n1 < 128) (h2 : n2 < 128) (h3 : n3 < 128) :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
        ∗ (∃ g, (idxW).view.loc (thr d L) ↦{fullShare} g)
        ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ (∃ fo C, oFl0 d L ![row0 L + 128 * n0, 0] (outBlkRect_inb L n0 h0) fo (gRows d L s f2 n0) C)
        ∗ (∃ fo C, oFl1 d L ![row0 L + 128 * n1, 0] (outBlkRect_inb L n1 h1) fo (gRows d L s f2 n1) C)
        ∗ (∃ fo C, oFl2 d L ![row0 L + 128 * n2, 0] (outBlkRect_inb L n2 h2) fo (gRows d L s f2 n2) C)
        ∗ (∃ fo C, oFl3 d L ![row0 L + 128 * n3, 0] (outBlkRect_inb L n3 h3) fo (gRows d L s f2 n3) C)
        ∗ outSt d L s f2 124 128)
      ⊢ (tileInv d L q0 q2 s f2 O W 32 : sProp 𝕄) := by
  subst e0 e1 e2 e3
  rw [tileInv_last d L q0 q2 s f2 O W]
  iintro ⟨A1, A2, A3, A4, A5, A6, A7, G1, G2, G3, G4, G5, G6, G7, G8, G9, C1, C2, C3, C4, HO⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [G1 G2 G3 G4 G5 G6 G7 G8 G9]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9
  isplitl [C1 C2 C3 C4]
  · isplitl [C1]; · iexact C1
    isplitl [C2]; · iexact C2
    isplitl [C3]; · iexact C3
    iexact C4
  iexact HO

theorem repack_mid (k : Nat) (hk30 : k ≤ 30) :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
        ∗ (∃ fr gi, gFl0 d L q2 f2 fr gi (gRows d L s f2 (4 * k + 4)))
        ∗ (∃ g, (idxW).view.loc (thr d L) ↦[Finset.univ \ (idxS0).view.set]{fullShare} g)
        ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ semVal (thr d L, SemLoc.dma (⟨10, by decide⟩ : DmaSem sig)) 0
        ∗ (∃ fo C, oFl1 d L ![row0 L + 128 * (4 * k + 1), 0] (outBlkRect_inb L (4 * k + 1) (by omega)) fo (gRows d L s f2 (4 * k + 1)) C)
        ∗ (∃ fo C, oFl2 d L ![row0 L + 128 * (4 * k + 2), 0] (outBlkRect_inb L (4 * k + 2) (by omega)) fo (gRows d L s f2 (4 * k + 2)) C)
        ∗ (∃ fo C, oFl3 d L ![row0 L + 128 * (4 * k + 3), 0] (outBlkRect_inb L (4 * k + 3) (by omega)) fo (gRows d L s f2 (4 * k + 3)) C)
        ∗ outSt d L s f2 (4 * (k + 1) - 3) (4 * (k + 1)))
      ⊢ (tileInv d L q0 q2 s f2 O W (k + 1) : sProp 𝕄) :=
  repack_mid_aux d L q0 q2 s f2 O W (k + 1) (by omega) (by omega) (4 * k + 4) (4 * k + 1) (4 * k + 2) (4 * k + 3)
    (by omega) (by omega) (by omega) (by omega) (by omega) (by omega) (by omega)

theorem repack_last :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
        ∗ (∃ g, (idxW).view.loc (thr d L) ↦{fullShare} g)
        ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ (∃ fo C, oFl0 d L ![row0 L + 128 * (4 * 31 + 0), 0] (outBlkRect_inb L (4 * 31 + 0) (by omega)) fo (gRows d L s f2 (4 * 31 + 0)) C)
        ∗ (∃ fo C, oFl1 d L ![row0 L + 128 * (4 * 31 + 1), 0] (outBlkRect_inb L (4 * 31 + 1) (by omega)) fo (gRows d L s f2 (4 * 31 + 1)) C)
        ∗ (∃ fo C, oFl2 d L ![row0 L + 128 * (4 * 31 + 2), 0] (outBlkRect_inb L (4 * 31 + 2) (by omega)) fo (gRows d L s f2 (4 * 31 + 2)) C)
        ∗ (∃ fo C, oFl3 d L ![row0 L + 128 * (4 * 31 + 3), 0] (outBlkRect_inb L (4 * 31 + 3) (by omega)) fo (gRows d L s f2 (4 * 31 + 3)) C)
        ∗ outSt d L s f2 124 128)
      ⊢ (tileInv d L q0 q2 s f2 O W 32 : sProp 𝕄) :=
  repack_last_aux d L q0 q2 s f2 O W (4 * 31 + 0) (4 * 31 + 1) (4 * 31 + 2) (4 * 31 + 3) rfl rfl rfl rfl
    (by omega) (by omega) (by omega) (by omega)

end

end Cert.KernelIdeal.Tile

end
-- ==== Proof.TileTripFirst.lean ====
/-
  The first trip of the tile's main loop establishes the state before the second: nothing is yet on its way out of
  slots 1 to 3, so its first three steps wait for no copy-out; its last step waits for the copy-out its first step started.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileVal
import proofs.«205025_g42520176230720_cont_8to1_b_1509_29_alg».proof.Proof.TileVal2
import proofs.«205025_g42520176230720_cont_8to1_b_1509_29_alg».proof.Proof.TileOff
import proofs.«205025_g42520176230720_cont_8to1_b_1509_29_alg».proof.Proof.TileInv
import proofs.«205025_g42520176230720_cont_8to1_b_1509_29_alg».proof.Proof.TilePEF
import proofs.«205025_g42520176230720_cont_8to1_b_1509_29_alg».proof.Proof.TilePVal
import proofs.«205025_g42520176230720_cont_8to1_b_1509_29_alg».proof.Proof.TileRVal
import proofs.«205025_g42520176230720_cont_8to1_b_1509_29_alg».proof.Proof.TileFix
import proofs.«205025_g42520176230720_cont_8to1_b_1509_29_alg».proof.Proof.TilePInv
import proofs.«205025_g42520176230720_cont_8to1_b_1509_29_alg».proof.Proof.TileStepA
import proofs.«205025_g42520176230720_cont_8to1_b_1509_29_alg».proof.Proof.TileStepB
import proofs.«205025_g42520176230720_cont_8to1_b_1509_29_alg».proof.Proof.TileROut
import proofs.«205025_g42520176230720_cont_8to1_b_1509_29_alg».proof.Proof.TileROut4
import proofs.«205025_g42520176230720_cont_8to1_b_1509_29_alg».proof.Proof.TilePConds
import proofs.«205025_g42520176230720_cont_8to1_b_1509_29_alg».proof.Proof.TileRPack
import proofs.«205025_g42520176230720_cont_8to1_b_1509_29_alg».proof.Proof.Gen.KernelIdeal.Skeleton

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

set_option maxHeartbeats 8000000 in
/-- The first trip of the main loop takes the state before it to the state before the second. -/
theorem trip_first (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk0 : k.val = 0)
    (O : CellTallies nD τ sig (HIx 1)) (W : Waits sig (HIx 1)) (acc : Unit) :
    (tileInv d L q0 q2 s f2 O W k.val : sProp 𝕄)
      ⊢ wp frame (wpE (defs₀ (F := F)) 𝒱₀ (thr d L) none) Set.univ
          (k1_t2_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k acc)
          fun _ => tileInv d L q0 q2 s f2 O W (k.val + 1) := by
  obtain ⟨k1_h1, k1_h2, k1_h3, k1_h4, k1_h5, k1_h6, k1_h7, k1_h8⟩ := conds_first k hk0
  have hk32 : k.val < 32 := by omega
  have hk30 : k.val ≤ 30 := by omega
  have hpre : (tileInv d L q0 q2 s f2 O W k.val : sProp 𝕄) = tileInv d L q0 q2 s f2 O W 0 := by rw [hk0]
  rw [hpre, tileInv_zero (F := F) d L q0 q2 s f2 O W,
    show (gRows d L s f2 (4 * 0) : S128x128.Idx → Elt F .f32) = gRows d L s f2 (4 * k.val + 0) from by rw [hk0],
    show (outSt d L s f2 0 0 : sProp 𝕄) = outSt d L s f2 0 (4 * k.val) from by rw [hk0]]
  sl_unfold [k1_t2_body, k1_part4]
  iintro ⟨#Hmw, ⟨%W0, %hW0, HO⟩, Hs, Hc15, Hc16, Hc17, Hc18, ⟨Ht7, Ht8, Ht9, Ht6e, ⟨%fr0, %gi0, HG0⟩, ⟨%g, Hi⟩, Hw7, Hw8, Hw9⟩, ⟨⟨%C1, HO1⟩, ⟨%C2, HO2⟩, ⟨%C3, HO3⟩, Hso10, Hso11, Hso12, Hso13⟩, Hout⟩
  ihave Hc4 := (out_carve4 (F := F) d L s f2 k hk32 0 (by omega)) $$ Hout
  icases Hc4 with ⟨Hout, ⟨%o0, Hob0⟩, ⟨%o1, Hob1⟩, ⟨%o2, Hob2⟩, ⟨%o3, Hob3⟩⟩
  sl_rw [Prog.bind_assoc]
  -- step 0
  rw [wp_bind]
  iapply (wp_wand_r Idealize.ShloMosaic.frame (wpE (defs₀ (F := F)) 𝒱₀ (thr d L) none) Set.univ)
  isplitl [HO Hs Ht7 Ht6e HG0 HO1 Hi Hw7 Hso10 Hc15 Hob0]
  · iapply (step0_B (F := F) d L q0 q2 s f2 hin v2 k hk32 (by omega) k1_h1 k1_h2 g gi0 fr0 C1 o0 o0 O W0)
    isplitr; · iexact Hmw
    isplitl [HO]; · iexact HO
    isplitl [Hs]; · iexact Hs
    isplitl [Ht7]; · iexact Ht7
    isplitl [Ht6e]; · iexact Ht6e
    isplitl [HG0]; · iexact HG0
    isplitl [HO1]; · iexact HO1
    isplitl [Hi]; · iexact Hi
    isplitl [Hw7]; · iexact Hw7
    isplitl [Hso10]; · iexact Hso10
    isplitl [Hc15]; · iexact Hc15
    iexact Hob0
  iintro %arg9 ⟨%W1, HO, %hW1, Hs, Ht6, Ht7e, ⟨%fr1, %gi1, HG1⟩, ⟨%fn0, %Cn0, HN0⟩, ⟨%g1, Hi⟩, Hw6, Hc15⟩
  -- step 1
  beta_reduce
  sl_rw [Prog.bind_assoc]
  rw [wp_bind]
  iapply (wp_wand_r Idealize.ShloMosaic.frame (wpE (defs₀ (F := F)) 𝒱₀ (thr d L) none) Set.univ)
  isplitl [HO Hs Ht8 Ht7e HG1 HO2 Hi Hw8 Hso11 Hc16 Hob1]
  · iapply (step1_B (F := F) d L q0 q2 s f2 hin v2 arg9 k hk32 (by omega) k1_h3 k1_h4 g1 gi1 fr1 C2 o1 o1 O W1)
    isplitr; · iexact Hmw
    isplitl [HO]; · iexact HO
    isplitl [Hs]; · iexact Hs
    isplitl [Ht8]; · iexact Ht8
    isplitl [Ht7e]; · iexact Ht7e
    isplitl [HG1]; · iexact HG1
    isplitl [HO2]; · iexact HO2
    isplitl [Hi]; · iexact Hi
    isplitl [Hw8]; · iexact Hw8
    isplitl [Hso11]; · iexact Hso11
    isplitl [Hc16]; · iexact Hc16
    iexact Hob1
  iintro %c4 ⟨%W2, HO, %hW2, Hs, Ht7, Ht8e, ⟨%fr2, %gi2, HG2⟩, ⟨%fn1, %Cn1, HN1⟩, ⟨%g2, Hi⟩, Hw7, Hc16⟩
  -- step 2
  beta_reduce
  sl_rw [Prog.bind_assoc]
  rw [wp_bind]
  iapply (wp_wand_r Idealize.ShloMosaic.frame (wpE (defs₀ (F := F)) 𝒱₀ (thr d L) none) Set.univ)
  isplitl [HO Hs Ht9 Ht8e HG2 HO3 Hi Hw9 Hso12 Hc17 Hob2]
  · iapply (step2_B (F := F) d L q0 q2 s f2 hin v2 arg9 c4 k hk32 (by omega) k1_h5 k1_h6 g2 gi2 fr2 C3 o2 o2 O W2)
    isplitr; · iexact Hmw
    isplitl [HO]; · iexact HO
    isplitl [Hs]; · iexact Hs
    isplitl [Ht9]; · iexact Ht9
    isplitl [Ht8e]; · iexact Ht8e
    isplitl [HG2]; · iexact HG2
    isplitl [HO3]; · iexact HO3
    isplitl [Hi]; · iexact Hi
    isplitl [Hw9]; · iexact Hw9
    isplitl [Hso12]; · iexact Hso12
    isplitl [Hc17]; · iexact Hc17
    iexact Hob2
  iintro %v136 ⟨%W3, HO, %hW3, Hs, Ht8, Ht9e, ⟨%fr3, %gi3, HG3⟩, ⟨%fn2, %Cn2, HN2⟩, ⟨%g3, Hi⟩, Hw8, Hc17⟩
  -- step 3: the part's own tail
  beta_reduce
  unfold gFl3 oFl0
  sl_exec
  ihave Hi' := (pts_abs (F := F) _) $$ Hi
  icases Hi' with ⟨%g4, %hg4, Hi⟩
  repeat sl_rw [Prog.bind_assoc]
  sl_for (fun t (_ : PUnit) => (idxW).view.loc (thr d L) ↦[Finset.univ \ (idxS3).view.set]{fullShare} fixPre 0 t g4) $$ [Hi]
  case region => exact fun t acc => fix_region_t6 (F := F) d L v2 0#32 1#32 k k1_h8 g4 t acc
  · rw [fixPre_zero]; iexact Hi
  iintro %_ HI
  have hT : k1_t6_loop.trips = 8 := by decide
  have hfix4 : ∀ x : S128.Idx, View.read (Elt F) (idxS0).view (fixPre 0 k1_t6_loop.trips g4) x
      = fixIdx (s (srcRowIx (row0 L + 128 * (4 * k.val + 4) + (x 0).val))) := by
    intro x
    rw [hg4, idx_fixed (F := F) d L 0 _ _ hT]
    sl_unfold_run_names
    exact congrArg fixIdx (copy_payload (F := F) d L s (4 * k.val + 4) (by omega) (k1_off14 L k) (off14_row L k) _ x)
  have hin4 : ∀ x, (View.read (Elt F) (idxS0).view (fixPre 0 k1_t6_loop.trips g4) x).toNat < S512000x128.size gathers_S512000x128_S128x128.axis :=
    gather_inrange (F := F) d L s hin 0 _ (4 * k.val + 4) (by omega) _ hfix4
  sl_exec
  have eG : trip_first.sl.gather0 d L f2 g4 hin4 = gRows d L s f2 (4 * k.val + 4) := by
    sl_unfold_run_names
    exact gather_payload (F := F) d L s f2 hin 0 _ (4 * k.val + 4) (by omega) _ hfix4 _ hin4
  have eD : trip_first.sl.dma0_1 d L s f2 k fr3 = gRows d L s f2 (4 * k.val + 3) := by
    sl_unfold_run_names
    exact copyout_payload (F := F) d L 3 _ fr3 _
  rw [eG, eD]
  sl_step
  have e43 : 4 * k.val + 0 = 4 * k.val + 3 - 3 := by omega
  have hb43 : 4 * k.val + 0 < 128 := by omega
  have eBd3 := (block_done (F := F) d L s f2 (4 * k.val + 0) hb43 _ rfl (outBlkRect_inb L (4 * k.val + 0) hb43) fn0).trans
      (congrArg (fun n => (aLoc d main_v3 ↦[outBlk L n]{fullShare} gath d s f2 : sProp 𝕄)) e43)
  ihave Hbd3 := (Entails.of_eq eBd3) $$ HN0_dst
  ihave Hi2 := (idx_rejoin (F := F) d L 3 0 (by decide) _ _ _ _) $$ [HI HG3_dst_and]
  · isplitl [HI]
    · iexact HI
    · iexact HG3_dst_and
  iclear HN0_src
  have eo1 : (outSt d L s f2 0 (4 * (k.val + 1)) : sProp 𝕄) = outSt d L s f2 0 4 := by rw [hk0]
  have eo2 : (outSt d L s f2 1 4 : sProp 𝕄) = outSt d L s f2 (4 * (k.val + 1) - 3) (4 * (k.val + 1)) := by rw [hk0]
  ihave Hout' := (Entails.of_eq eo1) $$ Hout
  ihave Hout1 := (out_putback1 (F := F) d L s f2 k hk0) $$ [Hout' Hbd3]
  · isplitl [Hout']; · iexact Hout'
    iexact Hbd3
  ihave Hout2 := (Entails.of_eq eo2) $$ Hout1
  iapply (repack_mid (F := F) d L q0 q2 s f2 O W k.val hk30)
  isplitr; · iexact Hmw
  isplitl [HO]
  · iexists (insert (SemLoc.dma (⟨9, by decide⟩ : DmaSem sig), (default : HIx 1)) (insert (SemLoc.dma (⟨18, by decide⟩ : DmaSem sig), (default : HIx 1)) (insert (SemLoc.dma (⟨10, by decide⟩ : DmaSem sig), (default : HIx 1)) W3)))
    isplitr
    · ipureintro
      refine waits_trans (W₁ := W3) ?_ (waits_trans hW3 (waits_trans hW2 (waits_trans hW1 hW0)))
      intro p hp
      simp only [Finset.mem_insert] at hp
      rcases hp with rfl | rfl | rfl | hp
      · exact .inr rfl
      · exact .inr rfl
      · exact .inr rfl
      · exact .inl hp
    · iexact HO
  isplitl [Hs]; · iexact Hs
  isplitl [Hc15]; · iexact Hc15
  isplitl [Hc16]; · iexact Hc16
  isplitl [Hc17]; · iexact Hc17
  isplitl [Hc18]; · iexact Hc18
  isplitl [Ht7]; · iexact Ht7
  isplitl [Ht8]; · iexact Ht8
  isplitl [Ht9e]; · iexact Ht9e
  isplitl [Ht6]; · iexact Ht6
  isplitl [Hw6]
  · iexists _, _; unfold gFl0; iexact Hw6
  isplitl [Hi2]
  · iexists _; iexact Hi2
  isplitl [Hw7]; · iexact Hw7
  isplitl [Hw8]; · iexact Hw8
  isplitl [HG3]; · iexact HG3
  isplitl [HN0]; · iexact HN0
  isplitl [HN1]
  · iexists _, _; iexact HN1
  isplitl [HN2]
  · iexists _, _; iexact HN2
  isplitl [Hso13]
  · iexists o3, ((rowS3).view.writes (Elt F) fr3 [⟨Rect.whole S128x128, gRows d L s f2 (4 * k.val + 3)⟩])
    rw [← oFl3_congr (F := F) d L (off6_row L k ⟨3, by decide⟩) (k1_off6_inb L k 3) (outBlkRect_inb L (4 * k.val + 3) (by omega)) o3 (gRows d L s f2 (4 * k.val + 3)) ((rowS3).view.writes (Elt F) fr3 [⟨Rect.whole S128x128, gRows d L s f2 (4 * k.val + 3)⟩])]
    unfold oFl3
    iexact Hso13
  iexact Hout2

end Cert.KernelIdeal.Tile

end
-- ==== Proof.TileTripMid.lean ====
/-
  A middle trip of the tile's main loop keeps the loop's invariant: its first three steps are the three printed parts'
  lemmas applied in sequence, its fourth the region's own tail run in place; then the four finished blocks rejoin the
  rows held and the state is the invariant one trip on.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileVal
import proofs.«205025_g42520176230720_cont_8to1_b_1509_29_alg».proof.Proof.TileVal2
import proofs.«205025_g42520176230720_cont_8to1_b_1509_29_alg».proof.Proof.TileOff
import proofs.«205025_g42520176230720_cont_8to1_b_1509_29_alg».proof.Proof.TileInv
import proofs.«205025_g42520176230720_cont_8to1_b_1509_29_alg».proof.Proof.TilePEF
import proofs.«205025_g42520176230720_cont_8to1_b_1509_29_alg».proof.Proof.TilePVal
import proofs.«205025_g42520176230720_cont_8to1_b_1509_29_alg».proof.Proof.TileRVal
import proofs.«205025_g42520176230720_cont_8to1_b_1509_29_alg».proof.Proof.TileFix
import proofs.«205025_g42520176230720_cont_8to1_b_1509_29_alg».proof.Proof.TilePInv
import proofs.«205025_g42520176230720_cont_8to1_b_1509_29_alg».proof.Proof.TileStepA
import proofs.«205025_g42520176230720_cont_8to1_b_1509_29_alg».proof.Proof.TileROut
import proofs.«205025_g42520176230720_cont_8to1_b_1509_29_alg».proof.Proof.TileROut4
import proofs.«205025_g42520176230720_cont_8to1_b_1509_29_alg».proof.Proof.TilePConds
import proofs.«205025_g42520176230720_cont_8to1_b_1509_29_alg».proof.Proof.TileRPack
import proofs.«205025_g42520176230720_cont_8to1_b_1509_29_alg».proof.Proof.Gen.KernelIdeal.Skeleton

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

set_option maxHeartbeats 8000000 in
/-- A middle trip of the main loop keeps the invariant. -/
theorem trip_mid (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk1 : 1 ≤ k.val) (hk30 : k.val ≤ 30)
    (O : CellTallies nD τ sig (HIx 1)) (W : Waits sig (HIx 1)) (acc : Unit) :
    (tileInv d L q0 q2 s f2 O W k.val : sProp 𝕄)
      ⊢ wp frame (wpE (defs₀ (F := F)) 𝒱₀ (thr d L) none) Set.univ
          (k1_t2_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k acc)
          fun _ => tileInv d L q0 q2 s f2 O W (k.val + 1) := by
  obtain ⟨k1_h1, k1_h2, k1_h3, k1_h4, k1_h5, k1_h6, k1_h7, k1_h8⟩ := conds_mid k hk1 hk30
  have hk32 : k.val < 32 := by omega
  rw [tileInv_mid (F := F) d L q0 q2 s f2 O W k.val hk1 hk32]
  sl_unfold [k1_t2_body, k1_part4]
  iintro ⟨#Hmw, ⟨%W0, %hW0, HO⟩, Hs, Hc15, Hc16, Hc17, Hc18, ⟨Ht7, Ht8, Ht9, Ht6e, ⟨%fr0, %gi0, HG0⟩, ⟨%g, Hi⟩, Hw7, Hw8, Hw9⟩, ⟨Hso10, ⟨%fo1, %C1, HO1⟩, ⟨%fo2, %C2, HO2⟩, ⟨%fo3, %C3, HO3⟩⟩, Hout⟩
  ihave Hc4 := (out_carve4 (F := F) d L s f2 k hk32 (4 * k.val - 3) (by omega)) $$ Hout
  icases Hc4 with ⟨Hout, ⟨%o0, Hob0⟩, ⟨%o1, Hob1⟩, ⟨%o2, Hob2⟩, ⟨%o3, Hob3⟩⟩
  sl_rw [Prog.bind_assoc]
  -- step 0
  rw [wp_bind]
  iapply (wp_wand_r Idealize.ShloMosaic.frame (wpE (defs₀ (F := F)) 𝒱₀ (thr d L) none) Set.univ)
  isplitl [HO Hs Ht7 Ht6e HG0 HO1 Hi Hw7 Hso10 Hc15 Hob0]
  · iapply (step0_AB (F := F) d L q0 q2 s f2 hin v2 k hk1 hk32 (by omega) k1_h1 k1_h2 g gi0 fr0 C1 fo1 o0 O W0)
    isplitr; · iexact Hmw
    isplitl [HO]; · iexact HO
    isplitl [Hs]; · iexact Hs
    isplitl [Ht7]; · iexact Ht7
    isplitl [Ht6e]; · iexact Ht6e
    isplitl [HG0]; · iexact HG0
    isplitl [HO1]; · iexact HO1
    isplitl [Hi]; · iexact Hi
    isplitl [Hw7]; · iexact Hw7
    isplitl [Hso10]; · iexact Hso10
    isplitl [Hc15]; · iexact Hc15
    iexact Hob0
  iintro %arg9 ⟨%W1, HO, %hW1, Hs, Ht6, Ht7e, ⟨%fr1, %gi1, HG1⟩, ⟨%fn0, %Cn0, HN0⟩, ⟨%g1, Hi⟩, Hw6, Hso11, Hc15, Hbd0⟩
  -- step 1
  beta_reduce
  sl_rw [Prog.bind_assoc]
  rw [wp_bind]
  iapply (wp_wand_r Idealize.ShloMosaic.frame (wpE (defs₀ (F := F)) 𝒱₀ (thr d L) none) Set.univ)
  isplitl [HO Hs Ht8 Ht7e HG1 HO2 Hi Hw8 Hso11 Hc16 Hob1]
  · iapply (step1_AB (F := F) d L q0 q2 s f2 hin v2 arg9 k hk1 hk32 (by omega) k1_h3 k1_h4 g1 gi1 fr1 C2 fo2 o1 O W1)
    isplitr; · iexact Hmw
    isplitl [HO]; · iexact HO
    isplitl [Hs]; · iexact Hs
    isplitl [Ht8]; · iexact Ht8
    isplitl [Ht7e]; · iexact Ht7e
    isplitl [HG1]; · iexact HG1
    isplitl [HO2]; · iexact HO2
    isplitl [Hi]; · iexact Hi
    isplitl [Hw8]; · iexact Hw8
    isplitl [Hso11]; · iexact Hso11
    isplitl [Hc16]; · iexact Hc16
    iexact Hob1
  iintro %c4 ⟨%W2, HO, %hW2, Hs, Ht7, Ht8e, ⟨%fr2, %gi2, HG2⟩, ⟨%fn1, %Cn1, HN1⟩, ⟨%g2, Hi⟩, Hw7, Hso12, Hc16, Hbd1⟩
  -- step 2
  beta_reduce
  sl_rw [Prog.bind_assoc]
  rw [wp_bind]
  iapply (wp_wand_r Idealize.ShloMosaic.frame (wpE (defs₀ (F := F)) 𝒱₀ (thr d L) none) Set.univ)
  isplitl [HO Hs Ht9 Ht8e HG2 HO3 Hi Hw9 Hso12 Hc17 Hob2]
  · iapply (step2_AB (F := F) d L q0 q2 s f2 hin v2 arg9 c4 k hk1 hk32 (by omega) k1_h5 k1_h6 g2 gi2 fr2 C3 fo3 o2 O W2)
    isplitr; · iexact Hmw
    isplitl [HO]; · iexact HO
    isplitl [Hs]; · iexact Hs
    isplitl [Ht9]; · iexact Ht9
    isplitl [Ht8e]; · iexact Ht8e
    isplitl [HG2]; · iexact HG2
    isplitl [HO3]; · iexact HO3
    isplitl [Hi]; · iexact Hi
    isplitl [Hw9]; · iexact Hw9
    isplitl [Hso12]; · iexact Hso12
    isplitl [Hc17]; · iexact Hc17
    iexact Hob2
  iintro %v136 ⟨%W3, HO, %hW3, Hs, Ht8, Ht9e, ⟨%fr3, %gi3, HG3⟩, ⟨%fn2, %Cn2, HN2⟩, ⟨%g3, Hi⟩, Hw8, Hso13, Hc17, Hbd2⟩
  -- step 3: the part's own tail
  beta_reduce
  unfold gFl3 oFl0
  sl_exec
  ihave Hi' := (pts_abs (F := F) _) $$ Hi
  icases Hi' with ⟨%g4, %hg4, Hi⟩
  repeat sl_rw [Prog.bind_assoc]
  sl_for (fun t (_ : PUnit) => (idxW).view.loc (thr d L) ↦[Finset.univ \ (idxS3).view.set]{fullShare} fixPre 0 t g4) $$ [Hi]
  case region => exact fun t acc => fix_region_t6 (F := F) d L v2 0#32 1#32 k k1_h8 g4 t acc
  · rw [fixPre_zero]; iexact Hi
  iintro %_ HI
  have hT : k1_t6_loop.trips = 8 := by decide
  have hfix4 : ∀ x : S128.Idx, View.read (Elt F) (idxS0).view (fixPre 0 k1_t6_loop.trips g4) x
      = fixIdx (s (srcRowIx (row0 L + 128 * (4 * k.val + 4) + (x 0).val))) := by
    intro x
    rw [hg4, idx_fixed (F := F) d L 0 _ _ hT]
    sl_unfold_run_names
    exact congrArg fixIdx (copy_payload (F := F) d L s (4 * k.val + 4) (by omega) (k1_off14 L k) (off14_row L k) _ x)
  have hin4 : ∀ x, (View.read (Elt F) (idxS0).view (fixPre 0 k1_t6_loop.trips g4) x).toNat < S512000x128.size gathers_S512000x128_S128x128.axis :=
    gather_inrange (F := F) d L s hin 0 _ (4 * k.val + 4) (by omega) _ hfix4
  sl_exec
  have eG : trip_mid.sl.gather0 d L f2 g4 hin4 = gRows d L s f2 (4 * k.val + 4) := by
    sl_unfold_run_names
    exact gather_payload (F := F) d L s f2 hin 0 _ (4 * k.val + 4) (by omega) _ hfix4 _ hin4
  have eD : trip_mid.sl.dma0_1 d L s f2 k fr3 = gRows d L s f2 (4 * k.val + 3) := by
    sl_unfold_run_names
    exact copyout_payload (F := F) d L 3 _ fr3 _
  rw [eG, eD]
  sl_step
  have e43 : 4 * k.val + 0 = 4 * k.val + 3 - 3 := by omega
  have hb43 : 4 * k.val + 0 < 128 := by omega
  have eBd3 := (block_done (F := F) d L s f2 (4 * k.val + 0) hb43 _ rfl (outBlkRect_inb L (4 * k.val + 0) hb43) fn0).trans
      (congrArg (fun n => (aLoc d main_v3 ↦[outBlk L n]{fullShare} gath d s f2 : sProp 𝕄)) e43)
  ihave Hbd3 := (Entails.of_eq eBd3) $$ HN0_dst
  ihave Hi2 := (idx_rejoin (F := F) d L 3 0 (by decide) _ _ _ _) $$ [HI HG3_dst_and]
  · isplitl [HI]
    · iexact HI
    · iexact HG3_dst_and
  iclear HN0_src
  ihave Hout2 := (out_putback4 (F := F) d L s f2 k hk1 hk32 (4 * (k.val + 1)) (by omega) (by omega)) $$ [Hout Hbd0 Hbd1 Hbd2 Hbd3]
  · isplitl [Hout]; · iexact Hout
    isplitl [Hbd0]; · iexact Hbd0
    isplitl [Hbd1]; · iexact Hbd1
    isplitl [Hbd2]; · iexact Hbd2
    iexact Hbd3
  iapply (repack_mid (F := F) d L q0 q2 s f2 O W k.val hk30)
  isplitr; · iexact Hmw
  isplitl [HO]
  · iexists (insert (SemLoc.dma (⟨9, by decide⟩ : DmaSem sig), (default : HIx 1)) (insert (SemLoc.dma (⟨18, by decide⟩ : DmaSem sig), (default : HIx 1)) (insert (SemLoc.dma (⟨10, by decide⟩ : DmaSem sig), (default : HIx 1)) W3)))
    isplitr
    · ipureintro
      refine waits_trans (W₁ := W3) ?_ (waits_trans hW3 (waits_trans hW2 (waits_trans hW1 hW0)))
      intro p hp
      simp only [Finset.mem_insert] at hp
      rcases hp with rfl | rfl | rfl | hp
      · exact .inr rfl
      · exact .inr rfl
      · exact .inr rfl
      · exact .inl hp
    · iexact HO
  isplitl [Hs]; · iexact Hs
  isplitl [Hc15]; · iexact Hc15
  isplitl [Hc16]; · iexact Hc16
  isplitl [Hc17]; · iexact Hc17
  isplitl [Hc18]; · iexact Hc18
  isplitl [Ht7]; · iexact Ht7
  isplitl [Ht8]; · iexact Ht8
  isplitl [Ht9e]; · iexact Ht9e
  isplitl [Ht6]; · iexact Ht6
  isplitl [Hw6]
  · iexists _, _; unfold gFl0; iexact Hw6
  isplitl [Hi2]
  · iexists _; iexact Hi2
  isplitl [Hw7]; · iexact Hw7
  isplitl [Hw8]; · iexact Hw8
  isplitl [HG3]; · iexact HG3
  isplitl [HN0]; · iexact HN0
  isplitl [HN1]
  · iexists _, _; iexact HN1
  isplitl [HN2]
  · iexists _, _; iexact HN2
  isplitl [Hso13]
  · iexists o3, ((rowS3).view.writes (Elt F) fr3 [⟨Rect.whole S128x128, gRows d L s f2 (4 * k.val + 3)⟩])
    rw [← oFl3_congr (F := F) d L (off6_row L k ⟨3, by decide⟩) (k1_off6_inb L k 3) (outBlkRect_inb L (4 * k.val + 3) (by omega)) o3 (gRows d L s f2 (4 * k.val + 3)) ((rowS3).view.writes (Elt F) fr3 [⟨Rect.whole S128x128, gRows d L s f2 (4 * k.val + 3)⟩])]
    unfold oFl3
    iexact Hso13
  iexact Hout2

end Cert.KernelIdeal.Tile

end
-- ==== Proof.TileTripLast.lean ====
/-
  The last trip of the tile's main loop leaves the state after the loop: its first three steps are the three printed
  parts' lemmas applied in sequence; in its fourth both conditionals fail, so it only waits for the gather of the last
  block and starts that block's copy-out; the index scratch is whole again, three finished blocks rejoin the rows held
  and the four last copy-outs stay in flight.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileVal
import proofs.«205025_g42520176230720_cont_8to1_b_1509_29_alg».proof.Proof.TileVal2
import proofs.«205025_g42520176230720_cont_8to1_b_1509_29_alg».proof.Proof.TileOff
import proofs.«205025_g42520176230720_cont_8to1_b_1509_29_alg».proof.Proof.TileInv
import proofs.«205025_g42520176230720_cont_8to1_b_1509_29_alg».proof.Proof.TilePEF
import proofs.«205025_g42520176230720_cont_8to1_b_1509_29_alg».proof.Proof.TilePVal
import proofs.«205025_g42520176230720_cont_8to1_b_1509_29_alg».proof.Proof.TileRVal
import proofs.«205025_g42520176230720_cont_8to1_b_1509_29_alg».proof.Proof.TileFix
import proofs.«205025_g42520176230720_cont_8to1_b_1509_29_alg».proof.Proof.TilePInv
import proofs.«205025_g42520176230720_cont_8to1_b_1509_29_alg».proof.Proof.TileStepA
import proofs.«205025_g42520176230720_cont_8to1_b_1509_29_alg».proof.Proof.TileROut
import proofs.«205025_g42520176230720_cont_8to1_b_1509_29_alg».proof.Proof.TileROut4
import proofs.«205025_g42520176230720_cont_8to1_b_1509_29_alg».proof.Proof.TilePConds
import proofs.«205025_g42520176230720_cont_8to1_b_1509_29_alg».proof.Proof.TileRPack
import proofs.«205025_g42520176230720_cont_8to1_b_1509_29_alg».proof.Proof.Gen.KernelIdeal.Skeleton

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

set_option maxHeartbeats 8000000 in
/-- The last trip of the main loop leaves the state after the loop. -/
theorem trip_last (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk31 : k.val = 31)
    (O : CellTallies nD τ sig (HIx 1)) (W : Waits sig (HIx 1)) (acc : Unit) :
    (tileInv d L q0 q2 s f2 O W k.val : sProp 𝕄)
      ⊢ wp frame (wpE (defs₀ (F := F)) 𝒱₀ (thr d L) none) Set.univ
          (k1_t2_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k acc)
          fun _ => tileInv d L q0 q2 s f2 O W (k.val + 1) := by
  obtain ⟨k1_h1, k1_h2, k1_h3, k1_h4, k1_h5, k1_h6, k1_h7, k1_h8⟩ := conds_last k hk31
  have hk1 : 1 ≤ k.val := by omega
  have hk32 : k.val < 32 := by omega
  rw [show k.val + 1 = 32 from by omega]
  rw [tileInv_mid (F := F) d L q0 q2 s f2 O W k.val hk1 hk32]
  sl_unfold [k1_t2_body, k1_part4]
  iintro ⟨#Hmw, ⟨%W0, %hW0, HO⟩, Hs, Hc15, Hc16, Hc17, Hc18, ⟨Ht7, Ht8, Ht9, Ht6e, ⟨%fr0, %gi0, HG0⟩, ⟨%g, Hi⟩, Hw7, Hw8, Hw9⟩, ⟨Hso10, ⟨%fo1, %C1, HO1⟩, ⟨%fo2, %C2, HO2⟩, ⟨%fo3, %C3, HO3⟩⟩, Hout⟩
  ihave Hc4 := (out_carve4 (F := F) d L s f2 k hk32 (4 * k.val - 3) (by omega)) $$ Hout
  icases Hc4 with ⟨Hout, ⟨%o0, Hob0⟩, ⟨%o1, Hob1⟩, ⟨%o2, Hob2⟩, ⟨%o3, Hob3⟩⟩
  sl_rw [Prog.bind_assoc]
  -- step 0
  rw [wp_bind]
  iapply (wp_wand_r Idealize.ShloMosaic.frame (wpE (defs₀ (F := F)) 𝒱₀ (thr d L) none) Set.univ)
  isplitl [HO Hs Ht7 Ht6e HG0 HO1 Hi Hw7 Hso10 Hc15 Hob0]
  · iapply (step0_AB (F := F) d L q0 q2 s f2 hin v2 k hk1 hk32 (by omega) k1_h1 k1_h2 g gi0 fr0 C1 fo1 o0 O W0)
    isplitr; · iexact Hmw
    isplitl [HO]; · iexact HO
    isplitl [Hs]; · iexact Hs
    isplitl [Ht7]; · iexact Ht7
    isplitl [Ht6e]; · iexact Ht6e
    isplitl [HG0]; · iexact HG0
    isplitl [HO1]; · iexact HO1
    isplitl [Hi]; · iexact Hi
    isplitl [Hw7]; · iexact Hw7
    isplitl [Hso10]; · iexact Hso10
    isplitl [Hc15]; · iexact Hc15
    iexact Hob0
  iintro %arg9 ⟨%W1, HO, %hW1, Hs, Ht6, Ht7e, ⟨%fr1, %gi1, HG1⟩, ⟨%fn0, %Cn0, HN0⟩, ⟨%g1, Hi⟩, Hw6, Hso11, Hc15, Hbd0⟩
  -- step 1
  beta_reduce
  sl_rw [Prog.bind_assoc]
  rw [wp_bind]
  iapply (wp_wand_r Idealize.ShloMosaic.frame (wpE (defs₀ (F := F)) 𝒱₀ (thr d L) none) Set.univ)
  isplitl [HO Hs Ht8 Ht7e HG1 HO2 Hi Hw8 Hso11 Hc16 Hob1]
  · iapply (step1_AB (F := F) d L q0 q2 s f2 hin v2 arg9 k hk1 hk32 (by omega) k1_h3 k1_h4 g1 gi1 fr1 C2 fo2 o1 O W1)
    isplitr; · iexact Hmw
    isplitl [HO]; · iexact HO
    isplitl [Hs]; · iexact Hs
    isplitl [Ht8]; · iexact Ht8
    isplitl [Ht7e]; · iexact Ht7e
    isplitl [HG1]; · iexact HG1
    isplitl [HO2]; · iexact HO2
    isplitl [Hi]; · iexact Hi
    isplitl [Hw8]; · iexact Hw8
    isplitl [Hso11]; · iexact Hso11
    isplitl [Hc16]; · iexact Hc16
    iexact Hob1
  iintro %c4 ⟨%W2, HO, %hW2, Hs, Ht7, Ht8e, ⟨%fr2, %gi2, HG2⟩, ⟨%fn1, %Cn1, HN1⟩, ⟨%g2, Hi⟩, Hw7, Hso12, Hc16, Hbd1⟩
  -- step 2
  beta_reduce
  sl_rw [Prog.bind_assoc]
  rw [wp_bind]
  iapply (wp_wand_r Idealize.ShloMosaic.frame (wpE (defs₀ (F := F)) 𝒱₀ (thr d L) none) Set.univ)
  isplitl [HO Hs Ht9 Ht8e HG2 HO3 Hi Hw9 Hso12 Hc17 Hob2]
  · iapply (step2_AB (F := F) d L q0 q2 s f2 hin v2 arg9 c4 k hk1 hk32 (by omega) k1_h5 k1_h6 g2 gi2 fr2 C3 fo3 o2 O W2)
    isplitr; · iexact Hmw
    isplitl [HO]; · iexact HO
    isplitl [Hs]; · iexact Hs
    isplitl [Ht9]; · iexact Ht9
    isplitl [Ht8e]; · iexact Ht8e
    isplitl [HG2]; · iexact HG2
    isplitl [HO3]; · iexact HO3
    isplitl [Hi]; · iexact Hi
    isplitl [Hw9]; · iexact Hw9
    isplitl [Hso12]; · iexact Hso12
    isplitl [Hc17]; · iexact Hc17
    iexact Hob2
  iintro %v136 ⟨%W3, HO, %hW3, Hs, Ht8, Ht9e, ⟨%fr3, %gi3, HG3⟩, ⟨%fn2, %Cn2, HN2⟩, ⟨%g3, Hi⟩, Hw8, Hso13, Hc17, Hbd2⟩
  -- step 3: the part's own tail; both its conditionals fail
  beta_reduce
  unfold gFl3
  sl_exec
  have eD : trip_last.sl.dma0 d L s f2 k fr3 = gRows d L s f2 (4 * k.val + 3) := by
    sl_unfold_run_names
    exact copyout_payload (F := F) d L 3 _ fr3 _
  rw [eD]
  sl_step
  -- the index scratch is whole again
  ihave Hi2 := (pointsTo_join_subset (ℓ := (idxW).view.loc (thr d L)) (q := fullShare) (Finset.subset_univ (idxS3).view.set)) $$ [Hi HG3_dst_and]
  · isplitl [HG3_dst_and]
    · iexact HG3_dst_and
    · iexact Hi
  -- three finished blocks rejoin the rows held
  have e128 : 4 * (k.val + 1) = 128 := by omega
  ihave Hout1 := (Entails.of_eq (congrArg (fun b => (outSt d L s f2 (4 * k.val - 3) b : sProp 𝕄)) e128)) $$ Hout
  ihave Hout2 := (out_putback3 (F := F) d L s f2 k hk31) $$ [Hout1 Hbd0 Hbd1 Hbd2]
  · isplitl [Hout1]; · iexact Hout1
    isplitl [Hbd0]; · iexact Hbd0
    isplitl [Hbd1]; · iexact Hbd1
    iexact Hbd2
  iapply (repack_last_aux (F := F) d L q0 q2 s f2 O W (4 * k.val + 0) (4 * k.val + 1) (4 * k.val + 2) (4 * k.val + 3)
    (by omega) (by omega) (by omega) (by omega) (by omega) (by omega) (by omega) (by omega))
  isplitr; · iexact Hmw
  isplitl [HO]
  · iexists (insert (SemLoc.dma (⟨9, by decide⟩ : DmaSem sig), (default : HIx 1)) W3)
    isplitr
    · ipureintro
      refine waits_trans (W₁ := W3) ?_ (waits_trans hW3 (waits_trans hW2 (waits_trans hW1 hW0)))
      intro p hp
      simp only [Finset.mem_insert] at hp
      rcases hp with rfl | hp
      · exact .inr rfl
      · exact .inl hp
    · iexact HO
  isplitl [Hs]; · iexact Hs
  isplitl [Hc15]; · iexact Hc15
  isplitl [Hc16]; · iexact Hc16
  isplitl [Hc17]; · iexact Hc17
  isplitl [Hc18]; · iexact Hc18
  isplitl [Ht6]; · iexact Ht6
  isplitl [Ht7]; · iexact Ht7
  isplitl [Ht8]; · iexact Ht8
  isplitl [Ht9e]; · iexact Ht9e
  isplitl [Hi2]
  · iexists _; iexact Hi2
  isplitl [Hw6]; · iexact Hw6
  isplitl [Hw7]; · iexact Hw7
  isplitl [Hw8]; · iexact Hw8
  isplitl [HG3]; · iexact HG3
  isplitl [HN0]
  · iexists _, _; iexact HN0
  isplitl [HN1]
  · iexists _, _; iexact HN1
  isplitl [HN2]
  · iexists _, _; iexact HN2
  isplitl [Hso13]
  · iexists o3, ((rowS3).view.writes (Elt F) fr3 [⟨Rect.whole S128x128, gRows d L s f2 (4 * k.val + 3)⟩])
    rw [← oFl3_congr (F := F) d L (off6_row L k ⟨3, by decide⟩) (k1_off6_inb L k 3) (outBlkRect_inb L (4 * k.val + 3) (by omega)) o3 (gRows d L s f2 (4 * k.val + 3)) ((rowS3).view.writes (Elt F) fr3 [⟨Rect.whole S128x128, gRows d L s f2 (4 * k.val + 3)⟩])]
    unfold oFl3
    iexact Hso13
  iexact Hout2

end Cert.KernelIdeal.Tile

end
-- ==== Proof.TileRun.lean ====
/-
  The tile's body over its resources opened: the first block of indices is fetched, rewritten and its gather started; the
  main loop runs at its invariant; the last four copy-outs are waited for; the read shares, the scratch buffers and the
  semaphores are as they were and the tile's rows of the gathered array hold the gathered rows.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileCells
import proofs.«205025_g42520176230720_cont_8to1_b_1509_29_alg».proof.Proof.TileVal
import proofs.«205025_g42520176230720_cont_8to1_b_1509_29_alg».proof.Proof.TileVal2
import proofs.«205025_g42520176230720_cont_8to1_b_1509_29_alg».proof.Proof.TileOff
import proofs.«205025_g42520176230720_cont_8to1_b_1509_29_alg».proof.Proof.TileInv
import proofs.«205025_g42520176230720_cont_8to1_b_1509_29_alg».proof.Proof.TilePEF
import proofs.«205025_g42520176230720_cont_8to1_b_1509_29_alg».proof.Proof.TilePRows
import proofs.«205025_g42520176230720_cont_8to1_b_1509_29_alg».proof.Proof.TilePRows2
import proofs.«205025_g42520176230720_cont_8to1_b_1509_29_alg».proof.Proof.TilePVal
import proofs.«205025_g42520176230720_cont_8to1_b_1509_29_alg».proof.Proof.TileRVal
import proofs.«205025_g42520176230720_cont_8to1_b_1509_29_alg».proof.Proof.TileROut
import proofs.«205025_g42520176230720_cont_8to1_b_1509_29_alg».proof.Proof.TileROut4
import proofs.«205025_g42520176230720_cont_8to1_b_1509_29_alg».proof.Proof.TilePInv
import proofs.«205025_g42520176230720_cont_8to1_b_1509_29_alg».proof.Proof.TilePConds
import proofs.«205025_g42520176230720_cont_8to1_b_1509_29_alg».proof.Proof.TileFix
import proofs.«205025_g42520176230720_cont_8to1_b_1509_29_alg».proof.Proof.TileTripFirst
import proofs.«205025_g42520176230720_cont_8to1_b_1509_29_alg».proof.Proof.TileTripMid
import proofs.«205025_g42520176230720_cont_8to1_b_1509_29_alg».proof.Proof.TileTripLast
import proofs.«205025_g42520176230720_cont_8to1_b_1509_29_alg».proof.Proof.Gen.KernelIdeal.Skeleton

noncomputable section

namespace Cert.KernelIdeal.Tile

open Cert.KernelIdeal Cert.KernelIdeal.Gen Cert.KernelIdeal.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.KernelIdeal.main_v0_scv : Memref Cert.KernelIdeal.sig Kind.scVector Space.hbm Cert.KernelIdeal.S524288 EltTy.i32)
local notation "tabW" => (Memref.whole Cert.KernelIdeal.main_v2_scv : Memref Cert.KernelIdeal.sig Kind.scVector Space.hbm Cert.KernelIdeal.S512000x128 EltTy.f32)
local notation "outW" => (Memref.whole Cert.KernelIdeal.main_v3_scv : Memref Cert.KernelIdeal.sig Kind.scVector Space.hbm Cert.KernelIdeal.S524288x128 EltTy.f32)
local notation "idxW" => (Memref.whole Cert.KernelIdeal.cc1_scratch0 : Memref Cert.KernelIdeal.sig Kind.scVector Space.vmem Cert.KernelIdeal.S4x128 EltTy.i32)
local notation "rowsW" => (Memref.whole Cert.KernelIdeal.cc1_scratch1 : Memref Cert.KernelIdeal.sig Kind.scVector Space.vmem Cert.KernelIdeal.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

/-! ## The arrays as the tile's memrefs address them -/

section Pts
variable (d : Dev nD) (L : grid1.Coords)

omit [FloatOps F] in
theorem pts_src (q : PosShare TreeShare) (f : Buf (Elt F) (aLoc d main_v0)) :
    ((srcW).view.loc (thr d L) ↦{q} f : sProp 𝕄) = aLoc d main_v0 ↦{q} f := rfl
omit [FloatOps F] in
theorem pts_tab (q : PosShare TreeShare) (f : Buf (Elt F) (aLoc d main_v2)) :
    ((tabW).view.loc (thr d L) ↦{q} f : sProp 𝕄) = aLoc d main_v2 ↦{q} f := rfl
omit [FloatOps F] in
theorem pts_out (q : PosShare TreeShare) (f : Buf (Elt F) (aLoc d main_v3)) :
    ((outW).view.loc (thr d L) ↦{q} f : sProp 𝕄) = aLoc d main_v3 ↦{q} f := rfl
omit [FloatOps F] in
theorem pts_idx (f : Buf (Elt F) ((thr d L).loc cc1_scratch0)) :
    ((idxW).view.loc (thr d L) ↦{fullShare} f : sProp 𝕄) = (thr d L).loc cc1_scratch0 ↦{fullShare} f := rfl
omit [FloatOps F] in
theorem pts_rows (f : Buf (Elt F) ((thr d L).loc cc1_scratch1)) :
    ((rowsW).view.loc (thr d L) ↦{fullShare} f : sProp 𝕄) = (thr d L).loc cc1_scratch1 ↦{fullShare} f := rfl

end Pts

omit [FloatOps F] in
theorem pts_absR {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

set_option maxHeartbeats 8000000 in
theorem tile_run (d : Dev nD) (L : grid1.Coords) (q0 q2 : PosShare TreeShare)
    (s : Buf (Elt F) (aLoc d main_v0)) (f2 : Buf (Elt F) (aLoc d main_v2)) (f3 : Buf (Elt F) (aLoc d main_v3))
    (fi : Buf (Elt F) ((thr d L).loc cc1_scratch0)) (fr : Buf (Elt F) ((thr d L).loc cc1_scratch1))
    (hin : ∀ n ∈ srcRows L, (fixIdx (s n)).toNat < 512000)
    (O : CellTallies nD τ sig (HIx 1)) (W : Waits sig (HIx 1)) :
    iprop(Transfers.MayWaits (thr d L) (none : HIx 1) O
        ∗ owes (thr d L) O W
        ∗ (aLoc d main_v0 ↦{q0} s) ∗ (aLoc d main_v2 ↦{q2} f2) ∗ (aLoc d main_v3 ↦[outRows L]{fullShare} f3)
        ∗ ((thr d L).loc cc1_scratch0 ↦{fullShare} fi) ∗ ((thr d L).loc cc1_scratch1 ↦{fullShare} fr)
        ∗ cells0 d L)
      ⊢ wp frame (wpE (defs₀ (F := F)) 𝒱₀ (thr d L) none) Set.univ
          (cc1__sc_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4)
          fun _ => iprop((aLoc d main_v0 ↦{q0} s) ∗ (aLoc d main_v2 ↦{q2} f2) ∗ (aLoc d main_v3 ↦[outRows L]{fullShare} gath d s f2)
            ∗ (∃ fi', (thr d L).loc cc1_scratch0 ↦{fullShare} fi') ∗ (∃ fr', (thr d L).loc cc1_scratch1 ↦{fullShare} fr')
            ∗ cells0 d L
            ∗ ∃ W', ⌜∀ p ∈ W', p ∈ W ∨ p.2 = none⌝ ∗ owes (thr d L) O W') := by
  sl_unfold [cc1__sc_body, k1_part5]
  unfold cells0
  iintro ⟨#Hmw, HO, Hs0, Ht0, Ho0, Hi0, Hr0, Hw6, Hw7, Hw8, Hw9, Hso10, Hso11, Hso12, Hso13, Hc14, Hc15, Hc16, Hc17, Hc18⟩
  ihave Hs := (Entails.of_eq (pts_src (F := F) d L _ _).symm) $$ Hs0
  ihave Htt := (Entails.of_eq (pts_tab (F := F) d L _ _).symm) $$ Ht0
  ihave Hi := (Entails.of_eq (pts_idx (F := F) d L _).symm) $$ Hi0
  ihave Hrr := (Entails.of_eq (pts_rows (F := F) d L _).symm) $$ Hr0
  ihave Hr4 := (rows_slots (F := F) d L fr).1 $$ Hrr
  icases Hr4 with ⟨Hr0s, Hr1s, Hr2s, Hr3s⟩
  ihave Ht5 := (tab_tokens (F := F) d L q2 f2).1 $$ Htt
  icases Ht5 with ⟨Htr, Ht6, Ht7, Ht8, Ht9⟩
  ihave Hout := (out_start (F := F) d L s f2 f3) $$ Ho0
  sl_exec
  ihave Hi' := (pts_absR (F := F) _) $$ Hi
  icases Hi' with ⟨%g0, %hg0, Hi⟩
  repeat sl_rw [Prog.bind_assoc]
  sl_for (fun t (_ : PUnit) => ((idxW).view.loc (thr d L) ↦{fullShare} fixPre 0 t g0 : sProp 𝕄)) $$ [Hi]
  case region => exact fun t acc => fix_region_t1 (F := F) d L g0 t acc
  · rw [fixPre_zero]; iexact Hi
  iintro %_ HI
  have hT : k1_t1_loop.trips = 8 := by decide
  have hfix0 : ∀ x : S128.Idx, View.read (Elt F) (idxS0).view (fixPre 0 k1_t1_loop.trips g0) x
      = fixIdx (s (srcRowIx (row0 L + 128 * 0 + (x 0).val))) := by
    intro x
    rw [hg0, idx_fixed (F := F) d L 0 _ _ hT]
    sl_unfold_run_names
    exact congrArg fixIdx (copy_payload (F := F) d L s 0 (by decide) (k1_off1 L) (off1_row L) _ x)
  have hin0 : ∀ x, (View.read (Elt F) (idxS0).view (fixPre 0 k1_t1_loop.trips g0) x).toNat < S512000x128.size gathers_S512000x128_S128x128.axis :=
    gather_inrange (F := F) d L s hin 0 _ 0 (by decide) _ hfix0
  sl_exec
  have eG : tile_run.sl.gather0 d L f2 g0 hin0 = gRows d L s f2 0 := by
    sl_unfold_run_names
    exact gather_payload (F := F) d L s f2 hin 0 _ 0 (by decide) _ hfix0 _ hin0
  rw [eG]
  iclear Hr0s
  sl_for (fun k (_ : PUnit) => (tileInv d L q0 q2 s f2 O W k : sProp 𝕄)) $$ [HO Hs Hc15 Hc16 Hc17 Hc18 Ht7 Ht8 Ht9 Ht6 Hw6 HI Hw7 Hw8 Hw9 Hr1s Hr2s Hr3s Hso10 Hso11 Hso12 Hso13 Hout]
  case region =>
    intro k acc
    by_cases h0 : k.val = 0
    · exact trip_first (F := F) d L q0 q2 s f2 hin _ k h0 O W acc
    by_cases h31 : k.val = 31
    · exact trip_last (F := F) d L q0 q2 s f2 hin _ k h31 O W acc
    · have hk : k.val < 32 := lt_of_lt_of_eq k.isLt trips_eq
      exact trip_mid (F := F) d L q0 q2 s f2 hin _ k (by omega) (by omega) O W acc
  · rw [tileInv_zero]
    isplitr; · iexact Hmw
    isplitl [HO]
    · iexists (insert (SemLoc.dma (⟨14, by decide⟩ : DmaSem sig), (default : HIx 1)) W)
      isplitr
      · ipureintro
        intro p hp
        simp only [Finset.mem_insert] at hp
        rcases hp with rfl | hp
        · exact .inr rfl
        · exact .inl hp
      · iexact HO
    isplitl [Hs]; · iexact Hs
    isplitl [Hc15]; · iexact Hc15
    isplitl [Hc16]; · iexact Hc16
    isplitl [Hc17]; · iexact Hc17
    isplitl [Hc18]; · iexact Hc18
    isplitl [Ht7 Ht8 Ht9 Ht6 Hw6 HI Hw7 Hw8 Hw9]
    · isplitl [Ht7]; · iexact Ht7
      isplitl [Ht8]; · iexact Ht8
      isplitl [Ht9]; · iexact Ht9
      isplitl [Ht6]; · iexact Ht6
      isplitl [Hw6]
      · iexists _, _; unfold gFl0; iexact Hw6
      isplitl [HI]
      · iexists _; iexact HI
      isplitl [Hw7]; · iexact Hw7
      isplitl [Hw8]; · iexact Hw8
      iexact Hw9
    isplitl [Hr1s Hr2s Hr3s Hso10 Hso11 Hso12 Hso13]
    · isplitl [Hr1s]
      · iexists _; iexact Hr1s
      isplitl [Hr2s]
      · iexists _; iexact Hr2s
      isplitl [Hr3s]
      · iexists _; iexact Hr3s
      isplitl [Hso10]; · iexact Hso10
      isplitl [Hso11]; · iexact Hso11
      isplitl [Hso12]; · iexact Hso12
      iexact Hso13
    iexact Hout
  iintro %_ HI2
  ihave HI3 := (Entails.of_eq ((congrArg (fun n => (tileInv d L q0 q2 s f2 O W n : sProp 𝕄)) trips_eq).trans (tileInv_last (F := F) d L q0 q2 s f2 O W))) $$ HI2
  icases HI3 with ⟨-, ⟨%W1, %hW1, HO⟩, Hs, Hc15, Hc16, Hc17, Hc18, ⟨Ht6, Ht7, Ht8, Ht9, ⟨%gI, Hi⟩, Hw6, Hw7, Hw8, Hw9⟩, ⟨⟨%f0, %C0, HF0⟩, ⟨%f1, %C1, HF1⟩, ⟨%f2', %C2, HF2⟩, ⟨%f3', %C3, HF3⟩⟩, Hout⟩
  unfold oFl0 oFl1 oFl2 oFl3
  sl_exec
  sl_step
  ihave Hb0 := (Entails.of_eq (block_done (F := F) d L s f2 124 (by decide) _ rfl _ _)) $$ HF0_dst
  ihave Hb1 := (Entails.of_eq (block_done (F := F) d L s f2 125 (by decide) _ rfl _ _)) $$ HF1_dst
  ihave Hb2 := (Entails.of_eq (block_done (F := F) d L s f2 126 (by decide) _ rfl _ _)) $$ HF2_dst
  ihave Hb3 := (Entails.of_eq (block_done (F := F) d L s f2 127 (by decide) _ rfl _ _)) $$ HF3_dst
  ihave Hfin := (out_putback_last (F := F) d L s f2) $$ [Hout Hb0 Hb1 Hb2 Hb3]
  · isplitl [Hout]; · iexact Hout
    isplitl [Hb0]; · iexact Hb0
    isplitl [Hb1]; · iexact Hb1
    isplitl [Hb2]; · iexact Hb2
    iexact Hb3
  ihave Hrows := (rows_join (F := F) d L _ _ _ _) $$ [HF0_src HF1_src HF2_src HF3_src]
  · isplitl [HF0_src]; · iexact HF0_src
    isplitl [HF1_src]; · iexact HF1_src
    isplitl [HF2_src]; · iexact HF2_src
    iexact HF3_src
  ihave Htab := (tab_tokens (F := F) d L q2 f2).2 $$ [Htr Ht6 Ht7 Ht8 Ht9]
  · isplitl [Htr]; · iexact Htr
    isplitl [Ht6]; · iexact Ht6
    isplitl [Ht7]; · iexact Ht7
    isplitl [Ht8]; · iexact Ht8
    iexact Ht9
  isplitl [Hs]
  · iapply (Entails.of_eq (pts_src (F := F) d L _ _)); iexact Hs
  isplitl [Htab]
  · iapply (Entails.of_eq (pts_tab (F := F) d L _ _)); iexact Htab
  isplitl [Hfin]; · iexact Hfin
  isplitl [Hi]
  · iexists _; iapply (Entails.of_eq (pts_idx (F := F) d L _)); iexact Hi
  isplitl [Hrows]; · iexact Hrows
  isplitl [Hw6 Hw7 Hw8 Hw9 HF0 HF1 HF2 HF3 Hc14 Hc15 Hc16 Hc17 Hc18]
  · isplitl [Hw6]; · iexact Hw6
    isplitl [Hw7]; · iexact Hw7
    isplitl [Hw8]; · iexact Hw8
    isplitl [Hw9]; · iexact Hw9
    isplitl [HF0]; · iexact HF0
    isplitl [HF1]; · iexact HF1
    isplitl [HF2]; · iexact HF2
    isplitl [HF3]; · iexact HF3
    isplitl [Hc14]; · iexact Hc14
    isplitl [Hc15]; · iexact Hc15
    isplitl [Hc16]; · iexact Hc16
    isplitl [Hc17]; · iexact Hc17
    iexact Hc18
  iexists (insert (SemLoc.dma (⟨13, by decide⟩ : DmaSem sig), (default : HIx 1)) (insert (SemLoc.dma (⟨12, by decide⟩ : DmaSem sig), (default : HIx 1)) (insert (SemLoc.dma (⟨11, by decide⟩ : DmaSem sig), (default : HIx 1)) (insert (SemLoc.dma (⟨10, by decide⟩ : DmaSem sig), (default : HIx 1)) W1))))
  isplitr
  · ipureintro
    refine waits_trans (W₁ := W1) ?_ hW1
    intro p hp
    simp only [Finset.mem_insert] at hp
    rcases hp with rfl | rfl | rfl | rfl | hp
    · exact .inr rfl
    · exact .inr rfl
    · exact .inr rfl
    · exact .inr rfl
    · exact .inl hp
  · iexact HO

end Cert.KernelIdeal.Tile

end
-- ==== Proof.TileBody.lean ====
/-
  The tile's body obligation from the body's run over its opened resources: the tile's scoped storage is its two
  scratch buffers and its thirteen cells beside a rest that is carried through untouched, and its evidence that it
  may wait comes from the launch's level facts.
-/
import proofs.«205025_g42520176230720_cont_8to1_b_1509_29_alg».proof.Proof.KBase
import proofs.«205025_g42520176230720_cont_8to1_b_1509_29_alg».proof.Proof.TileDefs
import proofs.«205025_g42520176230720_cont_8to1_b_1509_29_alg».proof.Proof.TileCells
import proofs.«205025_g42520176230720_cont_8to1_b_1509_29_alg».proof.Proof.TileAuxA
import proofs.«205025_g42520176230720_cont_8to1_b_1509_29_alg».proof.Proof.TileRun

noncomputable section

namespace Cert.KernelIdeal.Tile

open Cert.KernelIdeal Cert.KernelIdeal.Gen Cert.KernelIdeal.Base
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable [FloatOps F]

/-- The tile's body: from its rows and the table's read share to the gathered rows. -/
theorem tile_body (d : Dev nD) (L : grid1.Coords) (hF : (K (F := F)).Facts) (q0 q2 : PosShare TreeShare)
    (s : Buf (Elt F) (aLoc d main_v0)) (f2 : Buf (Elt F) (aLoc d main_v2))
    (hin : ∀ n ∈ srcRows L, (fixIdx (s n)).toNat < 512000)
    (O : CellTallies nD τ sig (HIx 1)) (W : Waits sig (HIx 1)) (hO : ∀ g, O g none = 0) :
    iprop(levAts (K (F := F)).L (K (F := F)).lev ∗ goRes d L q0 q2 s f2
        ∗ scopedBufs (thr d L) ∗ scopedSems0 (thr d L) ∗ owes (thr d L) O W)
      ⊢ wp frame (wpE (defs₀ (F := F)) 𝒱₀ (thr d L) none) Set.univ
          (cc1__sc_body L (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(tdRes d L q0 q2 s f2 ∗ scopedBufs (thr d L) ∗ scopedSems0 (thr d L)
            ∗ ∃ W', ⌜∀ p ∈ W', p ∈ W ∨ p.2 = none⌝ ∗ owes (thr d L) O W') := by
  unfold goRes tdRes
  rw [(K (F := F)).scopedBufs_V hF d (cV L) (jV L), SparseCore.Cfg.scopedSems0_V (Val := Elt F) d (cV L) (jV L), ownSems0_tile, ownBufs_tile]
  iintro ⟨#Hlv, ⟨H0, H2, %f3, H3⟩, ⟨⟨%fi, Hi⟩, ⟨%fr, Hr⟩, Hbufs⟩, ⟨C6, C7, C8, C9, C10, C11, C12, C13, C14, C15, C16, C17, C18, Hsems⟩, HO⟩
  ihave Hmw := ((K (F := F)).mayWaits_none (thr := thr d L) hO) $$ Hlv
  iapply (wp_wand_r frame _ _ (Q := fun _ => iprop((aLoc d main_v0 ↦{q0} s) ∗ (aLoc d main_v2 ↦{q2} f2) ∗ (aLoc d main_v3 ↦[outRows L]{fullShare} gath d s f2)
            ∗ (∃ fi', (thr d L).loc cc1_scratch0 ↦{fullShare} fi') ∗ (∃ fr', (thr d L).loc cc1_scratch1 ↦{fullShare} fr')
            ∗ cells0 d L
            ∗ ∃ W', ⌜∀ p ∈ W', p ∈ W ∨ p.2 = none⌝ ∗ owes (thr d L) O W')))
  isplitl [Hmw HO H0 H2 H3 Hi Hr C6 C7 C8 C9 C10 C11 C12 C13 C14 C15 C16 C17 C18]
  · iapply (tile_run d L q0 q2 s f2 f3 fi fr hin O W)
    isplitl [Hmw]; · iexact Hmw
    isplitl [HO]; · iexact HO
    isplitl [H0]; · iexact H0
    isplitl [H2]; · iexact H2
    isplitl [H3]; · iexact H3
    isplitl [Hi]; · iexact Hi
    isplitl [Hr]; · iexact Hr
    unfold cells0
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    iexact C18
  iintro %_ ⟨H0, H2, H3, Hi, Hr, Hc, HW⟩
  unfold cells0
  icases Hc with ⟨C6, C7, C8, C9, C10, C11, C12, C13, C14, C15, C16, C17, C18⟩
  isplitl [H0 H2 H3]
  · isplitl [H0]; · iexact H0
    isplitl [H2]; · iexact H2
    iexact H3
  isplitl [Hi Hr Hbufs]
  · isplitl [Hi]; · iexact Hi
    isplitl [Hr]; · iexact Hr
    iexact Hbufs
  isplitl [C6 C7 C8 C9 C10 C11 C12 C13 C14 C15 C16 C17 C18 Hsems]
  ·
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    iexact Hsems
  iexact HW

end Cert.KernelIdeal.Tile

end
-- ==== Proof.BTileCells.lean ====
/-
  The tile's thirteen DMA semaphore cells (the four gathers', the four copy-outs', the five synchronous copies'),
  each at zero.
-/
import proofs.«205025_g42520176230720_cont_8to1_b_1509_29_alg».proof.Proof.BKBase
import proofs.«205025_g42520176230720_cont_8to1_b_1509_29_alg».proof.Proof.BTileDefs

noncomputable section

namespace Cert.Kernel.Tile

open Cert.Kernel Cert.Kernel.Gen Cert.Kernel.Base
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable [FloatOps F]

/-- The thirteen cells of the tile at zero (DMA semaphores 6..18), right-nested as ownSems0_tile lists them. -/
def cells0 (d : Dev nD) (L : grid1.Coords) : sProp 𝕄 :=
  iprop(semVal (thr d L, SemLoc.dma (⟨6, by decide⟩ : DmaSem sig)) 0
    ∗ semVal (thr d L, SemLoc.dma (⟨7, by decide⟩ : DmaSem sig)) 0
    ∗ semVal (thr d L, SemLoc.dma (⟨8, by decide⟩ : DmaSem sig)) 0
    ∗ semVal (thr d L, SemLoc.dma (⟨9, by decide⟩ : DmaSem sig)) 0
    ∗ semVal (thr d L, SemLoc.dma (⟨10, by decide⟩ : DmaSem sig)) 0
    ∗ semVal (thr d L, SemLoc.dma (⟨11, by decide⟩ : DmaSem sig)) 0
    ∗ semVal (thr d L, SemLoc.dma (⟨12, by decide⟩ : DmaSem sig)) 0
    ∗ semVal (thr d L, SemLoc.dma (⟨13, by decide⟩ : DmaSem sig)) 0
    ∗ semVal (thr d L, SemLoc.dma (⟨14, by decide⟩ : DmaSem sig)) 0
    ∗ semVal (thr d L, SemLoc.dma (⟨15, by decide⟩ : DmaSem sig)) 0
    ∗ semVal (thr d L, SemLoc.dma (⟨16, by decide⟩ : DmaSem sig)) 0
    ∗ semVal (thr d L, SemLoc.dma (⟨17, by decide⟩ : DmaSem sig)) 0
    ∗ semVal (thr d L, SemLoc.dma (⟨18, by decide⟩ : DmaSem sig)) 0)

end Cert.Kernel.Tile

end
-- ==== Proof.BTileVal.lean ====
/-
  The arithmetic of the tile's data movement, apart from any program: what one trip of the index rewrite leaves in
  the index scratch, which rows a gathered block holds, and how the tile's rows of the gathered array divide into
  the blocks in flight and the rest.
-/
import proofs.«205025_g42520176230720_cont_8to1_b_1509_29_alg».proof.Proof.BTileDefs

noncomputable section

namespace Cert.Kernel.Tile

open Cert.Kernel Cert.Kernel.Gen Cert.Kernel.Base

open Idealize.ShloMosaic

variable {F : FTy → Type}

local notation "idxW" => (Memref.whole Cert.Kernel.cc1_scratch0 : Memref Cert.Kernel.sig Kind.scVector Space.vmem Cert.Kernel.S4x128 EltTy.i32)

/-! ## The index rewrite, sixteen lanes a trip -/

/-- Slot `b` of the index scratch with its first `16 * t` entries rewritten, everything else as in `g`. -/
def fixPre (b t : Nat) (g : S4x128.Idx → BitVec 32) : S4x128.Idx → BitVec 32 :=
  fun j => if (j 0).val = b ∧ (j 1).val < 16 * t then fixIdx (g j) else g j

/-- Sixteen loaded lanes, each rewritten. -/
def fixLanes (v : Vec F S1x16 .i32) : IVec S16 32 := fun i => fixIdx (shapeCast S16 v shapeCasts_S1x16_S16 i)

theorem fixPre_zero (b : Nat) (g : S4x128.Idx → BitVec 32) : fixPre b 0 g = g := by
  funext j; unfold fixPre; simp

/-- One trip: the sixteen lanes at `(b, 16 * t)` loaded, rewritten and stored back extend the rewritten prefix. -/
theorem fixPre_step (b t : Nat) (hb : b < 4) (ht : t < 8) (g : S4x128.Idx → BitVec 32) (off : Fin 2 → Nat) (hoff : off = ![b, 16 * t])
    (hinb : ∀ a, off a + S1x16.size a ≤ S4x128.size a) :
    (idxW).view.writes (Elt F) (fixPre b t g)
        [⟨Rect.unit (s := S4x128) off S1x16.size hinb,
          shapeCast S1x16 (fixLanes (F := F) (View.readAt (Elt F) (idxW).view (Rect.unit (s := S4x128) off S1x16.size hinb).toLoadRect (fixPre b t g)))
            shapeCasts_S16_S1x16⟩]
      = fixPre b (t + 1) g := by
  subst hoff
  have hread : ∀ (f : S4x128.Idx → BitVec 32) (y : S4x128.Idx), (idxW).view.read (Elt F) f y = f y := fun f y => rfl
  refine View.contents_ext (idxW).view (fun y => ?_) (fun i hi => absurd rfl (hi i))
  by_cases hy : y ∈ (Rect.unit (s := S4x128) ![b, 16 * t] S1x16.size hinb).set
  · obtain ⟨x, rfl⟩ := (Rect.unit (s := S4x128) ![b, 16 * t] S1x16.size hinb).toLoadRect.exists_idx_of_mem hy
    have hx0 : (x 0).val < 1 := (x 0).isLt
    have hx1 : (x 1).val < 16 := (x 1).isLt
    have e0 : (((Rect.unit (s := S4x128) ![b, 16 * t] S1x16.size hinb).toLoadRect.idx x) 0).val = b := by
      rw [LoadRect.idx_apply]; show b + 1 * (x 0).val = b; omega
    have e1 : (((Rect.unit (s := S4x128) ![b, 16 * t] S1x16.size hinb).toLoadRect.idx x) 1).val = 16 * t + (x 1).val := by
      rw [LoadRect.idx_apply]; show 16 * t + 1 * (x 1).val = _; omega
    rw [show (Rect.unit (s := S4x128) ![b, 16 * t] S1x16.size hinb).toLoadRect.idx x = (Rect.unit (s := S4x128) ![b, 16 * t] S1x16.size hinb).emb x from rfl,
      View.read_writes_cons_emb, hread]
    show fixIdx ((idxW).view.read (Elt F) (fixPre b t g) ((Rect.unit (s := S4x128) ![b, 16 * t] S1x16.size hinb).toLoadRect.idx
        (Shape.reshapeEquiv _ (Shape.reshapeEquiv _ x)))) = _
    rw [Shape.reshapeEquiv_reshapeEquiv, Shape.reshapeEquiv_self, hread]
    have e0' : (((Rect.unit (s := S4x128) ![b, 16 * t] S1x16.size hinb).emb x) 0).val = b := e0
    have e1' : (((Rect.unit (s := S4x128) ![b, 16 * t] S1x16.size hinb).emb x) 1).val = 16 * t + (x 1).val := e1
    unfold fixPre
    rw [if_neg (by rw [e1]; omega), if_pos ⟨e0', by rw [e1']; omega⟩]
    rfl
  · have hy' : ¬ ((y 0).val = b ∧ 16 * t ≤ (y 1).val ∧ (y 1).val < 16 * t + 16) := by
      intro h
      apply hy
      rw [Rect.mem_set_unit, Fin.forall_fin_two]
      have h0 : (y 0).val < 4 := (y 0).isLt
      refine ⟨⟨?_, ?_⟩, ⟨?_, ?_⟩⟩
      · show b ≤ (y 0).val; omega
      · show (y 0).val < b + 1; omega
      · show 16 * t ≤ (y 1).val; omega
      · show (y 1).val < 16 * t + 16; omega
    rw [View.read_writes_apply_of_forall_not_mem _ _ y _ (by
      intro p hp; rw [List.mem_singleton] at hp; subst hp; exact hy), hread, hread]
    unfold fixPre
    by_cases h0 : (y 0).val = b
    · by_cases h1 : (y 1).val < 16 * t
      · rw [if_pos ⟨h0, h1⟩, if_pos ⟨h0, by omega⟩]
      · rw [if_neg (fun h => h1 h.2), if_neg (fun h => hy' ⟨h0, by omega, by omega⟩)]
    · rw [if_neg (fun h => h0 h.1), if_neg (fun h => h0 h.1)]

/-! ## The tile's rows of the gathered array, by blocks of 128 -/

theorem mem_outRows' (L : grid1.Coords) (i : S524288x128.Idx) :
    i ∈ outRows L ↔ row0 L ≤ (i 0).val ∧ (i 0).val < row0 L + 16384 := by
  unfold outRows outRect
  rw [Rect.mem_set_unit, Fin.forall_fin_two]
  have h1 : (i 1).val < 128 := (i 1).isLt
  show (row0 L ≤ (i 0).val ∧ (i 0).val < row0 L + 16384) ∧ (0 ≤ (i 1).val ∧ (i 1).val < 0 + 128) ↔ _
  omega

/-- Block `n` of the tile's rows: rows `128 n` to `128 n + 127` of its share, every column. -/
def outBlk (L : grid1.Coords) (n : Nat) : Finset S524288x128.Idx :=
  Finset.univ.filter fun i => row0 L + 128 * n ≤ (i 0).val ∧ (i 0).val < row0 L + 128 * n + 128

/-- The tile's rows less blocks `a` to `b - 1` (the blocks on their way out). -/
def outHeld (L : grid1.Coords) (a b : Nat) : Finset S524288x128.Idx :=
  (outRows L).filter fun i => ¬ (row0 L + 128 * a ≤ (i 0).val ∧ (i 0).val < row0 L + 128 * b)

theorem mem_outBlk (L : grid1.Coords) (n : Nat) (i : S524288x128.Idx) :
    i ∈ outBlk L n ↔ row0 L + 128 * n ≤ (i 0).val ∧ (i 0).val < row0 L + 128 * n + 128 := by
  unfold outBlk; simp

theorem mem_outHeld (L : grid1.Coords) (a b : Nat) (i : S524288x128.Idx) :
    i ∈ outHeld L a b ↔ (row0 L ≤ (i 0).val ∧ (i 0).val < row0 L + 16384) ∧ ¬ (row0 L + 128 * a ≤ (i 0).val ∧ (i 0).val < row0 L + 128 * b) := by
  unfold outHeld; rw [Finset.mem_filter, mem_outRows']

theorem outHeld_self (L : grid1.Coords) (a : Nat) : outHeld L a a = outRows L := by
  ext i; rw [mem_outHeld, mem_outRows']; omega

theorem outBlkRect_inb (L : grid1.Coords) (n : Nat) (hn : n < 128) :
    ∀ a, (![row0 L + 128 * n, 0] : Fin 2 → Nat) a + S128x128.size a ≤ S524288x128.size a := by
  have h := row0_le L
  exact Fin.forall_fin_two.mpr ⟨by show row0 L + 128 * n + 128 ≤ 524288; omega, Nat.le_refl _⟩

/-- A block as the unit rectangle the body slices. -/
theorem set_outBlkRect (L : grid1.Coords) (n : Nat) (off : Fin 2 → Nat) (hoff : off = ![row0 L + 128 * n, 0])
    (hinb : ∀ a, off a + S128x128.size a ≤ S524288x128.size a) :
    (Rect.unit (s := S524288x128) off S128x128.size hinb).set = outBlk L n := by
  subst hoff
  ext i
  rw [Rect.mem_set_unit, Fin.forall_fin_two, mem_outBlk]
  have h1 : (i 1).val < 128 := (i 1).isLt
  show (row0 L + 128 * n ≤ (i 0).val ∧ (i 0).val < row0 L + 128 * n + 128) ∧ (0 ≤ (i 1).val ∧ (i 1).val < 0 + 128) ↔ _
  omega

/-- Sending block `b` out: it is among the rows held, and what is left is the rows held less one more block. -/
theorem outBlk_subset_held (L : grid1.Coords) (a b : Nat) (hab : a ≤ b) (hb : b < 128) : outBlk L b ⊆ outHeld L a b := by
  intro i; rw [mem_outBlk, mem_outHeld]; omega
theorem outHeld_sdiff_blk (L : grid1.Coords) (a b : Nat) (hab : a ≤ b) (hb : b < 128) : outHeld L a b \ outBlk L b = outHeld L a (b + 1) := by
  ext i; rw [Finset.mem_sdiff, mem_outBlk, mem_outHeld, mem_outHeld]; omega

/-- Taking block `a` back: it is among the rows held once it is back, and less it they are the rows held before. -/
theorem outBlk_subset_held' (L : grid1.Coords) (a b : Nat) (hab : a < b) (hb : b ≤ 128) : outBlk L a ⊆ outHeld L (a + 1) b := by
  intro i; rw [mem_outBlk, mem_outHeld]; omega
theorem outHeld_sdiff_blk' (L : grid1.Coords) (a b : Nat) (hab : a < b) (hb : b ≤ 128) : outHeld L (a + 1) b \ outBlk L a = outHeld L a b := by
  ext i; rw [Finset.mem_sdiff, mem_outBlk, mem_outHeld, mem_outHeld]; omega

/-! ## The gathered block in closed form -/

/-- Row `r`, column `c` of the gathered array. -/
def outIx (r : Fin 524288) (c : Fin 128) : S524288x128.Idx := fun a => match a with
  | ⟨0, _⟩ => r
  | ⟨1, _⟩ => c
  | ⟨k + 2, h⟩ => absurd h (Nat.not_lt.2 (Nat.le_add_left _ _))

/-- Entry `r` of the flattened index array (reduced into range, which changes nothing for the rows a tile reads). -/
def srcRowIx (r : Nat) : S524288.Idx := srcIx ⟨r % 524288, Nat.mod_lt _ (by decide)⟩

/-- Block `n` of the tile's share of the gathered array, as a 128 × 128 payload. -/
def gRows (d : Dev nD) (L : grid1.Coords) (s : Buf (Elt F) (aLoc d main_v0)) (f2 : Buf (Elt F) (aLoc d main_v2)) (n : Nat) :
    S128x128.Idx → Elt F .f32 :=
  fun j => gath d s f2 (outIx ⟨(row0 L + 128 * n + (j 0).val) % 524288, Nat.mod_lt _ (by decide)⟩ (j 1))

end Cert.Kernel.Tile

end
-- ==== Proof.BTileAuxA.lean ====
/-
  The tile's own semaphores and scratch buffers, opened: its thirteen DMA semaphore cells (the four gathers', the
  four copy-outs', the five synchronous copies') each at zero beside the rest of its scoped cells, and its two
  scratch buffers each whole at some contents beside the rest of its own buffers.
-/
import proofs.«205025_g42520176230720_cont_8to1_b_1509_29_alg».proof.Proof.BTileVal

noncomputable section

namespace Cert.Kernel.Tile

open Cert.Kernel Cert.Kernel.Gen Cert.Kernel.Base
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)

/-- The tile's thirteen cells, by number. -/
def tileCell (d : Dev nD) (L : grid1.Coords) (n : Fin 13) : GSem nD τ sig := (thr d L, SemLoc.dma (⟨6 + n.val, Nat.lt_of_lt_of_le (Nat.add_lt_add_left n.isLt 6) (by decide)⟩ : DmaSem sig))

theorem tileCell_mem (d : Dev nD) (L : grid1.Coords) (n : Fin 13) : tileCell d L n ∈ ownCells (thr d L) :=
  mem_ownCells.mpr ⟨rfl, by
    show (SemLoc.dma (⟨6 + n.val, Nat.lt_of_lt_of_le (Nat.add_lt_add_left n.isLt 6) (by decide)⟩ : DmaSem sig) : SemLoc sig).isScoped .scVector = true
    revert n; decide⟩

theorem tileCell_inj (d : Dev nD) (L : grid1.Coords) : Set.InjOn (tileCell d L) ((Finset.univ : Finset (Fin 13)) : Set (Fin 13)) := by
  intro a _ b _ e
  have h := congrArg Fin.val (SemLoc.dma.inj (Prod.mk.inj e).2)
  exact Fin.ext (by simp only at h; omega)

theorem ownSems0_tile (d : Dev nD) (L : grid1.Coords) :
    (ownSems0 (thr d L) : sProp 𝕄)
      = iprop(semVal (thr d L, SemLoc.dma (⟨6, by decide⟩ : DmaSem sig)) 0
          ∗ semVal (thr d L, SemLoc.dma (⟨7, by decide⟩ : DmaSem sig)) 0
          ∗ semVal (thr d L, SemLoc.dma (⟨8, by decide⟩ : DmaSem sig)) 0
          ∗ semVal (thr d L, SemLoc.dma (⟨9, by decide⟩ : DmaSem sig)) 0
          ∗ semVal (thr d L, SemLoc.dma (⟨10, by decide⟩ : DmaSem sig)) 0
          ∗ semVal (thr d L, SemLoc.dma (⟨11, by decide⟩ : DmaSem sig)) 0
          ∗ semVal (thr d L, SemLoc.dma (⟨12, by decide⟩ : DmaSem sig)) 0
          ∗ semVal (thr d L, SemLoc.dma (⟨13, by decide⟩ : DmaSem sig)) 0
          ∗ semVal (thr d L, SemLoc.dma (⟨14, by decide⟩ : DmaSem sig)) 0
          ∗ semVal (thr d L, SemLoc.dma (⟨15, by decide⟩ : DmaSem sig)) 0
          ∗ semVal (thr d L, SemLoc.dma (⟨16, by decide⟩ : DmaSem sig)) 0
          ∗ semVal (thr d L, SemLoc.dma (⟨17, by decide⟩ : DmaSem sig)) 0
          ∗ semVal (thr d L, SemLoc.dma (⟨18, by decide⟩ : DmaSem sig)) 0
          ∗ bigSep ((ownCells (thr d L)) \ (Finset.univ.image (tileCell d L))) fun g => semVal g 0) := by
  unfold SparseCore.Cfg.ownSems0
  have hsub : Finset.univ.image (tileCell d L) ⊆ ownCells (thr d L) := by
    intro g hg; obtain ⟨n, -, rfl⟩ := Finset.mem_image.mp hg; exact tileCell_mem d L n
  have e1 : (bigSep (ownCells (thr d L)) fun g => (semVal g 0 : sProp 𝕄))
      = iprop((bigSep (Finset.univ.image (tileCell d L)) fun g => semVal g 0)
          ∗ bigSep (ownCells (thr d L) \ Finset.univ.image (tileCell d L)) fun g => semVal g 0) := by
    conv_lhs => rw [← Finset.union_sdiff_of_subset hsub]
    exact bigSep_union Finset.disjoint_sdiff
  rw [e1, SparseCore.bigSep_image_of_injOn (tileCell_inj d L),
    bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide)]
  refine BI.equiv_iff.mp ⟨?_, ?_⟩
  · show (iprop((semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0) ∗ (bigSep ((ownCells (thr d L)) \ (Finset.univ.image (tileCell d L))) fun g => semVal g 0)) : sProp 𝕄) ⊢ iprop(semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0 ∗ (bigSep ((ownCells (thr d L)) \ (Finset.univ.image (tileCell d L))) fun g => semVal g 0))
    iintro ⟨⟨H0, H1, H2, H3, H4, H5, H6, H7, H8, H9, H10, H11, H12⟩, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HR
  · show (iprop(semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0 ∗ (bigSep ((ownCells (thr d L)) \ (Finset.univ.image (tileCell d L))) fun g => semVal g 0)) : sProp 𝕄) ⊢ iprop((semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0 ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0 ∗ semVal (thr d L, SemLoc.dma (⟨14, by decide⟩ : DmaSem sig)) 0 ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0) ∗ (bigSep ((ownCells (thr d L)) \ (Finset.univ.image (tileCell d L))) fun g => semVal g 0))
    iintro ⟨H0, H1, H2, H3, H4, H5, H6, H7, H8, H9, H10, H11, H12, HR⟩
    isplitr [HR]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexact HR

theorem ownBufs_tile (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Cert.Kernel.Tile

end
-- ==== Proof.BTileVal2.lean ====
/-
  The index scratch by slots: a slot's elements are one row of it, and a slot's window handed back by a gather rejoins
  the rest of the scratch while another slot's window is still lent.
-/
import proofs.«205025_g42520176230720_cont_8to1_b_1509_29_alg».proof.Proof.BTileVal

noncomputable section

namespace Cert.Kernel.Tile

open Cert.Kernel Cert.Kernel.Gen Cert.Kernel.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "idxW" => (Memref.whole Cert.Kernel.cc1_scratch0 : Memref Cert.Kernel.sig Kind.scVector Space.vmem Cert.Kernel.S4x128 EltTy.i32)

/-! ## The index scratch by slots -/

/-- Slot `b` of the index scratch, as the body slices and squeezes it, is row `b`. -/
theorem mem_idxSlot (b : Nat) (hinb : ∀ a, (![b, 0] : Fin 2 → Nat) a + S1x128.size a ≤ S4x128.size a) (i : S4x128.Idx) :
    i ∈ (((idxW).slice (Rect.unit (s := S4x128) ![b, 0] S1x128.size hinb) (fun _ => rfl)).squeeze S128 squeezes_S1x128_S128).view.set ↔ (i 0).val = b := by
  have e : (((idxW).slice (Rect.unit (s := S4x128) ![b, 0] S1x128.size hinb) (fun _ => rfl)).squeeze S128 squeezes_S1x128_S128).view.set
      = (Rect.unit (s := S4x128) ![b, 0] S1x128.size hinb).set := by
    simp only [Memref.view_squeeze, View.set_reshape, Memref.view_slice, Memref.view_whole, View.set_slice_whole]
  rw [e, Rect.mem_set_unit, Fin.forall_fin_two]
  have h1 : (i 1).val < 128 := (i 1).isLt
  show (b ≤ (i 0).val ∧ (i 0).val < b + 1) ∧ (0 ≤ (i 1).val ∧ (i 1).val < 0 + 128) ↔ _
  omega

/-- A returned slot window rejoins the scratch's rest: slot `b`'s window back, slot `b'`'s still out. -/
theorem idx_rejoin (d : Dev nD) (L : grid1.Coords) (b b' : Nat) (hbb : b ≠ b')
    (hinb : ∀ a, (![b, 0] : Fin 2 → Nat) a + S1x128.size a ≤ S4x128.size a)
    (hinb' : ∀ a, (![b', 0] : Fin 2 → Nat) a + S1x128.size a ≤ S4x128.size a)
    (G gi : Buf (Elt F) ((idxW).view.loc (thr d L))) :
    iprop(((idxW).view.loc (thr d L) ↦[(Finset.univ \ (((idxW).slice (Rect.unit (s := S4x128) ![b, 0] S1x128.size hinb) (fun _ => rfl)).squeeze S128 squeezes_S1x128_S128).view.set)
              \ (((idxW).slice (Rect.unit (s := S4x128) ![b', 0] S1x128.size hinb') (fun _ => rfl)).squeeze S128 squeezes_S1x128_S128).view.set]{fullShare} G)
        ∗ ((idxW).view.loc (thr d L) ↦[(((idxW).slice (Rect.unit (s := S4x128) ![b, 0] S1x128.size hinb) (fun _ => rfl)).squeeze S128 squeezes_S1x128_S128).view.set]{fullShare} gi))
      ⊢ ((idxW).view.loc (thr d L) ↦[Finset.univ \ (((idxW).slice (Rect.unit (s := S4x128) ![b', 0] S1x128.size hinb') (fun _ => rfl)).squeeze S128 squeezes_S1x128_S128).view.set]{fullShare}
          ((((idxW).slice (Rect.unit (s := S4x128) ![b, 0] S1x128.size hinb) (fun _ => rfl)).squeeze S128 squeezes_S1x128_S128).view.set).piecewise gi G : sProp 𝕄) := by
  have hsub : (((idxW).slice (Rect.unit (s := S4x128) ![b, 0] S1x128.size hinb) (fun _ => rfl)).squeeze S128 squeezes_S1x128_S128).view.set
      ⊆ Finset.univ \ (((idxW).slice (Rect.unit (s := S4x128) ![b', 0] S1x128.size hinb') (fun _ => rfl)).squeeze S128 squeezes_S1x128_S128).view.set := by
    intro i hi
    rw [Finset.mem_sdiff]
    refine ⟨Finset.mem_univ _, fun hi' => hbb ?_⟩
    rw [mem_idxSlot] at hi hi'
    omega
  rw [sdiff_right_comm]
  iintro ⟨Hrest, Hwin⟩
  iapply (pointsTo_join_subset hsub)
  isplitl [Hwin]
  · iexact Hwin
  · iexact Hrest

end Cert.Kernel.Tile

end
-- ==== Proof.BTilePEF.lean ====
/-
  The gathered array's 128-row blocks at the offsets the body computes for its copies out, in closed form; and the
  table's read share as four read tokens and a remainder.
-/
import proofs.«205025_g42520176230720_cont_8to1_b_1509_29_alg».proof.Proof.BTileVal
import Idealize.ShloMosaic.Lib.Transfers

noncomputable section

namespace Cert.Kernel.Tile

open Cert.Kernel Cert.Kernel.Gen Cert.Kernel.Base
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)

/-! ## Offsets in closed form, and every site's block of the gathered array -/

theorem k1_off3_eq' : ∀ (i : grid1.Coords) (k : Fin k1_t2_loop.trips), k1_cond1 k = 1#1 →
    k1_off3 i k = ![32768 * (i 1).val + 16384 * (i 0).val + 512 * k.val - 384, 0] := by
  decide +kernel
theorem k1_off7_eq' : ∀ (i : grid1.Coords) (k : Fin k1_t2_loop.trips), k1_cond3 k = 1#1 →
    k1_off7 i k = ![32768 * (i 1).val + 16384 * (i 0).val + 512 * k.val - 256, 0] := by
  decide +kernel
theorem k1_off10_eq' : ∀ (i : grid1.Coords) (k : Fin k1_t2_loop.trips), k1_cond5 k = 1#1 →
    k1_off10 i k = ![32768 * (i 1).val + 16384 * (i 0).val + 512 * k.val - 128, 0] := by
  decide +kernel

/-- A 128-row block memref of the gathered array at ANY offsets equal to block `n`'s holds exactly `outBlk L n`. -/
theorem set_outSlice (L : grid1.Coords) (n : Nat) (off : Fin 2 → Nat) (hoff : off = ![row0 L + 128 * n, 0])
    (hinb : ∀ a, off a + S128x128.size a ≤ S524288x128.size a) :
    ((outW).slice (Rect.unit (s := S524288x128) off S128x128.size hinb) (fun _ => rfl)).view.set = outBlk L n := by
  exact (View.set_slice_whole main_v3_scv (Rect.unit (s := S524288x128) off S128x128.size hinb)).trans (set_outBlkRect L n off hoff hinb)

/-! ## The table's read share as the four gathers' read tokens and a remainder -/

/-- What is left of `q2` beside tokens 6..9. -/
def tabRest (d : Dev nD) (L : grid1.Coords) (q2 : PosShare TreeShare) (f2 : Buf (Elt F) ((tabW).view.loc (thr d L))) : sProp 𝕄 :=
  iprop(((tabW).view.loc (thr d L) ↦{Transfers.shareDrop q2 10} f2) ∗ BI.bigSep (Finset.range 6) (fun i => (tabW).view.loc (thr d L) ↦{Transfers.shareTokN q2 i} f2))

theorem tab_tokens (d : Dev nD) (L : grid1.Coords) (q2 : PosShare TreeShare) (f2 : Buf (Elt F) ((tabW).view.loc (thr d L))) :
    ((tabW).view.loc (thr d L) ↦{q2} f2 : sProp 𝕄)
      ⊣⊢ iprop(tabRest d L q2 f2 ∗ ((tabW).view.loc (thr d L) ↦{Transfers.shareTokN q2 6} f2) ∗ ((tabW).view.loc (thr d L) ↦{Transfers.shareTokN q2 7} f2)
          ∗ ((tabW).view.loc (thr d L) ↦{Transfers.shareTokN q2 8} f2) ∗ ((tabW).view.loc (thr d L) ↦{Transfers.shareTokN q2 9} f2)) := by
  have h := Transfers.pointsTo_toks_range (Ix := HIx 1) (Name := ℕ) (U := UU) (Lvl := ℕ) (ℓ := (tabW).view.loc (thr d L)) (S := Finset.univ) (f := f2) q2 10
  have hb : BI.bigSep (Finset.range 10) (fun i => ((tabW).view.loc (thr d L) ↦{Transfers.shareTokN q2 i} f2 : sProp 𝕄))
      = iprop(((tabW).view.loc (thr d L) ↦{Transfers.shareTokN q2 9} f2) ∗ ((tabW).view.loc (thr d L) ↦{Transfers.shareTokN q2 8} f2)
          ∗ ((tabW).view.loc (thr d L) ↦{Transfers.shareTokN q2 7} f2) ∗ ((tabW).view.loc (thr d L) ↦{Transfers.shareTokN q2 6} f2)
          ∗ BI.bigSep (Finset.range 6) (fun i => (tabW).view.loc (thr d L) ↦{Transfers.shareTokN q2 i} f2)) := by
    rw [show (10 : ℕ) = 9 + 1 from rfl, Finset.range_add_one, BI.bigSep_insert Finset.notMem_range_self,
      show (9 : ℕ) = 8 + 1 from rfl, Finset.range_add_one, BI.bigSep_insert Finset.notMem_range_self,
      show (8 : ℕ) = 7 + 1 from rfl, Finset.range_add_one, BI.bigSep_insert Finset.notMem_range_self,
      show (7 : ℕ) = 6 + 1 from rfl, Finset.range_add_one, BI.bigSep_insert Finset.notMem_range_self]
    rfl
  rw [hb] at h
  unfold tabRest
  constructor
  · refine h.1.trans ?_
    iintro ⟨Hd, H9, H8, H7, H6, Hr⟩
    isplitl [Hd Hr]
    · isplitl [Hd]; · iexact Hd
      iexact Hr
    isplitl [H6]; · iexact H6
    isplitl [H7]; · iexact H7
    isplitl [H8]; · iexact H8
    iexact H9
  · refine BIBase.Entails.trans ?_ h.2
    iintro ⟨⟨Hd, Hr⟩, H6, H7, H8, H9⟩
    isplitl [Hd]; · iexact Hd
    isplitl [H9]; · iexact H9
    isplitl [H8]; · iexact H8
    isplitl [H7]; · iexact H7
    isplitl [H6]; · iexact H6
    iexact Hr

end Cert.Kernel.Tile

end
-- ==== Proof.BTileOff.lean ====
/-
  Every offset the tile's body computes, as a row of the tile's share: block `4 k + j` of the trip's four, the three blocks
  still on their way out, and the four the epilogue waits for.
-/
import proofs.«205025_g42520176230720_cont_8to1_b_1509_29_alg».proof.Proof.BTileVal
import proofs.«205025_g42520176230720_cont_8to1_b_1509_29_alg».proof.Proof.BTilePEF

noncomputable section

namespace Cert.Kernel.Tile

open Cert.Kernel Cert.Kernel.Gen Cert.Kernel.Base
open Idealize.ShloMosaic

theorem trips_eq : k1_t2_loop.trips = 32 := by decide

theorem off1_row (L : grid1.Coords) : k1_off1 L = ![row0 L + 128 * 0] := by
  rw [k1_off1_eq, row0_eq]; congr 1
theorem off4_row (L : grid1.Coords) (k : Fin k1_t2_loop.trips) : k1_off4 L k = ![row0 L + 128 * (4 * k.val + 1)] := by
  rw [k1_off4_eq, row0_eq]; congr 1; omega
theorem off8_row (L : grid1.Coords) (k : Fin k1_t2_loop.trips) : k1_off8 L k = ![row0 L + 128 * (4 * k.val + 2)] := by
  rw [k1_off8_eq, row0_eq]; congr 1; omega
theorem off11_row (L : grid1.Coords) (k : Fin k1_t2_loop.trips) : k1_off11 L k = ![row0 L + 128 * (4 * k.val + 3)] := by
  rw [k1_off11_eq, row0_eq]; congr 1; omega
theorem off14_row (L : grid1.Coords) (k : Fin k1_t2_loop.trips) : k1_off14 L k = ![row0 L + 128 * (4 * k.val + 4)] := by
  rw [k1_off14_eq, row0_eq]; congr 1; omega
theorem off6_row (L : grid1.Coords) (k : Fin k1_t2_loop.trips) (r : Fin 4) :
    k1_off6 L k (BitVec.ofNat 32 r.val) = ![row0 L + 128 * (4 * k.val + r.val), 0] := by
  rw [k1_off6_eq, row0_eq]; congr 1; omega
theorem off13_row (L : grid1.Coords) (k : Fin k1_t2_loop.trips) : k1_off13 L k = ![row0 L + 128 * (4 * k.val), 0] := by
  rw [k1_off13_eq, row0_eq]; congr 1; omega
theorem off16_row (L : grid1.Coords) (r : Fin 4) :
    k1_off16 L (BitVec.ofNat 32 (15872 + 128 * r.val)) = ![row0 L + 128 * (124 + r.val), 0] := by
  rw [k1_off16_eq, row0_eq]; congr 1; omega
theorem off3_row (L : grid1.Coords) (k : Fin k1_t2_loop.trips) (h : k1_cond1 k = 1#1) (hk : 1 ≤ k.val) :
    k1_off3 L k = ![row0 L + 128 * (4 * k.val - 3), 0] := by
  rw [k1_off3_eq' L k h, row0_eq]; congr 1; omega
theorem off7_row (L : grid1.Coords) (k : Fin k1_t2_loop.trips) (h : k1_cond3 k = 1#1) (hk : 1 ≤ k.val) :
    k1_off7 L k = ![row0 L + 128 * (4 * k.val - 2), 0] := by
  rw [k1_off7_eq' L k h, row0_eq]; congr 1; omega
theorem off10_row (L : grid1.Coords) (k : Fin k1_t2_loop.trips) (h : k1_cond5 k = 1#1) (hk : 1 ≤ k.val) :
    k1_off10 L k = ![row0 L + 128 * (4 * k.val - 1), 0] := by
  rw [k1_off10_eq' L k h, row0_eq]; congr 1; omega

end Cert.Kernel.Tile

end
-- ==== Proof.BTileInv.lean ====
/-
  The state of a tile between two trips of its main loop, as one assertion: which gather and which copy-outs are in
  flight and with what payloads, which semaphores are free, what the index scratch, the table's read tokens and the tile's
  rows of the gathered array are held as.
-/
import proofs.«205025_g42520176230720_cont_8to1_b_1509_29_alg».proof.Proof.BTileVal

noncomputable section

namespace Cert.Kernel.Tile

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

/-! ## Transfers in flight -/

/-- The gather of payload `w` into slot 0 of the row scratch, in flight on the slot's own semaphore: it delivers the slot
    written with `w` (over `fr`), the slot's index list (at `gi`) and the table's read token it borrowed. -/
def gFl0 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨6, by decide⟩ : DmaSem sig)) default 524288
            iprop((((rowS0).view.loc (thr d L) ↦[(rowS0).view.set]{fullShare} (rowS0).view.writes (Elt F) fr [⟨Rect.whole S128x128, w⟩])
                ∗ (idxW).view.loc (thr d L) ↦[(idxS0).view.set]{fullShare} gi)
              ∗ (tabW).view.loc (thr d L) ↦[(tabSl).view.set]{Transfers.shareTokN q2 6} f2)

/-- The gather of payload `w` into slot 1 of the row scratch, in flight on the slot's own semaphore: it delivers the slot
    written with `w` (over `fr`), the slot's index list (at `gi`) and the table's read token it borrowed. -/
def gFl1 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨7, by decide⟩ : DmaSem sig)) default 524288
            iprop((((rowS1).view.loc (thr d L) ↦[(rowS1).view.set]{fullShare} (rowS1).view.writes (Elt F) fr [⟨Rect.whole S128x128, w⟩])
                ∗ (idxW).view.loc (thr d L) ↦[(idxS1).view.set]{fullShare} gi)
              ∗ (tabW).view.loc (thr d L) ↦[(tabSl).view.set]{Transfers.shareTokN q2 7} f2)

/-- The gather of payload `w` into slot 2 of the row scratch, in flight on the slot's own semaphore: it delivers the slot
    written with `w` (over `fr`), the slot's index list (at `gi`) and the table's read token it borrowed. -/
def gFl2 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨8, by decide⟩ : DmaSem sig)) default 524288
            iprop((((rowS2).view.loc (thr d L) ↦[(rowS2).view.set]{fullShare} (rowS2).view.writes (Elt F) fr [⟨Rect.whole S128x128, w⟩])
                ∗ (idxW).view.loc (thr d L) ↦[(idxS2).view.set]{fullShare} gi)
              ∗ (tabW).view.loc (thr d L) ↦[(tabSl).view.set]{Transfers.shareTokN q2 8} f2)

/-- The gather of payload `w` into slot 3 of the row scratch, in flight on the slot's own semaphore: it delivers the slot
    written with `w` (over `fr`), the slot's index list (at `gi`) and the table's read token it borrowed. -/
def gFl3 (d : Dev nD) (L : grid1.Coords) (q2 : PosShare TreeShare) (f2 : Buf (Elt F) (aLoc d main_v2))
    (fr : Buf (Elt F) ((thr d L).loc cc1_scratch1)) (gi : Buf (Elt F) ((thr d L).loc cc1_scratch0)) (w : S128x128.Idx → Elt F .f32) : sProp 𝕄 :=
  Transfers.Flight countersEmb (thr d L) (SemLoc.dma (⟨9, by decide⟩ : DmaSem sig)) default 524288
            iprop((((rowS3).view.loc (thr d L) ↦[(rowS3).view.set]{fullShare} (rowS3).view.writes (Elt F) fr [⟨Rect.whole S128x128, w⟩])
                ∗ (idxW).view.loc (thr d L) ↦[(idxS3).view.set]{fullShare} gi)
              ∗ (tabW).view.loc (thr d L) ↦[(tabSl).view.set]{Transfers.shareTokN q2 9} f2)

/-- The copy-out of payload `w` from slot 0 (holding `C`) into the 128-row block at offsets `off`, in flight on the slot's
    copy-out semaphore. -/
def oFl0 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨10, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS0).view.loc (thr d L) ↦[(rowS0).view.set]{fullShare} C)

omit [FloatOps F] in
/-- The same flight at offsets spelt otherwise. -/
theorem oFl0_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl0 d L off hinb fo w C : sProp 𝕄) = oFl0 d L off' hinb' fo w C := by
  subst e; rfl

/-- The copy-out of payload `w` from slot 1 (holding `C`) into the 128-row block at offsets `off`, in flight on the slot's
    copy-out semaphore. -/
def oFl1 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨11, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS1).view.loc (thr d L) ↦[(rowS1).view.set]{fullShare} C)

omit [FloatOps F] in
/-- The same flight at offsets spelt otherwise. -/
theorem oFl1_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl1 d L off hinb fo w C : sProp 𝕄) = oFl1 d L off' hinb' fo w C := by
  subst e; rfl

/-- The copy-out of payload `w` from slot 2 (holding `C`) into the 128-row block at offsets `off`, in flight on the slot's
    copy-out semaphore. -/
def oFl2 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨12, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS2).view.loc (thr d L) ↦[(rowS2).view.set]{fullShare} C)

omit [FloatOps F] in
/-- The same flight at offsets spelt otherwise. -/
theorem oFl2_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl2 d L off hinb fo w C : sProp 𝕄) = oFl2 d L off' hinb' fo w C := by
  subst e; rfl

/-- The copy-out of payload `w` from slot 3 (holding `C`) into the 128-row block at offsets `off`, in flight on the slot's
    copy-out semaphore. -/
def oFl3 (d : Dev nD) (L : grid1.Coords) (off : Fin 2 → Nat) (hinb : ∀ a, off a + S128x128.size a ≤ S524288x128.size a)
    (fo : Buf (Elt F) (aLoc d main_v3)) (w : S128x128.Idx → Elt F .f32) (C : Buf (Elt F) ((thr d L).loc cc1_scratch1)) : sProp 𝕄 :=
  Transfers.Flight countersEmb (thr d L) (SemLoc.dma (⟨13, by decide⟩ : DmaSem sig)) default 524288
    iprop((((outW).slice (Rect.unit (s := S524288x128) off S128x128.size hinb) (fun _ => rfl)).view.loc (thr d L)
          ↦[((outW).slice (Rect.unit (s := S524288x128) off S128x128.size hinb) (fun _ => rfl)).view.set]{fullShare}
            ((outW).slice (Rect.unit (s := S524288x128) off S128x128.size hinb) (fun _ => rfl)).view.writes (Elt F) fo [⟨Rect.whole S128x128, w⟩])
      ∗ (rowS3).view.loc (thr d L) ↦[(rowS3).view.set]{fullShare} C)

omit [FloatOps F] in
/-- The same flight at offsets spelt otherwise. -/
theorem oFl3_congr (d : Dev nD) (L : grid1.Coords) {off off' : Fin 2 → Nat} (e : off = off')
    (hinb : ∀ a, off a + S128x128.size a ≤ S524288x128.size a) (hinb' : ∀ a, off' a + S128x128.size a ≤ S524288x128.size a)
    (fo : Buf (Elt F) (aLoc d main_v3)) (w : S128x128.Idx → Elt F .f32) (C : Buf (Elt F) ((thr d L).loc cc1_scratch1)) :
    (oFl3 d L off hinb fo w C : sProp 𝕄) = oFl3 d L off' hinb' fo w C := by
  subst e; rfl

/-! ## Between two trips -/

/-- The first block still on its way out before trip `k` (the epilogue's four after the last trip). -/
def heldLo (k : Nat) : Nat := if k = 32 then 124 else 4 * k - 3

/-- The gathers' side: before trip `k < 32` block `4 k` is being gathered into slot 0 on read token 6; after the last trip
    every gather has been waited for. -/
def invGather (d : Dev nD) (L : grid1.Coords) (q2 : PosShare TreeShare) (s : Buf (Elt F) (aLoc d main_v0)) (f2 : Buf (Elt F) (aLoc d main_v2))
    (k : Nat) : sProp 𝕄 :=
  if k < 32 then
    iprop(((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
      ∗ (∃ fr gi, gFl0 d L q2 f2 fr gi (gRows d L s f2 (4 * k)))
      ∗ (∃ g, (idxW).view.loc (thr d L) ↦[Finset.univ \ (idxS0).view.set]{fullShare} g)
      ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
  else
    iprop(((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
      ∗ (∃ g, (idxW).view.loc (thr d L) ↦{fullShare} g)
      ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)

/-- The copy-outs' side: before the first trip nothing is on its way out; before trip `1 ≤ k < 32` blocks `4 k - 3` to
    `4 k - 1` are, from slots 1 to 3; after the last trip blocks 124 to 127, from all four. -/
def invCopy (d : Dev nD) (L : grid1.Coords) (s : Buf (Elt F) (aLoc d main_v0)) (f2 : Buf (Elt F) (aLoc d main_v2)) (k : Nat) : sProp 𝕄 :=
  if hk0 : k = 0 then
    iprop((∃ C, (rowS1).view.loc (thr d L) ↦[(rowS1).view.set]{fullShare} C) ∗ (∃ C, (rowS2).view.loc (thr d L) ↦[(rowS2).view.set]{fullShare} C) ∗ (∃ C, (rowS3).view.loc (thr d L) ↦[(rowS3).view.set]{fullShare} C) ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0)
  else if hk : k < 32 then
    iprop(semVal (thr d L, SemLoc.dma (⟨10, by decide⟩ : DmaSem sig)) 0 ∗ (∃ fo C, oFl1 d L ![row0 L + 128 * (4 * k - 3), 0] (outBlkRect_inb L (4 * k - 3) (by omega)) fo (gRows d L s f2 (4 * k - 3)) C) ∗ (∃ fo C, oFl2 d L ![row0 L + 128 * (4 * k - 2), 0] (outBlkRect_inb L (4 * k - 2) (by omega)) fo (gRows d L s f2 (4 * k - 2)) C) ∗ (∃ fo C, oFl3 d L ![row0 L + 128 * (4 * k - 1), 0] (outBlkRect_inb L (4 * k - 1) (by omega)) fo (gRows d L s f2 (4 * k - 1)) C))
  else
    iprop((∃ fo C, oFl0 d L ![row0 L + 128 * (124), 0] (outBlkRect_inb L (124) (by decide)) fo (gRows d L s f2 (124)) C) ∗ (∃ fo C, oFl1 d L ![row0 L + 128 * (125), 0] (outBlkRect_inb L (125) (by decide)) fo (gRows d L s f2 (125)) C) ∗ (∃ fo C, oFl2 d L ![row0 L + 128 * (126), 0] (outBlkRect_inb L (126) (by decide)) fo (gRows d L s f2 (126)) C) ∗ (∃ fo C, oFl3 d L ![row0 L + 128 * (127), 0] (outBlkRect_inb L (127) (by decide)) fo (gRows d L s f2 (127)) C))

/-- The tile's rows of the gathered array less blocks `a` to `b - 1`, held at contents whose rows below block `a` (the
    finished ones) are the gathered rows. -/
def outSt (d : Dev nD) (L : grid1.Coords) (s : Buf (Elt F) (aLoc d main_v0)) (f2 : Buf (Elt F) (aLoc d main_v2)) (a b : Nat) : sProp 𝕄 :=
  iprop(∃ o, ⌜∀ i ∈ outHeld L a b, (i 0).val < row0 L + 128 * a → o i = gath d s f2 i⌝ ∗ aLoc d main_v3 ↦[outHeld L a b]{fullShare} o)

/-- The tile's rows of the gathered array that are not on their way out before trip `k`. -/
def invOut (d : Dev nD) (L : grid1.Coords) (s : Buf (Elt F) (aLoc d main_v0)) (f2 : Buf (Elt F) (aLoc d main_v2)) (k : Nat) : sProp 𝕄 :=
  outSt d L s f2 (heldLo k) (4 * k)

/-- Before trip `k` of the main loop (`k = 32`: after the last). `W` is the set of waits recorded when the body started. -/
def tileInv (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) (k : Nat) : sProp 𝕄 :=
  iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ invGather d L q2 s f2 k ∗ invCopy d L s f2 k ∗ invOut d L s f2 k)

end Cert.Kernel.Tile

end
-- ==== Proof.BTilePRows.lean ====
/-
  The row scratch by slots: slot `b` of the four, as the body slices and squeezes it, is the rows whose first
  coordinate is `b`; the four slots are pairwise disjoint and together the whole scratch.
-/
import proofs.«205025_g42520176230720_cont_8to1_b_1509_29_alg».proof.Proof.BTileVal

noncomputable section

namespace Cert.Kernel.Tile

open Cert.Kernel Cert.Kernel.Gen Cert.Kernel.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "rowsW" => (Memref.whole Cert.Kernel.cc1_scratch1 : Memref Cert.Kernel.sig Kind.scVector Space.vmem Cert.Kernel.S4x128x128 EltTy.f32)

set_option quotPrecheck false
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)

/-- Slot `b` of the row scratch, as the body slices and squeezes it, is the rows at first coordinate `b`. -/
theorem mem_rowSlot (b : Nat) (hinb : ∀ a, (![b, 0, 0] : Fin 3 → Nat) a + S1x128x128.size a ≤ S4x128x128.size a) (i : S4x128x128.Idx) :
    i ∈ (((rowsW).slice (Rect.unit (s := S4x128x128) ![b, 0, 0] S1x128x128.size hinb) (fun _ => rfl)).squeeze S128x128 squeezes_S1x128x128_S128x128).view.set ↔ (i 0).val = b := by
  have e : (((rowsW).slice (Rect.unit (s := S4x128x128) ![b, 0, 0] S1x128x128.size hinb) (fun _ => rfl)).squeeze S128x128 squeezes_S1x128x128_S128x128).view.set
      = (Rect.unit (s := S4x128x128) ![b, 0, 0] S1x128x128.size hinb).set := by
    simp only [Memref.view_squeeze, View.set_reshape, Memref.view_slice, Memref.view_whole, View.set_slice_whole]
  rw [e, Rect.mem_set_unit]
  have h1 : (i 1).val < 128 := (i 1).isLt
  have h2 : (i 2).val < 128 := (i 2).isLt
  constructor
  · intro h
    have h0 := h 0
    show (i 0).val = b
    have : b ≤ (i 0).val ∧ (i 0).val < b + 1 := h0
    omega
  · intro h a
    match a with
    | ⟨0, _⟩ => show b ≤ (i 0).val ∧ (i 0).val < b + 1; omega
    | ⟨1, _⟩ => show 0 ≤ (i 1).val ∧ (i 1).val < 0 + 128; omega
    | ⟨2, _⟩ => show 0 ≤ (i 2).val ∧ (i 2).val < 0 + 128; omega

/-- The row scratch held whole is its four slots held each on its own rows, and back. -/
theorem rows_slots (d : Dev nD) (L : grid1.Coords) (fr : Buf (Elt F) ((rowsW).view.loc (thr d L))) :
    ((rowsW).view.loc (thr d L) ↦{fullShare} fr : sProp 𝕄)
      ⊣⊢ iprop(((rowS0).view.loc (thr d L) ↦[(rowS0).view.set]{fullShare} fr) ∗ ((rowS1).view.loc (thr d L) ↦[(rowS1).view.set]{fullShare} fr)
          ∗ ((rowS2).view.loc (thr d L) ↦[(rowS2).view.set]{fullShare} fr) ∗ ((rowS3).view.loc (thr d L) ↦[(rowS3).view.set]{fullShare} fr)) := by
  have hd23 : Disjoint (rowS2).view.set (rowS3).view.set := by
    rw [Finset.disjoint_left]; intro i h h'; rw [mem_rowSlot] at h h'; omega
  have hd1 : Disjoint (rowS1).view.set ((rowS2).view.set ∪ (rowS3).view.set) := by
    rw [Finset.disjoint_left]; intro i h h'; rw [Finset.mem_union, mem_rowSlot, mem_rowSlot] at h'; rw [mem_rowSlot] at h; omega
  have hd0 : Disjoint (rowS0).view.set ((rowS1).view.set ∪ ((rowS2).view.set ∪ (rowS3).view.set)) := by
    rw [Finset.disjoint_left]; intro i h h'
    rw [Finset.mem_union, Finset.mem_union, mem_rowSlot, mem_rowSlot, mem_rowSlot] at h'; rw [mem_rowSlot] at h; omega
  have hcover : (Finset.univ : Finset (Idx ((rowsW).view.loc (thr d L))))
      = (rowS0).view.set ∪ ((rowS1).view.set ∪ ((rowS2).view.set ∪ (rowS3).view.set)) := by
    ext i
    have hi : (i 0).val < 4 := (i 0).isLt
    simp only [Finset.mem_univ, true_iff, Finset.mem_union]
    rw [mem_rowSlot, mem_rowSlot, mem_rowSlot, mem_rowSlot]
    omega
  show ((rowsW).view.loc (thr d L) ↦[Finset.univ]{fullShare} fr : sProp 𝕄) ⊣⊢ _
  rw [hcover]
  constructor
  · iintro H
    ihave H := (pointsTo_union hd0).1 $$ H
    icases H with ⟨H0, H⟩
    ihave H := (pointsTo_union hd1).1 $$ H
    icases H with ⟨H1, H⟩
    ihave H := (pointsTo_union hd23).1 $$ H
    icases H with ⟨H2, H3⟩
    isplitl [H0]; · iexact H0
    isplitl [H1]; · iexact H1
    isplitl [H2]; · iexact H2
    iexact H3
  · iintro ⟨H0, H1, H2, H3⟩
    iapply (pointsTo_union hd0).2
    isplitl [H0]; · iexact H0
    iapply (pointsTo_union hd1).2
    isplitl [H1]; · iexact H1
    iapply (pointsTo_union hd23).2
    isplitl [H2]; · iexact H2
    iexact H3

end Cert.Kernel.Tile

end
-- ==== Proof.BTilePRows2.lean ====
/-
  The row scratch's four slots, each held at its own contents, are the whole scratch held at some contents.
-/
import proofs.«205025_g42520176230720_cont_8to1_b_1509_29_alg».proof.Proof.BTilePRows

noncomputable section

namespace Cert.Kernel.Tile

open Cert.Kernel Cert.Kernel.Gen Cert.Kernel.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "rowsW" => (Memref.whole Cert.Kernel.cc1_scratch1 : Memref Cert.Kernel.sig Kind.scVector Space.vmem Cert.Kernel.S4x128x128 EltTy.f32)

set_option quotPrecheck false
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)

/-- The four slots held each at its own contents are the whole row scratch at some contents. -/
theorem rows_join (d : Dev nD) (L : grid1.Coords) (C0 C1 C2 C3 : Buf (Elt F) ((thr d L).loc cc1_scratch1)) :
    iprop(((rowS0).view.loc (thr d L) ↦[(rowS0).view.set]{fullShare} C0) ∗ ((rowS1).view.loc (thr d L) ↦[(rowS1).view.set]{fullShare} C1)
        ∗ ((rowS2).view.loc (thr d L) ↦[(rowS2).view.set]{fullShare} C2) ∗ ((rowS3).view.loc (thr d L) ↦[(rowS3).view.set]{fullShare} C3))
      ⊢ (iprop(∃ f, (thr d L).loc cc1_scratch1 ↦{fullShare} f) : sProp 𝕄) := by
  have hd23 : Disjoint (rowS2).view.set (rowS3).view.set := by
    rw [Finset.disjoint_left]; intro i h h'; rw [mem_rowSlot] at h h'; omega
  have hd1 : Disjoint (rowS1).view.set ((rowS2).view.set ∪ (rowS3).view.set) := by
    rw [Finset.disjoint_left]; intro i h h'; rw [Finset.mem_union, mem_rowSlot, mem_rowSlot] at h'; rw [mem_rowSlot] at h; omega
  have hd0 : Disjoint (rowS0).view.set ((rowS1).view.set ∪ ((rowS2).view.set ∪ (rowS3).view.set)) := by
    rw [Finset.disjoint_left]; intro i h h'
    rw [Finset.mem_union, Finset.mem_union, mem_rowSlot, mem_rowSlot, mem_rowSlot] at h'; rw [mem_rowSlot] at h; omega
  have hcover : (rowS0).view.set ∪ ((rowS1).view.set ∪ ((rowS2).view.set ∪ (rowS3).view.set))
      = (Finset.univ : Finset (Idx ((rowsW).view.loc (thr d L)))) := by
    ext i
    have hi : (i 0).val < 4 := (i 0).isLt
    simp only [Finset.mem_univ, iff_true, Finset.mem_union]
    rw [mem_rowSlot, mem_rowSlot, mem_rowSlot, mem_rowSlot]
    omega
  iintro ⟨H0, H1, H2, H3⟩
  ihave H23 := (pointsTo_join (ℓ := (rowsW).view.loc (thr d L)) (f := C2) (g := C3) hd23) $$ [H2 H3]
  · isplitl [H2]; · iexact H2
    iexact H3
  ihave H123 := (pointsTo_join (ℓ := (rowsW).view.loc (thr d L)) (f := C1) hd1) $$ [H1 H23]
  · isplitl [H1]; · iexact H1
    iexact H23
  ihave H := (pointsTo_join (ℓ := (rowsW).view.loc (thr d L)) (f := C0) hd0) $$ [H0 H123]
  · isplitl [H0]; · iexact H0
    iexact H123
  rw [hcover]
  iexists _
  iexact H

end Cert.Kernel.Tile

end
-- ==== Proof.BTilePVal.lean ====
/-
  Four value facts of the tile's data movement, stated of the payload terms the body's copies carry: a synchronous
  index copy lands the tile's entries of the index array; after the copy and the eight rewrite trips a slot of the
  index scratch reads the entries rewritten; a copy-out reads off a slot what the gather left there; and a block of
  the gathered array written whole with the gathered rows holds, on that block, the gathered array.
-/
import proofs.«205025_g42520176230720_cont_8to1_b_1509_29_alg».proof.Proof.BTileVal
import proofs.«205025_g42520176230720_cont_8to1_b_1509_29_alg».proof.Proof.BTilePEF

noncomputable section

namespace Cert.Kernel.Tile

open Cert.Kernel Cert.Kernel.Gen Cert.Kernel.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)
set_option quotPrecheck false
local notation "tabSl" => ((tabW).slice (Rect.unit (s := S512000x128) ![0, 0] S512000x128.size inb_S512000x128_S512000x128_0_0) (fun _ => rfl))

section
variable (d : Dev nD) (L : grid1.Coords) (s : Buf (Elt F) (aLoc d main_v0)) (f2 : Buf (Elt F) (aLoc d main_v2))

/-- (Vi-a) What a synchronous index copy lands: the tile's entries `128 n … 128 n + 127` of the index array. -/
theorem copy_payload (n : Nat) (hn : n < 128) (off : Fin 1 → Nat) (hoff : off = ![row0 L + 128 * n])
    (hinb : ∀ a, off a + S128.size a ≤ S524288.size a) (x : S128.Idx) :
    ReadAs.same.apply (View.read (Elt F) ((srcW).slice (Rect.unit (s := S524288) off S128.size hinb) (fun _ => rfl)).view s) x
      = s (srcRowIx (row0 L + 128 * n + (x 0).val)) := by
  subst hoff
  have hx : (x 0).val < 128 := (x 0).isLt
  have hr := row0_le L
  show s ((Rect.unit (s := S524288) ![row0 L + 128 * n] S128.size hinb).emb x) = s (srcRowIx (row0 L + 128 * n + (x 0).val))
  refine congrArg s ?_
  funext a
  match a with
  | ⟨0, _⟩ =>
    apply Fin.ext
    show row0 L + 128 * n + 1 * (x 0).val = (row0 L + 128 * n + (x 0).val) % 524288
    rw [Nat.mod_eq_of_lt (by omega)]; omega

/-- (Vo-a) What a copy-out reads off the slot a gather filled is the gather's payload. -/
theorem copyout_payload (b : Nat) (hinb : ∀ a, (![b, 0, 0] : Fin 3 → Nat) a + S1x128x128.size a ≤ S4x128x128.size a)
    (fr : Buf (Elt F) ((thr d L).loc cc1_scratch1)) (w : S128x128.Idx → Elt F .f32) :
    ReadAs.same.apply (View.read (Elt F) (((rowsW).slice (Rect.unit (s := S4x128x128) ![b, 0, 0] S1x128x128.size hinb) (fun _ => rfl)).squeeze S128x128 squeezes_S1x128x128_S128x128).view
        ((((rowsW).slice (Rect.unit (s := S4x128x128) ![b, 0, 0] S1x128x128.size hinb) (fun _ => rfl)).squeeze S128x128 squeezes_S1x128x128_S128x128).view.writes (Elt F) fr [⟨Rect.whole S128x128, w⟩]))
      = w := by
  funext x
  have hx : (Rect.whole S128x128).emb x = x := Rect.emb_whole_apply S128x128 x
  have key := View.read_writes_cons_emb (Val := Elt F)
    (v := (((rowsW).slice (Rect.unit (s := S4x128x128) ![b, 0, 0] S1x128x128.size hinb) (fun _ => rfl)).squeeze S128x128 squeezes_S1x128x128_S128x128).view)
    (f := fr) (Rect.whole S128x128) w [] x
  rw [hx] at key
  exact key

/-- (Vi-b) After the copy into slot `b` (over any contents) and the eight rewrite trips, slot `b` reads the payload
    rewritten, entry by entry. -/
theorem idx_fixed (b : Nat) (hinb : ∀ a, (![b, 0] : Fin 2 → Nat) a + S1x128.size a ≤ S4x128.size a) (T : Nat) (hT : T = 8)
    (gi : Buf (Elt F) ((thr d L).loc cc1_scratch0)) (P : S128.Idx → Elt F .i32) (x : S128.Idx) :
    View.read (Elt F) (((idxW).slice (Rect.unit (s := S4x128) ![b, 0] S1x128.size hinb) (fun _ => rfl)).squeeze S128 squeezes_S1x128_S128).view
        (fixPre b T (View.write (Elt F) (((idxW).slice (Rect.unit (s := S4x128) ![b, 0] S1x128.size hinb) (fun _ => rfl)).squeeze S128 squeezes_S1x128_S128).view gi P Finset.univ)) x
      = fixIdx (P x) := by
  subst hT
  have hx : (x 0).val < 128 := (x 0).isLt
  rw [View.read_apply]
  have he : ∀ a, (((((idxW).slice (Rect.unit (s := S4x128) ![b, 0] S1x128.size hinb) (fun _ => rfl)).squeeze S128 squeezes_S1x128_S128).view.emb x) a).val
      = (![b, (x 0).val] : Fin 2 → Nat) a := by
    intro a
    simp only [Memref.view_squeeze, View.emb_reshape, Memref.view_slice, View.emb_slice, Memref.view_whole, View.emb_whole,
      Function.Embedding.trans_apply, Equiv.coe_toEmbedding]
    show ((Rect.unit (s := S4x128) ![b, 0] ![1, 128] hinb).emb ((Shape.reshapeEquiv _) x) a : Nat) = ![b, (x 0).val] a
    rw [Rect.emb_apply, Shape.reshapeEquiv_cons_one]
    match a with
    | ⟨0, _⟩ => show b + 1 * 0 = b; omega
    | ⟨1, _⟩ => show 0 + 1 * (x 0).val = (x 0).val; omega
  unfold fixPre
  rw [if_pos ⟨he 0, by rw [he 1]; show (x 0).val < 16 * 8; omega⟩, View.write_emb_of_mem _ _ (Finset.mem_univ x)]
  rfl

/-- (Vo-b) A block of the gathered array written whole with `gRows n` (over any base) holds the gathered rows on `outBlk L n`. -/
theorem block_done (n : Nat) (hn : n < 128) (off : Fin 2 → Nat) (hoff : off = ![row0 L + 128 * n, 0])
    (hinb : ∀ a, off a + S128x128.size a ≤ S524288x128.size a) (fo : Buf (Elt F) (aLoc d main_v3)) :
    ((((outW).slice (Rect.unit (s := S524288x128) off S128x128.size hinb) (fun _ => rfl)).view.loc (thr d L)
        ↦[((outW).slice (Rect.unit (s := S524288x128) off S128x128.size hinb) (fun _ => rfl)).view.set]{fullShare}
          ((outW).slice (Rect.unit (s := S524288x128) off S128x128.size hinb) (fun _ => rfl)).view.writes (Elt F) fo
            [⟨Rect.whole S128x128, gRows d L s f2 n⟩]) : sProp 𝕄)
      = (aLoc d main_v3 ↦[outBlk L n]{fullShare} gath d s f2) := by
  subst hoff
  have hr := row0_le L
  have hset := set_outSlice L n _ rfl hinb
  show (aLoc d main_v3 ↦[((outW).slice (Rect.unit (s := S524288x128) ![row0 L + 128 * n, 0] S128x128.size hinb) (fun _ => rfl)).view.set]{fullShare}
          ((outW).slice (Rect.unit (s := S524288x128) ![row0 L + 128 * n, 0] S128x128.size hinb) (fun _ => rfl)).view.writes (Elt F) fo
            [⟨Rect.whole S128x128, gRows d L s f2 n⟩] : sProp 𝕄) = _
  rw [hset]
  refine pointsTo_congr (fun i hi => ?_)
  rw [← hset] at hi
  obtain ⟨j, -, rfl⟩ := Finset.mem_map.mp hi
  have hj0 : (j 0).val < 128 := (j 0).isLt
  rw [View.writes_singleton]
  have hw : ((outW).slice (Rect.unit (s := S524288x128) ![row0 L + 128 * n, 0] S128x128.size hinb) (fun _ => rfl)).view.emb j
      = ((((outW).slice (Rect.unit (s := S524288x128) ![row0 L + 128 * n, 0] S128x128.size hinb) (fun _ => rfl)).view).slice (Rect.whole S128x128)).emb j := by
    show _ = ((outW).slice (Rect.unit (s := S524288x128) ![row0 L + 128 * n, 0] S128x128.size hinb) (fun _ => rfl)).view.emb ((Rect.whole S128x128).emb j)
    rw [Rect.emb_whole_apply]
  rw [hw, View.write_emb_of_mem _ _ (Finset.mem_univ j), ← hw]
  show gRows d L s f2 n j = gath d s f2 ((Rect.unit (s := S524288x128) ![row0 L + 128 * n, 0] S128x128.size hinb).emb j)
  unfold gRows
  refine congrArg (gath d s f2) ?_
  funext a
  apply Fin.ext
  match a with
  | ⟨0, _⟩ =>
    show (row0 L + 128 * n + (j 0).val) % 524288 = row0 L + 128 * n + 1 * (j 0).val
    rw [Nat.mod_eq_of_lt (by omega)]; omega
  | ⟨1, _⟩ => show (j 1).val = 0 + 1 * (j 1).val; omega

end

end Cert.Kernel.Tile

end
-- ==== Proof.BTileRVal.lean ====
/-
  Two value facts about a tile's indirect gather of one block of 128 rows: the rewritten indices the index slot holds
  are rows of the paired table, and what the gather lands is the block of the gathered array in closed form.
  The slot reads, entry by entry, the rewrite of the tile's index entries `128 n … 128 n + 127`; each of those entries
  is one of the tile's 16384 (so its rewrite is below 512000), the gather reads row "slot entry" of the table at the
  index's own column, and the table's slice by the whole rectangle at offsets 0 reads the table itself.
-/
import proofs.«205025_g42520176230720_cont_8to1_b_1509_29_alg».proof.Proof.BTileVal

noncomputable section

namespace Cert.Kernel.Tile

open Cert.Kernel Cert.Kernel.Gen Cert.Kernel.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)
set_option quotPrecheck false
local notation "tabSl" => ((tabW).slice (Rect.unit (s := S512000x128) ![0, 0] S512000x128.size inb_S512000x128_S512000x128_0_0) (fun _ => rfl))

section
variable (d : Dev nD) (L : grid1.Coords) (s : Buf (Elt F) (aLoc d main_v0)) (f2 : Buf (Elt F) (aLoc d main_v2))

/-- Entry `128 n + k` of the tile's share of the index array is one of the tile's entries. -/
theorem srcRow_mem (n : Nat) (hn : n < 128) (k : Nat) (hk : k < 128) : srcRowIx (row0 L + 128 * n + k) ∈ srcRows L := by
  unfold srcRows srcRect
  rw [Rect.mem_set_unit, Fin.forall_fin_one]
  have h := row0_le L
  show row0 L ≤ (row0 L + 128 * n + k) % 524288 ∧ (row0 L + 128 * n + k) % 524288 < row0 L + 16384
  rw [Nat.mod_eq_of_lt (by omega)]
  omega

/-- (Vin) The rewritten indices of a block of the tile's rows are rows of the table. -/
theorem gather_inrange (hin : ∀ n ∈ srcRows L, (fixIdx (s n)).toNat < 512000)
    (b : Nat) (hinb : ∀ a, (![b, 0] : Fin 2 → Nat) a + S1x128.size a ≤ S4x128.size a) (n : Nat) (hn : n < 128)
    (G : Buf (Elt F) ((thr d L).loc cc1_scratch0))
    (hfix : ∀ x : S128.Idx, View.read (Elt F) (((idxW).slice (Rect.unit (s := S4x128) ![b, 0] S1x128.size hinb) (fun _ => rfl)).squeeze S128 squeezes_S1x128_S128).view G x = fixIdx (s (srcRowIx (row0 L + 128 * n + (x 0).val)))) :
    ∀ x, (View.read (Elt F) (((idxW).slice (Rect.unit (s := S4x128) ![b, 0] S1x128.size hinb) (fun _ => rfl)).squeeze S128 squeezes_S1x128_S128).view G x).toNat < S512000x128.size gathers_S512000x128_S128x128.axis := by
  intro x
  rw [hfix x]
  exact hin _ (srcRow_mem L n hn (x 0).val (x 0).isLt)

/-- (Vg) What the indirect gather of block `n` lands is `gRows n`. -/
theorem gather_payload (hin : ∀ n ∈ srcRows L, (fixIdx (s n)).toNat < 512000)
    (b : Nat) (hinb : ∀ a, (![b, 0] : Fin 2 → Nat) a + S1x128.size a ≤ S4x128.size a) (n : Nat) (hn : n < 128)
    (G : Buf (Elt F) ((thr d L).loc cc1_scratch0))
    (hfix : ∀ x : S128.Idx, View.read (Elt F) (((idxW).slice (Rect.unit (s := S4x128) ![b, 0] S1x128.size hinb) (fun _ => rfl)).squeeze S128 squeezes_S1x128_S128).view G x = fixIdx (s (srcRowIx (row0 L + 128 * n + (x 0).val))))
    (hn' : S128.numel = S128x128.size gathers_S512000x128_S128x128.axis')
    (hin1 : ∀ x, (View.read (Elt F) (((idxW).slice (Rect.unit (s := S4x128) ![b, 0] S1x128.size hinb) (fun _ => rfl)).squeeze S128 squeezes_S1x128_S128).view G x).toNat < S512000x128.size gathers_S512000x128_S128x128.axis) :
    SparseCore.gatherPayload gathers_S512000x128_S128x128 (View.read (Elt F) (tabSl).view f2)
        (SparseCore.rows (View.read (Elt F) (((idxW).slice (Rect.unit (s := S4x128) ![b, 0] S1x128.size hinb) (fun _ => rfl)).squeeze S128 squeezes_S1x128_S128).view G) hn' hin1)
      = gRows d L s f2 n := by
  funext x
  have hx0 : (x 0).val < 128 := (x 0).isLt
  have h := row0_le L
  -- the slot entry the gather reads for row `x 0`
  have hy : ((S128.rowMajor.symm (((x gathers_S512000x128_S128x128.axis') : Fin _).cast hn'.symm)) 0).val = (x 0).val := by
    have e := Shape.rowMajor_val_one (S128.rowMajor.symm (((x gathers_S512000x128_S128x128.axis') : Fin _).cast hn'.symm))
    rw [Equiv.apply_symm_apply] at e
    exact e.symm
  have hrow : (SparseCore.rows (View.read (Elt F) (((idxW).slice (Rect.unit (s := S4x128) ![b, 0] S1x128.size hinb) (fun _ => rfl)).squeeze S128 squeezes_S1x128_S128).view G) hn' hin1
      (x gathers_S512000x128_S128x128.axis')).val = (fixIdx (s (srcRowIx (row0 L + 128 * n + (x 0).val)))).toNat := by
    show (View.read (Elt F) (((idxW).slice (Rect.unit (s := S4x128) ![b, 0] S1x128.size hinb) (fun _ => rfl)).squeeze S128 squeezes_S1x128_S128).view G (S128.rowMajor.symm (((x gathers_S512000x128_S128x128.axis') : Fin _).cast hn'.symm))).toNat = _
    rw [hfix, hy]
  have hlt := hin _ (srcRow_mem L n hn (x 0).val hx0)
  unfold SparseCore.gatherPayload gRows gath
  show f2 ((tabSl).view.emb (gathers_S512000x128_S128x128.idx _ x)) = f2 _
  refine congrArg f2 (funext fun a => Fin.ext ?_)
  match a with
  | ⟨0, _⟩ =>
    show 0 + 1 * (gathers_S512000x128_S128x128.idx _ x gathers_S512000x128_S128x128.axis).val
      = (fixIdx (s (srcIx ⟨(row0 L + 128 * n + (x 0).val) % 524288, _⟩))).toNat % 512000
    rw [Shape.Gathers.idx_axis, hrow]
    show 0 + 1 * (fixIdx (s (srcRowIx (row0 L + 128 * n + (x 0).val)))).toNat = (fixIdx (s (srcRowIx (row0 L + 128 * n + (x 0).val)))).toNat % 512000
    rw [Nat.mod_eq_of_lt hlt]; omega
  | ⟨1, _⟩ =>
    show 0 + 1 * (gathers_S512000x128_S128x128.idx _ x ⟨1, by decide⟩).val = (x 1).val
    rw [Shape.Gathers.idx_of_ne _ _ _ _ (by decide)]
    show 0 + 1 * (x 1).val = (x 1).val
    omega

end

end Cert.Kernel.Tile

end
-- ==== Proof.BTileROut.lean ====
/-
  The tile's rows of the gathered array between two trips: the rows held are the tile's rows less the blocks on
  their way out, at contents whose finished rows (those below the first block out) are the gathered rows. Sending a
  block out carves it off the rows held; taking the first block out back, finished, rejoins it and the finished rows
  grow by one block; before the first trip nothing is out or finished, and when everything is back and finished the
  tile's rows hold the gathered rows.
-/
import proofs.«205025_g42520176230720_cont_8to1_b_1509_29_alg».proof.Proof.BTileInv

noncomputable section

namespace Cert.Kernel.Tile

open Cert.Kernel Cert.Kernel.Gen Cert.Kernel.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

section
variable (d : Dev nD) (L : grid1.Coords) (s : Buf (Elt F) (aLoc d main_v0)) (f2 : Buf (Elt F) (aLoc d main_v2))

/-- Sending block `b` out: it leaves the rows held (at whatever it holds). -/
theorem out_carve (a b : Nat) (hab : a ≤ b) (hb : b < 128) :
    (outSt d L s f2 a b : sProp 𝕄) ⊢ iprop(outSt d L s f2 a (b + 1) ∗ ∃ o', aLoc d main_v3 ↦[outBlk L b]{fullShare} o') := by
  unfold outSt
  have hsub : outHeld L a (b + 1) ⊆ outHeld L a b := by
    rw [← outHeld_sdiff_blk L a b hab hb]; exact Finset.sdiff_subset
  have e : ∀ o : Buf (Elt F) (aLoc d main_v3), (aLoc d main_v3 ↦[outHeld L a b]{fullShare} o : sProp 𝕄)
      ⊢ iprop((aLoc d main_v3 ↦[outBlk L b]{fullShare} o) ∗ aLoc d main_v3 ↦[outHeld L a (b + 1)]{fullShare} o) := fun o => by
    rw [← outHeld_sdiff_blk L a b hab hb]
    exact (pointsTo_split_subset (outBlk_subset_held L a b hab hb)).1
  iintro ⟨%o, %ho, H⟩
  ihave H' := (e o) $$ H
  icases H' with ⟨Hb, Hr⟩
  isplitl [Hr]
  · iexists o
    isplitr
    · ipureintro; exact fun i hi hlt => ho i (hsub hi) hlt
    · iexact Hr
  · iexists o
    iexact Hb

/-- Taking block `a` back, finished: it rejoins the rows held and the finished rows grow by one block. -/
theorem out_putback (a b : Nat) (hab : a < b) (hb : b ≤ 128) :
    iprop((outSt d L s f2 a b : sProp 𝕄) ∗ aLoc d main_v3 ↦[outBlk L a]{fullShare} gath d s f2) ⊢ outSt d L s f2 (a + 1) b := by
  unfold outSt
  have e : ∀ o : Buf (Elt F) (aLoc d main_v3),
      iprop((aLoc d main_v3 ↦[outBlk L a]{fullShare} gath d s f2) ∗ aLoc d main_v3 ↦[outHeld L a b]{fullShare} o)
        ⊢ (aLoc d main_v3 ↦[outHeld L (a + 1) b]{fullShare} (outBlk L a).piecewise (gath d s f2) o : sProp 𝕄) := fun o => by
    rw [← outHeld_sdiff_blk' L a b hab hb]
    exact pointsTo_join_subset (outBlk_subset_held' L a b hab hb)
  iintro ⟨⟨%o, %ho, H⟩, Hb⟩
  iexists (outBlk L a).piecewise (gath d s f2) o
  isplitr
  · ipureintro
    intro i hi hlt
    by_cases hm : i ∈ outBlk L a
    · exact Finset.piecewise_eq_of_mem _ _ _ hm
    · rw [Finset.piecewise_eq_of_notMem _ _ _ hm]
      have hi' : i ∈ outHeld L a b := by
        rw [← outHeld_sdiff_blk' L a b hab hb]; exact Finset.mem_sdiff.2 ⟨hi, hm⟩
      refine ho i hi' ?_
      rw [mem_outBlk] at hm
      omega
  · iapply (e o)
    isplitl [Hb]
    · iexact Hb
    · iexact H

/-- Everything back and finished: the tile's rows hold the gathered rows. -/
theorem out_final :
    (outSt d L s f2 128 128 : sProp 𝕄) ⊢ aLoc d main_v3 ↦[outRows L]{fullShare} gath d s f2 := by
  unfold outSt
  have e : ∀ o : Buf (Elt F) (aLoc d main_v3),
      (∀ i ∈ outHeld L 128 128, (i 0).val < row0 L + 128 * 128 → o i = gath d s f2 i) →
      (aLoc d main_v3 ↦[outHeld L 128 128]{fullShare} o : sProp 𝕄) ⊢ aLoc d main_v3 ↦[outRows L]{fullShare} gath d s f2 := fun o ho =>
    Entails.of_eq (by
      rw [pointsTo_congr (g := gath d s f2) (fun i hi => ho i hi (by
        rw [outHeld_self, mem_outRows'] at hi; omega)), outHeld_self])
  iintro ⟨%o, %ho, H⟩
  iapply (e o ho)
  iexact H

/-- Before the first trip nothing is out and nothing is finished. -/
theorem out_start (f3 : Buf (Elt F) (aLoc d main_v3)) :
    (aLoc d main_v3 ↦[outRows L]{fullShare} f3 : sProp 𝕄) ⊢ outSt d L s f2 0 0 := by
  unfold outSt
  iintro H
  iexists f3
  isplitr
  · ipureintro
    intro i hi hlt
    rw [outHeld_self, mem_outRows'] at hi
    omega
  · rw [outHeld_self]
    iexact H

end

end Cert.Kernel.Tile

end
-- ==== Proof.BTilePInv.lean ====
/-
  The tile's blocks of the gathered array in the body's own spelling of their memrefs, and the three shapes the
  state between two trips takes: before the first trip, before a middle one, after the last.
-/
import proofs.«205025_g42520176230720_cont_8to1_b_1509_29_alg».proof.Proof.BTileInv
import proofs.«205025_g42520176230720_cont_8to1_b_1509_29_alg».proof.Proof.BTileOff
import proofs.«205025_g42520176230720_cont_8to1_b_1509_29_alg».proof.Proof.BTilePEF

noncomputable section

namespace Cert.Kernel.Tile

open Cert.Kernel Cert.Kernel.Gen Cert.Kernel.Base

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

/-! ## A block of the trip's four, as the body slices it -/

omit [FloatOps F] in
/-- Block `4 k + j` of the tile's rows held at `o` is the body's own slice of the gathered array at trip `k`, row `j`, held at `o`. -/
theorem blk_site (d : Dev nD) (L : grid1.Coords) (k : Fin k1_t2_loop.trips) (j : Fin 4) (o : Buf (Elt F) (aLoc d main_v3)) :
    (aLoc d main_v3 ↦[outBlk L (4 * k.val + j.val)]{fullShare} o : sProp 𝕄)
      = (((outW).slice (Rect.unit (s := S524288x128) (k1_off6 L k (BitVec.ofNat 32 j.val)) S128x128.size (k1_off6_inb L k j)) (fun _ => rfl)).view.loc (thr d L)
          ↦[((outW).slice (Rect.unit (s := S524288x128) (k1_off6 L k (BitVec.ofNat 32 j.val)) S128x128.size (k1_off6_inb L k j)) (fun _ => rfl)).view.set]{fullShare} o) := by
  rw [set_outSlice L (4 * k.val + j.val) _ (off6_row L k j) (k1_off6_inb L k j)]

/-! ## The state between two trips, case by case -/

/-- Before the first trip. -/
theorem tileInv_zero (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) :
    (tileInv d L q0 q2 s f2 O W 0 : sProp 𝕄)
      = iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ iprop(((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
      ∗ (∃ fr gi, gFl0 d L q2 f2 fr gi (gRows d L s f2 (4 * 0)))
      ∗ (∃ g, (idxW).view.loc (thr d L) ↦[Finset.univ \ (idxS0).view.set]{fullShare} g)
      ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
    ∗ iprop((∃ C, (rowS1).view.loc (thr d L) ↦[(rowS1).view.set]{fullShare} C) ∗ (∃ C, (rowS2).view.loc (thr d L) ↦[(rowS2).view.set]{fullShare} C) ∗ (∃ C, (rowS3).view.loc (thr d L) ↦[(rowS3).view.set]{fullShare} C) ∗ semVal (thr d L, SemLoc.dma (⟨10, by decide⟩ : DmaSem sig)) 0 ∗ semVal (thr d L, SemLoc.dma (⟨11, by decide⟩ : DmaSem sig)) 0 ∗ semVal (thr d L, SemLoc.dma (⟨12, by decide⟩ : DmaSem sig)) 0 ∗ semVal (thr d L, SemLoc.dma (⟨13, by decide⟩ : DmaSem sig)) 0)
    ∗ outSt d L s f2 0 0) := by
  unfold tileInv invGather invCopy invOut heldLo
  rw [if_pos (by decide : (0 : Nat) < 32), dif_pos rfl, if_neg (by decide : ¬ (0 : Nat) = 32)]

/-- Before a middle trip. -/
theorem tileInv_mid (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) (k : Nat) (hk1 : 1 ≤ k) (hk : k < 32) :
    (tileInv d L q0 q2 s f2 O W k : sProp 𝕄)
      = iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ iprop(((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
      ∗ (∃ fr gi, gFl0 d L q2 f2 fr gi (gRows d L s f2 (4 * k)))
      ∗ (∃ g, (idxW).view.loc (thr d L) ↦[Finset.univ \ (idxS0).view.set]{fullShare} g)
      ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
    ∗ iprop(semVal (thr d L, SemLoc.dma (⟨10, by decide⟩ : DmaSem sig)) 0 ∗ (∃ fo C, oFl1 d L ![row0 L + 128 * (4 * k - 3), 0] (outBlkRect_inb L (4 * k - 3) (by omega)) fo (gRows d L s f2 (4 * k - 3)) C) ∗ (∃ fo C, oFl2 d L ![row0 L + 128 * (4 * k - 2), 0] (outBlkRect_inb L (4 * k - 2) (by omega)) fo (gRows d L s f2 (4 * k - 2)) C) ∗ (∃ fo C, oFl3 d L ![row0 L + 128 * (4 * k - 1), 0] (outBlkRect_inb L (4 * k - 1) (by omega)) fo (gRows d L s f2 (4 * k - 1)) C))
    ∗ outSt d L s f2 (4 * k - 3) (4 * k)) := by
  unfold tileInv invGather invCopy invOut heldLo
  rw [if_pos hk, dif_neg (by omega : ¬ k = 0), dif_pos hk, if_neg (by omega : ¬ k = 32)]

/-- After the last trip. -/
theorem tileInv_last (d : Dev nD) (L : grid1.Coords) (q0 q2 : PosShare TreeShare) (s : Buf (Elt F) (aLoc d main_v0)) (f2 : Buf (Elt F) (aLoc d main_v2))
    (O : CellTallies nD τ sig (HIx 1)) (W : Waits sig (HIx 1)) :
    (tileInv d L q0 q2 s f2 O W 32 : sProp 𝕄)
      = iprop(Transfers.MayWaits (thr d L) (none : HIx 1) O
    ∗ (∃ W', ⌜∀ p ∈ W', p ∈ W ∨ p.2 = none⌝ ∗ owes (thr d L) O W')
    ∗ ((srcW).view.loc (thr d L) ↦{q0} s)
    ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
    ∗ iprop(((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
      ∗ (∃ g, (idxW).view.loc (thr d L) ↦{fullShare} g)
      ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0)
    ∗ iprop((∃ fo C, oFl0 d L ![row0 L + 128 * (124), 0] (outBlkRect_inb L (124) (by decide)) fo (gRows d L s f2 (124)) C) ∗ (∃ fo C, oFl1 d L ![row0 L + 128 * (125), 0] (outBlkRect_inb L (125) (by decide)) fo (gRows d L s f2 (125)) C) ∗ (∃ fo C, oFl2 d L ![row0 L + 128 * (126), 0] (outBlkRect_inb L (126) (by decide)) fo (gRows d L s f2 (126)) C) ∗ (∃ fo C, oFl3 d L ![row0 L + 128 * (127), 0] (outBlkRect_inb L (127) (by decide)) fo (gRows d L s f2 (127)) C))
    ∗ outSt d L s f2 124 128) := by
  unfold tileInv invGather invCopy invOut heldLo
  rw [if_neg (by decide : ¬ (32 : Nat) < 32), dif_neg (by decide : ¬ (32 : Nat) = 0), dif_neg (by decide : ¬ (32 : Nat) < 32), if_pos rfl]

end Cert.Kernel.Tile

end
-- ==== Proof.BTileROut4.lean ====
/-
  The rows held across one trip of the tile's main loop: the trip's four blocks leave them, each as the body's own
  slice of the gathered array; the blocks that come back finished rejoin them, four in a middle trip, three in the
  last, one in the first; and after the epilogue's four everything is back and the tile's rows hold the gathered rows.
-/
import proofs.«205025_g42520176230720_cont_8to1_b_1509_29_alg».proof.Proof.BTileInv
import proofs.«205025_g42520176230720_cont_8to1_b_1509_29_alg».proof.Proof.BTileOff
import proofs.«205025_g42520176230720_cont_8to1_b_1509_29_alg».proof.Proof.BTilePInv
import proofs.«205025_g42520176230720_cont_8to1_b_1509_29_alg».proof.Proof.BTileROut

noncomputable section

namespace Cert.Kernel.Tile

open Cert.Kernel Cert.Kernel.Gen Cert.Kernel.Base
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ
local notation "outW" => (Memref.whole Cert.Kernel.main_v3_scv : Memref Cert.Kernel.sig Kind.scVector Space.hbm Cert.Kernel.S524288x128 EltTy.f32)

section
variable (d : Dev nD) (L : grid1.Coords) (s : Buf (Elt F) (aLoc d main_v0)) (f2 : Buf (Elt F) (aLoc d main_v2))

/-- Block `4 k + j` leaves the rows held as the body's own slice at trip `k`, row `j`. -/
theorem carve_site (k : Fin k1_t2_loop.trips) (a : Nat) (j : Fin 4) (ha : a ≤ 4 * k.val + j.val) (hb : 4 * k.val + j.val < 128) :
    (outSt d L s f2 a (4 * k.val + j.val) : sProp 𝕄)
      ⊢ iprop(outSt d L s f2 a (4 * k.val + j.val + 1)
          ∗ ∃ o, ((outW).slice (Rect.unit (s := S524288x128) (k1_off6 L k (BitVec.ofNat 32 j.val)) S128x128.size (k1_off6_inb L k j)) (fun _ => rfl)).view.loc (thr d L)
              ↦[((outW).slice (Rect.unit (s := S524288x128) (k1_off6 L k (BitVec.ofNat 32 j.val)) S128x128.size (k1_off6_inb L k j)) (fun _ => rfl)).view.set]{fullShare} o) := by
  iintro H
  ihave H' := (out_carve d L s f2 a (4 * k.val + j.val) ha hb) $$ H
  icases H' with ⟨H, ⟨%o, B⟩⟩
  isplitl [H]
  · iexact H
  · iexists o
    iapply (Entails.of_eq (blk_site (F := F) d L k j o))
    iexact B

/-- Taking a finished block back, the block numbers given up to equations. -/
theorem putback_eq (a a' a'' b : Nat) (h1 : a' = a) (h2 : a'' = a + 1) (hab : a < b) (hb : b ≤ 128) :
    iprop((outSt d L s f2 a b : sProp 𝕄) ∗ aLoc d main_v3 ↦[outBlk L a']{fullShare} gath d s f2) ⊢ outSt d L s f2 a'' b := by
  subst h1 h2
  exact out_putback d L s f2 a' b hab hb

theorem out_carve4 (k : Fin k1_t2_loop.trips) (hk : k.val < 32) (a : Nat) (ha : a ≤ 4 * k.val) :
    (outSt d L s f2 a (4 * k.val) : sProp 𝕄)
      ⊢ iprop(outSt d L s f2 a (4 * (k.val + 1))
          ∗ (∃ o, ((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o)
          ∗ (∃ o, ((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o)
          ∗ (∃ o, ((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o)
          ∗ (∃ o, ((outW).slice (Rect.unit (s := S524288x128) (k1_off6 L k 3#32) S128x128.size (k1_off6_inb L k 3)) (fun _ => rfl)).view.loc (thr d L) ↦[((outW).slice (Rect.unit (s := S524288x128) (k1_off6 L k 3#32) S128x128.size (k1_off6_inb L k 3)) (fun _ => rfl)).view.set]{fullShare} o)) := by
  have c0 : (outSt d L s f2 a (4 * k.val) : sProp 𝕄)
      ⊢ iprop(outSt d L s f2 a (4 * k.val + 1) ∗ ∃ o, ((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o) :=
    carve_site d L s f2 k a 0 (by show a ≤ 4 * k.val + _; omega) (by show 4 * k.val + _ < 128; omega)
  have c1 : (outSt d L s f2 a (4 * k.val + 1) : sProp 𝕄)
      ⊢ iprop(outSt d L s f2 a (4 * k.val + 2) ∗ ∃ o, ((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o) :=
    carve_site d L s f2 k a 1 (by show a ≤ 4 * k.val + _; omega) (by show 4 * k.val + _ < 128; omega)
  have c2 : (outSt d L s f2 a (4 * k.val + 2) : sProp 𝕄)
      ⊢ iprop(outSt d L s f2 a (4 * k.val + 3) ∗ ∃ o, ((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o) :=
    carve_site d L s f2 k a 2 (by show a ≤ 4 * k.val + _; omega) (by show 4 * k.val + _ < 128; omega)
  have c3 : (outSt d L s f2 a (4 * k.val + 3) : sProp 𝕄)
      ⊢ iprop(outSt d L s f2 a (4 * (k.val + 1)) ∗ ∃ o, ((outW).slice (Rect.unit (s := S524288x128) (k1_off6 L k 3#32) S128x128.size (k1_off6_inb L k 3)) (fun _ => rfl)).view.loc (thr d L) ↦[((outW).slice (Rect.unit (s := S524288x128) (k1_off6 L k 3#32) S128x128.size (k1_off6_inb L k 3)) (fun _ => rfl)).view.set]{fullShare} o) :=
    carve_site d L s f2 k a 3 (by show a ≤ 4 * k.val + _; omega) (by show 4 * k.val + _ < 128; omega)
  iintro H
  ihave H0 := c0 $$ H
  icases H0 with ⟨H, B0⟩
  ihave H1 := c1 $$ H
  icases H1 with ⟨H, B1⟩
  ihave H2 := c2 $$ H
  icases H2 with ⟨H, B2⟩
  ihave H3 := c3 $$ H
  icases H3 with ⟨H, B3⟩
  isplitl [H]; · iexact H
  isplitl [B0]; · iexact B0
  isplitl [B1]; · iexact B1
  isplitl [B2]; · iexact B2
  iexact B3

theorem out_putback4 (k : Fin k1_t2_loop.trips) (hk1 : 1 ≤ k.val) (hk : k.val < 32) (b : Nat) (hb : 4 * k.val + 1 ≤ b) (hb' : b ≤ 128) :
    iprop((outSt d L s f2 (4 * k.val - 3) b : sProp 𝕄)
        ∗ (aLoc d main_v3 ↦[outBlk L (4 * k.val + 0 - 3)]{fullShare} gath d s f2)
        ∗ (aLoc d main_v3 ↦[outBlk L (4 * k.val + 1 - 3)]{fullShare} gath d s f2)
        ∗ (aLoc d main_v3 ↦[outBlk L (4 * k.val + 2 - 3)]{fullShare} gath d s f2)
        ∗ (aLoc d main_v3 ↦[outBlk L (4 * k.val + 3 - 3)]{fullShare} gath d s f2))
      ⊢ outSt d L s f2 (4 * (k.val + 1) - 3) b := by
  have p0 := putback_eq d L s f2 (4 * k.val - 3) (4 * k.val + 0 - 3) (4 * k.val + 1 - 3) b (by omega) (by omega) (by omega) hb'
  have p1 := putback_eq d L s f2 (4 * k.val + 1 - 3) (4 * k.val + 1 - 3) (4 * k.val + 2 - 3) b rfl (by omega) (by omega) hb'
  have p2 := putback_eq d L s f2 (4 * k.val + 2 - 3) (4 * k.val + 2 - 3) (4 * k.val + 3 - 3) b rfl (by omega) (by omega) hb'
  have p3 := putback_eq d L s f2 (4 * k.val + 3 - 3) (4 * k.val + 3 - 3) (4 * (k.val + 1) - 3) b rfl (by omega) (by omega) hb'
  iintro ⟨H, B0, B1, B2, B3⟩
  ihave H := p0 $$ [H B0]
  · isplitl [H]; · iexact H
    iexact B0
  ihave H := p1 $$ [H B1]
  · isplitl [H]; · iexact H
    iexact B1
  ihave H := p2 $$ [H B2]
  · isplitl [H]; · iexact H
    iexact B2
  iapply p3
  isplitl [H]; · iexact H
  iexact B3

theorem out_putback3 (k : Fin k1_t2_loop.trips) (hk31 : k.val = 31) :
    iprop((outSt d L s f2 (4 * k.val - 3) 128 : sProp 𝕄)
        ∗ (aLoc d main_v3 ↦[outBlk L (4 * k.val + 0 - 3)]{fullShare} gath d s f2)
        ∗ (aLoc d main_v3 ↦[outBlk L (4 * k.val + 1 - 3)]{fullShare} gath d s f2)
        ∗ (aLoc d main_v3 ↦[outBlk L (4 * k.val + 2 - 3)]{fullShare} gath d s f2))
      ⊢ outSt d L s f2 124 128 := by
  have p0 := putback_eq d L s f2 (4 * k.val - 3) (4 * k.val + 0 - 3) (4 * k.val + 1 - 3) 128 (by omega) (by omega) (by omega) (Nat.le_refl _)
  have p1 := putback_eq d L s f2 (4 * k.val + 1 - 3) (4 * k.val + 1 - 3) (4 * k.val + 2 - 3) 128 rfl (by omega) (by omega) (Nat.le_refl _)
  have p2 := putback_eq d L s f2 (4 * k.val + 2 - 3) (4 * k.val + 2 - 3) 124 128 rfl (by omega) (by omega) (Nat.le_refl _)
  iintro ⟨H, B0, B1, B2⟩
  ihave H := p0 $$ [H B0]
  · isplitl [H]; · iexact H
    iexact B0
  ihave H := p1 $$ [H B1]
  · isplitl [H]; · iexact H
    iexact B1
  iapply p2
  isplitl [H]; · iexact H
  iexact B2

theorem out_putback1 (k : Fin k1_t2_loop.trips) (hk0 : k.val = 0) :
    iprop((outSt d L s f2 0 4 : sProp 𝕄) ∗ (aLoc d main_v3 ↦[outBlk L (4 * k.val + 3 - 3)]{fullShare} gath d s f2))
      ⊢ outSt d L s f2 1 4 := by
  exact putback_eq d L s f2 0 (4 * k.val + 3 - 3) 1 4 (by omega) rfl (by omega) (by omega)

theorem out_putback_last :
    iprop((outSt d L s f2 124 128 : sProp 𝕄)
        ∗ (aLoc d main_v3 ↦[outBlk L 124]{fullShare} gath d s f2) ∗ (aLoc d main_v3 ↦[outBlk L 125]{fullShare} gath d s f2)
        ∗ (aLoc d main_v3 ↦[outBlk L 126]{fullShare} gath d s f2) ∗ (aLoc d main_v3 ↦[outBlk L 127]{fullShare} gath d s f2))
      ⊢ aLoc d main_v3 ↦[outRows L]{fullShare} gath d s f2 := by
  have p0 := out_putback (F := F) d L s f2 124 128 (by omega) (Nat.le_refl _)
  have p1 := out_putback (F := F) d L s f2 125 128 (by omega) (Nat.le_refl _)
  have p2 := out_putback (F := F) d L s f2 126 128 (by omega) (Nat.le_refl _)
  have p3 := out_putback (F := F) d L s f2 127 128 (by omega) (Nat.le_refl _)
  iintro ⟨H, B0, B1, B2, B3⟩
  ihave H := p0 $$ [H B0]
  · isplitl [H]; · iexact H
    iexact B0
  ihave H := p1 $$ [H B1]
  · isplitl [H]; · iexact H
    iexact B1
  ihave H := p2 $$ [H B2]
  · isplitl [H]; · iexact H
    iexact B2
  ihave H := p3 $$ [H B3]
  · isplitl [H]; · iexact H
    iexact B3
  iapply (out_final (F := F) d L s f2)
  iexact H

end

end Cert.Kernel.Tile

end
-- ==== Proof.BTilePConds.lean ====
/-
  Which of the eight conditions of a trip of the tile's main loop hold: all of them at a middle trip; at the first
  trip none of the three waits for a copy-out; at the last trip neither of the two that fetch and gather a next block.
-/
import proofs.«205025_g42520176230720_cont_8to1_b_1509_29_alg».proof.Proof.BKBase

noncomputable section

namespace Cert.Kernel.Tile

open Cert.Kernel Cert.Kernel.Gen Cert.Kernel.Base
open Idealize.ShloMosaic
open Idealize.ShloMosaic.SparseCore.Cfg (HIx)

theorem conds_mid : ∀ k : Fin k1_t2_loop.trips, 1 ≤ k.val → k.val ≤ 30 →
    k1_cond1 k = 1#1 ∧ k1_cond2 k = 1#1 ∧ k1_cond3 k = 1#1 ∧ k1_cond4 k = 1#1 ∧ k1_cond5 k = 1#1 ∧ k1_cond6 k = 1#1
      ∧ k1_cond7 k = 1#1 ∧ k1_cond8 k = 1#1 := by
  decide +kernel

theorem conds_first : ∀ k : Fin k1_t2_loop.trips, k.val = 0 →
    ¬ k1_cond1 k = 1#1 ∧ k1_cond2 k = 1#1 ∧ ¬ k1_cond3 k = 1#1 ∧ k1_cond4 k = 1#1 ∧ ¬ k1_cond5 k = 1#1 ∧ k1_cond6 k = 1#1
      ∧ k1_cond7 k = 1#1 ∧ k1_cond8 k = 1#1 := by
  decide +kernel

theorem conds_last : ∀ k : Fin k1_t2_loop.trips, k.val = 31 →
    k1_cond1 k = 1#1 ∧ k1_cond2 k = 1#1 ∧ k1_cond3 k = 1#1 ∧ k1_cond4 k = 1#1 ∧ k1_cond5 k = 1#1 ∧ k1_cond6 k = 1#1
      ∧ ¬ k1_cond7 k = 1#1 ∧ ¬ k1_cond8 k = 1#1 := by
  decide +kernel

/-- Recorded waits compose: each set adds only waits at the kernel's own index. -/
theorem waits_trans {W W₁ W₂ : Waits sig (HIx 1)} (h₂ : ∀ p ∈ W₂, p ∈ W₁ ∨ p.2 = none) (h₁ : ∀ p ∈ W₁, p ∈ W ∨ p.2 = none) :
    ∀ p ∈ W₂, p ∈ W ∨ p.2 = none := by
  intro p hp
  rcases h₂ p hp with h | h
  · exact h₁ p h
  · exact .inr h

end Cert.Kernel.Tile

end
-- ==== Proof.BTileFix.lean ====
/-
  The index rewrite as a counted loop: one trip of each of the body's five copies of it extends the rewritten prefix of
  its slot of the index scratch by sixteen entries, whether the scratch is held whole or less a slot's window that
  a gather in flight has borrowed.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileVal
import proofs.«205025_g42520176230720_cont_8to1_b_1509_29_alg».proof.Proof.Gen.Kernel.Skeleton

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

variable [FloatOps F]

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

/-- One trip of the index rewrite on slot 0. -/
theorem fix_region_t1 (d : Dev nD) (L : grid1.Coords)
    (g : Buf (Elt F) ((thr d L).loc cc1_scratch0)) (t : Fin k1_t1_loop.trips) (acc : PUnit) :
    ((idxW).view.loc (thr d L) ↦{fullShare} fixPre 0 t.val g : sProp 𝕄)
      ⊢ wp frame (wpE (defs₀ (F := F)) 𝒱₀ (thr d L) none) Set.univ
          (k1_t1_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4  t acc)
          fun _ => ((idxW).view.loc (thr d L) ↦{fullShare} fixPre 0 (t.val + 1) g : sProp 𝕄) := by
  have ht : t.val < 8 := Nat.lt_of_lt_of_le t.isLt k1_t1_abs.2.1
  unfold k1_t1_body
  iintro Hi
  sl_exec
  sl_step
  irw [← fixPre_step (F := F) 0 t.val (by decide) ht g (k1_off2 t) (k1_off2_eq t) (k1_off2_inb t)]
  iexact Hi

/-- One trip of the index rewrite on slot 1, slot 0's window lent out. -/
theorem fix_region_t3 (d : Dev nD) (L : grid1.Coords) (v2 c0 c1 : BitVec 32) (k : Fin k1_t2_loop.trips) (h : k1_cond2 k = 1#1)
    (g : Buf (Elt F) ((thr d L).loc cc1_scratch0)) (t : Fin k1_t3_loop.trips) (acc : PUnit) :
    ((idxW).view.loc (thr d L) ↦[Finset.univ \ (idxS0).view.set]{fullShare} fixPre 1 t.val g : sProp 𝕄)
      ⊢ wp frame (wpE (defs₀ (F := F)) 𝒱₀ (thr d L) none) Set.univ
          (k1_t3_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 c0 c1 k h t acc)
          fun _ => ((idxW).view.loc (thr d L) ↦[Finset.univ \ (idxS0).view.set]{fullShare} fixPre 1 (t.val + 1) g : sProp 𝕄) := by
  have ht : t.val < 8 := Nat.lt_of_lt_of_le t.isLt k1_t3_abs.2.1
  unfold k1_t3_body
  iintro Hi
  sl_exec
  sl_step
  irw [← fixPre_step (F := F) 1 t.val (by decide) ht g (k1_off5 t) (k1_off5_eq t) (k1_off5_inb k t h)]
  iexact Hi

/-- One trip of the index rewrite on slot 2, slot 1's window lent out. -/
theorem fix_region_t4 (d : Dev nD) (L : grid1.Coords) (v2 : BitVec 32) (k : Fin k1_t2_loop.trips) (arg9 : BitVec 32) (h : k1_cond4 k = 1#1)
    (g : Buf (Elt F) ((thr d L).loc cc1_scratch0)) (t : Fin k1_t4_loop.trips) (acc : PUnit) :
    ((idxW).view.loc (thr d L) ↦[Finset.univ \ (idxS1).view.set]{fullShare} fixPre 2 t.val g : sProp 𝕄)
      ⊢ wp frame (wpE (defs₀ (F := F)) 𝒱₀ (thr d L) none) Set.univ
          (k1_t4_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 h t acc)
          fun _ => ((idxW).view.loc (thr d L) ↦[Finset.univ \ (idxS1).view.set]{fullShare} fixPre 2 (t.val + 1) g : sProp 𝕄) := by
  have ht : t.val < 8 := Nat.lt_of_lt_of_le t.isLt k1_t4_abs.2.1
  unfold k1_t4_body
  iintro Hi
  sl_exec
  sl_step
  irw [← fixPre_step (F := F) 2 t.val (by decide) ht g (k1_off9 t) (k1_off9_eq t) (k1_off9_inb k t h)]
  iexact Hi

/-- One trip of the index rewrite on slot 3, slot 2's window lent out. -/
theorem fix_region_t5 (d : Dev nD) (L : grid1.Coords) (v2 : BitVec 32) (k : Fin k1_t2_loop.trips) (arg9 c4 : BitVec 32) (h : k1_cond6 k = 1#1)
    (g : Buf (Elt F) ((thr d L).loc cc1_scratch0)) (t : Fin k1_t5_loop.trips) (acc : PUnit) :
    ((idxW).view.loc (thr d L) ↦[Finset.univ \ (idxS2).view.set]{fullShare} fixPre 3 t.val g : sProp 𝕄)
      ⊢ wp frame (wpE (defs₀ (F := F)) 𝒱₀ (thr d L) none) Set.univ
          (k1_t5_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 c4 h t acc)
          fun _ => ((idxW).view.loc (thr d L) ↦[Finset.univ \ (idxS2).view.set]{fullShare} fixPre 3 (t.val + 1) g : sProp 𝕄) := by
  have ht : t.val < 8 := Nat.lt_of_lt_of_le t.isLt k1_t5_abs.2.1
  unfold k1_t5_body
  iintro Hi
  sl_exec
  sl_step
  irw [← fixPre_step (F := F) 3 t.val (by decide) ht g (k1_off12 t) (k1_off12_eq t) (k1_off12_inb k t h)]
  iexact Hi

/-- One trip of the index rewrite on slot 0, slot 3's window lent out. -/
theorem fix_region_t6 (d : Dev nD) (L : grid1.Coords) (v2 c0 c1 : BitVec 32) (k : Fin k1_t2_loop.trips) (h : k1_cond8 k = 1#1)
    (g : Buf (Elt F) ((thr d L).loc cc1_scratch0)) (t : Fin k1_t6_loop.trips) (acc : PUnit) :
    ((idxW).view.loc (thr d L) ↦[Finset.univ \ (idxS3).view.set]{fullShare} fixPre 0 t.val g : sProp 𝕄)
      ⊢ wp frame (wpE (defs₀ (F := F)) 𝒱₀ (thr d L) none) Set.univ
          (k1_t6_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 c0 c1 k h t acc)
          fun _ => ((idxW).view.loc (thr d L) ↦[Finset.univ \ (idxS3).view.set]{fullShare} fixPre 0 (t.val + 1) g : sProp 𝕄) := by
  have ht : t.val < 8 := Nat.lt_of_lt_of_le t.isLt k1_t6_abs.2.1
  unfold k1_t6_body
  iintro Hi
  sl_exec
  sl_step
  irw [← fixPre_step (F := F) 0 t.val (by decide) ht g (k1_off15 t) (k1_off15_eq t) (k1_off15_inb k t h)]
  iexact Hi

end Cert.Kernel.Tile

end
-- ==== Proof.BTileStepA.lean ====
/-
  The first three steps of a trip of the tile's main loop, each with both its conditions true: a copy-out waited for, the
  next block of indices fetched and rewritten and its gather started, the gather in flight waited for and its
  copy-out started. Each is one printed part of the loop's region.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileVal
import proofs.«205025_g42520176230720_cont_8to1_b_1509_29_alg».proof.Proof.BTileVal2
import proofs.«205025_g42520176230720_cont_8to1_b_1509_29_alg».proof.Proof.BTileOff
import proofs.«205025_g42520176230720_cont_8to1_b_1509_29_alg».proof.Proof.BTileInv
import proofs.«205025_g42520176230720_cont_8to1_b_1509_29_alg».proof.Proof.BTilePEF
import proofs.«205025_g42520176230720_cont_8to1_b_1509_29_alg».proof.Proof.BTilePVal
import proofs.«205025_g42520176230720_cont_8to1_b_1509_29_alg».proof.Proof.BTileRVal
import proofs.«205025_g42520176230720_cont_8to1_b_1509_29_alg».proof.Proof.BTileFix
import proofs.«205025_g42520176230720_cont_8to1_b_1509_29_alg».proof.Proof.Gen.Kernel.Skeleton

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

omit [FloatOps F] in
theorem pts_abs {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

set_option maxHeartbeats 4000000 in
/-- Step 0 of a trip, both its conditions true: the copy-out of block `4 * k.val + 0 - 3` is waited for, block `4 * k.val + 1` is fetched,
    rewritten and its gather started, the gather of block `4 * k.val + 0` is waited for and its copy-out started. -/
theorem step0_AB (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk1 : 1 ≤ k.val) (hk32 : k.val < 32) (hn1 : 4 * k.val + 1 < 128)
    (k1_h1 : k1_cond1 k = 1#1) (k1_h2 : k1_cond2 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 7} f2)
        ∗ ((tabW).view.loc (thr d L) ↦[Finset.univ \ (tabSl).view.set]{Transfers.shareTokN q2 6} f2)
        ∗ gFl0 d L q2 f2 fr0 gi0 (gRows d L s f2 (4 * k.val + 0))
        ∗ oFl1 d L ![row0 L + 128 * (4 * k.val + 0 - 3), 0] (outBlkRect_inb L (4 * k.val + 0 - 3) (by omega)) fo1 (gRows d L s f2 (4 * k.val + 0 - 3)) C1
        ∗ ((idxW).view.loc (thr d L) ↦[Finset.univ \ (idxS0).view.set]{fullShare} g)
        ∗ semVal (thr d L, SemLoc.dma (⟨7, by decide⟩ : DmaSem sig)) 0 ∗ semVal (thr d L, SemLoc.dma (⟨10, by decide⟩ : DmaSem sig)) 0 ∗ semVal (thr d L, SemLoc.dma (⟨15, by decide⟩ : DmaSem sig)) 0
        ∗ (((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o0))
      ⊢ wp frame (wpE (defs₀ (F := F)) 𝒱₀ (thr d L) none) Set.univ
          (k1_part1 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 0#32 1#32 k)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 6} f2)
            ∗ ((tabW).view.loc (thr d L) ↦[Finset.univ \ (tabSl).view.set]{Transfers.shareTokN q2 7} f2)
            ∗ (∃ fr gi, gFl1 d L q2 f2 fr gi (gRows d L s f2 (4 * k.val + 1)))
            ∗ (∃ fo C, oFl0 d L ![row0 L + 128 * (4 * k.val + 0), 0] (outBlkRect_inb L (4 * k.val + 0) (by omega)) fo (gRows d L s f2 (4 * k.val + 0)) C)
            ∗ (∃ g', (idxW).view.loc (thr d L) ↦[Finset.univ \ (idxS1).view.set]{fullShare} g')
            ∗ semVal (thr d L, SemLoc.dma (⟨6, by decide⟩ : DmaSem sig)) 0 ∗ semVal (thr d L, SemLoc.dma (⟨11, by decide⟩ : DmaSem sig)) 0 ∗ semVal (thr d L, SemLoc.dma (⟨15, by decide⟩ : DmaSem sig)) 0
            ∗ (aLoc d main_v3 ↦[outBlk L (4 * k.val + 0 - 3)]{fullShare} gath d s f2)) : sProp 𝕄) := by
  sl_unfold [k1_part1]
  unfold gFl0 oFl1
  iintro ⟨#Hmw, HO, Hs, Ht1, Ht0e, HG0, HO1, Hi, Hw1, Hso0, Hc1, Hob0⟩
  sl_exec
  ihave Hi' := (pts_abs (F := F) _) $$ Hi
  icases Hi' with ⟨%g1, %hg1, Hi⟩
  sl_for (fun t (_ : PUnit) => (idxW).view.loc (thr d L) ↦[Finset.univ \ (idxS0).view.set]{fullShare} fixPre 1 t g1) $$ [Hi]
  case region => exact fun t acc => fix_region_t3 (F := F) d L v2 0#32 1#32 k k1_h2 g1 t acc
  · rw [fixPre_zero]; iexact Hi
  iintro %_ HI
  have hT : k1_t3_loop.trips = 8 := by decide
  have hfix1 : ∀ x : S128.Idx, View.read (Elt F) (idxS1).view (fixPre 1 k1_t3_loop.trips g1) x
      = fixIdx (s (srcRowIx (row0 L + 128 * (4 * k.val + 1) + (x 0).val))) := by
    intro x
    rw [hg1, idx_fixed (F := F) d L 1 _ _ hT]
    sl_unfold_run_names
    exact congrArg fixIdx (copy_payload (F := F) d L s (4 * k.val + 1) hn1 (k1_off4 L k) (off4_row L k) _ x)
  have hin1 : ∀ x, (View.read (Elt F) (idxS1).view (fixPre 1 k1_t3_loop.trips g1) x).toNat < S512000x128.size gathers_S512000x128_S128x128.axis :=
    gather_inrange (F := F) d L s hin 1 _ (4 * k.val + 1) hn1 _ hfix1
  sl_exec
  have eG : step0_AB.sl.gather0 d L f2 g1 hin1 = gRows d L s f2 (4 * k.val + 1) := by
    sl_unfold_run_names
    exact gather_payload (F := F) d L s f2 hin 1 _ (4 * k.val + 1) hn1 _ hfix1 _ hin1
  have eD : step0_AB.sl.dma0_1 d L s f2 k fr0 = gRows d L s f2 (4 * k.val + 0) := by
    sl_unfold_run_names
    exact copyout_payload (F := F) d L 0 _ fr0 _
  rw [eG, eD]
  sl_step
  ihave Hbd := (Entails.of_eq (block_done (F := F) d L s f2 (4 * k.val + 0 - 3) (by omega) _ rfl _ _)) $$ HO1_dst
  ihave Hi2 := (idx_rejoin (F := F) d L 0 1 (by decide) _ _ _ _) $$ [HI HG0_dst_and]
  · isplitl [HI]
    · iexact HI
    · iexact HG0_dst_and
  iclear HO1_src
  iexists _
  isplitl [HO]; · iexact HO
  isplitr
  · ipureintro
    intro p hp
    simp only [Finset.mem_insert] at hp
    rcases hp with rfl | rfl | rfl | hp
    · exact .inr rfl
    · exact .inr rfl
    · exact .inr rfl
    · exact .inl hp
  isplitl [Hs]; · iexact Hs
  isplitl [Ht0e]; · iexact Ht0e
  isplitl [Ht1]; · iexact Ht1
  isplitl [Hw1]
  · iexists _, _; unfold gFl1; iexact Hw1
  isplitl [Hso0]
  · iexists o0, ((rowS0).view.writes (Elt F) fr0 [⟨Rect.whole S128x128, gRows d L s f2 (4 * k.val + 0)⟩])
    rw [← oFl0_congr (F := F) d L (off6_row L k ⟨0, by decide⟩) (k1_off6_inb L k 0) (outBlkRect_inb L (4 * k.val + 0) (by omega)) o0 (gRows d L s f2 (4 * k.val + 0)) ((rowS0).view.writes (Elt F) fr0 [⟨Rect.whole S128x128, gRows d L s f2 (4 * k.val + 0)⟩])]
    unfold oFl0
    iexact Hso0
  isplitl [Hi2]
  · iexists _; iexact Hi2
  isplitl [HG0]; · iexact HG0
  isplitl [HO1]; · iexact HO1
  isplitl [Hc1]; · iexact Hc1
  iexact Hbd

set_option maxHeartbeats 4000000 in
/-- Step 1 of a trip, both its conditions true: the copy-out of block `4 * k.val + 1 - 3` is waited for, block `4 * k.val + 2` is fetched,
    rewritten and its gather started, the gather of block `4 * k.val + 1` is waited for and its copy-out started. -/
theorem step1_AB (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 : BitVec 32) (k : Fin k1_t2_loop.trips) (hk1 : 1 ≤ k.val) (hk32 : k.val < 32) (hn1 : 4 * k.val + 2 < 128)
    (k1_h3 : k1_cond3 k = 1#1) (k1_h4 : k1_cond4 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 8} f2)
        ∗ ((tabW).view.loc (thr d L) ↦[Finset.univ \ (tabSl).view.set]{Transfers.shareTokN q2 7} f2)
        ∗ gFl1 d L q2 f2 fr0 gi0 (gRows d L s f2 (4 * k.val + 1))
        ∗ oFl2 d L ![row0 L + 128 * (4 * k.val + 1 - 3), 0] (outBlkRect_inb L (4 * k.val + 1 - 3) (by omega)) fo1 (gRows d L s f2 (4 * k.val + 1 - 3)) C1
        ∗ ((idxW).view.loc (thr d L) ↦[Finset.univ \ (idxS1).view.set]{fullShare} g)
        ∗ semVal (thr d L, SemLoc.dma (⟨8, by decide⟩ : DmaSem sig)) 0 ∗ semVal (thr d L, SemLoc.dma (⟨11, by decide⟩ : DmaSem sig)) 0 ∗ semVal (thr d L, SemLoc.dma (⟨16, by decide⟩ : DmaSem sig)) 0
        ∗ (((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o0))
      ⊢ wp frame (wpE (defs₀ (F := F)) 𝒱₀ (thr d L) none) Set.univ
          (k1_part2 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 7} f2)
            ∗ ((tabW).view.loc (thr d L) ↦[Finset.univ \ (tabSl).view.set]{Transfers.shareTokN q2 8} f2)
            ∗ (∃ fr gi, gFl2 d L q2 f2 fr gi (gRows d L s f2 (4 * k.val + 2)))
            ∗ (∃ fo C, oFl1 d L ![row0 L + 128 * (4 * k.val + 1), 0] (outBlkRect_inb L (4 * k.val + 1) (by omega)) fo (gRows d L s f2 (4 * k.val + 1)) C)
            ∗ (∃ g', (idxW).view.loc (thr d L) ↦[Finset.univ \ (idxS2).view.set]{fullShare} g')
            ∗ semVal (thr d L, SemLoc.dma (⟨7, by decide⟩ : DmaSem sig)) 0 ∗ semVal (thr d L, SemLoc.dma (⟨12, by decide⟩ : DmaSem sig)) 0 ∗ semVal (thr d L, SemLoc.dma (⟨16, by decide⟩ : DmaSem sig)) 0
            ∗ (aLoc d main_v3 ↦[outBlk L (4 * k.val + 1 - 3)]{fullShare} gath d s f2)) : sProp 𝕄) := by
  sl_unfold [k1_part2]
  unfold gFl1 oFl2
  iintro ⟨#Hmw, HO, Hs, Ht1, Ht0e, HG0, HO1, Hi, Hw1, Hso0, Hc1, Hob0⟩
  sl_exec
  ihave Hi' := (pts_abs (F := F) _) $$ Hi
  icases Hi' with ⟨%g1, %hg1, Hi⟩
  sl_for (fun t (_ : PUnit) => (idxW).view.loc (thr d L) ↦[Finset.univ \ (idxS1).view.set]{fullShare} fixPre 2 t g1) $$ [Hi]
  case region => exact fun t acc => fix_region_t4 (F := F) d L v2 k arg9 k1_h4 g1 t acc
  · rw [fixPre_zero]; iexact Hi
  iintro %_ HI
  have hT : k1_t4_loop.trips = 8 := by decide
  have hfix1 : ∀ x : S128.Idx, View.read (Elt F) (idxS2).view (fixPre 2 k1_t4_loop.trips g1) x
      = fixIdx (s (srcRowIx (row0 L + 128 * (4 * k.val + 2) + (x 0).val))) := by
    intro x
    rw [hg1, idx_fixed (F := F) d L 2 _ _ hT]
    sl_unfold_run_names
    exact congrArg fixIdx (copy_payload (F := F) d L s (4 * k.val + 2) hn1 (k1_off8 L k) (off8_row L k) _ x)
  have hin1 : ∀ x, (View.read (Elt F) (idxS2).view (fixPre 2 k1_t4_loop.trips g1) x).toNat < S512000x128.size gathers_S512000x128_S128x128.axis :=
    gather_inrange (F := F) d L s hin 2 _ (4 * k.val + 2) hn1 _ hfix1
  sl_exec
  have eG : step1_AB.sl.gather0 d L f2 g1 hin1 = gRows d L s f2 (4 * k.val + 2) := by
    sl_unfold_run_names
    exact gather_payload (F := F) d L s f2 hin 2 _ (4 * k.val + 2) hn1 _ hfix1 _ hin1
  have eD : step1_AB.sl.dma0_1 d L s f2 k fr0 = gRows d L s f2 (4 * k.val + 1) := by
    sl_unfold_run_names
    exact copyout_payload (F := F) d L 1 _ fr0 _
  rw [eG, eD]
  sl_step
  ihave Hbd := (Entails.of_eq (block_done (F := F) d L s f2 (4 * k.val + 1 - 3) (by omega) _ rfl _ _)) $$ HO1_dst
  ihave Hi2 := (idx_rejoin (F := F) d L 1 2 (by decide) _ _ _ _) $$ [HI HG0_dst_and]
  · isplitl [HI]
    · iexact HI
    · iexact HG0_dst_and
  iclear HO1_src
  iexists _
  isplitl [HO]; · iexact HO
  isplitr
  · ipureintro
    intro p hp
    simp only [Finset.mem_insert] at hp
    rcases hp with rfl | rfl | rfl | hp
    · exact .inr rfl
    · exact .inr rfl
    · exact .inr rfl
    · exact .inl hp
  isplitl [Hs]; · iexact Hs
  isplitl [Ht0e]; · iexact Ht0e
  isplitl [Ht1]; · iexact Ht1
  isplitl [Hw1]
  · iexists _, _; unfold gFl2; iexact Hw1
  isplitl [Hso0]
  · iexists o0, ((rowS1).view.writes (Elt F) fr0 [⟨Rect.whole S128x128, gRows d L s f2 (4 * k.val + 1)⟩])
    rw [← oFl1_congr (F := F) d L (off6_row L k ⟨1, by decide⟩) (k1_off6_inb L k 1) (outBlkRect_inb L (4 * k.val + 1) (by omega)) o0 (gRows d L s f2 (4 * k.val + 1)) ((rowS1).view.writes (Elt F) fr0 [⟨Rect.whole S128x128, gRows d L s f2 (4 * k.val + 1)⟩])]
    unfold oFl1
    iexact Hso0
  isplitl [Hi2]
  · iexists _; iexact Hi2
  isplitl [HG0]; · iexact HG0
  isplitl [HO1]; · iexact HO1
  isplitl [Hc1]; · iexact Hc1
  iexact Hbd

set_option maxHeartbeats 4000000 in
/-- Step 2 of a trip, both its conditions true: the copy-out of block `4 * k.val + 2 - 3` is waited for, block `4 * k.val + 3` is fetched,
    rewritten and its gather started, the gather of block `4 * k.val + 2` is waited for and its copy-out started. -/
theorem step2_AB (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 c4 : BitVec 32) (k : Fin k1_t2_loop.trips) (hk1 : 1 ≤ k.val) (hk32 : k.val < 32) (hn1 : 4 * k.val + 3 < 128)
    (k1_h5 : k1_cond5 k = 1#1) (k1_h6 : k1_cond6 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 9} f2)
        ∗ ((tabW).view.loc (thr d L) ↦[Finset.univ \ (tabSl).view.set]{Transfers.shareTokN q2 8} f2)
        ∗ gFl2 d L q2 f2 fr0 gi0 (gRows d L s f2 (4 * k.val + 2))
        ∗ oFl3 d L ![row0 L + 128 * (4 * k.val + 2 - 3), 0] (outBlkRect_inb L (4 * k.val + 2 - 3) (by omega)) fo1 (gRows d L s f2 (4 * k.val + 2 - 3)) C1
        ∗ ((idxW).view.loc (thr d L) ↦[Finset.univ \ (idxS2).view.set]{fullShare} g)
        ∗ semVal (thr d L, SemLoc.dma (⟨9, by decide⟩ : DmaSem sig)) 0 ∗ semVal (thr d L, SemLoc.dma (⟨12, by decide⟩ : DmaSem sig)) 0 ∗ semVal (thr d L, SemLoc.dma (⟨17, by decide⟩ : DmaSem sig)) 0
        ∗ (((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o0))
      ⊢ wp frame (wpE (defs₀ (F := F)) 𝒱₀ (thr d L) none) Set.univ
          (k1_part3 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 c4)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 8} f2)
            ∗ ((tabW).view.loc (thr d L) ↦[Finset.univ \ (tabSl).view.set]{Transfers.shareTokN q2 9} f2)
            ∗ (∃ fr gi, gFl3 d L q2 f2 fr gi (gRows d L s f2 (4 * k.val + 3)))
            ∗ (∃ fo C, oFl2 d L ![row0 L + 128 * (4 * k.val + 2), 0] (outBlkRect_inb L (4 * k.val + 2) (by omega)) fo (gRows d L s f2 (4 * k.val + 2)) C)
            ∗ (∃ g', (idxW).view.loc (thr d L) ↦[Finset.univ \ (idxS3).view.set]{fullShare} g')
            ∗ semVal (thr d L, SemLoc.dma (⟨8, by decide⟩ : DmaSem sig)) 0 ∗ semVal (thr d L, SemLoc.dma (⟨13, by decide⟩ : DmaSem sig)) 0 ∗ semVal (thr d L, SemLoc.dma (⟨17, by decide⟩ : DmaSem sig)) 0
            ∗ (aLoc d main_v3 ↦[outBlk L (4 * k.val + 2 - 3)]{fullShare} gath d s f2)) : sProp 𝕄) := by
  sl_unfold [k1_part3]
  unfold gFl2 oFl3
  iintro ⟨#Hmw, HO, Hs, Ht1, Ht0e, HG0, HO1, Hi, Hw1, Hso0, Hc1, Hob0⟩
  sl_exec
  ihave Hi' := (pts_abs (F := F) _) $$ Hi
  icases Hi' with ⟨%g1, %hg1, Hi⟩
  sl_for (fun t (_ : PUnit) => (idxW).view.loc (thr d L) ↦[Finset.univ \ (idxS2).view.set]{fullShare} fixPre 3 t g1) $$ [Hi]
  case region => exact fun t acc => fix_region_t5 (F := F) d L v2 k arg9 c4 k1_h6 g1 t acc
  · rw [fixPre_zero]; iexact Hi
  iintro %_ HI
  have hT : k1_t5_loop.trips = 8 := by decide
  have hfix1 : ∀ x : S128.Idx, View.read (Elt F) (idxS3).view (fixPre 3 k1_t5_loop.trips g1) x
      = fixIdx (s (srcRowIx (row0 L + 128 * (4 * k.val + 3) + (x 0).val))) := by
    intro x
    rw [hg1, idx_fixed (F := F) d L 3 _ _ hT]
    sl_unfold_run_names
    exact congrArg fixIdx (copy_payload (F := F) d L s (4 * k.val + 3) hn1 (k1_off11 L k) (off11_row L k) _ x)
  have hin1 : ∀ x, (View.read (Elt F) (idxS3).view (fixPre 3 k1_t5_loop.trips g1) x).toNat < S512000x128.size gathers_S512000x128_S128x128.axis :=
    gather_inrange (F := F) d L s hin 3 _ (4 * k.val + 3) hn1 _ hfix1
  sl_exec
  have eG : step2_AB.sl.gather0 d L f2 g1 hin1 = gRows d L s f2 (4 * k.val + 3) := by
    sl_unfold_run_names
    exact gather_payload (F := F) d L s f2 hin 3 _ (4 * k.val + 3) hn1 _ hfix1 _ hin1
  have eD : step2_AB.sl.dma0_1 d L s f2 k fr0 = gRows d L s f2 (4 * k.val + 2) := by
    sl_unfold_run_names
    exact copyout_payload (F := F) d L 2 _ fr0 _
  rw [eG, eD]
  sl_step
  ihave Hbd := (Entails.of_eq (block_done (F := F) d L s f2 (4 * k.val + 2 - 3) (by omega) _ rfl _ _)) $$ HO1_dst
  ihave Hi2 := (idx_rejoin (F := F) d L 2 3 (by decide) _ _ _ _) $$ [HI HG0_dst_and]
  · isplitl [HI]
    · iexact HI
    · iexact HG0_dst_and
  iclear HO1_src
  iexists _
  isplitl [HO]; · iexact HO
  isplitr
  · ipureintro
    intro p hp
    simp only [Finset.mem_insert] at hp
    rcases hp with rfl | rfl | rfl | hp
    · exact .inr rfl
    · exact .inr rfl
    · exact .inr rfl
    · exact .inl hp
  isplitl [Hs]; · iexact Hs
  isplitl [Ht0e]; · iexact Ht0e
  isplitl [Ht1]; · iexact Ht1
  isplitl [Hw1]
  · iexists _, _; unfold gFl3; iexact Hw1
  isplitl [Hso0]
  · iexists o0, ((rowS2).view.writes (Elt F) fr0 [⟨Rect.whole S128x128, gRows d L s f2 (4 * k.val + 2)⟩])
    rw [← oFl2_congr (F := F) d L (off6_row L k ⟨2, by decide⟩) (k1_off6_inb L k 2) (outBlkRect_inb L (4 * k.val + 2) (by omega)) o0 (gRows d L s f2 (4 * k.val + 2)) ((rowS2).view.writes (Elt F) fr0 [⟨Rect.whole S128x128, gRows d L s f2 (4 * k.val + 2)⟩])]
    unfold oFl2
    iexact Hso0
  isplitl [Hi2]
  · iexists _; iexact Hi2
  isplitl [HG0]; · iexact HG0
  isplitl [HO1]; · iexact HO1
  isplitl [Hc1]; · iexact Hc1
  iexact Hbd

end Cert.Kernel.Tile

end
-- ==== Proof.BTileStepB.lean ====
/-
  The first three steps of the FIRST trip of the tile's main loop: nothing is on its way out of the next slot yet, so no
  copy-out is waited for; otherwise as in the other trips.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileVal
import proofs.«205025_g42520176230720_cont_8to1_b_1509_29_alg».proof.Proof.BTileVal2
import proofs.«205025_g42520176230720_cont_8to1_b_1509_29_alg».proof.Proof.BTileOff
import proofs.«205025_g42520176230720_cont_8to1_b_1509_29_alg».proof.Proof.BTileInv
import proofs.«205025_g42520176230720_cont_8to1_b_1509_29_alg».proof.Proof.BTilePEF
import proofs.«205025_g42520176230720_cont_8to1_b_1509_29_alg».proof.Proof.BTilePVal
import proofs.«205025_g42520176230720_cont_8to1_b_1509_29_alg».proof.Proof.BTileRVal
import proofs.«205025_g42520176230720_cont_8to1_b_1509_29_alg».proof.Proof.BTileFix
import proofs.«205025_g42520176230720_cont_8to1_b_1509_29_alg».proof.Proof.Gen.Kernel.Skeleton

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

omit [FloatOps F] in
theorem pts_absB {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

set_option maxHeartbeats 4000000 in
/-- Step 0 of a trip of the FIRST kind (nothing is on its way out of the next slot yet): block `4 * k.val + 1` is fetched,
    rewritten and its gather started, the gather of block `4 * k.val + 0` is waited for and its copy-out started. -/
theorem step0_B (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips)  (hk32 : k.val < 32) (hn1 : 4 * k.val + 1 < 128)
    (k1_h1 : ¬ k1_cond1 k = 1#1) (k1_h2 : k1_cond2 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 7} f2)
        ∗ ((tabW).view.loc (thr d L) ↦[Finset.univ \ (tabSl).view.set]{Transfers.shareTokN q2 6} f2)
        ∗ gFl0 d L q2 f2 fr0 gi0 (gRows d L s f2 (4 * k.val + 0))
        ∗ ((rowS1).view.loc (thr d L) ↦[(rowS1).view.set]{fullShare} C1)
        ∗ ((idxW).view.loc (thr d L) ↦[Finset.univ \ (idxS0).view.set]{fullShare} g)
        ∗ semVal (thr d L, SemLoc.dma (⟨7, by decide⟩ : DmaSem sig)) 0 ∗ semVal (thr d L, SemLoc.dma (⟨10, by decide⟩ : DmaSem sig)) 0 ∗ semVal (thr d L, SemLoc.dma (⟨15, by decide⟩ : DmaSem sig)) 0
        ∗ (((outW).slice (Rect.unit (s := S524288x128) (k1_off6 L k 0#32) S128x128.size (k1_off6_inb L k 0)) (fun _ => rfl)).view.loc (thr d L) ↦[((outW).slice (Rect.unit (s := S524288x128) (k1_off6 L k 0#32) S128x128.size (k1_off6_inb L k 0)) (fun _ => rfl)).view.set]{fullShare} o0))
      ⊢ wp frame (wpE (defs₀ (F := F)) 𝒱₀ (thr d L) none) Set.univ
          (k1_part1 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 0#32 1#32 k)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 6} f2)
            ∗ ((tabW).view.loc (thr d L) ↦[Finset.univ \ (tabSl).view.set]{Transfers.shareTokN q2 7} f2)
            ∗ (∃ fr gi, gFl1 d L q2 f2 fr gi (gRows d L s f2 (4 * k.val + 1)))
            ∗ (∃ fo C, oFl0 d L ![row0 L + 128 * (4 * k.val + 0), 0] (outBlkRect_inb L (4 * k.val + 0) (by omega)) fo (gRows d L s f2 (4 * k.val + 0)) C)
            ∗ (∃ g', (idxW).view.loc (thr d L) ↦[Finset.univ \ (idxS1).view.set]{fullShare} g')
            ∗ semVal (thr d L, SemLoc.dma (⟨6, by decide⟩ : DmaSem sig)) 0 ∗ semVal (thr d L, SemLoc.dma (⟨15, by decide⟩ : DmaSem sig)) 0) : sProp 𝕄) := by
  sl_unfold [k1_part1]
  unfold gFl0
  iintro ⟨#Hmw, HO, Hs, Ht1, Ht0e, HG0, HO1, Hi, Hw1, Hso0, Hc1, Hob0⟩
  sl_exec
  ihave Hi' := (pts_absB (F := F) _) $$ Hi
  icases Hi' with ⟨%g1, %hg1, Hi⟩
  sl_for (fun t (_ : PUnit) => (idxW).view.loc (thr d L) ↦[Finset.univ \ (idxS0).view.set]{fullShare} fixPre 1 t g1) $$ [Hi]
  case region => exact fun t acc => fix_region_t3 (F := F) d L v2 0#32 1#32 k k1_h2 g1 t acc
  · rw [fixPre_zero]; iexact Hi
  iintro %_ HI
  have hT : k1_t3_loop.trips = 8 := by decide
  have hfix1 : ∀ x : S128.Idx, View.read (Elt F) (idxS1).view (fixPre 1 k1_t3_loop.trips g1) x
      = fixIdx (s (srcRowIx (row0 L + 128 * (4 * k.val + 1) + (x 0).val))) := by
    intro x
    rw [hg1, idx_fixed (F := F) d L 1 _ _ hT]
    sl_unfold_run_names
    exact congrArg fixIdx (copy_payload (F := F) d L s (4 * k.val + 1) hn1 (k1_off4 L k) (off4_row L k) _ x)
  have hin1 : ∀ x, (View.read (Elt F) (idxS1).view (fixPre 1 k1_t3_loop.trips g1) x).toNat < S512000x128.size gathers_S512000x128_S128x128.axis :=
    gather_inrange (F := F) d L s hin 1 _ (4 * k.val + 1) hn1 _ hfix1
  sl_exec
  have eG : step0_B.sl.gather0 d L f2 g1 hin1 = gRows d L s f2 (4 * k.val + 1) := by
    sl_unfold_run_names
    exact gather_payload (F := F) d L s f2 hin 1 _ (4 * k.val + 1) hn1 _ hfix1 _ hin1
  have eD : step0_B.sl.dma0_1 d L s f2 k fr0 = gRows d L s f2 (4 * k.val + 0) := by
    sl_unfold_run_names
    exact copyout_payload (F := F) d L 0 _ fr0 _
  rw [eG, eD]
  sl_step
  ihave Hi2 := (idx_rejoin (F := F) d L 0 1 (by decide) _ _ _ _) $$ [HI HG0_dst_and]
  · isplitl [HI]
    · iexact HI
    · iexact HG0_dst_and
  iclear HO1
  iexists _
  isplitl [HO]; · iexact HO
  isplitr
  · ipureintro
    intro p hp
    simp only [Finset.mem_insert] at hp
    rcases hp with rfl | rfl | hp
    · exact .inr rfl
    · exact .inr rfl
    · exact .inl hp
  isplitl [Hs]; · iexact Hs
  isplitl [Ht0e]; · iexact Ht0e
  isplitl [Ht1]; · iexact Ht1
  isplitl [Hw1]
  · iexists _, _; unfold gFl1; iexact Hw1
  isplitl [Hso0]
  · iexists o0, ((rowS0).view.writes (Elt F) fr0 [⟨Rect.whole S128x128, gRows d L s f2 (4 * k.val + 0)⟩])
    rw [← oFl0_congr (F := F) d L (off6_row L k ⟨0, by decide⟩) (k1_off6_inb L k 0) (outBlkRect_inb L (4 * k.val + 0) (by omega)) o0 (gRows d L s f2 (4 * k.val + 0)) ((rowS0).view.writes (Elt F) fr0 [⟨Rect.whole S128x128, gRows d L s f2 (4 * k.val + 0)⟩])]
    unfold oFl0
    iexact Hso0
  isplitl [Hi2]
  · iexists _; iexact Hi2
  isplitl [HG0]; · iexact HG0
  iexact Hc1

set_option maxHeartbeats 4000000 in
/-- Step 1 of a trip of the FIRST kind (nothing is on its way out of the next slot yet): block `4 * k.val + 2` is fetched,
    rewritten and its gather started, the gather of block `4 * k.val + 1` is waited for and its copy-out started. -/
theorem step1_B (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 : BitVec 32) (k : Fin k1_t2_loop.trips)  (hk32 : k.val < 32) (hn1 : 4 * k.val + 2 < 128)
    (k1_h3 : ¬ k1_cond3 k = 1#1) (k1_h4 : k1_cond4 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 8} f2)
        ∗ ((tabW).view.loc (thr d L) ↦[Finset.univ \ (tabSl).view.set]{Transfers.shareTokN q2 7} f2)
        ∗ gFl1 d L q2 f2 fr0 gi0 (gRows d L s f2 (4 * k.val + 1))
        ∗ ((rowS2).view.loc (thr d L) ↦[(rowS2).view.set]{fullShare} C1)
        ∗ ((idxW).view.loc (thr d L) ↦[Finset.univ \ (idxS1).view.set]{fullShare} g)
        ∗ semVal (thr d L, SemLoc.dma (⟨8, by decide⟩ : DmaSem sig)) 0 ∗ semVal (thr d L, SemLoc.dma (⟨11, by decide⟩ : DmaSem sig)) 0 ∗ semVal (thr d L, SemLoc.dma (⟨16, by decide⟩ : DmaSem sig)) 0
        ∗ (((outW).slice (Rect.unit (s := S524288x128) (k1_off6 L k 1#32) S128x128.size (k1_off6_inb L k 1)) (fun _ => rfl)).view.loc (thr d L) ↦[((outW).slice (Rect.unit (s := S524288x128) (k1_off6 L k 1#32) S128x128.size (k1_off6_inb L k 1)) (fun _ => rfl)).view.set]{fullShare} o0))
      ⊢ wp frame (wpE (defs₀ (F := F)) 𝒱₀ (thr d L) none) Set.univ
          (k1_part2 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 7} f2)
            ∗ ((tabW).view.loc (thr d L) ↦[Finset.univ \ (tabSl).view.set]{Transfers.shareTokN q2 8} f2)
            ∗ (∃ fr gi, gFl2 d L q2 f2 fr gi (gRows d L s f2 (4 * k.val + 2)))
            ∗ (∃ fo C, oFl1 d L ![row0 L + 128 * (4 * k.val + 1), 0] (outBlkRect_inb L (4 * k.val + 1) (by omega)) fo (gRows d L s f2 (4 * k.val + 1)) C)
            ∗ (∃ g', (idxW).view.loc (thr d L) ↦[Finset.univ \ (idxS2).view.set]{fullShare} g')
            ∗ semVal (thr d L, SemLoc.dma (⟨7, by decide⟩ : DmaSem sig)) 0 ∗ semVal (thr d L, SemLoc.dma (⟨16, by decide⟩ : DmaSem sig)) 0) : sProp 𝕄) := by
  sl_unfold [k1_part2]
  unfold gFl1
  iintro ⟨#Hmw, HO, Hs, Ht1, Ht0e, HG0, HO1, Hi, Hw1, Hso0, Hc1, Hob0⟩
  sl_exec
  ihave Hi' := (pts_absB (F := F) _) $$ Hi
  icases Hi' with ⟨%g1, %hg1, Hi⟩
  sl_for (fun t (_ : PUnit) => (idxW).view.loc (thr d L) ↦[Finset.univ \ (idxS1).view.set]{fullShare} fixPre 2 t g1) $$ [Hi]
  case region => exact fun t acc => fix_region_t4 (F := F) d L v2 k arg9 k1_h4 g1 t acc
  · rw [fixPre_zero]; iexact Hi
  iintro %_ HI
  have hT : k1_t4_loop.trips = 8 := by decide
  have hfix1 : ∀ x : S128.Idx, View.read (Elt F) (idxS2).view (fixPre 2 k1_t4_loop.trips g1) x
      = fixIdx (s (srcRowIx (row0 L + 128 * (4 * k.val + 2) + (x 0).val))) := by
    intro x
    rw [hg1, idx_fixed (F := F) d L 2 _ _ hT]
    sl_unfold_run_names
    exact congrArg fixIdx (copy_payload (F := F) d L s (4 * k.val + 2) hn1 (k1_off8 L k) (off8_row L k) _ x)
  have hin1 : ∀ x, (View.read (Elt F) (idxS2).view (fixPre 2 k1_t4_loop.trips g1) x).toNat < S512000x128.size gathers_S512000x128_S128x128.axis :=
    gather_inrange (F := F) d L s hin 2 _ (4 * k.val + 2) hn1 _ hfix1
  sl_exec
  have eG : step1_B.sl.gather0 d L f2 g1 hin1 = gRows d L s f2 (4 * k.val + 2) := by
    sl_unfold_run_names
    exact gather_payload (F := F) d L s f2 hin 2 _ (4 * k.val + 2) hn1 _ hfix1 _ hin1
  have eD : step1_B.sl.dma0_1 d L s f2 k fr0 = gRows d L s f2 (4 * k.val + 1) := by
    sl_unfold_run_names
    exact copyout_payload (F := F) d L 1 _ fr0 _
  rw [eG, eD]
  sl_step
  ihave Hi2 := (idx_rejoin (F := F) d L 1 2 (by decide) _ _ _ _) $$ [HI HG0_dst_and]
  · isplitl [HI]
    · iexact HI
    · iexact HG0_dst_and
  iclear HO1
  iexists _
  isplitl [HO]; · iexact HO
  isplitr
  · ipureintro
    intro p hp
    simp only [Finset.mem_insert] at hp
    rcases hp with rfl | rfl | hp
    · exact .inr rfl
    · exact .inr rfl
    · exact .inl hp
  isplitl [Hs]; · iexact Hs
  isplitl [Ht0e]; · iexact Ht0e
  isplitl [Ht1]; · iexact Ht1
  isplitl [Hw1]
  · iexists _, _; unfold gFl2; iexact Hw1
  isplitl [Hso0]
  · iexists o0, ((rowS1).view.writes (Elt F) fr0 [⟨Rect.whole S128x128, gRows d L s f2 (4 * k.val + 1)⟩])
    rw [← oFl1_congr (F := F) d L (off6_row L k ⟨1, by decide⟩) (k1_off6_inb L k 1) (outBlkRect_inb L (4 * k.val + 1) (by omega)) o0 (gRows d L s f2 (4 * k.val + 1)) ((rowS1).view.writes (Elt F) fr0 [⟨Rect.whole S128x128, gRows d L s f2 (4 * k.val + 1)⟩])]
    unfold oFl1
    iexact Hso0
  isplitl [Hi2]
  · iexists _; iexact Hi2
  isplitl [HG0]; · iexact HG0
  iexact Hc1

set_option maxHeartbeats 4000000 in
/-- Step 2 of a trip of the FIRST kind (nothing is on its way out of the next slot yet): block `4 * k.val + 3` is fetched,
    rewritten and its gather started, the gather of block `4 * k.val + 2` is waited for and its copy-out started. -/
theorem step2_B (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 arg9 c4 : BitVec 32) (k : Fin k1_t2_loop.trips)  (hk32 : k.val < 32) (hn1 : 4 * k.val + 3 < 128)
    (k1_h5 : ¬ k1_cond5 k = 1#1) (k1_h6 : k1_cond6 k = 1#1)
    (g gi0 : Buf (Elt F) ((thr d L).loc cc1_scratch0)) (fr0 C1 : Buf (Elt F) ((thr d L).loc cc1_scratch1))
    (fo1 o0 : Buf (Elt F) (aLoc d main_v3))
    (O : CellTallies nD τ sig (HIx 1)) (W : Waits sig (HIx 1)) :
    iprop(Transfers.MayWaits (thr d L) (none : HIx 1) O
        ∗ owes (thr d L) O W
        ∗ ((srcW).view.loc (thr d L) ↦{q0} s)
        ∗ ((tabW).view.loc (thr d L) ↦{Transfers.shareTokN q2 9} f2)
        ∗ ((tabW).view.loc (thr d L) ↦[Finset.univ \ (tabSl).view.set]{Transfers.shareTokN q2 8} f2)
        ∗ gFl2 d L q2 f2 fr0 gi0 (gRows d L s f2 (4 * k.val + 2))
        ∗ ((rowS3).view.loc (thr d L) ↦[(rowS3).view.set]{fullShare} C1)
        ∗ ((idxW).view.loc (thr d L) ↦[Finset.univ \ (idxS2).view.set]{fullShare} g)
        ∗ semVal (thr d L, SemLoc.dma (⟨9, by decide⟩ : DmaSem sig)) 0 ∗ semVal (thr d L, SemLoc.dma (⟨12, by decide⟩ : DmaSem sig)) 0 ∗ semVal (thr d L, SemLoc.dma (⟨17, by decide⟩ : DmaSem sig)) 0
        ∗ (((outW).slice (Rect.unit (s := S524288x128) (k1_off6 L k 2#32) S128x128.size (k1_off6_inb L k 2)) (fun _ => rfl)).view.loc (thr d L) ↦[((outW).slice (Rect.unit (s := S524288x128) (k1_off6 L k 2#32) S128x128.size (k1_off6_inb L k 2)) (fun _ => rfl)).view.set]{fullShare} o0))
      ⊢ wp frame (wpE (defs₀ (F := F)) 𝒱₀ (thr d L) none) Set.univ
          (k1_part3 L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k arg9 c4)
          fun _ => (iprop(∃ W', owes (thr d L) O W' ∗ ⌜∀ p ∈ W', p ∈ W ∨ p.2 = none⌝
            ∗ ((srcW).view.loc (thr d L) ↦{q0} s)
            ∗ ((tabW).view.loc (thr d L) ↦{Transfers.shareTokN q2 8} f2)
            ∗ ((tabW).view.loc (thr d L) ↦[Finset.univ \ (tabSl).view.set]{Transfers.shareTokN q2 9} f2)
            ∗ (∃ fr gi, gFl3 d L q2 f2 fr gi (gRows d L s f2 (4 * k.val + 3)))
            ∗ (∃ fo C, oFl2 d L ![row0 L + 128 * (4 * k.val + 2), 0] (outBlkRect_inb L (4 * k.val + 2) (by omega)) fo (gRows d L s f2 (4 * k.val + 2)) C)
            ∗ (∃ g', (idxW).view.loc (thr d L) ↦[Finset.univ \ (idxS3).view.set]{fullShare} g')
            ∗ semVal (thr d L, SemLoc.dma (⟨8, by decide⟩ : DmaSem sig)) 0 ∗ semVal (thr d L, SemLoc.dma (⟨17, by decide⟩ : DmaSem sig)) 0) : sProp 𝕄) := by
  sl_unfold [k1_part3]
  unfold gFl2
  iintro ⟨#Hmw, HO, Hs, Ht1, Ht0e, HG0, HO1, Hi, Hw1, Hso0, Hc1, Hob0⟩
  sl_exec
  ihave Hi' := (pts_absB (F := F) _) $$ Hi
  icases Hi' with ⟨%g1, %hg1, Hi⟩
  sl_for (fun t (_ : PUnit) => (idxW).view.loc (thr d L) ↦[Finset.univ \ (idxS2).view.set]{fullShare} fixPre 3 t g1) $$ [Hi]
  case region => exact fun t acc => fix_region_t5 (F := F) d L v2 k arg9 c4 k1_h6 g1 t acc
  · rw [fixPre_zero]; iexact Hi
  iintro %_ HI
  have hT : k1_t5_loop.trips = 8 := by decide
  have hfix1 : ∀ x : S128.Idx, View.read (Elt F) (idxS3).view (fixPre 3 k1_t5_loop.trips g1) x
      = fixIdx (s (srcRowIx (row0 L + 128 * (4 * k.val + 3) + (x 0).val))) := by
    intro x
    rw [hg1, idx_fixed (F := F) d L 3 _ _ hT]
    sl_unfold_run_names
    exact congrArg fixIdx (copy_payload (F := F) d L s (4 * k.val + 3) hn1 (k1_off11 L k) (off11_row L k) _ x)
  have hin1 : ∀ x, (View.read (Elt F) (idxS3).view (fixPre 3 k1_t5_loop.trips g1) x).toNat < S512000x128.size gathers_S512000x128_S128x128.axis :=
    gather_inrange (F := F) d L s hin 3 _ (4 * k.val + 3) hn1 _ hfix1
  sl_exec
  have eG : step2_B.sl.gather0 d L f2 g1 hin1 = gRows d L s f2 (4 * k.val + 3) := by
    sl_unfold_run_names
    exact gather_payload (F := F) d L s f2 hin 3 _ (4 * k.val + 3) hn1 _ hfix1 _ hin1
  have eD : step2_B.sl.dma0_1 d L s f2 k fr0 = gRows d L s f2 (4 * k.val + 2) := by
    sl_unfold_run_names
    exact copyout_payload (F := F) d L 2 _ fr0 _
  rw [eG, eD]
  sl_step
  ihave Hi2 := (idx_rejoin (F := F) d L 2 3 (by decide) _ _ _ _) $$ [HI HG0_dst_and]
  · isplitl [HI]
    · iexact HI
    · iexact HG0_dst_and
  iclear HO1
  iexists _
  isplitl [HO]; · iexact HO
  isplitr
  · ipureintro
    intro p hp
    simp only [Finset.mem_insert] at hp
    rcases hp with rfl | rfl | hp
    · exact .inr rfl
    · exact .inr rfl
    · exact .inl hp
  isplitl [Hs]; · iexact Hs
  isplitl [Ht0e]; · iexact Ht0e
  isplitl [Ht1]; · iexact Ht1
  isplitl [Hw1]
  · iexists _, _; unfold gFl3; iexact Hw1
  isplitl [Hso0]
  · iexists o0, ((rowS2).view.writes (Elt F) fr0 [⟨Rect.whole S128x128, gRows d L s f2 (4 * k.val + 2)⟩])
    rw [← oFl2_congr (F := F) d L (off6_row L k ⟨2, by decide⟩) (k1_off6_inb L k 2) (outBlkRect_inb L (4 * k.val + 2) (by omega)) o0 (gRows d L s f2 (4 * k.val + 2)) ((rowS2).view.writes (Elt F) fr0 [⟨Rect.whole S128x128, gRows d L s f2 (4 * k.val + 2)⟩])]
    unfold oFl2
    iexact Hso0
  isplitl [Hi2]
  · iexists _; iexact Hi2
  isplitl [HG0]; · iexact HG0
  iexact Hc1

end Cert.Kernel.Tile

end
-- ==== Proof.BTileRPack.lean ====
/-
  The resources one trip of the tile's main loop leaves, listed one by one in the spellings its steps produce, are the
  state between two trips at the next trip (and, after the last trip, the state after the loop): the same atoms, regrouped,
  with the blocks' numbers rewritten by arithmetic.
-/
import proofs.«205025_g42520176230720_cont_8to1_b_1509_29_alg».proof.Proof.BTileInv
import proofs.«205025_g42520176230720_cont_8to1_b_1509_29_alg».proof.Proof.BTilePInv

noncomputable section

namespace Cert.Kernel.Tile

open Cert.Kernel Cert.Kernel.Gen Cert.Kernel.Base
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

section
variable (d : Dev nD) (L : grid1.Coords) (q0 q2 : PosShare TreeShare) (s : Buf (Elt F) (aLoc d main_v0)) (f2 : Buf (Elt F) (aLoc d main_v2))
  (O : CellTallies nD τ sig (HIx 1)) (W : Waits sig (HIx 1))

/-- The resources a middle trip leaves, with the block numbers given up to equations, are the invariant before trip `K`. -/
theorem repack_mid_aux (K : Nat) (hK1 : 1 ≤ K) (hK : K < 32) (n0 n1 n2 n3 : Nat) (e0 : n0 = 4 * K) (e1 : n1 = 4 * K - 3) (e2 : n2 = 4 * K - 2)
    (e3 : n3 = 4 * K - 1) (h1 : n1 < 128) (h2 : n2 < 128) (h3 : n3 < 128) :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
        ∗ (∃ fr gi, gFl0 d L q2 f2 fr gi (gRows d L s f2 n0))
        ∗ (∃ g, (idxW).view.loc (thr d L) ↦[Finset.univ \ (idxS0).view.set]{fullShare} g)
        ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ semVal (thr d L, SemLoc.dma (⟨10, by decide⟩ : DmaSem sig)) 0
        ∗ (∃ fo C, oFl1 d L ![row0 L + 128 * n1, 0] (outBlkRect_inb L n1 h1) fo (gRows d L s f2 n1) C)
        ∗ (∃ fo C, oFl2 d L ![row0 L + 128 * n2, 0] (outBlkRect_inb L n2 h2) fo (gRows d L s f2 n2) C)
        ∗ (∃ fo C, oFl3 d L ![row0 L + 128 * n3, 0] (outBlkRect_inb L n3 h3) fo (gRows d L s f2 n3) C)
        ∗ outSt d L s f2 (4 * K - 3) (4 * K))
      ⊢ (tileInv d L q0 q2 s f2 O W K : sProp 𝕄) := by
  subst e0 e1 e2 e3
  rw [tileInv_mid d L q0 q2 s f2 O W K hK1 hK]
  iintro ⟨A1, A2, A3, A4, A5, A6, A7, G1, G2, G3, G4, G5, G6, G7, G8, G9, C1, C2, C3, C4, HO⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [G1 G2 G3 G4 G5 G6 G7 G8 G9]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9
  isplitl [C1 C2 C3 C4]
  · isplitl [C1]; · iexact C1
    isplitl [C2]; · iexact C2
    isplitl [C3]; · iexact C3
    iexact C4
  iexact HO

/-- The resources the last trip leaves, with the block numbers given up to equations, are the invariant after the loop. -/
theorem repack_last_aux (n0 n1 n2 n3 : Nat) (e0 : n0 = 124) (e1 : n1 = 125) (e2 : n2 = 126) (e3 : n3 = 127)
    (h0 : n0 < 128) (h1 : n1 < 128) (h2 : n2 < 128) (h3 : n3 < 128) :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
        ∗ (∃ g, (idxW).view.loc (thr d L) ↦{fullShare} g)
        ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ (∃ fo C, oFl0 d L ![row0 L + 128 * n0, 0] (outBlkRect_inb L n0 h0) fo (gRows d L s f2 n0) C)
        ∗ (∃ fo C, oFl1 d L ![row0 L + 128 * n1, 0] (outBlkRect_inb L n1 h1) fo (gRows d L s f2 n1) C)
        ∗ (∃ fo C, oFl2 d L ![row0 L + 128 * n2, 0] (outBlkRect_inb L n2 h2) fo (gRows d L s f2 n2) C)
        ∗ (∃ fo C, oFl3 d L ![row0 L + 128 * n3, 0] (outBlkRect_inb L n3 h3) fo (gRows d L s f2 n3) C)
        ∗ outSt d L s f2 124 128)
      ⊢ (tileInv d L q0 q2 s f2 O W 32 : sProp 𝕄) := by
  subst e0 e1 e2 e3
  rw [tileInv_last d L q0 q2 s f2 O W]
  iintro ⟨A1, A2, A3, A4, A5, A6, A7, G1, G2, G3, G4, G5, G6, G7, G8, G9, C1, C2, C3, C4, HO⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [G1 G2 G3 G4 G5 G6 G7 G8 G9]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9
  isplitl [C1 C2 C3 C4]
  · isplitl [C1]; · iexact C1
    isplitl [C2]; · iexact C2
    isplitl [C3]; · iexact C3
    iexact C4
  iexact HO

theorem repack_mid (k : Nat) (hk30 : k ≤ 30) :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2) ∗ ((tabW).view.loc (thr d L) ↦[Finset.univ \ (tabSl).view.set]{Transfers.shareTokN q2 6} f2)
        ∗ (∃ fr gi, gFl0 d L q2 f2 fr gi (gRows d L s f2 (4 * k + 4)))
        ∗ (∃ g, (idxW).view.loc (thr d L) ↦[Finset.univ \ (idxS0).view.set]{fullShare} g)
        ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ semVal (thr d L, SemLoc.dma (⟨10, by decide⟩ : DmaSem sig)) 0
        ∗ (∃ fo C, oFl1 d L ![row0 L + 128 * (4 * k + 1), 0] (outBlkRect_inb L (4 * k + 1) (by omega)) fo (gRows d L s f2 (4 * k + 1)) C)
        ∗ (∃ fo C, oFl2 d L ![row0 L + 128 * (4 * k + 2), 0] (outBlkRect_inb L (4 * k + 2) (by omega)) fo (gRows d L s f2 (4 * k + 2)) C)
        ∗ (∃ fo C, oFl3 d L ![row0 L + 128 * (4 * k + 3), 0] (outBlkRect_inb L (4 * k + 3) (by omega)) fo (gRows d L s f2 (4 * k + 3)) C)
        ∗ outSt d L s f2 (4 * (k + 1) - 3) (4 * (k + 1)))
      ⊢ (tileInv d L q0 q2 s f2 O W (k + 1) : sProp 𝕄) :=
  repack_mid_aux d L q0 q2 s f2 O W (k + 1) (by omega) (by omega) (4 * k + 4) (4 * k + 1) (4 * k + 2) (4 * k + 3)
    (by omega) (by omega) (by omega) (by omega) (by omega) (by omega) (by omega)

theorem repack_last :
    iprop(Transfers.MayWaits (thr d L) (none : HIx 1) O
        ∗ (∃ W', ⌜∀ p ∈ W', p ∈ W ∨ p.2 = none⌝ ∗ owes (thr d L) O W')
        ∗ ((srcW).view.loc (thr d L) ↦{q0} s)
        ∗ semVal (thr d L, SemLoc.dma (⟨15, by decide⟩ : DmaSem sig)) 0 ∗ semVal (thr d L, SemLoc.dma (⟨16, by decide⟩ : DmaSem sig)) 0 ∗ semVal (thr d L, SemLoc.dma (⟨17, by decide⟩ : DmaSem sig)) 0 ∗ semVal (thr d L, SemLoc.dma (⟨18, by decide⟩ : DmaSem sig)) 0
        ∗ ((tabW).view.loc (thr d L) ↦{Transfers.shareTokN q2 6} f2) ∗ ((tabW).view.loc (thr d L) ↦{Transfers.shareTokN q2 7} f2) ∗ ((tabW).view.loc (thr d L) ↦{Transfers.shareTokN q2 8} f2) ∗ ((tabW).view.loc (thr d L) ↦{Transfers.shareTokN q2 9} f2)
        ∗ (∃ g, (idxW).view.loc (thr d L) ↦{fullShare} g)
        ∗ semVal (thr d L, SemLoc.dma (⟨6, by decide⟩ : DmaSem sig)) 0 ∗ semVal (thr d L, SemLoc.dma (⟨7, by decide⟩ : DmaSem sig)) 0 ∗ semVal (thr d L, SemLoc.dma (⟨8, by decide⟩ : DmaSem sig)) 0 ∗ semVal (thr d L, SemLoc.dma (⟨9, by decide⟩ : DmaSem sig)) 0
        ∗ (∃ fo C, oFl0 d L ![row0 L + 128 * (4 * 31 + 0), 0] (outBlkRect_inb L (4 * 31 + 0) (by omega)) fo (gRows d L s f2 (4 * 31 + 0)) C)
        ∗ (∃ fo C, oFl1 d L ![row0 L + 128 * (4 * 31 + 1), 0] (outBlkRect_inb L (4 * 31 + 1) (by omega)) fo (gRows d L s f2 (4 * 31 + 1)) C)
        ∗ (∃ fo C, oFl2 d L ![row0 L + 128 * (4 * 31 + 2), 0] (outBlkRect_inb L (4 * 31 + 2) (by omega)) fo (gRows d L s f2 (4 * 31 + 2)) C)
        ∗ (∃ fo C, oFl3 d L ![row0 L + 128 * (4 * 31 + 3), 0] (outBlkRect_inb L (4 * 31 + 3) (by omega)) fo (gRows d L s f2 (4 * 31 + 3)) C)
        ∗ outSt d L s f2 124 128)
      ⊢ (tileInv d L q0 q2 s f2 O W 32 : sProp 𝕄) :=
  repack_last_aux d L q0 q2 s f2 O W (4 * 31 + 0) (4 * 31 + 1) (4 * 31 + 2) (4 * 31 + 3) rfl rfl rfl rfl
    (by omega) (by omega) (by omega) (by omega)

end

end Cert.Kernel.Tile

end
-- ==== Proof.BTileTripFirst.lean ====
/-
  The first trip of the tile's main loop establishes the state before the second: nothing is yet on its way out of
  slots 1 to 3, so its first three steps wait for no copy-out; its last step waits for the copy-out its first step started.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileVal
import proofs.«205025_g42520176230720_cont_8to1_b_1509_29_alg».proof.Proof.BTileVal2
import proofs.«205025_g42520176230720_cont_8to1_b_1509_29_alg».proof.Proof.BTileOff
import proofs.«205025_g42520176230720_cont_8to1_b_1509_29_alg».proof.Proof.BTileInv
import proofs.«205025_g42520176230720_cont_8to1_b_1509_29_alg».proof.Proof.BTilePEF
import proofs.«205025_g42520176230720_cont_8to1_b_1509_29_alg».proof.Proof.BTilePVal
import proofs.«205025_g42520176230720_cont_8to1_b_1509_29_alg».proof.Proof.BTileRVal
import proofs.«205025_g42520176230720_cont_8to1_b_1509_29_alg».proof.Proof.BTileFix
import proofs.«205025_g42520176230720_cont_8to1_b_1509_29_alg».proof.Proof.BTilePInv
import proofs.«205025_g42520176230720_cont_8to1_b_1509_29_alg».proof.Proof.BTileStepA
import proofs.«205025_g42520176230720_cont_8to1_b_1509_29_alg».proof.Proof.BTileStepB
import proofs.«205025_g42520176230720_cont_8to1_b_1509_29_alg».proof.Proof.BTileROut
import proofs.«205025_g42520176230720_cont_8to1_b_1509_29_alg».proof.Proof.BTileROut4
import proofs.«205025_g42520176230720_cont_8to1_b_1509_29_alg».proof.Proof.BTilePConds
import proofs.«205025_g42520176230720_cont_8to1_b_1509_29_alg».proof.Proof.BTileRPack
import proofs.«205025_g42520176230720_cont_8to1_b_1509_29_alg».proof.Proof.Gen.Kernel.Skeleton

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

set_option maxHeartbeats 8000000 in
/-- The first trip of the main loop takes the state before it to the state before the second. -/
theorem trip_first (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk0 : k.val = 0)
    (O : CellTallies nD τ sig (HIx 1)) (W : Waits sig (HIx 1)) (acc : Unit) :
    (tileInv d L q0 q2 s f2 O W k.val : sProp 𝕄)
      ⊢ wp frame (wpE (defs₀ (F := F)) 𝒱₀ (thr d L) none) Set.univ
          (k1_t2_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k acc)
          fun _ => tileInv d L q0 q2 s f2 O W (k.val + 1) := by
  obtain ⟨k1_h1, k1_h2, k1_h3, k1_h4, k1_h5, k1_h6, k1_h7, k1_h8⟩ := conds_first k hk0
  have hk32 : k.val < 32 := by omega
  have hk30 : k.val ≤ 30 := by omega
  have hpre : (tileInv d L q0 q2 s f2 O W k.val : sProp 𝕄) = tileInv d L q0 q2 s f2 O W 0 := by rw [hk0]
  rw [hpre, tileInv_zero (F := F) d L q0 q2 s f2 O W,
    show (gRows d L s f2 (4 * 0) : S128x128.Idx → Elt F .f32) = gRows d L s f2 (4 * k.val + 0) from by rw [hk0],
    show (outSt d L s f2 0 0 : sProp 𝕄) = outSt d L s f2 0 (4 * k.val) from by rw [hk0]]
  sl_unfold [k1_t2_body, k1_part4]
  iintro ⟨#Hmw, ⟨%W0, %hW0, HO⟩, Hs, Hc15, Hc16, Hc17, Hc18, ⟨Ht7, Ht8, Ht9, Ht6e, ⟨%fr0, %gi0, HG0⟩, ⟨%g, Hi⟩, Hw7, Hw8, Hw9⟩, ⟨⟨%C1, HO1⟩, ⟨%C2, HO2⟩, ⟨%C3, HO3⟩, Hso10, Hso11, Hso12, Hso13⟩, Hout⟩
  ihave Hc4 := (out_carve4 (F := F) d L s f2 k hk32 0 (by omega)) $$ Hout
  icases Hc4 with ⟨Hout, ⟨%o0, Hob0⟩, ⟨%o1, Hob1⟩, ⟨%o2, Hob2⟩, ⟨%o3, Hob3⟩⟩
  sl_rw [Prog.bind_assoc]
  -- step 0
  rw [wp_bind]
  iapply (wp_wand_r Idealize.ShloMosaic.frame (wpE (defs₀ (F := F)) 𝒱₀ (thr d L) none) Set.univ)
  isplitl [HO Hs Ht7 Ht6e HG0 HO1 Hi Hw7 Hso10 Hc15 Hob0]
  · iapply (step0_B (F := F) d L q0 q2 s f2 hin v2 k hk32 (by omega) k1_h1 k1_h2 g gi0 fr0 C1 o0 o0 O W0)
    isplitr; · iexact Hmw
    isplitl [HO]; · iexact HO
    isplitl [Hs]; · iexact Hs
    isplitl [Ht7]; · iexact Ht7
    isplitl [Ht6e]; · iexact Ht6e
    isplitl [HG0]; · iexact HG0
    isplitl [HO1]; · iexact HO1
    isplitl [Hi]; · iexact Hi
    isplitl [Hw7]; · iexact Hw7
    isplitl [Hso10]; · iexact Hso10
    isplitl [Hc15]; · iexact Hc15
    iexact Hob0
  iintro %arg9 ⟨%W1, HO, %hW1, Hs, Ht6, Ht7e, ⟨%fr1, %gi1, HG1⟩, ⟨%fn0, %Cn0, HN0⟩, ⟨%g1, Hi⟩, Hw6, Hc15⟩
  -- step 1
  beta_reduce
  sl_rw [Prog.bind_assoc]
  rw [wp_bind]
  iapply (wp_wand_r Idealize.ShloMosaic.frame (wpE (defs₀ (F := F)) 𝒱₀ (thr d L) none) Set.univ)
  isplitl [HO Hs Ht8 Ht7e HG1 HO2 Hi Hw8 Hso11 Hc16 Hob1]
  · iapply (step1_B (F := F) d L q0 q2 s f2 hin v2 arg9 k hk32 (by omega) k1_h3 k1_h4 g1 gi1 fr1 C2 o1 o1 O W1)
    isplitr; · iexact Hmw
    isplitl [HO]; · iexact HO
    isplitl [Hs]; · iexact Hs
    isplitl [Ht8]; · iexact Ht8
    isplitl [Ht7e]; · iexact Ht7e
    isplitl [HG1]; · iexact HG1
    isplitl [HO2]; · iexact HO2
    isplitl [Hi]; · iexact Hi
    isplitl [Hw8]; · iexact Hw8
    isplitl [Hso11]; · iexact Hso11
    isplitl [Hc16]; · iexact Hc16
    iexact Hob1
  iintro %c4 ⟨%W2, HO, %hW2, Hs, Ht7, Ht8e, ⟨%fr2, %gi2, HG2⟩, ⟨%fn1, %Cn1, HN1⟩, ⟨%g2, Hi⟩, Hw7, Hc16⟩
  -- step 2
  beta_reduce
  sl_rw [Prog.bind_assoc]
  rw [wp_bind]
  iapply (wp_wand_r Idealize.ShloMosaic.frame (wpE (defs₀ (F := F)) 𝒱₀ (thr d L) none) Set.univ)
  isplitl [HO Hs Ht9 Ht8e HG2 HO3 Hi Hw9 Hso12 Hc17 Hob2]
  · iapply (step2_B (F := F) d L q0 q2 s f2 hin v2 arg9 c4 k hk32 (by omega) k1_h5 k1_h6 g2 gi2 fr2 C3 o2 o2 O W2)
    isplitr; · iexact Hmw
    isplitl [HO]; · iexact HO
    isplitl [Hs]; · iexact Hs
    isplitl [Ht9]; · iexact Ht9
    isplitl [Ht8e]; · iexact Ht8e
    isplitl [HG2]; · iexact HG2
    isplitl [HO3]; · iexact HO3
    isplitl [Hi]; · iexact Hi
    isplitl [Hw9]; · iexact Hw9
    isplitl [Hso12]; · iexact Hso12
    isplitl [Hc17]; · iexact Hc17
    iexact Hob2
  iintro %v136 ⟨%W3, HO, %hW3, Hs, Ht8, Ht9e, ⟨%fr3, %gi3, HG3⟩, ⟨%fn2, %Cn2, HN2⟩, ⟨%g3, Hi⟩, Hw8, Hc17⟩
  -- step 3: the part's own tail
  beta_reduce
  unfold gFl3 oFl0
  sl_exec
  ihave Hi' := (pts_abs (F := F) _) $$ Hi
  icases Hi' with ⟨%g4, %hg4, Hi⟩
  repeat sl_rw [Prog.bind_assoc]
  sl_for (fun t (_ : PUnit) => (idxW).view.loc (thr d L) ↦[Finset.univ \ (idxS3).view.set]{fullShare} fixPre 0 t g4) $$ [Hi]
  case region => exact fun t acc => fix_region_t6 (F := F) d L v2 0#32 1#32 k k1_h8 g4 t acc
  · rw [fixPre_zero]; iexact Hi
  iintro %_ HI
  have hT : k1_t6_loop.trips = 8 := by decide
  have hfix4 : ∀ x : S128.Idx, View.read (Elt F) (idxS0).view (fixPre 0 k1_t6_loop.trips g4) x
      = fixIdx (s (srcRowIx (row0 L + 128 * (4 * k.val + 4) + (x 0).val))) := by
    intro x
    rw [hg4, idx_fixed (F := F) d L 0 _ _ hT]
    sl_unfold_run_names
    exact congrArg fixIdx (copy_payload (F := F) d L s (4 * k.val + 4) (by omega) (k1_off14 L k) (off14_row L k) _ x)
  have hin4 : ∀ x, (View.read (Elt F) (idxS0).view (fixPre 0 k1_t6_loop.trips g4) x).toNat < S512000x128.size gathers_S512000x128_S128x128.axis :=
    gather_inrange (F := F) d L s hin 0 _ (4 * k.val + 4) (by omega) _ hfix4
  sl_exec
  have eG : trip_first.sl.gather0 d L f2 g4 hin4 = gRows d L s f2 (4 * k.val + 4) := by
    sl_unfold_run_names
    exact gather_payload (F := F) d L s f2 hin 0 _ (4 * k.val + 4) (by omega) _ hfix4 _ hin4
  have eD : trip_first.sl.dma0_1 d L s f2 k fr3 = gRows d L s f2 (4 * k.val + 3) := by
    sl_unfold_run_names
    exact copyout_payload (F := F) d L 3 _ fr3 _
  rw [eG, eD]
  sl_step
  have e43 : 4 * k.val + 0 = 4 * k.val + 3 - 3 := by omega
  have hb43 : 4 * k.val + 0 < 128 := by omega
  have eBd3 := (block_done (F := F) d L s f2 (4 * k.val + 0) hb43 _ rfl (outBlkRect_inb L (4 * k.val + 0) hb43) fn0).trans
      (congrArg (fun n => (aLoc d main_v3 ↦[outBlk L n]{fullShare} gath d s f2 : sProp 𝕄)) e43)
  ihave Hbd3 := (Entails.of_eq eBd3) $$ HN0_dst
  ihave Hi2 := (idx_rejoin (F := F) d L 3 0 (by decide) _ _ _ _) $$ [HI HG3_dst_and]
  · isplitl [HI]
    · iexact HI
    · iexact HG3_dst_and
  iclear HN0_src
  have eo1 : (outSt d L s f2 0 (4 * (k.val + 1)) : sProp 𝕄) = outSt d L s f2 0 4 := by rw [hk0]
  have eo2 : (outSt d L s f2 1 4 : sProp 𝕄) = outSt d L s f2 (4 * (k.val + 1) - 3) (4 * (k.val + 1)) := by rw [hk0]
  ihave Hout' := (Entails.of_eq eo1) $$ Hout
  ihave Hout1 := (out_putback1 (F := F) d L s f2 k hk0) $$ [Hout' Hbd3]
  · isplitl [Hout']; · iexact Hout'
    iexact Hbd3
  ihave Hout2 := (Entails.of_eq eo2) $$ Hout1
  iapply (repack_mid (F := F) d L q0 q2 s f2 O W k.val hk30)
  isplitr; · iexact Hmw
  isplitl [HO]
  · iexists (insert (SemLoc.dma (⟨9, by decide⟩ : DmaSem sig), (default : HIx 1)) (insert (SemLoc.dma (⟨18, by decide⟩ : DmaSem sig), (default : HIx 1)) (insert (SemLoc.dma (⟨10, by decide⟩ : DmaSem sig), (default : HIx 1)) W3)))
    isplitr
    · ipureintro
      refine waits_trans (W₁ := W3) ?_ (waits_trans hW3 (waits_trans hW2 (waits_trans hW1 hW0)))
      intro p hp
      simp only [Finset.mem_insert] at hp
      rcases hp with rfl | rfl | rfl | hp
      · exact .inr rfl
      · exact .inr rfl
      · exact .inr rfl
      · exact .inl hp
    · iexact HO
  isplitl [Hs]; · iexact Hs
  isplitl [Hc15]; · iexact Hc15
  isplitl [Hc16]; · iexact Hc16
  isplitl [Hc17]; · iexact Hc17
  isplitl [Hc18]; · iexact Hc18
  isplitl [Ht7]; · iexact Ht7
  isplitl [Ht8]; · iexact Ht8
  isplitl [Ht9e]; · iexact Ht9e
  isplitl [Ht6]; · iexact Ht6
  isplitl [Hw6]
  · iexists _, _; unfold gFl0; iexact Hw6
  isplitl [Hi2]
  · iexists _; iexact Hi2
  isplitl [Hw7]; · iexact Hw7
  isplitl [Hw8]; · iexact Hw8
  isplitl [HG3]; · iexact HG3
  isplitl [HN0]; · iexact HN0
  isplitl [HN1]
  · iexists _, _; iexact HN1
  isplitl [HN2]
  · iexists _, _; iexact HN2
  isplitl [Hso13]
  · iexists o3, ((rowS3).view.writes (Elt F) fr3 [⟨Rect.whole S128x128, gRows d L s f2 (4 * k.val + 3)⟩])
    rw [← oFl3_congr (F := F) d L (off6_row L k ⟨3, by decide⟩) (k1_off6_inb L k 3) (outBlkRect_inb L (4 * k.val + 3) (by omega)) o3 (gRows d L s f2 (4 * k.val + 3)) ((rowS3).view.writes (Elt F) fr3 [⟨Rect.whole S128x128, gRows d L s f2 (4 * k.val + 3)⟩])]
    unfold oFl3
    iexact Hso13
  iexact Hout2

end Cert.Kernel.Tile

end
-- ==== Proof.BTileTripMid.lean ====
/-
  A middle trip of the tile's main loop keeps the loop's invariant: its first three steps are the three printed parts'
  lemmas applied in sequence, its fourth the region's own tail run in place; then the four finished blocks rejoin the
  rows held and the state is the invariant one trip on.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileVal
import proofs.«205025_g42520176230720_cont_8to1_b_1509_29_alg».proof.Proof.BTileVal2
import proofs.«205025_g42520176230720_cont_8to1_b_1509_29_alg».proof.Proof.BTileOff
import proofs.«205025_g42520176230720_cont_8to1_b_1509_29_alg».proof.Proof.BTileInv
import proofs.«205025_g42520176230720_cont_8to1_b_1509_29_alg».proof.Proof.BTilePEF
import proofs.«205025_g42520176230720_cont_8to1_b_1509_29_alg».proof.Proof.BTilePVal
import proofs.«205025_g42520176230720_cont_8to1_b_1509_29_alg».proof.Proof.BTileRVal
import proofs.«205025_g42520176230720_cont_8to1_b_1509_29_alg».proof.Proof.BTileFix
import proofs.«205025_g42520176230720_cont_8to1_b_1509_29_alg».proof.Proof.BTilePInv
import proofs.«205025_g42520176230720_cont_8to1_b_1509_29_alg».proof.Proof.BTileStepA
import proofs.«205025_g42520176230720_cont_8to1_b_1509_29_alg».proof.Proof.BTileROut
import proofs.«205025_g42520176230720_cont_8to1_b_1509_29_alg».proof.Proof.BTileROut4
import proofs.«205025_g42520176230720_cont_8to1_b_1509_29_alg».proof.Proof.BTilePConds
import proofs.«205025_g42520176230720_cont_8to1_b_1509_29_alg».proof.Proof.BTileRPack
import proofs.«205025_g42520176230720_cont_8to1_b_1509_29_alg».proof.Proof.Gen.Kernel.Skeleton

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

set_option maxHeartbeats 8000000 in
/-- A middle trip of the main loop keeps the invariant. -/
theorem trip_mid (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk1 : 1 ≤ k.val) (hk30 : k.val ≤ 30)
    (O : CellTallies nD τ sig (HIx 1)) (W : Waits sig (HIx 1)) (acc : Unit) :
    (tileInv d L q0 q2 s f2 O W k.val : sProp 𝕄)
      ⊢ wp frame (wpE (defs₀ (F := F)) 𝒱₀ (thr d L) none) Set.univ
          (k1_t2_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k acc)
          fun _ => tileInv d L q0 q2 s f2 O W (k.val + 1) := by
  obtain ⟨k1_h1, k1_h2, k1_h3, k1_h4, k1_h5, k1_h6, k1_h7, k1_h8⟩ := conds_mid k hk1 hk30
  have hk32 : k.val < 32 := by omega
  rw [tileInv_mid (F := F) d L q0 q2 s f2 O W k.val hk1 hk32]
  sl_unfold [k1_t2_body, k1_part4]
  iintro ⟨#Hmw, ⟨%W0, %hW0, HO⟩, Hs, Hc15, Hc16, Hc17, Hc18, ⟨Ht7, Ht8, Ht9, Ht6e, ⟨%fr0, %gi0, HG0⟩, ⟨%g, Hi⟩, Hw7, Hw8, Hw9⟩, ⟨Hso10, ⟨%fo1, %C1, HO1⟩, ⟨%fo2, %C2, HO2⟩, ⟨%fo3, %C3, HO3⟩⟩, Hout⟩
  ihave Hc4 := (out_carve4 (F := F) d L s f2 k hk32 (4 * k.val - 3) (by omega)) $$ Hout
  icases Hc4 with ⟨Hout, ⟨%o0, Hob0⟩, ⟨%o1, Hob1⟩, ⟨%o2, Hob2⟩, ⟨%o3, Hob3⟩⟩
  sl_rw [Prog.bind_assoc]
  -- step 0
  rw [wp_bind]
  iapply (wp_wand_r Idealize.ShloMosaic.frame (wpE (defs₀ (F := F)) 𝒱₀ (thr d L) none) Set.univ)
  isplitl [HO Hs Ht7 Ht6e HG0 HO1 Hi Hw7 Hso10 Hc15 Hob0]
  · iapply (step0_AB (F := F) d L q0 q2 s f2 hin v2 k hk1 hk32 (by omega) k1_h1 k1_h2 g gi0 fr0 C1 fo1 o0 O W0)
    isplitr; · iexact Hmw
    isplitl [HO]; · iexact HO
    isplitl [Hs]; · iexact Hs
    isplitl [Ht7]; · iexact Ht7
    isplitl [Ht6e]; · iexact Ht6e
    isplitl [HG0]; · iexact HG0
    isplitl [HO1]; · iexact HO1
    isplitl [Hi]; · iexact Hi
    isplitl [Hw7]; · iexact Hw7
    isplitl [Hso10]; · iexact Hso10
    isplitl [Hc15]; · iexact Hc15
    iexact Hob0
  iintro %arg9 ⟨%W1, HO, %hW1, Hs, Ht6, Ht7e, ⟨%fr1, %gi1, HG1⟩, ⟨%fn0, %Cn0, HN0⟩, ⟨%g1, Hi⟩, Hw6, Hso11, Hc15, Hbd0⟩
  -- step 1
  beta_reduce
  sl_rw [Prog.bind_assoc]
  rw [wp_bind]
  iapply (wp_wand_r Idealize.ShloMosaic.frame (wpE (defs₀ (F := F)) 𝒱₀ (thr d L) none) Set.univ)
  isplitl [HO Hs Ht8 Ht7e HG1 HO2 Hi Hw8 Hso11 Hc16 Hob1]
  · iapply (step1_AB (F := F) d L q0 q2 s f2 hin v2 arg9 k hk1 hk32 (by omega) k1_h3 k1_h4 g1 gi1 fr1 C2 fo2 o1 O W1)
    isplitr; · iexact Hmw
    isplitl [HO]; · iexact HO
    isplitl [Hs]; · iexact Hs
    isplitl [Ht8]; · iexact Ht8
    isplitl [Ht7e]; · iexact Ht7e
    isplitl [HG1]; · iexact HG1
    isplitl [HO2]; · iexact HO2
    isplitl [Hi]; · iexact Hi
    isplitl [Hw8]; · iexact Hw8
    isplitl [Hso11]; · iexact Hso11
    isplitl [Hc16]; · iexact Hc16
    iexact Hob1
  iintro %c4 ⟨%W2, HO, %hW2, Hs, Ht7, Ht8e, ⟨%fr2, %gi2, HG2⟩, ⟨%fn1, %Cn1, HN1⟩, ⟨%g2, Hi⟩, Hw7, Hso12, Hc16, Hbd1⟩
  -- step 2
  beta_reduce
  sl_rw [Prog.bind_assoc]
  rw [wp_bind]
  iapply (wp_wand_r Idealize.ShloMosaic.frame (wpE (defs₀ (F := F)) 𝒱₀ (thr d L) none) Set.univ)
  isplitl [HO Hs Ht9 Ht8e HG2 HO3 Hi Hw9 Hso12 Hc17 Hob2]
  · iapply (step2_AB (F := F) d L q0 q2 s f2 hin v2 arg9 c4 k hk1 hk32 (by omega) k1_h5 k1_h6 g2 gi2 fr2 C3 fo3 o2 O W2)
    isplitr; · iexact Hmw
    isplitl [HO]; · iexact HO
    isplitl [Hs]; · iexact Hs
    isplitl [Ht9]; · iexact Ht9
    isplitl [Ht8e]; · iexact Ht8e
    isplitl [HG2]; · iexact HG2
    isplitl [HO3]; · iexact HO3
    isplitl [Hi]; · iexact Hi
    isplitl [Hw9]; · iexact Hw9
    isplitl [Hso12]; · iexact Hso12
    isplitl [Hc17]; · iexact Hc17
    iexact Hob2
  iintro %v136 ⟨%W3, HO, %hW3, Hs, Ht8, Ht9e, ⟨%fr3, %gi3, HG3⟩, ⟨%fn2, %Cn2, HN2⟩, ⟨%g3, Hi⟩, Hw8, Hso13, Hc17, Hbd2⟩
  -- step 3: the part's own tail
  beta_reduce
  unfold gFl3 oFl0
  sl_exec
  ihave Hi' := (pts_abs (F := F) _) $$ Hi
  icases Hi' with ⟨%g4, %hg4, Hi⟩
  repeat sl_rw [Prog.bind_assoc]
  sl_for (fun t (_ : PUnit) => (idxW).view.loc (thr d L) ↦[Finset.univ \ (idxS3).view.set]{fullShare} fixPre 0 t g4) $$ [Hi]
  case region => exact fun t acc => fix_region_t6 (F := F) d L v2 0#32 1#32 k k1_h8 g4 t acc
  · rw [fixPre_zero]; iexact Hi
  iintro %_ HI
  have hT : k1_t6_loop.trips = 8 := by decide
  have hfix4 : ∀ x : S128.Idx, View.read (Elt F) (idxS0).view (fixPre 0 k1_t6_loop.trips g4) x
      = fixIdx (s (srcRowIx (row0 L + 128 * (4 * k.val + 4) + (x 0).val))) := by
    intro x
    rw [hg4, idx_fixed (F := F) d L 0 _ _ hT]
    sl_unfold_run_names
    exact congrArg fixIdx (copy_payload (F := F) d L s (4 * k.val + 4) (by omega) (k1_off14 L k) (off14_row L k) _ x)
  have hin4 : ∀ x, (View.read (Elt F) (idxS0).view (fixPre 0 k1_t6_loop.trips g4) x).toNat < S512000x128.size gathers_S512000x128_S128x128.axis :=
    gather_inrange (F := F) d L s hin 0 _ (4 * k.val + 4) (by omega) _ hfix4
  sl_exec
  have eG : trip_mid.sl.gather0 d L f2 g4 hin4 = gRows d L s f2 (4 * k.val + 4) := by
    sl_unfold_run_names
    exact gather_payload (F := F) d L s f2 hin 0 _ (4 * k.val + 4) (by omega) _ hfix4 _ hin4
  have eD : trip_mid.sl.dma0_1 d L s f2 k fr3 = gRows d L s f2 (4 * k.val + 3) := by
    sl_unfold_run_names
    exact copyout_payload (F := F) d L 3 _ fr3 _
  rw [eG, eD]
  sl_step
  have e43 : 4 * k.val + 0 = 4 * k.val + 3 - 3 := by omega
  have hb43 : 4 * k.val + 0 < 128 := by omega
  have eBd3 := (block_done (F := F) d L s f2 (4 * k.val + 0) hb43 _ rfl (outBlkRect_inb L (4 * k.val + 0) hb43) fn0).trans
      (congrArg (fun n => (aLoc d main_v3 ↦[outBlk L n]{fullShare} gath d s f2 : sProp 𝕄)) e43)
  ihave Hbd3 := (Entails.of_eq eBd3) $$ HN0_dst
  ihave Hi2 := (idx_rejoin (F := F) d L 3 0 (by decide) _ _ _ _) $$ [HI HG3_dst_and]
  · isplitl [HI]
    · iexact HI
    · iexact HG3_dst_and
  iclear HN0_src
  ihave Hout2 := (out_putback4 (F := F) d L s f2 k hk1 hk32 (4 * (k.val + 1)) (by omega) (by omega)) $$ [Hout Hbd0 Hbd1 Hbd2 Hbd3]
  · isplitl [Hout]; · iexact Hout
    isplitl [Hbd0]; · iexact Hbd0
    isplitl [Hbd1]; · iexact Hbd1
    isplitl [Hbd2]; · iexact Hbd2
    iexact Hbd3
  iapply (repack_mid (F := F) d L q0 q2 s f2 O W k.val hk30)
  isplitr; · iexact Hmw
  isplitl [HO]
  · iexists (insert (SemLoc.dma (⟨9, by decide⟩ : DmaSem sig), (default : HIx 1)) (insert (SemLoc.dma (⟨18, by decide⟩ : DmaSem sig), (default : HIx 1)) (insert (SemLoc.dma (⟨10, by decide⟩ : DmaSem sig), (default : HIx 1)) W3)))
    isplitr
    · ipureintro
      refine waits_trans (W₁ := W3) ?_ (waits_trans hW3 (waits_trans hW2 (waits_trans hW1 hW0)))
      intro p hp
      simp only [Finset.mem_insert] at hp
      rcases hp with rfl | rfl | rfl | hp
      · exact .inr rfl
      · exact .inr rfl
      · exact .inr rfl
      · exact .inl hp
    · iexact HO
  isplitl [Hs]; · iexact Hs
  isplitl [Hc15]; · iexact Hc15
  isplitl [Hc16]; · iexact Hc16
  isplitl [Hc17]; · iexact Hc17
  isplitl [Hc18]; · iexact Hc18
  isplitl [Ht7]; · iexact Ht7
  isplitl [Ht8]; · iexact Ht8
  isplitl [Ht9e]; · iexact Ht9e
  isplitl [Ht6]; · iexact Ht6
  isplitl [Hw6]
  · iexists _, _; unfold gFl0; iexact Hw6
  isplitl [Hi2]
  · iexists _; iexact Hi2
  isplitl [Hw7]; · iexact Hw7
  isplitl [Hw8]; · iexact Hw8
  isplitl [HG3]; · iexact HG3
  isplitl [HN0]; · iexact HN0
  isplitl [HN1]
  · iexists _, _; iexact HN1
  isplitl [HN2]
  · iexists _, _; iexact HN2
  isplitl [Hso13]
  · iexists o3, ((rowS3).view.writes (Elt F) fr3 [⟨Rect.whole S128x128, gRows d L s f2 (4 * k.val + 3)⟩])
    rw [← oFl3_congr (F := F) d L (off6_row L k ⟨3, by decide⟩) (k1_off6_inb L k 3) (outBlkRect_inb L (4 * k.val + 3) (by omega)) o3 (gRows d L s f2 (4 * k.val + 3)) ((rowS3).view.writes (Elt F) fr3 [⟨Rect.whole S128x128, gRows d L s f2 (4 * k.val + 3)⟩])]
    unfold oFl3
    iexact Hso13
  iexact Hout2

end Cert.Kernel.Tile

end
-- ==== Proof.BTileTripLast.lean ====
/-
  The last trip of the tile's main loop leaves the state after the loop: its first three steps are the three printed
  parts' lemmas applied in sequence; in its fourth both conditionals fail, so it only waits for the gather of the last
  block and starts that block's copy-out; the index scratch is whole again, three finished blocks rejoin the rows held
  and the four last copy-outs stay in flight.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileVal
import proofs.«205025_g42520176230720_cont_8to1_b_1509_29_alg».proof.Proof.BTileVal2
import proofs.«205025_g42520176230720_cont_8to1_b_1509_29_alg».proof.Proof.BTileOff
import proofs.«205025_g42520176230720_cont_8to1_b_1509_29_alg».proof.Proof.BTileInv
import proofs.«205025_g42520176230720_cont_8to1_b_1509_29_alg».proof.Proof.BTilePEF
import proofs.«205025_g42520176230720_cont_8to1_b_1509_29_alg».proof.Proof.BTilePVal
import proofs.«205025_g42520176230720_cont_8to1_b_1509_29_alg».proof.Proof.BTileRVal
import proofs.«205025_g42520176230720_cont_8to1_b_1509_29_alg».proof.Proof.BTileFix
import proofs.«205025_g42520176230720_cont_8to1_b_1509_29_alg».proof.Proof.BTilePInv
import proofs.«205025_g42520176230720_cont_8to1_b_1509_29_alg».proof.Proof.BTileStepA
import proofs.«205025_g42520176230720_cont_8to1_b_1509_29_alg».proof.Proof.BTileROut
import proofs.«205025_g42520176230720_cont_8to1_b_1509_29_alg».proof.Proof.BTileROut4
import proofs.«205025_g42520176230720_cont_8to1_b_1509_29_alg».proof.Proof.BTilePConds
import proofs.«205025_g42520176230720_cont_8to1_b_1509_29_alg».proof.Proof.BTileRPack
import proofs.«205025_g42520176230720_cont_8to1_b_1509_29_alg».proof.Proof.Gen.Kernel.Skeleton

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

set_option maxHeartbeats 8000000 in
/-- The last trip of the main loop leaves the state after the loop. -/
theorem trip_last (d : Dev nD) (L : grid1.Coords) (q0 q2 : PosShare TreeShare)
    (s : Buf (Elt F) (aLoc d main_v0)) (f2 : Buf (Elt F) (aLoc d main_v2))
    (hin : ∀ n ∈ srcRows L, (fixIdx (s n)).toNat < 512000)
    (v2 : BitVec 32) (k : Fin k1_t2_loop.trips) (hk31 : k.val = 31)
    (O : CellTallies nD τ sig (HIx 1)) (W : Waits sig (HIx 1)) (acc : Unit) :
    (tileInv d L q0 q2 s f2 O W k.val : sProp 𝕄)
      ⊢ wp frame (wpE (defs₀ (F := F)) 𝒱₀ (thr d L) none) Set.univ
          (k1_t2_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4 v2 k acc)
          fun _ => tileInv d L q0 q2 s f2 O W (k.val + 1) := by
  obtain ⟨k1_h1, k1_h2, k1_h3, k1_h4, k1_h5, k1_h6, k1_h7, k1_h8⟩ := conds_last k hk31
  have hk1 : 1 ≤ k.val := by omega
  have hk32 : k.val < 32 := by omega
  rw [show k.val + 1 = 32 from by omega]
  rw [tileInv_mid (F := F) d L q0 q2 s f2 O W k.val hk1 hk32]
  sl_unfold [k1_t2_body, k1_part4]
  iintro ⟨#Hmw, ⟨%W0, %hW0, HO⟩, Hs, Hc15, Hc16, Hc17, Hc18, ⟨Ht7, Ht8, Ht9, Ht6e, ⟨%fr0, %gi0, HG0⟩, ⟨%g, Hi⟩, Hw7, Hw8, Hw9⟩, ⟨Hso10, ⟨%fo1, %C1, HO1⟩, ⟨%fo2, %C2, HO2⟩, ⟨%fo3, %C3, HO3⟩⟩, Hout⟩
  ihave Hc4 := (out_carve4 (F := F) d L s f2 k hk32 (4 * k.val - 3) (by omega)) $$ Hout
  icases Hc4 with ⟨Hout, ⟨%o0, Hob0⟩, ⟨%o1, Hob1⟩, ⟨%o2, Hob2⟩, ⟨%o3, Hob3⟩⟩
  sl_rw [Prog.bind_assoc]
  -- step 0
  rw [wp_bind]
  iapply (wp_wand_r Idealize.ShloMosaic.frame (wpE (defs₀ (F := F)) 𝒱₀ (thr d L) none) Set.univ)
  isplitl [HO Hs Ht7 Ht6e HG0 HO1 Hi Hw7 Hso10 Hc15 Hob0]
  · iapply (step0_AB (F := F) d L q0 q2 s f2 hin v2 k hk1 hk32 (by omega) k1_h1 k1_h2 g gi0 fr0 C1 fo1 o0 O W0)
    isplitr; · iexact Hmw
    isplitl [HO]; · iexact HO
    isplitl [Hs]; · iexact Hs
    isplitl [Ht7]; · iexact Ht7
    isplitl [Ht6e]; · iexact Ht6e
    isplitl [HG0]; · iexact HG0
    isplitl [HO1]; · iexact HO1
    isplitl [Hi]; · iexact Hi
    isplitl [Hw7]; · iexact Hw7
    isplitl [Hso10]; · iexact Hso10
    isplitl [Hc15]; · iexact Hc15
    iexact Hob0
  iintro %arg9 ⟨%W1, HO, %hW1, Hs, Ht6, Ht7e, ⟨%fr1, %gi1, HG1⟩, ⟨%fn0, %Cn0, HN0⟩, ⟨%g1, Hi⟩, Hw6, Hso11, Hc15, Hbd0⟩
  -- step 1
  beta_reduce
  sl_rw [Prog.bind_assoc]
  rw [wp_bind]
  iapply (wp_wand_r Idealize.ShloMosaic.frame (wpE (defs₀ (F := F)) 𝒱₀ (thr d L) none) Set.univ)
  isplitl [HO Hs Ht8 Ht7e HG1 HO2 Hi Hw8 Hso11 Hc16 Hob1]
  · iapply (step1_AB (F := F) d L q0 q2 s f2 hin v2 arg9 k hk1 hk32 (by omega) k1_h3 k1_h4 g1 gi1 fr1 C2 fo2 o1 O W1)
    isplitr; · iexact Hmw
    isplitl [HO]; · iexact HO
    isplitl [Hs]; · iexact Hs
    isplitl [Ht8]; · iexact Ht8
    isplitl [Ht7e]; · iexact Ht7e
    isplitl [HG1]; · iexact HG1
    isplitl [HO2]; · iexact HO2
    isplitl [Hi]; · iexact Hi
    isplitl [Hw8]; · iexact Hw8
    isplitl [Hso11]; · iexact Hso11
    isplitl [Hc16]; · iexact Hc16
    iexact Hob1
  iintro %c4 ⟨%W2, HO, %hW2, Hs, Ht7, Ht8e, ⟨%fr2, %gi2, HG2⟩, ⟨%fn1, %Cn1, HN1⟩, ⟨%g2, Hi⟩, Hw7, Hso12, Hc16, Hbd1⟩
  -- step 2
  beta_reduce
  sl_rw [Prog.bind_assoc]
  rw [wp_bind]
  iapply (wp_wand_r Idealize.ShloMosaic.frame (wpE (defs₀ (F := F)) 𝒱₀ (thr d L) none) Set.univ)
  isplitl [HO Hs Ht9 Ht8e HG2 HO3 Hi Hw9 Hso12 Hc17 Hob2]
  · iapply (step2_AB (F := F) d L q0 q2 s f2 hin v2 arg9 c4 k hk1 hk32 (by omega) k1_h5 k1_h6 g2 gi2 fr2 C3 fo3 o2 O W2)
    isplitr; · iexact Hmw
    isplitl [HO]; · iexact HO
    isplitl [Hs]; · iexact Hs
    isplitl [Ht9]; · iexact Ht9
    isplitl [Ht8e]; · iexact Ht8e
    isplitl [HG2]; · iexact HG2
    isplitl [HO3]; · iexact HO3
    isplitl [Hi]; · iexact Hi
    isplitl [Hw9]; · iexact Hw9
    isplitl [Hso12]; · iexact Hso12
    isplitl [Hc17]; · iexact Hc17
    iexact Hob2
  iintro %v136 ⟨%W3, HO, %hW3, Hs, Ht8, Ht9e, ⟨%fr3, %gi3, HG3⟩, ⟨%fn2, %Cn2, HN2⟩, ⟨%g3, Hi⟩, Hw8, Hso13, Hc17, Hbd2⟩
  -- step 3: the part's own tail; both its conditionals fail
  beta_reduce
  unfold gFl3
  sl_exec
  have eD : trip_last.sl.dma0 d L s f2 k fr3 = gRows d L s f2 (4 * k.val + 3) := by
    sl_unfold_run_names
    exact copyout_payload (F := F) d L 3 _ fr3 _
  rw [eD]
  sl_step
  -- the index scratch is whole again
  ihave Hi2 := (pointsTo_join_subset (ℓ := (idxW).view.loc (thr d L)) (q := fullShare) (Finset.subset_univ (idxS3).view.set)) $$ [Hi HG3_dst_and]
  · isplitl [HG3_dst_and]
    · iexact HG3_dst_and
    · iexact Hi
  -- three finished blocks rejoin the rows held
  have e128 : 4 * (k.val + 1) = 128 := by omega
  ihave Hout1 := (Entails.of_eq (congrArg (fun b => (outSt d L s f2 (4 * k.val - 3) b : sProp 𝕄)) e128)) $$ Hout
  ihave Hout2 := (out_putback3 (F := F) d L s f2 k hk31) $$ [Hout1 Hbd0 Hbd1 Hbd2]
  · isplitl [Hout1]; · iexact Hout1
    isplitl [Hbd0]; · iexact Hbd0
    isplitl [Hbd1]; · iexact Hbd1
    iexact Hbd2
  iapply (repack_last_aux (F := F) d L q0 q2 s f2 O W (4 * k.val + 0) (4 * k.val + 1) (4 * k.val + 2) (4 * k.val + 3)
    (by omega) (by omega) (by omega) (by omega) (by omega) (by omega) (by omega) (by omega))
  isplitr; · iexact Hmw
  isplitl [HO]
  · iexists (insert (SemLoc.dma (⟨9, by decide⟩ : DmaSem sig), (default : HIx 1)) W3)
    isplitr
    · ipureintro
      refine waits_trans (W₁ := W3) ?_ (waits_trans hW3 (waits_trans hW2 (waits_trans hW1 hW0)))
      intro p hp
      simp only [Finset.mem_insert] at hp
      rcases hp with rfl | hp
      · exact .inr rfl
      · exact .inl hp
    · iexact HO
  isplitl [Hs]; · iexact Hs
  isplitl [Hc15]; · iexact Hc15
  isplitl [Hc16]; · iexact Hc16
  isplitl [Hc17]; · iexact Hc17
  isplitl [Hc18]; · iexact Hc18
  isplitl [Ht6]; · iexact Ht6
  isplitl [Ht7]; · iexact Ht7
  isplitl [Ht8]; · iexact Ht8
  isplitl [Ht9e]; · iexact Ht9e
  isplitl [Hi2]
  · iexists _; iexact Hi2
  isplitl [Hw6]; · iexact Hw6
  isplitl [Hw7]; · iexact Hw7
  isplitl [Hw8]; · iexact Hw8
  isplitl [HG3]; · iexact HG3
  isplitl [HN0]
  · iexists _, _; iexact HN0
  isplitl [HN1]
  · iexists _, _; iexact HN1
  isplitl [HN2]
  · iexists _, _; iexact HN2
  isplitl [Hso13]
  · iexists o3, ((rowS3).view.writes (Elt F) fr3 [⟨Rect.whole S128x128, gRows d L s f2 (4 * k.val + 3)⟩])
    rw [← oFl3_congr (F := F) d L (off6_row L k ⟨3, by decide⟩) (k1_off6_inb L k 3) (outBlkRect_inb L (4 * k.val + 3) (by omega)) o3 (gRows d L s f2 (4 * k.val + 3)) ((rowS3).view.writes (Elt F) fr3 [⟨Rect.whole S128x128, gRows d L s f2 (4 * k.val + 3)⟩])]
    unfold oFl3
    iexact Hso13
  iexact Hout2

end Cert.Kernel.Tile

end
-- ==== Proof.BTileRun.lean ====
/-
  The tile's body over its resources opened: the first block of indices is fetched, rewritten and its gather started; the
  main loop runs at its invariant; the last four copy-outs are waited for; the read shares, the scratch buffers and the
  semaphores are as they were and the tile's rows of the gathered array hold the gathered rows.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileCells
import proofs.«205025_g42520176230720_cont_8to1_b_1509_29_alg».proof.Proof.BTileVal
import proofs.«205025_g42520176230720_cont_8to1_b_1509_29_alg».proof.Proof.BTileVal2
import proofs.«205025_g42520176230720_cont_8to1_b_1509_29_alg».proof.Proof.BTileOff
import proofs.«205025_g42520176230720_cont_8to1_b_1509_29_alg».proof.Proof.BTileInv
import proofs.«205025_g42520176230720_cont_8to1_b_1509_29_alg».proof.Proof.BTilePEF
import proofs.«205025_g42520176230720_cont_8to1_b_1509_29_alg».proof.Proof.BTilePRows
import proofs.«205025_g42520176230720_cont_8to1_b_1509_29_alg».proof.Proof.BTilePRows2
import proofs.«205025_g42520176230720_cont_8to1_b_1509_29_alg».proof.Proof.BTilePVal
import proofs.«205025_g42520176230720_cont_8to1_b_1509_29_alg».proof.Proof.BTileRVal
import proofs.«205025_g42520176230720_cont_8to1_b_1509_29_alg».proof.Proof.BTileROut
import proofs.«205025_g42520176230720_cont_8to1_b_1509_29_alg».proof.Proof.BTileROut4
import proofs.«205025_g42520176230720_cont_8to1_b_1509_29_alg».proof.Proof.BTilePInv
import proofs.«205025_g42520176230720_cont_8to1_b_1509_29_alg».proof.Proof.BTilePConds
import proofs.«205025_g42520176230720_cont_8to1_b_1509_29_alg».proof.Proof.BTileFix
import proofs.«205025_g42520176230720_cont_8to1_b_1509_29_alg».proof.Proof.BTileTripFirst
import proofs.«205025_g42520176230720_cont_8to1_b_1509_29_alg».proof.Proof.BTileTripMid
import proofs.«205025_g42520176230720_cont_8to1_b_1509_29_alg».proof.Proof.BTileTripLast
import proofs.«205025_g42520176230720_cont_8to1_b_1509_29_alg».proof.Proof.Gen.Kernel.Skeleton

noncomputable section

namespace Cert.Kernel.Tile

open Cert.Kernel Cert.Kernel.Gen Cert.Kernel.Base

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them, their slots as the body slices them
local notation "srcW" => (Memref.whole Cert.Kernel.main_v0_scv : Memref Cert.Kernel.sig Kind.scVector Space.hbm Cert.Kernel.S524288 EltTy.i32)
local notation "tabW" => (Memref.whole Cert.Kernel.main_v2_scv : Memref Cert.Kernel.sig Kind.scVector Space.hbm Cert.Kernel.S512000x128 EltTy.f32)
local notation "outW" => (Memref.whole Cert.Kernel.main_v3_scv : Memref Cert.Kernel.sig Kind.scVector Space.hbm Cert.Kernel.S524288x128 EltTy.f32)
local notation "idxW" => (Memref.whole Cert.Kernel.cc1_scratch0 : Memref Cert.Kernel.sig Kind.scVector Space.vmem Cert.Kernel.S4x128 EltTy.i32)
local notation "rowsW" => (Memref.whole Cert.Kernel.cc1_scratch1 : Memref Cert.Kernel.sig Kind.scVector Space.vmem Cert.Kernel.S4x128x128 EltTy.f32)

set_option quotPrecheck false

-- the four slots of the two scratch buffers and the table's one slice, spelt as the body slices them
local notation "rowS0" => (((rowsW).slice (Rect.unit (s := S4x128x128) ![0, 0, 0] S1x128x128.size inb_S4x128x128_S1x128x128_0_0_0) (fun _ => rfl)).squeeze S128x128 squeezes_S1x128x128_S128x128)
local notation "rowS1" => (((rowsW).slice (Rect.unit (s := S4x128x128) ![1, 0, 0] S1x128x128.size inb_S4x128x128_S1x128x128_1_0_0) (fun _ => rfl)).squeeze S128x128 squeezes_S1x128x128_S128x128)
local notation "rowS2" => (((rowsW).slice (Rect.unit (s := S4x128x128) ![2, 0, 0] S1x128x128.size inb_S4x128x128_S1x128x128_2_0_0) (fun _ => rfl)).squeeze S128x128 squeezes_S1x128x128_S128x128)
local notation "rowS3" => (((rowsW).slice (Rect.unit (s := S4x128x128) ![3, 0, 0] S1x128x128.size inb_S4x128x128_S1x128x128_3_0_0) (fun _ => rfl)).squeeze S128x128 squeezes_S1x128x128_S128x128)
local notation "idxS0" => (((idxW).slice (Rect.unit (s := S4x128) ![0, 0] S1x128.size inb_S4x128_S1x128_0_0) (fun _ => rfl)).squeeze S128 squeezes_S1x128_S128)
local notation "idxS1" => (((idxW).slice (Rect.unit (s := S4x128) ![1, 0] S1x128.size inb_S4x128_S1x128_1_0) (fun _ => rfl)).squeeze S128 squeezes_S1x128_S128)
local notation "idxS2" => (((idxW).slice (Rect.unit (s := S4x128) ![2, 0] S1x128.size inb_S4x128_S1x128_2_0) (fun _ => rfl)).squeeze S128 squeezes_S1x128_S128)
local notation "idxS3" => (((idxW).slice (Rect.unit (s := S4x128) ![3, 0] S1x128.size inb_S4x128_S1x128_3_0) (fun _ => rfl)).squeeze S128 squeezes_S1x128_S128)
local notation "tabSl" => ((tabW).slice (Rect.unit (s := S512000x128) ![0, 0] S512000x128.size inb_S512000x128_S512000x128_0_0) (fun _ => rfl))

variable [FloatOps F]

/-! ## The arrays as the tile's memrefs address them -/

section Pts
variable (d : Dev nD) (L : grid1.Coords)

omit [FloatOps F] in
theorem pts_src (q : PosShare TreeShare) (f : Buf (Elt F) (aLoc d main_v0)) :
    ((srcW).view.loc (thr d L) ↦{q} f : sProp 𝕄) = aLoc d main_v0 ↦{q} f := rfl
omit [FloatOps F] in
theorem pts_tab (q : PosShare TreeShare) (f : Buf (Elt F) (aLoc d main_v2)) :
    ((tabW).view.loc (thr d L) ↦{q} f : sProp 𝕄) = aLoc d main_v2 ↦{q} f := rfl
omit [FloatOps F] in
theorem pts_out (q : PosShare TreeShare) (f : Buf (Elt F) (aLoc d main_v3)) :
    ((outW).view.loc (thr d L) ↦{q} f : sProp 𝕄) = aLoc d main_v3 ↦{q} f := rfl
omit [FloatOps F] in
theorem pts_idx (f : Buf (Elt F) ((thr d L).loc cc1_scratch0)) :
    ((idxW).view.loc (thr d L) ↦{fullShare} f : sProp 𝕄) = (thr d L).loc cc1_scratch0 ↦{fullShare} f := rfl
omit [FloatOps F] in
theorem pts_rows (f : Buf (Elt F) ((thr d L).loc cc1_scratch1)) :
    ((rowsW).view.loc (thr d L) ↦{fullShare} f : sProp 𝕄) = (thr d L).loc cc1_scratch1 ↦{fullShare} f := rfl

end Pts

omit [FloatOps F] in
theorem pts_absR {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

set_option maxHeartbeats 8000000 in
theorem tile_run (d : Dev nD) (L : grid1.Coords) (q0 q2 : PosShare TreeShare)
    (s : Buf (Elt F) (aLoc d main_v0)) (f2 : Buf (Elt F) (aLoc d main_v2)) (f3 : Buf (Elt F) (aLoc d main_v3))
    (fi : Buf (Elt F) ((thr d L).loc cc1_scratch0)) (fr : Buf (Elt F) ((thr d L).loc cc1_scratch1))
    (hin : ∀ n ∈ srcRows L, (fixIdx (s n)).toNat < 512000)
    (O : CellTallies nD τ sig (HIx 1)) (W : Waits sig (HIx 1)) :
    iprop(Transfers.MayWaits (thr d L) (none : HIx 1) O
        ∗ owes (thr d L) O W
        ∗ (aLoc d main_v0 ↦{q0} s) ∗ (aLoc d main_v2 ↦{q2} f2) ∗ (aLoc d main_v3 ↦[outRows L]{fullShare} f3)
        ∗ ((thr d L).loc cc1_scratch0 ↦{fullShare} fi) ∗ ((thr d L).loc cc1_scratch1 ↦{fullShare} fr)
        ∗ cells0 d L)
      ⊢ wp frame (wpE (defs₀ (F := F)) 𝒱₀ (thr d L) none) Set.univ
          (cc1__sc_body L srcW (Memref.isWhole_whole _) tabW (Memref.isWhole_whole _) outW (Memref.isWhole_whole _) idxW (Memref.isWhole_whole _) rowsW (Memref.isWhole_whole _) cc1_scratch2 cc1_scratch3 cc1_scoped0 cc1_scoped1 cc1_scoped2 cc1_scoped3 cc1_scoped4)
          fun _ => iprop((aLoc d main_v0 ↦{q0} s) ∗ (aLoc d main_v2 ↦{q2} f2) ∗ (aLoc d main_v3 ↦[outRows L]{fullShare} gath d s f2)
            ∗ (∃ fi', (thr d L).loc cc1_scratch0 ↦{fullShare} fi') ∗ (∃ fr', (thr d L).loc cc1_scratch1 ↦{fullShare} fr')
            ∗ cells0 d L
            ∗ ∃ W', ⌜∀ p ∈ W', p ∈ W ∨ p.2 = none⌝ ∗ owes (thr d L) O W') := by
  sl_unfold [cc1__sc_body, k1_part5]
  unfold cells0
  iintro ⟨#Hmw, HO, Hs0, Ht0, Ho0, Hi0, Hr0, Hw6, Hw7, Hw8, Hw9, Hso10, Hso11, Hso12, Hso13, Hc14, Hc15, Hc16, Hc17, Hc18⟩
  ihave Hs := (Entails.of_eq (pts_src (F := F) d L _ _).symm) $$ Hs0
  ihave Htt := (Entails.of_eq (pts_tab (F := F) d L _ _).symm) $$ Ht0
  ihave Hi := (Entails.of_eq (pts_idx (F := F) d L _).symm) $$ Hi0
  ihave Hrr := (Entails.of_eq (pts_rows (F := F) d L _).symm) $$ Hr0
  ihave Hr4 := (rows_slots (F := F) d L fr).1 $$ Hrr
  icases Hr4 with ⟨Hr0s, Hr1s, Hr2s, Hr3s⟩
  ihave Ht5 := (tab_tokens (F := F) d L q2 f2).1 $$ Htt
  icases Ht5 with ⟨Htr, Ht6, Ht7, Ht8, Ht9⟩
  ihave Hout := (out_start (F := F) d L s f2 f3) $$ Ho0
  sl_exec
  ihave Hi' := (pts_absR (F := F) _) $$ Hi
  icases Hi' with ⟨%g0, %hg0, Hi⟩
  repeat sl_rw [Prog.bind_assoc]
  sl_for (fun t (_ : PUnit) => ((idxW).view.loc (thr d L) ↦{fullShare} fixPre 0 t g0 : sProp 𝕄)) $$ [Hi]
  case region => exact fun t acc => fix_region_t1 (F := F) d L g0 t acc
  · rw [fixPre_zero]; iexact Hi
  iintro %_ HI
  have hT : k1_t1_loop.trips = 8 := by decide
  have hfix0 : ∀ x : S128.Idx, View.read (Elt F) (idxS0).view (fixPre 0 k1_t1_loop.trips g0) x
      = fixIdx (s (srcRowIx (row0 L + 128 * 0 + (x 0).val))) := by
    intro x
    rw [hg0, idx_fixed (F := F) d L 0 _ _ hT]
    sl_unfold_run_names
    exact congrArg fixIdx (copy_payload (F := F) d L s 0 (by decide) (k1_off1 L) (off1_row L) _ x)
  have hin0 : ∀ x, (View.read (Elt F) (idxS0).view (fixPre 0 k1_t1_loop.trips g0) x).toNat < S512000x128.size gathers_S512000x128_S128x128.axis :=
    gather_inrange (F := F) d L s hin 0 _ 0 (by decide) _ hfix0
  sl_exec
  have eG : tile_run.sl.gather0 d L f2 g0 hin0 = gRows d L s f2 0 := by
    sl_unfold_run_names
    exact gather_payload (F := F) d L s f2 hin 0 _ 0 (by decide) _ hfix0 _ hin0
  rw [eG]
  iclear Hr0s
  sl_for (fun k (_ : PUnit) => (tileInv d L q0 q2 s f2 O W k : sProp 𝕄)) $$ [HO Hs Hc15 Hc16 Hc17 Hc18 Ht7 Ht8 Ht9 Ht6 Hw6 HI Hw7 Hw8 Hw9 Hr1s Hr2s Hr3s Hso10 Hso11 Hso12 Hso13 Hout]
  case region =>
    intro k acc
    by_cases h0 : k.val = 0
    · exact trip_first (F := F) d L q0 q2 s f2 hin _ k h0 O W acc
    by_cases h31 : k.val = 31
    · exact trip_last (F := F) d L q0 q2 s f2 hin _ k h31 O W acc
    · have hk : k.val < 32 := lt_of_lt_of_eq k.isLt trips_eq
      exact trip_mid (F := F) d L q0 q2 s f2 hin _ k (by omega) (by omega) O W acc
  · rw [tileInv_zero]
    isplitr; · iexact Hmw
    isplitl [HO]
    · iexists (insert (SemLoc.dma (⟨14, by decide⟩ : DmaSem sig), (default : HIx 1)) W)
      isplitr
      · ipureintro
        intro p hp
        simp only [Finset.mem_insert] at hp
        rcases hp with rfl | hp
        · exact .inr rfl
        · exact .inl hp
      · iexact HO
    isplitl [Hs]; · iexact Hs
    isplitl [Hc15]; · iexact Hc15
    isplitl [Hc16]; · iexact Hc16
    isplitl [Hc17]; · iexact Hc17
    isplitl [Hc18]; · iexact Hc18
    isplitl [Ht7 Ht8 Ht9 Ht6 Hw6 HI Hw7 Hw8 Hw9]
    · isplitl [Ht7]; · iexact Ht7
      isplitl [Ht8]; · iexact Ht8
      isplitl [Ht9]; · iexact Ht9
      isplitl [Ht6]; · iexact Ht6
      isplitl [Hw6]
      · iexists _, _; unfold gFl0; iexact Hw6
      isplitl [HI]
      · iexists _; iexact HI
      isplitl [Hw7]; · iexact Hw7
      isplitl [Hw8]; · iexact Hw8
      iexact Hw9
    isplitl [Hr1s Hr2s Hr3s Hso10 Hso11 Hso12 Hso13]
    · isplitl [Hr1s]
      · iexists _; iexact Hr1s
      isplitl [Hr2s]
      · iexists _; iexact Hr2s
      isplitl [Hr3s]
      · iexists _; iexact Hr3s
      isplitl [Hso10]; · iexact Hso10
      isplitl [Hso11]; · iexact Hso11
      isplitl [Hso12]; · iexact Hso12
      iexact Hso13
    iexact Hout
  iintro %_ HI2
  ihave HI3 := (Entails.of_eq ((congrArg (fun n => (tileInv d L q0 q2 s f2 O W n : sProp 𝕄)) trips_eq).trans (tileInv_last (F := F) d L q0 q2 s f2 O W))) $$ HI2
  icases HI3 with ⟨-, ⟨%W1, %hW1, HO⟩, Hs, Hc15, Hc16, Hc17, Hc18, ⟨Ht6, Ht7, Ht8, Ht9, ⟨%gI, Hi⟩, Hw6, Hw7, Hw8, Hw9⟩, ⟨⟨%f0, %C0, HF0⟩, ⟨%f1, %C1, HF1⟩, ⟨%f2', %C2, HF2⟩, ⟨%f3', %C3, HF3⟩⟩, Hout⟩
  unfold oFl0 oFl1 oFl2 oFl3
  sl_exec
  sl_step
  ihave Hb0 := (Entails.of_eq (block_done (F := F) d L s f2 124 (by decide) _ rfl _ _)) $$ HF0_dst
  ihave Hb1 := (Entails.of_eq (block_done (F := F) d L s f2 125 (by decide) _ rfl _ _)) $$ HF1_dst
  ihave Hb2 := (Entails.of_eq (block_done (F := F) d L s f2 126 (by decide) _ rfl _ _)) $$ HF2_dst
  ihave Hb3 := (Entails.of_eq (block_done (F := F) d L s f2 127 (by decide) _ rfl _ _)) $$ HF3_dst
  ihave Hfin := (out_putback_last (F := F) d L s f2) $$ [Hout Hb0 Hb1 Hb2 Hb3]
  · isplitl [Hout]; · iexact Hout
    isplitl [Hb0]; · iexact Hb0
    isplitl [Hb1]; · iexact Hb1
    isplitl [Hb2]; · iexact Hb2
    iexact Hb3
  ihave Hrows := (rows_join (F := F) d L _ _ _ _) $$ [HF0_src HF1_src HF2_src HF3_src]
  · isplitl [HF0_src]; · iexact HF0_src
    isplitl [HF1_src]; · iexact HF1_src
    isplitl [HF2_src]; · iexact HF2_src
    iexact HF3_src
  ihave Htab := (tab_tokens (F := F) d L q2 f2).2 $$ [Htr Ht6 Ht7 Ht8 Ht9]
  · isplitl [Htr]; · iexact Htr
    isplitl [Ht6]; · iexact Ht6
    isplitl [Ht7]; · iexact Ht7
    isplitl [Ht8]; · iexact Ht8
    iexact Ht9
  isplitl [Hs]
  · iapply (Entails.of_eq (pts_src (F := F) d L _ _)); iexact Hs
  isplitl [Htab]
  · iapply (Entails.of_eq (pts_tab (F := F) d L _ _)); iexact Htab
  isplitl [Hfin]; · iexact Hfin
  isplitl [Hi]
  · iexists _; iapply (Entails.of_eq (pts_idx (F := F) d L _)); iexact Hi
  isplitl [Hrows]; · iexact Hrows
  isplitl [Hw6 Hw7 Hw8 Hw9 HF0 HF1 HF2 HF3 Hc14 Hc15 Hc16 Hc17 Hc18]
  · isplitl [Hw6]; · iexact Hw6
    isplitl [Hw7]; · iexact Hw7
    isplitl [Hw8]; · iexact Hw8
    isplitl [Hw9]; · iexact Hw9
    isplitl [HF0]; · iexact HF0
    isplitl [HF1]; · iexact HF1
    isplitl [HF2]; · iexact HF2
    isplitl [HF3]; · iexact HF3
    isplitl [Hc14]; · iexact Hc14
    isplitl [Hc15]; · iexact Hc15
    isplitl [Hc16]; · iexact Hc16
    isplitl [Hc17]; · iexact Hc17
    iexact Hc18
  iexists (insert (SemLoc.dma (⟨13, by decide⟩ : DmaSem sig), (default : HIx 1)) (insert (SemLoc.dma (⟨12, by decide⟩ : DmaSem sig), (default : HIx 1)) (insert (SemLoc.dma (⟨11, by decide⟩ : DmaSem sig), (default : HIx 1)) (insert (SemLoc.dma (⟨10, by decide⟩ : DmaSem sig), (default : HIx 1)) W1))))
  isplitr
  · ipureintro
    refine waits_trans (W₁ := W1) ?_ hW1
    intro p hp
    simp only [Finset.mem_insert] at hp
    rcases hp with rfl | rfl | rfl | rfl | hp
    · exact .inr rfl
    · exact .inr rfl
    · exact .inr rfl
    · exact .inr rfl
    · exact .inl hp
  · iexact HO

end Cert.Kernel.Tile

end
-- ==== Proof.BTileBody.lean ====
/-
  The tile's body obligation from the body's run over its opened resources: the tile's scoped storage is its two
  scratch buffers and its thirteen cells beside a rest that is carried through untouched, and its evidence that it
  may wait comes from the launch's level facts.
-/
import proofs.«205025_g42520176230720_cont_8to1_b_1509_29_alg».proof.Proof.BKBase
import proofs.«205025_g42520176230720_cont_8to1_b_1509_29_alg».proof.Proof.BTileDefs
import proofs.«205025_g42520176230720_cont_8to1_b_1509_29_alg».proof.Proof.BTileCells
import proofs.«205025_g42520176230720_cont_8to1_b_1509_29_alg».proof.Proof.BTileAuxA
import proofs.«205025_g42520176230720_cont_8to1_b_1509_29_alg».proof.Proof.BTileRun

noncomputable section

namespace Cert.Kernel.Tile

open Cert.Kernel Cert.Kernel.Gen Cert.Kernel.Base
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ
variable [FloatOps F]

/-- The tile's body: from its rows and the table's read share to the gathered rows. -/
theorem tile_body (d : Dev nD) (L : grid1.Coords) (hF : (K (F := F)).Facts) (q0 q2 : PosShare TreeShare)
    (s : Buf (Elt F) (aLoc d main_v0)) (f2 : Buf (Elt F) (aLoc d main_v2))
    (hin : ∀ n ∈ srcRows L, (fixIdx (s n)).toNat < 512000)
    (O : CellTallies nD τ sig (HIx 1)) (W : Waits sig (HIx 1)) (hO : ∀ g, O g none = 0) :
    iprop(levAts (K (F := F)).L (K (F := F)).lev ∗ goRes d L q0 q2 s f2
        ∗ scopedBufs (thr d L) ∗ scopedSems0 (thr d L) ∗ owes (thr d L) O W)
      ⊢ wp frame (wpE (defs₀ (F := F)) 𝒱₀ (thr d L) none) Set.univ
          (cc1__sc_body L (Memref.whole main_v0_scv) (Memref.isWhole_whole _) (Memref.whole main_v2_scv) (Memref.isWhole_whole _)
            (Memref.whole main_v3_scv) (Memref.isWhole_whole _) (Memref.whole cc1_scratch0) (Memref.isWhole_whole _)
            (Memref.whole cc1_scratch1) (Memref.isWhole_whole _) cc1_scratch2 cc1_scratch3 cc1_scoped0 cc1_scoped1 cc1_scoped2 cc1_scoped3 cc1_scoped4)
          fun _ => iprop(tdRes d L q0 q2 s f2 ∗ scopedBufs (thr d L) ∗ scopedSems0 (thr d L)
            ∗ ∃ W', ⌜∀ p ∈ W', p ∈ W ∨ p.2 = none⌝ ∗ owes (thr d L) O W') := by
  unfold goRes tdRes
  rw [(K (F := F)).scopedBufs_V hF d (cV L) (jV L), SparseCore.Cfg.scopedSems0_V (Val := Elt F) d (cV L) (jV L), ownSems0_tile, ownBufs_tile]
  iintro ⟨#Hlv, ⟨H0, H2, %f3, H3⟩, ⟨⟨%fi, Hi⟩, ⟨%fr, Hr⟩, Hbufs⟩, ⟨C6, C7, C8, C9, C10, C11, C12, C13, C14, C15, C16, C17, C18, Hsems⟩, HO⟩
  ihave Hmw := ((K (F := F)).mayWaits_none (thr := thr d L) hO) $$ Hlv
  iapply (wp_wand_r frame _ _ (Q := fun _ => iprop((aLoc d main_v0 ↦{q0} s) ∗ (aLoc d main_v2 ↦{q2} f2) ∗ (aLoc d main_v3 ↦[outRows L]{fullShare} gath d s f2)
            ∗ (∃ fi', (thr d L).loc cc1_scratch0 ↦{fullShare} fi') ∗ (∃ fr', (thr d L).loc cc1_scratch1 ↦{fullShare} fr')
            ∗ cells0 d L
            ∗ ∃ W', ⌜∀ p ∈ W', p ∈ W ∨ p.2 = none⌝ ∗ owes (thr d L) O W')))
  isplitl [Hmw HO H0 H2 H3 Hi Hr C6 C7 C8 C9 C10 C11 C12 C13 C14 C15 C16 C17 C18]
  · iapply (tile_run d L q0 q2 s f2 f3 fi fr hin O W)
    isplitl [Hmw]; · iexact Hmw
    isplitl [HO]; · iexact HO
    isplitl [H0]; · iexact H0
    isplitl [H2]; · iexact H2
    isplitl [H3]; · iexact H3
    isplitl [Hi]; · iexact Hi
    isplitl [Hr]; · iexact Hr
    unfold cells0
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    iexact C18
  iintro %_ ⟨H0, H2, H3, Hi, Hr, Hc, HW⟩
  unfold cells0
  icases Hc with ⟨C6, C7, C8, C9, C10, C11, C12, C13, C14, C15, C16, C17, C18⟩
  isplitl [H0 H2 H3]
  · isplitl [H0]; · iexact H0
    isplitl [H2]; · iexact H2
    iexact H3
  isplitl [Hi Hr Hbufs]
  · isplitl [Hi]; · iexact Hi
    isplitl [Hr]; · iexact Hr
    iexact Hbufs
  isplitl [C6 C7 C8 C9 C10 C11 C12 C13 C14 C15 C16 C17 C18 Hsems]
  ·
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    iexact Hsems
  iexact HW

end Cert.Kernel.Tile

end
-- ==== Proof.lean ====
/-
  The certificate's claim, assembled.

  The kernel computes, for each of the 1024 × 512 tokens, the layer-normalised sum of three embedding rows — the
  word row its index names, the position row of its place, the segment row its segment id names — scaled and
  shifted by the two 64-vectors. It does so in three stages. A first TensorCore pass lays the word table's two
  halves side by side: row r of the paired table is word row r followed by word row 512000 + r, the second half
  left undetermined where no such row exists. A SparseCore kernel on 2 × 16 tiles gathers, for each token, row
  idx - 512000·[idx ≥ 512000] of the paired table. A second TensorCore pass picks the half that holds the token's
  word row by a 0/1 blend lo + h·(hi - lo), the segment row by two such blends of the three-row table, adds the
  position row, and normalises: (e - mean) · rsqrt(var + ε) · γ + β.

  The reference gathers the three rows directly and divides by sqrt(var + ε). On the extended reals, under the
  precondition (finite tables, word indices in [0, 999999], segment ids in [0, 2]), the two agree: a blend with
  h = 0 is lo whatever hi is (0 · x = 0 for every extended real x), so the undetermined half-rows never reach the
  result; a blend with h = 1 of finite lo, hi is hi; and x · rsqrt v = x / sqrt v for finite x and v > 0.

  The three frames: the reference's run is read back operation by operation; the kernel's, at either float
  instance, is the SparseCore launch theorem applied to one tile's body (32 tiles, each gathering its 16384 rows
  in 128 blocks through four slots, one completion semaphore per slot and direction), the two TensorCore regions
  and the host operations between them. The idealization rewrote nothing, so `preserves` is trivial.
-/
import proofs.«205025_g42520176230720_cont_8to1_b_1509_29_alg».proof.Defs
import proofs.«205025_g42520176230720_cont_8to1_b_1509_29_alg».proof.Proof.Gen.Kernel
import proofs.«205025_g42520176230720_cont_8to1_b_1509_29_alg».proof.Proof.Gen.KernelIdeal
import proofs.«205025_g42520176230720_cont_8to1_b_1509_29_alg».proof.Proof.Gen.ReferenceIdeal
import proofs.«205025_g42520176230720_cont_8to1_b_1509_29_alg».proof.Proof.Gen.Pre_input_domain
import proofs.«205025_g42520176230720_cont_8to1_b_1509_29_alg».proof.Proof.KClaims
import proofs.«205025_g42520176230720_cont_8to1_b_1509_29_alg».proof.Proof.BKClaims
import proofs.«205025_g42520176230720_cont_8to1_b_1509_29_alg».proof.Proof.RefFrame
import proofs.«205025_g42520176230720_cont_8to1_b_1509_29_alg».proof.Proof.RegPair
import proofs.«205025_g42520176230720_cont_8to1_b_1509_29_alg».proof.Proof.RegFinish
import proofs.«205025_g42520176230720_cont_8to1_b_1509_29_alg».proof.Proof.BRegPair
import proofs.«205025_g42520176230720_cont_8to1_b_1509_29_alg».proof.Proof.BRegFinish
import proofs.«205025_g42520176230720_cont_8to1_b_1509_29_alg».proof.Proof.ValSrc
import proofs.«205025_g42520176230720_cont_8to1_b_1509_29_alg».proof.Proof.BValSrc
import proofs.«205025_g42520176230720_cont_8to1_b_1509_29_alg».proof.Proof.ValMain
import proofs.«205025_g42520176230720_cont_8to1_b_1509_29_alg».proof.Proof.TileBody
import proofs.«205025_g42520176230720_cont_8to1_b_1509_29_alg».proof.Proof.BTileBody

noncomputable section

namespace Cert.Proof

open Idealize.ShloMosaic Idealize.SL.Sem

/-- The idealized kernel's pieces at the ideal instance. -/
theorem piecesI : Cert.KernelIdeal.Claims.Pieces Ideal where
  tile := fun d L hF q0 q2 s f2 hin O W hO => Cert.KernelIdeal.Tile.tile_body d L hF q0 q2 s f2 hin O W hO
  reg0 := fun d n lv hlv t f2 => Cert.KernelIdeal.Reg.region0 d n lv hlv t f2
  reg2 := fun d n lv hlv x a0 a1 a3 a4 a5 a6 f5 => Cert.KernelIdeal.Reg.region2 d n lv hlv x a0 a1 a3 a4 a5 a6 f5
  src := fun m h => Cert.KernelIdeal.Val.srcOK_of_pre m h

/-- The printed kernel's pieces at the word-level instance. -/
theorem piecesB : Cert.Kernel.Claims.Pieces Bits where
  tile := fun d L hF q0 q2 s f2 hin O W hO => Cert.Kernel.Tile.tile_body d L hF q0 q2 s f2 hin O W hO
  reg0 := fun d n lv hlv t f2 => Cert.Kernel.Reg.region0 d n lv hlv t f2
  reg2 := fun d n lv hlv x a0 a1 a3 a4 a5 a6 f5 => Cert.Kernel.Reg.region2 d n lv hlv x a0 a1 a3 a4 a5 a6 f5
  src := fun m h => Cert.Kernel.Val.srcOK_of_pre m h

theorem claim : Cert.Claim :=
  ⟨Cert.Kernel.Gen.facts, Cert.KernelIdeal.Gen.facts, Cert.ReferenceIdeal.Gen.facts, Cert.Pre_input_domain.Gen.facts,
    Cert.Kernel.Claims.frame piecesB, Cert.KernelIdeal.Claims.frame piecesI, Cert.RefFrame.frame, trivial,
    Cert.KernelIdeal.Claims.algebraic piecesI
      (fun m d hpre g hg => Cert.KernelIdeal.Val.finish_eq_spec m d hpre g hg)⟩

end Cert.Proof

end
